-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1026)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1026) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x3 : Shape := ⟨3, ![4096, 128, 3]⟩
abbrev S2x3 : Shape := ⟨2, ![2, 3]⟩
abbrev S32x128x128 : Shape := ⟨3, ![32, 128, 128]⟩
abbrev S32x256x256 : Shape := ⟨3, ![32, 256, 256]⟩
abbrev S32x512x512 : Shape := ⟨3, ![32, 512, 512]⟩
abbrev S_ : Shape := ⟨0, ![]⟩

class Facts : Prop where
  bcast_S_S4096x128x3 : S_.BroadcastsInDim S4096x128x3 (![] : Fin 0 → Fin S4096x128x3.rank)
  reducesTo_S4096x128x3_S_d0_1_2 : S4096x128x3.ReducesTo [0, 1, 2] S_
  h_S_ : 0 < S_.numel
  bcast_S_S2x3 : S_.BroadcastsInDim S2x3 (![] : Fin 0 → Fin S2x3.rank)
  reducesTo_S2x3_S_d0_1 : S2x3.ReducesTo [0, 1] S_
  bcast_S_S32x128x128 : S_.BroadcastsInDim S32x128x128 (![] : Fin 0 → Fin S32x128x128.rank)
  reducesTo_S32x128x128_S_d0_1_2 : S32x128x128.ReducesTo [0, 1, 2] S_
  bcast_S_S32x256x256 : S_.BroadcastsInDim S32x256x256 (![] : Fin 0 → Fin S32x256x256.rank)
  reducesTo_S32x256x256_S_d0_1_2 : S32x256x256.ReducesTo [0, 1, 2] S_
  bcast_S_S32x512x512 : S_.BroadcastsInDim S32x512x512 (![] : Fin 0 → Fin S32x512x512.rank)
  reducesTo_S32x512x512_S_d0_1_2 : S32x512x512.ReducesTo [0, 1, 2] S_

variable [Facts]

def fn_part3 {F : FTy → Type} [FloatOps F] (main_v48 : IVec S_ 1) (main_v49 : FVec F S32x512x512 .f32) (main_v50 : FVec F S32x512x512 .f32) : IVec S_ 1 :=
  let main_v51 : IVec S32x512x512 1 := cmpf .olt main_v49 main_v50
  let main_c_19 : IVec S_ 1 := constantI S_ 1 1#1
  let main_v52 : IVec S_ 1 := (fun x v => Host.reduce IntOp.andi x v reducesTo_S32x512x512_S_d0_1_2 h_S_) main_v51 main_c_19
  let main_v53 : IVec S_ 1 := andi main_v48 main_v52
  main_v53

def fn_part2 {F : FTy → Type} [FloatOps F] (main_arg7 : FVec F S32x256x256 .f32) (main_arg8 : FVec F S32x512x512 .f32) (main_arg9 : FVec F S32x512x512 .f32) (main_arg10 : FVec F S32x512x512 .f32) (main_v33 : IVec S_ 1) : IVec S_ 1 :=
  let main_v34 : FVec F S32x256x256 .f32 := Host.absf main_arg7
  let main_cst_12 : FVec F S_ .f32 := constant S_ .f32 0x7F800000#32
  let main_v35 : FVec F S32x256x256 .f32 := broadcastInDim S32x256x256 ![] bcast_S_S32x256x256 main_cst_12
  let main_v36 : IVec S32x256x256 1 := cmpf .olt main_v34 main_v35
  let main_c_13 : IVec S_ 1 := constantI S_ 1 1#1
  let main_v37 : IVec S_ 1 := (fun x v => Host.reduce IntOp.andi x v reducesTo_S32x256x256_S_d0_1_2 h_S_) main_v36 main_c_13
  let main_v38 : IVec S_ 1 := andi main_v33 main_v37
  let main_v39 : FVec F S32x512x512 .f32 := Host.absf main_arg8
  let main_cst_14 : FVec F S_ .f32 := constant S_ .f32 0x7F800000#32
  let main_v40 : FVec F S32x512x512 .f32 := broadcastInDim S32x512x512 ![] bcast_S_S32x512x512 main_cst_14
  let main_v41 : IVec S32x512x512 1 := cmpf .olt main_v39 main_v40
  let main_c_15 : IVec S_ 1 := constantI S_ 1 1#1
  let main_v42 : IVec S_ 1 := (fun x v => Host.reduce IntOp.andi x v reducesTo_S32x512x512_S_d0_1_2 h_S_) main_v41 main_c_15
  let main_v43 : IVec S_ 1 := andi main_v38 main_v42
  let main_v44 : FVec F S32x512x512 .f32 := Host.absf main_arg9
  let main_cst_16 : FVec F S_ .f32 := constant S_ .f32 0x7F800000#32
  let main_v45 : FVec F S32x512x512 .f32 := broadcastInDim S32x512x512 ![] bcast_S_S32x512x512 main_cst_16
  let main_v46 : IVec S32x512x512 1 := cmpf .olt main_v44 main_v45
  let main_c_17 : IVec S_ 1 := constantI S_ 1 1#1
  let main_v47 : IVec S_ 1 := (fun x v => Host.reduce IntOp.andi x v reducesTo_S32x512x512_S_d0_1_2 h_S_) main_v46 main_c_17
  let main_v48 : IVec S_ 1 := andi main_v43 main_v47
  let main_v49 : FVec F S32x512x512 .f32 := Host.absf main_arg10
  let main_cst_18 : FVec F S_ .f32 := constant S_ .f32 0x7F800000#32
  let main_v50 : FVec F S32x512x512 .f32 := broadcastInDim S32x512x512 ![] bcast_S_S32x512x512 main_cst_18
  fn_part3 (F := F) main_v48 main_v49 main_v50

def fn_part1 {F : FTy → Type} [FloatOps F] (main_arg4 : FVec F S32x128x128 .f32) (main_arg5 : FVec F S32x256x256 .f32) (main_arg6 : FVec F S32x256x256 .f32) (main_arg7 : FVec F S32x256x256 .f32) (main_arg8 : FVec F S32x512x512 .f32) (main_arg9 : FVec F S32x512x512 .f32) (main_arg10 : FVec F S32x512x512 .f32) (main_v13 : IVec S_ 1) (main_v16 : IVec S32x128x128 1) : IVec S_ 1 :=
  let main_c_5 : IVec S_ 1 := constantI S_ 1 1#1
  let main_v17 : IVec S_ 1 := (fun x v => Host.reduce IntOp.andi x v reducesTo_S32x128x128_S_d0_1_2 h_S_) main_v16 main_c_5
  let main_v18 : IVec S_ 1 := andi main_v13 main_v17
  let main_v19 : FVec F S32x128x128 .f32 := Host.absf main_arg4
  let main_cst_6 : FVec F S_ .f32 := constant S_ .f32 0x7F800000#32
  let main_v20 : FVec F S32x128x128 .f32 := broadcastInDim S32x128x128 ![] bcast_S_S32x128x128 main_cst_6
  let main_v21 : IVec S32x128x128 1 := cmpf .olt main_v19 main_v20
  let main_c_7 : IVec S_ 1 := constantI S_ 1 1#1
  let main_v22 : IVec S_ 1 := (fun x v => Host.reduce IntOp.andi x v reducesTo_S32x128x128_S_d0_1_2 h_S_) main_v21 main_c_7
  let main_v23 : IVec S_ 1 := andi main_v18 main_v22
  let main_v24 : FVec F S32x256x256 .f32 := Host.absf main_arg5
  let main_cst_8 : FVec F S_ .f32 := constant S_ .f32 0x7F800000#32
  let main_v25 : FVec F S32x256x256 .f32 := broadcastInDim S32x256x256 ![] bcast_S_S32x256x256 main_cst_8
  let main_v26 : IVec S32x256x256 1 := cmpf .olt main_v24 main_v25
  let main_c_9 : IVec S_ 1 := constantI S_ 1 1#1
  let main_v27 : IVec S_ 1 := (fun x v => Host.reduce IntOp.andi x v reducesTo_S32x256x256_S_d0_1_2 h_S_) main_v26 main_c_9
  let main_v28 : IVec S_ 1 := andi main_v23 main_v27
  let main_v29 : FVec F S32x256x256 .f32 := Host.absf main_arg6
  let main_cst_10 : FVec F S_ .f32 := constant S_ .f32 0x7F800000#32
  let main_v30 : FVec F S32x256x256 .f32 := broadcastInDim S32x256x256 ![] bcast_S_S32x256x256 main_cst_10
  let main_v31 : IVec S32x256x256 1 := cmpf .olt main_v29 main_v30
  let main_c_11 : IVec S_ 1 := constantI S_ 1 1#1
  let main_v32 : IVec S_ 1 := (fun x v => Host.reduce IntOp.andi x v reducesTo_S32x256x256_S_d0_1_2 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x128x3 .f32) (main_arg1 : FVec F S2x3 .f32) (main_arg2 : FVec F S32x128x128 .f32) (main_arg3 : FVec F S32x128x128 .f32) (main_arg4 : FVec F S32x128x128 .f32) (main_arg5 : FVec F S32x256x256 .f32) (main_arg6 : FVec F S32x256x256 .f32) (main_arg7 : FVec F S32x256x256 .f32) (main_arg8 : FVec F S32x512x512 .f32) (main_arg9 : FVec F S32x512x512 .f32) (main_arg10 : FVec F S32x512x512 .f32) : IVec S_ 1 :=
  let main_v0 : FVec F S4096x128x3 .f32 := Host.absf main_arg0
  let main_cst : FVec F S_ .f32 := constant S_ .f32 0x7F800000#32
  let main_v1 : FVec F S4096x128x3 .f32 := broadcastInDim S4096x128x3 ![] bcast_S_S4096x128x3 main_cst
  let main_v2 : IVec S4096x128x3 1 := cmpf .olt main_v0 main_v1
  let main_c : IVec S_ 1 := constantI S_ 1 1#1
  let main_v3 : IVec S_ 1 := (fun x v => Host.reduce IntOp.andi x v reducesTo_S4096x128x3_S_d0_1_2 h_S_) main_v2 main_c
  let main_v4 : FVec F S2x3 .f32 := Host.absf main_arg1
  let main_cst_0 : FVec F S_ .f32 := constant S_ .f32 0x7F800000#32
  let main_v5 : FVec F S2x3 .f32 := broadcastInDim S2x3 ![] bcast_S_S2x3 main_cst_0
  let main_v6 : IVec S2x3 1 := cmpf .olt main_v4 main_v5
  let main_c_1 : IVec S_ 1 := constantI S_ 1 1#1
  let main_v7 : IVec S_ 1 := (fun x v => Host.reduce IntOp.andi x v reducesTo_S2x3_S_d0_1 h_S_) main_v6 main_c_1
  let main_v8 : IVec S_ 1 := andi main_v3 main_v7
  let main_v9 : FVec F S32x128x128 .f32 := Host.absf main_arg2
  let main_cst_2 : FVec F S_ .f32 := constant S_ .f32 0x7F800000#32
  let main_v10 : FVec F S32x128x128 .f32 := broadcastInDim S32x128x128 ![] bcast_S_S32x128x128 main_cst_2
  let main_v11 : IVec S32x128x128 1 := cmpf .olt main_v9 main_v10
  let main_c_3 : IVec S_ 1 := constantI S_ 1 1#1
  let main_v12 : IVec S_ 1 := (fun x v => Host.reduce IntOp.andi x v reducesTo_S32x128x128_S_d0_1_2 h_S_) main_v11 main_c_3
  let main_v13 : IVec S_ 1 := andi main_v8 main_v12
  let main_v14 : FVec F S32x128x128 .f32 := Host.absf main_arg3
  let main_cst_4 : FVec F S_ .f32 := constant S_ .f32 0x7F800000#32
  let main_v15 : FVec F S32x128x128 .f32 := broadcastInDim S32x128x128 ![] bcast_S_S32x128x128 main_cst_4
  let main_v16 : IVec S32x128x128 1 := cmpf .olt main_v14 main_v15
  fn_part1 (F := F) main_arg4 main_arg5 main_arg6 main_arg7 main_arg8 main_arg9 main_arg10 main_v13 main_v16
-- ==== Kernel.lean ====
abbrev S4096x128x3 : Shape := ⟨3, ![4096, 128, 3]⟩
abbrev S2x3 : Shape := ⟨2, ![2, 3]⟩
abbrev S32x128x128 : Shape := ⟨3, ![32, 128, 128]⟩
abbrev S32x256x256 : Shape := ⟨3, ![32, 256, 256]⟩
abbrev S32x512x512 : Shape := ⟨3, ![32, 512, 512]⟩
abbrev S1x3 : Shape := ⟨2, ![1, 3]⟩
abbrev S3 : Shape := ⟨1, ![3]⟩
abbrev S1x1x3 : Shape := ⟨3, ![1, 1, 3]⟩
abbrev S_ : Shape := ⟨0, ![]⟩
abbrev S524288x3 : Shape := ⟨2, ![524288, 3]⟩
abbrev S524288x1 : Shape := ⟨2, ![524288, 1]⟩
abbrev S524288 : Shape := ⟨1, ![524288]⟩
abbrev S128x128x32 : Shape := ⟨3, ![128, 128, 32]⟩
abbrev S524288x2 : Shape := ⟨2, ![524288, 2]⟩
abbrev S524288x32 : Shape := ⟨2, ![524288, 32]⟩
abbrev S256x256x32 : Shape := ⟨3, ![256, 256, 32]⟩
abbrev S512x512x32 : Shape := ⟨3, ![512, 512, 32]⟩
abbrev S524288x288 : Shape := ⟨2, ![524288, 288]⟩
abbrev S2048x32 : Shape := ⟨2, ![2048, 32]⟩
abbrev S2048x288 : Shape := ⟨2, ![2048, 288]⟩

abbrev nBuf : Space → Nat
  | .hbm => 1427
  | .vmem => 20
  | .smem => 0
  | _ => 0

abbrev hbmTy0_0 (i : Nat) : BufTy := match i % 128 with
  | 0 => ⟨S4096x128x3, .f32⟩
  | 1 => ⟨S2x3, .f32⟩
  | 2 => ⟨S32x128x128, .f32⟩
  | 3 => ⟨S32x128x128, .f32⟩
  | 4 => ⟨S32x128x128, .f32⟩
  | 5 => ⟨S32x256x256, .f32⟩
  | 6 => ⟨S32x256x256, .f32⟩
  | 7 => ⟨S32x256x256, .f32⟩
  | 8 => ⟨S32x512x512, .f32⟩
  | 9 => ⟨S32x512x512, .f32⟩
  | 10 => ⟨S32x512x512, .f32⟩
  | 11 => ⟨S1x3, .f32⟩
  | 12 => ⟨S3, .f32⟩
  | 13 => ⟨S1x1x3, .f32⟩
  | 14 => ⟨S4096x128x3, .f32⟩
  | 15 => ⟨S4096x128x3, .f32⟩
  | 16 => ⟨S1x3, .f32⟩
  | 17 => ⟨S3, .f32⟩
  | 18 => ⟨S1x3, .f32⟩
  | 19 => ⟨S3, .f32⟩
  | 20 => ⟨S3, .f32⟩
  | 21 => ⟨S_, .f32⟩
  | 22 => ⟨S3, .f32⟩
  | 23 => ⟨S3, .f32⟩
  | 24 => ⟨S1x1x3, .f32⟩
  | 25 => ⟨S4096x128x3, .f32⟩
  | 26 => ⟨S4096x128x3, .f32⟩
  | 27 => ⟨S_, .f32⟩
  | 28 => ⟨S4096x128x3, .f32⟩
  | 29 => ⟨S4096x128x3, .f32⟩
  | 30 => ⟨S524288x3, .f32⟩
  | 31 => ⟨S524288x1, .f32⟩
  | 32 => ⟨S524288, .f32⟩
  | 33 => ⟨S524288x1, .f32⟩
  | 34 => ⟨S524288, .f32⟩
  | 35 => ⟨S_, .f32⟩
  | 36 => ⟨S524288, .f32⟩
  | 37 => ⟨S524288, .f32⟩
  | 38 => ⟨S_, .f32⟩
  | 39 => ⟨S524288, .f32⟩
  | 40 => ⟨S524288, .f32⟩
  | 41 => ⟨S_, .f32⟩
  | 42 => ⟨S524288, .f32⟩
  | 43 => ⟨S524288, .f32⟩
  | 44 => ⟨S_, .f32⟩
  | 45 => ⟨S_, .i32⟩
  | 46 => ⟨S_, .f32⟩
  | 47 => ⟨S524288, .f32⟩
  | 48 => ⟨S524288, .f32⟩
  | 49 => ⟨S_, .f32⟩
  | 50 => ⟨S524288, .f32⟩
  | 51 => ⟨S524288, .f32⟩
  | 52 => ⟨S_, .f32⟩
  | 53 => ⟨S524288, .f32⟩
  | 54 => ⟨S524288, .f32⟩
  | 55 => ⟨S_, .f32⟩
  | 56 => ⟨S524288, .f32⟩
  | 57 => ⟨S524288, .f32⟩
  | 58 => ⟨S_, .f32⟩
  | 59 => ⟨S524288, .f32⟩
  | 60 => ⟨S524288, .f32⟩
  | 61 => ⟨S_, .f32⟩
  | 62 => ⟨S_, .i32⟩
  | 63 => ⟨S_, .f32⟩
  | 64 => ⟨S524288, .f32⟩
  | 65 => ⟨S524288, .f32⟩
  | 66 => ⟨S_, .f32⟩
  | 67 => ⟨S524288, .f32⟩
  | 68 => ⟨S524288, .f32⟩
  | 69 => ⟨S128x128x32, .f32⟩
  | 70 => ⟨S524288, .f32⟩
  | 71 => ⟨S524288, .f32⟩
  | 72 => ⟨S524288, .f32⟩
  | 73 => ⟨S524288x1, .f32⟩
  | 74 => ⟨S524288, .f32⟩
  | 75 => ⟨S524288x1, .f32⟩
  | 76 => ⟨S524288, .i32⟩
  | 77 => ⟨S524288, .i32⟩
  | 78 => ⟨S_, .i32⟩
  | 79 => ⟨S524288, .i32⟩
  | 80 => ⟨S524288, .i32⟩
  | 81 => ⟨S_, .i32⟩
  | 82 => ⟨S524288, .i32⟩
  | 83 => ⟨S524288, .i32⟩
  | 84 => ⟨S_, .i32⟩
  | 85 => ⟨S524288, .i32⟩
  | 86 => ⟨S524288, .i32⟩
  | 87 => ⟨S_, .i32⟩
  | 88 => ⟨S524288, .i32⟩
  | 89 => ⟨S524288, .i32⟩
  | 90 => ⟨S_, .i32⟩
  | 91 => ⟨S524288, .i32⟩
  | 92 => ⟨S524288, .i1⟩
  | 93 => ⟨S_, .i32⟩
  | 94 => ⟨S524288, .i32⟩
  | 95 => ⟨S524288, .i32⟩
  | 96 => ⟨S524288, .i32⟩
  | 97 => ⟨S_, .i32⟩
  | 98 => ⟨S524288, .i32⟩
  | 99 => ⟨S524288, .i1⟩
  | 100 => ⟨S_, .i32⟩
  | 101 => ⟨S524288, .i32⟩
  | 102 => ⟨S524288, .i32⟩
  | 103 => ⟨S524288, .i32⟩
  | 104 => ⟨S524288x1, .i32⟩
  | 105 => ⟨S524288x1, .i32⟩
  | 106 => ⟨S524288x2, .i32⟩
  | 107 => ⟨S524288x32, .f32⟩
  | 108 => ⟨S_, .i32⟩
  | 109 => ⟨S524288, .i32⟩
  | 110 => ⟨S524288, .i1⟩
  | 111 => ⟨S_, .i32⟩
  | 112 => ⟨S524288, .i32⟩
  | 113 => ⟨S524288, .i32⟩
  | 114 => ⟨S524288, .i32⟩
  | 115 => ⟨S_, .i32⟩
  | 116 => ⟨S524288, .i32⟩
  | 117 => ⟨S524288, .i1⟩
  | 118 => ⟨S_, .i32⟩
  | 119 => ⟨S524288, .i32⟩
  | 120 => ⟨S524288, .i32⟩
  | 121 => ⟨S524288, .i32⟩
  | 122 => ⟨S524288x1, .i32⟩
  | 123 => ⟨S524288x1, .i32⟩
  | 124 => ⟨S524288x2, .i32⟩
  | 125 => ⟨S524288x32, .f32⟩
  | 126 => ⟨S_, .i32⟩
  | 127 => ⟨S524288, .i32⟩
  | _ => ⟨S4096x128x3, .f32⟩

abbrev hbmTy0_1 (i : Nat) : BufTy := match i % 128 with
  | 0 => ⟨S524288, .i1⟩
  | 1 => ⟨S_, .i32⟩
  | 2 => ⟨S524288, .i32⟩
  | 3 => ⟨S524288, .i32⟩
  | 4 => ⟨S524288, .i32⟩
  | 5 => ⟨S_, .i32⟩
  | 6 => ⟨S524288, .i32⟩
  | 7 => ⟨S524288, .i1⟩
  | 8 => ⟨S_, .i32⟩
  | 9 => ⟨S524288, .i32⟩
  | 10 => ⟨S524288, .i32⟩
  | 11 => ⟨S524288, .i32⟩
  | 12 => ⟨S524288x1, .i32⟩
  | 13 => ⟨S524288x1, .i32⟩
  | 14 => ⟨S524288x2, .i32⟩
  | 15 => ⟨S524288x32, .f32⟩
  | 16 => ⟨S_, .i32⟩
  | 17 => ⟨S524288, .i32⟩
  | 18 => ⟨S524288, .i1⟩
  | 19 => ⟨S_, .i32⟩
  | 20 => ⟨S524288, .i32⟩
  | 21 => ⟨S524288, .i32⟩
  | 22 => ⟨S524288, .i32⟩
  | 23 => ⟨S_, .i32⟩
  | 24 => ⟨S524288, .i32⟩
  | 25 => ⟨S524288, .i1⟩
  | 26 => ⟨S_, .i32⟩
  | 27 => ⟨S524288, .i32⟩
  | 28 => ⟨S524288, .i32⟩
  | 29 => ⟨S524288, .i32⟩
  | 30 => ⟨S524288x1, .i32⟩
  | 31 => ⟨S524288x1, .i32⟩
  | 32 => ⟨S524288x2, .i32⟩
  | 33 => ⟨S524288x32, .f32⟩
  | 34 => ⟨S_, .f32⟩
  | 35 => ⟨S524288x1, .f32⟩
  | 36 => ⟨S524288x1, .f32⟩
  | 37 => ⟨S524288x32, .f32⟩
  | 38 => ⟨S524288x32, .f32⟩
  | 39 => ⟨S524288x32, .f32⟩
  | 40 => ⟨S524288x32, .f32⟩
  | 41 => ⟨S524288x32, .f32⟩
  | 42 => ⟨S_, .f32⟩
  | 43 => ⟨S524288x1, .f32⟩
  | 44 => ⟨S524288x1, .f32⟩
  | 45 => ⟨S524288x32, .f32⟩
  | 46 => ⟨S524288x32, .f32⟩
  | 47 => ⟨S524288x32, .f32⟩
  | 48 => ⟨S524288x32, .f32⟩
  | 49 => ⟨S524288x32, .f32⟩
  | 50 => ⟨S_, .f32⟩
  | 51 => ⟨S524288x1, .f32⟩
  | 52 => ⟨S524288x1, .f32⟩
  | 53 => ⟨S524288x32, .f32⟩
  | 54 => ⟨S524288x32, .f32⟩
  | 55 => ⟨S524288x32, .f32⟩
  | 56 => ⟨S524288x32, .f32⟩
  | 57 => ⟨S524288x32, .f32⟩
  | 58 => ⟨S524288x1, .f32⟩
  | 59 => ⟨S524288, .f32⟩
  | 60 => ⟨S524288x1, .f32⟩
  | 61 => ⟨S524288, .f32⟩
  | 62 => ⟨S_, .f32⟩
  | 63 => ⟨S524288, .f32⟩
  | 64 => ⟨S524288, .f32⟩
  | 65 => ⟨S_, .f32⟩
  | 66 => ⟨S524288, .f32⟩
  | 67 => ⟨S524288, .f32⟩
  | 68 => ⟨S_, .f32⟩
  | 69 => ⟨S524288, .f32⟩
  | 70 => ⟨S524288, .f32⟩
  | 71 => ⟨S_, .f32⟩
  | 72 => ⟨S_, .i32⟩
  | 73 => ⟨S_, .f32⟩
  | 74 => ⟨S524288, .f32⟩
  | 75 => ⟨S524288, .f32⟩
  | 76 => ⟨S_, .f32⟩
  | 77 => ⟨S524288, .f32⟩
  | 78 => ⟨S524288, .f32⟩
  | 79 => ⟨S_, .f32⟩
  | 80 => ⟨S524288, .f32⟩
  | 81 => ⟨S524288, .f32⟩
  | 82 => ⟨S_, .f32⟩
  | 83 => ⟨S524288, .f32⟩
  | 84 => ⟨S524288, .f32⟩
  | 85 => ⟨S_, .f32⟩
  | 86 => ⟨S524288, .f32⟩
  | 87 => ⟨S524288, .f32⟩
  | 88 => ⟨S_, .f32⟩
  | 89 => ⟨S_, .i32⟩
  | 90 => ⟨S_, .f32⟩
  | 91 => ⟨S524288, .f32⟩
  | 92 => ⟨S524288, .f32⟩
  | 93 => ⟨S_, .f32⟩
  | 94 => ⟨S524288, .f32⟩
  | 95 => ⟨S524288, .f32⟩
  | 96 => ⟨S128x128x32, .f32⟩
  | 97 => ⟨S524288, .f32⟩
  | 98 => ⟨S524288, .f32⟩
  | 99 => ⟨S524288, .f32⟩
  | 100 => ⟨S524288x1, .f32⟩
  | 101 => ⟨S524288, .f32⟩
  | 102 => ⟨S524288x1, .f32⟩
  | 103 => ⟨S524288, .i32⟩
  | 104 => ⟨S524288, .i32⟩
  | 105 => ⟨S_, .i32⟩
  | 106 => ⟨S524288, .i32⟩
  | 107 => ⟨S524288, .i32⟩
  | 108 => ⟨S_, .i32⟩
  | 109 => ⟨S524288, .i32⟩
  | 110 => ⟨S524288, .i32⟩
  | 111 => ⟨S_, .i32⟩
  | 112 => ⟨S524288, .i32⟩
  | 113 => ⟨S524288, .i32⟩
  | 114 => ⟨S_, .i32⟩
  | 115 => ⟨S524288, .i32⟩
  | 116 => ⟨S524288, .i32⟩
  | 117 => ⟨S_, .i32⟩
  | 118 => ⟨S524288, .i32⟩
  | 119 => ⟨S524288, .i1⟩
  | 120 => ⟨S_, .i32⟩
  | 121 => ⟨S524288, .i32⟩
  | 122 => ⟨S524288, .i32⟩
  | 123 => ⟨S524288, .i32⟩
  | 124 => ⟨S_, .i32⟩
  | 125 => ⟨S524288, .i32⟩
  | 126 => ⟨S524288, .i1⟩
  | 127 => ⟨S_, .i32⟩
  | _ => ⟨S4096x128x3, .f32⟩

abbrev hbmTy0_2 (i : Nat) : BufTy := match i % 128 with
  | 0 => ⟨S524288, .i32⟩
  | 1 => ⟨S524288, .i32⟩
  | 2 => ⟨S524288, .i32⟩
  | 3 => ⟨S524288x1, .i32⟩
  | 4 => ⟨S524288x1, .i32⟩
  | 5 => ⟨S524288x2, .i32⟩
  | 6 => ⟨S524288x32, .f32⟩
  | 7 => ⟨S_, .i32⟩
  | 8 => ⟨S524288, .i32⟩
  | 9 => ⟨S524288, .i1⟩
  | 10 => ⟨S_, .i32⟩
  | 11 => ⟨S524288, .i32⟩
  | 12 => ⟨S524288, .i32⟩
  | 13 => ⟨S524288, .i32⟩
  | 14 => ⟨S_, .i32⟩
  | 15 => ⟨S524288, .i32⟩
  | 16 => ⟨S524288, .i1⟩
  | 17 => ⟨S_, .i32⟩
  | 18 => ⟨S524288, .i32⟩
  | 19 => ⟨S524288, .i32⟩
  | 20 => ⟨S524288, .i32⟩
  | 21 => ⟨S524288x1, .i32⟩
  | 22 => ⟨S524288x1, .i32⟩
  | 23 => ⟨S524288x2, .i32⟩
  | 24 => ⟨S524288x32, .f32⟩
  | 25 => ⟨S_, .i32⟩
  | 26 => ⟨S524288, .i32⟩
  | 27 => ⟨S524288, .i1⟩
  | 28 => ⟨S_, .i32⟩
  | 29 => ⟨S524288, .i32⟩
  | 30 => ⟨S524288, .i32⟩
  | 31 => ⟨S524288, .i32⟩
  | 32 => ⟨S_, .i32⟩
  | 33 => ⟨S524288, .i32⟩
  | 34 => ⟨S524288, .i1⟩
  | 35 => ⟨S_, .i32⟩
  | 36 => ⟨S524288, .i32⟩
  | 37 => ⟨S524288, .i32⟩
  | 38 => ⟨S524288, .i32⟩
  | 39 => ⟨S524288x1, .i32⟩
  | 40 => ⟨S524288x1, .i32⟩
  | 41 => ⟨S524288x2, .i32⟩
  | 42 => ⟨S524288x32, .f32⟩
  | 43 => ⟨S_, .i32⟩
  | 44 => ⟨S524288, .i32⟩
  | 45 => ⟨S524288, .i1⟩
  | 46 => ⟨S_, .i32⟩
  | 47 => ⟨S524288, .i32⟩
  | 48 => ⟨S524288, .i32⟩
  | 49 => ⟨S524288, .i32⟩
  | 50 => ⟨S_, .i32⟩
  | 51 => ⟨S524288, .i32⟩
  | 52 => ⟨S524288, .i1⟩
  | 53 => ⟨S_, .i32⟩
  | 54 => ⟨S524288, .i32⟩
  | 55 => ⟨S524288, .i32⟩
  | 56 => ⟨S524288, .i32⟩
  | 57 => ⟨S524288x1, .i32⟩
  | 58 => ⟨S524288x1, .i32⟩
  | 59 => ⟨S524288x2, .i32⟩
  | 60 => ⟨S524288x32, .f32⟩
  | 61 => ⟨S_, .f32⟩
  | 62 => ⟨S524288x1, .f32⟩
  | 63 => ⟨S524288x1, .f32⟩
  | 64 => ⟨S524288x32, .f32⟩
  | 65 => ⟨S524288x32, .f32⟩
  | 66 => ⟨S524288x32, .f32⟩
  | 67 => ⟨S524288x32, .f32⟩
  | 68 => ⟨S524288x32, .f32⟩
  | 69 => ⟨S_, .f32⟩
  | 70 => ⟨S524288x1, .f32⟩
  | 71 => ⟨S524288x1, .f32⟩
  | 72 => ⟨S524288x32, .f32⟩
  | 73 => ⟨S524288x32, .f32⟩
  | 74 => ⟨S524288x32, .f32⟩
  | 75 => ⟨S524288x32, .f32⟩
  | 76 => ⟨S524288x32, .f32⟩
  | 77 => ⟨S_, .f32⟩
  | 78 => ⟨S524288x1, .f32⟩
  | 79 => ⟨S524288x1, .f32⟩
  | 80 => ⟨S524288x32, .f32⟩
  | 81 => ⟨S524288x32, .f32⟩
  | 82 => ⟨S524288x32, .f32⟩
  | 83 => ⟨S524288x32, .f32⟩
  | 84 => ⟨S524288x32, .f32⟩
  | 85 => ⟨S524288x1, .f32⟩
  | 86 => ⟨S524288, .f32⟩
  | 87 => ⟨S524288x1, .f32⟩
  | 88 => ⟨S524288, .f32⟩
  | 89 => ⟨S_, .f32⟩
  | 90 => ⟨S524288, .f32⟩
  | 91 => ⟨S524288, .f32⟩
  | 92 => ⟨S_, .f32⟩
  | 93 => ⟨S524288, .f32⟩
  | 94 => ⟨S524288, .f32⟩
  | 95 => ⟨S_, .f32⟩
  | 96 => ⟨S524288, .f32⟩
  | 97 => ⟨S524288, .f32⟩
  | 98 => ⟨S_, .f32⟩
  | 99 => ⟨S_, .i32⟩
  | 100 => ⟨S_, .f32⟩
  | 101 => ⟨S524288, .f32⟩
  | 102 => ⟨S524288, .f32⟩
  | 103 => ⟨S_, .f32⟩
  | 104 => ⟨S524288, .f32⟩
  | 105 => ⟨S524288, .f32⟩
  | 106 => ⟨S_, .f32⟩
  | 107 => ⟨S524288, .f32⟩
  | 108 => ⟨S524288, .f32⟩
  | 109 => ⟨S_, .f32⟩
  | 110 => ⟨S524288, .f32⟩
  | 111 => ⟨S524288, .f32⟩
  | 112 => ⟨S_, .f32⟩
  | 113 => ⟨S524288, .f32⟩
  | 114 => ⟨S524288, .f32⟩
  | 115 => ⟨S_, .f32⟩
  | 116 => ⟨S_, .i32⟩
  | 117 => ⟨S_, .f32⟩
  | 118 => ⟨S524288, .f32⟩
  | 119 => ⟨S524288, .f32⟩
  | 120 => ⟨S_, .f32⟩
  | 121 => ⟨S524288, .f32⟩
  | 122 => ⟨S524288, .f32⟩
  | 123 => ⟨S128x128x32, .f32⟩
  | 124 => ⟨S524288, .f32⟩
  | 125 => ⟨S524288, .f32⟩
  | 126 => ⟨S524288, .f32⟩
  | 127 => ⟨S524288x1, .f32⟩
  | _ => ⟨S4096x128x3, .f32⟩

abbrev hbmTy0_3 (i : Nat) : BufTy := match i % 128 with
  | 0 => ⟨S524288, .f32⟩
  | 1 => ⟨S524288x1, .f32⟩
  | 2 => ⟨S524288, .i32⟩
  | 3 => ⟨S524288, .i32⟩
  | 4 => ⟨S_, .i32⟩
  | 5 => ⟨S524288, .i32⟩
  | 6 => ⟨S524288, .i32⟩
  | 7 => ⟨S_, .i32⟩
  | 8 => ⟨S524288, .i32⟩
  | 9 => ⟨S524288, .i32⟩
  | 10 => ⟨S_, .i32⟩
  | 11 => ⟨S524288, .i32⟩
  | 12 => ⟨S524288, .i32⟩
  | 13 => ⟨S_, .i32⟩
  | 14 => ⟨S524288, .i32⟩
  | 15 => ⟨S524288, .i32⟩
  | 16 => ⟨S_, .i32⟩
  | 17 => ⟨S524288, .i32⟩
  | 18 => ⟨S524288, .i1⟩
  | 19 => ⟨S_, .i32⟩
  | 20 => ⟨S524288, .i32⟩
  | 21 => ⟨S524288, .i32⟩
  | 22 => ⟨S524288, .i32⟩
  | 23 => ⟨S_, .i32⟩
  | 24 => ⟨S524288, .i32⟩
  | 25 => ⟨S524288, .i1⟩
  | 26 => ⟨S_, .i32⟩
  | 27 => ⟨S524288, .i32⟩
  | 28 => ⟨S524288, .i32⟩
  | 29 => ⟨S524288, .i32⟩
  | 30 => ⟨S524288x1, .i32⟩
  | 31 => ⟨S524288x1, .i32⟩
  | 32 => ⟨S524288x2, .i32⟩
  | 33 => ⟨S524288x32, .f32⟩
  | 34 => ⟨S_, .i32⟩
  | 35 => ⟨S524288, .i32⟩
  | 36 => ⟨S524288, .i1⟩
  | 37 => ⟨S_, .i32⟩
  | 38 => ⟨S524288, .i32⟩
  | 39 => ⟨S524288, .i32⟩
  | 40 => ⟨S524288, .i32⟩
  | 41 => ⟨S_, .i32⟩
  | 42 => ⟨S524288, .i32⟩
  | 43 => ⟨S524288, .i1⟩
  | 44 => ⟨S_, .i32⟩
  | 45 => ⟨S524288, .i32⟩
  | 46 => ⟨S524288, .i32⟩
  | 47 => ⟨S524288, .i32⟩
  | 48 => ⟨S524288x1, .i32⟩
  | 49 => ⟨S524288x1, .i32⟩
  | 50 => ⟨S524288x2, .i32⟩
  | 51 => ⟨S524288x32, .f32⟩
  | 52 => ⟨S_, .i32⟩
  | 53 => ⟨S524288, .i32⟩
  | 54 => ⟨S524288, .i1⟩
  | 55 => ⟨S_, .i32⟩
  | 56 => ⟨S524288, .i32⟩
  | 57 => ⟨S524288, .i32⟩
  | 58 => ⟨S524288, .i32⟩
  | 59 => ⟨S_, .i32⟩
  | 60 => ⟨S524288, .i32⟩
  | 61 => ⟨S524288, .i1⟩
  | 62 => ⟨S_, .i32⟩
  | 63 => ⟨S524288, .i32⟩
  | 64 => ⟨S524288, .i32⟩
  | 65 => ⟨S524288, .i32⟩
  | 66 => ⟨S524288x1, .i32⟩
  | 67 => ⟨S524288x1, .i32⟩
  | 68 => ⟨S524288x2, .i32⟩
  | 69 => ⟨S524288x32, .f32⟩
  | 70 => ⟨S_, .i32⟩
  | 71 => ⟨S524288, .i32⟩
  | 72 => ⟨S524288, .i1⟩
  | 73 => ⟨S_, .i32⟩
  | 74 => ⟨S524288, .i32⟩
  | 75 => ⟨S524288, .i32⟩
  | 76 => ⟨S524288, .i32⟩
  | 77 => ⟨S_, .i32⟩
  | 78 => ⟨S524288, .i32⟩
  | 79 => ⟨S524288, .i1⟩
  | 80 => ⟨S_, .i32⟩
  | 81 => ⟨S524288, .i32⟩
  | 82 => ⟨S524288, .i32⟩
  | 83 => ⟨S524288, .i32⟩
  | 84 => ⟨S524288x1, .i32⟩
  | 85 => ⟨S524288x1, .i32⟩
  | 86 => ⟨S524288x2, .i32⟩
  | 87 => ⟨S524288x32, .f32⟩
  | 88 => ⟨S_, .f32⟩
  | 89 => ⟨S524288x1, .f32⟩
  | 90 => ⟨S524288x1, .f32⟩
  | 91 => ⟨S524288x32, .f32⟩
  | 92 => ⟨S524288x32, .f32⟩
  | 93 => ⟨S524288x32, .f32⟩
  | 94 => ⟨S524288x32, .f32⟩
  | 95 => ⟨S524288x32, .f32⟩
  | 96 => ⟨S_, .f32⟩
  | 97 => ⟨S524288x1, .f32⟩
  | 98 => ⟨S524288x1, .f32⟩
  | 99 => ⟨S524288x32, .f32⟩
  | 100 => ⟨S524288x32, .f32⟩
  | 101 => ⟨S524288x32, .f32⟩
  | 102 => ⟨S524288x32, .f32⟩
  | 103 => ⟨S524288x32, .f32⟩
  | 104 => ⟨S_, .f32⟩
  | 105 => ⟨S524288x1, .f32⟩
  | 106 => ⟨S524288x1, .f32⟩
  | 107 => ⟨S524288x32, .f32⟩
  | 108 => ⟨S524288x32, .f32⟩
  | 109 => ⟨S524288x32, .f32⟩
  | 110 => ⟨S524288x32, .f32⟩
  | 111 => ⟨S524288x32, .f32⟩
  | 112 => ⟨S524288x1, .f32⟩
  | 113 => ⟨S524288, .f32⟩
  | 114 => ⟨S524288x1, .f32⟩
  | 115 => ⟨S524288, .f32⟩
  | 116 => ⟨S_, .f32⟩
  | 117 => ⟨S524288, .f32⟩
  | 118 => ⟨S524288, .f32⟩
  | 119 => ⟨S_, .f32⟩
  | 120 => ⟨S524288, .f32⟩
  | 121 => ⟨S524288, .f32⟩
  | 122 => ⟨S_, .f32⟩
  | 123 => ⟨S524288, .f32⟩
  | 124 => ⟨S524288, .f32⟩
  | 125 => ⟨S_, .f32⟩
  | 126 => ⟨S_, .i32⟩
  | 127 => ⟨S_, .f32⟩
  | _ => ⟨S4096x128x3, .f32⟩

abbrev hbmTy0_4 (i : Nat) : BufTy := match i % 128 with
  | 0 => ⟨S524288, .f32⟩
  | 1 => ⟨S524288, .f32⟩
  | 2 => ⟨S_, .f32⟩
  | 3 => ⟨S524288, .f32⟩
  | 4 => ⟨S524288, .f32⟩
  | 5 => ⟨S_, .f32⟩
  | 6 => ⟨S524288, .f32⟩
  | 7 => ⟨S524288, .f32⟩
  | 8 => ⟨S_, .f32⟩
  | 9 => ⟨S524288, .f32⟩
  | 10 => ⟨S524288, .f32⟩
  | 11 => ⟨S_, .f32⟩
  | 12 => ⟨S524288, .f32⟩
  | 13 => ⟨S524288, .f32⟩
  | 14 => ⟨S_, .f32⟩
  | 15 => ⟨S_, .i32⟩
  | 16 => ⟨S_, .f32⟩
  | 17 => ⟨S524288, .f32⟩
  | 18 => ⟨S524288, .f32⟩
  | 19 => ⟨S_, .f32⟩
  | 20 => ⟨S524288, .f32⟩
  | 21 => ⟨S524288, .f32⟩
  | 22 => ⟨S256x256x32, .f32⟩
  | 23 => ⟨S524288, .f32⟩
  | 24 => ⟨S524288, .f32⟩
  | 25 => ⟨S524288, .f32⟩
  | 26 => ⟨S524288x1, .f32⟩
  | 27 => ⟨S524288, .f32⟩
  | 28 => ⟨S524288x1, .f32⟩
  | 29 => ⟨S524288, .i32⟩
  | 30 => ⟨S524288, .i32⟩
  | 31 => ⟨S_, .i32⟩
  | 32 => ⟨S524288, .i32⟩
  | 33 => ⟨S524288, .i32⟩
  | 34 => ⟨S_, .i32⟩
  | 35 => ⟨S524288, .i32⟩
  | 36 => ⟨S524288, .i32⟩
  | 37 => ⟨S_, .i32⟩
  | 38 => ⟨S524288, .i32⟩
  | 39 => ⟨S524288, .i32⟩
  | 40 => ⟨S_, .i32⟩
  | 41 => ⟨S524288, .i32⟩
  | 42 => ⟨S524288, .i32⟩
  | 43 => ⟨S_, .i32⟩
  | 44 => ⟨S524288, .i32⟩
  | 45 => ⟨S524288, .i1⟩
  | 46 => ⟨S_, .i32⟩
  | 47 => ⟨S524288, .i32⟩
  | 48 => ⟨S524288, .i32⟩
  | 49 => ⟨S524288, .i32⟩
  | 50 => ⟨S_, .i32⟩
  | 51 => ⟨S524288, .i32⟩
  | 52 => ⟨S524288, .i1⟩
  | 53 => ⟨S_, .i32⟩
  | 54 => ⟨S524288, .i32⟩
  | 55 => ⟨S524288, .i32⟩
  | 56 => ⟨S524288, .i32⟩
  | 57 => ⟨S524288x1, .i32⟩
  | 58 => ⟨S524288x1, .i32⟩
  | 59 => ⟨S524288x2, .i32⟩
  | 60 => ⟨S524288x32, .f32⟩
  | 61 => ⟨S_, .i32⟩
  | 62 => ⟨S524288, .i32⟩
  | 63 => ⟨S524288, .i1⟩
  | 64 => ⟨S_, .i32⟩
  | 65 => ⟨S524288, .i32⟩
  | 66 => ⟨S524288, .i32⟩
  | 67 => ⟨S524288, .i32⟩
  | 68 => ⟨S_, .i32⟩
  | 69 => ⟨S524288, .i32⟩
  | 70 => ⟨S524288, .i1⟩
  | 71 => ⟨S_, .i32⟩
  | 72 => ⟨S524288, .i32⟩
  | 73 => ⟨S524288, .i32⟩
  | 74 => ⟨S524288, .i32⟩
  | 75 => ⟨S524288x1, .i32⟩
  | 76 => ⟨S524288x1, .i32⟩
  | 77 => ⟨S524288x2, .i32⟩
  | 78 => ⟨S524288x32, .f32⟩
  | 79 => ⟨S_, .i32⟩
  | 80 => ⟨S524288, .i32⟩
  | 81 => ⟨S524288, .i1⟩
  | 82 => ⟨S_, .i32⟩
  | 83 => ⟨S524288, .i32⟩
  | 84 => ⟨S524288, .i32⟩
  | 85 => ⟨S524288, .i32⟩
  | 86 => ⟨S_, .i32⟩
  | 87 => ⟨S524288, .i32⟩
  | 88 => ⟨S524288, .i1⟩
  | 89 => ⟨S_, .i32⟩
  | 90 => ⟨S524288, .i32⟩
  | 91 => ⟨S524288, .i32⟩
  | 92 => ⟨S524288, .i32⟩
  | 93 => ⟨S524288x1, .i32⟩
  | 94 => ⟨S524288x1, .i32⟩
  | 95 => ⟨S524288x2, .i32⟩
  | 96 => ⟨S524288x32, .f32⟩
  | 97 => ⟨S_, .i32⟩
  | 98 => ⟨S524288, .i32⟩
  | 99 => ⟨S524288, .i1⟩
  | 100 => ⟨S_, .i32⟩
  | 101 => ⟨S524288, .i32⟩
  | 102 => ⟨S524288, .i32⟩
  | 103 => ⟨S524288, .i32⟩
  | 104 => ⟨S_, .i32⟩
  | 105 => ⟨S524288, .i32⟩
  | 106 => ⟨S524288, .i1⟩
  | 107 => ⟨S_, .i32⟩
  | 108 => ⟨S524288, .i32⟩
  | 109 => ⟨S524288, .i32⟩
  | 110 => ⟨S524288, .i32⟩
  | 111 => ⟨S524288x1, .i32⟩
  | 112 => ⟨S524288x1, .i32⟩
  | 113 => ⟨S524288x2, .i32⟩
  | 114 => ⟨S524288x32, .f32⟩
  | 115 => ⟨S_, .f32⟩
  | 116 => ⟨S524288x1, .f32⟩
  | 117 => ⟨S524288x1, .f32⟩
  | 118 => ⟨S524288x32, .f32⟩
  | 119 => ⟨S524288x32, .f32⟩
  | 120 => ⟨S524288x32, .f32⟩
  | 121 => ⟨S524288x32, .f32⟩
  | 122 => ⟨S524288x32, .f32⟩
  | 123 => ⟨S_, .f32⟩
  | 124 => ⟨S524288x1, .f32⟩
  | 125 => ⟨S524288x1, .f32⟩
  | 126 => ⟨S524288x32, .f32⟩
  | 127 => ⟨S524288x32, .f32⟩
  | _ => ⟨S4096x128x3, .f32⟩

abbrev hbmTy0_5 (i : Nat) : BufTy := match i % 128 with
  | 0 => ⟨S524288x32, .f32⟩
  | 1 => ⟨S524288x32, .f32⟩
  | 2 => ⟨S524288x32, .f32⟩
  | 3 => ⟨S_, .f32⟩
  | 4 => ⟨S524288x1, .f32⟩
  | 5 => ⟨S524288x1, .f32⟩
  | 6 => ⟨S524288x32, .f32⟩
  | 7 => ⟨S524288x32, .f32⟩
  | 8 => ⟨S524288x32, .f32⟩
  | 9 => ⟨S524288x32, .f32⟩
  | 10 => ⟨S524288x32, .f32⟩
  | 11 => ⟨S524288x1, .f32⟩
  | 12 => ⟨S524288, .f32⟩
  | 13 => ⟨S524288x1, .f32⟩
  | 14 => ⟨S524288, .f32⟩
  | 15 => ⟨S_, .f32⟩
  | 16 => ⟨S524288, .f32⟩
  | 17 => ⟨S524288, .f32⟩
  | 18 => ⟨S_, .f32⟩
  | 19 => ⟨S524288, .f32⟩
  | 20 => ⟨S524288, .f32⟩
  | 21 => ⟨S_, .f32⟩
  | 22 => ⟨S524288, .f32⟩
  | 23 => ⟨S524288, .f32⟩
  | 24 => ⟨S_, .f32⟩
  | 25 => ⟨S_, .i32⟩
  | 26 => ⟨S_, .f32⟩
  | 27 => ⟨S524288, .f32⟩
  | 28 => ⟨S524288, .f32⟩
  | 29 => ⟨S_, .f32⟩
  | 30 => ⟨S524288, .f32⟩
  | 31 => ⟨S524288, .f32⟩
  | 32 => ⟨S_, .f32⟩
  | 33 => ⟨S524288, .f32⟩
  | 34 => ⟨S524288, .f32⟩
  | 35 => ⟨S_, .f32⟩
  | 36 => ⟨S524288, .f32⟩
  | 37 => ⟨S524288, .f32⟩
  | 38 => ⟨S_, .f32⟩
  | 39 => ⟨S524288, .f32⟩
  | 40 => ⟨S524288, .f32⟩
  | 41 => ⟨S_, .f32⟩
  | 42 => ⟨S_, .i32⟩
  | 43 => ⟨S_, .f32⟩
  | 44 => ⟨S524288, .f32⟩
  | 45 => ⟨S524288, .f32⟩
  | 46 => ⟨S_, .f32⟩
  | 47 => ⟨S524288, .f32⟩
  | 48 => ⟨S524288, .f32⟩
  | 49 => ⟨S256x256x32, .f32⟩
  | 50 => ⟨S524288, .f32⟩
  | 51 => ⟨S524288, .f32⟩
  | 52 => ⟨S524288, .f32⟩
  | 53 => ⟨S524288x1, .f32⟩
  | 54 => ⟨S524288, .f32⟩
  | 55 => ⟨S524288x1, .f32⟩
  | 56 => ⟨S524288, .i32⟩
  | 57 => ⟨S524288, .i32⟩
  | 58 => ⟨S_, .i32⟩
  | 59 => ⟨S524288, .i32⟩
  | 60 => ⟨S524288, .i32⟩
  | 61 => ⟨S_, .i32⟩
  | 62 => ⟨S524288, .i32⟩
  | 63 => ⟨S524288, .i32⟩
  | 64 => ⟨S_, .i32⟩
  | 65 => ⟨S524288, .i32⟩
  | 66 => ⟨S524288, .i32⟩
  | 67 => ⟨S_, .i32⟩
  | 68 => ⟨S524288, .i32⟩
  | 69 => ⟨S524288, .i32⟩
  | 70 => ⟨S_, .i32⟩
  | 71 => ⟨S524288, .i32⟩
  | 72 => ⟨S524288, .i1⟩
  | 73 => ⟨S_, .i32⟩
  | 74 => ⟨S524288, .i32⟩
  | 75 => ⟨S524288, .i32⟩
  | 76 => ⟨S524288, .i32⟩
  | 77 => ⟨S_, .i32⟩
  | 78 => ⟨S524288, .i32⟩
  | 79 => ⟨S524288, .i1⟩
  | 80 => ⟨S_, .i32⟩
  | 81 => ⟨S524288, .i32⟩
  | 82 => ⟨S524288, .i32⟩
  | 83 => ⟨S524288, .i32⟩
  | 84 => ⟨S524288x1, .i32⟩
  | 85 => ⟨S524288x1, .i32⟩
  | 86 => ⟨S524288x2, .i32⟩
  | 87 => ⟨S524288x32, .f32⟩
  | 88 => ⟨S_, .i32⟩
  | 89 => ⟨S524288, .i32⟩
  | 90 => ⟨S524288, .i1⟩
  | 91 => ⟨S_, .i32⟩
  | 92 => ⟨S524288, .i32⟩
  | 93 => ⟨S524288, .i32⟩
  | 94 => ⟨S524288, .i32⟩
  | 95 => ⟨S_, .i32⟩
  | 96 => ⟨S524288, .i32⟩
  | 97 => ⟨S524288, .i1⟩
  | 98 => ⟨S_, .i32⟩
  | 99 => ⟨S524288, .i32⟩
  | 100 => ⟨S524288, .i32⟩
  | 101 => ⟨S524288, .i32⟩
  | 102 => ⟨S524288x1, .i32⟩
  | 103 => ⟨S524288x1, .i32⟩
  | 104 => ⟨S524288x2, .i32⟩
  | 105 => ⟨S524288x32, .f32⟩
  | 106 => ⟨S_, .i32⟩
  | 107 => ⟨S524288, .i32⟩
  | 108 => ⟨S524288, .i1⟩
  | 109 => ⟨S_, .i32⟩
  | 110 => ⟨S524288, .i32⟩
  | 111 => ⟨S524288, .i32⟩
  | 112 => ⟨S524288, .i32⟩
  | 113 => ⟨S_, .i32⟩
  | 114 => ⟨S524288, .i32⟩
  | 115 => ⟨S524288, .i1⟩
  | 116 => ⟨S_, .i32⟩
  | 117 => ⟨S524288, .i32⟩
  | 118 => ⟨S524288, .i32⟩
  | 119 => ⟨S524288, .i32⟩
  | 120 => ⟨S524288x1, .i32⟩
  | 121 => ⟨S524288x1, .i32⟩
  | 122 => ⟨S524288x2, .i32⟩
  | 123 => ⟨S524288x32, .f32⟩
  | 124 => ⟨S_, .i32⟩
  | 125 => ⟨S524288, .i32⟩
  | 126 => ⟨S524288, .i1⟩
  | 127 => ⟨S_, .i32⟩
  | _ => ⟨S4096x128x3, .f32⟩

abbrev hbmTy0_6 (i : Nat) : BufTy := match i % 128 with
  | 0 => ⟨S524288, .i32⟩
  | 1 => ⟨S524288, .i32⟩
  | 2 => ⟨S524288, .i32⟩
  | 3 => ⟨S_, .i32⟩
  | 4 => ⟨S524288, .i32⟩
  | 5 => ⟨S524288, .i1⟩
  | 6 => ⟨S_, .i32⟩
  | 7 => ⟨S524288, .i32⟩
  | 8 => ⟨S524288, .i32⟩
  | 9 => ⟨S524288, .i32⟩
  | 10 => ⟨S524288x1, .i32⟩
  | 11 => ⟨S524288x1, .i32⟩
  | 12 => ⟨S524288x2, .i32⟩
  | 13 => ⟨S524288x32, .f32⟩
  | 14 => ⟨S_, .f32⟩
  | 15 => ⟨S524288x1, .f32⟩
  | 16 => ⟨S524288x1, .f32⟩
  | 17 => ⟨S524288x32, .f32⟩
  | 18 => ⟨S524288x32, .f32⟩
  | 19 => ⟨S524288x32, .f32⟩
  | 20 => ⟨S524288x32, .f32⟩
  | 21 => ⟨S524288x32, .f32⟩
  | 22 => ⟨S_, .f32⟩
  | 23 => ⟨S524288x1, .f32⟩
  | 24 => ⟨S524288x1, .f32⟩
  | 25 => ⟨S524288x32, .f32⟩
  | 26 => ⟨S524288x32, .f32⟩
  | 27 => ⟨S524288x32, .f32⟩
  | 28 => ⟨S524288x32, .f32⟩
  | 29 => ⟨S524288x32, .f32⟩
  | 30 => ⟨S_, .f32⟩
  | 31 => ⟨S524288x1, .f32⟩
  | 32 => ⟨S524288x1, .f32⟩
  | 33 => ⟨S524288x32, .f32⟩
  | 34 => ⟨S524288x32, .f32⟩
  | 35 => ⟨S524288x32, .f32⟩
  | 36 => ⟨S524288x32, .f32⟩
  | 37 => ⟨S524288x32, .f32⟩
  | 38 => ⟨S524288x1, .f32⟩
  | 39 => ⟨S524288, .f32⟩
  | 40 => ⟨S524288x1, .f32⟩
  | 41 => ⟨S524288, .f32⟩
  | 42 => ⟨S_, .f32⟩
  | 43 => ⟨S524288, .f32⟩
  | 44 => ⟨S524288, .f32⟩
  | 45 => ⟨S_, .f32⟩
  | 46 => ⟨S524288, .f32⟩
  | 47 => ⟨S524288, .f32⟩
  | 48 => ⟨S_, .f32⟩
  | 49 => ⟨S524288, .f32⟩
  | 50 => ⟨S524288, .f32⟩
  | 51 => ⟨S_, .f32⟩
  | 52 => ⟨S_, .i32⟩
  | 53 => ⟨S_, .f32⟩
  | 54 => ⟨S524288, .f32⟩
  | 55 => ⟨S524288, .f32⟩
  | 56 => ⟨S_, .f32⟩
  | 57 => ⟨S524288, .f32⟩
  | 58 => ⟨S524288, .f32⟩
  | 59 => ⟨S_, .f32⟩
  | 60 => ⟨S524288, .f32⟩
  | 61 => ⟨S524288, .f32⟩
  | 62 => ⟨S_, .f32⟩
  | 63 => ⟨S524288, .f32⟩
  | 64 => ⟨S524288, .f32⟩
  | 65 => ⟨S_, .f32⟩
  | 66 => ⟨S524288, .f32⟩
  | 67 => ⟨S524288, .f32⟩
  | 68 => ⟨S_, .f32⟩
  | 69 => ⟨S_, .i32⟩
  | 70 => ⟨S_, .f32⟩
  | 71 => ⟨S524288, .f32⟩
  | 72 => ⟨S524288, .f32⟩
  | 73 => ⟨S_, .f32⟩
  | 74 => ⟨S524288, .f32⟩
  | 75 => ⟨S524288, .f32⟩
  | 76 => ⟨S256x256x32, .f32⟩
  | 77 => ⟨S524288, .f32⟩
  | 78 => ⟨S524288, .f32⟩
  | 79 => ⟨S524288, .f32⟩
  | 80 => ⟨S524288x1, .f32⟩
  | 81 => ⟨S524288, .f32⟩
  | 82 => ⟨S524288x1, .f32⟩
  | 83 => ⟨S524288, .i32⟩
  | 84 => ⟨S524288, .i32⟩
  | 85 => ⟨S_, .i32⟩
  | 86 => ⟨S524288, .i32⟩
  | 87 => ⟨S524288, .i32⟩
  | 88 => ⟨S_, .i32⟩
  | 89 => ⟨S524288, .i32⟩
  | 90 => ⟨S524288, .i32⟩
  | 91 => ⟨S_, .i32⟩
  | 92 => ⟨S524288, .i32⟩
  | 93 => ⟨S524288, .i32⟩
  | 94 => ⟨S_, .i32⟩
  | 95 => ⟨S524288, .i32⟩
  | 96 => ⟨S524288, .i32⟩
  | 97 => ⟨S_, .i32⟩
  | 98 => ⟨S524288, .i32⟩
  | 99 => ⟨S524288, .i1⟩
  | 100 => ⟨S_, .i32⟩
  | 101 => ⟨S524288, .i32⟩
  | 102 => ⟨S524288, .i32⟩
  | 103 => ⟨S524288, .i32⟩
  | 104 => ⟨S_, .i32⟩
  | 105 => ⟨S524288, .i32⟩
  | 106 => ⟨S524288, .i1⟩
  | 107 => ⟨S_, .i32⟩
  | 108 => ⟨S524288, .i32⟩
  | 109 => ⟨S524288, .i32⟩
  | 110 => ⟨S524288, .i32⟩
  | 111 => ⟨S524288x1, .i32⟩
  | 112 => ⟨S524288x1, .i32⟩
  | 113 => ⟨S524288x2, .i32⟩
  | 114 => ⟨S524288x32, .f32⟩
  | 115 => ⟨S_, .i32⟩
  | 116 => ⟨S524288, .i32⟩
  | 117 => ⟨S524288, .i1⟩
  | 118 => ⟨S_, .i32⟩
  | 119 => ⟨S524288, .i32⟩
  | 120 => ⟨S524288, .i32⟩
  | 121 => ⟨S524288, .i32⟩
  | 122 => ⟨S_, .i32⟩
  | 123 => ⟨S524288, .i32⟩
  | 124 => ⟨S524288, .i1⟩
  | 125 => ⟨S_, .i32⟩
  | 126 => ⟨S524288, .i32⟩
  | 127 => ⟨S524288, .i32⟩
  | _ => ⟨S4096x128x3, .f32⟩

abbrev hbmTy0_7 (i : Nat) : BufTy := match i % 128 with
  | 0 => ⟨S524288, .i32⟩
  | 1 => ⟨S524288x1, .i32⟩
  | 2 => ⟨S524288x1, .i32⟩
  | 3 => ⟨S524288x2, .i32⟩
  | 4 => ⟨S524288x32, .f32⟩
  | 5 => ⟨S_, .i32⟩
  | 6 => ⟨S524288, .i32⟩
  | 7 => ⟨S524288, .i1⟩
  | 8 => ⟨S_, .i32⟩
  | 9 => ⟨S524288, .i32⟩
  | 10 => ⟨S524288, .i32⟩
  | 11 => ⟨S524288, .i32⟩
  | 12 => ⟨S_, .i32⟩
  | 13 => ⟨S524288, .i32⟩
  | 14 => ⟨S524288, .i1⟩
  | 15 => ⟨S_, .i32⟩
  | 16 => ⟨S524288, .i32⟩
  | 17 => ⟨S524288, .i32⟩
  | 18 => ⟨S524288, .i32⟩
  | 19 => ⟨S524288x1, .i32⟩
  | 20 => ⟨S524288x1, .i32⟩
  | 21 => ⟨S524288x2, .i32⟩
  | 22 => ⟨S524288x32, .f32⟩
  | 23 => ⟨S_, .i32⟩
  | 24 => ⟨S524288, .i32⟩
  | 25 => ⟨S524288, .i1⟩
  | 26 => ⟨S_, .i32⟩
  | 27 => ⟨S524288, .i32⟩
  | 28 => ⟨S524288, .i32⟩
  | 29 => ⟨S524288, .i32⟩
  | 30 => ⟨S_, .i32⟩
  | 31 => ⟨S524288, .i32⟩
  | 32 => ⟨S524288, .i1⟩
  | 33 => ⟨S_, .i32⟩
  | 34 => ⟨S524288, .i32⟩
  | 35 => ⟨S524288, .i32⟩
  | 36 => ⟨S524288, .i32⟩
  | 37 => ⟨S524288x1, .i32⟩
  | 38 => ⟨S524288x1, .i32⟩
  | 39 => ⟨S524288x2, .i32⟩
  | 40 => ⟨S524288x32, .f32⟩
  | 41 => ⟨S_, .f32⟩
  | 42 => ⟨S524288x1, .f32⟩
  | 43 => ⟨S524288x1, .f32⟩
  | 44 => ⟨S524288x32, .f32⟩
  | 45 => ⟨S524288x32, .f32⟩
  | 46 => ⟨S524288x32, .f32⟩
  | 47 => ⟨S524288x32, .f32⟩
  | 48 => ⟨S524288x32, .f32⟩
  | 49 => ⟨S_, .f32⟩
  | 50 => ⟨S524288x1, .f32⟩
  | 51 => ⟨S524288x1, .f32⟩
  | 52 => ⟨S524288x32, .f32⟩
  | 53 => ⟨S524288x32, .f32⟩
  | 54 => ⟨S524288x32, .f32⟩
  | 55 => ⟨S524288x32, .f32⟩
  | 56 => ⟨S524288x32, .f32⟩
  | 57 => ⟨S_, .f32⟩
  | 58 => ⟨S524288x1, .f32⟩
  | 59 => ⟨S524288x1, .f32⟩
  | 60 => ⟨S524288x32, .f32⟩
  | 61 => ⟨S524288x32, .f32⟩
  | 62 => ⟨S524288x32, .f32⟩
  | 63 => ⟨S524288x32, .f32⟩
  | 64 => ⟨S524288x32, .f32⟩
  | 65 => ⟨S524288x1, .f32⟩
  | 66 => ⟨S524288, .f32⟩
  | 67 => ⟨S524288x1, .f32⟩
  | 68 => ⟨S524288, .f32⟩
  | 69 => ⟨S_, .f32⟩
  | 70 => ⟨S524288, .f32⟩
  | 71 => ⟨S524288, .f32⟩
  | 72 => ⟨S_, .f32⟩
  | 73 => ⟨S524288, .f32⟩
  | 74 => ⟨S524288, .f32⟩
  | 75 => ⟨S_, .f32⟩
  | 76 => ⟨S524288, .f32⟩
  | 77 => ⟨S524288, .f32⟩
  | 78 => ⟨S_, .f32⟩
  | 79 => ⟨S_, .i32⟩
  | 80 => ⟨S_, .f32⟩
  | 81 => ⟨S524288, .f32⟩
  | 82 => ⟨S524288, .f32⟩
  | 83 => ⟨S_, .f32⟩
  | 84 => ⟨S524288, .f32⟩
  | 85 => ⟨S524288, .f32⟩
  | 86 => ⟨S_, .f32⟩
  | 87 => ⟨S524288, .f32⟩
  | 88 => ⟨S524288, .f32⟩
  | 89 => ⟨S_, .f32⟩
  | 90 => ⟨S524288, .f32⟩
  | 91 => ⟨S524288, .f32⟩
  | 92 => ⟨S_, .f32⟩
  | 93 => ⟨S524288, .f32⟩
  | 94 => ⟨S524288, .f32⟩
  | 95 => ⟨S_, .f32⟩
  | 96 => ⟨S_, .i32⟩
  | 97 => ⟨S_, .f32⟩
  | 98 => ⟨S524288, .f32⟩
  | 99 => ⟨S524288, .f32⟩
  | 100 => ⟨S_, .f32⟩
  | 101 => ⟨S524288, .f32⟩
  | 102 => ⟨S524288, .f32⟩
  | 103 => ⟨S512x512x32, .f32⟩
  | 104 => ⟨S524288, .f32⟩
  | 105 => ⟨S524288, .f32⟩
  | 106 => ⟨S524288, .f32⟩
  | 107 => ⟨S524288x1, .f32⟩
  | 108 => ⟨S524288, .f32⟩
  | 109 => ⟨S524288x1, .f32⟩
  | 110 => ⟨S524288, .i32⟩
  | 111 => ⟨S524288, .i32⟩
  | 112 => ⟨S_, .i32⟩
  | 113 => ⟨S524288, .i32⟩
  | 114 => ⟨S524288, .i32⟩
  | 115 => ⟨S_, .i32⟩
  | 116 => ⟨S524288, .i32⟩
  | 117 => ⟨S524288, .i32⟩
  | 118 => ⟨S_, .i32⟩
  | 119 => ⟨S524288, .i32⟩
  | 120 => ⟨S524288, .i32⟩
  | 121 => ⟨S_, .i32⟩
  | 122 => ⟨S524288, .i32⟩
  | 123 => ⟨S524288, .i32⟩
  | 124 => ⟨S_, .i32⟩
  | 125 => ⟨S524288, .i32⟩
  | 126 => ⟨S524288, .i1⟩
  | 127 => ⟨S_, .i32⟩
  | _ => ⟨S4096x128x3, .f32⟩

abbrev hbmTy0_8 (i : Nat) : BufTy := match i % 128 with
  | 0 => ⟨S524288, .i32⟩
  | 1 => ⟨S524288, .i32⟩
  | 2 => ⟨S524288, .i32⟩
  | 3 => ⟨S_, .i32⟩
  | 4 => ⟨S524288, .i32⟩
  | 5 => ⟨S524288, .i1⟩
  | 6 => ⟨S_, .i32⟩
  | 7 => ⟨S524288, .i32⟩
  | 8 => ⟨S524288, .i32⟩
  | 9 => ⟨S524288, .i32⟩
  | 10 => ⟨S524288x1, .i32⟩
  | 11 => ⟨S524288x1, .i32⟩
  | 12 => ⟨S524288x2, .i32⟩
  | 13 => ⟨S524288x32, .f32⟩
  | 14 => ⟨S_, .i32⟩
  | 15 => ⟨S524288, .i32⟩
  | 16 => ⟨S524288, .i1⟩
  | 17 => ⟨S_, .i32⟩
  | 18 => ⟨S524288, .i32⟩
  | 19 => ⟨S524288, .i32⟩
  | 20 => ⟨S524288, .i32⟩
  | 21 => ⟨S_, .i32⟩
  | 22 => ⟨S524288, .i32⟩
  | 23 => ⟨S524288, .i1⟩
  | 24 => ⟨S_, .i32⟩
  | 25 => ⟨S524288, .i32⟩
  | 26 => ⟨S524288, .i32⟩
  | 27 => ⟨S524288, .i32⟩
  | 28 => ⟨S524288x1, .i32⟩
  | 29 => ⟨S524288x1, .i32⟩
  | 30 => ⟨S524288x2, .i32⟩
  | 31 => ⟨S524288x32, .f32⟩
  | 32 => ⟨S_, .i32⟩
  | 33 => ⟨S524288, .i32⟩
  | 34 => ⟨S524288, .i1⟩
  | 35 => ⟨S_, .i32⟩
  | 36 => ⟨S524288, .i32⟩
  | 37 => ⟨S524288, .i32⟩
  | 38 => ⟨S524288, .i32⟩
  | 39 => ⟨S_, .i32⟩
  | 40 => ⟨S524288, .i32⟩
  | 41 => ⟨S524288, .i1⟩
  | 42 => ⟨S_, .i32⟩
  | 43 => ⟨S524288, .i32⟩
  | 44 => ⟨S524288, .i32⟩
  | 45 => ⟨S524288, .i32⟩
  | 46 => ⟨S524288x1, .i32⟩
  | 47 => ⟨S524288x1, .i32⟩
  | 48 => ⟨S524288x2, .i32⟩
  | 49 => ⟨S524288x32, .f32⟩
  | 50 => ⟨S_, .i32⟩
  | 51 => ⟨S524288, .i32⟩
  | 52 => ⟨S524288, .i1⟩
  | 53 => ⟨S_, .i32⟩
  | 54 => ⟨S524288, .i32⟩
  | 55 => ⟨S524288, .i32⟩
  | 56 => ⟨S524288, .i32⟩
  | 57 => ⟨S_, .i32⟩
  | 58 => ⟨S524288, .i32⟩
  | 59 => ⟨S524288, .i1⟩
  | 60 => ⟨S_, .i32⟩
  | 61 => ⟨S524288, .i32⟩
  | 62 => ⟨S524288, .i32⟩
  | 63 => ⟨S524288, .i32⟩
  | 64 => ⟨S524288x1, .i32⟩
  | 65 => ⟨S524288x1, .i32⟩
  | 66 => ⟨S524288x2, .i32⟩
  | 67 => ⟨S524288x32, .f32⟩
  | 68 => ⟨S_, .f32⟩
  | 69 => ⟨S524288x1, .f32⟩
  | 70 => ⟨S524288x1, .f32⟩
  | 71 => ⟨S524288x32, .f32⟩
  | 72 => ⟨S524288x32, .f32⟩
  | 73 => ⟨S524288x32, .f32⟩
  | 74 => ⟨S524288x32, .f32⟩
  | 75 => ⟨S524288x32, .f32⟩
  | 76 => ⟨S_, .f32⟩
  | 77 => ⟨S524288x1, .f32⟩
  | 78 => ⟨S524288x1, .f32⟩
  | 79 => ⟨S524288x32, .f32⟩
  | 80 => ⟨S524288x32, .f32⟩
  | 81 => ⟨S524288x32, .f32⟩
  | 82 => ⟨S524288x32, .f32⟩
  | 83 => ⟨S524288x32, .f32⟩
  | 84 => ⟨S_, .f32⟩
  | 85 => ⟨S524288x1, .f32⟩
  | 86 => ⟨S524288x1, .f32⟩
  | 87 => ⟨S524288x32, .f32⟩
  | 88 => ⟨S524288x32, .f32⟩
  | 89 => ⟨S524288x32, .f32⟩
  | 90 => ⟨S524288x32, .f32⟩
  | 91 => ⟨S524288x32, .f32⟩
  | 92 => ⟨S524288x1, .f32⟩
  | 93 => ⟨S524288, .f32⟩
  | 94 => ⟨S524288x1, .f32⟩
  | 95 => ⟨S524288, .f32⟩
  | 96 => ⟨S_, .f32⟩
  | 97 => ⟨S524288, .f32⟩
  | 98 => ⟨S524288, .f32⟩
  | 99 => ⟨S_, .f32⟩
  | 100 => ⟨S524288, .f32⟩
  | 101 => ⟨S524288, .f32⟩
  | 102 => ⟨S_, .f32⟩
  | 103 => ⟨S524288, .f32⟩
  | 104 => ⟨S524288, .f32⟩
  | 105 => ⟨S_, .f32⟩
  | 106 => ⟨S_, .i32⟩
  | 107 => ⟨S_, .f32⟩
  | 108 => ⟨S524288, .f32⟩
  | 109 => ⟨S524288, .f32⟩
  | 110 => ⟨S_, .f32⟩
  | 111 => ⟨S524288, .f32⟩
  | 112 => ⟨S524288, .f32⟩
  | 113 => ⟨S_, .f32⟩
  | 114 => ⟨S524288, .f32⟩
  | 115 => ⟨S524288, .f32⟩
  | 116 => ⟨S_, .f32⟩
  | 117 => ⟨S524288, .f32⟩
  | 118 => ⟨S524288, .f32⟩
  | 119 => ⟨S_, .f32⟩
  | 120 => ⟨S524288, .f32⟩
  | 121 => ⟨S524288, .f32⟩
  | 122 => ⟨S_, .f32⟩
  | 123 => ⟨S_, .i32⟩
  | 124 => ⟨S_, .f32⟩
  | 125 => ⟨S524288, .f32⟩
  | 126 => ⟨S524288, .f32⟩
  | 127 => ⟨S_, .f32⟩
  | _ => ⟨S4096x128x3, .f32⟩

abbrev hbmTy0_9 (i : Nat) : BufTy := match i % 128 with
  | 0 => ⟨S524288, .f32⟩
  | 1 => ⟨S524288, .f32⟩
  | 2 => ⟨S512x512x32, .f32⟩
  | 3 => ⟨S524288, .f32⟩
  | 4 => ⟨S524288, .f32⟩
  | 5 => ⟨S524288, .f32⟩
  | 6 => ⟨S524288x1, .f32⟩
  | 7 => ⟨S524288, .f32⟩
  | 8 => ⟨S524288x1, .f32⟩
  | 9 => ⟨S524288, .i32⟩
  | 10 => ⟨S524288, .i32⟩
  | 11 => ⟨S_, .i32⟩
  | 12 => ⟨S524288, .i32⟩
  | 13 => ⟨S524288, .i32⟩
  | 14 => ⟨S_, .i32⟩
  | 15 => ⟨S524288, .i32⟩
  | 16 => ⟨S524288, .i32⟩
  | 17 => ⟨S_, .i32⟩
  | 18 => ⟨S524288, .i32⟩
  | 19 => ⟨S524288, .i32⟩
  | 20 => ⟨S_, .i32⟩
  | 21 => ⟨S524288, .i32⟩
  | 22 => ⟨S524288, .i32⟩
  | 23 => ⟨S_, .i32⟩
  | 24 => ⟨S524288, .i32⟩
  | 25 => ⟨S524288, .i1⟩
  | 26 => ⟨S_, .i32⟩
  | 27 => ⟨S524288, .i32⟩
  | 28 => ⟨S524288, .i32⟩
  | 29 => ⟨S524288, .i32⟩
  | 30 => ⟨S_, .i32⟩
  | 31 => ⟨S524288, .i32⟩
  | 32 => ⟨S524288, .i1⟩
  | 33 => ⟨S_, .i32⟩
  | 34 => ⟨S524288, .i32⟩
  | 35 => ⟨S524288, .i32⟩
  | 36 => ⟨S524288, .i32⟩
  | 37 => ⟨S524288x1, .i32⟩
  | 38 => ⟨S524288x1, .i32⟩
  | 39 => ⟨S524288x2, .i32⟩
  | 40 => ⟨S524288x32, .f32⟩
  | 41 => ⟨S_, .i32⟩
  | 42 => ⟨S524288, .i32⟩
  | 43 => ⟨S524288, .i1⟩
  | 44 => ⟨S_, .i32⟩
  | 45 => ⟨S524288, .i32⟩
  | 46 => ⟨S524288, .i32⟩
  | 47 => ⟨S524288, .i32⟩
  | 48 => ⟨S_, .i32⟩
  | 49 => ⟨S524288, .i32⟩
  | 50 => ⟨S524288, .i1⟩
  | 51 => ⟨S_, .i32⟩
  | 52 => ⟨S524288, .i32⟩
  | 53 => ⟨S524288, .i32⟩
  | 54 => ⟨S524288, .i32⟩
  | 55 => ⟨S524288x1, .i32⟩
  | 56 => ⟨S524288x1, .i32⟩
  | 57 => ⟨S524288x2, .i32⟩
  | 58 => ⟨S524288x32, .f32⟩
  | 59 => ⟨S_, .i32⟩
  | 60 => ⟨S524288, .i32⟩
  | 61 => ⟨S524288, .i1⟩
  | 62 => ⟨S_, .i32⟩
  | 63 => ⟨S524288, .i32⟩
  | 64 => ⟨S524288, .i32⟩
  | 65 => ⟨S524288, .i32⟩
  | 66 => ⟨S_, .i32⟩
  | 67 => ⟨S524288, .i32⟩
  | 68 => ⟨S524288, .i1⟩
  | 69 => ⟨S_, .i32⟩
  | 70 => ⟨S524288, .i32⟩
  | 71 => ⟨S524288, .i32⟩
  | 72 => ⟨S524288, .i32⟩
  | 73 => ⟨S524288x1, .i32⟩
  | 74 => ⟨S524288x1, .i32⟩
  | 75 => ⟨S524288x2, .i32⟩
  | 76 => ⟨S524288x32, .f32⟩
  | 77 => ⟨S_, .i32⟩
  | 78 => ⟨S524288, .i32⟩
  | 79 => ⟨S524288, .i1⟩
  | 80 => ⟨S_, .i32⟩
  | 81 => ⟨S524288, .i32⟩
  | 82 => ⟨S524288, .i32⟩
  | 83 => ⟨S524288, .i32⟩
  | 84 => ⟨S_, .i32⟩
  | 85 => ⟨S524288, .i32⟩
  | 86 => ⟨S524288, .i1⟩
  | 87 => ⟨S_, .i32⟩
  | 88 => ⟨S524288, .i32⟩
  | 89 => ⟨S524288, .i32⟩
  | 90 => ⟨S524288, .i32⟩
  | 91 => ⟨S524288x1, .i32⟩
  | 92 => ⟨S524288x1, .i32⟩
  | 93 => ⟨S524288x2, .i32⟩
  | 94 => ⟨S524288x32, .f32⟩
  | 95 => ⟨S_, .f32⟩
  | 96 => ⟨S524288x1, .f32⟩
  | 97 => ⟨S524288x1, .f32⟩
  | 98 => ⟨S524288x32, .f32⟩
  | 99 => ⟨S524288x32, .f32⟩
  | 100 => ⟨S524288x32, .f32⟩
  | 101 => ⟨S524288x32, .f32⟩
  | 102 => ⟨S524288x32, .f32⟩
  | 103 => ⟨S_, .f32⟩
  | 104 => ⟨S524288x1, .f32⟩
  | 105 => ⟨S524288x1, .f32⟩
  | 106 => ⟨S524288x32, .f32⟩
  | 107 => ⟨S524288x32, .f32⟩
  | 108 => ⟨S524288x32, .f32⟩
  | 109 => ⟨S524288x32, .f32⟩
  | 110 => ⟨S524288x32, .f32⟩
  | 111 => ⟨S_, .f32⟩
  | 112 => ⟨S524288x1, .f32⟩
  | 113 => ⟨S524288x1, .f32⟩
  | 114 => ⟨S524288x32, .f32⟩
  | 115 => ⟨S524288x32, .f32⟩
  | 116 => ⟨S524288x32, .f32⟩
  | 117 => ⟨S524288x32, .f32⟩
  | 118 => ⟨S524288x32, .f32⟩
  | 119 => ⟨S524288x1, .f32⟩
  | 120 => ⟨S524288, .f32⟩
  | 121 => ⟨S524288x1, .f32⟩
  | 122 => ⟨S524288, .f32⟩
  | 123 => ⟨S_, .f32⟩
  | 124 => ⟨S524288, .f32⟩
  | 125 => ⟨S524288, .f32⟩
  | 126 => ⟨S_, .f32⟩
  | 127 => ⟨S524288, .f32⟩
  | _ => ⟨S4096x128x3, .f32⟩

abbrev hbmTy0_10 (i : Nat) : BufTy := match i % 128 with
  | 0 => ⟨S524288, .f32⟩
  | 1 => ⟨S_, .f32⟩
  | 2 => ⟨S524288, .f32⟩
  | 3 => ⟨S524288, .f32⟩
  | 4 => ⟨S_, .f32⟩
  | 5 => ⟨S_, .i32⟩
  | 6 => ⟨S_, .f32⟩
  | 7 => ⟨S524288, .f32⟩
  | 8 => ⟨S524288, .f32⟩
  | 9 => ⟨S_, .f32⟩
  | 10 => ⟨S524288, .f32⟩
  | 11 => ⟨S524288, .f32⟩
  | 12 => ⟨S_, .f32⟩
  | 13 => ⟨S524288, .f32⟩
  | 14 => ⟨S524288, .f32⟩
  | 15 => ⟨S_, .f32⟩
  | 16 => ⟨S524288, .f32⟩
  | 17 => ⟨S524288, .f32⟩
  | 18 => ⟨S_, .f32⟩
  | 19 => ⟨S524288, .f32⟩
  | 20 => ⟨S524288, .f32⟩
  | 21 => ⟨S_, .f32⟩
  | 22 => ⟨S_, .i32⟩
  | 23 => ⟨S_, .f32⟩
  | 24 => ⟨S524288, .f32⟩
  | 25 => ⟨S524288, .f32⟩
  | 26 => ⟨S_, .f32⟩
  | 27 => ⟨S524288, .f32⟩
  | 28 => ⟨S524288, .f32⟩
  | 29 => ⟨S512x512x32, .f32⟩
  | 30 => ⟨S524288, .f32⟩
  | 31 => ⟨S524288, .f32⟩
  | 32 => ⟨S524288, .f32⟩
  | 33 => ⟨S524288x1, .f32⟩
  | 34 => ⟨S524288, .f32⟩
  | 35 => ⟨S524288x1, .f32⟩
  | 36 => ⟨S524288, .i32⟩
  | 37 => ⟨S524288, .i32⟩
  | 38 => ⟨S_, .i32⟩
  | 39 => ⟨S524288, .i32⟩
  | 40 => ⟨S524288, .i32⟩
  | 41 => ⟨S_, .i32⟩
  | 42 => ⟨S524288, .i32⟩
  | 43 => ⟨S524288, .i32⟩
  | 44 => ⟨S_, .i32⟩
  | 45 => ⟨S524288, .i32⟩
  | 46 => ⟨S524288, .i32⟩
  | 47 => ⟨S_, .i32⟩
  | 48 => ⟨S524288, .i32⟩
  | 49 => ⟨S524288, .i32⟩
  | 50 => ⟨S_, .i32⟩
  | 51 => ⟨S524288, .i32⟩
  | 52 => ⟨S524288, .i1⟩
  | 53 => ⟨S_, .i32⟩
  | 54 => ⟨S524288, .i32⟩
  | 55 => ⟨S524288, .i32⟩
  | 56 => ⟨S524288, .i32⟩
  | 57 => ⟨S_, .i32⟩
  | 58 => ⟨S524288, .i32⟩
  | 59 => ⟨S524288, .i1⟩
  | 60 => ⟨S_, .i32⟩
  | 61 => ⟨S524288, .i32⟩
  | 62 => ⟨S524288, .i32⟩
  | 63 => ⟨S524288, .i32⟩
  | 64 => ⟨S524288x1, .i32⟩
  | 65 => ⟨S524288x1, .i32⟩
  | 66 => ⟨S524288x2, .i32⟩
  | 67 => ⟨S524288x32, .f32⟩
  | 68 => ⟨S_, .i32⟩
  | 69 => ⟨S524288, .i32⟩
  | 70 => ⟨S524288, .i1⟩
  | 71 => ⟨S_, .i32⟩
  | 72 => ⟨S524288, .i32⟩
  | 73 => ⟨S524288, .i32⟩
  | 74 => ⟨S524288, .i32⟩
  | 75 => ⟨S_, .i32⟩
  | 76 => ⟨S524288, .i32⟩
  | 77 => ⟨S524288, .i1⟩
  | 78 => ⟨S_, .i32⟩
  | 79 => ⟨S524288, .i32⟩
  | 80 => ⟨S524288, .i32⟩
  | 81 => ⟨S524288, .i32⟩
  | 82 => ⟨S524288x1, .i32⟩
  | 83 => ⟨S524288x1, .i32⟩
  | 84 => ⟨S524288x2, .i32⟩
  | 85 => ⟨S524288x32, .f32⟩
  | 86 => ⟨S_, .i32⟩
  | 87 => ⟨S524288, .i32⟩
  | 88 => ⟨S524288, .i1⟩
  | 89 => ⟨S_, .i32⟩
  | 90 => ⟨S524288, .i32⟩
  | 91 => ⟨S524288, .i32⟩
  | 92 => ⟨S524288, .i32⟩
  | 93 => ⟨S_, .i32⟩
  | 94 => ⟨S524288, .i32⟩
  | 95 => ⟨S524288, .i1⟩
  | 96 => ⟨S_, .i32⟩
  | 97 => ⟨S524288, .i32⟩
  | 98 => ⟨S524288, .i32⟩
  | 99 => ⟨S524288, .i32⟩
  | 100 => ⟨S524288x1, .i32⟩
  | 101 => ⟨S524288x1, .i32⟩
  | 102 => ⟨S524288x2, .i32⟩
  | 103 => ⟨S524288x32, .f32⟩
  | 104 => ⟨S_, .i32⟩
  | 105 => ⟨S524288, .i32⟩
  | 106 => ⟨S524288, .i1⟩
  | 107 => ⟨S_, .i32⟩
  | 108 => ⟨S524288, .i32⟩
  | 109 => ⟨S524288, .i32⟩
  | 110 => ⟨S524288, .i32⟩
  | 111 => ⟨S_, .i32⟩
  | 112 => ⟨S524288, .i32⟩
  | 113 => ⟨S524288, .i1⟩
  | 114 => ⟨S_, .i32⟩
  | 115 => ⟨S524288, .i32⟩
  | 116 => ⟨S524288, .i32⟩
  | 117 => ⟨S524288, .i32⟩
  | 118 => ⟨S524288x1, .i32⟩
  | 119 => ⟨S524288x1, .i32⟩
  | 120 => ⟨S524288x2, .i32⟩
  | 121 => ⟨S524288x32, .f32⟩
  | 122 => ⟨S_, .f32⟩
  | 123 => ⟨S524288x1, .f32⟩
  | 124 => ⟨S524288x1, .f32⟩
  | 125 => ⟨S524288x32, .f32⟩
  | 126 => ⟨S524288x32, .f32⟩
  | 127 => ⟨S524288x32, .f32⟩
  | _ => ⟨S4096x128x3, .f32⟩

abbrev hbmTy0_11 (i : Nat) : BufTy := match i % 128 with
  | 0 => ⟨S524288x32, .f32⟩
  | 1 => ⟨S524288x32, .f32⟩
  | 2 => ⟨S_, .f32⟩
  | 3 => ⟨S524288x1, .f32⟩
  | 4 => ⟨S524288x1, .f32⟩
  | 5 => ⟨S524288x32, .f32⟩
  | 6 => ⟨S524288x32, .f32⟩
  | 7 => ⟨S524288x32, .f32⟩
  | 8 => ⟨S524288x32, .f32⟩
  | 9 => ⟨S524288x32, .f32⟩
  | 10 => ⟨S_, .f32⟩
  | 11 => ⟨S524288x1, .f32⟩
  | 12 => ⟨S524288x1, .f32⟩
  | 13 => ⟨S524288x32, .f32⟩
  | 14 => ⟨S524288x32, .f32⟩
  | 15 => ⟨S524288x32, .f32⟩
  | 16 => ⟨S524288x32, .f32⟩
  | 17 => ⟨S524288x32, .f32⟩
  | 18 => ⟨S524288x288, .f32⟩
  | _ => ⟨S4096x128x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S4096x128x3, .f32⟩

abbrev bufTy : (tb : Table) → Fin (tcTables nBuf tb) → BufTy
  | .hbm, ⟨i, _⟩ => hbmTy i
  | .local _ .vmem, ⟨0, _⟩ => ⟨S2048x32, .f32⟩
  | .local _ .vmem, ⟨1, _⟩ => ⟨S2048x32, .f32⟩
  | .local _ .vmem, ⟨2, _⟩ => ⟨S2048x32, .f32⟩
  | .local _ .vmem, ⟨3, _⟩ => ⟨S2048x32, .f32⟩
  | .local _ .vmem, ⟨4, _⟩ => ⟨S2048x32, .f32⟩
  | .local _ .vmem, ⟨5, _⟩ => ⟨S2048x32, .f32⟩
  | .local _ .vmem, ⟨6, _⟩ => ⟨S2048x32, .f32⟩
  | .local _ .vmem, ⟨7, _⟩ => ⟨S2048x32, .f32⟩
  | .local _ .vmem, ⟨8, _⟩ => ⟨S2048x32, .f32⟩
  | .local _ .vmem, ⟨9, _⟩ => ⟨S2048x32, .f32⟩
  | .local _ .vmem, ⟨10, _⟩ => ⟨S2048x32, .f32⟩
  | .local _ .vmem, ⟨11, _⟩ => ⟨S2048x32, .f32⟩
  | .local _ .vmem, ⟨12, _⟩ => ⟨S2048x32, .f32⟩
  | .local _ .vmem, ⟨13, _⟩ => ⟨S2048x32, .f32⟩
  | .local _ .vmem, ⟨14, _⟩ => ⟨S2048x32, .f32⟩
  | .local _ .vmem, ⟨15, _⟩ => ⟨S2048x32, .f32⟩
  | .local _ .vmem, ⟨16, _⟩ => ⟨S2048x32, .f32⟩
  | .local _ .vmem, ⟨17, _⟩ => ⟨S2048x32, .f32⟩
  | .local _ .vmem, ⟨18, _⟩ => ⟨S2048x288, .f32⟩
  | .local _ .vmem, ⟨19, _⟩ => ⟨S2048x288, .f32⟩
  | _, _ => ⟨S4096x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_c : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_c_9 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_10 : Ref sig .tc := ⟨.hbm, 78, rfl⟩
abbrev main_v45 : Ref sig .tc := ⟨.hbm, 79, rfl⟩
abbrev main_v46 : Ref sig .tc := ⟨.hbm, 80, rfl⟩
abbrev main_c_11 : Ref sig .tc := ⟨.hbm, 81, rfl⟩
abbrev main_v47 : Ref sig .tc := ⟨.hbm, 82, rfl⟩
abbrev main_v48 : Ref sig .tc := ⟨.hbm, 83, rfl⟩
abbrev main_c_12 : Ref sig .tc := ⟨.hbm, 84, rfl⟩
abbrev main_v49 : Ref sig .tc := ⟨.hbm, 85, rfl⟩
abbrev main_v50 : Ref sig .tc := ⟨.hbm, 86, rfl⟩
abbrev main_c_13 : Ref sig .tc := ⟨.hbm, 87, rfl⟩
abbrev main_v51 : Ref sig .tc := ⟨.hbm, 88, rfl⟩
abbrev main_v52 : Ref sig .tc := ⟨.hbm, 89, rfl⟩
abbrev main_c_14 : Ref sig .tc := ⟨.hbm, 90, rfl⟩
abbrev main_v53 : Ref sig .tc := ⟨.hbm, 91, rfl⟩
abbrev main_v54 : Ref sig .tc := ⟨.hbm, 92, rfl⟩
abbrev main_c_15 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_16 : Ref sig .tc := ⟨.hbm, 97, rfl⟩
abbrev main_v58 : Ref sig .tc := ⟨.hbm, 98, rfl⟩
abbrev main_v59 : Ref sig .tc := ⟨.hbm, 99, rfl⟩
abbrev main_c_17 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_c_18 : Ref sig .tc := ⟨.hbm, 108, rfl⟩
abbrev main_v67 : Ref sig .tc := ⟨.hbm, 109, rfl⟩
abbrev main_v68 : Ref sig .tc := ⟨.hbm, 110, rfl⟩
abbrev main_c_19 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_c_20 : Ref sig .tc := ⟨.hbm, 115, rfl⟩
abbrev main_v72 : Ref sig .tc := ⟨.hbm, 116, rfl⟩
abbrev main_v73 : Ref sig .tc := ⟨.hbm, 117, rfl⟩
abbrev main_c_21 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_c_22 : Ref sig .tc := ⟨.hbm, 126, rfl⟩
abbrev main_v81 : Ref sig .tc := ⟨.hbm, 127, rfl⟩
abbrev main_v82 : Ref sig .tc := ⟨.hbm, 128, rfl⟩
abbrev main_c_23 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_c_24 : Ref sig .tc := ⟨.hbm, 133, rfl⟩
abbrev main_v86 : Ref sig .tc := ⟨.hbm, 134, rfl⟩
abbrev main_v87 : Ref sig .tc := ⟨.hbm, 135, rfl⟩
abbrev main_c_25 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_c_26 : Ref sig .tc := ⟨.hbm, 144, rfl⟩
abbrev main_v95 : Ref sig .tc := ⟨.hbm, 145, rfl⟩
abbrev main_v96 : Ref sig .tc := ⟨.hbm, 146, rfl⟩
abbrev main_c_27 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_c_28 : Ref sig .tc := ⟨.hbm, 151, rfl⟩
abbrev main_v100 : Ref sig .tc := ⟨.hbm, 152, rfl⟩
abbrev main_v101 : Ref sig .tc := ⟨.hbm, 153, rfl⟩
abbrev main_c_29 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_30 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_cst_31 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_32 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_33 : Ref sig .tc := ⟨.hbm, 190, rfl⟩
abbrev main_v134 : Ref sig .tc := ⟨.hbm, 191, rfl⟩
abbrev main_v135 : Ref sig .tc := ⟨.hbm, 192, rfl⟩
abbrev main_cst_34 : Ref sig .tc := ⟨.hbm, 193, rfl⟩
abbrev main_v136 : Ref sig .tc := ⟨.hbm, 194, rfl⟩
abbrev main_v137 : Ref sig .tc := ⟨.hbm, 195, rfl⟩
abbrev main_cst_35 : Ref sig .tc := ⟨.hbm, 196, rfl⟩
abbrev main_v138 : Ref sig .tc := ⟨.hbm, 197, rfl⟩
abbrev main_v139 : Ref sig .tc := ⟨.hbm, 198, rfl⟩
abbrev main_cst_36 : Ref sig .tc := ⟨.hbm, 199, rfl⟩
abbrev main_c_37 : Ref sig .tc := ⟨.hbm, 200, rfl⟩
abbrev main_call2_v0 : Ref sig .tc := ⟨.hbm, 201, rfl⟩
abbrev main_call2_v1 : Ref sig .tc := ⟨.hbm, 202, rfl⟩
abbrev main_call2_v2 : Ref sig .tc := ⟨.hbm, 203, rfl⟩
abbrev main_call2_v3 : Ref sig .tc := ⟨.hbm, 204, rfl⟩
abbrev main_call2_v4 : Ref sig .tc := ⟨.hbm, 205, rfl⟩
abbrev main_v140 : Ref sig .tc := ⟨.hbm, 206, rfl⟩
abbrev main_cst_38 : Ref sig .tc := ⟨.hbm, 207, rfl⟩
abbrev main_v141 : Ref sig .tc := ⟨.hbm, 208, rfl⟩
abbrev main_v142 : Ref sig .tc := ⟨.hbm, 209, rfl⟩
abbrev main_cst_39 : Ref sig .tc := ⟨.hbm, 210, rfl⟩
abbrev main_v143 : Ref sig .tc := ⟨.hbm, 211, rfl⟩
abbrev main_v144 : Ref sig .tc := ⟨.hbm, 212, rfl⟩
abbrev main_cst_40 : Ref sig .tc := ⟨.hbm, 213, rfl⟩
abbrev main_v145 : Ref sig .tc := ⟨.hbm, 214, rfl⟩
abbrev main_v146 : Ref sig .tc := ⟨.hbm, 215, rfl⟩
abbrev main_cst_41 : Ref sig .tc := ⟨.hbm, 216, rfl⟩
abbrev main_c_42 : Ref sig .tc := ⟨.hbm, 217, rfl⟩
abbrev main_call3_v0 : Ref sig .tc := ⟨.hbm, 218, rfl⟩
abbrev main_call3_v1 : Ref sig .tc := ⟨.hbm, 219, rfl⟩
abbrev main_call3_v2 : Ref sig .tc := ⟨.hbm, 220, rfl⟩
abbrev main_call3_v3 : Ref sig .tc := ⟨.hbm, 221, rfl⟩
abbrev main_call3_v4 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_c_43 : Ref sig .tc := ⟨.hbm, 233, rfl⟩
abbrev main_v157 : Ref sig .tc := ⟨.hbm, 234, rfl⟩
abbrev main_v158 : Ref sig .tc := ⟨.hbm, 235, rfl⟩
abbrev main_c_44 : Ref sig .tc := ⟨.hbm, 236, rfl⟩
abbrev main_v159 : Ref sig .tc := ⟨.hbm, 237, rfl⟩
abbrev main_v160 : Ref sig .tc := ⟨.hbm, 238, rfl⟩
abbrev main_c_45 : Ref sig .tc := ⟨.hbm, 239, rfl⟩
abbrev main_v161 : Ref sig .tc := ⟨.hbm, 240, rfl⟩
abbrev main_v162 : Ref sig .tc := ⟨.hbm, 241, rfl⟩
abbrev main_c_46 : Ref sig .tc := ⟨.hbm, 242, rfl⟩
abbrev main_v163 : Ref sig .tc := ⟨.hbm, 243, rfl⟩
abbrev main_v164 : Ref sig .tc := ⟨.hbm, 244, rfl⟩
abbrev main_c_47 : Ref sig .tc := ⟨.hbm, 245, rfl⟩
abbrev main_v165 : Ref sig .tc := ⟨.hbm, 246, rfl⟩
abbrev main_v166 : Ref sig .tc := ⟨.hbm, 247, rfl⟩
abbrev main_c_48 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_c_49 : Ref sig .tc := ⟨.hbm, 252, rfl⟩
abbrev main_v170 : Ref sig .tc := ⟨.hbm, 253, rfl⟩
abbrev main_v171 : Ref sig .tc := ⟨.hbm, 254, rfl⟩
abbrev main_c_50 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_c_51 : Ref sig .tc := ⟨.hbm, 263, rfl⟩
abbrev main_v179 : Ref sig .tc := ⟨.hbm, 264, rfl⟩
abbrev main_v180 : Ref sig .tc := ⟨.hbm, 265, rfl⟩
abbrev main_c_52 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_c_53 : Ref sig .tc := ⟨.hbm, 270, rfl⟩
abbrev main_v184 : Ref sig .tc := ⟨.hbm, 271, rfl⟩
abbrev main_v185 : Ref sig .tc := ⟨.hbm, 272, rfl⟩
abbrev main_c_54 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_c_55 : Ref sig .tc := ⟨.hbm, 281, rfl⟩
abbrev main_v193 : Ref sig .tc := ⟨.hbm, 282, rfl⟩
abbrev main_v194 : Ref sig .tc := ⟨.hbm, 283, rfl⟩
abbrev main_c_56 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_c_57 : Ref sig .tc := ⟨.hbm, 288, rfl⟩
abbrev main_v198 : Ref sig .tc := ⟨.hbm, 289, rfl⟩
abbrev main_v199 : Ref sig .tc := ⟨.hbm, 290, rfl⟩
abbrev main_c_58 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_c_59 : Ref sig .tc := ⟨.hbm, 299, rfl⟩
abbrev main_v207 : Ref sig .tc := ⟨.hbm, 300, rfl⟩
abbrev main_v208 : Ref sig .tc := ⟨.hbm, 301, rfl⟩
abbrev main_c_60 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_c_61 : Ref sig .tc := ⟨.hbm, 306, rfl⟩
abbrev main_v212 : Ref sig .tc := ⟨.hbm, 307, rfl⟩
abbrev main_v213 : Ref sig .tc := ⟨.hbm, 308, rfl⟩
abbrev main_c_62 : Ref sig .tc := ⟨.hbm, 309, rfl⟩
abbrev main_v214 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_v218 : Ref sig .tc := ⟨.hbm, 314, rfl⟩
abbrev main_v219 : Ref sig .tc := ⟨.hbm, 315, rfl⟩
abbrev main_v220 : Ref sig .tc := ⟨.hbm, 316, rfl⟩
abbrev main_cst_63 : Ref sig .tc := ⟨.hbm, 317, rfl⟩
abbrev main_v221 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_cst_64 : Ref sig .tc := ⟨.hbm, 325, rfl⟩
abbrev main_v228 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩
abbrev main_v232 : Ref sig .tc := ⟨.hbm, 330, rfl⟩
abbrev main_v233 : Ref sig .tc := ⟨.hbm, 331, rfl⟩
abbrev main_v234 : Ref sig .tc := ⟨.hbm, 332, rfl⟩
abbrev main_cst_65 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_v240 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_v245 : Ref sig .tc := ⟨.hbm, 344, rfl⟩
abbrev main_cst_66 : Ref sig .tc := ⟨.hbm, 345, rfl⟩
abbrev main_v246 : Ref sig .tc := ⟨.hbm, 346, rfl⟩
abbrev main_v247 : Ref sig .tc := ⟨.hbm, 347, rfl⟩
abbrev main_cst_67 : Ref sig .tc := ⟨.hbm, 348, rfl⟩
abbrev main_v248 : Ref sig .tc := ⟨.hbm, 349, rfl⟩
abbrev main_v249 : Ref sig .tc := ⟨.hbm, 350, rfl⟩
abbrev main_cst_68 : Ref sig .tc := ⟨.hbm, 351, rfl⟩
abbrev main_v250 : Ref sig .tc := ⟨.hbm, 352, rfl⟩
abbrev main_v251 : Ref sig .tc := ⟨.hbm, 353, rfl⟩
abbrev main_cst_69 : Ref sig .tc := ⟨.hbm, 354, rfl⟩
abbrev main_c_70 : Ref sig .tc := ⟨.hbm, 355, rfl⟩
abbrev main_call4_v0 : Ref sig .tc := ⟨.hbm, 356, rfl⟩
abbrev main_call4_v1 : Ref sig .tc := ⟨.hbm, 357, rfl⟩
abbrev main_call4_v2 : Ref sig .tc := ⟨.hbm, 358, rfl⟩
abbrev main_call4_v3 : Ref sig .tc := ⟨.hbm, 359, rfl⟩
abbrev main_call4_v4 : Ref sig .tc := ⟨.hbm, 360, rfl⟩
abbrev main_v252 : Ref sig .tc := ⟨.hbm, 361, rfl⟩
abbrev main_cst_71 : Ref sig .tc := ⟨.hbm, 362, rfl⟩
abbrev main_v253 : Ref sig .tc := ⟨.hbm, 363, rfl⟩
abbrev main_v254 : Ref sig .tc := ⟨.hbm, 364, rfl⟩
abbrev main_cst_72 : Ref sig .tc := ⟨.hbm, 365, rfl⟩
abbrev main_v255 : Ref sig .tc := ⟨.hbm, 366, rfl⟩
abbrev main_v256 : Ref sig .tc := ⟨.hbm, 367, rfl⟩
abbrev main_cst_73 : Ref sig .tc := ⟨.hbm, 368, rfl⟩
abbrev main_v257 : Ref sig .tc := ⟨.hbm, 369, rfl⟩
abbrev main_v258 : Ref sig .tc := ⟨.hbm, 370, rfl⟩
abbrev main_cst_74 : Ref sig .tc := ⟨.hbm, 371, rfl⟩
abbrev main_c_75 : Ref sig .tc := ⟨.hbm, 372, rfl⟩
abbrev main_call5_v0 : Ref sig .tc := ⟨.hbm, 373, rfl⟩
abbrev main_call5_v1 : Ref sig .tc := ⟨.hbm, 374, rfl⟩
abbrev main_call5_v2 : Ref sig .tc := ⟨.hbm, 375, rfl⟩
abbrev main_call5_v3 : Ref sig .tc := ⟨.hbm, 376, rfl⟩
abbrev main_call5_v4 : Ref sig .tc := ⟨.hbm, 377, rfl⟩
abbrev main_v259 : Ref sig .tc := ⟨.hbm, 378, rfl⟩
abbrev main_v260 : Ref sig .tc := ⟨.hbm, 379, rfl⟩
abbrev main_v261 : Ref sig .tc := ⟨.hbm, 380, rfl⟩
abbrev main_v262 : Ref sig .tc := ⟨.hbm, 381, rfl⟩
abbrev main_v263 : Ref sig .tc := ⟨.hbm, 382, rfl⟩
abbrev main_v264 : Ref sig .tc := ⟨.hbm, 383, rfl⟩
abbrev main_v265 : Ref sig .tc := ⟨.hbm, 384, rfl⟩
abbrev main_v266 : Ref sig .tc := ⟨.hbm, 385, rfl⟩
abbrev main_v267 : Ref sig .tc := ⟨.hbm, 386, rfl⟩
abbrev main_v268 : Ref sig .tc := ⟨.hbm, 387, rfl⟩
abbrev main_c_76 : Ref sig .tc := ⟨.hbm, 388, rfl⟩
abbrev main_v269 : Ref sig .tc := ⟨.hbm, 389, rfl⟩
abbrev main_v270 : Ref sig .tc := ⟨.hbm, 390, rfl⟩
abbrev main_c_77 : Ref sig .tc := ⟨.hbm, 391, rfl⟩
abbrev main_v271 : Ref sig .tc := ⟨.hbm, 392, rfl⟩
abbrev main_v272 : Ref sig .tc := ⟨.hbm, 393, rfl⟩
abbrev main_c_78 : Ref sig .tc := ⟨.hbm, 394, rfl⟩
abbrev main_v273 : Ref sig .tc := ⟨.hbm, 395, rfl⟩
abbrev main_v274 : Ref sig .tc := ⟨.hbm, 396, rfl⟩
abbrev main_c_79 : Ref sig .tc := ⟨.hbm, 397, rfl⟩
abbrev main_v275 : Ref sig .tc := ⟨.hbm, 398, rfl⟩
abbrev main_v276 : Ref sig .tc := ⟨.hbm, 399, rfl⟩
abbrev main_c_80 : Ref sig .tc := ⟨.hbm, 400, rfl⟩
abbrev main_v277 : Ref sig .tc := ⟨.hbm, 401, rfl⟩
abbrev main_v278 : Ref sig .tc := ⟨.hbm, 402, rfl⟩
abbrev main_c_81 : Ref sig .tc := ⟨.hbm, 403, rfl⟩
abbrev main_v279 : Ref sig .tc := ⟨.hbm, 404, rfl⟩
abbrev main_v280 : Ref sig .tc := ⟨.hbm, 405, rfl⟩
abbrev main_v281 : Ref sig .tc := ⟨.hbm, 406, rfl⟩
abbrev main_c_82 : Ref sig .tc := ⟨.hbm, 407, rfl⟩
abbrev main_v282 : Ref sig .tc := ⟨.hbm, 408, rfl⟩
abbrev main_v283 : Ref sig .tc := ⟨.hbm, 409, rfl⟩
abbrev main_c_83 : Ref sig .tc := ⟨.hbm, 410, rfl⟩
abbrev main_v284 : Ref sig .tc := ⟨.hbm, 411, rfl⟩
abbrev main_v285 : Ref sig .tc := ⟨.hbm, 412, rfl⟩
abbrev main_v286 : Ref sig .tc := ⟨.hbm, 413, rfl⟩
abbrev main_v287 : Ref sig .tc := ⟨.hbm, 414, rfl⟩
abbrev main_v288 : Ref sig .tc := ⟨.hbm, 415, rfl⟩
abbrev main_v289 : Ref sig .tc := ⟨.hbm, 416, rfl⟩
abbrev main_v290 : Ref sig .tc := ⟨.hbm, 417, rfl⟩
abbrev main_c_84 : Ref sig .tc := ⟨.hbm, 418, rfl⟩
abbrev main_v291 : Ref sig .tc := ⟨.hbm, 419, rfl⟩
abbrev main_v292 : Ref sig .tc := ⟨.hbm, 420, rfl⟩
abbrev main_c_85 : Ref sig .tc := ⟨.hbm, 421, rfl⟩
abbrev main_v293 : Ref sig .tc := ⟨.hbm, 422, rfl⟩
abbrev main_v294 : Ref sig .tc := ⟨.hbm, 423, rfl⟩
abbrev main_v295 : Ref sig .tc := ⟨.hbm, 424, rfl⟩
abbrev main_c_86 : Ref sig .tc := ⟨.hbm, 425, rfl⟩
abbrev main_v296 : Ref sig .tc := ⟨.hbm, 426, rfl⟩
abbrev main_v297 : Ref sig .tc := ⟨.hbm, 427, rfl⟩
abbrev main_c_87 : Ref sig .tc := ⟨.hbm, 428, rfl⟩
abbrev main_v298 : Ref sig .tc := ⟨.hbm, 429, rfl⟩
abbrev main_v299 : Ref sig .tc := ⟨.hbm, 430, rfl⟩
abbrev main_v300 : Ref sig .tc := ⟨.hbm, 431, rfl⟩
abbrev main_v301 : Ref sig .tc := ⟨.hbm, 432, rfl⟩
abbrev main_v302 : Ref sig .tc := ⟨.hbm, 433, rfl⟩
abbrev main_v303 : Ref sig .tc := ⟨.hbm, 434, rfl⟩
abbrev main_v304 : Ref sig .tc := ⟨.hbm, 435, rfl⟩
abbrev main_c_88 : Ref sig .tc := ⟨.hbm, 436, rfl⟩
abbrev main_v305 : Ref sig .tc := ⟨.hbm, 437, rfl⟩
abbrev main_v306 : Ref sig .tc := ⟨.hbm, 438, rfl⟩
abbrev main_c_89 : Ref sig .tc := ⟨.hbm, 439, rfl⟩
abbrev main_v307 : Ref sig .tc := ⟨.hbm, 440, rfl⟩
abbrev main_v308 : Ref sig .tc := ⟨.hbm, 441, rfl⟩
abbrev main_v309 : Ref sig .tc := ⟨.hbm, 442, rfl⟩
abbrev main_c_90 : Ref sig .tc := ⟨.hbm, 443, rfl⟩
abbrev main_v310 : Ref sig .tc := ⟨.hbm, 444, rfl⟩
abbrev main_v311 : Ref sig .tc := ⟨.hbm, 445, rfl⟩
abbrev main_c_91 : Ref sig .tc := ⟨.hbm, 446, rfl⟩
abbrev main_v312 : Ref sig .tc := ⟨.hbm, 447, rfl⟩
abbrev main_v313 : Ref sig .tc := ⟨.hbm, 448, rfl⟩
abbrev main_v314 : Ref sig .tc := ⟨.hbm, 449, rfl⟩
abbrev main_v315 : Ref sig .tc := ⟨.hbm, 450, rfl⟩
abbrev main_v316 : Ref sig .tc := ⟨.hbm, 451, rfl⟩
abbrev main_v317 : Ref sig .tc := ⟨.hbm, 452, rfl⟩
abbrev main_v318 : Ref sig .tc := ⟨.hbm, 453, rfl⟩
abbrev main_c_92 : Ref sig .tc := ⟨.hbm, 454, rfl⟩
abbrev main_v319 : Ref sig .tc := ⟨.hbm, 455, rfl⟩
abbrev main_v320 : Ref sig .tc := ⟨.hbm, 456, rfl⟩
abbrev main_c_93 : Ref sig .tc := ⟨.hbm, 457, rfl⟩
abbrev main_v321 : Ref sig .tc := ⟨.hbm, 458, rfl⟩
abbrev main_v322 : Ref sig .tc := ⟨.hbm, 459, rfl⟩
abbrev main_v323 : Ref sig .tc := ⟨.hbm, 460, rfl⟩
abbrev main_c_94 : Ref sig .tc := ⟨.hbm, 461, rfl⟩
abbrev main_v324 : Ref sig .tc := ⟨.hbm, 462, rfl⟩
abbrev main_v325 : Ref sig .tc := ⟨.hbm, 463, rfl⟩
abbrev main_c_95 : Ref sig .tc := ⟨.hbm, 464, rfl⟩
abbrev main_v326 : Ref sig .tc := ⟨.hbm, 465, rfl⟩
abbrev main_v327 : Ref sig .tc := ⟨.hbm, 466, rfl⟩
abbrev main_v328 : Ref sig .tc := ⟨.hbm, 467, rfl⟩
abbrev main_v329 : Ref sig .tc := ⟨.hbm, 468, rfl⟩
abbrev main_v330 : Ref sig .tc := ⟨.hbm, 469, rfl⟩
abbrev main_v331 : Ref sig .tc := ⟨.hbm, 470, rfl⟩
abbrev main_v332 : Ref sig .tc := ⟨.hbm, 471, rfl⟩
abbrev main_cst_96 : Ref sig .tc := ⟨.hbm, 472, rfl⟩
abbrev main_v333 : Ref sig .tc := ⟨.hbm, 473, rfl⟩
abbrev main_v334 : Ref sig .tc := ⟨.hbm, 474, rfl⟩
abbrev main_v335 : Ref sig .tc := ⟨.hbm, 475, rfl⟩
abbrev main_v336 : Ref sig .tc := ⟨.hbm, 476, rfl⟩
abbrev main_v337 : Ref sig .tc := ⟨.hbm, 477, rfl⟩
abbrev main_v338 : Ref sig .tc := ⟨.hbm, 478, rfl⟩
abbrev main_v339 : Ref sig .tc := ⟨.hbm, 479, rfl⟩
abbrev main_cst_97 : Ref sig .tc := ⟨.hbm, 480, rfl⟩
abbrev main_v340 : Ref sig .tc := ⟨.hbm, 481, rfl⟩
abbrev main_v341 : Ref sig .tc := ⟨.hbm, 482, rfl⟩
abbrev main_v342 : Ref sig .tc := ⟨.hbm, 483, rfl⟩
abbrev main_v343 : Ref sig .tc := ⟨.hbm, 484, rfl⟩
abbrev main_v344 : Ref sig .tc := ⟨.hbm, 485, rfl⟩
abbrev main_v345 : Ref sig .tc := ⟨.hbm, 486, rfl⟩
abbrev main_v346 : Ref sig .tc := ⟨.hbm, 487, rfl⟩
abbrev main_cst_98 : Ref sig .tc := ⟨.hbm, 488, rfl⟩
abbrev main_v347 : Ref sig .tc := ⟨.hbm, 489, rfl⟩
abbrev main_v348 : Ref sig .tc := ⟨.hbm, 490, rfl⟩
abbrev main_v349 : Ref sig .tc := ⟨.hbm, 491, rfl⟩
abbrev main_v350 : Ref sig .tc := ⟨.hbm, 492, rfl⟩
abbrev main_v351 : Ref sig .tc := ⟨.hbm, 493, rfl⟩
abbrev main_v352 : Ref sig .tc := ⟨.hbm, 494, rfl⟩
abbrev main_v353 : Ref sig .tc := ⟨.hbm, 495, rfl⟩
abbrev main_v354 : Ref sig .tc := ⟨.hbm, 496, rfl⟩
abbrev main_v355 : Ref sig .tc := ⟨.hbm, 497, rfl⟩
abbrev main_v356 : Ref sig .tc := ⟨.hbm, 498, rfl⟩
abbrev main_v357 : Ref sig .tc := ⟨.hbm, 499, rfl⟩
abbrev main_cst_99 : Ref sig .tc := ⟨.hbm, 500, rfl⟩
abbrev main_v358 : Ref sig .tc := ⟨.hbm, 501, rfl⟩
abbrev main_v359 : Ref sig .tc := ⟨.hbm, 502, rfl⟩
abbrev main_cst_100 : Ref sig .tc := ⟨.hbm, 503, rfl⟩
abbrev main_v360 : Ref sig .tc := ⟨.hbm, 504, rfl⟩
abbrev main_v361 : Ref sig .tc := ⟨.hbm, 505, rfl⟩
abbrev main_cst_101 : Ref sig .tc := ⟨.hbm, 506, rfl⟩
abbrev main_v362 : Ref sig .tc := ⟨.hbm, 507, rfl⟩
abbrev main_v363 : Ref sig .tc := ⟨.hbm, 508, rfl⟩
abbrev main_cst_102 : Ref sig .tc := ⟨.hbm, 509, rfl⟩
abbrev main_c_103 : Ref sig .tc := ⟨.hbm, 510, rfl⟩
abbrev main_call6_v0 : Ref sig .tc := ⟨.hbm, 511, rfl⟩
abbrev main_call6_v1 : Ref sig .tc := ⟨.hbm, 512, rfl⟩
abbrev main_call6_v2 : Ref sig .tc := ⟨.hbm, 513, rfl⟩
abbrev main_call6_v3 : Ref sig .tc := ⟨.hbm, 514, rfl⟩
abbrev main_call6_v4 : Ref sig .tc := ⟨.hbm, 515, rfl⟩
abbrev main_v364 : Ref sig .tc := ⟨.hbm, 516, rfl⟩
abbrev main_cst_104 : Ref sig .tc := ⟨.hbm, 517, rfl⟩
abbrev main_v365 : Ref sig .tc := ⟨.hbm, 518, rfl⟩
abbrev main_v366 : Ref sig .tc := ⟨.hbm, 519, rfl⟩
abbrev main_cst_105 : Ref sig .tc := ⟨.hbm, 520, rfl⟩
abbrev main_v367 : Ref sig .tc := ⟨.hbm, 521, rfl⟩
abbrev main_v368 : Ref sig .tc := ⟨.hbm, 522, rfl⟩
abbrev main_cst_106 : Ref sig .tc := ⟨.hbm, 523, rfl⟩
abbrev main_v369 : Ref sig .tc := ⟨.hbm, 524, rfl⟩
abbrev main_v370 : Ref sig .tc := ⟨.hbm, 525, rfl⟩
abbrev main_cst_107 : Ref sig .tc := ⟨.hbm, 526, rfl⟩
abbrev main_c_108 : Ref sig .tc := ⟨.hbm, 527, rfl⟩
abbrev main_call7_v0 : Ref sig .tc := ⟨.hbm, 528, rfl⟩
abbrev main_call7_v1 : Ref sig .tc := ⟨.hbm, 529, rfl⟩
abbrev main_call7_v2 : Ref sig .tc := ⟨.hbm, 530, rfl⟩
abbrev main_call7_v3 : Ref sig .tc := ⟨.hbm, 531, rfl⟩
abbrev main_call7_v4 : Ref sig .tc := ⟨.hbm, 532, rfl⟩
abbrev main_v371 : Ref sig .tc := ⟨.hbm, 533, rfl⟩
abbrev main_v372 : Ref sig .tc := ⟨.hbm, 534, rfl⟩
abbrev main_v373 : Ref sig .tc := ⟨.hbm, 535, rfl⟩
abbrev main_v374 : Ref sig .tc := ⟨.hbm, 536, rfl⟩
abbrev main_v375 : Ref sig .tc := ⟨.hbm, 537, rfl⟩
abbrev main_v376 : Ref sig .tc := ⟨.hbm, 538, rfl⟩
abbrev main_v377 : Ref sig .tc := ⟨.hbm, 539, rfl⟩
abbrev main_v378 : Ref sig .tc := ⟨.hbm, 540, rfl⟩
abbrev main_v379 : Ref sig .tc := ⟨.hbm, 541, rfl⟩
abbrev main_v380 : Ref sig .tc := ⟨.hbm, 542, rfl⟩
abbrev main_c_109 : Ref sig .tc := ⟨.hbm, 543, rfl⟩
abbrev main_v381 : Ref sig .tc := ⟨.hbm, 544, rfl⟩
abbrev main_v382 : Ref sig .tc := ⟨.hbm, 545, rfl⟩
abbrev main_c_110 : Ref sig .tc := ⟨.hbm, 546, rfl⟩
abbrev main_v383 : Ref sig .tc := ⟨.hbm, 547, rfl⟩
abbrev main_v384 : Ref sig .tc := ⟨.hbm, 548, rfl⟩
abbrev main_c_111 : Ref sig .tc := ⟨.hbm, 549, rfl⟩
abbrev main_v385 : Ref sig .tc := ⟨.hbm, 550, rfl⟩
abbrev main_v386 : Ref sig .tc := ⟨.hbm, 551, rfl⟩
abbrev main_c_112 : Ref sig .tc := ⟨.hbm, 552, rfl⟩
abbrev main_v387 : Ref sig .tc := ⟨.hbm, 553, rfl⟩
abbrev main_v388 : Ref sig .tc := ⟨.hbm, 554, rfl⟩
abbrev main_c_113 : Ref sig .tc := ⟨.hbm, 555, rfl⟩
abbrev main_v389 : Ref sig .tc := ⟨.hbm, 556, rfl⟩
abbrev main_v390 : Ref sig .tc := ⟨.hbm, 557, rfl⟩
abbrev main_c_114 : Ref sig .tc := ⟨.hbm, 558, rfl⟩
abbrev main_v391 : Ref sig .tc := ⟨.hbm, 559, rfl⟩
abbrev main_v392 : Ref sig .tc := ⟨.hbm, 560, rfl⟩
abbrev main_v393 : Ref sig .tc := ⟨.hbm, 561, rfl⟩
abbrev main_c_115 : Ref sig .tc := ⟨.hbm, 562, rfl⟩
abbrev main_v394 : Ref sig .tc := ⟨.hbm, 563, rfl⟩
abbrev main_v395 : Ref sig .tc := ⟨.hbm, 564, rfl⟩
abbrev main_c_116 : Ref sig .tc := ⟨.hbm, 565, rfl⟩
abbrev main_v396 : Ref sig .tc := ⟨.hbm, 566, rfl⟩
abbrev main_v397 : Ref sig .tc := ⟨.hbm, 567, rfl⟩
abbrev main_v398 : Ref sig .tc := ⟨.hbm, 568, rfl⟩
abbrev main_v399 : Ref sig .tc := ⟨.hbm, 569, rfl⟩
abbrev main_v400 : Ref sig .tc := ⟨.hbm, 570, rfl⟩
abbrev main_v401 : Ref sig .tc := ⟨.hbm, 571, rfl⟩
abbrev main_v402 : Ref sig .tc := ⟨.hbm, 572, rfl⟩
abbrev main_c_117 : Ref sig .tc := ⟨.hbm, 573, rfl⟩
abbrev main_v403 : Ref sig .tc := ⟨.hbm, 574, rfl⟩
abbrev main_v404 : Ref sig .tc := ⟨.hbm, 575, rfl⟩
abbrev main_c_118 : Ref sig .tc := ⟨.hbm, 576, rfl⟩
abbrev main_v405 : Ref sig .tc := ⟨.hbm, 577, rfl⟩
abbrev main_v406 : Ref sig .tc := ⟨.hbm, 578, rfl⟩
abbrev main_v407 : Ref sig .tc := ⟨.hbm, 579, rfl⟩
abbrev main_c_119 : Ref sig .tc := ⟨.hbm, 580, rfl⟩
abbrev main_v408 : Ref sig .tc := ⟨.hbm, 581, rfl⟩
abbrev main_v409 : Ref sig .tc := ⟨.hbm, 582, rfl⟩
abbrev main_c_120 : Ref sig .tc := ⟨.hbm, 583, rfl⟩
abbrev main_v410 : Ref sig .tc := ⟨.hbm, 584, rfl⟩
abbrev main_v411 : Ref sig .tc := ⟨.hbm, 585, rfl⟩
abbrev main_v412 : Ref sig .tc := ⟨.hbm, 586, rfl⟩
abbrev main_v413 : Ref sig .tc := ⟨.hbm, 587, rfl⟩
abbrev main_v414 : Ref sig .tc := ⟨.hbm, 588, rfl⟩
abbrev main_v415 : Ref sig .tc := ⟨.hbm, 589, rfl⟩
abbrev main_v416 : Ref sig .tc := ⟨.hbm, 590, rfl⟩
abbrev main_c_121 : Ref sig .tc := ⟨.hbm, 591, rfl⟩
abbrev main_v417 : Ref sig .tc := ⟨.hbm, 592, rfl⟩
abbrev main_v418 : Ref sig .tc := ⟨.hbm, 593, rfl⟩
abbrev main_c_122 : Ref sig .tc := ⟨.hbm, 594, rfl⟩
abbrev main_v419 : Ref sig .tc := ⟨.hbm, 595, rfl⟩
abbrev main_v420 : Ref sig .tc := ⟨.hbm, 596, rfl⟩
abbrev main_v421 : Ref sig .tc := ⟨.hbm, 597, rfl⟩
abbrev main_c_123 : Ref sig .tc := ⟨.hbm, 598, rfl⟩
abbrev main_v422 : Ref sig .tc := ⟨.hbm, 599, rfl⟩
abbrev main_v423 : Ref sig .tc := ⟨.hbm, 600, rfl⟩
abbrev main_c_124 : Ref sig .tc := ⟨.hbm, 601, rfl⟩
abbrev main_v424 : Ref sig .tc := ⟨.hbm, 602, rfl⟩
abbrev main_v425 : Ref sig .tc := ⟨.hbm, 603, rfl⟩
abbrev main_v426 : Ref sig .tc := ⟨.hbm, 604, rfl⟩
abbrev main_v427 : Ref sig .tc := ⟨.hbm, 605, rfl⟩
abbrev main_v428 : Ref sig .tc := ⟨.hbm, 606, rfl⟩
abbrev main_v429 : Ref sig .tc := ⟨.hbm, 607, rfl⟩
abbrev main_v430 : Ref sig .tc := ⟨.hbm, 608, rfl⟩
abbrev main_c_125 : Ref sig .tc := ⟨.hbm, 609, rfl⟩
abbrev main_v431 : Ref sig .tc := ⟨.hbm, 610, rfl⟩
abbrev main_v432 : Ref sig .tc := ⟨.hbm, 611, rfl⟩
abbrev main_c_126 : Ref sig .tc := ⟨.hbm, 612, rfl⟩
abbrev main_v433 : Ref sig .tc := ⟨.hbm, 613, rfl⟩
abbrev main_v434 : Ref sig .tc := ⟨.hbm, 614, rfl⟩
abbrev main_v435 : Ref sig .tc := ⟨.hbm, 615, rfl⟩
abbrev main_c_127 : Ref sig .tc := ⟨.hbm, 616, rfl⟩
abbrev main_v436 : Ref sig .tc := ⟨.hbm, 617, rfl⟩
abbrev main_v437 : Ref sig .tc := ⟨.hbm, 618, rfl⟩
abbrev main_c_128 : Ref sig .tc := ⟨.hbm, 619, rfl⟩
abbrev main_v438 : Ref sig .tc := ⟨.hbm, 620, rfl⟩
abbrev main_v439 : Ref sig .tc := ⟨.hbm, 621, rfl⟩
abbrev main_v440 : Ref sig .tc := ⟨.hbm, 622, rfl⟩
abbrev main_v441 : Ref sig .tc := ⟨.hbm, 623, rfl⟩
abbrev main_v442 : Ref sig .tc := ⟨.hbm, 624, rfl⟩
abbrev main_v443 : Ref sig .tc := ⟨.hbm, 625, rfl⟩
abbrev main_v444 : Ref sig .tc := ⟨.hbm, 626, rfl⟩
abbrev main_cst_129 : Ref sig .tc := ⟨.hbm, 627, rfl⟩
abbrev main_v445 : Ref sig .tc := ⟨.hbm, 628, rfl⟩
abbrev main_v446 : Ref sig .tc := ⟨.hbm, 629, rfl⟩
abbrev main_v447 : Ref sig .tc := ⟨.hbm, 630, rfl⟩
abbrev main_v448 : Ref sig .tc := ⟨.hbm, 631, rfl⟩
abbrev main_v449 : Ref sig .tc := ⟨.hbm, 632, rfl⟩
abbrev main_v450 : Ref sig .tc := ⟨.hbm, 633, rfl⟩
abbrev main_v451 : Ref sig .tc := ⟨.hbm, 634, rfl⟩
abbrev main_cst_130 : Ref sig .tc := ⟨.hbm, 635, rfl⟩
abbrev main_v452 : Ref sig .tc := ⟨.hbm, 636, rfl⟩
abbrev main_v453 : Ref sig .tc := ⟨.hbm, 637, rfl⟩
abbrev main_v454 : Ref sig .tc := ⟨.hbm, 638, rfl⟩
abbrev main_v455 : Ref sig .tc := ⟨.hbm, 639, rfl⟩
abbrev main_v456 : Ref sig .tc := ⟨.hbm, 640, rfl⟩
abbrev main_v457 : Ref sig .tc := ⟨.hbm, 641, rfl⟩
abbrev main_v458 : Ref sig .tc := ⟨.hbm, 642, rfl⟩
abbrev main_cst_131 : Ref sig .tc := ⟨.hbm, 643, rfl⟩
abbrev main_v459 : Ref sig .tc := ⟨.hbm, 644, rfl⟩
abbrev main_v460 : Ref sig .tc := ⟨.hbm, 645, rfl⟩
abbrev main_v461 : Ref sig .tc := ⟨.hbm, 646, rfl⟩
abbrev main_v462 : Ref sig .tc := ⟨.hbm, 647, rfl⟩
abbrev main_v463 : Ref sig .tc := ⟨.hbm, 648, rfl⟩
abbrev main_v464 : Ref sig .tc := ⟨.hbm, 649, rfl⟩
abbrev main_v465 : Ref sig .tc := ⟨.hbm, 650, rfl⟩
abbrev main_v466 : Ref sig .tc := ⟨.hbm, 651, rfl⟩
abbrev main_v467 : Ref sig .tc := ⟨.hbm, 652, rfl⟩
abbrev main_v468 : Ref sig .tc := ⟨.hbm, 653, rfl⟩
abbrev main_v469 : Ref sig .tc := ⟨.hbm, 654, rfl⟩
abbrev main_cst_132 : Ref sig .tc := ⟨.hbm, 655, rfl⟩
abbrev main_v470 : Ref sig .tc := ⟨.hbm, 656, rfl⟩
abbrev main_v471 : Ref sig .tc := ⟨.hbm, 657, rfl⟩
abbrev main_cst_133 : Ref sig .tc := ⟨.hbm, 658, rfl⟩
abbrev main_v472 : Ref sig .tc := ⟨.hbm, 659, rfl⟩
abbrev main_v473 : Ref sig .tc := ⟨.hbm, 660, rfl⟩
abbrev main_cst_134 : Ref sig .tc := ⟨.hbm, 661, rfl⟩
abbrev main_v474 : Ref sig .tc := ⟨.hbm, 662, rfl⟩
abbrev main_v475 : Ref sig .tc := ⟨.hbm, 663, rfl⟩
abbrev main_cst_135 : Ref sig .tc := ⟨.hbm, 664, rfl⟩
abbrev main_c_136 : Ref sig .tc := ⟨.hbm, 665, rfl⟩
abbrev main_call8_v0 : Ref sig .tc := ⟨.hbm, 666, rfl⟩
abbrev main_call8_v1 : Ref sig .tc := ⟨.hbm, 667, rfl⟩
abbrev main_call8_v2 : Ref sig .tc := ⟨.hbm, 668, rfl⟩
abbrev main_call8_v3 : Ref sig .tc := ⟨.hbm, 669, rfl⟩
abbrev main_call8_v4 : Ref sig .tc := ⟨.hbm, 670, rfl⟩
abbrev main_v476 : Ref sig .tc := ⟨.hbm, 671, rfl⟩
abbrev main_cst_137 : Ref sig .tc := ⟨.hbm, 672, rfl⟩
abbrev main_v477 : Ref sig .tc := ⟨.hbm, 673, rfl⟩
abbrev main_v478 : Ref sig .tc := ⟨.hbm, 674, rfl⟩
abbrev main_cst_138 : Ref sig .tc := ⟨.hbm, 675, rfl⟩
abbrev main_v479 : Ref sig .tc := ⟨.hbm, 676, rfl⟩
abbrev main_v480 : Ref sig .tc := ⟨.hbm, 677, rfl⟩
abbrev main_cst_139 : Ref sig .tc := ⟨.hbm, 678, rfl⟩
abbrev main_v481 : Ref sig .tc := ⟨.hbm, 679, rfl⟩
abbrev main_v482 : Ref sig .tc := ⟨.hbm, 680, rfl⟩
abbrev main_cst_140 : Ref sig .tc := ⟨.hbm, 681, rfl⟩
abbrev main_c_141 : Ref sig .tc := ⟨.hbm, 682, rfl⟩
abbrev main_call9_v0 : Ref sig .tc := ⟨.hbm, 683, rfl⟩
abbrev main_call9_v1 : Ref sig .tc := ⟨.hbm, 684, rfl⟩
abbrev main_call9_v2 : Ref sig .tc := ⟨.hbm, 685, rfl⟩
abbrev main_call9_v3 : Ref sig .tc := ⟨.hbm, 686, rfl⟩
abbrev main_call9_v4 : Ref sig .tc := ⟨.hbm, 687, rfl⟩
abbrev main_v483 : Ref sig .tc := ⟨.hbm, 688, rfl⟩
abbrev main_v484 : Ref sig .tc := ⟨.hbm, 689, rfl⟩
abbrev main_v485 : Ref sig .tc := ⟨.hbm, 690, rfl⟩
abbrev main_v486 : Ref sig .tc := ⟨.hbm, 691, rfl⟩
abbrev main_v487 : Ref sig .tc := ⟨.hbm, 692, rfl⟩
abbrev main_v488 : Ref sig .tc := ⟨.hbm, 693, rfl⟩
abbrev main_v489 : Ref sig .tc := ⟨.hbm, 694, rfl⟩
abbrev main_v490 : Ref sig .tc := ⟨.hbm, 695, rfl⟩
abbrev main_v491 : Ref sig .tc := ⟨.hbm, 696, rfl⟩
abbrev main_v492 : Ref sig .tc := ⟨.hbm, 697, rfl⟩
abbrev main_c_142 : Ref sig .tc := ⟨.hbm, 698, rfl⟩
abbrev main_v493 : Ref sig .tc := ⟨.hbm, 699, rfl⟩
abbrev main_v494 : Ref sig .tc := ⟨.hbm, 700, rfl⟩
abbrev main_c_143 : Ref sig .tc := ⟨.hbm, 701, rfl⟩
abbrev main_v495 : Ref sig .tc := ⟨.hbm, 702, rfl⟩
abbrev main_v496 : Ref sig .tc := ⟨.hbm, 703, rfl⟩
abbrev main_c_144 : Ref sig .tc := ⟨.hbm, 704, rfl⟩
abbrev main_v497 : Ref sig .tc := ⟨.hbm, 705, rfl⟩
abbrev main_v498 : Ref sig .tc := ⟨.hbm, 706, rfl⟩
abbrev main_c_145 : Ref sig .tc := ⟨.hbm, 707, rfl⟩
abbrev main_v499 : Ref sig .tc := ⟨.hbm, 708, rfl⟩
abbrev main_v500 : Ref sig .tc := ⟨.hbm, 709, rfl⟩
abbrev main_c_146 : Ref sig .tc := ⟨.hbm, 710, rfl⟩
abbrev main_v501 : Ref sig .tc := ⟨.hbm, 711, rfl⟩
abbrev main_v502 : Ref sig .tc := ⟨.hbm, 712, rfl⟩
abbrev main_c_147 : Ref sig .tc := ⟨.hbm, 713, rfl⟩
abbrev main_v503 : Ref sig .tc := ⟨.hbm, 714, rfl⟩
abbrev main_v504 : Ref sig .tc := ⟨.hbm, 715, rfl⟩
abbrev main_v505 : Ref sig .tc := ⟨.hbm, 716, rfl⟩
abbrev main_c_148 : Ref sig .tc := ⟨.hbm, 717, rfl⟩
abbrev main_v506 : Ref sig .tc := ⟨.hbm, 718, rfl⟩
abbrev main_v507 : Ref sig .tc := ⟨.hbm, 719, rfl⟩
abbrev main_c_149 : Ref sig .tc := ⟨.hbm, 720, rfl⟩
abbrev main_v508 : Ref sig .tc := ⟨.hbm, 721, rfl⟩
abbrev main_v509 : Ref sig .tc := ⟨.hbm, 722, rfl⟩
abbrev main_v510 : Ref sig .tc := ⟨.hbm, 723, rfl⟩
abbrev main_v511 : Ref sig .tc := ⟨.hbm, 724, rfl⟩
abbrev main_v512 : Ref sig .tc := ⟨.hbm, 725, rfl⟩
abbrev main_v513 : Ref sig .tc := ⟨.hbm, 726, rfl⟩
abbrev main_v514 : Ref sig .tc := ⟨.hbm, 727, rfl⟩
abbrev main_c_150 : Ref sig .tc := ⟨.hbm, 728, rfl⟩
abbrev main_v515 : Ref sig .tc := ⟨.hbm, 729, rfl⟩
abbrev main_v516 : Ref sig .tc := ⟨.hbm, 730, rfl⟩
abbrev main_c_151 : Ref sig .tc := ⟨.hbm, 731, rfl⟩
abbrev main_v517 : Ref sig .tc := ⟨.hbm, 732, rfl⟩
abbrev main_v518 : Ref sig .tc := ⟨.hbm, 733, rfl⟩
abbrev main_v519 : Ref sig .tc := ⟨.hbm, 734, rfl⟩
abbrev main_c_152 : Ref sig .tc := ⟨.hbm, 735, rfl⟩
abbrev main_v520 : Ref sig .tc := ⟨.hbm, 736, rfl⟩
abbrev main_v521 : Ref sig .tc := ⟨.hbm, 737, rfl⟩
abbrev main_c_153 : Ref sig .tc := ⟨.hbm, 738, rfl⟩
abbrev main_v522 : Ref sig .tc := ⟨.hbm, 739, rfl⟩
abbrev main_v523 : Ref sig .tc := ⟨.hbm, 740, rfl⟩
abbrev main_v524 : Ref sig .tc := ⟨.hbm, 741, rfl⟩
abbrev main_v525 : Ref sig .tc := ⟨.hbm, 742, rfl⟩
abbrev main_v526 : Ref sig .tc := ⟨.hbm, 743, rfl⟩
abbrev main_v527 : Ref sig .tc := ⟨.hbm, 744, rfl⟩
abbrev main_v528 : Ref sig .tc := ⟨.hbm, 745, rfl⟩
abbrev main_c_154 : Ref sig .tc := ⟨.hbm, 746, rfl⟩
abbrev main_v529 : Ref sig .tc := ⟨.hbm, 747, rfl⟩
abbrev main_v530 : Ref sig .tc := ⟨.hbm, 748, rfl⟩
abbrev main_c_155 : Ref sig .tc := ⟨.hbm, 749, rfl⟩
abbrev main_v531 : Ref sig .tc := ⟨.hbm, 750, rfl⟩
abbrev main_v532 : Ref sig .tc := ⟨.hbm, 751, rfl⟩
abbrev main_v533 : Ref sig .tc := ⟨.hbm, 752, rfl⟩
abbrev main_c_156 : Ref sig .tc := ⟨.hbm, 753, rfl⟩
abbrev main_v534 : Ref sig .tc := ⟨.hbm, 754, rfl⟩
abbrev main_v535 : Ref sig .tc := ⟨.hbm, 755, rfl⟩
abbrev main_c_157 : Ref sig .tc := ⟨.hbm, 756, rfl⟩
abbrev main_v536 : Ref sig .tc := ⟨.hbm, 757, rfl⟩
abbrev main_v537 : Ref sig .tc := ⟨.hbm, 758, rfl⟩
abbrev main_v538 : Ref sig .tc := ⟨.hbm, 759, rfl⟩
abbrev main_v539 : Ref sig .tc := ⟨.hbm, 760, rfl⟩
abbrev main_v540 : Ref sig .tc := ⟨.hbm, 761, rfl⟩
abbrev main_v541 : Ref sig .tc := ⟨.hbm, 762, rfl⟩
abbrev main_v542 : Ref sig .tc := ⟨.hbm, 763, rfl⟩
abbrev main_c_158 : Ref sig .tc := ⟨.hbm, 764, rfl⟩
abbrev main_v543 : Ref sig .tc := ⟨.hbm, 765, rfl⟩
abbrev main_v544 : Ref sig .tc := ⟨.hbm, 766, rfl⟩
abbrev main_c_159 : Ref sig .tc := ⟨.hbm, 767, rfl⟩
abbrev main_v545 : Ref sig .tc := ⟨.hbm, 768, rfl⟩
abbrev main_v546 : Ref sig .tc := ⟨.hbm, 769, rfl⟩
abbrev main_v547 : Ref sig .tc := ⟨.hbm, 770, rfl⟩
abbrev main_c_160 : Ref sig .tc := ⟨.hbm, 771, rfl⟩
abbrev main_v548 : Ref sig .tc := ⟨.hbm, 772, rfl⟩
abbrev main_v549 : Ref sig .tc := ⟨.hbm, 773, rfl⟩
abbrev main_c_161 : Ref sig .tc := ⟨.hbm, 774, rfl⟩
abbrev main_v550 : Ref sig .tc := ⟨.hbm, 775, rfl⟩
abbrev main_v551 : Ref sig .tc := ⟨.hbm, 776, rfl⟩
abbrev main_v552 : Ref sig .tc := ⟨.hbm, 777, rfl⟩
abbrev main_v553 : Ref sig .tc := ⟨.hbm, 778, rfl⟩
abbrev main_v554 : Ref sig .tc := ⟨.hbm, 779, rfl⟩
abbrev main_v555 : Ref sig .tc := ⟨.hbm, 780, rfl⟩
abbrev main_v556 : Ref sig .tc := ⟨.hbm, 781, rfl⟩
abbrev main_cst_162 : Ref sig .tc := ⟨.hbm, 782, rfl⟩
abbrev main_v557 : Ref sig .tc := ⟨.hbm, 783, rfl⟩
abbrev main_v558 : Ref sig .tc := ⟨.hbm, 784, rfl⟩
abbrev main_v559 : Ref sig .tc := ⟨.hbm, 785, rfl⟩
abbrev main_v560 : Ref sig .tc := ⟨.hbm, 786, rfl⟩
abbrev main_v561 : Ref sig .tc := ⟨.hbm, 787, rfl⟩
abbrev main_v562 : Ref sig .tc := ⟨.hbm, 788, rfl⟩
abbrev main_v563 : Ref sig .tc := ⟨.hbm, 789, rfl⟩
abbrev main_cst_163 : Ref sig .tc := ⟨.hbm, 790, rfl⟩
abbrev main_v564 : Ref sig .tc := ⟨.hbm, 791, rfl⟩
abbrev main_v565 : Ref sig .tc := ⟨.hbm, 792, rfl⟩
abbrev main_v566 : Ref sig .tc := ⟨.hbm, 793, rfl⟩
abbrev main_v567 : Ref sig .tc := ⟨.hbm, 794, rfl⟩
abbrev main_v568 : Ref sig .tc := ⟨.hbm, 795, rfl⟩
abbrev main_v569 : Ref sig .tc := ⟨.hbm, 796, rfl⟩
abbrev main_v570 : Ref sig .tc := ⟨.hbm, 797, rfl⟩
abbrev main_cst_164 : Ref sig .tc := ⟨.hbm, 798, rfl⟩
abbrev main_v571 : Ref sig .tc := ⟨.hbm, 799, rfl⟩
abbrev main_v572 : Ref sig .tc := ⟨.hbm, 800, rfl⟩
abbrev main_v573 : Ref sig .tc := ⟨.hbm, 801, rfl⟩
abbrev main_v574 : Ref sig .tc := ⟨.hbm, 802, rfl⟩
abbrev main_v575 : Ref sig .tc := ⟨.hbm, 803, rfl⟩
abbrev main_v576 : Ref sig .tc := ⟨.hbm, 804, rfl⟩
abbrev main_v577 : Ref sig .tc := ⟨.hbm, 805, rfl⟩
abbrev main_v578 : Ref sig .tc := ⟨.hbm, 806, rfl⟩
abbrev main_v579 : Ref sig .tc := ⟨.hbm, 807, rfl⟩
abbrev main_v580 : Ref sig .tc := ⟨.hbm, 808, rfl⟩
abbrev main_v581 : Ref sig .tc := ⟨.hbm, 809, rfl⟩
abbrev main_cst_165 : Ref sig .tc := ⟨.hbm, 810, rfl⟩
abbrev main_v582 : Ref sig .tc := ⟨.hbm, 811, rfl⟩
abbrev main_v583 : Ref sig .tc := ⟨.hbm, 812, rfl⟩
abbrev main_cst_166 : Ref sig .tc := ⟨.hbm, 813, rfl⟩
abbrev main_v584 : Ref sig .tc := ⟨.hbm, 814, rfl⟩
abbrev main_v585 : Ref sig .tc := ⟨.hbm, 815, rfl⟩
abbrev main_cst_167 : Ref sig .tc := ⟨.hbm, 816, rfl⟩
abbrev main_v586 : Ref sig .tc := ⟨.hbm, 817, rfl⟩
abbrev main_v587 : Ref sig .tc := ⟨.hbm, 818, rfl⟩
abbrev main_cst_168 : Ref sig .tc := ⟨.hbm, 819, rfl⟩
abbrev main_c_169 : Ref sig .tc := ⟨.hbm, 820, rfl⟩
abbrev main_call10_v0 : Ref sig .tc := ⟨.hbm, 821, rfl⟩
abbrev main_call10_v1 : Ref sig .tc := ⟨.hbm, 822, rfl⟩
abbrev main_call10_v2 : Ref sig .tc := ⟨.hbm, 823, rfl⟩
abbrev main_call10_v3 : Ref sig .tc := ⟨.hbm, 824, rfl⟩
abbrev main_call10_v4 : Ref sig .tc := ⟨.hbm, 825, rfl⟩
abbrev main_v588 : Ref sig .tc := ⟨.hbm, 826, rfl⟩
abbrev main_cst_170 : Ref sig .tc := ⟨.hbm, 827, rfl⟩
abbrev main_v589 : Ref sig .tc := ⟨.hbm, 828, rfl⟩
abbrev main_v590 : Ref sig .tc := ⟨.hbm, 829, rfl⟩
abbrev main_cst_171 : Ref sig .tc := ⟨.hbm, 830, rfl⟩
abbrev main_v591 : Ref sig .tc := ⟨.hbm, 831, rfl⟩
abbrev main_v592 : Ref sig .tc := ⟨.hbm, 832, rfl⟩
abbrev main_cst_172 : Ref sig .tc := ⟨.hbm, 833, rfl⟩
abbrev main_v593 : Ref sig .tc := ⟨.hbm, 834, rfl⟩
abbrev main_v594 : Ref sig .tc := ⟨.hbm, 835, rfl⟩
abbrev main_cst_173 : Ref sig .tc := ⟨.hbm, 836, rfl⟩
abbrev main_c_174 : Ref sig .tc := ⟨.hbm, 837, rfl⟩
abbrev main_call11_v0 : Ref sig .tc := ⟨.hbm, 838, rfl⟩
abbrev main_call11_v1 : Ref sig .tc := ⟨.hbm, 839, rfl⟩
abbrev main_call11_v2 : Ref sig .tc := ⟨.hbm, 840, rfl⟩
abbrev main_call11_v3 : Ref sig .tc := ⟨.hbm, 841, rfl⟩
abbrev main_call11_v4 : Ref sig .tc := ⟨.hbm, 842, rfl⟩
abbrev main_v595 : Ref sig .tc := ⟨.hbm, 843, rfl⟩
abbrev main_v596 : Ref sig .tc := ⟨.hbm, 844, rfl⟩
abbrev main_v597 : Ref sig .tc := ⟨.hbm, 845, rfl⟩
abbrev main_v598 : Ref sig .tc := ⟨.hbm, 846, rfl⟩
abbrev main_v599 : Ref sig .tc := ⟨.hbm, 847, rfl⟩
abbrev main_v600 : Ref sig .tc := ⟨.hbm, 848, rfl⟩
abbrev main_v601 : Ref sig .tc := ⟨.hbm, 849, rfl⟩
abbrev main_v602 : Ref sig .tc := ⟨.hbm, 850, rfl⟩
abbrev main_v603 : Ref sig .tc := ⟨.hbm, 851, rfl⟩
abbrev main_v604 : Ref sig .tc := ⟨.hbm, 852, rfl⟩
abbrev main_c_175 : Ref sig .tc := ⟨.hbm, 853, rfl⟩
abbrev main_v605 : Ref sig .tc := ⟨.hbm, 854, rfl⟩
abbrev main_v606 : Ref sig .tc := ⟨.hbm, 855, rfl⟩
abbrev main_c_176 : Ref sig .tc := ⟨.hbm, 856, rfl⟩
abbrev main_v607 : Ref sig .tc := ⟨.hbm, 857, rfl⟩
abbrev main_v608 : Ref sig .tc := ⟨.hbm, 858, rfl⟩
abbrev main_c_177 : Ref sig .tc := ⟨.hbm, 859, rfl⟩
abbrev main_v609 : Ref sig .tc := ⟨.hbm, 860, rfl⟩
abbrev main_v610 : Ref sig .tc := ⟨.hbm, 861, rfl⟩
abbrev main_c_178 : Ref sig .tc := ⟨.hbm, 862, rfl⟩
abbrev main_v611 : Ref sig .tc := ⟨.hbm, 863, rfl⟩
abbrev main_v612 : Ref sig .tc := ⟨.hbm, 864, rfl⟩
abbrev main_c_179 : Ref sig .tc := ⟨.hbm, 865, rfl⟩
abbrev main_v613 : Ref sig .tc := ⟨.hbm, 866, rfl⟩
abbrev main_v614 : Ref sig .tc := ⟨.hbm, 867, rfl⟩
abbrev main_c_180 : Ref sig .tc := ⟨.hbm, 868, rfl⟩
abbrev main_v615 : Ref sig .tc := ⟨.hbm, 869, rfl⟩
abbrev main_v616 : Ref sig .tc := ⟨.hbm, 870, rfl⟩
abbrev main_v617 : Ref sig .tc := ⟨.hbm, 871, rfl⟩
abbrev main_c_181 : Ref sig .tc := ⟨.hbm, 872, rfl⟩
abbrev main_v618 : Ref sig .tc := ⟨.hbm, 873, rfl⟩
abbrev main_v619 : Ref sig .tc := ⟨.hbm, 874, rfl⟩
abbrev main_c_182 : Ref sig .tc := ⟨.hbm, 875, rfl⟩
abbrev main_v620 : Ref sig .tc := ⟨.hbm, 876, rfl⟩
abbrev main_v621 : Ref sig .tc := ⟨.hbm, 877, rfl⟩
abbrev main_v622 : Ref sig .tc := ⟨.hbm, 878, rfl⟩
abbrev main_v623 : Ref sig .tc := ⟨.hbm, 879, rfl⟩
abbrev main_v624 : Ref sig .tc := ⟨.hbm, 880, rfl⟩
abbrev main_v625 : Ref sig .tc := ⟨.hbm, 881, rfl⟩
abbrev main_v626 : Ref sig .tc := ⟨.hbm, 882, rfl⟩
abbrev main_c_183 : Ref sig .tc := ⟨.hbm, 883, rfl⟩
abbrev main_v627 : Ref sig .tc := ⟨.hbm, 884, rfl⟩
abbrev main_v628 : Ref sig .tc := ⟨.hbm, 885, rfl⟩
abbrev main_c_184 : Ref sig .tc := ⟨.hbm, 886, rfl⟩
abbrev main_v629 : Ref sig .tc := ⟨.hbm, 887, rfl⟩
abbrev main_v630 : Ref sig .tc := ⟨.hbm, 888, rfl⟩
abbrev main_v631 : Ref sig .tc := ⟨.hbm, 889, rfl⟩
abbrev main_c_185 : Ref sig .tc := ⟨.hbm, 890, rfl⟩
abbrev main_v632 : Ref sig .tc := ⟨.hbm, 891, rfl⟩
abbrev main_v633 : Ref sig .tc := ⟨.hbm, 892, rfl⟩
abbrev main_c_186 : Ref sig .tc := ⟨.hbm, 893, rfl⟩
abbrev main_v634 : Ref sig .tc := ⟨.hbm, 894, rfl⟩
abbrev main_v635 : Ref sig .tc := ⟨.hbm, 895, rfl⟩
abbrev main_v636 : Ref sig .tc := ⟨.hbm, 896, rfl⟩
abbrev main_v637 : Ref sig .tc := ⟨.hbm, 897, rfl⟩
abbrev main_v638 : Ref sig .tc := ⟨.hbm, 898, rfl⟩
abbrev main_v639 : Ref sig .tc := ⟨.hbm, 899, rfl⟩
abbrev main_v640 : Ref sig .tc := ⟨.hbm, 900, rfl⟩
abbrev main_c_187 : Ref sig .tc := ⟨.hbm, 901, rfl⟩
abbrev main_v641 : Ref sig .tc := ⟨.hbm, 902, rfl⟩
abbrev main_v642 : Ref sig .tc := ⟨.hbm, 903, rfl⟩
abbrev main_c_188 : Ref sig .tc := ⟨.hbm, 904, rfl⟩
abbrev main_v643 : Ref sig .tc := ⟨.hbm, 905, rfl⟩
abbrev main_v644 : Ref sig .tc := ⟨.hbm, 906, rfl⟩
abbrev main_v645 : Ref sig .tc := ⟨.hbm, 907, rfl⟩
abbrev main_c_189 : Ref sig .tc := ⟨.hbm, 908, rfl⟩
abbrev main_v646 : Ref sig .tc := ⟨.hbm, 909, rfl⟩
abbrev main_v647 : Ref sig .tc := ⟨.hbm, 910, rfl⟩
abbrev main_c_190 : Ref sig .tc := ⟨.hbm, 911, rfl⟩
abbrev main_v648 : Ref sig .tc := ⟨.hbm, 912, rfl⟩
abbrev main_v649 : Ref sig .tc := ⟨.hbm, 913, rfl⟩
abbrev main_v650 : Ref sig .tc := ⟨.hbm, 914, rfl⟩
abbrev main_v651 : Ref sig .tc := ⟨.hbm, 915, rfl⟩
abbrev main_v652 : Ref sig .tc := ⟨.hbm, 916, rfl⟩
abbrev main_v653 : Ref sig .tc := ⟨.hbm, 917, rfl⟩
abbrev main_v654 : Ref sig .tc := ⟨.hbm, 918, rfl⟩
abbrev main_c_191 : Ref sig .tc := ⟨.hbm, 919, rfl⟩
abbrev main_v655 : Ref sig .tc := ⟨.hbm, 920, rfl⟩
abbrev main_v656 : Ref sig .tc := ⟨.hbm, 921, rfl⟩
abbrev main_c_192 : Ref sig .tc := ⟨.hbm, 922, rfl⟩
abbrev main_v657 : Ref sig .tc := ⟨.hbm, 923, rfl⟩
abbrev main_v658 : Ref sig .tc := ⟨.hbm, 924, rfl⟩
abbrev main_v659 : Ref sig .tc := ⟨.hbm, 925, rfl⟩
abbrev main_c_193 : Ref sig .tc := ⟨.hbm, 926, rfl⟩
abbrev main_v660 : Ref sig .tc := ⟨.hbm, 927, rfl⟩
abbrev main_v661 : Ref sig .tc := ⟨.hbm, 928, rfl⟩
abbrev main_c_194 : Ref sig .tc := ⟨.hbm, 929, rfl⟩
abbrev main_v662 : Ref sig .tc := ⟨.hbm, 930, rfl⟩
abbrev main_v663 : Ref sig .tc := ⟨.hbm, 931, rfl⟩
abbrev main_v664 : Ref sig .tc := ⟨.hbm, 932, rfl⟩
abbrev main_v665 : Ref sig .tc := ⟨.hbm, 933, rfl⟩
abbrev main_v666 : Ref sig .tc := ⟨.hbm, 934, rfl⟩
abbrev main_v667 : Ref sig .tc := ⟨.hbm, 935, rfl⟩
abbrev main_v668 : Ref sig .tc := ⟨.hbm, 936, rfl⟩
abbrev main_cst_195 : Ref sig .tc := ⟨.hbm, 937, rfl⟩
abbrev main_v669 : Ref sig .tc := ⟨.hbm, 938, rfl⟩
abbrev main_v670 : Ref sig .tc := ⟨.hbm, 939, rfl⟩
abbrev main_v671 : Ref sig .tc := ⟨.hbm, 940, rfl⟩
abbrev main_v672 : Ref sig .tc := ⟨.hbm, 941, rfl⟩
abbrev main_v673 : Ref sig .tc := ⟨.hbm, 942, rfl⟩
abbrev main_v674 : Ref sig .tc := ⟨.hbm, 943, rfl⟩
abbrev main_v675 : Ref sig .tc := ⟨.hbm, 944, rfl⟩
abbrev main_cst_196 : Ref sig .tc := ⟨.hbm, 945, rfl⟩
abbrev main_v676 : Ref sig .tc := ⟨.hbm, 946, rfl⟩
abbrev main_v677 : Ref sig .tc := ⟨.hbm, 947, rfl⟩
abbrev main_v678 : Ref sig .tc := ⟨.hbm, 948, rfl⟩
abbrev main_v679 : Ref sig .tc := ⟨.hbm, 949, rfl⟩
abbrev main_v680 : Ref sig .tc := ⟨.hbm, 950, rfl⟩
abbrev main_v681 : Ref sig .tc := ⟨.hbm, 951, rfl⟩
abbrev main_v682 : Ref sig .tc := ⟨.hbm, 952, rfl⟩
abbrev main_cst_197 : Ref sig .tc := ⟨.hbm, 953, rfl⟩
abbrev main_v683 : Ref sig .tc := ⟨.hbm, 954, rfl⟩
abbrev main_v684 : Ref sig .tc := ⟨.hbm, 955, rfl⟩
abbrev main_v685 : Ref sig .tc := ⟨.hbm, 956, rfl⟩
abbrev main_v686 : Ref sig .tc := ⟨.hbm, 957, rfl⟩
abbrev main_v687 : Ref sig .tc := ⟨.hbm, 958, rfl⟩
abbrev main_v688 : Ref sig .tc := ⟨.hbm, 959, rfl⟩
abbrev main_v689 : Ref sig .tc := ⟨.hbm, 960, rfl⟩
abbrev main_v690 : Ref sig .tc := ⟨.hbm, 961, rfl⟩
abbrev main_v691 : Ref sig .tc := ⟨.hbm, 962, rfl⟩
abbrev main_v692 : Ref sig .tc := ⟨.hbm, 963, rfl⟩
abbrev main_v693 : Ref sig .tc := ⟨.hbm, 964, rfl⟩
abbrev main_cst_198 : Ref sig .tc := ⟨.hbm, 965, rfl⟩
abbrev main_v694 : Ref sig .tc := ⟨.hbm, 966, rfl⟩
abbrev main_v695 : Ref sig .tc := ⟨.hbm, 967, rfl⟩
abbrev main_cst_199 : Ref sig .tc := ⟨.hbm, 968, rfl⟩
abbrev main_v696 : Ref sig .tc := ⟨.hbm, 969, rfl⟩
abbrev main_v697 : Ref sig .tc := ⟨.hbm, 970, rfl⟩
abbrev main_cst_200 : Ref sig .tc := ⟨.hbm, 971, rfl⟩
abbrev main_v698 : Ref sig .tc := ⟨.hbm, 972, rfl⟩
abbrev main_v699 : Ref sig .tc := ⟨.hbm, 973, rfl⟩
abbrev main_cst_201 : Ref sig .tc := ⟨.hbm, 974, rfl⟩
abbrev main_c_202 : Ref sig .tc := ⟨.hbm, 975, rfl⟩
abbrev main_call12_v0 : Ref sig .tc := ⟨.hbm, 976, rfl⟩
abbrev main_call12_v1 : Ref sig .tc := ⟨.hbm, 977, rfl⟩
abbrev main_call12_v2 : Ref sig .tc := ⟨.hbm, 978, rfl⟩
abbrev main_call12_v3 : Ref sig .tc := ⟨.hbm, 979, rfl⟩
abbrev main_call12_v4 : Ref sig .tc := ⟨.hbm, 980, rfl⟩
abbrev main_v700 : Ref sig .tc := ⟨.hbm, 981, rfl⟩
abbrev main_cst_203 : Ref sig .tc := ⟨.hbm, 982, rfl⟩
abbrev main_v701 : Ref sig .tc := ⟨.hbm, 983, rfl⟩
abbrev main_v702 : Ref sig .tc := ⟨.hbm, 984, rfl⟩
abbrev main_cst_204 : Ref sig .tc := ⟨.hbm, 985, rfl⟩
abbrev main_v703 : Ref sig .tc := ⟨.hbm, 986, rfl⟩
abbrev main_v704 : Ref sig .tc := ⟨.hbm, 987, rfl⟩
abbrev main_cst_205 : Ref sig .tc := ⟨.hbm, 988, rfl⟩
abbrev main_v705 : Ref sig .tc := ⟨.hbm, 989, rfl⟩
abbrev main_v706 : Ref sig .tc := ⟨.hbm, 990, rfl⟩
abbrev main_cst_206 : Ref sig .tc := ⟨.hbm, 991, rfl⟩
abbrev main_c_207 : Ref sig .tc := ⟨.hbm, 992, rfl⟩
abbrev main_call13_v0 : Ref sig .tc := ⟨.hbm, 993, rfl⟩
abbrev main_call13_v1 : Ref sig .tc := ⟨.hbm, 994, rfl⟩
abbrev main_call13_v2 : Ref sig .tc := ⟨.hbm, 995, rfl⟩
abbrev main_call13_v3 : Ref sig .tc := ⟨.hbm, 996, rfl⟩
abbrev main_call13_v4 : Ref sig .tc := ⟨.hbm, 997, rfl⟩
abbrev main_v707 : Ref sig .tc := ⟨.hbm, 998, rfl⟩
abbrev main_v708 : Ref sig .tc := ⟨.hbm, 999, rfl⟩
abbrev main_v709 : Ref sig .tc := ⟨.hbm, 1000, rfl⟩
abbrev main_v710 : Ref sig .tc := ⟨.hbm, 1001, rfl⟩
abbrev main_v711 : Ref sig .tc := ⟨.hbm, 1002, rfl⟩
abbrev main_v712 : Ref sig .tc := ⟨.hbm, 1003, rfl⟩
abbrev main_v713 : Ref sig .tc := ⟨.hbm, 1004, rfl⟩
abbrev main_v714 : Ref sig .tc := ⟨.hbm, 1005, rfl⟩
abbrev main_v715 : Ref sig .tc := ⟨.hbm, 1006, rfl⟩
abbrev main_v716 : Ref sig .tc := ⟨.hbm, 1007, rfl⟩
abbrev main_c_208 : Ref sig .tc := ⟨.hbm, 1008, rfl⟩
abbrev main_v717 : Ref sig .tc := ⟨.hbm, 1009, rfl⟩
abbrev main_v718 : Ref sig .tc := ⟨.hbm, 1010, rfl⟩
abbrev main_c_209 : Ref sig .tc := ⟨.hbm, 1011, rfl⟩
abbrev main_v719 : Ref sig .tc := ⟨.hbm, 1012, rfl⟩
abbrev main_v720 : Ref sig .tc := ⟨.hbm, 1013, rfl⟩
abbrev main_c_210 : Ref sig .tc := ⟨.hbm, 1014, rfl⟩
abbrev main_v721 : Ref sig .tc := ⟨.hbm, 1015, rfl⟩
abbrev main_v722 : Ref sig .tc := ⟨.hbm, 1016, rfl⟩
abbrev main_c_211 : Ref sig .tc := ⟨.hbm, 1017, rfl⟩
abbrev main_v723 : Ref sig .tc := ⟨.hbm, 1018, rfl⟩
abbrev main_v724 : Ref sig .tc := ⟨.hbm, 1019, rfl⟩
abbrev main_c_212 : Ref sig .tc := ⟨.hbm, 1020, rfl⟩
abbrev main_v725 : Ref sig .tc := ⟨.hbm, 1021, rfl⟩
abbrev main_v726 : Ref sig .tc := ⟨.hbm, 1022, rfl⟩
abbrev main_c_213 : Ref sig .tc := ⟨.hbm, 1023, rfl⟩
abbrev main_v727 : Ref sig .tc := ⟨.hbm, 1024, rfl⟩
abbrev main_v728 : Ref sig .tc := ⟨.hbm, 1025, rfl⟩
abbrev main_v729 : Ref sig .tc := ⟨.hbm, 1026, rfl⟩
abbrev main_c_214 : Ref sig .tc := ⟨.hbm, 1027, rfl⟩
abbrev main_v730 : Ref sig .tc := ⟨.hbm, 1028, rfl⟩
abbrev main_v731 : Ref sig .tc := ⟨.hbm, 1029, rfl⟩
abbrev main_c_215 : Ref sig .tc := ⟨.hbm, 1030, rfl⟩
abbrev main_v732 : Ref sig .tc := ⟨.hbm, 1031, rfl⟩
abbrev main_v733 : Ref sig .tc := ⟨.hbm, 1032, rfl⟩
abbrev main_v734 : Ref sig .tc := ⟨.hbm, 1033, rfl⟩
abbrev main_v735 : Ref sig .tc := ⟨.hbm, 1034, rfl⟩
abbrev main_v736 : Ref sig .tc := ⟨.hbm, 1035, rfl⟩
abbrev main_v737 : Ref sig .tc := ⟨.hbm, 1036, rfl⟩
abbrev main_v738 : Ref sig .tc := ⟨.hbm, 1037, rfl⟩
abbrev main_c_216 : Ref sig .tc := ⟨.hbm, 1038, rfl⟩
abbrev main_v739 : Ref sig .tc := ⟨.hbm, 1039, rfl⟩
abbrev main_v740 : Ref sig .tc := ⟨.hbm, 1040, rfl⟩
abbrev main_c_217 : Ref sig .tc := ⟨.hbm, 1041, rfl⟩
abbrev main_v741 : Ref sig .tc := ⟨.hbm, 1042, rfl⟩
abbrev main_v742 : Ref sig .tc := ⟨.hbm, 1043, rfl⟩
abbrev main_v743 : Ref sig .tc := ⟨.hbm, 1044, rfl⟩
abbrev main_c_218 : Ref sig .tc := ⟨.hbm, 1045, rfl⟩
abbrev main_v744 : Ref sig .tc := ⟨.hbm, 1046, rfl⟩
abbrev main_v745 : Ref sig .tc := ⟨.hbm, 1047, rfl⟩
abbrev main_c_219 : Ref sig .tc := ⟨.hbm, 1048, rfl⟩
abbrev main_v746 : Ref sig .tc := ⟨.hbm, 1049, rfl⟩
abbrev main_v747 : Ref sig .tc := ⟨.hbm, 1050, rfl⟩
abbrev main_v748 : Ref sig .tc := ⟨.hbm, 1051, rfl⟩
abbrev main_v749 : Ref sig .tc := ⟨.hbm, 1052, rfl⟩
abbrev main_v750 : Ref sig .tc := ⟨.hbm, 1053, rfl⟩
abbrev main_v751 : Ref sig .tc := ⟨.hbm, 1054, rfl⟩
abbrev main_v752 : Ref sig .tc := ⟨.hbm, 1055, rfl⟩
abbrev main_c_220 : Ref sig .tc := ⟨.hbm, 1056, rfl⟩
abbrev main_v753 : Ref sig .tc := ⟨.hbm, 1057, rfl⟩
abbrev main_v754 : Ref sig .tc := ⟨.hbm, 1058, rfl⟩
abbrev main_c_221 : Ref sig .tc := ⟨.hbm, 1059, rfl⟩
abbrev main_v755 : Ref sig .tc := ⟨.hbm, 1060, rfl⟩
abbrev main_v756 : Ref sig .tc := ⟨.hbm, 1061, rfl⟩
abbrev main_v757 : Ref sig .tc := ⟨.hbm, 1062, rfl⟩
abbrev main_c_222 : Ref sig .tc := ⟨.hbm, 1063, rfl⟩
abbrev main_v758 : Ref sig .tc := ⟨.hbm, 1064, rfl⟩
abbrev main_v759 : Ref sig .tc := ⟨.hbm, 1065, rfl⟩
abbrev main_c_223 : Ref sig .tc := ⟨.hbm, 1066, rfl⟩
abbrev main_v760 : Ref sig .tc := ⟨.hbm, 1067, rfl⟩
abbrev main_v761 : Ref sig .tc := ⟨.hbm, 1068, rfl⟩
abbrev main_v762 : Ref sig .tc := ⟨.hbm, 1069, rfl⟩
abbrev main_v763 : Ref sig .tc := ⟨.hbm, 1070, rfl⟩
abbrev main_v764 : Ref sig .tc := ⟨.hbm, 1071, rfl⟩
abbrev main_v765 : Ref sig .tc := ⟨.hbm, 1072, rfl⟩
abbrev main_v766 : Ref sig .tc := ⟨.hbm, 1073, rfl⟩
abbrev main_c_224 : Ref sig .tc := ⟨.hbm, 1074, rfl⟩
abbrev main_v767 : Ref sig .tc := ⟨.hbm, 1075, rfl⟩
abbrev main_v768 : Ref sig .tc := ⟨.hbm, 1076, rfl⟩
abbrev main_c_225 : Ref sig .tc := ⟨.hbm, 1077, rfl⟩
abbrev main_v769 : Ref sig .tc := ⟨.hbm, 1078, rfl⟩
abbrev main_v770 : Ref sig .tc := ⟨.hbm, 1079, rfl⟩
abbrev main_v771 : Ref sig .tc := ⟨.hbm, 1080, rfl⟩
abbrev main_c_226 : Ref sig .tc := ⟨.hbm, 1081, rfl⟩
abbrev main_v772 : Ref sig .tc := ⟨.hbm, 1082, rfl⟩
abbrev main_v773 : Ref sig .tc := ⟨.hbm, 1083, rfl⟩
abbrev main_c_227 : Ref sig .tc := ⟨.hbm, 1084, rfl⟩
abbrev main_v774 : Ref sig .tc := ⟨.hbm, 1085, rfl⟩
abbrev main_v775 : Ref sig .tc := ⟨.hbm, 1086, rfl⟩
abbrev main_v776 : Ref sig .tc := ⟨.hbm, 1087, rfl⟩
abbrev main_v777 : Ref sig .tc := ⟨.hbm, 1088, rfl⟩
abbrev main_v778 : Ref sig .tc := ⟨.hbm, 1089, rfl⟩
abbrev main_v779 : Ref sig .tc := ⟨.hbm, 1090, rfl⟩
abbrev main_v780 : Ref sig .tc := ⟨.hbm, 1091, rfl⟩
abbrev main_cst_228 : Ref sig .tc := ⟨.hbm, 1092, rfl⟩
abbrev main_v781 : Ref sig .tc := ⟨.hbm, 1093, rfl⟩
abbrev main_v782 : Ref sig .tc := ⟨.hbm, 1094, rfl⟩
abbrev main_v783 : Ref sig .tc := ⟨.hbm, 1095, rfl⟩
abbrev main_v784 : Ref sig .tc := ⟨.hbm, 1096, rfl⟩
abbrev main_v785 : Ref sig .tc := ⟨.hbm, 1097, rfl⟩
abbrev main_v786 : Ref sig .tc := ⟨.hbm, 1098, rfl⟩
abbrev main_v787 : Ref sig .tc := ⟨.hbm, 1099, rfl⟩
abbrev main_cst_229 : Ref sig .tc := ⟨.hbm, 1100, rfl⟩
abbrev main_v788 : Ref sig .tc := ⟨.hbm, 1101, rfl⟩
abbrev main_v789 : Ref sig .tc := ⟨.hbm, 1102, rfl⟩
abbrev main_v790 : Ref sig .tc := ⟨.hbm, 1103, rfl⟩
abbrev main_v791 : Ref sig .tc := ⟨.hbm, 1104, rfl⟩
abbrev main_v792 : Ref sig .tc := ⟨.hbm, 1105, rfl⟩
abbrev main_v793 : Ref sig .tc := ⟨.hbm, 1106, rfl⟩
abbrev main_v794 : Ref sig .tc := ⟨.hbm, 1107, rfl⟩
abbrev main_cst_230 : Ref sig .tc := ⟨.hbm, 1108, rfl⟩
abbrev main_v795 : Ref sig .tc := ⟨.hbm, 1109, rfl⟩
abbrev main_v796 : Ref sig .tc := ⟨.hbm, 1110, rfl⟩
abbrev main_v797 : Ref sig .tc := ⟨.hbm, 1111, rfl⟩
abbrev main_v798 : Ref sig .tc := ⟨.hbm, 1112, rfl⟩
abbrev main_v799 : Ref sig .tc := ⟨.hbm, 1113, rfl⟩
abbrev main_v800 : Ref sig .tc := ⟨.hbm, 1114, rfl⟩
abbrev main_v801 : Ref sig .tc := ⟨.hbm, 1115, rfl⟩
abbrev main_v802 : Ref sig .tc := ⟨.hbm, 1116, rfl⟩
abbrev main_v803 : Ref sig .tc := ⟨.hbm, 1117, rfl⟩
abbrev main_v804 : Ref sig .tc := ⟨.hbm, 1118, rfl⟩
abbrev main_v805 : Ref sig .tc := ⟨.hbm, 1119, rfl⟩
abbrev main_cst_231 : Ref sig .tc := ⟨.hbm, 1120, rfl⟩
abbrev main_v806 : Ref sig .tc := ⟨.hbm, 1121, rfl⟩
abbrev main_v807 : Ref sig .tc := ⟨.hbm, 1122, rfl⟩
abbrev main_cst_232 : Ref sig .tc := ⟨.hbm, 1123, rfl⟩
abbrev main_v808 : Ref sig .tc := ⟨.hbm, 1124, rfl⟩
abbrev main_v809 : Ref sig .tc := ⟨.hbm, 1125, rfl⟩
abbrev main_cst_233 : Ref sig .tc := ⟨.hbm, 1126, rfl⟩
abbrev main_v810 : Ref sig .tc := ⟨.hbm, 1127, rfl⟩
abbrev main_v811 : Ref sig .tc := ⟨.hbm, 1128, rfl⟩
abbrev main_cst_234 : Ref sig .tc := ⟨.hbm, 1129, rfl⟩
abbrev main_c_235 : Ref sig .tc := ⟨.hbm, 1130, rfl⟩
abbrev main_call14_v0 : Ref sig .tc := ⟨.hbm, 1131, rfl⟩
abbrev main_call14_v1 : Ref sig .tc := ⟨.hbm, 1132, rfl⟩
abbrev main_call14_v2 : Ref sig .tc := ⟨.hbm, 1133, rfl⟩
abbrev main_call14_v3 : Ref sig .tc := ⟨.hbm, 1134, rfl⟩
abbrev main_call14_v4 : Ref sig .tc := ⟨.hbm, 1135, rfl⟩
abbrev main_v812 : Ref sig .tc := ⟨.hbm, 1136, rfl⟩
abbrev main_cst_236 : Ref sig .tc := ⟨.hbm, 1137, rfl⟩
abbrev main_v813 : Ref sig .tc := ⟨.hbm, 1138, rfl⟩
abbrev main_v814 : Ref sig .tc := ⟨.hbm, 1139, rfl⟩
abbrev main_cst_237 : Ref sig .tc := ⟨.hbm, 1140, rfl⟩
abbrev main_v815 : Ref sig .tc := ⟨.hbm, 1141, rfl⟩
abbrev main_v816 : Ref sig .tc := ⟨.hbm, 1142, rfl⟩
abbrev main_cst_238 : Ref sig .tc := ⟨.hbm, 1143, rfl⟩
abbrev main_v817 : Ref sig .tc := ⟨.hbm, 1144, rfl⟩
abbrev main_v818 : Ref sig .tc := ⟨.hbm, 1145, rfl⟩
abbrev main_cst_239 : Ref sig .tc := ⟨.hbm, 1146, rfl⟩
abbrev main_c_240 : Ref sig .tc := ⟨.hbm, 1147, rfl⟩
abbrev main_call15_v0 : Ref sig .tc := ⟨.hbm, 1148, rfl⟩
abbrev main_call15_v1 : Ref sig .tc := ⟨.hbm, 1149, rfl⟩
abbrev main_call15_v2 : Ref sig .tc := ⟨.hbm, 1150, rfl⟩
abbrev main_call15_v3 : Ref sig .tc := ⟨.hbm, 1151, rfl⟩
abbrev main_call15_v4 : Ref sig .tc := ⟨.hbm, 1152, rfl⟩
abbrev main_v819 : Ref sig .tc := ⟨.hbm, 1153, rfl⟩
abbrev main_v820 : Ref sig .tc := ⟨.hbm, 1154, rfl⟩
abbrev main_v821 : Ref sig .tc := ⟨.hbm, 1155, rfl⟩
abbrev main_v822 : Ref sig .tc := ⟨.hbm, 1156, rfl⟩
abbrev main_v823 : Ref sig .tc := ⟨.hbm, 1157, rfl⟩
abbrev main_v824 : Ref sig .tc := ⟨.hbm, 1158, rfl⟩
abbrev main_v825 : Ref sig .tc := ⟨.hbm, 1159, rfl⟩
abbrev main_v826 : Ref sig .tc := ⟨.hbm, 1160, rfl⟩
abbrev main_v827 : Ref sig .tc := ⟨.hbm, 1161, rfl⟩
abbrev main_v828 : Ref sig .tc := ⟨.hbm, 1162, rfl⟩
abbrev main_c_241 : Ref sig .tc := ⟨.hbm, 1163, rfl⟩
abbrev main_v829 : Ref sig .tc := ⟨.hbm, 1164, rfl⟩
abbrev main_v830 : Ref sig .tc := ⟨.hbm, 1165, rfl⟩
abbrev main_c_242 : Ref sig .tc := ⟨.hbm, 1166, rfl⟩
abbrev main_v831 : Ref sig .tc := ⟨.hbm, 1167, rfl⟩
abbrev main_v832 : Ref sig .tc := ⟨.hbm, 1168, rfl⟩
abbrev main_c_243 : Ref sig .tc := ⟨.hbm, 1169, rfl⟩
abbrev main_v833 : Ref sig .tc := ⟨.hbm, 1170, rfl⟩
abbrev main_v834 : Ref sig .tc := ⟨.hbm, 1171, rfl⟩
abbrev main_c_244 : Ref sig .tc := ⟨.hbm, 1172, rfl⟩
abbrev main_v835 : Ref sig .tc := ⟨.hbm, 1173, rfl⟩
abbrev main_v836 : Ref sig .tc := ⟨.hbm, 1174, rfl⟩
abbrev main_c_245 : Ref sig .tc := ⟨.hbm, 1175, rfl⟩
abbrev main_v837 : Ref sig .tc := ⟨.hbm, 1176, rfl⟩
abbrev main_v838 : Ref sig .tc := ⟨.hbm, 1177, rfl⟩
abbrev main_c_246 : Ref sig .tc := ⟨.hbm, 1178, rfl⟩
abbrev main_v839 : Ref sig .tc := ⟨.hbm, 1179, rfl⟩
abbrev main_v840 : Ref sig .tc := ⟨.hbm, 1180, rfl⟩
abbrev main_v841 : Ref sig .tc := ⟨.hbm, 1181, rfl⟩
abbrev main_c_247 : Ref sig .tc := ⟨.hbm, 1182, rfl⟩
abbrev main_v842 : Ref sig .tc := ⟨.hbm, 1183, rfl⟩
abbrev main_v843 : Ref sig .tc := ⟨.hbm, 1184, rfl⟩
abbrev main_c_248 : Ref sig .tc := ⟨.hbm, 1185, rfl⟩
abbrev main_v844 : Ref sig .tc := ⟨.hbm, 1186, rfl⟩
abbrev main_v845 : Ref sig .tc := ⟨.hbm, 1187, rfl⟩
abbrev main_v846 : Ref sig .tc := ⟨.hbm, 1188, rfl⟩
abbrev main_v847 : Ref sig .tc := ⟨.hbm, 1189, rfl⟩
abbrev main_v848 : Ref sig .tc := ⟨.hbm, 1190, rfl⟩
abbrev main_v849 : Ref sig .tc := ⟨.hbm, 1191, rfl⟩
abbrev main_v850 : Ref sig .tc := ⟨.hbm, 1192, rfl⟩
abbrev main_c_249 : Ref sig .tc := ⟨.hbm, 1193, rfl⟩
abbrev main_v851 : Ref sig .tc := ⟨.hbm, 1194, rfl⟩
abbrev main_v852 : Ref sig .tc := ⟨.hbm, 1195, rfl⟩
abbrev main_c_250 : Ref sig .tc := ⟨.hbm, 1196, rfl⟩
abbrev main_v853 : Ref sig .tc := ⟨.hbm, 1197, rfl⟩
abbrev main_v854 : Ref sig .tc := ⟨.hbm, 1198, rfl⟩
abbrev main_v855 : Ref sig .tc := ⟨.hbm, 1199, rfl⟩
abbrev main_c_251 : Ref sig .tc := ⟨.hbm, 1200, rfl⟩
abbrev main_v856 : Ref sig .tc := ⟨.hbm, 1201, rfl⟩
abbrev main_v857 : Ref sig .tc := ⟨.hbm, 1202, rfl⟩
abbrev main_c_252 : Ref sig .tc := ⟨.hbm, 1203, rfl⟩
abbrev main_v858 : Ref sig .tc := ⟨.hbm, 1204, rfl⟩
abbrev main_v859 : Ref sig .tc := ⟨.hbm, 1205, rfl⟩
abbrev main_v860 : Ref sig .tc := ⟨.hbm, 1206, rfl⟩
abbrev main_v861 : Ref sig .tc := ⟨.hbm, 1207, rfl⟩
abbrev main_v862 : Ref sig .tc := ⟨.hbm, 1208, rfl⟩
abbrev main_v863 : Ref sig .tc := ⟨.hbm, 1209, rfl⟩
abbrev main_v864 : Ref sig .tc := ⟨.hbm, 1210, rfl⟩
abbrev main_c_253 : Ref sig .tc := ⟨.hbm, 1211, rfl⟩
abbrev main_v865 : Ref sig .tc := ⟨.hbm, 1212, rfl⟩
abbrev main_v866 : Ref sig .tc := ⟨.hbm, 1213, rfl⟩
abbrev main_c_254 : Ref sig .tc := ⟨.hbm, 1214, rfl⟩
abbrev main_v867 : Ref sig .tc := ⟨.hbm, 1215, rfl⟩
abbrev main_v868 : Ref sig .tc := ⟨.hbm, 1216, rfl⟩
abbrev main_v869 : Ref sig .tc := ⟨.hbm, 1217, rfl⟩
abbrev main_c_255 : Ref sig .tc := ⟨.hbm, 1218, rfl⟩
abbrev main_v870 : Ref sig .tc := ⟨.hbm, 1219, rfl⟩
abbrev main_v871 : Ref sig .tc := ⟨.hbm, 1220, rfl⟩
abbrev main_c_256 : Ref sig .tc := ⟨.hbm, 1221, rfl⟩
abbrev main_v872 : Ref sig .tc := ⟨.hbm, 1222, rfl⟩
abbrev main_v873 : Ref sig .tc := ⟨.hbm, 1223, rfl⟩
abbrev main_v874 : Ref sig .tc := ⟨.hbm, 1224, rfl⟩
abbrev main_v875 : Ref sig .tc := ⟨.hbm, 1225, rfl⟩
abbrev main_v876 : Ref sig .tc := ⟨.hbm, 1226, rfl⟩
abbrev main_v877 : Ref sig .tc := ⟨.hbm, 1227, rfl⟩
abbrev main_v878 : Ref sig .tc := ⟨.hbm, 1228, rfl⟩
abbrev main_c_257 : Ref sig .tc := ⟨.hbm, 1229, rfl⟩
abbrev main_v879 : Ref sig .tc := ⟨.hbm, 1230, rfl⟩
abbrev main_v880 : Ref sig .tc := ⟨.hbm, 1231, rfl⟩
abbrev main_c_258 : Ref sig .tc := ⟨.hbm, 1232, rfl⟩
abbrev main_v881 : Ref sig .tc := ⟨.hbm, 1233, rfl⟩
abbrev main_v882 : Ref sig .tc := ⟨.hbm, 1234, rfl⟩
abbrev main_v883 : Ref sig .tc := ⟨.hbm, 1235, rfl⟩
abbrev main_c_259 : Ref sig .tc := ⟨.hbm, 1236, rfl⟩
abbrev main_v884 : Ref sig .tc := ⟨.hbm, 1237, rfl⟩
abbrev main_v885 : Ref sig .tc := ⟨.hbm, 1238, rfl⟩
abbrev main_c_260 : Ref sig .tc := ⟨.hbm, 1239, rfl⟩
abbrev main_v886 : Ref sig .tc := ⟨.hbm, 1240, rfl⟩
abbrev main_v887 : Ref sig .tc := ⟨.hbm, 1241, rfl⟩
abbrev main_v888 : Ref sig .tc := ⟨.hbm, 1242, rfl⟩
abbrev main_v889 : Ref sig .tc := ⟨.hbm, 1243, rfl⟩
abbrev main_v890 : Ref sig .tc := ⟨.hbm, 1244, rfl⟩
abbrev main_v891 : Ref sig .tc := ⟨.hbm, 1245, rfl⟩
abbrev main_v892 : Ref sig .tc := ⟨.hbm, 1246, rfl⟩
abbrev main_cst_261 : Ref sig .tc := ⟨.hbm, 1247, rfl⟩
abbrev main_v893 : Ref sig .tc := ⟨.hbm, 1248, rfl⟩
abbrev main_v894 : Ref sig .tc := ⟨.hbm, 1249, rfl⟩
abbrev main_v895 : Ref sig .tc := ⟨.hbm, 1250, rfl⟩
abbrev main_v896 : Ref sig .tc := ⟨.hbm, 1251, rfl⟩
abbrev main_v897 : Ref sig .tc := ⟨.hbm, 1252, rfl⟩
abbrev main_v898 : Ref sig .tc := ⟨.hbm, 1253, rfl⟩
abbrev main_v899 : Ref sig .tc := ⟨.hbm, 1254, rfl⟩
abbrev main_cst_262 : Ref sig .tc := ⟨.hbm, 1255, rfl⟩
abbrev main_v900 : Ref sig .tc := ⟨.hbm, 1256, rfl⟩
abbrev main_v901 : Ref sig .tc := ⟨.hbm, 1257, rfl⟩
abbrev main_v902 : Ref sig .tc := ⟨.hbm, 1258, rfl⟩
abbrev main_v903 : Ref sig .tc := ⟨.hbm, 1259, rfl⟩
abbrev main_v904 : Ref sig .tc := ⟨.hbm, 1260, rfl⟩
abbrev main_v905 : Ref sig .tc := ⟨.hbm, 1261, rfl⟩
abbrev main_v906 : Ref sig .tc := ⟨.hbm, 1262, rfl⟩
abbrev main_cst_263 : Ref sig .tc := ⟨.hbm, 1263, rfl⟩
abbrev main_v907 : Ref sig .tc := ⟨.hbm, 1264, rfl⟩
abbrev main_v908 : Ref sig .tc := ⟨.hbm, 1265, rfl⟩
abbrev main_v909 : Ref sig .tc := ⟨.hbm, 1266, rfl⟩
abbrev main_v910 : Ref sig .tc := ⟨.hbm, 1267, rfl⟩
abbrev main_v911 : Ref sig .tc := ⟨.hbm, 1268, rfl⟩
abbrev main_v912 : Ref sig .tc := ⟨.hbm, 1269, rfl⟩
abbrev main_v913 : Ref sig .tc := ⟨.hbm, 1270, rfl⟩
abbrev main_v914 : Ref sig .tc := ⟨.hbm, 1271, rfl⟩
abbrev main_v915 : Ref sig .tc := ⟨.hbm, 1272, rfl⟩
abbrev main_v916 : Ref sig .tc := ⟨.hbm, 1273, rfl⟩
abbrev main_v917 : Ref sig .tc := ⟨.hbm, 1274, rfl⟩
abbrev main_cst_264 : Ref sig .tc := ⟨.hbm, 1275, rfl⟩
abbrev main_v918 : Ref sig .tc := ⟨.hbm, 1276, rfl⟩
abbrev main_v919 : Ref sig .tc := ⟨.hbm, 1277, rfl⟩
abbrev main_cst_265 : Ref sig .tc := ⟨.hbm, 1278, rfl⟩
abbrev main_v920 : Ref sig .tc := ⟨.hbm, 1279, rfl⟩
abbrev main_v921 : Ref sig .tc := ⟨.hbm, 1280, rfl⟩
abbrev main_cst_266 : Ref sig .tc := ⟨.hbm, 1281, rfl⟩
abbrev main_v922 : Ref sig .tc := ⟨.hbm, 1282, rfl⟩
abbrev main_v923 : Ref sig .tc := ⟨.hbm, 1283, rfl⟩
abbrev main_cst_267 : Ref sig .tc := ⟨.hbm, 1284, rfl⟩
abbrev main_c_268 : Ref sig .tc := ⟨.hbm, 1285, rfl⟩
abbrev main_call16_v0 : Ref sig .tc := ⟨.hbm, 1286, rfl⟩
abbrev main_call16_v1 : Ref sig .tc := ⟨.hbm, 1287, rfl⟩
abbrev main_call16_v2 : Ref sig .tc := ⟨.hbm, 1288, rfl⟩
abbrev main_call16_v3 : Ref sig .tc := ⟨.hbm, 1289, rfl⟩
abbrev main_call16_v4 : Ref sig .tc := ⟨.hbm, 1290, rfl⟩
abbrev main_v924 : Ref sig .tc := ⟨.hbm, 1291, rfl⟩
abbrev main_cst_269 : Ref sig .tc := ⟨.hbm, 1292, rfl⟩
abbrev main_v925 : Ref sig .tc := ⟨.hbm, 1293, rfl⟩
abbrev main_v926 : Ref sig .tc := ⟨.hbm, 1294, rfl⟩
abbrev main_cst_270 : Ref sig .tc := ⟨.hbm, 1295, rfl⟩
abbrev main_v927 : Ref sig .tc := ⟨.hbm, 1296, rfl⟩
abbrev main_v928 : Ref sig .tc := ⟨.hbm, 1297, rfl⟩
abbrev main_cst_271 : Ref sig .tc := ⟨.hbm, 1298, rfl⟩
abbrev main_v929 : Ref sig .tc := ⟨.hbm, 1299, rfl⟩
abbrev main_v930 : Ref sig .tc := ⟨.hbm, 1300, rfl⟩
abbrev main_cst_272 : Ref sig .tc := ⟨.hbm, 1301, rfl⟩
abbrev main_c_273 : Ref sig .tc := ⟨.hbm, 1302, rfl⟩
abbrev main_call17_v0 : Ref sig .tc := ⟨.hbm, 1303, rfl⟩
abbrev main_call17_v1 : Ref sig .tc := ⟨.hbm, 1304, rfl⟩
abbrev main_call17_v2 : Ref sig .tc := ⟨.hbm, 1305, rfl⟩
abbrev main_call17_v3 : Ref sig .tc := ⟨.hbm, 1306, rfl⟩
abbrev main_call17_v4 : Ref sig .tc := ⟨.hbm, 1307, rfl⟩
abbrev main_v931 : Ref sig .tc := ⟨.hbm, 1308, rfl⟩
abbrev main_v932 : Ref sig .tc := ⟨.hbm, 1309, rfl⟩
abbrev main_v933 : Ref sig .tc := ⟨.hbm, 1310, rfl⟩
abbrev main_v934 : Ref sig .tc := ⟨.hbm, 1311, rfl⟩
abbrev main_v935 : Ref sig .tc := ⟨.hbm, 1312, rfl⟩
abbrev main_v936 : Ref sig .tc := ⟨.hbm, 1313, rfl⟩
abbrev main_v937 : Ref sig .tc := ⟨.hbm, 1314, rfl⟩
abbrev main_v938 : Ref sig .tc := ⟨.hbm, 1315, rfl⟩
abbrev main_v939 : Ref sig .tc := ⟨.hbm, 1316, rfl⟩
abbrev main_v940 : Ref sig .tc := ⟨.hbm, 1317, rfl⟩
abbrev main_c_274 : Ref sig .tc := ⟨.hbm, 1318, rfl⟩
abbrev main_v941 : Ref sig .tc := ⟨.hbm, 1319, rfl⟩
abbrev main_v942 : Ref sig .tc := ⟨.hbm, 1320, rfl⟩
abbrev main_c_275 : Ref sig .tc := ⟨.hbm, 1321, rfl⟩
abbrev main_v943 : Ref sig .tc := ⟨.hbm, 1322, rfl⟩
abbrev main_v944 : Ref sig .tc := ⟨.hbm, 1323, rfl⟩
abbrev main_c_276 : Ref sig .tc := ⟨.hbm, 1324, rfl⟩
abbrev main_v945 : Ref sig .tc := ⟨.hbm, 1325, rfl⟩
abbrev main_v946 : Ref sig .tc := ⟨.hbm, 1326, rfl⟩
abbrev main_c_277 : Ref sig .tc := ⟨.hbm, 1327, rfl⟩
abbrev main_v947 : Ref sig .tc := ⟨.hbm, 1328, rfl⟩
abbrev main_v948 : Ref sig .tc := ⟨.hbm, 1329, rfl⟩
abbrev main_c_278 : Ref sig .tc := ⟨.hbm, 1330, rfl⟩
abbrev main_v949 : Ref sig .tc := ⟨.hbm, 1331, rfl⟩
abbrev main_v950 : Ref sig .tc := ⟨.hbm, 1332, rfl⟩
abbrev main_c_279 : Ref sig .tc := ⟨.hbm, 1333, rfl⟩
abbrev main_v951 : Ref sig .tc := ⟨.hbm, 1334, rfl⟩
abbrev main_v952 : Ref sig .tc := ⟨.hbm, 1335, rfl⟩
abbrev main_v953 : Ref sig .tc := ⟨.hbm, 1336, rfl⟩
abbrev main_c_280 : Ref sig .tc := ⟨.hbm, 1337, rfl⟩
abbrev main_v954 : Ref sig .tc := ⟨.hbm, 1338, rfl⟩
abbrev main_v955 : Ref sig .tc := ⟨.hbm, 1339, rfl⟩
abbrev main_c_281 : Ref sig .tc := ⟨.hbm, 1340, rfl⟩
abbrev main_v956 : Ref sig .tc := ⟨.hbm, 1341, rfl⟩
abbrev main_v957 : Ref sig .tc := ⟨.hbm, 1342, rfl⟩
abbrev main_v958 : Ref sig .tc := ⟨.hbm, 1343, rfl⟩
abbrev main_v959 : Ref sig .tc := ⟨.hbm, 1344, rfl⟩
abbrev main_v960 : Ref sig .tc := ⟨.hbm, 1345, rfl⟩
abbrev main_v961 : Ref sig .tc := ⟨.hbm, 1346, rfl⟩
abbrev main_v962 : Ref sig .tc := ⟨.hbm, 1347, rfl⟩
abbrev main_c_282 : Ref sig .tc := ⟨.hbm, 1348, rfl⟩
abbrev main_v963 : Ref sig .tc := ⟨.hbm, 1349, rfl⟩
abbrev main_v964 : Ref sig .tc := ⟨.hbm, 1350, rfl⟩
abbrev main_c_283 : Ref sig .tc := ⟨.hbm, 1351, rfl⟩
abbrev main_v965 : Ref sig .tc := ⟨.hbm, 1352, rfl⟩
abbrev main_v966 : Ref sig .tc := ⟨.hbm, 1353, rfl⟩
abbrev main_v967 : Ref sig .tc := ⟨.hbm, 1354, rfl⟩
abbrev main_c_284 : Ref sig .tc := ⟨.hbm, 1355, rfl⟩
abbrev main_v968 : Ref sig .tc := ⟨.hbm, 1356, rfl⟩
abbrev main_v969 : Ref sig .tc := ⟨.hbm, 1357, rfl⟩
abbrev main_c_285 : Ref sig .tc := ⟨.hbm, 1358, rfl⟩
abbrev main_v970 : Ref sig .tc := ⟨.hbm, 1359, rfl⟩
abbrev main_v971 : Ref sig .tc := ⟨.hbm, 1360, rfl⟩
abbrev main_v972 : Ref sig .tc := ⟨.hbm, 1361, rfl⟩
abbrev main_v973 : Ref sig .tc := ⟨.hbm, 1362, rfl⟩
abbrev main_v974 : Ref sig .tc := ⟨.hbm, 1363, rfl⟩
abbrev main_v975 : Ref sig .tc := ⟨.hbm, 1364, rfl⟩
abbrev main_v976 : Ref sig .tc := ⟨.hbm, 1365, rfl⟩
abbrev main_c_286 : Ref sig .tc := ⟨.hbm, 1366, rfl⟩
abbrev main_v977 : Ref sig .tc := ⟨.hbm, 1367, rfl⟩
abbrev main_v978 : Ref sig .tc := ⟨.hbm, 1368, rfl⟩
abbrev main_c_287 : Ref sig .tc := ⟨.hbm, 1369, rfl⟩
abbrev main_v979 : Ref sig .tc := ⟨.hbm, 1370, rfl⟩
abbrev main_v980 : Ref sig .tc := ⟨.hbm, 1371, rfl⟩
abbrev main_v981 : Ref sig .tc := ⟨.hbm, 1372, rfl⟩
abbrev main_c_288 : Ref sig .tc := ⟨.hbm, 1373, rfl⟩
abbrev main_v982 : Ref sig .tc := ⟨.hbm, 1374, rfl⟩
abbrev main_v983 : Ref sig .tc := ⟨.hbm, 1375, rfl⟩
abbrev main_c_289 : Ref sig .tc := ⟨.hbm, 1376, rfl⟩
abbrev main_v984 : Ref sig .tc := ⟨.hbm, 1377, rfl⟩
abbrev main_v985 : Ref sig .tc := ⟨.hbm, 1378, rfl⟩
abbrev main_v986 : Ref sig .tc := ⟨.hbm, 1379, rfl⟩
abbrev main_v987 : Ref sig .tc := ⟨.hbm, 1380, rfl⟩
abbrev main_v988 : Ref sig .tc := ⟨.hbm, 1381, rfl⟩
abbrev main_v989 : Ref sig .tc := ⟨.hbm, 1382, rfl⟩
abbrev main_v990 : Ref sig .tc := ⟨.hbm, 1383, rfl⟩
abbrev main_c_290 : Ref sig .tc := ⟨.hbm, 1384, rfl⟩
abbrev main_v991 : Ref sig .tc := ⟨.hbm, 1385, rfl⟩
abbrev main_v992 : Ref sig .tc := ⟨.hbm, 1386, rfl⟩
abbrev main_c_291 : Ref sig .tc := ⟨.hbm, 1387, rfl⟩
abbrev main_v993 : Ref sig .tc := ⟨.hbm, 1388, rfl⟩
abbrev main_v994 : Ref sig .tc := ⟨.hbm, 1389, rfl⟩
abbrev main_v995 : Ref sig .tc := ⟨.hbm, 1390, rfl⟩
abbrev main_c_292 : Ref sig .tc := ⟨.hbm, 1391, rfl⟩
abbrev main_v996 : Ref sig .tc := ⟨.hbm, 1392, rfl⟩
abbrev main_v997 : Ref sig .tc := ⟨.hbm, 1393, rfl⟩
abbrev main_c_293 : Ref sig .tc := ⟨.hbm, 1394, rfl⟩
abbrev main_v998 : Ref sig .tc := ⟨.hbm, 1395, rfl⟩
abbrev main_v999 : Ref sig .tc := ⟨.hbm, 1396, rfl⟩
abbrev main_v1000 : Ref sig .tc := ⟨.hbm, 1397, rfl⟩
abbrev main_v1001 : Ref sig .tc := ⟨.hbm, 1398, rfl⟩
abbrev main_v1002 : Ref sig .tc := ⟨.hbm, 1399, rfl⟩
abbrev main_v1003 : Ref sig .tc := ⟨.hbm, 1400, rfl⟩
abbrev main_v1004 : Ref sig .tc := ⟨.hbm, 1401, rfl⟩
abbrev main_cst_294 : Ref sig .tc := ⟨.hbm, 1402, rfl⟩
abbrev main_v1005 : Ref sig .tc := ⟨.hbm, 1403, rfl⟩
abbrev main_v1006 : Ref sig .tc := ⟨.hbm, 1404, rfl⟩
abbrev main_v1007 : Ref sig .tc := ⟨.hbm, 1405, rfl⟩
abbrev main_v1008 : Ref sig .tc := ⟨.hbm, 1406, rfl⟩
abbrev main_v1009 : Ref sig .tc := ⟨.hbm, 1407, rfl⟩
abbrev main_v1010 : Ref sig .tc := ⟨.hbm, 1408, rfl⟩
abbrev main_v1011 : Ref sig .tc := ⟨.hbm, 1409, rfl⟩
abbrev main_cst_295 : Ref sig .tc := ⟨.hbm, 1410, rfl⟩
abbrev main_v1012 : Ref sig .tc := ⟨.hbm, 1411, rfl⟩
abbrev main_v1013 : Ref sig .tc := ⟨.hbm, 1412, rfl⟩
abbrev main_v1014 : Ref sig .tc := ⟨.hbm, 1413, rfl⟩
abbrev main_v1015 : Ref sig .tc := ⟨.hbm, 1414, rfl⟩
abbrev main_v1016 : Ref sig .tc := ⟨.hbm, 1415, rfl⟩
abbrev main_v1017 : Ref sig .tc := ⟨.hbm, 1416, rfl⟩
abbrev main_v1018 : Ref sig .tc := ⟨.hbm, 1417, rfl⟩
abbrev main_cst_296 : Ref sig .tc := ⟨.hbm, 1418, rfl⟩
abbrev main_v1019 : Ref sig .tc := ⟨.hbm, 1419, rfl⟩
abbrev main_v1020 : Ref sig .tc := ⟨.hbm, 1420, rfl⟩
abbrev main_v1021 : Ref sig .tc := ⟨.hbm, 1421, rfl⟩
abbrev main_v1022 : Ref sig .tc := ⟨.hbm, 1422, rfl⟩
abbrev main_v1023 : Ref sig .tc := ⟨.hbm, 1423, rfl⟩
abbrev main_v1024 : Ref sig .tc := ⟨.hbm, 1424, rfl⟩
abbrev main_v1025 : Ref sig .tc := ⟨.hbm, 1425, rfl⟩
abbrev main_v1026 : Ref sig .tc := ⟨.hbm, 1426, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x288 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x3_S1x3_0_0 : S2x3.Slices ![0, 0] S1x3
  shapeCasts_S1x3_S3 : S1x3.ShapeCasts S3
  bcast_S3_S1x1x3_2 : S3.BroadcastsInDim S1x1x3 (![2] : Fin 1 → Fin S1x1x3.rank)
  bcast_S1x1x3_S4096x128x3_0_1_2 : S1x1x3.BroadcastsInDim S4096x128x3 (![0, 1, 2] : Fin 3 → Fin S4096x128x3.rank)
  slices_S2x3_S1x3_1_0 : S2x3.Slices ![1, 0] S1x3
  bcast_S_S3 : S_.BroadcastsInDim S3 (![] : Fin 0 → Fin S3.rank)
  bcast_S_S4096x128x3 : S_.BroadcastsInDim S4096x128x3 (![] : Fin 0 → Fin S4096x128x3.rank)
  shapeCasts_S4096x128x3_S524288x3 : S4096x128x3.ShapeCasts S524288x3
  slices_S524288x3_S524288x1_0_0 : S524288x3.Slices ![0, 0] S524288x1
  shapeCasts_S524288x1_S524288 : S524288x1.ShapeCasts S524288
  slices_S524288x3_S524288x1_0_1 : S524288x3.Slices ![0, 1] S524288x1
  bcast_S_S524288 : S_.BroadcastsInDim S524288 (![] : Fin 0 → Fin S524288.rank)
  transposes_S32x128x128_S128x128x32_1_2_0 : S32x128x128.Transposes [1, 2, 0] S128x128x32
  bcast_S524288_S524288x1_0 : S524288.BroadcastsInDim S524288x1 (![0] : Fin 1 → Fin S524288x1.rank)
  concatenates_S524288x1_S524288x1_S524288x2_d1 : Shape.Concatenates [S524288x1, S524288x1] S524288x2 1
  bcast_S_S524288x1 : S_.BroadcastsInDim S524288x1 (![] : Fin 0 → Fin S524288x1.rank)
  bcast_S524288x1_S524288x32_0_1 : S524288x1.BroadcastsInDim S524288x32 (![0, 1] : Fin 2 → Fin S524288x32.rank)
  slices_S524288x3_S524288x1_0_2 : S524288x3.Slices ![0, 2] S524288x1
  transposes_S32x256x256_S256x256x32_1_2_0 : S32x256x256.Transposes [1, 2, 0] S256x256x32
  transposes_S32x512x512_S512x512x32_1_2_0 : S32x512x512.Transposes [1, 2, 0] S512x512x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S2048x288_S2048x32_0_0 : ∀ a, (![0, 0] : Fin 2 → Nat) a + S2048x32.size a ≤ S2048x288.size a
  inb_S2048x288_S2048x32_0_32 : ∀ a, (![0, 32] : Fin 2 → Nat) a + S2048x32.size a ≤ S2048x288.size a
  inb_S2048x288_S2048x32_0_64 : ∀ a, (![0, 64] : Fin 2 → Nat) a + S2048x32.size a ≤ S2048x288.size a
  inb_S2048x288_S2048x32_0_96 : ∀ a, (![0, 96] : Fin 2 → Nat) a + S2048x32.size a ≤ S2048x288.size a
  inb_S2048x288_S2048x32_0_128 : ∀ a, (![0, 128] : Fin 2 → Nat) a + S2048x32.size a ≤ S2048x288.size a
  inb_S2048x288_S2048x32_0_160 : ∀ a, (![0, 160] : Fin 2 → Nat) a + S2048x32.size a ≤ S2048x288.size a
  inb_S2048x288_S2048x32_0_192 : ∀ a, (![0, 192] : Fin 2 → Nat) a + S2048x32.size a ≤ S2048x288.size a
  inb_S2048x288_S2048x32_0_224 : ∀ a, (![0, 224] : Fin 2 → Nat) a + S2048x32.size a ≤ S2048x288.size a
  inb_S2048x288_S2048x32_0_256 : ∀ a, (![0, 256] : Fin 2 → Nat) a + S2048x32.size a ≤ S2048x288.size a
  gather_S128x128x32_S524288x2_S524288x32_1_01_n_n_01_1_1132_wf : GatherDims.WF S128x128x32 S524288x2 S524288x32 [1] [0, 1] [] [0, 1] [] 1 ![1, 1, 32]
  gather_S256x256x32_S524288x2_S524288x32_1_01_n_n_01_1_1132_wf : GatherDims.WF S256x256x32 S524288x2 S524288x32 [1] [0, 1] [] [0, 1] [] 1 ![1, 1, 32]
  gather_S512x512x32_S524288x2_S524288x32_1_01_n_n_01_1_1132_wf : GatherDims.WF S512x512x32 S524288x2 S524288x32 [1] [0, 1] [] [0, 1] [] 1 ![1, 1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S524288x32.size a
  hwx0_0 : ∀ i : grid0.Coords, EltTy.bits .f32 = 32 ∨ (Rect.block (s := S524288x32) S2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S524288x32.size a
  hwx0_1 : ∀ i : grid0.Coords, EltTy.bits .f32 = 32 ∨ (Rect.block (s := S524288x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S524288x32.size a
  hwx0_2 : ∀ i : grid0.Coords, EltTy.bits .f32 = 32 ∨ (Rect.block (s := S524288x32) S2048x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S524288x32.size a
  hwx0_3 : ∀ i : grid0.Coords, EltTy.bits .f32 = 32 ∨ (Rect.block (s := S524288x32) S2048x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x32.size a ≤ S524288x32.size a
  hwx0_4 : ∀ i : grid0.Coords, EltTy.bits .f32 = 32 ∨ (Rect.block (s := S524288x32) S2048x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x32.size a ≤ S524288x32.size a
  hwx0_5 : ∀ i : grid0.Coords, EltTy.bits .f32 = 32 ∨ (Rect.block (s := S524288x32) S2048x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x32.size a ≤ S524288x32.size a
  hwx0_6 : ∀ i : grid0.Coords, EltTy.bits .f32 = 32 ∨ (Rect.block (s := S524288x32) S2048x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x32.size a ≤ S524288x32.size a
  hwx0_7 : ∀ i : grid0.Coords, EltTy.bits .f32 = 32 ∨ (Rect.block (s := S524288x32) S2048x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x32.size a ≤ S524288x32.size a
  hwx0_8 : ∀ i : grid0.Coords, EltTy.bits .f32 = 32 ∨ (Rect.block (s := S524288x32) S2048x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x288.size a ≤ S524288x288.size a
  hwx0_9 : ∀ i : grid0.Coords, EltTy.bits .f32 = 32 ∨ (Rect.block (s := S524288x288) S2048x288.size (cc0_transform_9 i) (hinb0_9 i)).WholeWords (EltTy.packing .f32)

variable [Facts₀]

def gather_S128x128x32_S524288x2_S524288x32_1_01_n_n_01_1_1132 : GatherDims S128x128x32 S524288x2 S524288x32 where
  offsetDims := [1]
  collapsedSliceDims := [0, 1]
  operandBatchingDims := []
  startIndicesBatchingDims := []
  startIndexMap := [0, 1]
  indexVectorDim := 1
  sliceSizes := ![1, 1, 32]
  wf := gather_S128x128x32_S524288x2_S524288x32_1_01_n_n_01_1_1132_wf
def gather_S256x256x32_S524288x2_S524288x32_1_01_n_n_01_1_1132 : GatherDims S256x256x32 S524288x2 S524288x32 where
  offsetDims := [1]
  collapsedSliceDims := [0, 1]
  operandBatchingDims := []
  startIndicesBatchingDims := []
  startIndexMap := [0, 1]
  indexVectorDim := 1
  sliceSizes := ![1, 1, 32]
  wf := gather_S256x256x32_S524288x2_S524288x32_1_01_n_n_01_1_1132_wf
def gather_S512x512x32_S524288x2_S524288x32_1_01_n_n_01_1_1132 : GatherDims S512x512x32 S524288x2 S524288x32 where
  offsetDims := [1]
  collapsedSliceDims := [0, 1]
  operandBatchingDims := []
  startIndicesBatchingDims := []
  startIndexMap := [0, 1]
  indexVectorDim := 1
  sliceSizes := ![1, 1, 32]
  wf := gather_S512x512x32_S524288x2_S524288x32_1_01_n_n_01_1_1132_wf

abbrev win0_0 : Pipeline.Window sig grid0 :=
  Pipeline.Window.ofSpec (Memref.whole main_v129) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v241) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v353) S2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v465) S2048x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v577) S2048x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v689) S2048x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v801) S2048x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v913) S2048x32.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1025) S2048x32.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1026) S2048x288.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x128x3 : Shape := ⟨3, ![4096, 128, 3]⟩
abbrev S2x3 : Shape := ⟨2, ![2, 3]⟩
abbrev S32x128x128 : Shape := ⟨3, ![32, 128, 128]⟩
abbrev S32x256x256 : Shape := ⟨3, ![32, 256, 256]⟩
abbrev S32x512x512 : Shape := ⟨3, ![32, 512, 512]⟩
abbrev S2 : Shape := ⟨1, ![2]⟩
abbrev S1x3 : Shape := ⟨2, ![1, 3]⟩
abbrev S3 : Shape := ⟨1, ![3]⟩
abbrev S1x1x3 : Shape := ⟨3, ![1, 1, 3]⟩
abbrev S_ : Shape := ⟨0, ![]⟩
abbrev S524288x3 : Shape := ⟨2, ![524288, 3]⟩
abbrev S2x1 : Shape := ⟨2, ![2, 1]⟩
abbrev S524288x2 : Shape := ⟨2, ![524288, 2]⟩
abbrev S524288x1 : Shape := ⟨2, ![524288, 1]⟩
abbrev S524288 : Shape := ⟨1, ![524288]⟩
abbrev S32x524288 : Shape := ⟨2, ![32, 524288]⟩
abbrev S1x524288 : Shape := ⟨2, ![1, 524288]⟩
abbrev S524288x32 : Shape := ⟨2, ![524288, 32]⟩
abbrev S524288x96 : Shape := ⟨2, ![524288, 96]⟩
abbrev S524288x288 : Shape := ⟨2, ![524288, 288]⟩

abbrev nBuf : Space → Nat
  | .hbm => 1556
  | .vmem => 0
  | .smem => 0
  | _ => 0

abbrev hbmTy0_0 (i : Nat) : BufTy := match i % 128 with
  | 0 => ⟨S4096x128x3, .f32⟩
  | 1 => ⟨S2x3, .f32⟩
  | 2 => ⟨S32x128x128, .f32⟩
  | 3 => ⟨S32x128x128, .f32⟩
  | 4 => ⟨S32x128x128, .f32⟩
  | 5 => ⟨S32x256x256, .f32⟩
  | 6 => ⟨S32x256x256, .f32⟩
  | 7 => ⟨S32x256x256, .f32⟩
  | 8 => ⟨S32x512x512, .f32⟩
  | 9 => ⟨S32x512x512, .f32⟩
  | 10 => ⟨S32x512x512, .f32⟩
  | 11 => ⟨S2, .i32⟩
  | 12 => ⟨S2, .i32⟩
  | 13 => ⟨S2, .i32⟩
  | 14 => ⟨S2, .i32⟩
  | 15 => ⟨S2, .i32⟩
  | 16 => ⟨S2, .i32⟩
  | 17 => ⟨S2, .i32⟩
  | 18 => ⟨S2, .i32⟩
  | 19 => ⟨S2, .i32⟩
  | 20 => ⟨S1x3, .f32⟩
  | 21 => ⟨S3, .f32⟩
  | 22 => ⟨S1x1x3, .f32⟩
  | 23 => ⟨S4096x128x3, .f32⟩
  | 24 => ⟨S4096x128x3, .f32⟩
  | 25 => ⟨S1x3, .f32⟩
  | 26 => ⟨S3, .f32⟩
  | 27 => ⟨S1x3, .f32⟩
  | 28 => ⟨S3, .f32⟩
  | 29 => ⟨S3, .f32⟩
  | 30 => ⟨S_, .f32⟩
  | 31 => ⟨S3, .f32⟩
  | 32 => ⟨S3, .f32⟩
  | 33 => ⟨S1x1x3, .f32⟩
  | 34 => ⟨S4096x128x3, .f32⟩
  | 35 => ⟨S4096x128x3, .f32⟩
  | 36 => ⟨S_, .f32⟩
  | 37 => ⟨S4096x128x3, .f32⟩
  | 38 => ⟨S4096x128x3, .f32⟩
  | 39 => ⟨S524288x3, .f32⟩
  | 40 => ⟨S_, .i32⟩
  | 41 => ⟨S2, .i32⟩
  | 42 => ⟨S2, .i1⟩
  | 43 => ⟨S_, .i32⟩
  | 44 => ⟨S2, .i32⟩
  | 45 => ⟨S2, .i32⟩
  | 46 => ⟨S2, .i32⟩
  | 47 => ⟨S2x1, .i32⟩
  | 48 => ⟨S524288x2, .f32⟩
  | 49 => ⟨S524288x1, .f32⟩
  | 50 => ⟨S524288, .f32⟩
  | 51 => ⟨S_, .f32⟩
  | 52 => ⟨S524288, .f32⟩
  | 53 => ⟨S524288, .f32⟩
  | 54 => ⟨S_, .f32⟩
  | 55 => ⟨S524288, .f32⟩
  | 56 => ⟨S524288, .f32⟩
  | 57 => ⟨S_, .f32⟩
  | 58 => ⟨S524288, .f32⟩
  | 59 => ⟨S524288, .f32⟩
  | 60 => ⟨S_, .f32⟩
  | 61 => ⟨S_, .i32⟩
  | 62 => ⟨S_, .f32⟩
  | 63 => ⟨S524288, .f32⟩
  | 64 => ⟨S524288, .f32⟩
  | 65 => ⟨S_, .f32⟩
  | 66 => ⟨S524288, .f32⟩
  | 67 => ⟨S524288, .f32⟩
  | 68 => ⟨S524288x1, .f32⟩
  | 69 => ⟨S524288, .f32⟩
  | 70 => ⟨S_, .f32⟩
  | 71 => ⟨S524288, .f32⟩
  | 72 => ⟨S524288, .f32⟩
  | 73 => ⟨S_, .f32⟩
  | 74 => ⟨S524288, .f32⟩
  | 75 => ⟨S524288, .f32⟩
  | 76 => ⟨S_, .f32⟩
  | 77 => ⟨S524288, .f32⟩
  | 78 => ⟨S524288, .f32⟩
  | 79 => ⟨S_, .f32⟩
  | 80 => ⟨S_, .i32⟩
  | 81 => ⟨S_, .f32⟩
  | 82 => ⟨S524288, .f32⟩
  | 83 => ⟨S524288, .f32⟩
  | 84 => ⟨S_, .f32⟩
  | 85 => ⟨S524288, .f32⟩
  | 86 => ⟨S524288, .f32⟩
  | 87 => ⟨S524288, .f32⟩
  | 88 => ⟨S524288, .f32⟩
  | 89 => ⟨S524288, .f32⟩
  | 90 => ⟨S524288, .f32⟩
  | 91 => ⟨S524288, .i32⟩
  | 92 => ⟨S524288, .i32⟩
  | 93 => ⟨S_, .i32⟩
  | 94 => ⟨S524288, .i32⟩
  | 95 => ⟨S524288, .i32⟩
  | 96 => ⟨S_, .i32⟩
  | 97 => ⟨S524288, .i32⟩
  | 98 => ⟨S524288, .i32⟩
  | 99 => ⟨S_, .i32⟩
  | 100 => ⟨S524288, .i32⟩
  | 101 => ⟨S524288, .i32⟩
  | 102 => ⟨S_, .i32⟩
  | 103 => ⟨S524288, .i32⟩
  | 104 => ⟨S524288, .i32⟩
  | 105 => ⟨S_, .i32⟩
  | 106 => ⟨S524288, .i32⟩
  | 107 => ⟨S524288, .i1⟩
  | 108 => ⟨S_, .i32⟩
  | 109 => ⟨S524288, .i32⟩
  | 110 => ⟨S524288, .i32⟩
  | 111 => ⟨S524288, .i32⟩
  | 112 => ⟨S_, .i32⟩
  | 113 => ⟨S524288, .i32⟩
  | 114 => ⟨S524288, .i1⟩
  | 115 => ⟨S_, .i32⟩
  | 116 => ⟨S524288, .i32⟩
  | 117 => ⟨S524288, .i32⟩
  | 118 => ⟨S524288, .i32⟩
  | 119 => ⟨S524288x1, .i32⟩
  | 120 => ⟨S524288x1, .i32⟩
  | 121 => ⟨S524288x2, .i32⟩
  | 122 => ⟨S32x524288, .f32⟩
  | 123 => ⟨S_, .i32⟩
  | 124 => ⟨S524288, .i32⟩
  | 125 => ⟨S524288, .i1⟩
  | 126 => ⟨S_, .i32⟩
  | 127 => ⟨S524288, .i32⟩
  | _ => ⟨S4096x128x3, .f32⟩

abbrev hbmTy0_1 (i : Nat) : BufTy := match i % 128 with
  | 0 => ⟨S524288, .i32⟩
  | 1 => ⟨S524288, .i32⟩
  | 2 => ⟨S_, .i32⟩
  | 3 => ⟨S524288, .i32⟩
  | 4 => ⟨S524288, .i1⟩
  | 5 => ⟨S_, .i32⟩
  | 6 => ⟨S524288, .i32⟩
  | 7 => ⟨S524288, .i32⟩
  | 8 => ⟨S524288, .i32⟩
  | 9 => ⟨S524288x1, .i32⟩
  | 10 => ⟨S524288x1, .i32⟩
  | 11 => ⟨S524288x2, .i32⟩
  | 12 => ⟨S32x524288, .f32⟩
  | 13 => ⟨S_, .i32⟩
  | 14 => ⟨S524288, .i32⟩
  | 15 => ⟨S524288, .i1⟩
  | 16 => ⟨S_, .i32⟩
  | 17 => ⟨S524288, .i32⟩
  | 18 => ⟨S524288, .i32⟩
  | 19 => ⟨S524288, .i32⟩
  | 20 => ⟨S_, .i32⟩
  | 21 => ⟨S524288, .i32⟩
  | 22 => ⟨S524288, .i1⟩
  | 23 => ⟨S_, .i32⟩
  | 24 => ⟨S524288, .i32⟩
  | 25 => ⟨S524288, .i32⟩
  | 26 => ⟨S524288, .i32⟩
  | 27 => ⟨S524288x1, .i32⟩
  | 28 => ⟨S524288x1, .i32⟩
  | 29 => ⟨S524288x2, .i32⟩
  | 30 => ⟨S32x524288, .f32⟩
  | 31 => ⟨S_, .i32⟩
  | 32 => ⟨S524288, .i32⟩
  | 33 => ⟨S524288, .i1⟩
  | 34 => ⟨S_, .i32⟩
  | 35 => ⟨S524288, .i32⟩
  | 36 => ⟨S524288, .i32⟩
  | 37 => ⟨S524288, .i32⟩
  | 38 => ⟨S_, .i32⟩
  | 39 => ⟨S524288, .i32⟩
  | 40 => ⟨S524288, .i1⟩
  | 41 => ⟨S_, .i32⟩
  | 42 => ⟨S524288, .i32⟩
  | 43 => ⟨S524288, .i32⟩
  | 44 => ⟨S524288, .i32⟩
  | 45 => ⟨S524288x1, .i32⟩
  | 46 => ⟨S524288x1, .i32⟩
  | 47 => ⟨S524288x2, .i32⟩
  | 48 => ⟨S32x524288, .f32⟩
  | 49 => ⟨S_, .f32⟩
  | 50 => ⟨S524288, .f32⟩
  | 51 => ⟨S524288, .f32⟩
  | 52 => ⟨S1x524288, .f32⟩
  | 53 => ⟨S32x524288, .f32⟩
  | 54 => ⟨S32x524288, .f32⟩
  | 55 => ⟨S1x524288, .f32⟩
  | 56 => ⟨S32x524288, .f32⟩
  | 57 => ⟨S32x524288, .f32⟩
  | 58 => ⟨S32x524288, .f32⟩
  | 59 => ⟨S_, .f32⟩
  | 60 => ⟨S524288, .f32⟩
  | 61 => ⟨S524288, .f32⟩
  | 62 => ⟨S1x524288, .f32⟩
  | 63 => ⟨S32x524288, .f32⟩
  | 64 => ⟨S32x524288, .f32⟩
  | 65 => ⟨S1x524288, .f32⟩
  | 66 => ⟨S32x524288, .f32⟩
  | 67 => ⟨S32x524288, .f32⟩
  | 68 => ⟨S32x524288, .f32⟩
  | 69 => ⟨S_, .f32⟩
  | 70 => ⟨S524288, .f32⟩
  | 71 => ⟨S524288, .f32⟩
  | 72 => ⟨S1x524288, .f32⟩
  | 73 => ⟨S32x524288, .f32⟩
  | 74 => ⟨S32x524288, .f32⟩
  | 75 => ⟨S1x524288, .f32⟩
  | 76 => ⟨S32x524288, .f32⟩
  | 77 => ⟨S32x524288, .f32⟩
  | 78 => ⟨S32x524288, .f32⟩
  | 79 => ⟨S524288x32, .f32⟩
  | 80 => ⟨S_, .i32⟩
  | 81 => ⟨S2, .i32⟩
  | 82 => ⟨S2, .i1⟩
  | 83 => ⟨S_, .i32⟩
  | 84 => ⟨S2, .i32⟩
  | 85 => ⟨S2, .i32⟩
  | 86 => ⟨S2, .i32⟩
  | 87 => ⟨S2x1, .i32⟩
  | 88 => ⟨S524288x2, .f32⟩
  | 89 => ⟨S524288x1, .f32⟩
  | 90 => ⟨S524288, .f32⟩
  | 91 => ⟨S_, .f32⟩
  | 92 => ⟨S524288, .f32⟩
  | 93 => ⟨S524288, .f32⟩
  | 94 => ⟨S_, .f32⟩
  | 95 => ⟨S524288, .f32⟩
  | 96 => ⟨S524288, .f32⟩
  | 97 => ⟨S_, .f32⟩
  | 98 => ⟨S524288, .f32⟩
  | 99 => ⟨S524288, .f32⟩
  | 100 => ⟨S_, .f32⟩
  | 101 => ⟨S_, .i32⟩
  | 102 => ⟨S_, .f32⟩
  | 103 => ⟨S524288, .f32⟩
  | 104 => ⟨S524288, .f32⟩
  | 105 => ⟨S_, .f32⟩
  | 106 => ⟨S524288, .f32⟩
  | 107 => ⟨S524288, .f32⟩
  | 108 => ⟨S524288x1, .f32⟩
  | 109 => ⟨S524288, .f32⟩
  | 110 => ⟨S_, .f32⟩
  | 111 => ⟨S524288, .f32⟩
  | 112 => ⟨S524288, .f32⟩
  | 113 => ⟨S_, .f32⟩
  | 114 => ⟨S524288, .f32⟩
  | 115 => ⟨S524288, .f32⟩
  | 116 => ⟨S_, .f32⟩
  | 117 => ⟨S524288, .f32⟩
  | 118 => ⟨S524288, .f32⟩
  | 119 => ⟨S_, .f32⟩
  | 120 => ⟨S_, .i32⟩
  | 121 => ⟨S_, .f32⟩
  | 122 => ⟨S524288, .f32⟩
  | 123 => ⟨S524288, .f32⟩
  | 124 => ⟨S_, .f32⟩
  | 125 => ⟨S524288, .f32⟩
  | 126 => ⟨S524288, .f32⟩
  | 127 => ⟨S524288, .f32⟩
  | _ => ⟨S4096x128x3, .f32⟩

abbrev hbmTy0_2 (i : Nat) : BufTy := match i % 128 with
  | 0 => ⟨S524288, .f32⟩
  | 1 => ⟨S524288, .f32⟩
  | 2 => ⟨S524288, .f32⟩
  | 3 => ⟨S524288, .i32⟩
  | 4 => ⟨S524288, .i32⟩
  | 5 => ⟨S_, .i32⟩
  | 6 => ⟨S524288, .i32⟩
  | 7 => ⟨S524288, .i32⟩
  | 8 => ⟨S_, .i32⟩
  | 9 => ⟨S524288, .i32⟩
  | 10 => ⟨S524288, .i32⟩
  | 11 => ⟨S_, .i32⟩
  | 12 => ⟨S524288, .i32⟩
  | 13 => ⟨S524288, .i32⟩
  | 14 => ⟨S_, .i32⟩
  | 15 => ⟨S524288, .i32⟩
  | 16 => ⟨S524288, .i32⟩
  | 17 => ⟨S_, .i32⟩
  | 18 => ⟨S524288, .i32⟩
  | 19 => ⟨S524288, .i1⟩
  | 20 => ⟨S_, .i32⟩
  | 21 => ⟨S524288, .i32⟩
  | 22 => ⟨S524288, .i32⟩
  | 23 => ⟨S524288, .i32⟩
  | 24 => ⟨S_, .i32⟩
  | 25 => ⟨S524288, .i32⟩
  | 26 => ⟨S524288, .i1⟩
  | 27 => ⟨S_, .i32⟩
  | 28 => ⟨S524288, .i32⟩
  | 29 => ⟨S524288, .i32⟩
  | 30 => ⟨S524288, .i32⟩
  | 31 => ⟨S524288x1, .i32⟩
  | 32 => ⟨S524288x1, .i32⟩
  | 33 => ⟨S524288x2, .i32⟩
  | 34 => ⟨S32x524288, .f32⟩
  | 35 => ⟨S_, .i32⟩
  | 36 => ⟨S524288, .i32⟩
  | 37 => ⟨S524288, .i1⟩
  | 38 => ⟨S_, .i32⟩
  | 39 => ⟨S524288, .i32⟩
  | 40 => ⟨S524288, .i32⟩
  | 41 => ⟨S524288, .i32⟩
  | 42 => ⟨S_, .i32⟩
  | 43 => ⟨S524288, .i32⟩
  | 44 => ⟨S524288, .i1⟩
  | 45 => ⟨S_, .i32⟩
  | 46 => ⟨S524288, .i32⟩
  | 47 => ⟨S524288, .i32⟩
  | 48 => ⟨S524288, .i32⟩
  | 49 => ⟨S524288x1, .i32⟩
  | 50 => ⟨S524288x1, .i32⟩
  | 51 => ⟨S524288x2, .i32⟩
  | 52 => ⟨S32x524288, .f32⟩
  | 53 => ⟨S_, .i32⟩
  | 54 => ⟨S524288, .i32⟩
  | 55 => ⟨S524288, .i1⟩
  | 56 => ⟨S_, .i32⟩
  | 57 => ⟨S524288, .i32⟩
  | 58 => ⟨S524288, .i32⟩
  | 59 => ⟨S524288, .i32⟩
  | 60 => ⟨S_, .i32⟩
  | 61 => ⟨S524288, .i32⟩
  | 62 => ⟨S524288, .i1⟩
  | 63 => ⟨S_, .i32⟩
  | 64 => ⟨S524288, .i32⟩
  | 65 => ⟨S524288, .i32⟩
  | 66 => ⟨S524288, .i32⟩
  | 67 => ⟨S524288x1, .i32⟩
  | 68 => ⟨S524288x1, .i32⟩
  | 69 => ⟨S524288x2, .i32⟩
  | 70 => ⟨S32x524288, .f32⟩
  | 71 => ⟨S_, .i32⟩
  | 72 => ⟨S524288, .i32⟩
  | 73 => ⟨S524288, .i1⟩
  | 74 => ⟨S_, .i32⟩
  | 75 => ⟨S524288, .i32⟩
  | 76 => ⟨S524288, .i32⟩
  | 77 => ⟨S524288, .i32⟩
  | 78 => ⟨S_, .i32⟩
  | 79 => ⟨S524288, .i32⟩
  | 80 => ⟨S524288, .i1⟩
  | 81 => ⟨S_, .i32⟩
  | 82 => ⟨S524288, .i32⟩
  | 83 => ⟨S524288, .i32⟩
  | 84 => ⟨S524288, .i32⟩
  | 85 => ⟨S524288x1, .i32⟩
  | 86 => ⟨S524288x1, .i32⟩
  | 87 => ⟨S524288x2, .i32⟩
  | 88 => ⟨S32x524288, .f32⟩
  | 89 => ⟨S_, .f32⟩
  | 90 => ⟨S524288, .f32⟩
  | 91 => ⟨S524288, .f32⟩
  | 92 => ⟨S1x524288, .f32⟩
  | 93 => ⟨S32x524288, .f32⟩
  | 94 => ⟨S32x524288, .f32⟩
  | 95 => ⟨S1x524288, .f32⟩
  | 96 => ⟨S32x524288, .f32⟩
  | 97 => ⟨S32x524288, .f32⟩
  | 98 => ⟨S32x524288, .f32⟩
  | 99 => ⟨S_, .f32⟩
  | 100 => ⟨S524288, .f32⟩
  | 101 => ⟨S524288, .f32⟩
  | 102 => ⟨S1x524288, .f32⟩
  | 103 => ⟨S32x524288, .f32⟩
  | 104 => ⟨S32x524288, .f32⟩
  | 105 => ⟨S1x524288, .f32⟩
  | 106 => ⟨S32x524288, .f32⟩
  | 107 => ⟨S32x524288, .f32⟩
  | 108 => ⟨S32x524288, .f32⟩
  | 109 => ⟨S_, .f32⟩
  | 110 => ⟨S524288, .f32⟩
  | 111 => ⟨S524288, .f32⟩
  | 112 => ⟨S1x524288, .f32⟩
  | 113 => ⟨S32x524288, .f32⟩
  | 114 => ⟨S32x524288, .f32⟩
  | 115 => ⟨S1x524288, .f32⟩
  | 116 => ⟨S32x524288, .f32⟩
  | 117 => ⟨S32x524288, .f32⟩
  | 118 => ⟨S32x524288, .f32⟩
  | 119 => ⟨S524288x32, .f32⟩
  | 120 => ⟨S_, .i32⟩
  | 121 => ⟨S2, .i32⟩
  | 122 => ⟨S2, .i1⟩
  | 123 => ⟨S_, .i32⟩
  | 124 => ⟨S2, .i32⟩
  | 125 => ⟨S2, .i32⟩
  | 126 => ⟨S2, .i32⟩
  | 127 => ⟨S2x1, .i32⟩
  | _ => ⟨S4096x128x3, .f32⟩

abbrev hbmTy0_3 (i : Nat) : BufTy := match i % 128 with
  | 0 => ⟨S524288x2, .f32⟩
  | 1 => ⟨S524288x1, .f32⟩
  | 2 => ⟨S524288, .f32⟩
  | 3 => ⟨S_, .f32⟩
  | 4 => ⟨S524288, .f32⟩
  | 5 => ⟨S524288, .f32⟩
  | 6 => ⟨S_, .f32⟩
  | 7 => ⟨S524288, .f32⟩
  | 8 => ⟨S524288, .f32⟩
  | 9 => ⟨S_, .f32⟩
  | 10 => ⟨S524288, .f32⟩
  | 11 => ⟨S524288, .f32⟩
  | 12 => ⟨S_, .f32⟩
  | 13 => ⟨S_, .i32⟩
  | 14 => ⟨S_, .f32⟩
  | 15 => ⟨S524288, .f32⟩
  | 16 => ⟨S524288, .f32⟩
  | 17 => ⟨S_, .f32⟩
  | 18 => ⟨S524288, .f32⟩
  | 19 => ⟨S524288, .f32⟩
  | 20 => ⟨S524288x1, .f32⟩
  | 21 => ⟨S524288, .f32⟩
  | 22 => ⟨S_, .f32⟩
  | 23 => ⟨S524288, .f32⟩
  | 24 => ⟨S524288, .f32⟩
  | 25 => ⟨S_, .f32⟩
  | 26 => ⟨S524288, .f32⟩
  | 27 => ⟨S524288, .f32⟩
  | 28 => ⟨S_, .f32⟩
  | 29 => ⟨S524288, .f32⟩
  | 30 => ⟨S524288, .f32⟩
  | 31 => ⟨S_, .f32⟩
  | 32 => ⟨S_, .i32⟩
  | 33 => ⟨S_, .f32⟩
  | 34 => ⟨S524288, .f32⟩
  | 35 => ⟨S524288, .f32⟩
  | 36 => ⟨S_, .f32⟩
  | 37 => ⟨S524288, .f32⟩
  | 38 => ⟨S524288, .f32⟩
  | 39 => ⟨S524288, .f32⟩
  | 40 => ⟨S524288, .f32⟩
  | 41 => ⟨S524288, .f32⟩
  | 42 => ⟨S524288, .f32⟩
  | 43 => ⟨S524288, .i32⟩
  | 44 => ⟨S524288, .i32⟩
  | 45 => ⟨S_, .i32⟩
  | 46 => ⟨S524288, .i32⟩
  | 47 => ⟨S524288, .i32⟩
  | 48 => ⟨S_, .i32⟩
  | 49 => ⟨S524288, .i32⟩
  | 50 => ⟨S524288, .i32⟩
  | 51 => ⟨S_, .i32⟩
  | 52 => ⟨S524288, .i32⟩
  | 53 => ⟨S524288, .i32⟩
  | 54 => ⟨S_, .i32⟩
  | 55 => ⟨S524288, .i32⟩
  | 56 => ⟨S524288, .i32⟩
  | 57 => ⟨S_, .i32⟩
  | 58 => ⟨S524288, .i32⟩
  | 59 => ⟨S524288, .i1⟩
  | 60 => ⟨S_, .i32⟩
  | 61 => ⟨S524288, .i32⟩
  | 62 => ⟨S524288, .i32⟩
  | 63 => ⟨S524288, .i32⟩
  | 64 => ⟨S_, .i32⟩
  | 65 => ⟨S524288, .i32⟩
  | 66 => ⟨S524288, .i1⟩
  | 67 => ⟨S_, .i32⟩
  | 68 => ⟨S524288, .i32⟩
  | 69 => ⟨S524288, .i32⟩
  | 70 => ⟨S524288, .i32⟩
  | 71 => ⟨S524288x1, .i32⟩
  | 72 => ⟨S524288x1, .i32⟩
  | 73 => ⟨S524288x2, .i32⟩
  | 74 => ⟨S32x524288, .f32⟩
  | 75 => ⟨S_, .i32⟩
  | 76 => ⟨S524288, .i32⟩
  | 77 => ⟨S524288, .i1⟩
  | 78 => ⟨S_, .i32⟩
  | 79 => ⟨S524288, .i32⟩
  | 80 => ⟨S524288, .i32⟩
  | 81 => ⟨S524288, .i32⟩
  | 82 => ⟨S_, .i32⟩
  | 83 => ⟨S524288, .i32⟩
  | 84 => ⟨S524288, .i1⟩
  | 85 => ⟨S_, .i32⟩
  | 86 => ⟨S524288, .i32⟩
  | 87 => ⟨S524288, .i32⟩
  | 88 => ⟨S524288, .i32⟩
  | 89 => ⟨S524288x1, .i32⟩
  | 90 => ⟨S524288x1, .i32⟩
  | 91 => ⟨S524288x2, .i32⟩
  | 92 => ⟨S32x524288, .f32⟩
  | 93 => ⟨S_, .i32⟩
  | 94 => ⟨S524288, .i32⟩
  | 95 => ⟨S524288, .i1⟩
  | 96 => ⟨S_, .i32⟩
  | 97 => ⟨S524288, .i32⟩
  | 98 => ⟨S524288, .i32⟩
  | 99 => ⟨S524288, .i32⟩
  | 100 => ⟨S_, .i32⟩
  | 101 => ⟨S524288, .i32⟩
  | 102 => ⟨S524288, .i1⟩
  | 103 => ⟨S_, .i32⟩
  | 104 => ⟨S524288, .i32⟩
  | 105 => ⟨S524288, .i32⟩
  | 106 => ⟨S524288, .i32⟩
  | 107 => ⟨S524288x1, .i32⟩
  | 108 => ⟨S524288x1, .i32⟩
  | 109 => ⟨S524288x2, .i32⟩
  | 110 => ⟨S32x524288, .f32⟩
  | 111 => ⟨S_, .i32⟩
  | 112 => ⟨S524288, .i32⟩
  | 113 => ⟨S524288, .i1⟩
  | 114 => ⟨S_, .i32⟩
  | 115 => ⟨S524288, .i32⟩
  | 116 => ⟨S524288, .i32⟩
  | 117 => ⟨S524288, .i32⟩
  | 118 => ⟨S_, .i32⟩
  | 119 => ⟨S524288, .i32⟩
  | 120 => ⟨S524288, .i1⟩
  | 121 => ⟨S_, .i32⟩
  | 122 => ⟨S524288, .i32⟩
  | 123 => ⟨S524288, .i32⟩
  | 124 => ⟨S524288, .i32⟩
  | 125 => ⟨S524288x1, .i32⟩
  | 126 => ⟨S524288x1, .i32⟩
  | 127 => ⟨S524288x2, .i32⟩
  | _ => ⟨S4096x128x3, .f32⟩

abbrev hbmTy0_4 (i : Nat) : BufTy := match i % 128 with
  | 0 => ⟨S32x524288, .f32⟩
  | 1 => ⟨S_, .f32⟩
  | 2 => ⟨S524288, .f32⟩
  | 3 => ⟨S524288, .f32⟩
  | 4 => ⟨S1x524288, .f32⟩
  | 5 => ⟨S32x524288, .f32⟩
  | 6 => ⟨S32x524288, .f32⟩
  | 7 => ⟨S1x524288, .f32⟩
  | 8 => ⟨S32x524288, .f32⟩
  | 9 => ⟨S32x524288, .f32⟩
  | 10 => ⟨S32x524288, .f32⟩
  | 11 => ⟨S_, .f32⟩
  | 12 => ⟨S524288, .f32⟩
  | 13 => ⟨S524288, .f32⟩
  | 14 => ⟨S1x524288, .f32⟩
  | 15 => ⟨S32x524288, .f32⟩
  | 16 => ⟨S32x524288, .f32⟩
  | 17 => ⟨S1x524288, .f32⟩
  | 18 => ⟨S32x524288, .f32⟩
  | 19 => ⟨S32x524288, .f32⟩
  | 20 => ⟨S32x524288, .f32⟩
  | 21 => ⟨S_, .f32⟩
  | 22 => ⟨S524288, .f32⟩
  | 23 => ⟨S524288, .f32⟩
  | 24 => ⟨S1x524288, .f32⟩
  | 25 => ⟨S32x524288, .f32⟩
  | 26 => ⟨S32x524288, .f32⟩
  | 27 => ⟨S1x524288, .f32⟩
  | 28 => ⟨S32x524288, .f32⟩
  | 29 => ⟨S32x524288, .f32⟩
  | 30 => ⟨S32x524288, .f32⟩
  | 31 => ⟨S524288x32, .f32⟩
  | 32 => ⟨S524288x96, .f32⟩
  | 33 => ⟨S_, .i32⟩
  | 34 => ⟨S2, .i32⟩
  | 35 => ⟨S2, .i1⟩
  | 36 => ⟨S_, .i32⟩
  | 37 => ⟨S2, .i32⟩
  | 38 => ⟨S2, .i32⟩
  | 39 => ⟨S2, .i32⟩
  | 40 => ⟨S2x1, .i32⟩
  | 41 => ⟨S524288x2, .f32⟩
  | 42 => ⟨S524288x1, .f32⟩
  | 43 => ⟨S524288, .f32⟩
  | 44 => ⟨S_, .f32⟩
  | 45 => ⟨S524288, .f32⟩
  | 46 => ⟨S524288, .f32⟩
  | 47 => ⟨S_, .f32⟩
  | 48 => ⟨S524288, .f32⟩
  | 49 => ⟨S524288, .f32⟩
  | 50 => ⟨S_, .f32⟩
  | 51 => ⟨S524288, .f32⟩
  | 52 => ⟨S524288, .f32⟩
  | 53 => ⟨S_, .f32⟩
  | 54 => ⟨S_, .i32⟩
  | 55 => ⟨S_, .f32⟩
  | 56 => ⟨S524288, .f32⟩
  | 57 => ⟨S524288, .f32⟩
  | 58 => ⟨S_, .f32⟩
  | 59 => ⟨S524288, .f32⟩
  | 60 => ⟨S524288, .f32⟩
  | 61 => ⟨S524288x1, .f32⟩
  | 62 => ⟨S524288, .f32⟩
  | 63 => ⟨S_, .f32⟩
  | 64 => ⟨S524288, .f32⟩
  | 65 => ⟨S524288, .f32⟩
  | 66 => ⟨S_, .f32⟩
  | 67 => ⟨S524288, .f32⟩
  | 68 => ⟨S524288, .f32⟩
  | 69 => ⟨S_, .f32⟩
  | 70 => ⟨S524288, .f32⟩
  | 71 => ⟨S524288, .f32⟩
  | 72 => ⟨S_, .f32⟩
  | 73 => ⟨S_, .i32⟩
  | 74 => ⟨S_, .f32⟩
  | 75 => ⟨S524288, .f32⟩
  | 76 => ⟨S524288, .f32⟩
  | 77 => ⟨S_, .f32⟩
  | 78 => ⟨S524288, .f32⟩
  | 79 => ⟨S524288, .f32⟩
  | 80 => ⟨S524288, .f32⟩
  | 81 => ⟨S524288, .f32⟩
  | 82 => ⟨S524288, .f32⟩
  | 83 => ⟨S524288, .f32⟩
  | 84 => ⟨S524288, .i32⟩
  | 85 => ⟨S524288, .i32⟩
  | 86 => ⟨S_, .i32⟩
  | 87 => ⟨S524288, .i32⟩
  | 88 => ⟨S524288, .i32⟩
  | 89 => ⟨S_, .i32⟩
  | 90 => ⟨S524288, .i32⟩
  | 91 => ⟨S524288, .i32⟩
  | 92 => ⟨S_, .i32⟩
  | 93 => ⟨S524288, .i32⟩
  | 94 => ⟨S524288, .i32⟩
  | 95 => ⟨S_, .i32⟩
  | 96 => ⟨S524288, .i32⟩
  | 97 => ⟨S524288, .i32⟩
  | 98 => ⟨S_, .i32⟩
  | 99 => ⟨S524288, .i32⟩
  | 100 => ⟨S524288, .i1⟩
  | 101 => ⟨S_, .i32⟩
  | 102 => ⟨S524288, .i32⟩
  | 103 => ⟨S524288, .i32⟩
  | 104 => ⟨S524288, .i32⟩
  | 105 => ⟨S_, .i32⟩
  | 106 => ⟨S524288, .i32⟩
  | 107 => ⟨S524288, .i1⟩
  | 108 => ⟨S_, .i32⟩
  | 109 => ⟨S524288, .i32⟩
  | 110 => ⟨S524288, .i32⟩
  | 111 => ⟨S524288, .i32⟩
  | 112 => ⟨S524288x1, .i32⟩
  | 113 => ⟨S524288x1, .i32⟩
  | 114 => ⟨S524288x2, .i32⟩
  | 115 => ⟨S32x524288, .f32⟩
  | 116 => ⟨S_, .i32⟩
  | 117 => ⟨S524288, .i32⟩
  | 118 => ⟨S524288, .i1⟩
  | 119 => ⟨S_, .i32⟩
  | 120 => ⟨S524288, .i32⟩
  | 121 => ⟨S524288, .i32⟩
  | 122 => ⟨S524288, .i32⟩
  | 123 => ⟨S_, .i32⟩
  | 124 => ⟨S524288, .i32⟩
  | 125 => ⟨S524288, .i1⟩
  | 126 => ⟨S_, .i32⟩
  | 127 => ⟨S524288, .i32⟩
  | _ => ⟨S4096x128x3, .f32⟩

abbrev hbmTy0_5 (i : Nat) : BufTy := match i % 128 with
  | 0 => ⟨S524288, .i32⟩
  | 1 => ⟨S524288, .i32⟩
  | 2 => ⟨S524288x1, .i32⟩
  | 3 => ⟨S524288x1, .i32⟩
  | 4 => ⟨S524288x2, .i32⟩
  | 5 => ⟨S32x524288, .f32⟩
  | 6 => ⟨S_, .i32⟩
  | 7 => ⟨S524288, .i32⟩
  | 8 => ⟨S524288, .i1⟩
  | 9 => ⟨S_, .i32⟩
  | 10 => ⟨S524288, .i32⟩
  | 11 => ⟨S524288, .i32⟩
  | 12 => ⟨S524288, .i32⟩
  | 13 => ⟨S_, .i32⟩
  | 14 => ⟨S524288, .i32⟩
  | 15 => ⟨S524288, .i1⟩
  | 16 => ⟨S_, .i32⟩
  | 17 => ⟨S524288, .i32⟩
  | 18 => ⟨S524288, .i32⟩
  | 19 => ⟨S524288, .i32⟩
  | 20 => ⟨S524288x1, .i32⟩
  | 21 => ⟨S524288x1, .i32⟩
  | 22 => ⟨S524288x2, .i32⟩
  | 23 => ⟨S32x524288, .f32⟩
  | 24 => ⟨S_, .i32⟩
  | 25 => ⟨S524288, .i32⟩
  | 26 => ⟨S524288, .i1⟩
  | 27 => ⟨S_, .i32⟩
  | 28 => ⟨S524288, .i32⟩
  | 29 => ⟨S524288, .i32⟩
  | 30 => ⟨S524288, .i32⟩
  | 31 => ⟨S_, .i32⟩
  | 32 => ⟨S524288, .i32⟩
  | 33 => ⟨S524288, .i1⟩
  | 34 => ⟨S_, .i32⟩
  | 35 => ⟨S524288, .i32⟩
  | 36 => ⟨S524288, .i32⟩
  | 37 => ⟨S524288, .i32⟩
  | 38 => ⟨S524288x1, .i32⟩
  | 39 => ⟨S524288x1, .i32⟩
  | 40 => ⟨S524288x2, .i32⟩
  | 41 => ⟨S32x524288, .f32⟩
  | 42 => ⟨S_, .f32⟩
  | 43 => ⟨S524288, .f32⟩
  | 44 => ⟨S524288, .f32⟩
  | 45 => ⟨S1x524288, .f32⟩
  | 46 => ⟨S32x524288, .f32⟩
  | 47 => ⟨S32x524288, .f32⟩
  | 48 => ⟨S1x524288, .f32⟩
  | 49 => ⟨S32x524288, .f32⟩
  | 50 => ⟨S32x524288, .f32⟩
  | 51 => ⟨S32x524288, .f32⟩
  | 52 => ⟨S_, .f32⟩
  | 53 => ⟨S524288, .f32⟩
  | 54 => ⟨S524288, .f32⟩
  | 55 => ⟨S1x524288, .f32⟩
  | 56 => ⟨S32x524288, .f32⟩
  | 57 => ⟨S32x524288, .f32⟩
  | 58 => ⟨S1x524288, .f32⟩
  | 59 => ⟨S32x524288, .f32⟩
  | 60 => ⟨S32x524288, .f32⟩
  | 61 => ⟨S32x524288, .f32⟩
  | 62 => ⟨S_, .f32⟩
  | 63 => ⟨S524288, .f32⟩
  | 64 => ⟨S524288, .f32⟩
  | 65 => ⟨S1x524288, .f32⟩
  | 66 => ⟨S32x524288, .f32⟩
  | 67 => ⟨S32x524288, .f32⟩
  | 68 => ⟨S1x524288, .f32⟩
  | 69 => ⟨S32x524288, .f32⟩
  | 70 => ⟨S32x524288, .f32⟩
  | 71 => ⟨S32x524288, .f32⟩
  | 72 => ⟨S524288x32, .f32⟩
  | 73 => ⟨S_, .i32⟩
  | 74 => ⟨S2, .i32⟩
  | 75 => ⟨S2, .i1⟩
  | 76 => ⟨S_, .i32⟩
  | 77 => ⟨S2, .i32⟩
  | 78 => ⟨S2, .i32⟩
  | 79 => ⟨S2, .i32⟩
  | 80 => ⟨S2x1, .i32⟩
  | 81 => ⟨S524288x2, .f32⟩
  | 82 => ⟨S524288x1, .f32⟩
  | 83 => ⟨S524288, .f32⟩
  | 84 => ⟨S_, .f32⟩
  | 85 => ⟨S524288, .f32⟩
  | 86 => ⟨S524288, .f32⟩
  | 87 => ⟨S_, .f32⟩
  | 88 => ⟨S524288, .f32⟩
  | 89 => ⟨S524288, .f32⟩
  | 90 => ⟨S_, .f32⟩
  | 91 => ⟨S524288, .f32⟩
  | 92 => ⟨S524288, .f32⟩
  | 93 => ⟨S_, .f32⟩
  | 94 => ⟨S_, .i32⟩
  | 95 => ⟨S_, .f32⟩
  | 96 => ⟨S524288, .f32⟩
  | 97 => ⟨S524288, .f32⟩
  | 98 => ⟨S_, .f32⟩
  | 99 => ⟨S524288, .f32⟩
  | 100 => ⟨S524288, .f32⟩
  | 101 => ⟨S524288x1, .f32⟩
  | 102 => ⟨S524288, .f32⟩
  | 103 => ⟨S_, .f32⟩
  | 104 => ⟨S524288, .f32⟩
  | 105 => ⟨S524288, .f32⟩
  | 106 => ⟨S_, .f32⟩
  | 107 => ⟨S524288, .f32⟩
  | 108 => ⟨S524288, .f32⟩
  | 109 => ⟨S_, .f32⟩
  | 110 => ⟨S524288, .f32⟩
  | 111 => ⟨S524288, .f32⟩
  | 112 => ⟨S_, .f32⟩
  | 113 => ⟨S_, .i32⟩
  | 114 => ⟨S_, .f32⟩
  | 115 => ⟨S524288, .f32⟩
  | 116 => ⟨S524288, .f32⟩
  | 117 => ⟨S_, .f32⟩
  | 118 => ⟨S524288, .f32⟩
  | 119 => ⟨S524288, .f32⟩
  | 120 => ⟨S524288, .f32⟩
  | 121 => ⟨S524288, .f32⟩
  | 122 => ⟨S524288, .f32⟩
  | 123 => ⟨S524288, .f32⟩
  | 124 => ⟨S524288, .i32⟩
  | 125 => ⟨S524288, .i32⟩
  | 126 => ⟨S_, .i32⟩
  | 127 => ⟨S524288, .i32⟩
  | _ => ⟨S4096x128x3, .f32⟩

abbrev hbmTy0_6 (i : Nat) : BufTy := match i % 128 with
  | 0 => ⟨S524288, .i32⟩
  | 1 => ⟨S_, .i32⟩
  | 2 => ⟨S524288, .i32⟩
  | 3 => ⟨S524288, .i32⟩
  | 4 => ⟨S_, .i32⟩
  | 5 => ⟨S524288, .i32⟩
  | 6 => ⟨S524288, .i32⟩
  | 7 => ⟨S_, .i32⟩
  | 8 => ⟨S524288, .i32⟩
  | 9 => ⟨S524288, .i32⟩
  | 10 => ⟨S_, .i32⟩
  | 11 => ⟨S524288, .i32⟩
  | 12 => ⟨S524288, .i1⟩
  | 13 => ⟨S_, .i32⟩
  | 14 => ⟨S524288, .i32⟩
  | 15 => ⟨S524288, .i32⟩
  | 16 => ⟨S524288, .i32⟩
  | 17 => ⟨S_, .i32⟩
  | 18 => ⟨S524288, .i32⟩
  | 19 => ⟨S524288, .i1⟩
  | 20 => ⟨S_, .i32⟩
  | 21 => ⟨S524288, .i32⟩
  | 22 => ⟨S524288, .i32⟩
  | 23 => ⟨S524288, .i32⟩
  | 24 => ⟨S524288x1, .i32⟩
  | 25 => ⟨S524288x1, .i32⟩
  | 26 => ⟨S524288x2, .i32⟩
  | 27 => ⟨S32x524288, .f32⟩
  | 28 => ⟨S_, .i32⟩
  | 29 => ⟨S524288, .i32⟩
  | 30 => ⟨S524288, .i1⟩
  | 31 => ⟨S_, .i32⟩
  | 32 => ⟨S524288, .i32⟩
  | 33 => ⟨S524288, .i32⟩
  | 34 => ⟨S524288, .i32⟩
  | 35 => ⟨S_, .i32⟩
  | 36 => ⟨S524288, .i32⟩
  | 37 => ⟨S524288, .i1⟩
  | 38 => ⟨S_, .i32⟩
  | 39 => ⟨S524288, .i32⟩
  | 40 => ⟨S524288, .i32⟩
  | 41 => ⟨S524288, .i32⟩
  | 42 => ⟨S524288x1, .i32⟩
  | 43 => ⟨S524288x1, .i32⟩
  | 44 => ⟨S524288x2, .i32⟩
  | 45 => ⟨S32x524288, .f32⟩
  | 46 => ⟨S_, .i32⟩
  | 47 => ⟨S524288, .i32⟩
  | 48 => ⟨S524288, .i1⟩
  | 49 => ⟨S_, .i32⟩
  | 50 => ⟨S524288, .i32⟩
  | 51 => ⟨S524288, .i32⟩
  | 52 => ⟨S524288, .i32⟩
  | 53 => ⟨S_, .i32⟩
  | 54 => ⟨S524288, .i32⟩
  | 55 => ⟨S524288, .i1⟩
  | 56 => ⟨S_, .i32⟩
  | 57 => ⟨S524288, .i32⟩
  | 58 => ⟨S524288, .i32⟩
  | 59 => ⟨S524288, .i32⟩
  | 60 => ⟨S524288x1, .i32⟩
  | 61 => ⟨S524288x1, .i32⟩
  | 62 => ⟨S524288x2, .i32⟩
  | 63 => ⟨S32x524288, .f32⟩
  | 64 => ⟨S_, .i32⟩
  | 65 => ⟨S524288, .i32⟩
  | 66 => ⟨S524288, .i1⟩
  | 67 => ⟨S_, .i32⟩
  | 68 => ⟨S524288, .i32⟩
  | 69 => ⟨S524288, .i32⟩
  | 70 => ⟨S524288, .i32⟩
  | 71 => ⟨S_, .i32⟩
  | 72 => ⟨S524288, .i32⟩
  | 73 => ⟨S524288, .i1⟩
  | 74 => ⟨S_, .i32⟩
  | 75 => ⟨S524288, .i32⟩
  | 76 => ⟨S524288, .i32⟩
  | 77 => ⟨S524288, .i32⟩
  | 78 => ⟨S524288x1, .i32⟩
  | 79 => ⟨S524288x1, .i32⟩
  | 80 => ⟨S524288x2, .i32⟩
  | 81 => ⟨S32x524288, .f32⟩
  | 82 => ⟨S_, .f32⟩
  | 83 => ⟨S524288, .f32⟩
  | 84 => ⟨S524288, .f32⟩
  | 85 => ⟨S1x524288, .f32⟩
  | 86 => ⟨S32x524288, .f32⟩
  | 87 => ⟨S32x524288, .f32⟩
  | 88 => ⟨S1x524288, .f32⟩
  | 89 => ⟨S32x524288, .f32⟩
  | 90 => ⟨S32x524288, .f32⟩
  | 91 => ⟨S32x524288, .f32⟩
  | 92 => ⟨S_, .f32⟩
  | 93 => ⟨S524288, .f32⟩
  | 94 => ⟨S524288, .f32⟩
  | 95 => ⟨S1x524288, .f32⟩
  | 96 => ⟨S32x524288, .f32⟩
  | 97 => ⟨S32x524288, .f32⟩
  | 98 => ⟨S1x524288, .f32⟩
  | 99 => ⟨S32x524288, .f32⟩
  | 100 => ⟨S32x524288, .f32⟩
  | 101 => ⟨S32x524288, .f32⟩
  | 102 => ⟨S_, .f32⟩
  | 103 => ⟨S524288, .f32⟩
  | 104 => ⟨S524288, .f32⟩
  | 105 => ⟨S1x524288, .f32⟩
  | 106 => ⟨S32x524288, .f32⟩
  | 107 => ⟨S32x524288, .f32⟩
  | 108 => ⟨S1x524288, .f32⟩
  | 109 => ⟨S32x524288, .f32⟩
  | 110 => ⟨S32x524288, .f32⟩
  | 111 => ⟨S32x524288, .f32⟩
  | 112 => ⟨S524288x32, .f32⟩
  | 113 => ⟨S_, .i32⟩
  | 114 => ⟨S2, .i32⟩
  | 115 => ⟨S2, .i1⟩
  | 116 => ⟨S_, .i32⟩
  | 117 => ⟨S2, .i32⟩
  | 118 => ⟨S2, .i32⟩
  | 119 => ⟨S2, .i32⟩
  | 120 => ⟨S2x1, .i32⟩
  | 121 => ⟨S524288x2, .f32⟩
  | 122 => ⟨S524288x1, .f32⟩
  | 123 => ⟨S524288, .f32⟩
  | 124 => ⟨S_, .f32⟩
  | 125 => ⟨S524288, .f32⟩
  | 126 => ⟨S524288, .f32⟩
  | 127 => ⟨S_, .f32⟩
  | _ => ⟨S4096x128x3, .f32⟩

abbrev hbmTy0_7 (i : Nat) : BufTy := match i % 128 with
  | 0 => ⟨S524288, .f32⟩
  | 1 => ⟨S524288, .f32⟩
  | 2 => ⟨S_, .f32⟩
  | 3 => ⟨S524288, .f32⟩
  | 4 => ⟨S524288, .f32⟩
  | 5 => ⟨S_, .f32⟩
  | 6 => ⟨S_, .i32⟩
  | 7 => ⟨S_, .f32⟩
  | 8 => ⟨S524288, .f32⟩
  | 9 => ⟨S524288, .f32⟩
  | 10 => ⟨S_, .f32⟩
  | 11 => ⟨S524288, .f32⟩
  | 12 => ⟨S524288, .f32⟩
  | 13 => ⟨S524288x1, .f32⟩
  | 14 => ⟨S524288, .f32⟩
  | 15 => ⟨S_, .f32⟩
  | 16 => ⟨S524288, .f32⟩
  | 17 => ⟨S524288, .f32⟩
  | 18 => ⟨S_, .f32⟩
  | 19 => ⟨S524288, .f32⟩
  | 20 => ⟨S524288, .f32⟩
  | 21 => ⟨S_, .f32⟩
  | 22 => ⟨S524288, .f32⟩
  | 23 => ⟨S524288, .f32⟩
  | 24 => ⟨S_, .f32⟩
  | 25 => ⟨S_, .i32⟩
  | 26 => ⟨S_, .f32⟩
  | 27 => ⟨S524288, .f32⟩
  | 28 => ⟨S524288, .f32⟩
  | 29 => ⟨S_, .f32⟩
  | 30 => ⟨S524288, .f32⟩
  | 31 => ⟨S524288, .f32⟩
  | 32 => ⟨S524288, .f32⟩
  | 33 => ⟨S524288, .f32⟩
  | 34 => ⟨S524288, .f32⟩
  | 35 => ⟨S524288, .f32⟩
  | 36 => ⟨S524288, .i32⟩
  | 37 => ⟨S524288, .i32⟩
  | 38 => ⟨S_, .i32⟩
  | 39 => ⟨S524288, .i32⟩
  | 40 => ⟨S524288, .i32⟩
  | 41 => ⟨S_, .i32⟩
  | 42 => ⟨S524288, .i32⟩
  | 43 => ⟨S524288, .i32⟩
  | 44 => ⟨S_, .i32⟩
  | 45 => ⟨S524288, .i32⟩
  | 46 => ⟨S524288, .i32⟩
  | 47 => ⟨S_, .i32⟩
  | 48 => ⟨S524288, .i32⟩
  | 49 => ⟨S524288, .i32⟩
  | 50 => ⟨S_, .i32⟩
  | 51 => ⟨S524288, .i32⟩
  | 52 => ⟨S524288, .i1⟩
  | 53 => ⟨S_, .i32⟩
  | 54 => ⟨S524288, .i32⟩
  | 55 => ⟨S524288, .i32⟩
  | 56 => ⟨S524288, .i32⟩
  | 57 => ⟨S_, .i32⟩
  | 58 => ⟨S524288, .i32⟩
  | 59 => ⟨S524288, .i1⟩
  | 60 => ⟨S_, .i32⟩
  | 61 => ⟨S524288, .i32⟩
  | 62 => ⟨S524288, .i32⟩
  | 63 => ⟨S524288, .i32⟩
  | 64 => ⟨S524288x1, .i32⟩
  | 65 => ⟨S524288x1, .i32⟩
  | 66 => ⟨S524288x2, .i32⟩
  | 67 => ⟨S32x524288, .f32⟩
  | 68 => ⟨S_, .i32⟩
  | 69 => ⟨S524288, .i32⟩
  | 70 => ⟨S524288, .i1⟩
  | 71 => ⟨S_, .i32⟩
  | 72 => ⟨S524288, .i32⟩
  | 73 => ⟨S524288, .i32⟩
  | 74 => ⟨S524288, .i32⟩
  | 75 => ⟨S_, .i32⟩
  | 76 => ⟨S524288, .i32⟩
  | 77 => ⟨S524288, .i1⟩
  | 78 => ⟨S_, .i32⟩
  | 79 => ⟨S524288, .i32⟩
  | 80 => ⟨S524288, .i32⟩
  | 81 => ⟨S524288, .i32⟩
  | 82 => ⟨S524288x1, .i32⟩
  | 83 => ⟨S524288x1, .i32⟩
  | 84 => ⟨S524288x2, .i32⟩
  | 85 => ⟨S32x524288, .f32⟩
  | 86 => ⟨S_, .i32⟩
  | 87 => ⟨S524288, .i32⟩
  | 88 => ⟨S524288, .i1⟩
  | 89 => ⟨S_, .i32⟩
  | 90 => ⟨S524288, .i32⟩
  | 91 => ⟨S524288, .i32⟩
  | 92 => ⟨S524288, .i32⟩
  | 93 => ⟨S_, .i32⟩
  | 94 => ⟨S524288, .i32⟩
  | 95 => ⟨S524288, .i1⟩
  | 96 => ⟨S_, .i32⟩
  | 97 => ⟨S524288, .i32⟩
  | 98 => ⟨S524288, .i32⟩
  | 99 => ⟨S524288, .i32⟩
  | 100 => ⟨S524288x1, .i32⟩
  | 101 => ⟨S524288x1, .i32⟩
  | 102 => ⟨S524288x2, .i32⟩
  | 103 => ⟨S32x524288, .f32⟩
  | 104 => ⟨S_, .i32⟩
  | 105 => ⟨S524288, .i32⟩
  | 106 => ⟨S524288, .i1⟩
  | 107 => ⟨S_, .i32⟩
  | 108 => ⟨S524288, .i32⟩
  | 109 => ⟨S524288, .i32⟩
  | 110 => ⟨S524288, .i32⟩
  | 111 => ⟨S_, .i32⟩
  | 112 => ⟨S524288, .i32⟩
  | 113 => ⟨S524288, .i1⟩
  | 114 => ⟨S_, .i32⟩
  | 115 => ⟨S524288, .i32⟩
  | 116 => ⟨S524288, .i32⟩
  | 117 => ⟨S524288, .i32⟩
  | 118 => ⟨S524288x1, .i32⟩
  | 119 => ⟨S524288x1, .i32⟩
  | 120 => ⟨S524288x2, .i32⟩
  | 121 => ⟨S32x524288, .f32⟩
  | 122 => ⟨S_, .f32⟩
  | 123 => ⟨S524288, .f32⟩
  | 124 => ⟨S524288, .f32⟩
  | 125 => ⟨S1x524288, .f32⟩
  | 126 => ⟨S32x524288, .f32⟩
  | 127 => ⟨S32x524288, .f32⟩
  | _ => ⟨S4096x128x3, .f32⟩

abbrev hbmTy0_8 (i : Nat) : BufTy := match i % 128 with
  | 0 => ⟨S1x524288, .f32⟩
  | 1 => ⟨S32x524288, .f32⟩
  | 2 => ⟨S32x524288, .f32⟩
  | 3 => ⟨S32x524288, .f32⟩
  | 4 => ⟨S_, .f32⟩
  | 5 => ⟨S524288, .f32⟩
  | 6 => ⟨S524288, .f32⟩
  | 7 => ⟨S1x524288, .f32⟩
  | 8 => ⟨S32x524288, .f32⟩
  | 9 => ⟨S32x524288, .f32⟩
  | 10 => ⟨S1x524288, .f32⟩
  | 11 => ⟨S32x524288, .f32⟩
  | 12 => ⟨S32x524288, .f32⟩
  | 13 => ⟨S32x524288, .f32⟩
  | 14 => ⟨S_, .f32⟩
  | 15 => ⟨S524288, .f32⟩
  | 16 => ⟨S524288, .f32⟩
  | 17 => ⟨S1x524288, .f32⟩
  | 18 => ⟨S32x524288, .f32⟩
  | 19 => ⟨S32x524288, .f32⟩
  | 20 => ⟨S1x524288, .f32⟩
  | 21 => ⟨S32x524288, .f32⟩
  | 22 => ⟨S32x524288, .f32⟩
  | 23 => ⟨S32x524288, .f32⟩
  | 24 => ⟨S524288x32, .f32⟩
  | 25 => ⟨S524288x96, .f32⟩
  | 26 => ⟨S_, .i32⟩
  | 27 => ⟨S2, .i32⟩
  | 28 => ⟨S2, .i1⟩
  | 29 => ⟨S_, .i32⟩
  | 30 => ⟨S2, .i32⟩
  | 31 => ⟨S2, .i32⟩
  | 32 => ⟨S2, .i32⟩
  | 33 => ⟨S2x1, .i32⟩
  | 34 => ⟨S524288x2, .f32⟩
  | 35 => ⟨S524288x1, .f32⟩
  | 36 => ⟨S524288, .f32⟩
  | 37 => ⟨S_, .f32⟩
  | 38 => ⟨S524288, .f32⟩
  | 39 => ⟨S524288, .f32⟩
  | 40 => ⟨S_, .f32⟩
  | 41 => ⟨S524288, .f32⟩
  | 42 => ⟨S524288, .f32⟩
  | 43 => ⟨S_, .f32⟩
  | 44 => ⟨S524288, .f32⟩
  | 45 => ⟨S524288, .f32⟩
  | 46 => ⟨S_, .f32⟩
  | 47 => ⟨S_, .i32⟩
  | 48 => ⟨S_, .f32⟩
  | 49 => ⟨S524288, .f32⟩
  | 50 => ⟨S524288, .f32⟩
  | 51 => ⟨S_, .f32⟩
  | 52 => ⟨S524288, .f32⟩
  | 53 => ⟨S524288, .f32⟩
  | 54 => ⟨S524288x1, .f32⟩
  | 55 => ⟨S524288, .f32⟩
  | 56 => ⟨S_, .f32⟩
  | 57 => ⟨S524288, .f32⟩
  | 58 => ⟨S524288, .f32⟩
  | 59 => ⟨S_, .f32⟩
  | 60 => ⟨S524288, .f32⟩
  | 61 => ⟨S524288, .f32⟩
  | 62 => ⟨S_, .f32⟩
  | 63 => ⟨S524288, .f32⟩
  | 64 => ⟨S524288, .f32⟩
  | 65 => ⟨S_, .f32⟩
  | 66 => ⟨S_, .i32⟩
  | 67 => ⟨S_, .f32⟩
  | 68 => ⟨S524288, .f32⟩
  | 69 => ⟨S524288, .f32⟩
  | 70 => ⟨S_, .f32⟩
  | 71 => ⟨S524288, .f32⟩
  | 72 => ⟨S524288, .f32⟩
  | 73 => ⟨S524288, .f32⟩
  | 74 => ⟨S524288, .f32⟩
  | 75 => ⟨S524288, .f32⟩
  | 76 => ⟨S524288, .f32⟩
  | 77 => ⟨S524288, .i32⟩
  | 78 => ⟨S524288, .i32⟩
  | 79 => ⟨S_, .i32⟩
  | 80 => ⟨S524288, .i32⟩
  | 81 => ⟨S524288, .i32⟩
  | 82 => ⟨S_, .i32⟩
  | 83 => ⟨S524288, .i32⟩
  | 84 => ⟨S524288, .i32⟩
  | 85 => ⟨S_, .i32⟩
  | 86 => ⟨S524288, .i32⟩
  | 87 => ⟨S524288, .i32⟩
  | 88 => ⟨S_, .i32⟩
  | 89 => ⟨S524288, .i32⟩
  | 90 => ⟨S524288, .i32⟩
  | 91 => ⟨S_, .i32⟩
  | 92 => ⟨S524288, .i32⟩
  | 93 => ⟨S524288, .i1⟩
  | 94 => ⟨S_, .i32⟩
  | 95 => ⟨S524288, .i32⟩
  | 96 => ⟨S524288, .i32⟩
  | 97 => ⟨S524288, .i32⟩
  | 98 => ⟨S_, .i32⟩
  | 99 => ⟨S524288, .i32⟩
  | 100 => ⟨S524288, .i1⟩
  | 101 => ⟨S_, .i32⟩
  | 102 => ⟨S524288, .i32⟩
  | 103 => ⟨S524288, .i32⟩
  | 104 => ⟨S524288, .i32⟩
  | 105 => ⟨S524288x1, .i32⟩
  | 106 => ⟨S524288x1, .i32⟩
  | 107 => ⟨S524288x2, .i32⟩
  | 108 => ⟨S32x524288, .f32⟩
  | 109 => ⟨S_, .i32⟩
  | 110 => ⟨S524288, .i32⟩
  | 111 => ⟨S524288, .i1⟩
  | 112 => ⟨S_, .i32⟩
  | 113 => ⟨S524288, .i32⟩
  | 114 => ⟨S524288, .i32⟩
  | 115 => ⟨S524288, .i32⟩
  | 116 => ⟨S_, .i32⟩
  | 117 => ⟨S524288, .i32⟩
  | 118 => ⟨S524288, .i1⟩
  | 119 => ⟨S_, .i32⟩
  | 120 => ⟨S524288, .i32⟩
  | 121 => ⟨S524288, .i32⟩
  | 122 => ⟨S524288, .i32⟩
  | 123 => ⟨S524288x1, .i32⟩
  | 124 => ⟨S524288x1, .i32⟩
  | 125 => ⟨S524288x2, .i32⟩
  | 126 => ⟨S32x524288, .f32⟩
  | 127 => ⟨S_, .i32⟩
  | _ => ⟨S4096x128x3, .f32⟩

abbrev hbmTy0_9 (i : Nat) : BufTy := match i % 128 with
  | 0 => ⟨S524288, .i32⟩
  | 1 => ⟨S524288, .i1⟩
  | 2 => ⟨S_, .i32⟩
  | 3 => ⟨S524288, .i32⟩
  | 4 => ⟨S524288, .i32⟩
  | 5 => ⟨S524288, .i32⟩
  | 6 => ⟨S_, .i32⟩
  | 7 => ⟨S524288, .i32⟩
  | 8 => ⟨S524288, .i1⟩
  | 9 => ⟨S_, .i32⟩
  | 10 => ⟨S524288, .i32⟩
  | 11 => ⟨S524288, .i32⟩
  | 12 => ⟨S524288, .i32⟩
  | 13 => ⟨S524288x1, .i32⟩
  | 14 => ⟨S524288x1, .i32⟩
  | 15 => ⟨S524288x2, .i32⟩
  | 16 => ⟨S32x524288, .f32⟩
  | 17 => ⟨S_, .i32⟩
  | 18 => ⟨S524288, .i32⟩
  | 19 => ⟨S524288, .i1⟩
  | 20 => ⟨S_, .i32⟩
  | 21 => ⟨S524288, .i32⟩
  | 22 => ⟨S524288, .i32⟩
  | 23 => ⟨S524288, .i32⟩
  | 24 => ⟨S_, .i32⟩
  | 25 => ⟨S524288, .i32⟩
  | 26 => ⟨S524288, .i1⟩
  | 27 => ⟨S_, .i32⟩
  | 28 => ⟨S524288, .i32⟩
  | 29 => ⟨S524288, .i32⟩
  | 30 => ⟨S524288, .i32⟩
  | 31 => ⟨S524288x1, .i32⟩
  | 32 => ⟨S524288x1, .i32⟩
  | 33 => ⟨S524288x2, .i32⟩
  | 34 => ⟨S32x524288, .f32⟩
  | 35 => ⟨S_, .f32⟩
  | 36 => ⟨S524288, .f32⟩
  | 37 => ⟨S524288, .f32⟩
  | 38 => ⟨S1x524288, .f32⟩
  | 39 => ⟨S32x524288, .f32⟩
  | 40 => ⟨S32x524288, .f32⟩
  | 41 => ⟨S1x524288, .f32⟩
  | 42 => ⟨S32x524288, .f32⟩
  | 43 => ⟨S32x524288, .f32⟩
  | 44 => ⟨S32x524288, .f32⟩
  | 45 => ⟨S_, .f32⟩
  | 46 => ⟨S524288, .f32⟩
  | 47 => ⟨S524288, .f32⟩
  | 48 => ⟨S1x524288, .f32⟩
  | 49 => ⟨S32x524288, .f32⟩
  | 50 => ⟨S32x524288, .f32⟩
  | 51 => ⟨S1x524288, .f32⟩
  | 52 => ⟨S32x524288, .f32⟩
  | 53 => ⟨S32x524288, .f32⟩
  | 54 => ⟨S32x524288, .f32⟩
  | 55 => ⟨S_, .f32⟩
  | 56 => ⟨S524288, .f32⟩
  | 57 => ⟨S524288, .f32⟩
  | 58 => ⟨S1x524288, .f32⟩
  | 59 => ⟨S32x524288, .f32⟩
  | 60 => ⟨S32x524288, .f32⟩
  | 61 => ⟨S1x524288, .f32⟩
  | 62 => ⟨S32x524288, .f32⟩
  | 63 => ⟨S32x524288, .f32⟩
  | 64 => ⟨S32x524288, .f32⟩
  | 65 => ⟨S524288x32, .f32⟩
  | 66 => ⟨S_, .i32⟩
  | 67 => ⟨S2, .i32⟩
  | 68 => ⟨S2, .i1⟩
  | 69 => ⟨S_, .i32⟩
  | 70 => ⟨S2, .i32⟩
  | 71 => ⟨S2, .i32⟩
  | 72 => ⟨S2, .i32⟩
  | 73 => ⟨S2x1, .i32⟩
  | 74 => ⟨S524288x2, .f32⟩
  | 75 => ⟨S524288x1, .f32⟩
  | 76 => ⟨S524288, .f32⟩
  | 77 => ⟨S_, .f32⟩
  | 78 => ⟨S524288, .f32⟩
  | 79 => ⟨S524288, .f32⟩
  | 80 => ⟨S_, .f32⟩
  | 81 => ⟨S524288, .f32⟩
  | 82 => ⟨S524288, .f32⟩
  | 83 => ⟨S_, .f32⟩
  | 84 => ⟨S524288, .f32⟩
  | 85 => ⟨S524288, .f32⟩
  | 86 => ⟨S_, .f32⟩
  | 87 => ⟨S_, .i32⟩
  | 88 => ⟨S_, .f32⟩
  | 89 => ⟨S524288, .f32⟩
  | 90 => ⟨S524288, .f32⟩
  | 91 => ⟨S_, .f32⟩
  | 92 => ⟨S524288, .f32⟩
  | 93 => ⟨S524288, .f32⟩
  | 94 => ⟨S524288x1, .f32⟩
  | 95 => ⟨S524288, .f32⟩
  | 96 => ⟨S_, .f32⟩
  | 97 => ⟨S524288, .f32⟩
  | 98 => ⟨S524288, .f32⟩
  | 99 => ⟨S_, .f32⟩
  | 100 => ⟨S524288, .f32⟩
  | 101 => ⟨S524288, .f32⟩
  | 102 => ⟨S_, .f32⟩
  | 103 => ⟨S524288, .f32⟩
  | 104 => ⟨S524288, .f32⟩
  | 105 => ⟨S_, .f32⟩
  | 106 => ⟨S_, .i32⟩
  | 107 => ⟨S_, .f32⟩
  | 108 => ⟨S524288, .f32⟩
  | 109 => ⟨S524288, .f32⟩
  | 110 => ⟨S_, .f32⟩
  | 111 => ⟨S524288, .f32⟩
  | 112 => ⟨S524288, .f32⟩
  | 113 => ⟨S524288, .f32⟩
  | 114 => ⟨S524288, .f32⟩
  | 115 => ⟨S524288, .f32⟩
  | 116 => ⟨S524288, .f32⟩
  | 117 => ⟨S524288, .i32⟩
  | 118 => ⟨S524288, .i32⟩
  | 119 => ⟨S_, .i32⟩
  | 120 => ⟨S524288, .i32⟩
  | 121 => ⟨S524288, .i32⟩
  | 122 => ⟨S_, .i32⟩
  | 123 => ⟨S524288, .i32⟩
  | 124 => ⟨S524288, .i32⟩
  | 125 => ⟨S_, .i32⟩
  | 126 => ⟨S524288, .i32⟩
  | 127 => ⟨S524288, .i32⟩
  | _ => ⟨S4096x128x3, .f32⟩

abbrev hbmTy0_10 (i : Nat) : BufTy := match i % 128 with
  | 0 => ⟨S_, .i32⟩
  | 1 => ⟨S524288, .i32⟩
  | 2 => ⟨S524288, .i32⟩
  | 3 => ⟨S_, .i32⟩
  | 4 => ⟨S524288, .i32⟩
  | 5 => ⟨S524288, .i1⟩
  | 6 => ⟨S_, .i32⟩
  | 7 => ⟨S524288, .i32⟩
  | 8 => ⟨S524288, .i32⟩
  | 9 => ⟨S524288, .i32⟩
  | 10 => ⟨S_, .i32⟩
  | 11 => ⟨S524288, .i32⟩
  | 12 => ⟨S524288, .i1⟩
  | 13 => ⟨S_, .i32⟩
  | 14 => ⟨S524288, .i32⟩
  | 15 => ⟨S524288, .i32⟩
  | 16 => ⟨S524288, .i32⟩
  | 17 => ⟨S524288x1, .i32⟩
  | 18 => ⟨S524288x1, .i32⟩
  | 19 => ⟨S524288x2, .i32⟩
  | 20 => ⟨S32x524288, .f32⟩
  | 21 => ⟨S_, .i32⟩
  | 22 => ⟨S524288, .i32⟩
  | 23 => ⟨S524288, .i1⟩
  | 24 => ⟨S_, .i32⟩
  | 25 => ⟨S524288, .i32⟩
  | 26 => ⟨S524288, .i32⟩
  | 27 => ⟨S524288, .i32⟩
  | 28 => ⟨S_, .i32⟩
  | 29 => ⟨S524288, .i32⟩
  | 30 => ⟨S524288, .i1⟩
  | 31 => ⟨S_, .i32⟩
  | 32 => ⟨S524288, .i32⟩
  | 33 => ⟨S524288, .i32⟩
  | 34 => ⟨S524288, .i32⟩
  | 35 => ⟨S524288x1, .i32⟩
  | 36 => ⟨S524288x1, .i32⟩
  | 37 => ⟨S524288x2, .i32⟩
  | 38 => ⟨S32x524288, .f32⟩
  | 39 => ⟨S_, .i32⟩
  | 40 => ⟨S524288, .i32⟩
  | 41 => ⟨S524288, .i1⟩
  | 42 => ⟨S_, .i32⟩
  | 43 => ⟨S524288, .i32⟩
  | 44 => ⟨S524288, .i32⟩
  | 45 => ⟨S524288, .i32⟩
  | 46 => ⟨S_, .i32⟩
  | 47 => ⟨S524288, .i32⟩
  | 48 => ⟨S524288, .i1⟩
  | 49 => ⟨S_, .i32⟩
  | 50 => ⟨S524288, .i32⟩
  | 51 => ⟨S524288, .i32⟩
  | 52 => ⟨S524288, .i32⟩
  | 53 => ⟨S524288x1, .i32⟩
  | 54 => ⟨S524288x1, .i32⟩
  | 55 => ⟨S524288x2, .i32⟩
  | 56 => ⟨S32x524288, .f32⟩
  | 57 => ⟨S_, .i32⟩
  | 58 => ⟨S524288, .i32⟩
  | 59 => ⟨S524288, .i1⟩
  | 60 => ⟨S_, .i32⟩
  | 61 => ⟨S524288, .i32⟩
  | 62 => ⟨S524288, .i32⟩
  | 63 => ⟨S524288, .i32⟩
  | 64 => ⟨S_, .i32⟩
  | 65 => ⟨S524288, .i32⟩
  | 66 => ⟨S524288, .i1⟩
  | 67 => ⟨S_, .i32⟩
  | 68 => ⟨S524288, .i32⟩
  | 69 => ⟨S524288, .i32⟩
  | 70 => ⟨S524288, .i32⟩
  | 71 => ⟨S524288x1, .i32⟩
  | 72 => ⟨S524288x1, .i32⟩
  | 73 => ⟨S524288x2, .i32⟩
  | 74 => ⟨S32x524288, .f32⟩
  | 75 => ⟨S_, .f32⟩
  | 76 => ⟨S524288, .f32⟩
  | 77 => ⟨S524288, .f32⟩
  | 78 => ⟨S1x524288, .f32⟩
  | 79 => ⟨S32x524288, .f32⟩
  | 80 => ⟨S32x524288, .f32⟩
  | 81 => ⟨S1x524288, .f32⟩
  | 82 => ⟨S32x524288, .f32⟩
  | 83 => ⟨S32x524288, .f32⟩
  | 84 => ⟨S32x524288, .f32⟩
  | 85 => ⟨S_, .f32⟩
  | 86 => ⟨S524288, .f32⟩
  | 87 => ⟨S524288, .f32⟩
  | 88 => ⟨S1x524288, .f32⟩
  | 89 => ⟨S32x524288, .f32⟩
  | 90 => ⟨S32x524288, .f32⟩
  | 91 => ⟨S1x524288, .f32⟩
  | 92 => ⟨S32x524288, .f32⟩
  | 93 => ⟨S32x524288, .f32⟩
  | 94 => ⟨S32x524288, .f32⟩
  | 95 => ⟨S_, .f32⟩
  | 96 => ⟨S524288, .f32⟩
  | 97 => ⟨S524288, .f32⟩
  | 98 => ⟨S1x524288, .f32⟩
  | 99 => ⟨S32x524288, .f32⟩
  | 100 => ⟨S32x524288, .f32⟩
  | 101 => ⟨S1x524288, .f32⟩
  | 102 => ⟨S32x524288, .f32⟩
  | 103 => ⟨S32x524288, .f32⟩
  | 104 => ⟨S32x524288, .f32⟩
  | 105 => ⟨S524288x32, .f32⟩
  | 106 => ⟨S_, .i32⟩
  | 107 => ⟨S2, .i32⟩
  | 108 => ⟨S2, .i1⟩
  | 109 => ⟨S_, .i32⟩
  | 110 => ⟨S2, .i32⟩
  | 111 => ⟨S2, .i32⟩
  | 112 => ⟨S2, .i32⟩
  | 113 => ⟨S2x1, .i32⟩
  | 114 => ⟨S524288x2, .f32⟩
  | 115 => ⟨S524288x1, .f32⟩
  | 116 => ⟨S524288, .f32⟩
  | 117 => ⟨S_, .f32⟩
  | 118 => ⟨S524288, .f32⟩
  | 119 => ⟨S524288, .f32⟩
  | 120 => ⟨S_, .f32⟩
  | 121 => ⟨S524288, .f32⟩
  | 122 => ⟨S524288, .f32⟩
  | 123 => ⟨S_, .f32⟩
  | 124 => ⟨S524288, .f32⟩
  | 125 => ⟨S524288, .f32⟩
  | 126 => ⟨S_, .f32⟩
  | 127 => ⟨S_, .i32⟩
  | _ => ⟨S4096x128x3, .f32⟩

abbrev hbmTy0_11 (i : Nat) : BufTy := match i % 128 with
  | 0 => ⟨S_, .f32⟩
  | 1 => ⟨S524288, .f32⟩
  | 2 => ⟨S524288, .f32⟩
  | 3 => ⟨S_, .f32⟩
  | 4 => ⟨S524288, .f32⟩
  | 5 => ⟨S524288, .f32⟩
  | 6 => ⟨S524288x1, .f32⟩
  | 7 => ⟨S524288, .f32⟩
  | 8 => ⟨S_, .f32⟩
  | 9 => ⟨S524288, .f32⟩
  | 10 => ⟨S524288, .f32⟩
  | 11 => ⟨S_, .f32⟩
  | 12 => ⟨S524288, .f32⟩
  | 13 => ⟨S524288, .f32⟩
  | 14 => ⟨S_, .f32⟩
  | 15 => ⟨S524288, .f32⟩
  | 16 => ⟨S524288, .f32⟩
  | 17 => ⟨S_, .f32⟩
  | 18 => ⟨S_, .i32⟩
  | 19 => ⟨S_, .f32⟩
  | 20 => ⟨S524288, .f32⟩
  | 21 => ⟨S524288, .f32⟩
  | 22 => ⟨S_, .f32⟩
  | 23 => ⟨S524288, .f32⟩
  | 24 => ⟨S524288, .f32⟩
  | 25 => ⟨S524288, .f32⟩
  | 26 => ⟨S524288, .f32⟩
  | 27 => ⟨S524288, .f32⟩
  | 28 => ⟨S524288, .f32⟩
  | 29 => ⟨S524288, .i32⟩
  | 30 => ⟨S524288, .i32⟩
  | 31 => ⟨S_, .i32⟩
  | 32 => ⟨S524288, .i32⟩
  | 33 => ⟨S524288, .i32⟩
  | 34 => ⟨S_, .i32⟩
  | 35 => ⟨S524288, .i32⟩
  | 36 => ⟨S524288, .i32⟩
  | 37 => ⟨S_, .i32⟩
  | 38 => ⟨S524288, .i32⟩
  | 39 => ⟨S524288, .i32⟩
  | 40 => ⟨S_, .i32⟩
  | 41 => ⟨S524288, .i32⟩
  | 42 => ⟨S524288, .i32⟩
  | 43 => ⟨S_, .i32⟩
  | 44 => ⟨S524288, .i32⟩
  | 45 => ⟨S524288, .i1⟩
  | 46 => ⟨S_, .i32⟩
  | 47 => ⟨S524288, .i32⟩
  | 48 => ⟨S524288, .i32⟩
  | 49 => ⟨S524288, .i32⟩
  | 50 => ⟨S_, .i32⟩
  | 51 => ⟨S524288, .i32⟩
  | 52 => ⟨S524288, .i1⟩
  | 53 => ⟨S_, .i32⟩
  | 54 => ⟨S524288, .i32⟩
  | 55 => ⟨S524288, .i32⟩
  | 56 => ⟨S524288, .i32⟩
  | 57 => ⟨S524288x1, .i32⟩
  | 58 => ⟨S524288x1, .i32⟩
  | 59 => ⟨S524288x2, .i32⟩
  | 60 => ⟨S32x524288, .f32⟩
  | 61 => ⟨S_, .i32⟩
  | 62 => ⟨S524288, .i32⟩
  | 63 => ⟨S524288, .i1⟩
  | 64 => ⟨S_, .i32⟩
  | 65 => ⟨S524288, .i32⟩
  | 66 => ⟨S524288, .i32⟩
  | 67 => ⟨S524288, .i32⟩
  | 68 => ⟨S_, .i32⟩
  | 69 => ⟨S524288, .i32⟩
  | 70 => ⟨S524288, .i1⟩
  | 71 => ⟨S_, .i32⟩
  | 72 => ⟨S524288, .i32⟩
  | 73 => ⟨S524288, .i32⟩
  | 74 => ⟨S524288, .i32⟩
  | 75 => ⟨S524288x1, .i32⟩
  | 76 => ⟨S524288x1, .i32⟩
  | 77 => ⟨S524288x2, .i32⟩
  | 78 => ⟨S32x524288, .f32⟩
  | 79 => ⟨S_, .i32⟩
  | 80 => ⟨S524288, .i32⟩
  | 81 => ⟨S524288, .i1⟩
  | 82 => ⟨S_, .i32⟩
  | 83 => ⟨S524288, .i32⟩
  | 84 => ⟨S524288, .i32⟩
  | 85 => ⟨S524288, .i32⟩
  | 86 => ⟨S_, .i32⟩
  | 87 => ⟨S524288, .i32⟩
  | 88 => ⟨S524288, .i1⟩
  | 89 => ⟨S_, .i32⟩
  | 90 => ⟨S524288, .i32⟩
  | 91 => ⟨S524288, .i32⟩
  | 92 => ⟨S524288, .i32⟩
  | 93 => ⟨S524288x1, .i32⟩
  | 94 => ⟨S524288x1, .i32⟩
  | 95 => ⟨S524288x2, .i32⟩
  | 96 => ⟨S32x524288, .f32⟩
  | 97 => ⟨S_, .i32⟩
  | 98 => ⟨S524288, .i32⟩
  | 99 => ⟨S524288, .i1⟩
  | 100 => ⟨S_, .i32⟩
  | 101 => ⟨S524288, .i32⟩
  | 102 => ⟨S524288, .i32⟩
  | 103 => ⟨S524288, .i32⟩
  | 104 => ⟨S_, .i32⟩
  | 105 => ⟨S524288, .i32⟩
  | 106 => ⟨S524288, .i1⟩
  | 107 => ⟨S_, .i32⟩
  | 108 => ⟨S524288, .i32⟩
  | 109 => ⟨S524288, .i32⟩
  | 110 => ⟨S524288, .i32⟩
  | 111 => ⟨S524288x1, .i32⟩
  | 112 => ⟨S524288x1, .i32⟩
  | 113 => ⟨S524288x2, .i32⟩
  | 114 => ⟨S32x524288, .f32⟩
  | 115 => ⟨S_, .f32⟩
  | 116 => ⟨S524288, .f32⟩
  | 117 => ⟨S524288, .f32⟩
  | 118 => ⟨S1x524288, .f32⟩
  | 119 => ⟨S32x524288, .f32⟩
  | 120 => ⟨S32x524288, .f32⟩
  | 121 => ⟨S1x524288, .f32⟩
  | 122 => ⟨S32x524288, .f32⟩
  | 123 => ⟨S32x524288, .f32⟩
  | 124 => ⟨S32x524288, .f32⟩
  | 125 => ⟨S_, .f32⟩
  | 126 => ⟨S524288, .f32⟩
  | 127 => ⟨S524288, .f32⟩
  | _ => ⟨S4096x128x3, .f32⟩

abbrev hbmTy0_12 (i : Nat) : BufTy := match i % 128 with
  | 0 => ⟨S1x524288, .f32⟩
  | 1 => ⟨S32x524288, .f32⟩
  | 2 => ⟨S32x524288, .f32⟩
  | 3 => ⟨S1x524288, .f32⟩
  | 4 => ⟨S32x524288, .f32⟩
  | 5 => ⟨S32x524288, .f32⟩
  | 6 => ⟨S32x524288, .f32⟩
  | 7 => ⟨S_, .f32⟩
  | 8 => ⟨S524288, .f32⟩
  | 9 => ⟨S524288, .f32⟩
  | 10 => ⟨S1x524288, .f32⟩
  | 11 => ⟨S32x524288, .f32⟩
  | 12 => ⟨S32x524288, .f32⟩
  | 13 => ⟨S1x524288, .f32⟩
  | 14 => ⟨S32x524288, .f32⟩
  | 15 => ⟨S32x524288, .f32⟩
  | 16 => ⟨S32x524288, .f32⟩
  | 17 => ⟨S524288x32, .f32⟩
  | 18 => ⟨S524288x96, .f32⟩
  | 19 => ⟨S524288x288, .f32⟩
  | _ => ⟨S4096x128x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S4096x128x3, .f32⟩

abbrev bufTy : (tb : Table) → Fin (tcTables nBuf tb) → BufTy
  | .hbm, ⟨i, _⟩ => hbmTy i
  | _, _ => ⟨S4096x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_c_3 : Ref sig .tc := ⟨.hbm, 15, rfl⟩
abbrev main_c_4 : Ref sig .tc := ⟨.hbm, 16, rfl⟩
abbrev main_c_5 : Ref sig .tc := ⟨.hbm, 17, rfl⟩
abbrev main_c_6 : Ref sig .tc := ⟨.hbm, 18, rfl⟩
abbrev main_c_7 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_8 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_9 : Ref sig .tc := ⟨.hbm, 40, rfl⟩
abbrev main_v18 : Ref sig .tc := ⟨.hbm, 41, rfl⟩
abbrev main_v19 : Ref sig .tc := ⟨.hbm, 42, rfl⟩
abbrev main_c_10 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_11 : Ref sig .tc := ⟨.hbm, 51, rfl⟩
abbrev main_v27 : Ref sig .tc := ⟨.hbm, 52, rfl⟩
abbrev main_v28 : Ref sig .tc := ⟨.hbm, 53, rfl⟩
abbrev main_cst_12 : Ref sig .tc := ⟨.hbm, 54, rfl⟩
abbrev main_v29 : Ref sig .tc := ⟨.hbm, 55, rfl⟩
abbrev main_v30 : Ref sig .tc := ⟨.hbm, 56, rfl⟩
abbrev main_cst_13 : Ref sig .tc := ⟨.hbm, 57, rfl⟩
abbrev main_v31 : Ref sig .tc := ⟨.hbm, 58, rfl⟩
abbrev main_v32 : Ref sig .tc := ⟨.hbm, 59, rfl⟩
abbrev main_cst_14 : Ref sig .tc := ⟨.hbm, 60, rfl⟩
abbrev main_c_15 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_16 : Ref sig .tc := ⟨.hbm, 70, rfl⟩
abbrev main_v36 : Ref sig .tc := ⟨.hbm, 71, rfl⟩
abbrev main_v37 : Ref sig .tc := ⟨.hbm, 72, rfl⟩
abbrev main_cst_17 : Ref sig .tc := ⟨.hbm, 73, rfl⟩
abbrev main_v38 : Ref sig .tc := ⟨.hbm, 74, rfl⟩
abbrev main_v39 : Ref sig .tc := ⟨.hbm, 75, rfl⟩
abbrev main_cst_18 : Ref sig .tc := ⟨.hbm, 76, rfl⟩
abbrev main_v40 : Ref sig .tc := ⟨.hbm, 77, rfl⟩
abbrev main_v41 : Ref sig .tc := ⟨.hbm, 78, rfl⟩
abbrev main_cst_19 : Ref sig .tc := ⟨.hbm, 79, rfl⟩
abbrev main_c_20 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_c_21 : Ref sig .tc := ⟨.hbm, 93, rfl⟩
abbrev main_v49 : Ref sig .tc := ⟨.hbm, 94, rfl⟩
abbrev main_v50 : Ref sig .tc := ⟨.hbm, 95, rfl⟩
abbrev main_c_22 : Ref sig .tc := ⟨.hbm, 96, rfl⟩
abbrev main_v51 : Ref sig .tc := ⟨.hbm, 97, rfl⟩
abbrev main_v52 : Ref sig .tc := ⟨.hbm, 98, rfl⟩
abbrev main_c_23 : Ref sig .tc := ⟨.hbm, 99, rfl⟩
abbrev main_v53 : Ref sig .tc := ⟨.hbm, 100, rfl⟩
abbrev main_v54 : Ref sig .tc := ⟨.hbm, 101, rfl⟩
abbrev main_c_24 : Ref sig .tc := ⟨.hbm, 102, rfl⟩
abbrev main_v55 : Ref sig .tc := ⟨.hbm, 103, rfl⟩
abbrev main_v56 : Ref sig .tc := ⟨.hbm, 104, rfl⟩
abbrev main_c_25 : Ref sig .tc := ⟨.hbm, 105, rfl⟩
abbrev main_v57 : Ref sig .tc := ⟨.hbm, 106, rfl⟩
abbrev main_v58 : Ref sig .tc := ⟨.hbm, 107, rfl⟩
abbrev main_c_26 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_c_27 : Ref sig .tc := ⟨.hbm, 112, rfl⟩
abbrev main_v62 : Ref sig .tc := ⟨.hbm, 113, rfl⟩
abbrev main_v63 : Ref sig .tc := ⟨.hbm, 114, rfl⟩
abbrev main_c_28 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_c_29 : Ref sig .tc := ⟨.hbm, 123, rfl⟩
abbrev main_v71 : Ref sig .tc := ⟨.hbm, 124, rfl⟩
abbrev main_v72 : Ref sig .tc := ⟨.hbm, 125, rfl⟩
abbrev main_c_30 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_c_31 : Ref sig .tc := ⟨.hbm, 130, rfl⟩
abbrev main_v76 : Ref sig .tc := ⟨.hbm, 131, rfl⟩
abbrev main_v77 : Ref sig .tc := ⟨.hbm, 132, rfl⟩
abbrev main_c_32 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_c_33 : Ref sig .tc := ⟨.hbm, 141, rfl⟩
abbrev main_v85 : Ref sig .tc := ⟨.hbm, 142, rfl⟩
abbrev main_v86 : Ref sig .tc := ⟨.hbm, 143, rfl⟩
abbrev main_c_34 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_c_35 : Ref sig .tc := ⟨.hbm, 148, rfl⟩
abbrev main_v90 : Ref sig .tc := ⟨.hbm, 149, rfl⟩
abbrev main_v91 : Ref sig .tc := ⟨.hbm, 150, rfl⟩
abbrev main_c_36 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_c_37 : Ref sig .tc := ⟨.hbm, 159, rfl⟩
abbrev main_v99 : Ref sig .tc := ⟨.hbm, 160, rfl⟩
abbrev main_v100 : Ref sig .tc := ⟨.hbm, 161, rfl⟩
abbrev main_c_38 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_c_39 : Ref sig .tc := ⟨.hbm, 166, rfl⟩
abbrev main_v104 : Ref sig .tc := ⟨.hbm, 167, rfl⟩
abbrev main_v105 : Ref sig .tc := ⟨.hbm, 168, rfl⟩
abbrev main_c_40 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_cst_41 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_cst_42 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_cst_43 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_c_44 : Ref sig .tc := ⟨.hbm, 208, rfl⟩
abbrev main_v141 : Ref sig .tc := ⟨.hbm, 209, rfl⟩
abbrev main_v142 : Ref sig .tc := ⟨.hbm, 210, rfl⟩
abbrev main_c_45 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_cst_46 : Ref sig .tc := ⟨.hbm, 219, rfl⟩
abbrev main_v150 : Ref sig .tc := ⟨.hbm, 220, rfl⟩
abbrev main_v151 : Ref sig .tc := ⟨.hbm, 221, rfl⟩
abbrev main_cst_47 : Ref sig .tc := ⟨.hbm, 222, rfl⟩
abbrev main_v152 : Ref sig .tc := ⟨.hbm, 223, rfl⟩
abbrev main_v153 : Ref sig .tc := ⟨.hbm, 224, rfl⟩
abbrev main_cst_48 : Ref sig .tc := ⟨.hbm, 225, rfl⟩
abbrev main_v154 : Ref sig .tc := ⟨.hbm, 226, rfl⟩
abbrev main_v155 : Ref sig .tc := ⟨.hbm, 227, rfl⟩
abbrev main_cst_49 : Ref sig .tc := ⟨.hbm, 228, rfl⟩
abbrev main_c_50 : Ref sig .tc := ⟨.hbm, 229, rfl⟩
abbrev main_call2_v0 : Ref sig .tc := ⟨.hbm, 230, rfl⟩
abbrev main_call2_v1 : Ref sig .tc := ⟨.hbm, 231, rfl⟩
abbrev main_call2_v2 : Ref sig .tc := ⟨.hbm, 232, rfl⟩
abbrev main_call2_v3 : Ref sig .tc := ⟨.hbm, 233, rfl⟩
abbrev main_call2_v4 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_cst_51 : Ref sig .tc := ⟨.hbm, 238, rfl⟩
abbrev main_v159 : Ref sig .tc := ⟨.hbm, 239, rfl⟩
abbrev main_v160 : Ref sig .tc := ⟨.hbm, 240, rfl⟩
abbrev main_cst_52 : Ref sig .tc := ⟨.hbm, 241, rfl⟩
abbrev main_v161 : Ref sig .tc := ⟨.hbm, 242, rfl⟩
abbrev main_v162 : Ref sig .tc := ⟨.hbm, 243, rfl⟩
abbrev main_cst_53 : Ref sig .tc := ⟨.hbm, 244, rfl⟩
abbrev main_v163 : Ref sig .tc := ⟨.hbm, 245, rfl⟩
abbrev main_v164 : Ref sig .tc := ⟨.hbm, 246, rfl⟩
abbrev main_cst_54 : Ref sig .tc := ⟨.hbm, 247, rfl⟩
abbrev main_c_55 : Ref sig .tc := ⟨.hbm, 248, rfl⟩
abbrev main_call3_v0 : Ref sig .tc := ⟨.hbm, 249, rfl⟩
abbrev main_call3_v1 : Ref sig .tc := ⟨.hbm, 250, rfl⟩
abbrev main_call3_v2 : Ref sig .tc := ⟨.hbm, 251, rfl⟩
abbrev main_call3_v3 : Ref sig .tc := ⟨.hbm, 252, rfl⟩
abbrev main_call3_v4 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_c_56 : Ref sig .tc := ⟨.hbm, 261, rfl⟩
abbrev main_v172 : Ref sig .tc := ⟨.hbm, 262, rfl⟩
abbrev main_v173 : Ref sig .tc := ⟨.hbm, 263, rfl⟩
abbrev main_c_57 : Ref sig .tc := ⟨.hbm, 264, rfl⟩
abbrev main_v174 : Ref sig .tc := ⟨.hbm, 265, rfl⟩
abbrev main_v175 : Ref sig .tc := ⟨.hbm, 266, rfl⟩
abbrev main_c_58 : Ref sig .tc := ⟨.hbm, 267, rfl⟩
abbrev main_v176 : Ref sig .tc := ⟨.hbm, 268, rfl⟩
abbrev main_v177 : Ref sig .tc := ⟨.hbm, 269, rfl⟩
abbrev main_c_59 : Ref sig .tc := ⟨.hbm, 270, rfl⟩
abbrev main_v178 : Ref sig .tc := ⟨.hbm, 271, rfl⟩
abbrev main_v179 : Ref sig .tc := ⟨.hbm, 272, rfl⟩
abbrev main_c_60 : Ref sig .tc := ⟨.hbm, 273, rfl⟩
abbrev main_v180 : Ref sig .tc := ⟨.hbm, 274, rfl⟩
abbrev main_v181 : Ref sig .tc := ⟨.hbm, 275, rfl⟩
abbrev main_c_61 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_c_62 : Ref sig .tc := ⟨.hbm, 280, rfl⟩
abbrev main_v185 : Ref sig .tc := ⟨.hbm, 281, rfl⟩
abbrev main_v186 : Ref sig .tc := ⟨.hbm, 282, rfl⟩
abbrev main_c_63 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_c_64 : Ref sig .tc := ⟨.hbm, 291, rfl⟩
abbrev main_v194 : Ref sig .tc := ⟨.hbm, 292, rfl⟩
abbrev main_v195 : Ref sig .tc := ⟨.hbm, 293, rfl⟩
abbrev main_c_65 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_c_66 : Ref sig .tc := ⟨.hbm, 298, rfl⟩
abbrev main_v199 : Ref sig .tc := ⟨.hbm, 299, rfl⟩
abbrev main_v200 : Ref sig .tc := ⟨.hbm, 300, rfl⟩
abbrev main_c_67 : Ref sig .tc := ⟨.hbm, 301, rfl⟩
abbrev main_v201 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩
abbrev main_v206 : Ref sig .tc := ⟨.hbm, 307, rfl⟩
abbrev main_v207 : Ref sig .tc := ⟨.hbm, 308, rfl⟩
abbrev main_c_68 : Ref sig .tc := ⟨.hbm, 309, rfl⟩
abbrev main_v208 : Ref sig .tc := ⟨.hbm, 310, rfl⟩
abbrev main_v209 : Ref sig .tc := ⟨.hbm, 311, rfl⟩
abbrev main_c_69 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_c_70 : Ref sig .tc := ⟨.hbm, 316, rfl⟩
abbrev main_v213 : Ref sig .tc := ⟨.hbm, 317, rfl⟩
abbrev main_v214 : Ref sig .tc := ⟨.hbm, 318, rfl⟩
abbrev main_c_71 : Ref sig .tc := ⟨.hbm, 319, rfl⟩
abbrev main_v215 : Ref sig .tc := ⟨.hbm, 320, rfl⟩
abbrev main_v216 : Ref sig .tc := ⟨.hbm, 321, rfl⟩
abbrev main_v217 : Ref sig .tc := ⟨.hbm, 322, rfl⟩
abbrev main_v218 : Ref sig .tc := ⟨.hbm, 323, rfl⟩
abbrev main_v219 : Ref sig .tc := ⟨.hbm, 324, rfl⟩
abbrev main_v220 : Ref sig .tc := ⟨.hbm, 325, rfl⟩
abbrev main_v221 : Ref sig .tc := ⟨.hbm, 326, rfl⟩
abbrev main_c_72 : Ref sig .tc := ⟨.hbm, 327, rfl⟩
abbrev main_v222 : Ref sig .tc := ⟨.hbm, 328, rfl⟩
abbrev main_v223 : Ref sig .tc := ⟨.hbm, 329, rfl⟩
abbrev main_c_73 : Ref sig .tc := ⟨.hbm, 330, rfl⟩
abbrev main_v224 : Ref sig .tc := ⟨.hbm, 331, rfl⟩
abbrev main_v225 : Ref sig .tc := ⟨.hbm, 332, rfl⟩
abbrev main_v226 : Ref sig .tc := ⟨.hbm, 333, rfl⟩
abbrev main_c_74 : Ref sig .tc := ⟨.hbm, 334, rfl⟩
abbrev main_v227 : Ref sig .tc := ⟨.hbm, 335, rfl⟩
abbrev main_v228 : Ref sig .tc := ⟨.hbm, 336, rfl⟩
abbrev main_c_75 : Ref sig .tc := ⟨.hbm, 337, rfl⟩
abbrev main_v229 : Ref sig .tc := ⟨.hbm, 338, rfl⟩
abbrev main_v230 : Ref sig .tc := ⟨.hbm, 339, rfl⟩
abbrev main_v231 : Ref sig .tc := ⟨.hbm, 340, rfl⟩
abbrev main_v232 : Ref sig .tc := ⟨.hbm, 341, rfl⟩
abbrev main_v233 : Ref sig .tc := ⟨.hbm, 342, rfl⟩
abbrev main_v234 : Ref sig .tc := ⟨.hbm, 343, rfl⟩
abbrev main_v235 : Ref sig .tc := ⟨.hbm, 344, rfl⟩
abbrev main_cst_76 : Ref sig .tc := ⟨.hbm, 345, rfl⟩
abbrev main_v236 : Ref sig .tc := ⟨.hbm, 346, rfl⟩
abbrev main_v237 : Ref sig .tc := ⟨.hbm, 347, rfl⟩
abbrev main_v238 : Ref sig .tc := ⟨.hbm, 348, rfl⟩
abbrev main_v239 : Ref sig .tc := ⟨.hbm, 349, rfl⟩
abbrev main_v240 : Ref sig .tc := ⟨.hbm, 350, rfl⟩
abbrev main_v241 : Ref sig .tc := ⟨.hbm, 351, rfl⟩
abbrev main_v242 : Ref sig .tc := ⟨.hbm, 352, rfl⟩
abbrev main_v243 : Ref sig .tc := ⟨.hbm, 353, rfl⟩
abbrev main_v244 : Ref sig .tc := ⟨.hbm, 354, rfl⟩
abbrev main_cst_77 : Ref sig .tc := ⟨.hbm, 355, rfl⟩
abbrev main_v245 : Ref sig .tc := ⟨.hbm, 356, rfl⟩
abbrev main_v246 : Ref sig .tc := ⟨.hbm, 357, rfl⟩
abbrev main_v247 : Ref sig .tc := ⟨.hbm, 358, rfl⟩
abbrev main_v248 : Ref sig .tc := ⟨.hbm, 359, rfl⟩
abbrev main_v249 : Ref sig .tc := ⟨.hbm, 360, rfl⟩
abbrev main_v250 : Ref sig .tc := ⟨.hbm, 361, rfl⟩
abbrev main_v251 : Ref sig .tc := ⟨.hbm, 362, rfl⟩
abbrev main_v252 : Ref sig .tc := ⟨.hbm, 363, rfl⟩
abbrev main_v253 : Ref sig .tc := ⟨.hbm, 364, rfl⟩
abbrev main_cst_78 : Ref sig .tc := ⟨.hbm, 365, rfl⟩
abbrev main_v254 : Ref sig .tc := ⟨.hbm, 366, rfl⟩
abbrev main_v255 : Ref sig .tc := ⟨.hbm, 367, rfl⟩
abbrev main_v256 : Ref sig .tc := ⟨.hbm, 368, rfl⟩
abbrev main_v257 : Ref sig .tc := ⟨.hbm, 369, rfl⟩
abbrev main_v258 : Ref sig .tc := ⟨.hbm, 370, rfl⟩
abbrev main_v259 : Ref sig .tc := ⟨.hbm, 371, rfl⟩
abbrev main_v260 : Ref sig .tc := ⟨.hbm, 372, rfl⟩
abbrev main_v261 : Ref sig .tc := ⟨.hbm, 373, rfl⟩
abbrev main_v262 : Ref sig .tc := ⟨.hbm, 374, rfl⟩
abbrev main_v263 : Ref sig .tc := ⟨.hbm, 375, rfl⟩
abbrev main_c_79 : Ref sig .tc := ⟨.hbm, 376, rfl⟩
abbrev main_v264 : Ref sig .tc := ⟨.hbm, 377, rfl⟩
abbrev main_v265 : Ref sig .tc := ⟨.hbm, 378, rfl⟩
abbrev main_c_80 : Ref sig .tc := ⟨.hbm, 379, rfl⟩
abbrev main_v266 : Ref sig .tc := ⟨.hbm, 380, rfl⟩
abbrev main_v267 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_cst_81 : Ref sig .tc := ⟨.hbm, 387, rfl⟩
abbrev main_v273 : Ref sig .tc := ⟨.hbm, 388, rfl⟩
abbrev main_v274 : Ref sig .tc := ⟨.hbm, 389, rfl⟩
abbrev main_cst_82 : Ref sig .tc := ⟨.hbm, 390, rfl⟩
abbrev main_v275 : Ref sig .tc := ⟨.hbm, 391, rfl⟩
abbrev main_v276 : Ref sig .tc := ⟨.hbm, 392, rfl⟩
abbrev main_cst_83 : Ref sig .tc := ⟨.hbm, 393, rfl⟩
abbrev main_v277 : Ref sig .tc := ⟨.hbm, 394, rfl⟩
abbrev main_v278 : Ref sig .tc := ⟨.hbm, 395, rfl⟩
abbrev main_cst_84 : Ref sig .tc := ⟨.hbm, 396, rfl⟩
abbrev main_c_85 : Ref sig .tc := ⟨.hbm, 397, rfl⟩
abbrev main_call4_v0 : Ref sig .tc := ⟨.hbm, 398, rfl⟩
abbrev main_call4_v1 : Ref sig .tc := ⟨.hbm, 399, rfl⟩
abbrev main_call4_v2 : Ref sig .tc := ⟨.hbm, 400, rfl⟩
abbrev main_call4_v3 : Ref sig .tc := ⟨.hbm, 401, rfl⟩
abbrev main_call4_v4 : Ref sig .tc := ⟨.hbm, 402, rfl⟩
abbrev main_v279 : Ref sig .tc := ⟨.hbm, 403, rfl⟩
abbrev main_v280 : Ref sig .tc := ⟨.hbm, 404, rfl⟩
abbrev main_v281 : Ref sig .tc := ⟨.hbm, 405, rfl⟩
abbrev main_cst_86 : Ref sig .tc := ⟨.hbm, 406, rfl⟩
abbrev main_v282 : Ref sig .tc := ⟨.hbm, 407, rfl⟩
abbrev main_v283 : Ref sig .tc := ⟨.hbm, 408, rfl⟩
abbrev main_cst_87 : Ref sig .tc := ⟨.hbm, 409, rfl⟩
abbrev main_v284 : Ref sig .tc := ⟨.hbm, 410, rfl⟩
abbrev main_v285 : Ref sig .tc := ⟨.hbm, 411, rfl⟩
abbrev main_cst_88 : Ref sig .tc := ⟨.hbm, 412, rfl⟩
abbrev main_v286 : Ref sig .tc := ⟨.hbm, 413, rfl⟩
abbrev main_v287 : Ref sig .tc := ⟨.hbm, 414, rfl⟩
abbrev main_cst_89 : Ref sig .tc := ⟨.hbm, 415, rfl⟩
abbrev main_c_90 : Ref sig .tc := ⟨.hbm, 416, rfl⟩
abbrev main_call5_v0 : Ref sig .tc := ⟨.hbm, 417, rfl⟩
abbrev main_call5_v1 : Ref sig .tc := ⟨.hbm, 418, rfl⟩
abbrev main_call5_v2 : Ref sig .tc := ⟨.hbm, 419, rfl⟩
abbrev main_call5_v3 : Ref sig .tc := ⟨.hbm, 420, rfl⟩
abbrev main_call5_v4 : Ref sig .tc := ⟨.hbm, 421, rfl⟩
abbrev main_v288 : Ref sig .tc := ⟨.hbm, 422, rfl⟩
abbrev main_v289 : Ref sig .tc := ⟨.hbm, 423, rfl⟩
abbrev main_v290 : Ref sig .tc := ⟨.hbm, 424, rfl⟩
abbrev main_v291 : Ref sig .tc := ⟨.hbm, 425, rfl⟩
abbrev main_v292 : Ref sig .tc := ⟨.hbm, 426, rfl⟩
abbrev main_v293 : Ref sig .tc := ⟨.hbm, 427, rfl⟩
abbrev main_v294 : Ref sig .tc := ⟨.hbm, 428, rfl⟩
abbrev main_c_91 : Ref sig .tc := ⟨.hbm, 429, rfl⟩
abbrev main_v295 : Ref sig .tc := ⟨.hbm, 430, rfl⟩
abbrev main_v296 : Ref sig .tc := ⟨.hbm, 431, rfl⟩
abbrev main_c_92 : Ref sig .tc := ⟨.hbm, 432, rfl⟩
abbrev main_v297 : Ref sig .tc := ⟨.hbm, 433, rfl⟩
abbrev main_v298 : Ref sig .tc := ⟨.hbm, 434, rfl⟩
abbrev main_c_93 : Ref sig .tc := ⟨.hbm, 435, rfl⟩
abbrev main_v299 : Ref sig .tc := ⟨.hbm, 436, rfl⟩
abbrev main_v300 : Ref sig .tc := ⟨.hbm, 437, rfl⟩
abbrev main_c_94 : Ref sig .tc := ⟨.hbm, 438, rfl⟩
abbrev main_v301 : Ref sig .tc := ⟨.hbm, 439, rfl⟩
abbrev main_v302 : Ref sig .tc := ⟨.hbm, 440, rfl⟩
abbrev main_c_95 : Ref sig .tc := ⟨.hbm, 441, rfl⟩
abbrev main_v303 : Ref sig .tc := ⟨.hbm, 442, rfl⟩
abbrev main_v304 : Ref sig .tc := ⟨.hbm, 443, rfl⟩
abbrev main_c_96 : Ref sig .tc := ⟨.hbm, 444, rfl⟩
abbrev main_v305 : Ref sig .tc := ⟨.hbm, 445, rfl⟩
abbrev main_v306 : Ref sig .tc := ⟨.hbm, 446, rfl⟩
abbrev main_v307 : Ref sig .tc := ⟨.hbm, 447, rfl⟩
abbrev main_c_97 : Ref sig .tc := ⟨.hbm, 448, rfl⟩
abbrev main_v308 : Ref sig .tc := ⟨.hbm, 449, rfl⟩
abbrev main_v309 : Ref sig .tc := ⟨.hbm, 450, rfl⟩
abbrev main_c_98 : Ref sig .tc := ⟨.hbm, 451, rfl⟩
abbrev main_v310 : Ref sig .tc := ⟨.hbm, 452, rfl⟩
abbrev main_v311 : Ref sig .tc := ⟨.hbm, 453, rfl⟩
abbrev main_v312 : Ref sig .tc := ⟨.hbm, 454, rfl⟩
abbrev main_v313 : Ref sig .tc := ⟨.hbm, 455, rfl⟩
abbrev main_v314 : Ref sig .tc := ⟨.hbm, 456, rfl⟩
abbrev main_v315 : Ref sig .tc := ⟨.hbm, 457, rfl⟩
abbrev main_v316 : Ref sig .tc := ⟨.hbm, 458, rfl⟩
abbrev main_c_99 : Ref sig .tc := ⟨.hbm, 459, rfl⟩
abbrev main_v317 : Ref sig .tc := ⟨.hbm, 460, rfl⟩
abbrev main_v318 : Ref sig .tc := ⟨.hbm, 461, rfl⟩
abbrev main_c_100 : Ref sig .tc := ⟨.hbm, 462, rfl⟩
abbrev main_v319 : Ref sig .tc := ⟨.hbm, 463, rfl⟩
abbrev main_v320 : Ref sig .tc := ⟨.hbm, 464, rfl⟩
abbrev main_v321 : Ref sig .tc := ⟨.hbm, 465, rfl⟩
abbrev main_c_101 : Ref sig .tc := ⟨.hbm, 466, rfl⟩
abbrev main_v322 : Ref sig .tc := ⟨.hbm, 467, rfl⟩
abbrev main_v323 : Ref sig .tc := ⟨.hbm, 468, rfl⟩
abbrev main_c_102 : Ref sig .tc := ⟨.hbm, 469, rfl⟩
abbrev main_v324 : Ref sig .tc := ⟨.hbm, 470, rfl⟩
abbrev main_v325 : Ref sig .tc := ⟨.hbm, 471, rfl⟩
abbrev main_v326 : Ref sig .tc := ⟨.hbm, 472, rfl⟩
abbrev main_v327 : Ref sig .tc := ⟨.hbm, 473, rfl⟩
abbrev main_v328 : Ref sig .tc := ⟨.hbm, 474, rfl⟩
abbrev main_v329 : Ref sig .tc := ⟨.hbm, 475, rfl⟩
abbrev main_v330 : Ref sig .tc := ⟨.hbm, 476, rfl⟩
abbrev main_c_103 : Ref sig .tc := ⟨.hbm, 477, rfl⟩
abbrev main_v331 : Ref sig .tc := ⟨.hbm, 478, rfl⟩
abbrev main_v332 : Ref sig .tc := ⟨.hbm, 479, rfl⟩
abbrev main_c_104 : Ref sig .tc := ⟨.hbm, 480, rfl⟩
abbrev main_v333 : Ref sig .tc := ⟨.hbm, 481, rfl⟩
abbrev main_v334 : Ref sig .tc := ⟨.hbm, 482, rfl⟩
abbrev main_v335 : Ref sig .tc := ⟨.hbm, 483, rfl⟩
abbrev main_c_105 : Ref sig .tc := ⟨.hbm, 484, rfl⟩
abbrev main_v336 : Ref sig .tc := ⟨.hbm, 485, rfl⟩
abbrev main_v337 : Ref sig .tc := ⟨.hbm, 486, rfl⟩
abbrev main_c_106 : Ref sig .tc := ⟨.hbm, 487, rfl⟩
abbrev main_v338 : Ref sig .tc := ⟨.hbm, 488, rfl⟩
abbrev main_v339 : Ref sig .tc := ⟨.hbm, 489, rfl⟩
abbrev main_v340 : Ref sig .tc := ⟨.hbm, 490, rfl⟩
abbrev main_v341 : Ref sig .tc := ⟨.hbm, 491, rfl⟩
abbrev main_v342 : Ref sig .tc := ⟨.hbm, 492, rfl⟩
abbrev main_v343 : Ref sig .tc := ⟨.hbm, 493, rfl⟩
abbrev main_v344 : Ref sig .tc := ⟨.hbm, 494, rfl⟩
abbrev main_c_107 : Ref sig .tc := ⟨.hbm, 495, rfl⟩
abbrev main_v345 : Ref sig .tc := ⟨.hbm, 496, rfl⟩
abbrev main_v346 : Ref sig .tc := ⟨.hbm, 497, rfl⟩
abbrev main_c_108 : Ref sig .tc := ⟨.hbm, 498, rfl⟩
abbrev main_v347 : Ref sig .tc := ⟨.hbm, 499, rfl⟩
abbrev main_v348 : Ref sig .tc := ⟨.hbm, 500, rfl⟩
abbrev main_v349 : Ref sig .tc := ⟨.hbm, 501, rfl⟩
abbrev main_c_109 : Ref sig .tc := ⟨.hbm, 502, rfl⟩
abbrev main_v350 : Ref sig .tc := ⟨.hbm, 503, rfl⟩
abbrev main_v351 : Ref sig .tc := ⟨.hbm, 504, rfl⟩
abbrev main_c_110 : Ref sig .tc := ⟨.hbm, 505, rfl⟩
abbrev main_v352 : Ref sig .tc := ⟨.hbm, 506, rfl⟩
abbrev main_v353 : Ref sig .tc := ⟨.hbm, 507, rfl⟩
abbrev main_v354 : Ref sig .tc := ⟨.hbm, 508, rfl⟩
abbrev main_v355 : Ref sig .tc := ⟨.hbm, 509, rfl⟩
abbrev main_v356 : Ref sig .tc := ⟨.hbm, 510, rfl⟩
abbrev main_v357 : Ref sig .tc := ⟨.hbm, 511, rfl⟩
abbrev main_v358 : Ref sig .tc := ⟨.hbm, 512, rfl⟩
abbrev main_cst_111 : Ref sig .tc := ⟨.hbm, 513, rfl⟩
abbrev main_v359 : Ref sig .tc := ⟨.hbm, 514, rfl⟩
abbrev main_v360 : Ref sig .tc := ⟨.hbm, 515, rfl⟩
abbrev main_v361 : Ref sig .tc := ⟨.hbm, 516, rfl⟩
abbrev main_v362 : Ref sig .tc := ⟨.hbm, 517, rfl⟩
abbrev main_v363 : Ref sig .tc := ⟨.hbm, 518, rfl⟩
abbrev main_v364 : Ref sig .tc := ⟨.hbm, 519, rfl⟩
abbrev main_v365 : Ref sig .tc := ⟨.hbm, 520, rfl⟩
abbrev main_v366 : Ref sig .tc := ⟨.hbm, 521, rfl⟩
abbrev main_v367 : Ref sig .tc := ⟨.hbm, 522, rfl⟩
abbrev main_cst_112 : Ref sig .tc := ⟨.hbm, 523, rfl⟩
abbrev main_v368 : Ref sig .tc := ⟨.hbm, 524, rfl⟩
abbrev main_v369 : Ref sig .tc := ⟨.hbm, 525, rfl⟩
abbrev main_v370 : Ref sig .tc := ⟨.hbm, 526, rfl⟩
abbrev main_v371 : Ref sig .tc := ⟨.hbm, 527, rfl⟩
abbrev main_v372 : Ref sig .tc := ⟨.hbm, 528, rfl⟩
abbrev main_v373 : Ref sig .tc := ⟨.hbm, 529, rfl⟩
abbrev main_v374 : Ref sig .tc := ⟨.hbm, 530, rfl⟩
abbrev main_v375 : Ref sig .tc := ⟨.hbm, 531, rfl⟩
abbrev main_v376 : Ref sig .tc := ⟨.hbm, 532, rfl⟩
abbrev main_cst_113 : Ref sig .tc := ⟨.hbm, 533, rfl⟩
abbrev main_v377 : Ref sig .tc := ⟨.hbm, 534, rfl⟩
abbrev main_v378 : Ref sig .tc := ⟨.hbm, 535, rfl⟩
abbrev main_v379 : Ref sig .tc := ⟨.hbm, 536, rfl⟩
abbrev main_v380 : Ref sig .tc := ⟨.hbm, 537, rfl⟩
abbrev main_v381 : Ref sig .tc := ⟨.hbm, 538, rfl⟩
abbrev main_v382 : Ref sig .tc := ⟨.hbm, 539, rfl⟩
abbrev main_v383 : Ref sig .tc := ⟨.hbm, 540, rfl⟩
abbrev main_v384 : Ref sig .tc := ⟨.hbm, 541, rfl⟩
abbrev main_v385 : Ref sig .tc := ⟨.hbm, 542, rfl⟩
abbrev main_v386 : Ref sig .tc := ⟨.hbm, 543, rfl⟩
abbrev main_v387 : Ref sig .tc := ⟨.hbm, 544, rfl⟩
abbrev main_c_114 : Ref sig .tc := ⟨.hbm, 545, rfl⟩
abbrev main_v388 : Ref sig .tc := ⟨.hbm, 546, rfl⟩
abbrev main_v389 : Ref sig .tc := ⟨.hbm, 547, rfl⟩
abbrev main_c_115 : Ref sig .tc := ⟨.hbm, 548, rfl⟩
abbrev main_v390 : Ref sig .tc := ⟨.hbm, 549, rfl⟩
abbrev main_v391 : Ref sig .tc := ⟨.hbm, 550, rfl⟩
abbrev main_v392 : Ref sig .tc := ⟨.hbm, 551, rfl⟩
abbrev main_v393 : Ref sig .tc := ⟨.hbm, 552, rfl⟩
abbrev main_v394 : Ref sig .tc := ⟨.hbm, 553, rfl⟩
abbrev main_v395 : Ref sig .tc := ⟨.hbm, 554, rfl⟩
abbrev main_v396 : Ref sig .tc := ⟨.hbm, 555, rfl⟩
abbrev main_cst_116 : Ref sig .tc := ⟨.hbm, 556, rfl⟩
abbrev main_v397 : Ref sig .tc := ⟨.hbm, 557, rfl⟩
abbrev main_v398 : Ref sig .tc := ⟨.hbm, 558, rfl⟩
abbrev main_cst_117 : Ref sig .tc := ⟨.hbm, 559, rfl⟩
abbrev main_v399 : Ref sig .tc := ⟨.hbm, 560, rfl⟩
abbrev main_v400 : Ref sig .tc := ⟨.hbm, 561, rfl⟩
abbrev main_cst_118 : Ref sig .tc := ⟨.hbm, 562, rfl⟩
abbrev main_v401 : Ref sig .tc := ⟨.hbm, 563, rfl⟩
abbrev main_v402 : Ref sig .tc := ⟨.hbm, 564, rfl⟩
abbrev main_cst_119 : Ref sig .tc := ⟨.hbm, 565, rfl⟩
abbrev main_c_120 : Ref sig .tc := ⟨.hbm, 566, rfl⟩
abbrev main_call6_v0 : Ref sig .tc := ⟨.hbm, 567, rfl⟩
abbrev main_call6_v1 : Ref sig .tc := ⟨.hbm, 568, rfl⟩
abbrev main_call6_v2 : Ref sig .tc := ⟨.hbm, 569, rfl⟩
abbrev main_call6_v3 : Ref sig .tc := ⟨.hbm, 570, rfl⟩
abbrev main_call6_v4 : Ref sig .tc := ⟨.hbm, 571, rfl⟩
abbrev main_v403 : Ref sig .tc := ⟨.hbm, 572, rfl⟩
abbrev main_v404 : Ref sig .tc := ⟨.hbm, 573, rfl⟩
abbrev main_v405 : Ref sig .tc := ⟨.hbm, 574, rfl⟩
abbrev main_cst_121 : Ref sig .tc := ⟨.hbm, 575, rfl⟩
abbrev main_v406 : Ref sig .tc := ⟨.hbm, 576, rfl⟩
abbrev main_v407 : Ref sig .tc := ⟨.hbm, 577, rfl⟩
abbrev main_cst_122 : Ref sig .tc := ⟨.hbm, 578, rfl⟩
abbrev main_v408 : Ref sig .tc := ⟨.hbm, 579, rfl⟩
abbrev main_v409 : Ref sig .tc := ⟨.hbm, 580, rfl⟩
abbrev main_cst_123 : Ref sig .tc := ⟨.hbm, 581, rfl⟩
abbrev main_v410 : Ref sig .tc := ⟨.hbm, 582, rfl⟩
abbrev main_v411 : Ref sig .tc := ⟨.hbm, 583, rfl⟩
abbrev main_cst_124 : Ref sig .tc := ⟨.hbm, 584, rfl⟩
abbrev main_c_125 : Ref sig .tc := ⟨.hbm, 585, rfl⟩
abbrev main_call7_v0 : Ref sig .tc := ⟨.hbm, 586, rfl⟩
abbrev main_call7_v1 : Ref sig .tc := ⟨.hbm, 587, rfl⟩
abbrev main_call7_v2 : Ref sig .tc := ⟨.hbm, 588, rfl⟩
abbrev main_call7_v3 : Ref sig .tc := ⟨.hbm, 589, rfl⟩
abbrev main_call7_v4 : Ref sig .tc := ⟨.hbm, 590, rfl⟩
abbrev main_v412 : Ref sig .tc := ⟨.hbm, 591, rfl⟩
abbrev main_v413 : Ref sig .tc := ⟨.hbm, 592, rfl⟩
abbrev main_v414 : Ref sig .tc := ⟨.hbm, 593, rfl⟩
abbrev main_v415 : Ref sig .tc := ⟨.hbm, 594, rfl⟩
abbrev main_v416 : Ref sig .tc := ⟨.hbm, 595, rfl⟩
abbrev main_v417 : Ref sig .tc := ⟨.hbm, 596, rfl⟩
abbrev main_v418 : Ref sig .tc := ⟨.hbm, 597, rfl⟩
abbrev main_c_126 : Ref sig .tc := ⟨.hbm, 598, rfl⟩
abbrev main_v419 : Ref sig .tc := ⟨.hbm, 599, rfl⟩
abbrev main_v420 : Ref sig .tc := ⟨.hbm, 600, rfl⟩
abbrev main_c_127 : Ref sig .tc := ⟨.hbm, 601, rfl⟩
abbrev main_v421 : Ref sig .tc := ⟨.hbm, 602, rfl⟩
abbrev main_v422 : Ref sig .tc := ⟨.hbm, 603, rfl⟩
abbrev main_c_128 : Ref sig .tc := ⟨.hbm, 604, rfl⟩
abbrev main_v423 : Ref sig .tc := ⟨.hbm, 605, rfl⟩
abbrev main_v424 : Ref sig .tc := ⟨.hbm, 606, rfl⟩
abbrev main_c_129 : Ref sig .tc := ⟨.hbm, 607, rfl⟩
abbrev main_v425 : Ref sig .tc := ⟨.hbm, 608, rfl⟩
abbrev main_v426 : Ref sig .tc := ⟨.hbm, 609, rfl⟩
abbrev main_c_130 : Ref sig .tc := ⟨.hbm, 610, rfl⟩
abbrev main_v427 : Ref sig .tc := ⟨.hbm, 611, rfl⟩
abbrev main_v428 : Ref sig .tc := ⟨.hbm, 612, rfl⟩
abbrev main_c_131 : Ref sig .tc := ⟨.hbm, 613, rfl⟩
abbrev main_v429 : Ref sig .tc := ⟨.hbm, 614, rfl⟩
abbrev main_v430 : Ref sig .tc := ⟨.hbm, 615, rfl⟩
abbrev main_v431 : Ref sig .tc := ⟨.hbm, 616, rfl⟩
abbrev main_c_132 : Ref sig .tc := ⟨.hbm, 617, rfl⟩
abbrev main_v432 : Ref sig .tc := ⟨.hbm, 618, rfl⟩
abbrev main_v433 : Ref sig .tc := ⟨.hbm, 619, rfl⟩
abbrev main_c_133 : Ref sig .tc := ⟨.hbm, 620, rfl⟩
abbrev main_v434 : Ref sig .tc := ⟨.hbm, 621, rfl⟩
abbrev main_v435 : Ref sig .tc := ⟨.hbm, 622, rfl⟩
abbrev main_v436 : Ref sig .tc := ⟨.hbm, 623, rfl⟩
abbrev main_v437 : Ref sig .tc := ⟨.hbm, 624, rfl⟩
abbrev main_v438 : Ref sig .tc := ⟨.hbm, 625, rfl⟩
abbrev main_v439 : Ref sig .tc := ⟨.hbm, 626, rfl⟩
abbrev main_v440 : Ref sig .tc := ⟨.hbm, 627, rfl⟩
abbrev main_c_134 : Ref sig .tc := ⟨.hbm, 628, rfl⟩
abbrev main_v441 : Ref sig .tc := ⟨.hbm, 629, rfl⟩
abbrev main_v442 : Ref sig .tc := ⟨.hbm, 630, rfl⟩
abbrev main_c_135 : Ref sig .tc := ⟨.hbm, 631, rfl⟩
abbrev main_v443 : Ref sig .tc := ⟨.hbm, 632, rfl⟩
abbrev main_v444 : Ref sig .tc := ⟨.hbm, 633, rfl⟩
abbrev main_v445 : Ref sig .tc := ⟨.hbm, 634, rfl⟩
abbrev main_c_136 : Ref sig .tc := ⟨.hbm, 635, rfl⟩
abbrev main_v446 : Ref sig .tc := ⟨.hbm, 636, rfl⟩
abbrev main_v447 : Ref sig .tc := ⟨.hbm, 637, rfl⟩
abbrev main_c_137 : Ref sig .tc := ⟨.hbm, 638, rfl⟩
abbrev main_v448 : Ref sig .tc := ⟨.hbm, 639, rfl⟩
abbrev main_v449 : Ref sig .tc := ⟨.hbm, 640, rfl⟩
abbrev main_v450 : Ref sig .tc := ⟨.hbm, 641, rfl⟩
abbrev main_v451 : Ref sig .tc := ⟨.hbm, 642, rfl⟩
abbrev main_v452 : Ref sig .tc := ⟨.hbm, 643, rfl⟩
abbrev main_v453 : Ref sig .tc := ⟨.hbm, 644, rfl⟩
abbrev main_v454 : Ref sig .tc := ⟨.hbm, 645, rfl⟩
abbrev main_c_138 : Ref sig .tc := ⟨.hbm, 646, rfl⟩
abbrev main_v455 : Ref sig .tc := ⟨.hbm, 647, rfl⟩
abbrev main_v456 : Ref sig .tc := ⟨.hbm, 648, rfl⟩
abbrev main_c_139 : Ref sig .tc := ⟨.hbm, 649, rfl⟩
abbrev main_v457 : Ref sig .tc := ⟨.hbm, 650, rfl⟩
abbrev main_v458 : Ref sig .tc := ⟨.hbm, 651, rfl⟩
abbrev main_v459 : Ref sig .tc := ⟨.hbm, 652, rfl⟩
abbrev main_c_140 : Ref sig .tc := ⟨.hbm, 653, rfl⟩
abbrev main_v460 : Ref sig .tc := ⟨.hbm, 654, rfl⟩
abbrev main_v461 : Ref sig .tc := ⟨.hbm, 655, rfl⟩
abbrev main_c_141 : Ref sig .tc := ⟨.hbm, 656, rfl⟩
abbrev main_v462 : Ref sig .tc := ⟨.hbm, 657, rfl⟩
abbrev main_v463 : Ref sig .tc := ⟨.hbm, 658, rfl⟩
abbrev main_v464 : Ref sig .tc := ⟨.hbm, 659, rfl⟩
abbrev main_v465 : Ref sig .tc := ⟨.hbm, 660, rfl⟩
abbrev main_v466 : Ref sig .tc := ⟨.hbm, 661, rfl⟩
abbrev main_v467 : Ref sig .tc := ⟨.hbm, 662, rfl⟩
abbrev main_v468 : Ref sig .tc := ⟨.hbm, 663, rfl⟩
abbrev main_c_142 : Ref sig .tc := ⟨.hbm, 664, rfl⟩
abbrev main_v469 : Ref sig .tc := ⟨.hbm, 665, rfl⟩
abbrev main_v470 : Ref sig .tc := ⟨.hbm, 666, rfl⟩
abbrev main_c_143 : Ref sig .tc := ⟨.hbm, 667, rfl⟩
abbrev main_v471 : Ref sig .tc := ⟨.hbm, 668, rfl⟩
abbrev main_v472 : Ref sig .tc := ⟨.hbm, 669, rfl⟩
abbrev main_v473 : Ref sig .tc := ⟨.hbm, 670, rfl⟩
abbrev main_c_144 : Ref sig .tc := ⟨.hbm, 671, rfl⟩
abbrev main_v474 : Ref sig .tc := ⟨.hbm, 672, rfl⟩
abbrev main_v475 : Ref sig .tc := ⟨.hbm, 673, rfl⟩
abbrev main_c_145 : Ref sig .tc := ⟨.hbm, 674, rfl⟩
abbrev main_v476 : Ref sig .tc := ⟨.hbm, 675, rfl⟩
abbrev main_v477 : Ref sig .tc := ⟨.hbm, 676, rfl⟩
abbrev main_v478 : Ref sig .tc := ⟨.hbm, 677, rfl⟩
abbrev main_v479 : Ref sig .tc := ⟨.hbm, 678, rfl⟩
abbrev main_v480 : Ref sig .tc := ⟨.hbm, 679, rfl⟩
abbrev main_v481 : Ref sig .tc := ⟨.hbm, 680, rfl⟩
abbrev main_v482 : Ref sig .tc := ⟨.hbm, 681, rfl⟩
abbrev main_cst_146 : Ref sig .tc := ⟨.hbm, 682, rfl⟩
abbrev main_v483 : Ref sig .tc := ⟨.hbm, 683, rfl⟩
abbrev main_v484 : Ref sig .tc := ⟨.hbm, 684, rfl⟩
abbrev main_v485 : Ref sig .tc := ⟨.hbm, 685, rfl⟩
abbrev main_v486 : Ref sig .tc := ⟨.hbm, 686, rfl⟩
abbrev main_v487 : Ref sig .tc := ⟨.hbm, 687, rfl⟩
abbrev main_v488 : Ref sig .tc := ⟨.hbm, 688, rfl⟩
abbrev main_v489 : Ref sig .tc := ⟨.hbm, 689, rfl⟩
abbrev main_v490 : Ref sig .tc := ⟨.hbm, 690, rfl⟩
abbrev main_v491 : Ref sig .tc := ⟨.hbm, 691, rfl⟩
abbrev main_cst_147 : Ref sig .tc := ⟨.hbm, 692, rfl⟩
abbrev main_v492 : Ref sig .tc := ⟨.hbm, 693, rfl⟩
abbrev main_v493 : Ref sig .tc := ⟨.hbm, 694, rfl⟩
abbrev main_v494 : Ref sig .tc := ⟨.hbm, 695, rfl⟩
abbrev main_v495 : Ref sig .tc := ⟨.hbm, 696, rfl⟩
abbrev main_v496 : Ref sig .tc := ⟨.hbm, 697, rfl⟩
abbrev main_v497 : Ref sig .tc := ⟨.hbm, 698, rfl⟩
abbrev main_v498 : Ref sig .tc := ⟨.hbm, 699, rfl⟩
abbrev main_v499 : Ref sig .tc := ⟨.hbm, 700, rfl⟩
abbrev main_v500 : Ref sig .tc := ⟨.hbm, 701, rfl⟩
abbrev main_cst_148 : Ref sig .tc := ⟨.hbm, 702, rfl⟩
abbrev main_v501 : Ref sig .tc := ⟨.hbm, 703, rfl⟩
abbrev main_v502 : Ref sig .tc := ⟨.hbm, 704, rfl⟩
abbrev main_v503 : Ref sig .tc := ⟨.hbm, 705, rfl⟩
abbrev main_v504 : Ref sig .tc := ⟨.hbm, 706, rfl⟩
abbrev main_v505 : Ref sig .tc := ⟨.hbm, 707, rfl⟩
abbrev main_v506 : Ref sig .tc := ⟨.hbm, 708, rfl⟩
abbrev main_v507 : Ref sig .tc := ⟨.hbm, 709, rfl⟩
abbrev main_v508 : Ref sig .tc := ⟨.hbm, 710, rfl⟩
abbrev main_v509 : Ref sig .tc := ⟨.hbm, 711, rfl⟩
abbrev main_v510 : Ref sig .tc := ⟨.hbm, 712, rfl⟩
abbrev main_c_149 : Ref sig .tc := ⟨.hbm, 713, rfl⟩
abbrev main_v511 : Ref sig .tc := ⟨.hbm, 714, rfl⟩
abbrev main_v512 : Ref sig .tc := ⟨.hbm, 715, rfl⟩
abbrev main_c_150 : Ref sig .tc := ⟨.hbm, 716, rfl⟩
abbrev main_v513 : Ref sig .tc := ⟨.hbm, 717, rfl⟩
abbrev main_v514 : Ref sig .tc := ⟨.hbm, 718, rfl⟩
abbrev main_v515 : Ref sig .tc := ⟨.hbm, 719, rfl⟩
abbrev main_v516 : Ref sig .tc := ⟨.hbm, 720, rfl⟩
abbrev main_v517 : Ref sig .tc := ⟨.hbm, 721, rfl⟩
abbrev main_v518 : Ref sig .tc := ⟨.hbm, 722, rfl⟩
abbrev main_v519 : Ref sig .tc := ⟨.hbm, 723, rfl⟩
abbrev main_cst_151 : Ref sig .tc := ⟨.hbm, 724, rfl⟩
abbrev main_v520 : Ref sig .tc := ⟨.hbm, 725, rfl⟩
abbrev main_v521 : Ref sig .tc := ⟨.hbm, 726, rfl⟩
abbrev main_cst_152 : Ref sig .tc := ⟨.hbm, 727, rfl⟩
abbrev main_v522 : Ref sig .tc := ⟨.hbm, 728, rfl⟩
abbrev main_v523 : Ref sig .tc := ⟨.hbm, 729, rfl⟩
abbrev main_cst_153 : Ref sig .tc := ⟨.hbm, 730, rfl⟩
abbrev main_v524 : Ref sig .tc := ⟨.hbm, 731, rfl⟩
abbrev main_v525 : Ref sig .tc := ⟨.hbm, 732, rfl⟩
abbrev main_cst_154 : Ref sig .tc := ⟨.hbm, 733, rfl⟩
abbrev main_c_155 : Ref sig .tc := ⟨.hbm, 734, rfl⟩
abbrev main_call8_v0 : Ref sig .tc := ⟨.hbm, 735, rfl⟩
abbrev main_call8_v1 : Ref sig .tc := ⟨.hbm, 736, rfl⟩
abbrev main_call8_v2 : Ref sig .tc := ⟨.hbm, 737, rfl⟩
abbrev main_call8_v3 : Ref sig .tc := ⟨.hbm, 738, rfl⟩
abbrev main_call8_v4 : Ref sig .tc := ⟨.hbm, 739, rfl⟩
abbrev main_v526 : Ref sig .tc := ⟨.hbm, 740, rfl⟩
abbrev main_v527 : Ref sig .tc := ⟨.hbm, 741, rfl⟩
abbrev main_v528 : Ref sig .tc := ⟨.hbm, 742, rfl⟩
abbrev main_cst_156 : Ref sig .tc := ⟨.hbm, 743, rfl⟩
abbrev main_v529 : Ref sig .tc := ⟨.hbm, 744, rfl⟩
abbrev main_v530 : Ref sig .tc := ⟨.hbm, 745, rfl⟩
abbrev main_cst_157 : Ref sig .tc := ⟨.hbm, 746, rfl⟩
abbrev main_v531 : Ref sig .tc := ⟨.hbm, 747, rfl⟩
abbrev main_v532 : Ref sig .tc := ⟨.hbm, 748, rfl⟩
abbrev main_cst_158 : Ref sig .tc := ⟨.hbm, 749, rfl⟩
abbrev main_v533 : Ref sig .tc := ⟨.hbm, 750, rfl⟩
abbrev main_v534 : Ref sig .tc := ⟨.hbm, 751, rfl⟩
abbrev main_cst_159 : Ref sig .tc := ⟨.hbm, 752, rfl⟩
abbrev main_c_160 : Ref sig .tc := ⟨.hbm, 753, rfl⟩
abbrev main_call9_v0 : Ref sig .tc := ⟨.hbm, 754, rfl⟩
abbrev main_call9_v1 : Ref sig .tc := ⟨.hbm, 755, rfl⟩
abbrev main_call9_v2 : Ref sig .tc := ⟨.hbm, 756, rfl⟩
abbrev main_call9_v3 : Ref sig .tc := ⟨.hbm, 757, rfl⟩
abbrev main_call9_v4 : Ref sig .tc := ⟨.hbm, 758, rfl⟩
abbrev main_v535 : Ref sig .tc := ⟨.hbm, 759, rfl⟩
abbrev main_v536 : Ref sig .tc := ⟨.hbm, 760, rfl⟩
abbrev main_v537 : Ref sig .tc := ⟨.hbm, 761, rfl⟩
abbrev main_v538 : Ref sig .tc := ⟨.hbm, 762, rfl⟩
abbrev main_v539 : Ref sig .tc := ⟨.hbm, 763, rfl⟩
abbrev main_v540 : Ref sig .tc := ⟨.hbm, 764, rfl⟩
abbrev main_v541 : Ref sig .tc := ⟨.hbm, 765, rfl⟩
abbrev main_c_161 : Ref sig .tc := ⟨.hbm, 766, rfl⟩
abbrev main_v542 : Ref sig .tc := ⟨.hbm, 767, rfl⟩
abbrev main_v543 : Ref sig .tc := ⟨.hbm, 768, rfl⟩
abbrev main_c_162 : Ref sig .tc := ⟨.hbm, 769, rfl⟩
abbrev main_v544 : Ref sig .tc := ⟨.hbm, 770, rfl⟩
abbrev main_v545 : Ref sig .tc := ⟨.hbm, 771, rfl⟩
abbrev main_c_163 : Ref sig .tc := ⟨.hbm, 772, rfl⟩
abbrev main_v546 : Ref sig .tc := ⟨.hbm, 773, rfl⟩
abbrev main_v547 : Ref sig .tc := ⟨.hbm, 774, rfl⟩
abbrev main_c_164 : Ref sig .tc := ⟨.hbm, 775, rfl⟩
abbrev main_v548 : Ref sig .tc := ⟨.hbm, 776, rfl⟩
abbrev main_v549 : Ref sig .tc := ⟨.hbm, 777, rfl⟩
abbrev main_c_165 : Ref sig .tc := ⟨.hbm, 778, rfl⟩
abbrev main_v550 : Ref sig .tc := ⟨.hbm, 779, rfl⟩
abbrev main_v551 : Ref sig .tc := ⟨.hbm, 780, rfl⟩
abbrev main_c_166 : Ref sig .tc := ⟨.hbm, 781, rfl⟩
abbrev main_v552 : Ref sig .tc := ⟨.hbm, 782, rfl⟩
abbrev main_v553 : Ref sig .tc := ⟨.hbm, 783, rfl⟩
abbrev main_v554 : Ref sig .tc := ⟨.hbm, 784, rfl⟩
abbrev main_c_167 : Ref sig .tc := ⟨.hbm, 785, rfl⟩
abbrev main_v555 : Ref sig .tc := ⟨.hbm, 786, rfl⟩
abbrev main_v556 : Ref sig .tc := ⟨.hbm, 787, rfl⟩
abbrev main_c_168 : Ref sig .tc := ⟨.hbm, 788, rfl⟩
abbrev main_v557 : Ref sig .tc := ⟨.hbm, 789, rfl⟩
abbrev main_v558 : Ref sig .tc := ⟨.hbm, 790, rfl⟩
abbrev main_v559 : Ref sig .tc := ⟨.hbm, 791, rfl⟩
abbrev main_v560 : Ref sig .tc := ⟨.hbm, 792, rfl⟩
abbrev main_v561 : Ref sig .tc := ⟨.hbm, 793, rfl⟩
abbrev main_v562 : Ref sig .tc := ⟨.hbm, 794, rfl⟩
abbrev main_v563 : Ref sig .tc := ⟨.hbm, 795, rfl⟩
abbrev main_c_169 : Ref sig .tc := ⟨.hbm, 796, rfl⟩
abbrev main_v564 : Ref sig .tc := ⟨.hbm, 797, rfl⟩
abbrev main_v565 : Ref sig .tc := ⟨.hbm, 798, rfl⟩
abbrev main_c_170 : Ref sig .tc := ⟨.hbm, 799, rfl⟩
abbrev main_v566 : Ref sig .tc := ⟨.hbm, 800, rfl⟩
abbrev main_v567 : Ref sig .tc := ⟨.hbm, 801, rfl⟩
abbrev main_v568 : Ref sig .tc := ⟨.hbm, 802, rfl⟩
abbrev main_c_171 : Ref sig .tc := ⟨.hbm, 803, rfl⟩
abbrev main_v569 : Ref sig .tc := ⟨.hbm, 804, rfl⟩
abbrev main_v570 : Ref sig .tc := ⟨.hbm, 805, rfl⟩
abbrev main_c_172 : Ref sig .tc := ⟨.hbm, 806, rfl⟩
abbrev main_v571 : Ref sig .tc := ⟨.hbm, 807, rfl⟩
abbrev main_v572 : Ref sig .tc := ⟨.hbm, 808, rfl⟩
abbrev main_v573 : Ref sig .tc := ⟨.hbm, 809, rfl⟩
abbrev main_v574 : Ref sig .tc := ⟨.hbm, 810, rfl⟩
abbrev main_v575 : Ref sig .tc := ⟨.hbm, 811, rfl⟩
abbrev main_v576 : Ref sig .tc := ⟨.hbm, 812, rfl⟩
abbrev main_v577 : Ref sig .tc := ⟨.hbm, 813, rfl⟩
abbrev main_c_173 : Ref sig .tc := ⟨.hbm, 814, rfl⟩
abbrev main_v578 : Ref sig .tc := ⟨.hbm, 815, rfl⟩
abbrev main_v579 : Ref sig .tc := ⟨.hbm, 816, rfl⟩
abbrev main_c_174 : Ref sig .tc := ⟨.hbm, 817, rfl⟩
abbrev main_v580 : Ref sig .tc := ⟨.hbm, 818, rfl⟩
abbrev main_v581 : Ref sig .tc := ⟨.hbm, 819, rfl⟩
abbrev main_v582 : Ref sig .tc := ⟨.hbm, 820, rfl⟩
abbrev main_c_175 : Ref sig .tc := ⟨.hbm, 821, rfl⟩
abbrev main_v583 : Ref sig .tc := ⟨.hbm, 822, rfl⟩
abbrev main_v584 : Ref sig .tc := ⟨.hbm, 823, rfl⟩
abbrev main_c_176 : Ref sig .tc := ⟨.hbm, 824, rfl⟩
abbrev main_v585 : Ref sig .tc := ⟨.hbm, 825, rfl⟩
abbrev main_v586 : Ref sig .tc := ⟨.hbm, 826, rfl⟩
abbrev main_v587 : Ref sig .tc := ⟨.hbm, 827, rfl⟩
abbrev main_v588 : Ref sig .tc := ⟨.hbm, 828, rfl⟩
abbrev main_v589 : Ref sig .tc := ⟨.hbm, 829, rfl⟩
abbrev main_v590 : Ref sig .tc := ⟨.hbm, 830, rfl⟩
abbrev main_v591 : Ref sig .tc := ⟨.hbm, 831, rfl⟩
abbrev main_c_177 : Ref sig .tc := ⟨.hbm, 832, rfl⟩
abbrev main_v592 : Ref sig .tc := ⟨.hbm, 833, rfl⟩
abbrev main_v593 : Ref sig .tc := ⟨.hbm, 834, rfl⟩
abbrev main_c_178 : Ref sig .tc := ⟨.hbm, 835, rfl⟩
abbrev main_v594 : Ref sig .tc := ⟨.hbm, 836, rfl⟩
abbrev main_v595 : Ref sig .tc := ⟨.hbm, 837, rfl⟩
abbrev main_v596 : Ref sig .tc := ⟨.hbm, 838, rfl⟩
abbrev main_c_179 : Ref sig .tc := ⟨.hbm, 839, rfl⟩
abbrev main_v597 : Ref sig .tc := ⟨.hbm, 840, rfl⟩
abbrev main_v598 : Ref sig .tc := ⟨.hbm, 841, rfl⟩
abbrev main_c_180 : Ref sig .tc := ⟨.hbm, 842, rfl⟩
abbrev main_v599 : Ref sig .tc := ⟨.hbm, 843, rfl⟩
abbrev main_v600 : Ref sig .tc := ⟨.hbm, 844, rfl⟩
abbrev main_v601 : Ref sig .tc := ⟨.hbm, 845, rfl⟩
abbrev main_v602 : Ref sig .tc := ⟨.hbm, 846, rfl⟩
abbrev main_v603 : Ref sig .tc := ⟨.hbm, 847, rfl⟩
abbrev main_v604 : Ref sig .tc := ⟨.hbm, 848, rfl⟩
abbrev main_v605 : Ref sig .tc := ⟨.hbm, 849, rfl⟩
abbrev main_cst_181 : Ref sig .tc := ⟨.hbm, 850, rfl⟩
abbrev main_v606 : Ref sig .tc := ⟨.hbm, 851, rfl⟩
abbrev main_v607 : Ref sig .tc := ⟨.hbm, 852, rfl⟩
abbrev main_v608 : Ref sig .tc := ⟨.hbm, 853, rfl⟩
abbrev main_v609 : Ref sig .tc := ⟨.hbm, 854, rfl⟩
abbrev main_v610 : Ref sig .tc := ⟨.hbm, 855, rfl⟩
abbrev main_v611 : Ref sig .tc := ⟨.hbm, 856, rfl⟩
abbrev main_v612 : Ref sig .tc := ⟨.hbm, 857, rfl⟩
abbrev main_v613 : Ref sig .tc := ⟨.hbm, 858, rfl⟩
abbrev main_v614 : Ref sig .tc := ⟨.hbm, 859, rfl⟩
abbrev main_cst_182 : Ref sig .tc := ⟨.hbm, 860, rfl⟩
abbrev main_v615 : Ref sig .tc := ⟨.hbm, 861, rfl⟩
abbrev main_v616 : Ref sig .tc := ⟨.hbm, 862, rfl⟩
abbrev main_v617 : Ref sig .tc := ⟨.hbm, 863, rfl⟩
abbrev main_v618 : Ref sig .tc := ⟨.hbm, 864, rfl⟩
abbrev main_v619 : Ref sig .tc := ⟨.hbm, 865, rfl⟩
abbrev main_v620 : Ref sig .tc := ⟨.hbm, 866, rfl⟩
abbrev main_v621 : Ref sig .tc := ⟨.hbm, 867, rfl⟩
abbrev main_v622 : Ref sig .tc := ⟨.hbm, 868, rfl⟩
abbrev main_v623 : Ref sig .tc := ⟨.hbm, 869, rfl⟩
abbrev main_cst_183 : Ref sig .tc := ⟨.hbm, 870, rfl⟩
abbrev main_v624 : Ref sig .tc := ⟨.hbm, 871, rfl⟩
abbrev main_v625 : Ref sig .tc := ⟨.hbm, 872, rfl⟩
abbrev main_v626 : Ref sig .tc := ⟨.hbm, 873, rfl⟩
abbrev main_v627 : Ref sig .tc := ⟨.hbm, 874, rfl⟩
abbrev main_v628 : Ref sig .tc := ⟨.hbm, 875, rfl⟩
abbrev main_v629 : Ref sig .tc := ⟨.hbm, 876, rfl⟩
abbrev main_v630 : Ref sig .tc := ⟨.hbm, 877, rfl⟩
abbrev main_v631 : Ref sig .tc := ⟨.hbm, 878, rfl⟩
abbrev main_v632 : Ref sig .tc := ⟨.hbm, 879, rfl⟩
abbrev main_v633 : Ref sig .tc := ⟨.hbm, 880, rfl⟩
abbrev main_c_184 : Ref sig .tc := ⟨.hbm, 881, rfl⟩
abbrev main_v634 : Ref sig .tc := ⟨.hbm, 882, rfl⟩
abbrev main_v635 : Ref sig .tc := ⟨.hbm, 883, rfl⟩
abbrev main_c_185 : Ref sig .tc := ⟨.hbm, 884, rfl⟩
abbrev main_v636 : Ref sig .tc := ⟨.hbm, 885, rfl⟩
abbrev main_v637 : Ref sig .tc := ⟨.hbm, 886, rfl⟩
abbrev main_v638 : Ref sig .tc := ⟨.hbm, 887, rfl⟩
abbrev main_v639 : Ref sig .tc := ⟨.hbm, 888, rfl⟩
abbrev main_v640 : Ref sig .tc := ⟨.hbm, 889, rfl⟩
abbrev main_v641 : Ref sig .tc := ⟨.hbm, 890, rfl⟩
abbrev main_v642 : Ref sig .tc := ⟨.hbm, 891, rfl⟩
abbrev main_cst_186 : Ref sig .tc := ⟨.hbm, 892, rfl⟩
abbrev main_v643 : Ref sig .tc := ⟨.hbm, 893, rfl⟩
abbrev main_v644 : Ref sig .tc := ⟨.hbm, 894, rfl⟩
abbrev main_cst_187 : Ref sig .tc := ⟨.hbm, 895, rfl⟩
abbrev main_v645 : Ref sig .tc := ⟨.hbm, 896, rfl⟩
abbrev main_v646 : Ref sig .tc := ⟨.hbm, 897, rfl⟩
abbrev main_cst_188 : Ref sig .tc := ⟨.hbm, 898, rfl⟩
abbrev main_v647 : Ref sig .tc := ⟨.hbm, 899, rfl⟩
abbrev main_v648 : Ref sig .tc := ⟨.hbm, 900, rfl⟩
abbrev main_cst_189 : Ref sig .tc := ⟨.hbm, 901, rfl⟩
abbrev main_c_190 : Ref sig .tc := ⟨.hbm, 902, rfl⟩
abbrev main_call10_v0 : Ref sig .tc := ⟨.hbm, 903, rfl⟩
abbrev main_call10_v1 : Ref sig .tc := ⟨.hbm, 904, rfl⟩
abbrev main_call10_v2 : Ref sig .tc := ⟨.hbm, 905, rfl⟩
abbrev main_call10_v3 : Ref sig .tc := ⟨.hbm, 906, rfl⟩
abbrev main_call10_v4 : Ref sig .tc := ⟨.hbm, 907, rfl⟩
abbrev main_v649 : Ref sig .tc := ⟨.hbm, 908, rfl⟩
abbrev main_v650 : Ref sig .tc := ⟨.hbm, 909, rfl⟩
abbrev main_v651 : Ref sig .tc := ⟨.hbm, 910, rfl⟩
abbrev main_cst_191 : Ref sig .tc := ⟨.hbm, 911, rfl⟩
abbrev main_v652 : Ref sig .tc := ⟨.hbm, 912, rfl⟩
abbrev main_v653 : Ref sig .tc := ⟨.hbm, 913, rfl⟩
abbrev main_cst_192 : Ref sig .tc := ⟨.hbm, 914, rfl⟩
abbrev main_v654 : Ref sig .tc := ⟨.hbm, 915, rfl⟩
abbrev main_v655 : Ref sig .tc := ⟨.hbm, 916, rfl⟩
abbrev main_cst_193 : Ref sig .tc := ⟨.hbm, 917, rfl⟩
abbrev main_v656 : Ref sig .tc := ⟨.hbm, 918, rfl⟩
abbrev main_v657 : Ref sig .tc := ⟨.hbm, 919, rfl⟩
abbrev main_cst_194 : Ref sig .tc := ⟨.hbm, 920, rfl⟩
abbrev main_c_195 : Ref sig .tc := ⟨.hbm, 921, rfl⟩
abbrev main_call11_v0 : Ref sig .tc := ⟨.hbm, 922, rfl⟩
abbrev main_call11_v1 : Ref sig .tc := ⟨.hbm, 923, rfl⟩
abbrev main_call11_v2 : Ref sig .tc := ⟨.hbm, 924, rfl⟩
abbrev main_call11_v3 : Ref sig .tc := ⟨.hbm, 925, rfl⟩
abbrev main_call11_v4 : Ref sig .tc := ⟨.hbm, 926, rfl⟩
abbrev main_v658 : Ref sig .tc := ⟨.hbm, 927, rfl⟩
abbrev main_v659 : Ref sig .tc := ⟨.hbm, 928, rfl⟩
abbrev main_v660 : Ref sig .tc := ⟨.hbm, 929, rfl⟩
abbrev main_v661 : Ref sig .tc := ⟨.hbm, 930, rfl⟩
abbrev main_v662 : Ref sig .tc := ⟨.hbm, 931, rfl⟩
abbrev main_v663 : Ref sig .tc := ⟨.hbm, 932, rfl⟩
abbrev main_v664 : Ref sig .tc := ⟨.hbm, 933, rfl⟩
abbrev main_c_196 : Ref sig .tc := ⟨.hbm, 934, rfl⟩
abbrev main_v665 : Ref sig .tc := ⟨.hbm, 935, rfl⟩
abbrev main_v666 : Ref sig .tc := ⟨.hbm, 936, rfl⟩
abbrev main_c_197 : Ref sig .tc := ⟨.hbm, 937, rfl⟩
abbrev main_v667 : Ref sig .tc := ⟨.hbm, 938, rfl⟩
abbrev main_v668 : Ref sig .tc := ⟨.hbm, 939, rfl⟩
abbrev main_c_198 : Ref sig .tc := ⟨.hbm, 940, rfl⟩
abbrev main_v669 : Ref sig .tc := ⟨.hbm, 941, rfl⟩
abbrev main_v670 : Ref sig .tc := ⟨.hbm, 942, rfl⟩
abbrev main_c_199 : Ref sig .tc := ⟨.hbm, 943, rfl⟩
abbrev main_v671 : Ref sig .tc := ⟨.hbm, 944, rfl⟩
abbrev main_v672 : Ref sig .tc := ⟨.hbm, 945, rfl⟩
abbrev main_c_200 : Ref sig .tc := ⟨.hbm, 946, rfl⟩
abbrev main_v673 : Ref sig .tc := ⟨.hbm, 947, rfl⟩
abbrev main_v674 : Ref sig .tc := ⟨.hbm, 948, rfl⟩
abbrev main_c_201 : Ref sig .tc := ⟨.hbm, 949, rfl⟩
abbrev main_v675 : Ref sig .tc := ⟨.hbm, 950, rfl⟩
abbrev main_v676 : Ref sig .tc := ⟨.hbm, 951, rfl⟩
abbrev main_v677 : Ref sig .tc := ⟨.hbm, 952, rfl⟩
abbrev main_c_202 : Ref sig .tc := ⟨.hbm, 953, rfl⟩
abbrev main_v678 : Ref sig .tc := ⟨.hbm, 954, rfl⟩
abbrev main_v679 : Ref sig .tc := ⟨.hbm, 955, rfl⟩
abbrev main_c_203 : Ref sig .tc := ⟨.hbm, 956, rfl⟩
abbrev main_v680 : Ref sig .tc := ⟨.hbm, 957, rfl⟩
abbrev main_v681 : Ref sig .tc := ⟨.hbm, 958, rfl⟩
abbrev main_v682 : Ref sig .tc := ⟨.hbm, 959, rfl⟩
abbrev main_v683 : Ref sig .tc := ⟨.hbm, 960, rfl⟩
abbrev main_v684 : Ref sig .tc := ⟨.hbm, 961, rfl⟩
abbrev main_v685 : Ref sig .tc := ⟨.hbm, 962, rfl⟩
abbrev main_v686 : Ref sig .tc := ⟨.hbm, 963, rfl⟩
abbrev main_c_204 : Ref sig .tc := ⟨.hbm, 964, rfl⟩
abbrev main_v687 : Ref sig .tc := ⟨.hbm, 965, rfl⟩
abbrev main_v688 : Ref sig .tc := ⟨.hbm, 966, rfl⟩
abbrev main_c_205 : Ref sig .tc := ⟨.hbm, 967, rfl⟩
abbrev main_v689 : Ref sig .tc := ⟨.hbm, 968, rfl⟩
abbrev main_v690 : Ref sig .tc := ⟨.hbm, 969, rfl⟩
abbrev main_v691 : Ref sig .tc := ⟨.hbm, 970, rfl⟩
abbrev main_c_206 : Ref sig .tc := ⟨.hbm, 971, rfl⟩
abbrev main_v692 : Ref sig .tc := ⟨.hbm, 972, rfl⟩
abbrev main_v693 : Ref sig .tc := ⟨.hbm, 973, rfl⟩
abbrev main_c_207 : Ref sig .tc := ⟨.hbm, 974, rfl⟩
abbrev main_v694 : Ref sig .tc := ⟨.hbm, 975, rfl⟩
abbrev main_v695 : Ref sig .tc := ⟨.hbm, 976, rfl⟩
abbrev main_v696 : Ref sig .tc := ⟨.hbm, 977, rfl⟩
abbrev main_v697 : Ref sig .tc := ⟨.hbm, 978, rfl⟩
abbrev main_v698 : Ref sig .tc := ⟨.hbm, 979, rfl⟩
abbrev main_v699 : Ref sig .tc := ⟨.hbm, 980, rfl⟩
abbrev main_v700 : Ref sig .tc := ⟨.hbm, 981, rfl⟩
abbrev main_c_208 : Ref sig .tc := ⟨.hbm, 982, rfl⟩
abbrev main_v701 : Ref sig .tc := ⟨.hbm, 983, rfl⟩
abbrev main_v702 : Ref sig .tc := ⟨.hbm, 984, rfl⟩
abbrev main_c_209 : Ref sig .tc := ⟨.hbm, 985, rfl⟩
abbrev main_v703 : Ref sig .tc := ⟨.hbm, 986, rfl⟩
abbrev main_v704 : Ref sig .tc := ⟨.hbm, 987, rfl⟩
abbrev main_v705 : Ref sig .tc := ⟨.hbm, 988, rfl⟩
abbrev main_c_210 : Ref sig .tc := ⟨.hbm, 989, rfl⟩
abbrev main_v706 : Ref sig .tc := ⟨.hbm, 990, rfl⟩
abbrev main_v707 : Ref sig .tc := ⟨.hbm, 991, rfl⟩
abbrev main_c_211 : Ref sig .tc := ⟨.hbm, 992, rfl⟩
abbrev main_v708 : Ref sig .tc := ⟨.hbm, 993, rfl⟩
abbrev main_v709 : Ref sig .tc := ⟨.hbm, 994, rfl⟩
abbrev main_v710 : Ref sig .tc := ⟨.hbm, 995, rfl⟩
abbrev main_v711 : Ref sig .tc := ⟨.hbm, 996, rfl⟩
abbrev main_v712 : Ref sig .tc := ⟨.hbm, 997, rfl⟩
abbrev main_v713 : Ref sig .tc := ⟨.hbm, 998, rfl⟩
abbrev main_v714 : Ref sig .tc := ⟨.hbm, 999, rfl⟩
abbrev main_c_212 : Ref sig .tc := ⟨.hbm, 1000, rfl⟩
abbrev main_v715 : Ref sig .tc := ⟨.hbm, 1001, rfl⟩
abbrev main_v716 : Ref sig .tc := ⟨.hbm, 1002, rfl⟩
abbrev main_c_213 : Ref sig .tc := ⟨.hbm, 1003, rfl⟩
abbrev main_v717 : Ref sig .tc := ⟨.hbm, 1004, rfl⟩
abbrev main_v718 : Ref sig .tc := ⟨.hbm, 1005, rfl⟩
abbrev main_v719 : Ref sig .tc := ⟨.hbm, 1006, rfl⟩
abbrev main_c_214 : Ref sig .tc := ⟨.hbm, 1007, rfl⟩
abbrev main_v720 : Ref sig .tc := ⟨.hbm, 1008, rfl⟩
abbrev main_v721 : Ref sig .tc := ⟨.hbm, 1009, rfl⟩
abbrev main_c_215 : Ref sig .tc := ⟨.hbm, 1010, rfl⟩
abbrev main_v722 : Ref sig .tc := ⟨.hbm, 1011, rfl⟩
abbrev main_v723 : Ref sig .tc := ⟨.hbm, 1012, rfl⟩
abbrev main_v724 : Ref sig .tc := ⟨.hbm, 1013, rfl⟩
abbrev main_v725 : Ref sig .tc := ⟨.hbm, 1014, rfl⟩
abbrev main_v726 : Ref sig .tc := ⟨.hbm, 1015, rfl⟩
abbrev main_v727 : Ref sig .tc := ⟨.hbm, 1016, rfl⟩
abbrev main_v728 : Ref sig .tc := ⟨.hbm, 1017, rfl⟩
abbrev main_cst_216 : Ref sig .tc := ⟨.hbm, 1018, rfl⟩
abbrev main_v729 : Ref sig .tc := ⟨.hbm, 1019, rfl⟩
abbrev main_v730 : Ref sig .tc := ⟨.hbm, 1020, rfl⟩
abbrev main_v731 : Ref sig .tc := ⟨.hbm, 1021, rfl⟩
abbrev main_v732 : Ref sig .tc := ⟨.hbm, 1022, rfl⟩
abbrev main_v733 : Ref sig .tc := ⟨.hbm, 1023, rfl⟩
abbrev main_v734 : Ref sig .tc := ⟨.hbm, 1024, rfl⟩
abbrev main_v735 : Ref sig .tc := ⟨.hbm, 1025, rfl⟩
abbrev main_v736 : Ref sig .tc := ⟨.hbm, 1026, rfl⟩
abbrev main_v737 : Ref sig .tc := ⟨.hbm, 1027, rfl⟩
abbrev main_cst_217 : Ref sig .tc := ⟨.hbm, 1028, rfl⟩
abbrev main_v738 : Ref sig .tc := ⟨.hbm, 1029, rfl⟩
abbrev main_v739 : Ref sig .tc := ⟨.hbm, 1030, rfl⟩
abbrev main_v740 : Ref sig .tc := ⟨.hbm, 1031, rfl⟩
abbrev main_v741 : Ref sig .tc := ⟨.hbm, 1032, rfl⟩
abbrev main_v742 : Ref sig .tc := ⟨.hbm, 1033, rfl⟩
abbrev main_v743 : Ref sig .tc := ⟨.hbm, 1034, rfl⟩
abbrev main_v744 : Ref sig .tc := ⟨.hbm, 1035, rfl⟩
abbrev main_v745 : Ref sig .tc := ⟨.hbm, 1036, rfl⟩
abbrev main_v746 : Ref sig .tc := ⟨.hbm, 1037, rfl⟩
abbrev main_cst_218 : Ref sig .tc := ⟨.hbm, 1038, rfl⟩
abbrev main_v747 : Ref sig .tc := ⟨.hbm, 1039, rfl⟩
abbrev main_v748 : Ref sig .tc := ⟨.hbm, 1040, rfl⟩
abbrev main_v749 : Ref sig .tc := ⟨.hbm, 1041, rfl⟩
abbrev main_v750 : Ref sig .tc := ⟨.hbm, 1042, rfl⟩
abbrev main_v751 : Ref sig .tc := ⟨.hbm, 1043, rfl⟩
abbrev main_v752 : Ref sig .tc := ⟨.hbm, 1044, rfl⟩
abbrev main_v753 : Ref sig .tc := ⟨.hbm, 1045, rfl⟩
abbrev main_v754 : Ref sig .tc := ⟨.hbm, 1046, rfl⟩
abbrev main_v755 : Ref sig .tc := ⟨.hbm, 1047, rfl⟩
abbrev main_v756 : Ref sig .tc := ⟨.hbm, 1048, rfl⟩
abbrev main_v757 : Ref sig .tc := ⟨.hbm, 1049, rfl⟩
abbrev main_c_219 : Ref sig .tc := ⟨.hbm, 1050, rfl⟩
abbrev main_v758 : Ref sig .tc := ⟨.hbm, 1051, rfl⟩
abbrev main_v759 : Ref sig .tc := ⟨.hbm, 1052, rfl⟩
abbrev main_c_220 : Ref sig .tc := ⟨.hbm, 1053, rfl⟩
abbrev main_v760 : Ref sig .tc := ⟨.hbm, 1054, rfl⟩
abbrev main_v761 : Ref sig .tc := ⟨.hbm, 1055, rfl⟩
abbrev main_v762 : Ref sig .tc := ⟨.hbm, 1056, rfl⟩
abbrev main_v763 : Ref sig .tc := ⟨.hbm, 1057, rfl⟩
abbrev main_v764 : Ref sig .tc := ⟨.hbm, 1058, rfl⟩
abbrev main_v765 : Ref sig .tc := ⟨.hbm, 1059, rfl⟩
abbrev main_v766 : Ref sig .tc := ⟨.hbm, 1060, rfl⟩
abbrev main_cst_221 : Ref sig .tc := ⟨.hbm, 1061, rfl⟩
abbrev main_v767 : Ref sig .tc := ⟨.hbm, 1062, rfl⟩
abbrev main_v768 : Ref sig .tc := ⟨.hbm, 1063, rfl⟩
abbrev main_cst_222 : Ref sig .tc := ⟨.hbm, 1064, rfl⟩
abbrev main_v769 : Ref sig .tc := ⟨.hbm, 1065, rfl⟩
abbrev main_v770 : Ref sig .tc := ⟨.hbm, 1066, rfl⟩
abbrev main_cst_223 : Ref sig .tc := ⟨.hbm, 1067, rfl⟩
abbrev main_v771 : Ref sig .tc := ⟨.hbm, 1068, rfl⟩
abbrev main_v772 : Ref sig .tc := ⟨.hbm, 1069, rfl⟩
abbrev main_cst_224 : Ref sig .tc := ⟨.hbm, 1070, rfl⟩
abbrev main_c_225 : Ref sig .tc := ⟨.hbm, 1071, rfl⟩
abbrev main_call12_v0 : Ref sig .tc := ⟨.hbm, 1072, rfl⟩
abbrev main_call12_v1 : Ref sig .tc := ⟨.hbm, 1073, rfl⟩
abbrev main_call12_v2 : Ref sig .tc := ⟨.hbm, 1074, rfl⟩
abbrev main_call12_v3 : Ref sig .tc := ⟨.hbm, 1075, rfl⟩
abbrev main_call12_v4 : Ref sig .tc := ⟨.hbm, 1076, rfl⟩
abbrev main_v773 : Ref sig .tc := ⟨.hbm, 1077, rfl⟩
abbrev main_v774 : Ref sig .tc := ⟨.hbm, 1078, rfl⟩
abbrev main_v775 : Ref sig .tc := ⟨.hbm, 1079, rfl⟩
abbrev main_cst_226 : Ref sig .tc := ⟨.hbm, 1080, rfl⟩
abbrev main_v776 : Ref sig .tc := ⟨.hbm, 1081, rfl⟩
abbrev main_v777 : Ref sig .tc := ⟨.hbm, 1082, rfl⟩
abbrev main_cst_227 : Ref sig .tc := ⟨.hbm, 1083, rfl⟩
abbrev main_v778 : Ref sig .tc := ⟨.hbm, 1084, rfl⟩
abbrev main_v779 : Ref sig .tc := ⟨.hbm, 1085, rfl⟩
abbrev main_cst_228 : Ref sig .tc := ⟨.hbm, 1086, rfl⟩
abbrev main_v780 : Ref sig .tc := ⟨.hbm, 1087, rfl⟩
abbrev main_v781 : Ref sig .tc := ⟨.hbm, 1088, rfl⟩
abbrev main_cst_229 : Ref sig .tc := ⟨.hbm, 1089, rfl⟩
abbrev main_c_230 : Ref sig .tc := ⟨.hbm, 1090, rfl⟩
abbrev main_call13_v0 : Ref sig .tc := ⟨.hbm, 1091, rfl⟩
abbrev main_call13_v1 : Ref sig .tc := ⟨.hbm, 1092, rfl⟩
abbrev main_call13_v2 : Ref sig .tc := ⟨.hbm, 1093, rfl⟩
abbrev main_call13_v3 : Ref sig .tc := ⟨.hbm, 1094, rfl⟩
abbrev main_call13_v4 : Ref sig .tc := ⟨.hbm, 1095, rfl⟩
abbrev main_v782 : Ref sig .tc := ⟨.hbm, 1096, rfl⟩
abbrev main_v783 : Ref sig .tc := ⟨.hbm, 1097, rfl⟩
abbrev main_v784 : Ref sig .tc := ⟨.hbm, 1098, rfl⟩
abbrev main_v785 : Ref sig .tc := ⟨.hbm, 1099, rfl⟩
abbrev main_v786 : Ref sig .tc := ⟨.hbm, 1100, rfl⟩
abbrev main_v787 : Ref sig .tc := ⟨.hbm, 1101, rfl⟩
abbrev main_v788 : Ref sig .tc := ⟨.hbm, 1102, rfl⟩
abbrev main_c_231 : Ref sig .tc := ⟨.hbm, 1103, rfl⟩
abbrev main_v789 : Ref sig .tc := ⟨.hbm, 1104, rfl⟩
abbrev main_v790 : Ref sig .tc := ⟨.hbm, 1105, rfl⟩
abbrev main_c_232 : Ref sig .tc := ⟨.hbm, 1106, rfl⟩
abbrev main_v791 : Ref sig .tc := ⟨.hbm, 1107, rfl⟩
abbrev main_v792 : Ref sig .tc := ⟨.hbm, 1108, rfl⟩
abbrev main_c_233 : Ref sig .tc := ⟨.hbm, 1109, rfl⟩
abbrev main_v793 : Ref sig .tc := ⟨.hbm, 1110, rfl⟩
abbrev main_v794 : Ref sig .tc := ⟨.hbm, 1111, rfl⟩
abbrev main_c_234 : Ref sig .tc := ⟨.hbm, 1112, rfl⟩
abbrev main_v795 : Ref sig .tc := ⟨.hbm, 1113, rfl⟩
abbrev main_v796 : Ref sig .tc := ⟨.hbm, 1114, rfl⟩
abbrev main_c_235 : Ref sig .tc := ⟨.hbm, 1115, rfl⟩
abbrev main_v797 : Ref sig .tc := ⟨.hbm, 1116, rfl⟩
abbrev main_v798 : Ref sig .tc := ⟨.hbm, 1117, rfl⟩
abbrev main_c_236 : Ref sig .tc := ⟨.hbm, 1118, rfl⟩
abbrev main_v799 : Ref sig .tc := ⟨.hbm, 1119, rfl⟩
abbrev main_v800 : Ref sig .tc := ⟨.hbm, 1120, rfl⟩
abbrev main_v801 : Ref sig .tc := ⟨.hbm, 1121, rfl⟩
abbrev main_c_237 : Ref sig .tc := ⟨.hbm, 1122, rfl⟩
abbrev main_v802 : Ref sig .tc := ⟨.hbm, 1123, rfl⟩
abbrev main_v803 : Ref sig .tc := ⟨.hbm, 1124, rfl⟩
abbrev main_c_238 : Ref sig .tc := ⟨.hbm, 1125, rfl⟩
abbrev main_v804 : Ref sig .tc := ⟨.hbm, 1126, rfl⟩
abbrev main_v805 : Ref sig .tc := ⟨.hbm, 1127, rfl⟩
abbrev main_v806 : Ref sig .tc := ⟨.hbm, 1128, rfl⟩
abbrev main_v807 : Ref sig .tc := ⟨.hbm, 1129, rfl⟩
abbrev main_v808 : Ref sig .tc := ⟨.hbm, 1130, rfl⟩
abbrev main_v809 : Ref sig .tc := ⟨.hbm, 1131, rfl⟩
abbrev main_v810 : Ref sig .tc := ⟨.hbm, 1132, rfl⟩
abbrev main_c_239 : Ref sig .tc := ⟨.hbm, 1133, rfl⟩
abbrev main_v811 : Ref sig .tc := ⟨.hbm, 1134, rfl⟩
abbrev main_v812 : Ref sig .tc := ⟨.hbm, 1135, rfl⟩
abbrev main_c_240 : Ref sig .tc := ⟨.hbm, 1136, rfl⟩
abbrev main_v813 : Ref sig .tc := ⟨.hbm, 1137, rfl⟩
abbrev main_v814 : Ref sig .tc := ⟨.hbm, 1138, rfl⟩
abbrev main_v815 : Ref sig .tc := ⟨.hbm, 1139, rfl⟩
abbrev main_c_241 : Ref sig .tc := ⟨.hbm, 1140, rfl⟩
abbrev main_v816 : Ref sig .tc := ⟨.hbm, 1141, rfl⟩
abbrev main_v817 : Ref sig .tc := ⟨.hbm, 1142, rfl⟩
abbrev main_c_242 : Ref sig .tc := ⟨.hbm, 1143, rfl⟩
abbrev main_v818 : Ref sig .tc := ⟨.hbm, 1144, rfl⟩
abbrev main_v819 : Ref sig .tc := ⟨.hbm, 1145, rfl⟩
abbrev main_v820 : Ref sig .tc := ⟨.hbm, 1146, rfl⟩
abbrev main_v821 : Ref sig .tc := ⟨.hbm, 1147, rfl⟩
abbrev main_v822 : Ref sig .tc := ⟨.hbm, 1148, rfl⟩
abbrev main_v823 : Ref sig .tc := ⟨.hbm, 1149, rfl⟩
abbrev main_v824 : Ref sig .tc := ⟨.hbm, 1150, rfl⟩
abbrev main_c_243 : Ref sig .tc := ⟨.hbm, 1151, rfl⟩
abbrev main_v825 : Ref sig .tc := ⟨.hbm, 1152, rfl⟩
abbrev main_v826 : Ref sig .tc := ⟨.hbm, 1153, rfl⟩
abbrev main_c_244 : Ref sig .tc := ⟨.hbm, 1154, rfl⟩
abbrev main_v827 : Ref sig .tc := ⟨.hbm, 1155, rfl⟩
abbrev main_v828 : Ref sig .tc := ⟨.hbm, 1156, rfl⟩
abbrev main_v829 : Ref sig .tc := ⟨.hbm, 1157, rfl⟩
abbrev main_c_245 : Ref sig .tc := ⟨.hbm, 1158, rfl⟩
abbrev main_v830 : Ref sig .tc := ⟨.hbm, 1159, rfl⟩
abbrev main_v831 : Ref sig .tc := ⟨.hbm, 1160, rfl⟩
abbrev main_c_246 : Ref sig .tc := ⟨.hbm, 1161, rfl⟩
abbrev main_v832 : Ref sig .tc := ⟨.hbm, 1162, rfl⟩
abbrev main_v833 : Ref sig .tc := ⟨.hbm, 1163, rfl⟩
abbrev main_v834 : Ref sig .tc := ⟨.hbm, 1164, rfl⟩
abbrev main_v835 : Ref sig .tc := ⟨.hbm, 1165, rfl⟩
abbrev main_v836 : Ref sig .tc := ⟨.hbm, 1166, rfl⟩
abbrev main_v837 : Ref sig .tc := ⟨.hbm, 1167, rfl⟩
abbrev main_v838 : Ref sig .tc := ⟨.hbm, 1168, rfl⟩
abbrev main_c_247 : Ref sig .tc := ⟨.hbm, 1169, rfl⟩
abbrev main_v839 : Ref sig .tc := ⟨.hbm, 1170, rfl⟩
abbrev main_v840 : Ref sig .tc := ⟨.hbm, 1171, rfl⟩
abbrev main_c_248 : Ref sig .tc := ⟨.hbm, 1172, rfl⟩
abbrev main_v841 : Ref sig .tc := ⟨.hbm, 1173, rfl⟩
abbrev main_v842 : Ref sig .tc := ⟨.hbm, 1174, rfl⟩
abbrev main_v843 : Ref sig .tc := ⟨.hbm, 1175, rfl⟩
abbrev main_c_249 : Ref sig .tc := ⟨.hbm, 1176, rfl⟩
abbrev main_v844 : Ref sig .tc := ⟨.hbm, 1177, rfl⟩
abbrev main_v845 : Ref sig .tc := ⟨.hbm, 1178, rfl⟩
abbrev main_c_250 : Ref sig .tc := ⟨.hbm, 1179, rfl⟩
abbrev main_v846 : Ref sig .tc := ⟨.hbm, 1180, rfl⟩
abbrev main_v847 : Ref sig .tc := ⟨.hbm, 1181, rfl⟩
abbrev main_v848 : Ref sig .tc := ⟨.hbm, 1182, rfl⟩
abbrev main_v849 : Ref sig .tc := ⟨.hbm, 1183, rfl⟩
abbrev main_v850 : Ref sig .tc := ⟨.hbm, 1184, rfl⟩
abbrev main_v851 : Ref sig .tc := ⟨.hbm, 1185, rfl⟩
abbrev main_v852 : Ref sig .tc := ⟨.hbm, 1186, rfl⟩
abbrev main_cst_251 : Ref sig .tc := ⟨.hbm, 1187, rfl⟩
abbrev main_v853 : Ref sig .tc := ⟨.hbm, 1188, rfl⟩
abbrev main_v854 : Ref sig .tc := ⟨.hbm, 1189, rfl⟩
abbrev main_v855 : Ref sig .tc := ⟨.hbm, 1190, rfl⟩
abbrev main_v856 : Ref sig .tc := ⟨.hbm, 1191, rfl⟩
abbrev main_v857 : Ref sig .tc := ⟨.hbm, 1192, rfl⟩
abbrev main_v858 : Ref sig .tc := ⟨.hbm, 1193, rfl⟩
abbrev main_v859 : Ref sig .tc := ⟨.hbm, 1194, rfl⟩
abbrev main_v860 : Ref sig .tc := ⟨.hbm, 1195, rfl⟩
abbrev main_v861 : Ref sig .tc := ⟨.hbm, 1196, rfl⟩
abbrev main_cst_252 : Ref sig .tc := ⟨.hbm, 1197, rfl⟩
abbrev main_v862 : Ref sig .tc := ⟨.hbm, 1198, rfl⟩
abbrev main_v863 : Ref sig .tc := ⟨.hbm, 1199, rfl⟩
abbrev main_v864 : Ref sig .tc := ⟨.hbm, 1200, rfl⟩
abbrev main_v865 : Ref sig .tc := ⟨.hbm, 1201, rfl⟩
abbrev main_v866 : Ref sig .tc := ⟨.hbm, 1202, rfl⟩
abbrev main_v867 : Ref sig .tc := ⟨.hbm, 1203, rfl⟩
abbrev main_v868 : Ref sig .tc := ⟨.hbm, 1204, rfl⟩
abbrev main_v869 : Ref sig .tc := ⟨.hbm, 1205, rfl⟩
abbrev main_v870 : Ref sig .tc := ⟨.hbm, 1206, rfl⟩
abbrev main_cst_253 : Ref sig .tc := ⟨.hbm, 1207, rfl⟩
abbrev main_v871 : Ref sig .tc := ⟨.hbm, 1208, rfl⟩
abbrev main_v872 : Ref sig .tc := ⟨.hbm, 1209, rfl⟩
abbrev main_v873 : Ref sig .tc := ⟨.hbm, 1210, rfl⟩
abbrev main_v874 : Ref sig .tc := ⟨.hbm, 1211, rfl⟩
abbrev main_v875 : Ref sig .tc := ⟨.hbm, 1212, rfl⟩
abbrev main_v876 : Ref sig .tc := ⟨.hbm, 1213, rfl⟩
abbrev main_v877 : Ref sig .tc := ⟨.hbm, 1214, rfl⟩
abbrev main_v878 : Ref sig .tc := ⟨.hbm, 1215, rfl⟩
abbrev main_v879 : Ref sig .tc := ⟨.hbm, 1216, rfl⟩
abbrev main_v880 : Ref sig .tc := ⟨.hbm, 1217, rfl⟩
abbrev main_c_254 : Ref sig .tc := ⟨.hbm, 1218, rfl⟩
abbrev main_v881 : Ref sig .tc := ⟨.hbm, 1219, rfl⟩
abbrev main_v882 : Ref sig .tc := ⟨.hbm, 1220, rfl⟩
abbrev main_c_255 : Ref sig .tc := ⟨.hbm, 1221, rfl⟩
abbrev main_v883 : Ref sig .tc := ⟨.hbm, 1222, rfl⟩
abbrev main_v884 : Ref sig .tc := ⟨.hbm, 1223, rfl⟩
abbrev main_v885 : Ref sig .tc := ⟨.hbm, 1224, rfl⟩
abbrev main_v886 : Ref sig .tc := ⟨.hbm, 1225, rfl⟩
abbrev main_v887 : Ref sig .tc := ⟨.hbm, 1226, rfl⟩
abbrev main_v888 : Ref sig .tc := ⟨.hbm, 1227, rfl⟩
abbrev main_v889 : Ref sig .tc := ⟨.hbm, 1228, rfl⟩
abbrev main_cst_256 : Ref sig .tc := ⟨.hbm, 1229, rfl⟩
abbrev main_v890 : Ref sig .tc := ⟨.hbm, 1230, rfl⟩
abbrev main_v891 : Ref sig .tc := ⟨.hbm, 1231, rfl⟩
abbrev main_cst_257 : Ref sig .tc := ⟨.hbm, 1232, rfl⟩
abbrev main_v892 : Ref sig .tc := ⟨.hbm, 1233, rfl⟩
abbrev main_v893 : Ref sig .tc := ⟨.hbm, 1234, rfl⟩
abbrev main_cst_258 : Ref sig .tc := ⟨.hbm, 1235, rfl⟩
abbrev main_v894 : Ref sig .tc := ⟨.hbm, 1236, rfl⟩
abbrev main_v895 : Ref sig .tc := ⟨.hbm, 1237, rfl⟩
abbrev main_cst_259 : Ref sig .tc := ⟨.hbm, 1238, rfl⟩
abbrev main_c_260 : Ref sig .tc := ⟨.hbm, 1239, rfl⟩
abbrev main_call14_v0 : Ref sig .tc := ⟨.hbm, 1240, rfl⟩
abbrev main_call14_v1 : Ref sig .tc := ⟨.hbm, 1241, rfl⟩
abbrev main_call14_v2 : Ref sig .tc := ⟨.hbm, 1242, rfl⟩
abbrev main_call14_v3 : Ref sig .tc := ⟨.hbm, 1243, rfl⟩
abbrev main_call14_v4 : Ref sig .tc := ⟨.hbm, 1244, rfl⟩
abbrev main_v896 : Ref sig .tc := ⟨.hbm, 1245, rfl⟩
abbrev main_v897 : Ref sig .tc := ⟨.hbm, 1246, rfl⟩
abbrev main_v898 : Ref sig .tc := ⟨.hbm, 1247, rfl⟩
abbrev main_cst_261 : Ref sig .tc := ⟨.hbm, 1248, rfl⟩
abbrev main_v899 : Ref sig .tc := ⟨.hbm, 1249, rfl⟩
abbrev main_v900 : Ref sig .tc := ⟨.hbm, 1250, rfl⟩
abbrev main_cst_262 : Ref sig .tc := ⟨.hbm, 1251, rfl⟩
abbrev main_v901 : Ref sig .tc := ⟨.hbm, 1252, rfl⟩
abbrev main_v902 : Ref sig .tc := ⟨.hbm, 1253, rfl⟩
abbrev main_cst_263 : Ref sig .tc := ⟨.hbm, 1254, rfl⟩
abbrev main_v903 : Ref sig .tc := ⟨.hbm, 1255, rfl⟩
abbrev main_v904 : Ref sig .tc := ⟨.hbm, 1256, rfl⟩
abbrev main_cst_264 : Ref sig .tc := ⟨.hbm, 1257, rfl⟩
abbrev main_c_265 : Ref sig .tc := ⟨.hbm, 1258, rfl⟩
abbrev main_call15_v0 : Ref sig .tc := ⟨.hbm, 1259, rfl⟩
abbrev main_call15_v1 : Ref sig .tc := ⟨.hbm, 1260, rfl⟩
abbrev main_call15_v2 : Ref sig .tc := ⟨.hbm, 1261, rfl⟩
abbrev main_call15_v3 : Ref sig .tc := ⟨.hbm, 1262, rfl⟩
abbrev main_call15_v4 : Ref sig .tc := ⟨.hbm, 1263, rfl⟩
abbrev main_v905 : Ref sig .tc := ⟨.hbm, 1264, rfl⟩
abbrev main_v906 : Ref sig .tc := ⟨.hbm, 1265, rfl⟩
abbrev main_v907 : Ref sig .tc := ⟨.hbm, 1266, rfl⟩
abbrev main_v908 : Ref sig .tc := ⟨.hbm, 1267, rfl⟩
abbrev main_v909 : Ref sig .tc := ⟨.hbm, 1268, rfl⟩
abbrev main_v910 : Ref sig .tc := ⟨.hbm, 1269, rfl⟩
abbrev main_v911 : Ref sig .tc := ⟨.hbm, 1270, rfl⟩
abbrev main_c_266 : Ref sig .tc := ⟨.hbm, 1271, rfl⟩
abbrev main_v912 : Ref sig .tc := ⟨.hbm, 1272, rfl⟩
abbrev main_v913 : Ref sig .tc := ⟨.hbm, 1273, rfl⟩
abbrev main_c_267 : Ref sig .tc := ⟨.hbm, 1274, rfl⟩
abbrev main_v914 : Ref sig .tc := ⟨.hbm, 1275, rfl⟩
abbrev main_v915 : Ref sig .tc := ⟨.hbm, 1276, rfl⟩
abbrev main_c_268 : Ref sig .tc := ⟨.hbm, 1277, rfl⟩
abbrev main_v916 : Ref sig .tc := ⟨.hbm, 1278, rfl⟩
abbrev main_v917 : Ref sig .tc := ⟨.hbm, 1279, rfl⟩
abbrev main_c_269 : Ref sig .tc := ⟨.hbm, 1280, rfl⟩
abbrev main_v918 : Ref sig .tc := ⟨.hbm, 1281, rfl⟩
abbrev main_v919 : Ref sig .tc := ⟨.hbm, 1282, rfl⟩
abbrev main_c_270 : Ref sig .tc := ⟨.hbm, 1283, rfl⟩
abbrev main_v920 : Ref sig .tc := ⟨.hbm, 1284, rfl⟩
abbrev main_v921 : Ref sig .tc := ⟨.hbm, 1285, rfl⟩
abbrev main_c_271 : Ref sig .tc := ⟨.hbm, 1286, rfl⟩
abbrev main_v922 : Ref sig .tc := ⟨.hbm, 1287, rfl⟩
abbrev main_v923 : Ref sig .tc := ⟨.hbm, 1288, rfl⟩
abbrev main_v924 : Ref sig .tc := ⟨.hbm, 1289, rfl⟩
abbrev main_c_272 : Ref sig .tc := ⟨.hbm, 1290, rfl⟩
abbrev main_v925 : Ref sig .tc := ⟨.hbm, 1291, rfl⟩
abbrev main_v926 : Ref sig .tc := ⟨.hbm, 1292, rfl⟩
abbrev main_c_273 : Ref sig .tc := ⟨.hbm, 1293, rfl⟩
abbrev main_v927 : Ref sig .tc := ⟨.hbm, 1294, rfl⟩
abbrev main_v928 : Ref sig .tc := ⟨.hbm, 1295, rfl⟩
abbrev main_v929 : Ref sig .tc := ⟨.hbm, 1296, rfl⟩
abbrev main_v930 : Ref sig .tc := ⟨.hbm, 1297, rfl⟩
abbrev main_v931 : Ref sig .tc := ⟨.hbm, 1298, rfl⟩
abbrev main_v932 : Ref sig .tc := ⟨.hbm, 1299, rfl⟩
abbrev main_v933 : Ref sig .tc := ⟨.hbm, 1300, rfl⟩
abbrev main_c_274 : Ref sig .tc := ⟨.hbm, 1301, rfl⟩
abbrev main_v934 : Ref sig .tc := ⟨.hbm, 1302, rfl⟩
abbrev main_v935 : Ref sig .tc := ⟨.hbm, 1303, rfl⟩
abbrev main_c_275 : Ref sig .tc := ⟨.hbm, 1304, rfl⟩
abbrev main_v936 : Ref sig .tc := ⟨.hbm, 1305, rfl⟩
abbrev main_v937 : Ref sig .tc := ⟨.hbm, 1306, rfl⟩
abbrev main_v938 : Ref sig .tc := ⟨.hbm, 1307, rfl⟩
abbrev main_c_276 : Ref sig .tc := ⟨.hbm, 1308, rfl⟩
abbrev main_v939 : Ref sig .tc := ⟨.hbm, 1309, rfl⟩
abbrev main_v940 : Ref sig .tc := ⟨.hbm, 1310, rfl⟩
abbrev main_c_277 : Ref sig .tc := ⟨.hbm, 1311, rfl⟩
abbrev main_v941 : Ref sig .tc := ⟨.hbm, 1312, rfl⟩
abbrev main_v942 : Ref sig .tc := ⟨.hbm, 1313, rfl⟩
abbrev main_v943 : Ref sig .tc := ⟨.hbm, 1314, rfl⟩
abbrev main_v944 : Ref sig .tc := ⟨.hbm, 1315, rfl⟩
abbrev main_v945 : Ref sig .tc := ⟨.hbm, 1316, rfl⟩
abbrev main_v946 : Ref sig .tc := ⟨.hbm, 1317, rfl⟩
abbrev main_v947 : Ref sig .tc := ⟨.hbm, 1318, rfl⟩
abbrev main_c_278 : Ref sig .tc := ⟨.hbm, 1319, rfl⟩
abbrev main_v948 : Ref sig .tc := ⟨.hbm, 1320, rfl⟩
abbrev main_v949 : Ref sig .tc := ⟨.hbm, 1321, rfl⟩
abbrev main_c_279 : Ref sig .tc := ⟨.hbm, 1322, rfl⟩
abbrev main_v950 : Ref sig .tc := ⟨.hbm, 1323, rfl⟩
abbrev main_v951 : Ref sig .tc := ⟨.hbm, 1324, rfl⟩
abbrev main_v952 : Ref sig .tc := ⟨.hbm, 1325, rfl⟩
abbrev main_c_280 : Ref sig .tc := ⟨.hbm, 1326, rfl⟩
abbrev main_v953 : Ref sig .tc := ⟨.hbm, 1327, rfl⟩
abbrev main_v954 : Ref sig .tc := ⟨.hbm, 1328, rfl⟩
abbrev main_c_281 : Ref sig .tc := ⟨.hbm, 1329, rfl⟩
abbrev main_v955 : Ref sig .tc := ⟨.hbm, 1330, rfl⟩
abbrev main_v956 : Ref sig .tc := ⟨.hbm, 1331, rfl⟩
abbrev main_v957 : Ref sig .tc := ⟨.hbm, 1332, rfl⟩
abbrev main_v958 : Ref sig .tc := ⟨.hbm, 1333, rfl⟩
abbrev main_v959 : Ref sig .tc := ⟨.hbm, 1334, rfl⟩
abbrev main_v960 : Ref sig .tc := ⟨.hbm, 1335, rfl⟩
abbrev main_v961 : Ref sig .tc := ⟨.hbm, 1336, rfl⟩
abbrev main_c_282 : Ref sig .tc := ⟨.hbm, 1337, rfl⟩
abbrev main_v962 : Ref sig .tc := ⟨.hbm, 1338, rfl⟩
abbrev main_v963 : Ref sig .tc := ⟨.hbm, 1339, rfl⟩
abbrev main_c_283 : Ref sig .tc := ⟨.hbm, 1340, rfl⟩
abbrev main_v964 : Ref sig .tc := ⟨.hbm, 1341, rfl⟩
abbrev main_v965 : Ref sig .tc := ⟨.hbm, 1342, rfl⟩
abbrev main_v966 : Ref sig .tc := ⟨.hbm, 1343, rfl⟩
abbrev main_c_284 : Ref sig .tc := ⟨.hbm, 1344, rfl⟩
abbrev main_v967 : Ref sig .tc := ⟨.hbm, 1345, rfl⟩
abbrev main_v968 : Ref sig .tc := ⟨.hbm, 1346, rfl⟩
abbrev main_c_285 : Ref sig .tc := ⟨.hbm, 1347, rfl⟩
abbrev main_v969 : Ref sig .tc := ⟨.hbm, 1348, rfl⟩
abbrev main_v970 : Ref sig .tc := ⟨.hbm, 1349, rfl⟩
abbrev main_v971 : Ref sig .tc := ⟨.hbm, 1350, rfl⟩
abbrev main_v972 : Ref sig .tc := ⟨.hbm, 1351, rfl⟩
abbrev main_v973 : Ref sig .tc := ⟨.hbm, 1352, rfl⟩
abbrev main_v974 : Ref sig .tc := ⟨.hbm, 1353, rfl⟩
abbrev main_v975 : Ref sig .tc := ⟨.hbm, 1354, rfl⟩
abbrev main_cst_286 : Ref sig .tc := ⟨.hbm, 1355, rfl⟩
abbrev main_v976 : Ref sig .tc := ⟨.hbm, 1356, rfl⟩
abbrev main_v977 : Ref sig .tc := ⟨.hbm, 1357, rfl⟩
abbrev main_v978 : Ref sig .tc := ⟨.hbm, 1358, rfl⟩
abbrev main_v979 : Ref sig .tc := ⟨.hbm, 1359, rfl⟩
abbrev main_v980 : Ref sig .tc := ⟨.hbm, 1360, rfl⟩
abbrev main_v981 : Ref sig .tc := ⟨.hbm, 1361, rfl⟩
abbrev main_v982 : Ref sig .tc := ⟨.hbm, 1362, rfl⟩
abbrev main_v983 : Ref sig .tc := ⟨.hbm, 1363, rfl⟩
abbrev main_v984 : Ref sig .tc := ⟨.hbm, 1364, rfl⟩
abbrev main_cst_287 : Ref sig .tc := ⟨.hbm, 1365, rfl⟩
abbrev main_v985 : Ref sig .tc := ⟨.hbm, 1366, rfl⟩
abbrev main_v986 : Ref sig .tc := ⟨.hbm, 1367, rfl⟩
abbrev main_v987 : Ref sig .tc := ⟨.hbm, 1368, rfl⟩
abbrev main_v988 : Ref sig .tc := ⟨.hbm, 1369, rfl⟩
abbrev main_v989 : Ref sig .tc := ⟨.hbm, 1370, rfl⟩
abbrev main_v990 : Ref sig .tc := ⟨.hbm, 1371, rfl⟩
abbrev main_v991 : Ref sig .tc := ⟨.hbm, 1372, rfl⟩
abbrev main_v992 : Ref sig .tc := ⟨.hbm, 1373, rfl⟩
abbrev main_v993 : Ref sig .tc := ⟨.hbm, 1374, rfl⟩
abbrev main_cst_288 : Ref sig .tc := ⟨.hbm, 1375, rfl⟩
abbrev main_v994 : Ref sig .tc := ⟨.hbm, 1376, rfl⟩
abbrev main_v995 : Ref sig .tc := ⟨.hbm, 1377, rfl⟩
abbrev main_v996 : Ref sig .tc := ⟨.hbm, 1378, rfl⟩
abbrev main_v997 : Ref sig .tc := ⟨.hbm, 1379, rfl⟩
abbrev main_v998 : Ref sig .tc := ⟨.hbm, 1380, rfl⟩
abbrev main_v999 : Ref sig .tc := ⟨.hbm, 1381, rfl⟩
abbrev main_v1000 : Ref sig .tc := ⟨.hbm, 1382, rfl⟩
abbrev main_v1001 : Ref sig .tc := ⟨.hbm, 1383, rfl⟩
abbrev main_v1002 : Ref sig .tc := ⟨.hbm, 1384, rfl⟩
abbrev main_v1003 : Ref sig .tc := ⟨.hbm, 1385, rfl⟩
abbrev main_c_289 : Ref sig .tc := ⟨.hbm, 1386, rfl⟩
abbrev main_v1004 : Ref sig .tc := ⟨.hbm, 1387, rfl⟩
abbrev main_v1005 : Ref sig .tc := ⟨.hbm, 1388, rfl⟩
abbrev main_c_290 : Ref sig .tc := ⟨.hbm, 1389, rfl⟩
abbrev main_v1006 : Ref sig .tc := ⟨.hbm, 1390, rfl⟩
abbrev main_v1007 : Ref sig .tc := ⟨.hbm, 1391, rfl⟩
abbrev main_v1008 : Ref sig .tc := ⟨.hbm, 1392, rfl⟩
abbrev main_v1009 : Ref sig .tc := ⟨.hbm, 1393, rfl⟩
abbrev main_v1010 : Ref sig .tc := ⟨.hbm, 1394, rfl⟩
abbrev main_v1011 : Ref sig .tc := ⟨.hbm, 1395, rfl⟩
abbrev main_v1012 : Ref sig .tc := ⟨.hbm, 1396, rfl⟩
abbrev main_cst_291 : Ref sig .tc := ⟨.hbm, 1397, rfl⟩
abbrev main_v1013 : Ref sig .tc := ⟨.hbm, 1398, rfl⟩
abbrev main_v1014 : Ref sig .tc := ⟨.hbm, 1399, rfl⟩
abbrev main_cst_292 : Ref sig .tc := ⟨.hbm, 1400, rfl⟩
abbrev main_v1015 : Ref sig .tc := ⟨.hbm, 1401, rfl⟩
abbrev main_v1016 : Ref sig .tc := ⟨.hbm, 1402, rfl⟩
abbrev main_cst_293 : Ref sig .tc := ⟨.hbm, 1403, rfl⟩
abbrev main_v1017 : Ref sig .tc := ⟨.hbm, 1404, rfl⟩
abbrev main_v1018 : Ref sig .tc := ⟨.hbm, 1405, rfl⟩
abbrev main_cst_294 : Ref sig .tc := ⟨.hbm, 1406, rfl⟩
abbrev main_c_295 : Ref sig .tc := ⟨.hbm, 1407, rfl⟩
abbrev main_call16_v0 : Ref sig .tc := ⟨.hbm, 1408, rfl⟩
abbrev main_call16_v1 : Ref sig .tc := ⟨.hbm, 1409, rfl⟩
abbrev main_call16_v2 : Ref sig .tc := ⟨.hbm, 1410, rfl⟩
abbrev main_call16_v3 : Ref sig .tc := ⟨.hbm, 1411, rfl⟩
abbrev main_call16_v4 : Ref sig .tc := ⟨.hbm, 1412, rfl⟩
abbrev main_v1019 : Ref sig .tc := ⟨.hbm, 1413, rfl⟩
abbrev main_v1020 : Ref sig .tc := ⟨.hbm, 1414, rfl⟩
abbrev main_v1021 : Ref sig .tc := ⟨.hbm, 1415, rfl⟩
abbrev main_cst_296 : Ref sig .tc := ⟨.hbm, 1416, rfl⟩
abbrev main_v1022 : Ref sig .tc := ⟨.hbm, 1417, rfl⟩
abbrev main_v1023 : Ref sig .tc := ⟨.hbm, 1418, rfl⟩
abbrev main_cst_297 : Ref sig .tc := ⟨.hbm, 1419, rfl⟩
abbrev main_v1024 : Ref sig .tc := ⟨.hbm, 1420, rfl⟩
abbrev main_v1025 : Ref sig .tc := ⟨.hbm, 1421, rfl⟩
abbrev main_cst_298 : Ref sig .tc := ⟨.hbm, 1422, rfl⟩
abbrev main_v1026 : Ref sig .tc := ⟨.hbm, 1423, rfl⟩
abbrev main_v1027 : Ref sig .tc := ⟨.hbm, 1424, rfl⟩
abbrev main_cst_299 : Ref sig .tc := ⟨.hbm, 1425, rfl⟩
abbrev main_c_300 : Ref sig .tc := ⟨.hbm, 1426, rfl⟩
abbrev main_call17_v0 : Ref sig .tc := ⟨.hbm, 1427, rfl⟩
abbrev main_call17_v1 : Ref sig .tc := ⟨.hbm, 1428, rfl⟩
abbrev main_call17_v2 : Ref sig .tc := ⟨.hbm, 1429, rfl⟩
abbrev main_call17_v3 : Ref sig .tc := ⟨.hbm, 1430, rfl⟩
abbrev main_call17_v4 : Ref sig .tc := ⟨.hbm, 1431, rfl⟩
abbrev main_v1028 : Ref sig .tc := ⟨.hbm, 1432, rfl⟩
abbrev main_v1029 : Ref sig .tc := ⟨.hbm, 1433, rfl⟩
abbrev main_v1030 : Ref sig .tc := ⟨.hbm, 1434, rfl⟩
abbrev main_v1031 : Ref sig .tc := ⟨.hbm, 1435, rfl⟩
abbrev main_v1032 : Ref sig .tc := ⟨.hbm, 1436, rfl⟩
abbrev main_v1033 : Ref sig .tc := ⟨.hbm, 1437, rfl⟩
abbrev main_v1034 : Ref sig .tc := ⟨.hbm, 1438, rfl⟩
abbrev main_c_301 : Ref sig .tc := ⟨.hbm, 1439, rfl⟩
abbrev main_v1035 : Ref sig .tc := ⟨.hbm, 1440, rfl⟩
abbrev main_v1036 : Ref sig .tc := ⟨.hbm, 1441, rfl⟩
abbrev main_c_302 : Ref sig .tc := ⟨.hbm, 1442, rfl⟩
abbrev main_v1037 : Ref sig .tc := ⟨.hbm, 1443, rfl⟩
abbrev main_v1038 : Ref sig .tc := ⟨.hbm, 1444, rfl⟩
abbrev main_c_303 : Ref sig .tc := ⟨.hbm, 1445, rfl⟩
abbrev main_v1039 : Ref sig .tc := ⟨.hbm, 1446, rfl⟩
abbrev main_v1040 : Ref sig .tc := ⟨.hbm, 1447, rfl⟩
abbrev main_c_304 : Ref sig .tc := ⟨.hbm, 1448, rfl⟩
abbrev main_v1041 : Ref sig .tc := ⟨.hbm, 1449, rfl⟩
abbrev main_v1042 : Ref sig .tc := ⟨.hbm, 1450, rfl⟩
abbrev main_c_305 : Ref sig .tc := ⟨.hbm, 1451, rfl⟩
abbrev main_v1043 : Ref sig .tc := ⟨.hbm, 1452, rfl⟩
abbrev main_v1044 : Ref sig .tc := ⟨.hbm, 1453, rfl⟩
abbrev main_c_306 : Ref sig .tc := ⟨.hbm, 1454, rfl⟩
abbrev main_v1045 : Ref sig .tc := ⟨.hbm, 1455, rfl⟩
abbrev main_v1046 : Ref sig .tc := ⟨.hbm, 1456, rfl⟩
abbrev main_v1047 : Ref sig .tc := ⟨.hbm, 1457, rfl⟩
abbrev main_c_307 : Ref sig .tc := ⟨.hbm, 1458, rfl⟩
abbrev main_v1048 : Ref sig .tc := ⟨.hbm, 1459, rfl⟩
abbrev main_v1049 : Ref sig .tc := ⟨.hbm, 1460, rfl⟩
abbrev main_c_308 : Ref sig .tc := ⟨.hbm, 1461, rfl⟩
abbrev main_v1050 : Ref sig .tc := ⟨.hbm, 1462, rfl⟩
abbrev main_v1051 : Ref sig .tc := ⟨.hbm, 1463, rfl⟩
abbrev main_v1052 : Ref sig .tc := ⟨.hbm, 1464, rfl⟩
abbrev main_v1053 : Ref sig .tc := ⟨.hbm, 1465, rfl⟩
abbrev main_v1054 : Ref sig .tc := ⟨.hbm, 1466, rfl⟩
abbrev main_v1055 : Ref sig .tc := ⟨.hbm, 1467, rfl⟩
abbrev main_v1056 : Ref sig .tc := ⟨.hbm, 1468, rfl⟩
abbrev main_c_309 : Ref sig .tc := ⟨.hbm, 1469, rfl⟩
abbrev main_v1057 : Ref sig .tc := ⟨.hbm, 1470, rfl⟩
abbrev main_v1058 : Ref sig .tc := ⟨.hbm, 1471, rfl⟩
abbrev main_c_310 : Ref sig .tc := ⟨.hbm, 1472, rfl⟩
abbrev main_v1059 : Ref sig .tc := ⟨.hbm, 1473, rfl⟩
abbrev main_v1060 : Ref sig .tc := ⟨.hbm, 1474, rfl⟩
abbrev main_v1061 : Ref sig .tc := ⟨.hbm, 1475, rfl⟩
abbrev main_c_311 : Ref sig .tc := ⟨.hbm, 1476, rfl⟩
abbrev main_v1062 : Ref sig .tc := ⟨.hbm, 1477, rfl⟩
abbrev main_v1063 : Ref sig .tc := ⟨.hbm, 1478, rfl⟩
abbrev main_c_312 : Ref sig .tc := ⟨.hbm, 1479, rfl⟩
abbrev main_v1064 : Ref sig .tc := ⟨.hbm, 1480, rfl⟩
abbrev main_v1065 : Ref sig .tc := ⟨.hbm, 1481, rfl⟩
abbrev main_v1066 : Ref sig .tc := ⟨.hbm, 1482, rfl⟩
abbrev main_v1067 : Ref sig .tc := ⟨.hbm, 1483, rfl⟩
abbrev main_v1068 : Ref sig .tc := ⟨.hbm, 1484, rfl⟩
abbrev main_v1069 : Ref sig .tc := ⟨.hbm, 1485, rfl⟩
abbrev main_v1070 : Ref sig .tc := ⟨.hbm, 1486, rfl⟩
abbrev main_c_313 : Ref sig .tc := ⟨.hbm, 1487, rfl⟩
abbrev main_v1071 : Ref sig .tc := ⟨.hbm, 1488, rfl⟩
abbrev main_v1072 : Ref sig .tc := ⟨.hbm, 1489, rfl⟩
abbrev main_c_314 : Ref sig .tc := ⟨.hbm, 1490, rfl⟩
abbrev main_v1073 : Ref sig .tc := ⟨.hbm, 1491, rfl⟩
abbrev main_v1074 : Ref sig .tc := ⟨.hbm, 1492, rfl⟩
abbrev main_v1075 : Ref sig .tc := ⟨.hbm, 1493, rfl⟩
abbrev main_c_315 : Ref sig .tc := ⟨.hbm, 1494, rfl⟩
abbrev main_v1076 : Ref sig .tc := ⟨.hbm, 1495, rfl⟩
abbrev main_v1077 : Ref sig .tc := ⟨.hbm, 1496, rfl⟩
abbrev main_c_316 : Ref sig .tc := ⟨.hbm, 1497, rfl⟩
abbrev main_v1078 : Ref sig .tc := ⟨.hbm, 1498, rfl⟩
abbrev main_v1079 : Ref sig .tc := ⟨.hbm, 1499, rfl⟩
abbrev main_v1080 : Ref sig .tc := ⟨.hbm, 1500, rfl⟩
abbrev main_v1081 : Ref sig .tc := ⟨.hbm, 1501, rfl⟩
abbrev main_v1082 : Ref sig .tc := ⟨.hbm, 1502, rfl⟩
abbrev main_v1083 : Ref sig .tc := ⟨.hbm, 1503, rfl⟩
abbrev main_v1084 : Ref sig .tc := ⟨.hbm, 1504, rfl⟩
abbrev main_c_317 : Ref sig .tc := ⟨.hbm, 1505, rfl⟩
abbrev main_v1085 : Ref sig .tc := ⟨.hbm, 1506, rfl⟩
abbrev main_v1086 : Ref sig .tc := ⟨.hbm, 1507, rfl⟩
abbrev main_c_318 : Ref sig .tc := ⟨.hbm, 1508, rfl⟩
abbrev main_v1087 : Ref sig .tc := ⟨.hbm, 1509, rfl⟩
abbrev main_v1088 : Ref sig .tc := ⟨.hbm, 1510, rfl⟩
abbrev main_v1089 : Ref sig .tc := ⟨.hbm, 1511, rfl⟩
abbrev main_c_319 : Ref sig .tc := ⟨.hbm, 1512, rfl⟩
abbrev main_v1090 : Ref sig .tc := ⟨.hbm, 1513, rfl⟩
abbrev main_v1091 : Ref sig .tc := ⟨.hbm, 1514, rfl⟩
abbrev main_c_320 : Ref sig .tc := ⟨.hbm, 1515, rfl⟩
abbrev main_v1092 : Ref sig .tc := ⟨.hbm, 1516, rfl⟩
abbrev main_v1093 : Ref sig .tc := ⟨.hbm, 1517, rfl⟩
abbrev main_v1094 : Ref sig .tc := ⟨.hbm, 1518, rfl⟩
abbrev main_v1095 : Ref sig .tc := ⟨.hbm, 1519, rfl⟩
abbrev main_v1096 : Ref sig .tc := ⟨.hbm, 1520, rfl⟩
abbrev main_v1097 : Ref sig .tc := ⟨.hbm, 1521, rfl⟩
abbrev main_v1098 : Ref sig .tc := ⟨.hbm, 1522, rfl⟩
abbrev main_cst_321 : Ref sig .tc := ⟨.hbm, 1523, rfl⟩
abbrev main_v1099 : Ref sig .tc := ⟨.hbm, 1524, rfl⟩
abbrev main_v1100 : Ref sig .tc := ⟨.hbm, 1525, rfl⟩
abbrev main_v1101 : Ref sig .tc := ⟨.hbm, 1526, rfl⟩
abbrev main_v1102 : Ref sig .tc := ⟨.hbm, 1527, rfl⟩
abbrev main_v1103 : Ref sig .tc := ⟨.hbm, 1528, rfl⟩
abbrev main_v1104 : Ref sig .tc := ⟨.hbm, 1529, rfl⟩
abbrev main_v1105 : Ref sig .tc := ⟨.hbm, 1530, rfl⟩
abbrev main_v1106 : Ref sig .tc := ⟨.hbm, 1531, rfl⟩
abbrev main_v1107 : Ref sig .tc := ⟨.hbm, 1532, rfl⟩
abbrev main_cst_322 : Ref sig .tc := ⟨.hbm, 1533, rfl⟩
abbrev main_v1108 : Ref sig .tc := ⟨.hbm, 1534, rfl⟩
abbrev main_v1109 : Ref sig .tc := ⟨.hbm, 1535, rfl⟩
abbrev main_v1110 : Ref sig .tc := ⟨.hbm, 1536, rfl⟩
abbrev main_v1111 : Ref sig .tc := ⟨.hbm, 1537, rfl⟩
abbrev main_v1112 : Ref sig .tc := ⟨.hbm, 1538, rfl⟩
abbrev main_v1113 : Ref sig .tc := ⟨.hbm, 1539, rfl⟩
abbrev main_v1114 : Ref sig .tc := ⟨.hbm, 1540, rfl⟩
abbrev main_v1115 : Ref sig .tc := ⟨.hbm, 1541, rfl⟩
abbrev main_v1116 : Ref sig .tc := ⟨.hbm, 1542, rfl⟩
abbrev main_cst_323 : Ref sig .tc := ⟨.hbm, 1543, rfl⟩
abbrev main_v1117 : Ref sig .tc := ⟨.hbm, 1544, rfl⟩
abbrev main_v1118 : Ref sig .tc := ⟨.hbm, 1545, rfl⟩
abbrev main_v1119 : Ref sig .tc := ⟨.hbm, 1546, rfl⟩
abbrev main_v1120 : Ref sig .tc := ⟨.hbm, 1547, rfl⟩
abbrev main_v1121 : Ref sig .tc := ⟨.hbm, 1548, rfl⟩
abbrev main_v1122 : Ref sig .tc := ⟨.hbm, 1549, rfl⟩
abbrev main_v1123 : Ref sig .tc := ⟨.hbm, 1550, rfl⟩
abbrev main_v1124 : Ref sig .tc := ⟨.hbm, 1551, rfl⟩
abbrev main_v1125 : Ref sig .tc := ⟨.hbm, 1552, rfl⟩
abbrev main_v1126 : Ref sig .tc := ⟨.hbm, 1553, rfl⟩
abbrev main_v1127 : Ref sig .tc := ⟨.hbm, 1554, rfl⟩
abbrev main_v1128 : Ref sig .tc := ⟨.hbm, 1555, rfl⟩

abbrev nD : Nat := 1
abbrev τ : Topo := Topo.v7x

variable {F : FTy → Type} [FloatOps F]

class Facts₀ : Prop where
  slices_S2x3_S1x3_0_0 : S2x3.Slices ![0, 0] S1x3
  shapeCasts_S1x3_S3 : S1x3.ShapeCasts S3
  bcast_S3_S1x1x3_2 : S3.BroadcastsInDim S1x1x3 (![2] : Fin 1 → Fin S1x1x3.rank)
  bcast_S1x1x3_S4096x128x3_0_1_2 : S1x1x3.BroadcastsInDim S4096x128x3 (![0, 1, 2] : Fin 3 → Fin S4096x128x3.rank)
  slices_S2x3_S1x3_1_0 : S2x3.Slices ![1, 0] S1x3
  bcast_S_S3 : S_.BroadcastsInDim S3 (![] : Fin 0 → Fin S3.rank)
  bcast_S_S4096x128x3 : S_.BroadcastsInDim S4096x128x3 (![] : Fin 0 → Fin S4096x128x3.rank)
  shapeCasts_S4096x128x3_S524288x3 : S4096x128x3.ShapeCasts S524288x3
  bcast_S_S2 : S_.BroadcastsInDim S2 (![] : Fin 0 → Fin S2.rank)
  bcast_S2_S2x1_0 : S2.BroadcastsInDim S2x1 (![0] : Fin 1 → Fin S2x1.rank)
  slices_S524288x2_S524288x1_0_0 : S524288x2.Slices ![0, 0] S524288x1
  shapeCasts_S524288x1_S524288 : S524288x1.ShapeCasts S524288
  bcast_S_S524288 : S_.BroadcastsInDim S524288 (![] : Fin 0 → Fin S524288.rank)
  slices_S524288x2_S524288x1_0_1 : S524288x2.Slices ![0, 1] S524288x1
  bcast_S524288_S524288x1_0 : S524288.BroadcastsInDim S524288x1 (![0] : Fin 1 → Fin S524288x1.rank)
  concatenates_S524288x1_S524288x1_S524288x2_d1 : Shape.Concatenates [S524288x1, S524288x1] S524288x2 1
  bcast_S524288_S1x524288_1 : S524288.BroadcastsInDim S1x524288 (![1] : Fin 1 → Fin S1x524288.rank)
  bcast_S1x524288_S32x524288_0_1 : S1x524288.BroadcastsInDim S32x524288 (![0, 1] : Fin 2 → Fin S32x524288.rank)
  transposes_S32x524288_S524288x32_1_0 : S32x524288.Transposes [1, 0] S524288x32
  concatenates_S524288x32_S524288x32_S524288x32_S524288x96_d1 : Shape.Concatenates [S524288x32, S524288x32, S524288x32] S524288x96 1
  concatenates_S524288x96_S524288x96_S524288x96_S524288x288_d1 : Shape.Concatenates [S524288x96, S524288x96, S524288x96] S524288x288 1
  gather_S524288x3_S2x1_S524288x2_0_1_n_n_1_1_5242881_wf : GatherDims.WF S524288x3 S2x1 S524288x2 [0] [1] [] [1] [] 1 ![524288, 1]
  gather_S32x128x128_S524288x2_S32x524288_0_12_n_n_12_1_3211_wf : GatherDims.WF S32x128x128 S524288x2 S32x524288 [0] [1, 2] [] [1, 2] [] 1 ![32, 1, 1]
  gather_S32x256x256_S524288x2_S32x524288_0_12_n_n_12_1_3211_wf : GatherDims.WF S32x256x256 S524288x2 S32x524288 [0] [1, 2] [] [1, 2] [] 1 ![32, 1, 1]
  gather_S32x512x512_S524288x2_S32x524288_0_12_n_n_12_1_3211_wf : GatherDims.WF S32x512x512 S524288x2 S32x524288 [0] [1, 2] [] [1, 2] [] 1 ![32, 1, 1]

variable [Facts₀]

def gather_S524288x3_S2x1_S524288x2_0_1_n_n_1_1_5242881 : GatherDims S524288x3 S2x1 S524288x2 where
  offsetDims := [0]
  collapsedSliceDims := [1]
  operandBatchingDims := []
  startIndicesBatchingDims := []
  startIndexMap := [1]
  indexVectorDim := 1
  sliceSizes := ![524288, 1]
  wf := gather_S524288x3_S2x1_S524288x2_0_1_n_n_1_1_5242881_wf
def gather_S32x128x128_S524288x2_S32x524288_0_12_n_n_12_1_3211 : GatherDims S32x128x128 S524288x2 S32x524288 where
  offsetDims := [0]
  collapsedSliceDims := [1, 2]
  operandBatchingDims := []
  startIndicesBatchingDims := []
  startIndexMap := [1, 2]
  indexVectorDim := 1
  sliceSizes := ![32, 1, 1]
  wf := gather_S32x128x128_S524288x2_S32x524288_0_12_n_n_12_1_3211_wf
def gather_S32x256x256_S524288x2_S32x524288_0_12_n_n_12_1_3211 : GatherDims S32x256x256 S524288x2 S32x524288 where
  offsetDims := [0]
  collapsedSliceDims := [1, 2]
  operandBatchingDims := []
  startIndicesBatchingDims := []
  startIndexMap := [1, 2]
  indexVectorDim := 1
  sliceSizes := ![32, 1, 1]
  wf := gather_S32x256x256_S524288x2_S32x524288_0_12_n_n_12_1_3211_wf
def gather_S32x512x512_S524288x2_S32x524288_0_12_n_n_12_1_3211 : GatherDims S32x512x512 S524288x2 S32x524288 where
  offsetDims := [0]
  collapsedSliceDims := [1, 2]
  operandBatchingDims := []
  startIndicesBatchingDims := []
  startIndexMap := [1, 2]
  indexVectorDim := 1
  sliceSizes := ![32, 1, 1]
  wf := gather_S32x512x512_S524288x2_S32x524288_0_12_n_n_12_1_3211_wf

class Facts : Prop extends Facts₀ where

variable [Facts]
-- ==== Proof.LibBands.lean ====
/-
  Nine arrays of R rows and 32 columns set side by side into one of 288 columns: column j of the result is column
  j mod 32 of array j / 32.
-/
import Idealize.ShloMosaic.Lib.ValueIdx

noncomputable section

namespace Idealize.ShloMosaic.Bands

open Idealize.ShloMosaic Idealize.ShloMosaic.ValueIdx

/-! ## Nine arrays of 32 columns side by side -/

/-- The k-th of nine things (the last for every k beyond 7). -/
def pick {α : Type} (k : Nat) (a0 a1 a2 a3 a4 a5 a6 a7 a8 : α) : α :=
  match k with
  | 0 => a0 | 1 => a1 | 2 => a2 | 3 => a3 | 4 => a4 | 5 => a5 | 6 => a6 | 7 => a7 | _ => a8

theorem pick_apply {α β : Type} (k : Nat) (f0 f1 f2 f3 f4 f5 f6 f7 f8 : α → β) (x : α) :
    pick k f0 f1 f2 f3 f4 f5 f6 f7 f8 x = pick k (f0 x) (f1 x) (f2 x) (f3 x) (f4 x) (f5 x) (f6 x) (f7 x) (f8 x) := by
  unfold pick; split <;> rfl

/-- Nine arrays of R rows and 32 columns set side by side: column j of the result is column j mod 32 of array j / 32. -/
def sideBySide {α : Type} {R : Nat} (a0 a1 a2 a3 a4 a5 a6 a7 a8 : (⟨2, ![R, 32]⟩ : Shape).Idx → α) :
    (⟨2, ![R, 288]⟩ : Shape).Idx → α :=
  fun i => pick ((i 1).val / 32) a0 a1 a2 a3 a4 a5 a6 a7 a8
    (ix2 (⟨(i 0).val, idx2_lt0 i⟩ : Fin R) (⟨(i 1).val % 32, Nat.mod_lt _ (by decide)⟩ : Fin 32))

/-- Read at a column written as 32 p + k with k below 32: array p at column k. -/
theorem sideBySide_apply {α : Type} {R : Nat} (a0 a1 a2 a3 a4 a5 a6 a7 a8 : (⟨2, ![R, 32]⟩ : Shape).Idx → α)
    (i : (⟨2, ![R, 288]⟩ : Shape).Idx) (p : Nat) (j : (⟨2, ![R, 32]⟩ : Shape).Idx)
    (h0 : (j 0).val = (i 0).val) (h1 : (i 1).val = 32 * p + (j 1).val) :
    sideBySide a0 a1 a2 a3 a4 a5 a6 a7 a8 i = pick p a0 a1 a2 a3 a4 a5 a6 a7 a8 j := by
  have hj : (j 1).val < 32 := idx2_lt1 j
  have hd : (i 1).val / 32 = p := by omega
  have hm : (i 1).val % 32 = (j 1).val := by omega
  have hx : (ix2 (⟨(i 0).val, idx2_lt0 i⟩ : Fin R) (⟨(i 1).val % 32, Nat.mod_lt _ (by decide)⟩ : Fin 32)) = j := by
    funext a
    match a with
    | ⟨0, _⟩ => exact Fin.ext h0.symm
    | ⟨1, _⟩ => exact Fin.ext hm
  unfold sideBySide
  rw [hx, hd]

/-- Side by side of arrays that agree entry by entry. -/
theorem sideBySide_congr {α : Type} {R : Nat} (a0 a1 a2 a3 a4 a5 a6 a7 a8 b0 b1 b2 b3 b4 b5 b6 b7 b8 : (⟨2, ![R, 32]⟩ : Shape).Idx → α)
    (h0 : ∀ n k, a0 (ix2 n k) = b0 (ix2 n k)) (h1 : ∀ n k, a1 (ix2 n k) = b1 (ix2 n k)) (h2 : ∀ n k, a2 (ix2 n k) = b2 (ix2 n k))
    (h3 : ∀ n k, a3 (ix2 n k) = b3 (ix2 n k)) (h4 : ∀ n k, a4 (ix2 n k) = b4 (ix2 n k)) (h5 : ∀ n k, a5 (ix2 n k) = b5 (ix2 n k))
    (h6 : ∀ n k, a6 (ix2 n k) = b6 (ix2 n k)) (h7 : ∀ n k, a7 (ix2 n k) = b7 (ix2 n k)) (h8 : ∀ n k, a8 (ix2 n k) = b8 (ix2 n k)) :
    sideBySide a0 a1 a2 a3 a4 a5 a6 a7 a8 = sideBySide b0 b1 b2 b3 b4 b5 b6 b7 b8 := by
  funext i
  unfold sideBySide
  rw [pick_apply, pick_apply, h0, h1, h2, h3, h4, h5, h6, h7, h8]

end Idealize.ShloMosaic.Bands

end
-- ==== Proof.KernelBands.lean ====
/-
  The kernel's one launch copies: at every grid point it stores each of its nine input blocks (2048 rows by 32 columns) into
  its own 32-column band of the output block (2048 by 288), band p taking input p.  So the launch's result array is
  the nine input arrays set side by side: entry (n, 32 p + k) of the result is entry (n, k) of input p.
-/
import proofs.«168354_j73564199846375_2_alg».proof.Proof.KernelIdealFrameP
import proofs.«168354_j73564199846375_2_alg».proof.Proof.LibBands
import Idealize.ShloMosaic.Lib.Pipeline.Value
import Idealize.ShloMosaic.Lib.ValueIdx

noncomputable section

namespace Cert.KernelIdeal.Concat

open Cert.KernelIdeal Cert.KernelIdeal.Gen Cert.KernelIdeal.GenP Idealize.ShloMosaic Idealize.ShloMosaic.TcCoe Idealize.SL.Sem Idealize.ShloMosaic.ValueIdx
open Idealize.ShloMosaic.Pipeline (Dat)
open Idealize.ShloMosaic.Bands

variable {F : FTy → Type} [FloatOps F]

/-! ## What the body leaves in the output block -/

theorem hz : (![0, 0] : Fin 2 → Nat) = fun _ => 0 := funext fun a => by fin_cases a <;> rfl

/-- The body's nine stores, each the whole of one input block into its band, leave the nine blocks side by side. -/
theorem out_eq (x0 x1 x2 x3 x4 x5 x6 x7 x8 : Vec F S2048x32 .f32) :
    out0_9 x0 x1 x2 x3 x4 x5 x6 x7 x8 = sideBySide (R := 2048) x0 x1 x2 x3 x4 x5 x6 x7 x8 := by
  funext y
  unfold out0_9
  refine View.canon_apply_of_pieces (sideBySide (R := 2048) x0 x1 x2 x3 x4 x5 x6 x7 x8) _ ?_ y
    (cover0_9 _ _ _ _ _ _ _ _ _ y)
  intro p hp x
  simp only [List.mem_cons, List.mem_nil_iff, or_false] at hp
  rcases hp with rfl | rfl | rfl | rfl | rfl | rfl | rfl | rfl | rfl
  · show k0_pay2 (View.ld x8 r0_0) x = _
    rw [View.ld_unit_zero (S := S2048x32) hz]
    refine ((sideBySide_apply x0 x1 x2 x3 x4 x5 x6 x7 x8 (r0_9.emb x) 8 x ?_ ?_).trans ?_).symm
    · show (x 0).val = 0 + 1 * (x 0).val; omega
    · show 256 + 1 * (x 1).val = 32 * 8 + (x 1).val; omega
    · exact (congrFun (shapeCast_self x8 shapeCasts_S2048x32_S2048x32) x).symm
  · show k0_pay1 (View.ld x7 r0_0) x = _
    rw [View.ld_unit_zero (S := S2048x32) hz]
    refine ((sideBySide_apply x0 x1 x2 x3 x4 x5 x6 x7 x8 (r0_8.emb x) 7 x ?_ ?_).trans ?_).symm
    · show (x 0).val = 0 + 1 * (x 0).val; omega
    · show 224 + 1 * (x 1).val = 32 * 7 + (x 1).val; omega
    · exact (congrFun (shapeCast_self x7 shapeCasts_S2048x32_S2048x32) x).symm
  · show k0_pay9 (View.ld x6 r0_0) x = _
    rw [View.ld_unit_zero (S := S2048x32) hz]
    refine ((sideBySide_apply x0 x1 x2 x3 x4 x5 x6 x7 x8 (r0_7.emb x) 6 x ?_ ?_).trans ?_).symm
    · show (x 0).val = 0 + 1 * (x 0).val; omega
    · show 192 + 1 * (x 1).val = 32 * 6 + (x 1).val; omega
    · exact (congrFun (shapeCast_self x6 shapeCasts_S2048x32_S2048x32) x).symm
  · show k0_pay8 (View.ld x5 r0_0) x = _
    rw [View.ld_unit_zero (S := S2048x32) hz]
    refine ((sideBySide_apply x0 x1 x2 x3 x4 x5 x6 x7 x8 (r0_6.emb x) 5 x ?_ ?_).trans ?_).symm
    · show (x 0).val = 0 + 1 * (x 0).val; omega
    · show 160 + 1 * (x 1).val = 32 * 5 + (x 1).val; omega
    · exact (congrFun (shapeCast_self x5 shapeCasts_S2048x32_S2048x32) x).symm
  · show k0_pay7 (View.ld x4 r0_0) x = _
    rw [View.ld_unit_zero (S := S2048x32) hz]
    refine ((sideBySide_apply x0 x1 x2 x3 x4 x5 x6 x7 x8 (r0_5.emb x) 4 x ?_ ?_).trans ?_).symm
    · show (x 0).val = 0 + 1 * (x 0).val; omega
    · show 128 + 1 * (x 1).val = 32 * 4 + (x 1).val; omega
    · exact (congrFun (shapeCast_self x4 shapeCasts_S2048x32_S2048x32) x).symm
  · show k0_pay6 (View.ld x3 r0_0) x = _
    rw [View.ld_unit_zero (S := S2048x32) hz]
    refine ((sideBySide_apply x0 x1 x2 x3 x4 x5 x6 x7 x8 (r0_4.emb x) 3 x ?_ ?_).trans ?_).symm
    · show (x 0).val = 0 + 1 * (x 0).val; omega
    · show 96 + 1 * (x 1).val = 32 * 3 + (x 1).val; omega
    · exact (congrFun (shapeCast_self x3 shapeCasts_S2048x32_S2048x32) x).symm
  · show k0_pay5 (View.ld x2 r0_0) x = _
    rw [View.ld_unit_zero (S := S2048x32) hz]
    refine ((sideBySide_apply x0 x1 x2 x3 x4 x5 x6 x7 x8 (r0_3.emb x) 2 x ?_ ?_).trans ?_).symm
    · show (x 0).val = 0 + 1 * (x 0).val; omega
    · show 64 + 1 * (x 1).val = 32 * 2 + (x 1).val; omega
    · exact (congrFun (shapeCast_self x2 shapeCasts_S2048x32_S2048x32) x).symm
  · show k0_pay4 (View.ld x1 r0_0) x = _
    rw [View.ld_unit_zero (S := S2048x32) hz]
    refine ((sideBySide_apply x0 x1 x2 x3 x4 x5 x6 x7 x8 (r0_2.emb x) 1 x ?_ ?_).trans ?_).symm
    · show (x 0).val = 0 + 1 * (x 0).val; omega
    · show 32 + 1 * (x 1).val = 32 * 1 + (x 1).val; omega
    · exact (congrFun (shapeCast_self x1 shapeCasts_S2048x32_S2048x32) x).symm
  · show k0_pay3 (View.ld x0 r0_0) x = _
    rw [View.ld_unit_zero (S := S2048x32) hz]
    refine ((sideBySide_apply x0 x1 x2 x3 x4 x5 x6 x7 x8 (r0_1.emb x) 0 x ?_ ?_).trans ?_).symm
    · show (x 0).val = 0 + 1 * (x 0).val; omega
    · show 0 + 1 * (x 1).val = 32 * 0 + (x 1).val; omega
    · exact (congrFun (shapeCast_self x0 shapeCasts_S2048x32_S2048x32) x).symm

/-! ## From the blocks to the array -/

variable (m : (ℓ : Loc nD τ sig) → Buf (Elt F) ℓ) (ρ : Dev nD → PrngReg)

/-- The nine input arrays as the launch finds them, side by side. -/
def bands (c : Dev nD) : S524288x288.Idx → Elt F .f32 :=
  sideBySide (R := 524288) (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8))

/-- The printed index maps, decided over the 256 grid points: every window's block index on the row axis is the
    output's, which is the point's position; on the column axis it is 0. -/
theorem idx_facts : ∀ t : Fin cfg0.N,
    (win0_0.index t (0 : Fin 2) = win0_9.index t (0 : Fin 2) ∧ win0_0.index t (1 : Fin 2) = 0)
    ∧ (win0_1.index t (0 : Fin 2) = win0_9.index t (0 : Fin 2) ∧ win0_1.index t (1 : Fin 2) = 0)
    ∧ (win0_2.index t (0 : Fin 2) = win0_9.index t (0 : Fin 2) ∧ win0_2.index t (1 : Fin 2) = 0)
    ∧ (win0_3.index t (0 : Fin 2) = win0_9.index t (0 : Fin 2) ∧ win0_3.index t (1 : Fin 2) = 0)
    ∧ (win0_4.index t (0 : Fin 2) = win0_9.index t (0 : Fin 2) ∧ win0_4.index t (1 : Fin 2) = 0)
    ∧ (win0_5.index t (0 : Fin 2) = win0_9.index t (0 : Fin 2) ∧ win0_5.index t (1 : Fin 2) = 0)
    ∧ (win0_6.index t (0 : Fin 2) = win0_9.index t (0 : Fin 2) ∧ win0_6.index t (1 : Fin 2) = 0)
    ∧ (win0_7.index t (0 : Fin 2) = win0_9.index t (0 : Fin 2) ∧ win0_7.index t (1 : Fin 2) = 0)
    ∧ (win0_8.index t (0 : Fin 2) = win0_9.index t (0 : Fin 2) ∧ win0_8.index t (1 : Fin 2) = 0)
    ∧ win0_9.index t (1 : Fin 2) = 0 ∧ win0_9.index t (0 : Fin 2) = t.val :=
  (by decide +kernel : ∀ t : Fin grid0.N, _)

set_option maxHeartbeats 4000000 in
/-- What grid point t writes back is block t of the nine arrays side by side. -/
theorem flushed_eq (c : Dev nD) (t : Fin cfg0.N) :
    (dats m 0 c).flushed 9 t = ((cfg0.win 9).blk t).view.read (Elt F) (bands m c) := by
  show (cfg0.win 9).cut (grid0.coords t) ((dats m 0 c).after 9 t) = _
  rw [after0_9, out_eq]
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, a9⟩ := idx_facts t
  funext y
  have hy0 : (y 0).val < 2048 := (y 0).isLt
  have hy1 : (y 1).val < 288 := (y 1).isLt
  -- the band and the column inside it
  let jL : (⟨2, ![2048, 32]⟩ : Shape).Idx := ix2 (⟨(y 0).val, hy0⟩ : Fin 2048) (⟨(y 1).val % 32, Nat.mod_lt _ (by decide)⟩ : Fin 32)
  have hrow : win0_9.index t (0 : Fin 2) * 2048 + 1 * (y 0).val < 524288 := by
    have := t.isLt; have hN : cfg0.N = 256 := N_0; omega
  let jR : (⟨2, ![524288, 32]⟩ : Shape).Idx :=
    ix2 (⟨win0_9.index t (0 : Fin 2) * 2048 + 1 * (y 0).val, hrow⟩ : Fin 524288) (⟨(y 1).val % 32, Nat.mod_lt _ (by decide)⟩ : Fin 32)
  show sideBySide (R := 2048) (iblk m c 0 t) (iblk m c 1 t) (iblk m c 2 t) (iblk m c 3 t) (iblk m c 4 t) (iblk m c 5 t) (iblk m c 6 t) (iblk m c 7 t) (iblk m c 8 t) y = _
  rw [View.read_apply]
  unfold bands
  rw [sideBySide_apply _ _ _ _ _ _ _ _ _ y ((y 1).val / 32) jL rfl (by show (y 1).val = 32 * ((y 1).val / 32) + (y 1).val % 32; omega),
    sideBySide_apply _ _ _ _ _ _ _ _ _ (((cfg0.win 9).blk t).view.emb y) ((y 1).val / 32) jR
      (by show win0_9.index t (0 : Fin 2) * 2048 + 1 * (y 0).val = win0_9.index t (0 : Fin 2) * 2048 + 1 * (y 0).val; rfl)
      (by show win0_9.index t (1 : Fin 2) * 288 + 1 * (y 1).val = 32 * ((y 1).val / 32) + (y 1).val % 32; omega),
    pick_apply, pick_apply]
  have e0 : iblk m c 0 t jL = V m c (Pipeline.arrRef spec0 0) jR := by
    have e : ((cfg0.win 0).blk t).view.emb jL = jR := by
      funext a; apply Fin.ext
      match a with
      | ⟨0, _⟩ => show win0_0.index t (0 : Fin 2) * 2048 + 1 * (y 0).val = win0_9.index t (0 : Fin 2) * 2048 + 1 * (y 0).val; omega
      | ⟨1, _⟩ => show win0_0.index t (1 : Fin 2) * 32 + 1 * ((y 1).val % 32) = (y 1).val % 32; omega
    unfold iblk
    rw [View.read_apply, e]
    first | exact cast_eq _ _ | rfl
  have e1 : iblk m c 1 t jL = V m c (Pipeline.arrRef spec0 1) jR := by
    have e : ((cfg0.win 1).blk t).view.emb jL = jR := by
      funext a; apply Fin.ext
      match a with
      | ⟨0, _⟩ => show win0_1.index t (0 : Fin 2) * 2048 + 1 * (y 0).val = win0_9.index t (0 : Fin 2) * 2048 + 1 * (y 0).val; omega
      | ⟨1, _⟩ => show win0_1.index t (1 : Fin 2) * 32 + 1 * ((y 1).val % 32) = (y 1).val % 32; omega
    unfold iblk
    rw [View.read_apply, e]
    first | exact cast_eq _ _ | rfl
  have e2 : iblk m c 2 t jL = V m c (Pipeline.arrRef spec0 2) jR := by
    have e : ((cfg0.win 2).blk t).view.emb jL = jR := by
      funext a; apply Fin.ext
      match a with
      | ⟨0, _⟩ => show win0_2.index t (0 : Fin 2) * 2048 + 1 * (y 0).val = win0_9.index t (0 : Fin 2) * 2048 + 1 * (y 0).val; omega
      | ⟨1, _⟩ => show win0_2.index t (1 : Fin 2) * 32 + 1 * ((y 1).val % 32) = (y 1).val % 32; omega
    unfold iblk
    rw [View.read_apply, e]
    first | exact cast_eq _ _ | rfl
  have e3 : iblk m c 3 t jL = V m c (Pipeline.arrRef spec0 3) jR := by
    have e : ((cfg0.win 3).blk t).view.emb jL = jR := by
      funext a; apply Fin.ext
      match a with
      | ⟨0, _⟩ => show win0_3.index t (0 : Fin 2) * 2048 + 1 * (y 0).val = win0_9.index t (0 : Fin 2) * 2048 + 1 * (y 0).val; omega
      | ⟨1, _⟩ => show win0_3.index t (1 : Fin 2) * 32 + 1 * ((y 1).val % 32) = (y 1).val % 32; omega
    unfold iblk
    rw [View.read_apply, e]
    first | exact cast_eq _ _ | rfl
  have e4 : iblk m c 4 t jL = V m c (Pipeline.arrRef spec0 4) jR := by
    have e : ((cfg0.win 4).blk t).view.emb jL = jR := by
      funext a; apply Fin.ext
      match a with
      | ⟨0, _⟩ => show win0_4.index t (0 : Fin 2) * 2048 + 1 * (y 0).val = win0_9.index t (0 : Fin 2) * 2048 + 1 * (y 0).val; omega
      | ⟨1, _⟩ => show win0_4.index t (1 : Fin 2) * 32 + 1 * ((y 1).val % 32) = (y 1).val % 32; omega
    unfold iblk
    rw [View.read_apply, e]
    first | exact cast_eq _ _ | rfl
  have e5 : iblk m c 5 t jL = V m c (Pipeline.arrRef spec0 5) jR := by
    have e : ((cfg0.win 5).blk t).view.emb jL = jR := by
      funext a; apply Fin.ext
      match a with
      | ⟨0, _⟩ => show win0_5.index t (0 : Fin 2) * 2048 + 1 * (y 0).val = win0_9.index t (0 : Fin 2) * 2048 + 1 * (y 0).val; omega
      | ⟨1, _⟩ => show win0_5.index t (1 : Fin 2) * 32 + 1 * ((y 1).val % 32) = (y 1).val % 32; omega
    unfold iblk
    rw [View.read_apply, e]
    first | exact cast_eq _ _ | rfl
  have e6 : iblk m c 6 t jL = V m c (Pipeline.arrRef spec0 6) jR := by
    have e : ((cfg0.win 6).blk t).view.emb jL = jR := by
      funext a; apply Fin.ext
      match a with
      | ⟨0, _⟩ => show win0_6.index t (0 : Fin 2) * 2048 + 1 * (y 0).val = win0_9.index t (0 : Fin 2) * 2048 + 1 * (y 0).val; omega
      | ⟨1, _⟩ => show win0_6.index t (1 : Fin 2) * 32 + 1 * ((y 1).val % 32) = (y 1).val % 32; omega
    unfold iblk
    rw [View.read_apply, e]
    first | exact cast_eq _ _ | rfl
  have e7 : iblk m c 7 t jL = V m c (Pipeline.arrRef spec0 7) jR := by
    have e : ((cfg0.win 7).blk t).view.emb jL = jR := by
      funext a; apply Fin.ext
      match a with
      | ⟨0, _⟩ => show win0_7.index t (0 : Fin 2) * 2048 + 1 * (y 0).val = win0_9.index t (0 : Fin 2) * 2048 + 1 * (y 0).val; omega
      | ⟨1, _⟩ => show win0_7.index t (1 : Fin 2) * 32 + 1 * ((y 1).val % 32) = (y 1).val % 32; omega
    unfold iblk
    rw [View.read_apply, e]
    first | exact cast_eq _ _ | rfl
  have e8 : iblk m c 8 t jL = V m c (Pipeline.arrRef spec0 8) jR := by
    have e : ((cfg0.win 8).blk t).view.emb jL = jR := by
      funext a; apply Fin.ext
      match a with
      | ⟨0, _⟩ => show win0_8.index t (0 : Fin 2) * 2048 + 1 * (y 0).val = win0_9.index t (0 : Fin 2) * 2048 + 1 * (y 0).val; omega
      | ⟨1, _⟩ => show win0_8.index t (1 : Fin 2) * 32 + 1 * ((y 1).val % 32) = (y 1).val % 32; omega
    unfold iblk
    rw [View.read_apply, e]
    first | exact cast_eq _ _ | rfl
  rw [e0, e1, e2, e3, e4, e5, e6, e7, e8]
  first | exact (cast_eq _ _).symm | rfl

/-- An index of the result array is in point t's block iff each coordinate is in the block's range on its axis. -/
theorem mem_blk (t : Fin cfg0.N) (i : S524288x288.Idx) :
    i ∈ ((cfg0.win 9).blk t).view.set ↔ ∀ a : Fin 2, win0_9.index t a * S2048x288.size a ≤ (i a).val ∧ (i a).val < win0_9.index t a * S2048x288.size a + S2048x288.size a := by
  show i ∈ ((View.whole main_v1026).slice (win0_9.rect t)).set ↔ _
  rw [View.set_slice_whole, Rect.mem_set_unit]
  exact Iff.rfl

/-- The 256 blocks of 2048 rows cover the array: row r lies in the block of point r / 2048. -/
theorem cover (i : S524288x288.Idx) : ∃ t : Fin cfg0.N, (cfg0.win 9).flush t = true ∧ i ∈ ((cfg0.win 9).blk t).view.set := by
  have hi0 : (i 0).val < 524288 := (i 0).isLt
  have hi1 : (i 1).val < 288 := (i 1).isLt
  have hN : cfg0.N = 256 := N_0
  let t : Fin cfg0.N := ⟨(i 0).val / 2048, by omega⟩
  obtain ⟨-, -, -, -, -, -, -, -, -, b9, a9⟩ := idx_facts t
  have a9' : win0_9.index t (0 : Fin 2) = (i 0).val / 2048 := a9
  refine ⟨t, flush0_9 t, ?_⟩
  rw [mem_blk]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 288 ≤ (i 1).val ∧ (i 1).val < win0_9.index t (1 : Fin 2) * 288 + 288; omega

/-- The result array after the launch: the nine input arrays side by side. -/
theorem final (c : Dev nD) : (dats m 0 c).arrAt 9 cfg0.N = bands m c :=
  (dats m 0 c).arrAt_eq_of_cover 9 (bands m c) (fun t _ => flushed_eq m c t) cover

/-- After the frame run the result buffer holds the launch's result array. -/
theorem post9 (r : PUnit × MemSt nD τ sig (Elt F)) (h : Pipeline.FramePost cfgs (dats m) 0 (V m) r) (c : Dev nD) :
    r.2.mem ((c : Thread nD τ).loc main_v1026) = (dats m 0 c).arrAt 9 cfg0.N :=
  (h c).1 9

/-- After the frame run argument 0 is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
/-- After the frame run argument 1 is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
/-- After the frame run argument 2 is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
/-- After the frame run argument 3 is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
/-- After the frame run argument 4 is as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
/-- After the frame run argument 5 is as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
/-- After the frame run argument 6 is as launched. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)
/-- After the frame run argument 7 is as launched. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)
/-- After the frame run argument 8 is as launched. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
/-- After the frame run argument 9 is as launched. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)
/-- After the frame run argument 10 is as launched. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- Every weakly fair execution of the kernel's program terminates with the result buffer at the nine arrays side by
    side, the arguments unchanged. -/
theorem run : θ_run defs (onTc (τ := τ) (main (F := F))) ⟨m, fun _ => 0, ρ⟩ fun r => ∀ c : Dev nD,
      r.2.mem ((c : Thread nD τ).loc main_v1026) = bands m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(post9 m r h c).trans (final m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.KernelIdeal.Concat

end
-- ==== Proof.RefLine0.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 65 host operations of the program's printed window 0, in order (a call of the clamp function as its six operations
    over that call's buffers). -/
abbrev ops0 : List (HloOp τ sig (Elt F)) :=
  [ StableHlo.nullary main_c (fun i => lit0 (S2.rowMajor i)),
    StableHlo.nullary main_c_0 (fun i => lit1 (S2.rowMajor i)),
    StableHlo.nullary main_c_1 (fun i => lit2 (S2.rowMajor i)),
    StableHlo.nullary main_c_2 (fun i => lit3 (S2.rowMajor i)),
    StableHlo.nullary main_c_3 (fun i => lit4 (S2.rowMajor i)),
    StableHlo.nullary main_c_4 (fun i => lit5 (S2.rowMajor i)),
    StableHlo.nullary main_c_5 (fun i => lit6 (S2.rowMajor i)),
    StableHlo.nullary main_c_6 (fun i => lit7 (S2.rowMajor i)),
    StableHlo.nullary main_c_7 (fun i => lit8 (S2.rowMajor i)),
    StableHlo.unary main_arg1 main_v0 ((extractStridedSlice S1x3 ![0, 0] · slices_S2x3_S1x3_0_0) : (⟨S2x3, .f32⟩ : BufTy).Contents (Elt F) → (⟨S1x3, .f32⟩ : BufTy).Contents (Elt F)),
    StableHlo.reshape main_v0 main_v1 rfl shapeCasts_S1x3_S3,
    StableHlo.unary main_v1 main_v2 (broadcastInDim S1x1x3 ![2] bcast_S3_S1x1x3_2 : (⟨S3, .f32⟩ : BufTy).Contents (Elt F) → (⟨S1x1x3, .f32⟩ : BufTy).Contents (Elt F)),
    StableHlo.unary main_v2 main_v3 (broadcastInDim S4096x128x3 ![0, 1, 2] bcast_S1x1x3_S4096x128x3_0_1_2 : (⟨S1x1x3, .f32⟩ : BufTy).Contents (Elt F) → (⟨S4096x128x3, .f32⟩ : BufTy).Contents (Elt F)),
    StableHlo.binary main_arg0 main_v3 main_v4 (subf : (⟨S4096x128x3, .f32⟩ : BufTy).Contents (Elt F) → (⟨S4096x128x3, .f32⟩ : BufTy).Contents (Elt F) → (⟨S4096x128x3, .f32⟩ : BufTy).Contents (Elt F)),
    StableHlo.unary main_arg1 main_v5 ((extractStridedSlice S1x3 ![1, 0] · slices_S2x3_S1x3_1_0) : (⟨S2x3, .f32⟩ : BufTy).Contents (Elt F) → (⟨S1x3, .f32⟩ : BufTy).Contents (Elt F)),
    StableHlo.reshape main_v5 main_v6 rfl shapeCasts_S1x3_S3,
    StableHlo.unary main_arg1 main_v7 ((extractStridedSlice S1x3 ![0, 0] · slices_S2x3_S1x3_0_0) : (⟨S2x3, .f32⟩ : BufTy).Contents (Elt F) → (⟨S1x3, .f32⟩ : BufTy).Contents (Elt F)),
    StableHlo.reshape main_v7 main_v8 rfl shapeCasts_S1x3_S3,
    StableHlo.binary main_v6 main_v8 main_v9 (subf : (⟨S3, .f32⟩ : BufTy).Contents (Elt F) → (⟨S3, .f32⟩ : BufTy).Contents (Elt F) → (⟨S3, .f32⟩ : BufTy).Contents (Elt F)),
    StableHlo.nullary main_cst (constant S_ .f32 0x40000000#32),
    StableHlo.unary main_cst main_v10 (broadcastInDim S3 ![] bcast_S_S3 : (⟨S_, .f32⟩ : BufTy).Contents (Elt F) → (⟨S3, .f32⟩ : BufTy).Contents (Elt F)),
    StableHlo.binary main_v10 main_v9 main_v11 (Host.divf : (⟨S3, .f32⟩ : BufTy).Contents (Elt F) → (⟨S3, .f32⟩ : BufTy).Contents (Elt F) → (⟨S3, .f32⟩ : BufTy).Contents (Elt F)),
    StableHlo.unary main_v11 main_v12 (broadcastInDim S1x1x3 ![2] bcast_S3_S1x1x3_2 : (⟨S3, .f32⟩ : BufTy).Contents (Elt F) → (⟨S1x1x3, .f32⟩ : BufTy).Contents (Elt F)),
    StableHlo.unary main_v12 main_v13 (broadcastInDim S4096x128x3 ![0, 1, 2] bcast_S1x1x3_S4096x128x3_0_1_2 : (⟨S1x1x3, .f32⟩ : BufTy).Contents (Elt F) → (⟨S4096x128x3, .f32⟩ : BufTy).Contents (Elt F)),
    StableHlo.binary main_v4 main_v13 main_v14 (mulf : (⟨S4096x128x3, .f32⟩ : BufTy).Contents (Elt F) → (⟨S4096x128x3, .f32⟩ : BufTy).Contents (Elt F) → (⟨S4096x128x3, .f32⟩ : BufTy).Contents (Elt F)),
    StableHlo.nullary main_cst_8 (constant S_ .f32 0x3F800000#32),
    StableHlo.unary main_cst_8 main_v15 (broadcastInDim S4096x128x3 ![] bcast_S_S4096x128x3 : (⟨S_, .f32⟩ : BufTy).Contents (Elt F) → (⟨S4096x128x3, .f32⟩ : BufTy).Contents (Elt F)),
    StableHlo.binary main_v14 main_v15 main_v16 (subf : (⟨S4096x128x3, .f32⟩ : BufTy).Contents (Elt F) → (⟨S4096x128x3, .f32⟩ : BufTy).Contents (Elt F) → (⟨S4096x128x3, .f32⟩ : BufTy).Contents (Elt F)),
    StableHlo.reshape main_v16 main_v17 rfl shapeCasts_S4096x128x3_S524288x3,
    StableHlo.nullary main_c_9 (constantI S_ 32 0#32),
    StableHlo.unary main_c_9 main_v18 (broadcastInDim S2 ![] bcast_S_S2 : (⟨S_, .i32⟩ : BufTy).Contents (Elt F) → (⟨S2, .i32⟩ : BufTy).Contents (Elt F)),
    StableHlo.binary main_c main_v18 main_v19 (cmpi .slt : (⟨S2, .i32⟩ : BufTy).Contents (Elt F) → (⟨S2, .i32⟩ : BufTy).Contents (Elt F) → (⟨S2, .i1⟩ : BufTy).Contents (Elt F)),
    StableHlo.nullary main_c_10 (constantI S_ 32 3#32),
    StableHlo.unary main_c_10 main_v20 (broadcastInDim S2 ![] bcast_S_S2 : (⟨S_, .i32⟩ : BufTy).Contents (Elt F) → (⟨S2, .i32⟩ : BufTy).Contents (Elt F)),
    StableHlo.binary main_c main_v20 main_v21 (addi : (⟨S2, .i32⟩ : BufTy).Contents (Elt F) → (⟨S2, .i32⟩ : BufTy).Contents (Elt F) → (⟨S2, .i32⟩ : BufTy).Contents (Elt F)),
    StableHlo.ternary main_v19 main_v21 main_c main_v22 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v22 main_v23 (broadcastInDim S2x1 ![0] bcast_S2_S2x1_0 : (⟨S2, .i32⟩ : BufTy).Contents (Elt F) → (⟨S2x1, .i32⟩ : BufTy).Contents (Elt F)),
    StableHlo.binary main_v17 main_v23 main_v24 ((fun x i => Host.gather gather_S524288x3_S2x1_S524288x2_0_1_n_n_1_1_5242881 x i) : (⟨S524288x3, .f32⟩ : BufTy).Contents (Elt F) → (⟨S2x1, .i32⟩ : BufTy).Contents (Elt F) → (⟨S524288x2, .f32⟩ : BufTy).Contents (Elt F)),
    StableHlo.unary main_v24 main_v25 ((extractStridedSlice S524288x1 ![0, 0] · slices_S524288x2_S524288x1_0_0) : (⟨S524288x2, .f32⟩ : BufTy).Contents (Elt F) → (⟨S524288x1, .f32⟩ : BufTy).Contents (Elt F)),
    StableHlo.reshape main_v25 main_v26 rfl shapeCasts_S524288x1_S524288,
    StableHlo.nullary main_cst_11 (constant S_ .f32 0x3F800000#32),
    StableHlo.unary main_cst_11 main_v27 (broadcastInDim S524288 ![] bcast_S_S524288 : (⟨S_, .f32⟩ : BufTy).Contents (Elt F) → (⟨S524288, .f32⟩ : BufTy).Contents (Elt F)),
    StableHlo.binary main_v26 main_v27 main_v28 (addf : (⟨S524288, .f32⟩ : BufTy).Contents (Elt F) → (⟨S524288, .f32⟩ : BufTy).Contents (Elt F) → (⟨S524288, .f32⟩ : BufTy).Contents (Elt F)),
    StableHlo.nullary main_cst_12 (constant S_ .f32 0x3F000000#32),
    StableHlo.unary main_cst_12 main_v29 (broadcastInDim S524288 ![] bcast_S_S524288 : (⟨S_, .f32⟩ : BufTy).Contents (Elt F) → (⟨S524288, .f32⟩ : BufTy).Contents (Elt F)),
    StableHlo.binary main_v28 main_v29 main_v30 (mulf : (⟨S524288, .f32⟩ : BufTy).Contents (Elt F) → (⟨S524288, .f32⟩ : BufTy).Contents (Elt F) → (⟨S524288, .f32⟩ : BufTy).Contents (Elt F)),
    StableHlo.nullary main_cst_13 (constant S_ .f32 0x42FE0000#32),
    StableHlo.unary main_cst_13 main_v31 (broadcastInDim S524288 ![] bcast_S_S524288 : (⟨S_, .f32⟩ : BufTy).Contents (Elt F) → (⟨S524288, .f32⟩ : BufTy).Contents (Elt F)),
    StableHlo.binary main_v30 main_v31 main_v32 (mulf : (⟨S524288, .f32⟩ : BufTy).Contents (Elt F) → (⟨S524288, .f32⟩ : BufTy).Contents (Elt F) → (⟨S524288, .f32⟩ : BufTy).Contents (Elt F)),
    StableHlo.nullary main_cst_14 (constant S_ .f32 0x00000000#32),
    StableHlo.nullary main_c_15 (constantI S_ 32 127#32),
    StableHlo.TRef.unary (.of main_cst_14 : StableHlo.TRef sig ⟨S_, .f32⟩) main_call0.v0 id,
    StableHlo.TRef.unary main_call0.v0 main_call0.v1 (broadcastInDim S524288 ![] bcast_S_S524288),
    StableHlo.TRef.binary main_call0.v1 (.of main_v32 : StableHlo.TRef sig ⟨S524288, .f32⟩) main_call0.v2 maximumf,
    StableHlo.TRef.unary (.of main_c_15 : StableHlo.TRef sig ⟨S_, .i32⟩) main_call0.v3 (sitofp .f32),
    StableHlo.TRef.unary main_call0.v3 main_call0.v4 (broadcastInDim S524288 ![] bcast_S_S524288),
    StableHlo.TRef.binary main_call0.v4 main_call0.v2 main_call0.v5 minimumf,
    StableHlo.unary main_v24 main_v34 ((extractStridedSlice S524288x1 ![0, 1] · slices_S524288x2_S524288x1_0_1) : (⟨S524288x2, .f32⟩ : BufTy).Contents (Elt F) → (⟨S524288x1, .f32⟩ : BufTy).Contents (Elt F)),
    StableHlo.reshape main_v34 main_v35 rfl shapeCasts_S524288x1_S524288,
    StableHlo.nullary main_cst_16 (constant S_ .f32 0x3F800000#32),
    StableHlo.unary main_cst_16 main_v36 (broadcastInDim S524288 ![] bcast_S_S524288 : (⟨S_, .f32⟩ : BufTy).Contents (Elt F) → (⟨S524288, .f32⟩ : BufTy).Contents (Elt F)),
    StableHlo.binary main_v35 main_v36 main_v37 (addf : (⟨S524288, .f32⟩ : BufTy).Contents (Elt F) → (⟨S524288, .f32⟩ : BufTy).Contents (Elt F) → (⟨S524288, .f32⟩ : BufTy).Contents (Elt F)),
    StableHlo.nullary main_cst_17 (constant S_ .f32 0x3F000000#32),
    StableHlo.unary main_cst_17 main_v38 (broadcastInDim S524288 ![] bcast_S_S524288 : (⟨S_, .f32⟩ : BufTy).Contents (Elt F) → (⟨S524288, .f32⟩ : BufTy).Contents (Elt F)),
    StableHlo.binary main_v37 main_v38 main_v39 (mulf : (⟨S524288, .f32⟩ : BufTy).Contents (Elt F) → (⟨S524288, .f32⟩ : BufTy).Contents (Elt F) → (⟨S524288, .f32⟩ : BufTy).Contents (Elt F)) ]

set_option maxHeartbeats 40000000 in
set_option maxRecDepth 65536 in
/-- The printed window is that straight line. -/
theorem part0_eq (d : Dev nD) : main_part0 (F := F) d = seq ops0 := by
  simp only [main_part0, fn_clip.body, seq, bind_assoc, pure_bind] <;> rfl

set_option maxHeartbeats 40000000 in
/-- Every operation of the window touches TensorCore references only. -/
theorem ops0_sub : (ops0 : List (HloOp τ sig (Elt F))).Forall fun op => op.bufs ⊆ tcRefs τ sig :=
  ⟨StableHlo.nullary_bufs_sub .., StableHlo.nullary_bufs_sub .., StableHlo.nullary_bufs_sub .., StableHlo.nullary_bufs_sub .., StableHlo.nullary_bufs_sub .., StableHlo.nullary_bufs_sub .., StableHlo.nullary_bufs_sub .., StableHlo.nullary_bufs_sub .., StableHlo.nullary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub ..⟩

set_option maxHeartbeats 40000000 in
/-- Every operation of the window determines what it writes. -/
theorem ops0_fresh : (ops0 : List (HloOp τ sig (Elt F))).Forall fun op => op.fresh = ∅ := by
  simp only [List.Forall]; repeat' constructor

end Cert.ReferenceIdeal.Line

end
-- ==== Proof.RefLine1.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 65 host operations of the program's printed window 1, in order (a call of the clamp function as its six operations
    over that call's buffers). -/
abbrev ops1 : List (HloOp τ sig (Elt F)) :=
  [ StableHlo.nullary main_cst_18 (constant S_ .f32 0x42FE0000#32),
    StableHlo.unary main_cst_18 main_v40 (broadcastInDim S524288 ![] bcast_S_S524288 : (⟨S_, .f32⟩ : BufTy).Contents (Elt F) → (⟨S524288, .f32⟩ : BufTy).Contents (Elt F)),
    StableHlo.binary main_v39 main_v40 main_v41 (mulf : (⟨S524288, .f32⟩ : BufTy).Contents (Elt F) → (⟨S524288, .f32⟩ : BufTy).Contents (Elt F) → (⟨S524288, .f32⟩ : BufTy).Contents (Elt F)),
    StableHlo.nullary main_cst_19 (constant S_ .f32 0x00000000#32),
    StableHlo.nullary main_c_20 (constantI S_ 32 127#32),
    StableHlo.TRef.unary (.of main_cst_19 : StableHlo.TRef sig ⟨S_, .f32⟩) main_call1.v0 id,
    StableHlo.TRef.unary main_call1.v0 main_call1.v1 (broadcastInDim S524288 ![] bcast_S_S524288),
    StableHlo.TRef.binary main_call1.v1 (.of main_v41 : StableHlo.TRef sig ⟨S524288, .f32⟩) main_call1.v2 maximumf,
    StableHlo.TRef.unary (.of main_c_20 : StableHlo.TRef sig ⟨S_, .i32⟩) main_call1.v3 (sitofp .f32),
    StableHlo.TRef.unary main_call1.v3 main_call1.v4 (broadcastInDim S524288 ![] bcast_S_S524288),
    StableHlo.TRef.binary main_call1.v4 main_call1.v2 main_call1.v5 minimumf,
    StableHlo.unary main_v33 main_v43 (Host.floor : (⟨S524288, .f32⟩ : BufTy).Contents (Elt F) → (⟨S524288, .f32⟩ : BufTy).Contents (Elt F)),
    StableHlo.unary main_v42 main_v44 (Host.floor : (⟨S524288, .f32⟩ : BufTy).Contents (Elt F) → (⟨S524288, .f32⟩ : BufTy).Contents (Elt F)),
    StableHlo.binary main_v33 main_v43 main_v45 (subf : (⟨S524288, .f32⟩ : BufTy).Contents (Elt F) → (⟨S524288, .f32⟩ : BufTy).Contents (Elt F) → (⟨S524288, .f32⟩ : BufTy).Contents (Elt F)),
    StableHlo.binary main_v42 main_v44 main_v46 (subf : (⟨S524288, .f32⟩ : BufTy).Contents (Elt F) → (⟨S524288, .f32⟩ : BufTy).Contents (Elt F) → (⟨S524288, .f32⟩ : BufTy).Contents (Elt F)),
    StableHlo.unary main_v43 main_v47 (fptosi 32 : (⟨S524288, .f32⟩ : BufTy).Contents (Elt F) → (⟨S524288, .i32⟩ : BufTy).Contents (Elt F)),
    StableHlo.unary main_v44 main_v48 (fptosi 32 : (⟨S524288, .f32⟩ : BufTy).Contents (Elt F) → (⟨S524288, .i32⟩ : BufTy).Contents (Elt F)),
    StableHlo.nullary main_c_21 (constantI S_ 32 1#32),
    StableHlo.unary main_c_21 main_v49 (broadcastInDim S524288 ![] bcast_S_S524288 : (⟨S_, .i32⟩ : BufTy).Contents (Elt F) → (⟨S524288, .i32⟩ : BufTy).Contents (Elt F)),
    StableHlo.binary main_v47 main_v49 main_v50 (addi : (⟨S524288, .i32⟩ : BufTy).Contents (Elt F) → (⟨S524288, .i32⟩ : BufTy).Contents (Elt F) → (⟨S524288, .i32⟩ : BufTy).Contents (Elt F)),
    StableHlo.nullary main_c_22 (constantI S_ 32 127#32),
    StableHlo.unary main_c_22 main_v51 (broadcastInDim S524288 ![] bcast_S_S524288 : (⟨S_, .i32⟩ : BufTy).Contents (Elt F) → (⟨S524288, .i32⟩ : BufTy).Contents (Elt F)),
    StableHlo.binary main_v50 main_v51 main_v52 (minsi : (⟨S524288, .i32⟩ : BufTy).Contents (Elt F) → (⟨S524288, .i32⟩ : BufTy).Contents (Elt F) → (⟨S524288, .i32⟩ : BufTy).Contents (Elt F)),
    StableHlo.nullary main_c_23 (constantI S_ 32 1#32),
    StableHlo.unary main_c_23 main_v53 (broadcastInDim S524288 ![] bcast_S_S524288 : (⟨S_, .i32⟩ : BufTy).Contents (Elt F) → (⟨S524288, .i32⟩ : BufTy).Contents (Elt F)),
    StableHlo.binary main_v48 main_v53 main_v54 (addi : (⟨S524288, .i32⟩ : BufTy).Contents (Elt F) → (⟨S524288, .i32⟩ : BufTy).Contents (Elt F) → (⟨S524288, .i32⟩ : BufTy).Contents (Elt F)),
    StableHlo.nullary main_c_24 (constantI S_ 32 127#32),
    StableHlo.unary main_c_24 main_v55 (broadcastInDim S524288 ![] bcast_S_S524288 : (⟨S_, .i32⟩ : BufTy).Contents (Elt F) → (⟨S524288, .i32⟩ : BufTy).Contents (Elt F)),
    StableHlo.binary main_v54 main_v55 main_v56 (minsi : (⟨S524288, .i32⟩ : BufTy).Contents (Elt F) → (⟨S524288, .i32⟩ : BufTy).Contents (Elt F) → (⟨S524288, .i32⟩ : BufTy).Contents (Elt F)),
    StableHlo.nullary main_c_25 (constantI S_ 32 0#32),
    StableHlo.unary main_c_25 main_v57 (broadcastInDim S524288 ![] bcast_S_S524288 : (⟨S_, .i32⟩ : BufTy).Contents (Elt F) → (⟨S524288, .i32⟩ : BufTy).Contents (Elt F)),
    StableHlo.binary main_v48 main_v57 main_v58 (cmpi .slt : (⟨S524288, .i32⟩ : BufTy).Contents (Elt F) → (⟨S524288, .i32⟩ : BufTy).Contents (Elt F) → (⟨S524288, .i1⟩ : BufTy).Contents (Elt F)),
    StableHlo.nullary main_c_26 (constantI S_ 32 128#32),
    StableHlo.unary main_c_26 main_v59 (broadcastInDim S524288 ![] bcast_S_S524288 : (⟨S_, .i32⟩ : BufTy).Contents (Elt F) → (⟨S524288, .i32⟩ : BufTy).Contents (Elt F)),
    StableHlo.binary main_v48 main_v59 main_v60 (addi : (⟨S524288, .i32⟩ : BufTy).Contents (Elt F) → (⟨S524288, .i32⟩ : BufTy).Contents (Elt F) → (⟨S524288, .i32⟩ : BufTy).Contents (Elt F)),
    StableHlo.ternary main_v58 main_v60 main_v48 main_v61 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_27 (constantI S_ 32 0#32),
    StableHlo.unary main_c_27 main_v62 (broadcastInDim S524288 ![] bcast_S_S524288 : (⟨S_, .i32⟩ : BufTy).Contents (Elt F) → (⟨S524288, .i32⟩ : BufTy).Contents (Elt F)),
    StableHlo.binary main_v47 main_v62 main_v63 (cmpi .slt : (⟨S524288, .i32⟩ : BufTy).Contents (Elt F) → (⟨S524288, .i32⟩ : BufTy).Contents (Elt F) → (⟨S524288, .i1⟩ : BufTy).Contents (Elt F)),
    StableHlo.nullary main_c_28 (constantI S_ 32 128#32),
    StableHlo.unary main_c_28 main_v64 (broadcastInDim S524288 ![] bcast_S_S524288 : (⟨S_, .i32⟩ : BufTy).Contents (Elt F) → (⟨S524288, .i32⟩ : BufTy).Contents (Elt F)),
    StableHlo.binary main_v47 main_v64 main_v65 (addi : (⟨S524288, .i32⟩ : BufTy).Contents (Elt F) → (⟨S524288, .i32⟩ : BufTy).Contents (Elt F) → (⟨S524288, .i32⟩ : BufTy).Contents (Elt F)),
    StableHlo.ternary main_v63 main_v65 main_v47 main_v66 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v61 main_v67 (broadcastInDim S524288x1 ![0] bcast_S524288_S524288x1_0 : (⟨S524288, .i32⟩ : BufTy).Contents (Elt F) → (⟨S524288x1, .i32⟩ : BufTy).Contents (Elt F)),
    StableHlo.unary main_v66 main_v68 (broadcastInDim S524288x1 ![0] bcast_S524288_S524288x1_0 : (⟨S524288, .i32⟩ : BufTy).Contents (Elt F) → (⟨S524288x1, .i32⟩ : BufTy).Contents (Elt F)),
    StableHlo.binary main_v67 main_v68 main_v69 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg2 main_v69 main_v70 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    StableHlo.nullary main_c_29 (constantI S_ 32 0#32),
    StableHlo.unary main_c_29 main_v71 (broadcastInDim S524288 ![] bcast_S_S524288 : (⟨S_, .i32⟩ : BufTy).Contents (Elt F) → (⟨S524288, .i32⟩ : BufTy).Contents (Elt F)),
    StableHlo.binary main_v48 main_v71 main_v72 (cmpi .slt : (⟨S524288, .i32⟩ : BufTy).Contents (Elt F) → (⟨S524288, .i32⟩ : BufTy).Contents (Elt F) → (⟨S524288, .i1⟩ : BufTy).Contents (Elt F)),
    StableHlo.nullary main_c_30 (constantI S_ 32 128#32),
    StableHlo.unary main_c_30 main_v73 (broadcastInDim S524288 ![] bcast_S_S524288 : (⟨S_, .i32⟩ : BufTy).Contents (Elt F) → (⟨S524288, .i32⟩ : BufTy).Contents (Elt F)),
    StableHlo.binary main_v48 main_v73 main_v74 (addi : (⟨S524288, .i32⟩ : BufTy).Contents (Elt F) → (⟨S524288, .i32⟩ : BufTy).Contents (Elt F) → (⟨S524288, .i32⟩ : BufTy).Contents (Elt F)),
    StableHlo.ternary main_v72 main_v74 main_v48 main_v75 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_31 (constantI S_ 32 0#32),
    StableHlo.unary main_c_31 main_v76 (broadcastInDim S524288 ![] bcast_S_S524288 : (⟨S_, .i32⟩ : BufTy).Contents (Elt F) → (⟨S524288, .i32⟩ : BufTy).Contents (Elt F)),
    StableHlo.binary main_v52 main_v76 main_v77 (cmpi .slt : (⟨S524288, .i32⟩ : BufTy).Contents (Elt F) → (⟨S524288, .i32⟩ : BufTy).Contents (Elt F) → (⟨S524288, .i1⟩ : BufTy).Contents (Elt F)),
    StableHlo.nullary main_c_32 (constantI S_ 32 128#32),
    StableHlo.unary main_c_32 main_v78 (broadcastInDim S524288 ![] bcast_S_S524288 : (⟨S_, .i32⟩ : BufTy).Contents (Elt F) → (⟨S524288, .i32⟩ : BufTy).Contents (Elt F)),
    StableHlo.binary main_v52 main_v78 main_v79 (addi : (⟨S524288, .i32⟩ : BufTy).Contents (Elt F) → (⟨S524288, .i32⟩ : BufTy).Contents (Elt F) → (⟨S524288, .i32⟩ : BufTy).Contents (Elt F)),
    StableHlo.ternary main_v77 main_v79 main_v52 main_v80 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v75 main_v81 (broadcastInDim S524288x1 ![0] bcast_S524288_S524288x1_0 : (⟨S524288, .i32⟩ : BufTy).Contents (Elt F) → (⟨S524288x1, .i32⟩ : BufTy).Contents (Elt F)),
    StableHlo.unary main_v80 main_v82 (broadcastInDim S524288x1 ![0] bcast_S524288_S524288x1_0 : (⟨S524288, .i32⟩ : BufTy).Contents (Elt F) → (⟨S524288x1, .i32⟩ : BufTy).Contents (Elt F)),
    StableHlo.binary main_v81 main_v82 main_v83 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg2 main_v83 main_v84 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)) ]

set_option maxHeartbeats 40000000 in
set_option maxRecDepth 65536 in
/-- The printed window is that straight line. -/
theorem part1_eq (d : Dev nD) : main_part1 (F := F) d = seq ops1 := by
  simp only [main_part1, fn_clip.body, seq, bind_assoc, pure_bind] <;> rfl

set_option maxHeartbeats 40000000 in
/-- Every operation of the window touches TensorCore references only. -/
theorem ops1_sub : (ops1 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub ..⟩

set_option maxHeartbeats 40000000 in
/-- Every operation of the window determines what it writes. -/
theorem ops1_fresh : (ops1 : List (HloOp τ sig (Elt F))).Forall fun op => op.fresh = ∅ := by
  simp only [List.Forall]; repeat' constructor

end Cert.ReferenceIdeal.Line

end
-- ==== Proof.RefLine2.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 60 host operations of the program's printed window 2, in order (a call of the clamp function as its six operations
    over that call's buffers). -/
abbrev ops2 : List (HloOp τ sig (Elt F)) :=
  [ StableHlo.nullary main_c_33 (constantI S_ 32 0#32),
    StableHlo.unary main_c_33 main_v85 (broadcastInDim S524288 ![] bcast_S_S524288 : (⟨S_, .i32⟩ : BufTy).Contents (Elt F) → (⟨S524288, .i32⟩ : BufTy).Contents (Elt F)),
    StableHlo.binary main_v56 main_v85 main_v86 (cmpi .slt : (⟨S524288, .i32⟩ : BufTy).Contents (Elt F) → (⟨S524288, .i32⟩ : BufTy).Contents (Elt F) → (⟨S524288, .i1⟩ : BufTy).Contents (Elt F)),
    StableHlo.nullary main_c_34 (constantI S_ 32 128#32),
    StableHlo.unary main_c_34 main_v87 (broadcastInDim S524288 ![] bcast_S_S524288 : (⟨S_, .i32⟩ : BufTy).Contents (Elt F) → (⟨S524288, .i32⟩ : BufTy).Contents (Elt F)),
    StableHlo.binary main_v56 main_v87 main_v88 (addi : (⟨S524288, .i32⟩ : BufTy).Contents (Elt F) → (⟨S524288, .i32⟩ : BufTy).Contents (Elt F) → (⟨S524288, .i32⟩ : BufTy).Contents (Elt F)),
    StableHlo.ternary main_v86 main_v88 main_v56 main_v89 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_35 (constantI S_ 32 0#32),
    StableHlo.unary main_c_35 main_v90 (broadcastInDim S524288 ![] bcast_S_S524288 : (⟨S_, .i32⟩ : BufTy).Contents (Elt F) → (⟨S524288, .i32⟩ : BufTy).Contents (Elt F)),
    StableHlo.binary main_v47 main_v90 main_v91 (cmpi .slt : (⟨S524288, .i32⟩ : BufTy).Contents (Elt F) → (⟨S524288, .i32⟩ : BufTy).Contents (Elt F) → (⟨S524288, .i1⟩ : BufTy).Contents (Elt F)),
    StableHlo.nullary main_c_36 (constantI S_ 32 128#32),
    StableHlo.unary main_c_36 main_v92 (broadcastInDim S524288 ![] bcast_S_S524288 : (⟨S_, .i32⟩ : BufTy).Contents (Elt F) → (⟨S524288, .i32⟩ : BufTy).Contents (Elt F)),
    StableHlo.binary main_v47 main_v92 main_v93 (addi : (⟨S524288, .i32⟩ : BufTy).Contents (Elt F) → (⟨S524288, .i32⟩ : BufTy).Contents (Elt F) → (⟨S524288, .i32⟩ : BufTy).Contents (Elt F)),
    StableHlo.ternary main_v91 main_v93 main_v47 main_v94 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v89 main_v95 (broadcastInDim S524288x1 ![0] bcast_S524288_S524288x1_0 : (⟨S524288, .i32⟩ : BufTy).Contents (Elt F) → (⟨S524288x1, .i32⟩ : BufTy).Contents (Elt F)),
    StableHlo.unary main_v94 main_v96 (broadcastInDim S524288x1 ![0] bcast_S524288_S524288x1_0 : (⟨S524288, .i32⟩ : BufTy).Contents (Elt F) → (⟨S524288x1, .i32⟩ : BufTy).Contents (Elt F)),
    StableHlo.binary main_v95 main_v96 main_v97 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg2 main_v97 main_v98 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    StableHlo.nullary main_c_37 (constantI S_ 32 0#32),
    StableHlo.unary main_c_37 main_v99 (broadcastInDim S524288 ![] bcast_S_S524288 : (⟨S_, .i32⟩ : BufTy).Contents (Elt F) → (⟨S524288, .i32⟩ : BufTy).Contents (Elt F)),
    StableHlo.binary main_v56 main_v99 main_v100 (cmpi .slt : (⟨S524288, .i32⟩ : BufTy).Contents (Elt F) → (⟨S524288, .i32⟩ : BufTy).Contents (Elt F) → (⟨S524288, .i1⟩ : BufTy).Contents (Elt F)),
    StableHlo.nullary main_c_38 (constantI S_ 32 128#32),
    StableHlo.unary main_c_38 main_v101 (broadcastInDim S524288 ![] bcast_S_S524288 : (⟨S_, .i32⟩ : BufTy).Contents (Elt F) → (⟨S524288, .i32⟩ : BufTy).Contents (Elt F)),
    StableHlo.binary main_v56 main_v101 main_v102 (addi : (⟨S524288, .i32⟩ : BufTy).Contents (Elt F) → (⟨S524288, .i32⟩ : BufTy).Contents (Elt F) → (⟨S524288, .i32⟩ : BufTy).Contents (Elt F)),
    StableHlo.ternary main_v100 main_v102 main_v56 main_v103 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_39 (constantI S_ 32 0#32),
    StableHlo.unary main_c_39 main_v104 (broadcastInDim S524288 ![] bcast_S_S524288 : (⟨S_, .i32⟩ : BufTy).Contents (Elt F) → (⟨S524288, .i32⟩ : BufTy).Contents (Elt F)),
    StableHlo.binary main_v52 main_v104 main_v105 (cmpi .slt : (⟨S524288, .i32⟩ : BufTy).Contents (Elt F) → (⟨S524288, .i32⟩ : BufTy).Contents (Elt F) → (⟨S524288, .i1⟩ : BufTy).Contents (Elt F)),
    StableHlo.nullary main_c_40 (constantI S_ 32 128#32),
    StableHlo.unary main_c_40 main_v106 (broadcastInDim S524288 ![] bcast_S_S524288 : (⟨S_, .i32⟩ : BufTy).Contents (Elt F) → (⟨S524288, .i32⟩ : BufTy).Contents (Elt F)),
    StableHlo.binary main_v52 main_v106 main_v107 (addi : (⟨S524288, .i32⟩ : BufTy).Contents (Elt F) → (⟨S524288, .i32⟩ : BufTy).Contents (Elt F) → (⟨S524288, .i32⟩ : BufTy).Contents (Elt F)),
    StableHlo.ternary main_v105 main_v107 main_v52 main_v108 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v103 main_v109 (broadcastInDim S524288x1 ![0] bcast_S524288_S524288x1_0 : (⟨S524288, .i32⟩ : BufTy).Contents (Elt F) → (⟨S524288x1, .i32⟩ : BufTy).Contents (Elt F)),
    StableHlo.unary main_v108 main_v110 (broadcastInDim S524288x1 ![0] bcast_S524288_S524288x1_0 : (⟨S524288, .i32⟩ : BufTy).Contents (Elt F) → (⟨S524288x1, .i32⟩ : BufTy).Contents (Elt F)),
    StableHlo.binary main_v109 main_v110 main_v111 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg2 main_v111 main_v112 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    StableHlo.nullary main_cst_41 (constant S_ .f32 0x3F800000#32),
    StableHlo.unary main_cst_41 main_v113 (broadcastInDim S524288 ![] bcast_S_S524288 : (⟨S_, .f32⟩ : BufTy).Contents (Elt F) → (⟨S524288, .f32⟩ : BufTy).Contents (Elt F)),
    StableHlo.binary main_v113 main_v45 main_v114 (subf : (⟨S524288, .f32⟩ : BufTy).Contents (Elt F) → (⟨S524288, .f32⟩ : BufTy).Contents (Elt F) → (⟨S524288, .f32⟩ : BufTy).Contents (Elt F)),
    StableHlo.unary main_v114 main_v115 (broadcastInDim S1x524288 ![1] bcast_S524288_S1x524288_1 : (⟨S524288, .f32⟩ : BufTy).Contents (Elt F) → (⟨S1x524288, .f32⟩ : BufTy).Contents (Elt F)),
    StableHlo.unary main_v115 main_v116 (broadcastInDim S32x524288 ![0, 1] bcast_S1x524288_S32x524288_0_1 : (⟨S1x524288, .f32⟩ : BufTy).Contents (Elt F) → (⟨S32x524288, .f32⟩ : BufTy).Contents (Elt F)),
    StableHlo.binary main_v70 main_v116 main_v117 (mulf : (⟨S32x524288, .f32⟩ : BufTy).Contents (Elt F) → (⟨S32x524288, .f32⟩ : BufTy).Contents (Elt F) → (⟨S32x524288, .f32⟩ : BufTy).Contents (Elt F)),
    StableHlo.unary main_v45 main_v118 (broadcastInDim S1x524288 ![1] bcast_S524288_S1x524288_1 : (⟨S524288, .f32⟩ : BufTy).Contents (Elt F) → (⟨S1x524288, .f32⟩ : BufTy).Contents (Elt F)),
    StableHlo.unary main_v118 main_v119 (broadcastInDim S32x524288 ![0, 1] bcast_S1x524288_S32x524288_0_1 : (⟨S1x524288, .f32⟩ : BufTy).Contents (Elt F) → (⟨S32x524288, .f32⟩ : BufTy).Contents (Elt F)),
    StableHlo.binary main_v84 main_v119 main_v120 (mulf : (⟨S32x524288, .f32⟩ : BufTy).Contents (Elt F) → (⟨S32x524288, .f32⟩ : BufTy).Contents (Elt F) → (⟨S32x524288, .f32⟩ : BufTy).Contents (Elt F)),
    StableHlo.binary main_v117 main_v120 main_v121 (addf : (⟨S32x524288, .f32⟩ : BufTy).Contents (Elt F) → (⟨S32x524288, .f32⟩ : BufTy).Contents (Elt F) → (⟨S32x524288, .f32⟩ : BufTy).Contents (Elt F)),
    StableHlo.nullary main_cst_42 (constant S_ .f32 0x3F800000#32),
    StableHlo.unary main_cst_42 main_v122 (broadcastInDim S524288 ![] bcast_S_S524288 : (⟨S_, .f32⟩ : BufTy).Contents (Elt F) → (⟨S524288, .f32⟩ : BufTy).Contents (Elt F)),
    StableHlo.binary main_v122 main_v45 main_v123 (subf : (⟨S524288, .f32⟩ : BufTy).Contents (Elt F) → (⟨S524288, .f32⟩ : BufTy).Contents (Elt F) → (⟨S524288, .f32⟩ : BufTy).Contents (Elt F)),
    StableHlo.unary main_v123 main_v124 (broadcastInDim S1x524288 ![1] bcast_S524288_S1x524288_1 : (⟨S524288, .f32⟩ : BufTy).Contents (Elt F) → (⟨S1x524288, .f32⟩ : BufTy).Contents (Elt F)),
    StableHlo.unary main_v124 main_v125 (broadcastInDim S32x524288 ![0, 1] bcast_S1x524288_S32x524288_0_1 : (⟨S1x524288, .f32⟩ : BufTy).Contents (Elt F) → (⟨S32x524288, .f32⟩ : BufTy).Contents (Elt F)),
    StableHlo.binary main_v98 main_v125 main_v126 (mulf : (⟨S32x524288, .f32⟩ : BufTy).Contents (Elt F) → (⟨S32x524288, .f32⟩ : BufTy).Contents (Elt F) → (⟨S32x524288, .f32⟩ : BufTy).Contents (Elt F)),
    StableHlo.unary main_v45 main_v127 (broadcastInDim S1x524288 ![1] bcast_S524288_S1x524288_1 : (⟨S524288, .f32⟩ : BufTy).Contents (Elt F) → (⟨S1x524288, .f32⟩ : BufTy).Contents (Elt F)),
    StableHlo.unary main_v127 main_v128 (broadcastInDim S32x524288 ![0, 1] bcast_S1x524288_S32x524288_0_1 : (⟨S1x524288, .f32⟩ : BufTy).Contents (Elt F) → (⟨S32x524288, .f32⟩ : BufTy).Contents (Elt F)),
    StableHlo.binary main_v112 main_v128 main_v129 (mulf : (⟨S32x524288, .f32⟩ : BufTy).Contents (Elt F) → (⟨S32x524288, .f32⟩ : BufTy).Contents (Elt F) → (⟨S32x524288, .f32⟩ : BufTy).Contents (Elt F)),
    StableHlo.binary main_v126 main_v129 main_v130 (addf : (⟨S32x524288, .f32⟩ : BufTy).Contents (Elt F) → (⟨S32x524288, .f32⟩ : BufTy).Contents (Elt F) → (⟨S32x524288, .f32⟩ : BufTy).Contents (Elt F)),
    StableHlo.nullary main_cst_43 (constant S_ .f32 0x3F800000#32),
    StableHlo.unary main_cst_43 main_v131 (broadcastInDim S524288 ![] bcast_S_S524288 : (⟨S_, .f32⟩ : BufTy).Contents (Elt F) → (⟨S524288, .f32⟩ : BufTy).Contents (Elt F)),
    StableHlo.binary main_v131 main_v46 main_v132 (subf : (⟨S524288, .f32⟩ : BufTy).Contents (Elt F) → (⟨S524288, .f32⟩ : BufTy).Contents (Elt F) → (⟨S524288, .f32⟩ : BufTy).Contents (Elt F)),
    StableHlo.unary main_v132 main_v133 (broadcastInDim S1x524288 ![1] bcast_S524288_S1x524288_1 : (⟨S524288, .f32⟩ : BufTy).Contents (Elt F) → (⟨S1x524288, .f32⟩ : BufTy).Contents (Elt F)) ]

set_option maxHeartbeats 40000000 in
set_option maxRecDepth 65536 in
/-- The printed window is that straight line. -/
theorem part2_eq (d : Dev nD) : main_part2 (F := F) d = seq ops2 := by
  simp only [main_part2, fn_clip.body, seq, bind_assoc, pure_bind] <;> rfl

set_option maxHeartbeats 40000000 in
/-- Every operation of the window touches TensorCore references only. -/
theorem ops2_sub : (ops2 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub ..⟩

set_option maxHeartbeats 40000000 in
/-- Every operation of the window determines what it writes. -/
theorem ops2_fresh : (ops2 : List (HloOp τ sig (Elt F))).Forall fun op => op.fresh = ∅ := by
  simp only [List.Forall]; repeat' constructor

end Cert.ReferenceIdeal.Line

end
-- ==== Proof.RefLine3.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 70 host operations of the program's printed window 3, in order (a call of the clamp function as its six operations
    over that call's buffers). -/
abbrev ops3 : List (HloOp τ sig (Elt F)) :=
  [ StableHlo.unary main_v133 main_v134 (broadcastInDim S32x524288 ![0, 1] bcast_S1x524288_S32x524288_0_1 : (⟨S1x524288, .f32⟩ : BufTy).Contents (Elt F) → (⟨S32x524288, .f32⟩ : BufTy).Contents (Elt F)),
    StableHlo.binary main_v121 main_v134 main_v135 (mulf : (⟨S32x524288, .f32⟩ : BufTy).Contents (Elt F) → (⟨S32x524288, .f32⟩ : BufTy).Contents (Elt F) → (⟨S32x524288, .f32⟩ : BufTy).Contents (Elt F)),
    StableHlo.unary main_v46 main_v136 (broadcastInDim S1x524288 ![1] bcast_S524288_S1x524288_1 : (⟨S524288, .f32⟩ : BufTy).Contents (Elt F) → (⟨S1x524288, .f32⟩ : BufTy).Contents (Elt F)),
    StableHlo.unary main_v136 main_v137 (broadcastInDim S32x524288 ![0, 1] bcast_S1x524288_S32x524288_0_1 : (⟨S1x524288, .f32⟩ : BufTy).Contents (Elt F) → (⟨S32x524288, .f32⟩ : BufTy).Contents (Elt F)),
    StableHlo.binary main_v130 main_v137 main_v138 (mulf : (⟨S32x524288, .f32⟩ : BufTy).Contents (Elt F) → (⟨S32x524288, .f32⟩ : BufTy).Contents (Elt F) → (⟨S32x524288, .f32⟩ : BufTy).Contents (Elt F)),
    StableHlo.binary main_v135 main_v138 main_v139 (addf : (⟨S32x524288, .f32⟩ : BufTy).Contents (Elt F) → (⟨S32x524288, .f32⟩ : BufTy).Contents (Elt F) → (⟨S32x524288, .f32⟩ : BufTy).Contents (Elt F)),
    StableHlo.unary main_v139 main_v140 ((transpose S524288x32 [1, 0] · transposes_S32x524288_S524288x32_1_0) : (⟨S32x524288, .f32⟩ : BufTy).Contents (Elt F) → (⟨S524288x32, .f32⟩ : BufTy).Contents (Elt F)),
    StableHlo.nullary main_c_44 (constantI S_ 32 0#32),
    StableHlo.unary main_c_44 main_v141 (broadcastInDim S2 ![] bcast_S_S2 : (⟨S_, .i32⟩ : BufTy).Contents (Elt F) → (⟨S2, .i32⟩ : BufTy).Contents (Elt F)),
    StableHlo.binary main_c_0 main_v141 main_v142 (cmpi .slt : (⟨S2, .i32⟩ : BufTy).Contents (Elt F) → (⟨S2, .i32⟩ : BufTy).Contents (Elt F) → (⟨S2, .i1⟩ : BufTy).Contents (Elt F)),
    StableHlo.nullary main_c_45 (constantI S_ 32 3#32),
    StableHlo.unary main_c_45 main_v143 (broadcastInDim S2 ![] bcast_S_S2 : (⟨S_, .i32⟩ : BufTy).Contents (Elt F) → (⟨S2, .i32⟩ : BufTy).Contents (Elt F)),
    StableHlo.binary main_c_0 main_v143 main_v144 (addi : (⟨S2, .i32⟩ : BufTy).Contents (Elt F) → (⟨S2, .i32⟩ : BufTy).Contents (Elt F) → (⟨S2, .i32⟩ : BufTy).Contents (Elt F)),
    StableHlo.ternary main_v142 main_v144 main_c_0 main_v145 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v145 main_v146 (broadcastInDim S2x1 ![0] bcast_S2_S2x1_0 : (⟨S2, .i32⟩ : BufTy).Contents (Elt F) → (⟨S2x1, .i32⟩ : BufTy).Contents (Elt F)),
    StableHlo.binary main_v17 main_v146 main_v147 ((fun x i => Host.gather gather_S524288x3_S2x1_S524288x2_0_1_n_n_1_1_5242881 x i) : (⟨S524288x3, .f32⟩ : BufTy).Contents (Elt F) → (⟨S2x1, .i32⟩ : BufTy).Contents (Elt F) → (⟨S524288x2, .f32⟩ : BufTy).Contents (Elt F)),
    StableHlo.unary main_v147 main_v148 ((extractStridedSlice S524288x1 ![0, 0] · slices_S524288x2_S524288x1_0_0) : (⟨S524288x2, .f32⟩ : BufTy).Contents (Elt F) → (⟨S524288x1, .f32⟩ : BufTy).Contents (Elt F)),
    StableHlo.reshape main_v148 main_v149 rfl shapeCasts_S524288x1_S524288,
    StableHlo.nullary main_cst_46 (constant S_ .f32 0x3F800000#32),
    StableHlo.unary main_cst_46 main_v150 (broadcastInDim S524288 ![] bcast_S_S524288 : (⟨S_, .f32⟩ : BufTy).Contents (Elt F) → (⟨S524288, .f32⟩ : BufTy).Contents (Elt F)),
    StableHlo.binary main_v149 main_v150 main_v151 (addf : (⟨S524288, .f32⟩ : BufTy).Contents (Elt F) → (⟨S524288, .f32⟩ : BufTy).Contents (Elt F) → (⟨S524288, .f32⟩ : BufTy).Contents (Elt F)),
    StableHlo.nullary main_cst_47 (constant S_ .f32 0x3F000000#32),
    StableHlo.unary main_cst_47 main_v152 (broadcastInDim S524288 ![] bcast_S_S524288 : (⟨S_, .f32⟩ : BufTy).Contents (Elt F) → (⟨S524288, .f32⟩ : BufTy).Contents (Elt F)),
    StableHlo.binary main_v151 main_v152 main_v153 (mulf : (⟨S524288, .f32⟩ : BufTy).Contents (Elt F) → (⟨S524288, .f32⟩ : BufTy).Contents (Elt F) → (⟨S524288, .f32⟩ : BufTy).Contents (Elt F)),
    StableHlo.nullary main_cst_48 (constant S_ .f32 0x42FE0000#32),
    StableHlo.unary main_cst_48 main_v154 (broadcastInDim S524288 ![] bcast_S_S524288 : (⟨S_, .f32⟩ : BufTy).Contents (Elt F) → (⟨S524288, .f32⟩ : BufTy).Contents (Elt F)),
    StableHlo.binary main_v153 main_v154 main_v155 (mulf : (⟨S524288, .f32⟩ : BufTy).Contents (Elt F) → (⟨S524288, .f32⟩ : BufTy).Contents (Elt F) → (⟨S524288, .f32⟩ : BufTy).Contents (Elt F)),
    StableHlo.nullary main_cst_49 (constant S_ .f32 0x00000000#32),
    StableHlo.nullary main_c_50 (constantI S_ 32 127#32),
    StableHlo.TRef.unary (.of main_cst_49 : StableHlo.TRef sig ⟨S_, .f32⟩) main_call2.v0 id,
    StableHlo.TRef.unary main_call2.v0 main_call2.v1 (broadcastInDim S524288 ![] bcast_S_S524288),
    StableHlo.TRef.binary main_call2.v1 (.of main_v155 : StableHlo.TRef sig ⟨S524288, .f32⟩) main_call2.v2 maximumf,
    StableHlo.TRef.unary (.of main_c_50 : StableHlo.TRef sig ⟨S_, .i32⟩) main_call2.v3 (sitofp .f32),
    StableHlo.TRef.unary main_call2.v3 main_call2.v4 (broadcastInDim S524288 ![] bcast_S_S524288),
    StableHlo.TRef.binary main_call2.v4 main_call2.v2 main_call2.v5 minimumf,
    StableHlo.unary main_v147 main_v157 ((extractStridedSlice S524288x1 ![0, 1] · slices_S524288x2_S524288x1_0_1) : (⟨S524288x2, .f32⟩ : BufTy).Contents (Elt F) → (⟨S524288x1, .f32⟩ : BufTy).Contents (Elt F)),
    StableHlo.reshape main_v157 main_v158 rfl shapeCasts_S524288x1_S524288,
    StableHlo.nullary main_cst_51 (constant S_ .f32 0x3F800000#32),
    StableHlo.unary main_cst_51 main_v159 (broadcastInDim S524288 ![] bcast_S_S524288 : (⟨S_, .f32⟩ : BufTy).Contents (Elt F) → (⟨S524288, .f32⟩ : BufTy).Contents (Elt F)),
    StableHlo.binary main_v158 main_v159 main_v160 (addf : (⟨S524288, .f32⟩ : BufTy).Contents (Elt F) → (⟨S524288, .f32⟩ : BufTy).Contents (Elt F) → (⟨S524288, .f32⟩ : BufTy).Contents (Elt F)),
    StableHlo.nullary main_cst_52 (constant S_ .f32 0x3F000000#32),
    StableHlo.unary main_cst_52 main_v161 (broadcastInDim S524288 ![] bcast_S_S524288 : (⟨S_, .f32⟩ : BufTy).Contents (Elt F) → (⟨S524288, .f32⟩ : BufTy).Contents (Elt F)),
    StableHlo.binary main_v160 main_v161 main_v162 (mulf : (⟨S524288, .f32⟩ : BufTy).Contents (Elt F) → (⟨S524288, .f32⟩ : BufTy).Contents (Elt F) → (⟨S524288, .f32⟩ : BufTy).Contents (Elt F)),
    StableHlo.nullary main_cst_53 (constant S_ .f32 0x42FE0000#32),
    StableHlo.unary main_cst_53 main_v163 (broadcastInDim S524288 ![] bcast_S_S524288 : (⟨S_, .f32⟩ : BufTy).Contents (Elt F) → (⟨S524288, .f32⟩ : BufTy).Contents (Elt F)),
    StableHlo.binary main_v162 main_v163 main_v164 (mulf : (⟨S524288, .f32⟩ : BufTy).Contents (Elt F) → (⟨S524288, .f32⟩ : BufTy).Contents (Elt F) → (⟨S524288, .f32⟩ : BufTy).Contents (Elt F)),
    StableHlo.nullary main_cst_54 (constant S_ .f32 0x00000000#32),
    StableHlo.nullary main_c_55 (constantI S_ 32 127#32),
    StableHlo.TRef.unary (.of main_cst_54 : StableHlo.TRef sig ⟨S_, .f32⟩) main_call3.v0 id,
    StableHlo.TRef.unary main_call3.v0 main_call3.v1 (broadcastInDim S524288 ![] bcast_S_S524288),
    StableHlo.TRef.binary main_call3.v1 (.of main_v164 : StableHlo.TRef sig ⟨S524288, .f32⟩) main_call3.v2 maximumf,
    StableHlo.TRef.unary (.of main_c_55 : StableHlo.TRef sig ⟨S_, .i32⟩) main_call3.v3 (sitofp .f32),
    StableHlo.TRef.unary main_call3.v3 main_call3.v4 (broadcastInDim S524288 ![] bcast_S_S524288),
    StableHlo.TRef.binary main_call3.v4 main_call3.v2 main_call3.v5 minimumf,
    StableHlo.unary main_v156 main_v166 (Host.floor : (⟨S524288, .f32⟩ : BufTy).Contents (Elt F) → (⟨S524288, .f32⟩ : BufTy).Contents (Elt F)),
    StableHlo.unary main_v165 main_v167 (Host.floor : (⟨S524288, .f32⟩ : BufTy).Contents (Elt F) → (⟨S524288, .f32⟩ : BufTy).Contents (Elt F)),
    StableHlo.binary main_v156 main_v166 main_v168 (subf : (⟨S524288, .f32⟩ : BufTy).Contents (Elt F) → (⟨S524288, .f32⟩ : BufTy).Contents (Elt F) → (⟨S524288, .f32⟩ : BufTy).Contents (Elt F)),
    StableHlo.binary main_v165 main_v167 main_v169 (subf : (⟨S524288, .f32⟩ : BufTy).Contents (Elt F) → (⟨S524288, .f32⟩ : BufTy).Contents (Elt F) → (⟨S524288, .f32⟩ : BufTy).Contents (Elt F)),
    StableHlo.unary main_v166 main_v170 (fptosi 32 : (⟨S524288, .f32⟩ : BufTy).Contents (Elt F) → (⟨S524288, .i32⟩ : BufTy).Contents (Elt F)),
    StableHlo.unary main_v167 main_v171 (fptosi 32 : (⟨S524288, .f32⟩ : BufTy).Contents (Elt F) → (⟨S524288, .i32⟩ : BufTy).Contents (Elt F)),
    StableHlo.nullary main_c_56 (constantI S_ 32 1#32),
    StableHlo.unary main_c_56 main_v172 (broadcastInDim S524288 ![] bcast_S_S524288 : (⟨S_, .i32⟩ : BufTy).Contents (Elt F) → (⟨S524288, .i32⟩ : BufTy).Contents (Elt F)),
    StableHlo.binary main_v170 main_v172 main_v173 (addi : (⟨S524288, .i32⟩ : BufTy).Contents (Elt F) → (⟨S524288, .i32⟩ : BufTy).Contents (Elt F) → (⟨S524288, .i32⟩ : BufTy).Contents (Elt F)),
    StableHlo.nullary main_c_57 (constantI S_ 32 127#32),
    StableHlo.unary main_c_57 main_v174 (broadcastInDim S524288 ![] bcast_S_S524288 : (⟨S_, .i32⟩ : BufTy).Contents (Elt F) → (⟨S524288, .i32⟩ : BufTy).Contents (Elt F)),
    StableHlo.binary main_v173 main_v174 main_v175 (minsi : (⟨S524288, .i32⟩ : BufTy).Contents (Elt F) → (⟨S524288, .i32⟩ : BufTy).Contents (Elt F) → (⟨S524288, .i32⟩ : BufTy).Contents (Elt F)),
    StableHlo.nullary main_c_58 (constantI S_ 32 1#32),
    StableHlo.unary main_c_58 main_v176 (broadcastInDim S524288 ![] bcast_S_S524288 : (⟨S_, .i32⟩ : BufTy).Contents (Elt F) → (⟨S524288, .i32⟩ : BufTy).Contents (Elt F)),
    StableHlo.binary main_v171 main_v176 main_v177 (addi : (⟨S524288, .i32⟩ : BufTy).Contents (Elt F) → (⟨S524288, .i32⟩ : BufTy).Contents (Elt F) → (⟨S524288, .i32⟩ : BufTy).Contents (Elt F)),
    StableHlo.nullary main_c_59 (constantI S_ 32 127#32) ]

set_option maxHeartbeats 40000000 in
set_option maxRecDepth 65536 in
/-- The printed window is that straight line. -/
theorem part3_eq (d : Dev nD) : main_part3 (F := F) d = seq ops3 := by
  simp only [main_part3, fn_clip.body, seq, bind_assoc, pure_bind] <;> rfl

set_option maxHeartbeats 40000000 in
/-- Every operation of the window touches TensorCore references only. -/
theorem ops3_sub : (ops3 : List (HloOp τ sig (Elt F))).Forall fun op => op.bufs ⊆ tcRefs τ sig :=
  ⟨StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩

set_option maxHeartbeats 40000000 in
/-- Every operation of the window determines what it writes. -/
theorem ops3_fresh : (ops3 : List (HloOp τ sig (Elt F))).Forall fun op => op.fresh = ∅ := by
  simp only [List.Forall]; repeat' constructor

end Cert.ReferenceIdeal.Line

end
-- ==== Proof.RefLine4.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 60 host operations of the program's printed window 4, in order (a call of the clamp function as its six operations
    over that call's buffers). -/
abbrev ops4 : List (HloOp τ sig (Elt F)) :=
  [ StableHlo.unary main_c_59 main_v178 (broadcastInDim S524288 ![] bcast_S_S524288 : (⟨S_, .i32⟩ : BufTy).Contents (Elt F) → (⟨S524288, .i32⟩ : BufTy).Contents (Elt F)),
    StableHlo.binary main_v177 main_v178 main_v179 (minsi : (⟨S524288, .i32⟩ : BufTy).Contents (Elt F) → (⟨S524288, .i32⟩ : BufTy).Contents (Elt F) → (⟨S524288, .i32⟩ : BufTy).Contents (Elt F)),
    StableHlo.nullary main_c_60 (constantI S_ 32 0#32),
    StableHlo.unary main_c_60 main_v180 (broadcastInDim S524288 ![] bcast_S_S524288 : (⟨S_, .i32⟩ : BufTy).Contents (Elt F) → (⟨S524288, .i32⟩ : BufTy).Contents (Elt F)),
    StableHlo.binary main_v171 main_v180 main_v181 (cmpi .slt : (⟨S524288, .i32⟩ : BufTy).Contents (Elt F) → (⟨S524288, .i32⟩ : BufTy).Contents (Elt F) → (⟨S524288, .i1⟩ : BufTy).Contents (Elt F)),
    StableHlo.nullary main_c_61 (constantI S_ 32 128#32),
    StableHlo.unary main_c_61 main_v182 (broadcastInDim S524288 ![] bcast_S_S524288 : (⟨S_, .i32⟩ : BufTy).Contents (Elt F) → (⟨S524288, .i32⟩ : BufTy).Contents (Elt F)),
    StableHlo.binary main_v171 main_v182 main_v183 (addi : (⟨S524288, .i32⟩ : BufTy).Contents (Elt F) → (⟨S524288, .i32⟩ : BufTy).Contents (Elt F) → (⟨S524288, .i32⟩ : BufTy).Contents (Elt F)),
    StableHlo.ternary main_v181 main_v183 main_v171 main_v184 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_62 (constantI S_ 32 0#32),
    StableHlo.unary main_c_62 main_v185 (broadcastInDim S524288 ![] bcast_S_S524288 : (⟨S_, .i32⟩ : BufTy).Contents (Elt F) → (⟨S524288, .i32⟩ : BufTy).Contents (Elt F)),
    StableHlo.binary main_v170 main_v185 main_v186 (cmpi .slt : (⟨S524288, .i32⟩ : BufTy).Contents (Elt F) → (⟨S524288, .i32⟩ : BufTy).Contents (Elt F) → (⟨S524288, .i1⟩ : BufTy).Contents (Elt F)),
    StableHlo.nullary main_c_63 (constantI S_ 32 128#32),
    StableHlo.unary main_c_63 main_v187 (broadcastInDim S524288 ![] bcast_S_S524288 : (⟨S_, .i32⟩ : BufTy).Contents (Elt F) → (⟨S524288, .i32⟩ : BufTy).Contents (Elt F)),
    StableHlo.binary main_v170 main_v187 main_v188 (addi : (⟨S524288, .i32⟩ : BufTy).Contents (Elt F) → (⟨S524288, .i32⟩ : BufTy).Contents (Elt F) → (⟨S524288, .i32⟩ : BufTy).Contents (Elt F)),
    StableHlo.ternary main_v186 main_v188 main_v170 main_v189 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v184 main_v190 (broadcastInDim S524288x1 ![0] bcast_S524288_S524288x1_0 : (⟨S524288, .i32⟩ : BufTy).Contents (Elt F) → (⟨S524288x1, .i32⟩ : BufTy).Contents (Elt F)),
    StableHlo.unary main_v189 main_v191 (broadcastInDim S524288x1 ![0] bcast_S524288_S524288x1_0 : (⟨S524288, .i32⟩ : BufTy).Contents (Elt F) → (⟨S524288x1, .i32⟩ : BufTy).Contents (Elt F)),
    StableHlo.binary main_v190 main_v191 main_v192 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg3 main_v192 main_v193 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    StableHlo.nullary main_c_64 (constantI S_ 32 0#32),
    StableHlo.unary main_c_64 main_v194 (broadcastInDim S524288 ![] bcast_S_S524288 : (⟨S_, .i32⟩ : BufTy).Contents (Elt F) → (⟨S524288, .i32⟩ : BufTy).Contents (Elt F)),
    StableHlo.binary main_v171 main_v194 main_v195 (cmpi .slt : (⟨S524288, .i32⟩ : BufTy).Contents (Elt F) → (⟨S524288, .i32⟩ : BufTy).Contents (Elt F) → (⟨S524288, .i1⟩ : BufTy).Contents (Elt F)),
    StableHlo.nullary main_c_65 (constantI S_ 32 128#32),
    StableHlo.unary main_c_65 main_v196 (broadcastInDim S524288 ![] bcast_S_S524288 : (⟨S_, .i32⟩ : BufTy).Contents (Elt F) → (⟨S524288, .i32⟩ : BufTy).Contents (Elt F)),
    StableHlo.binary main_v171 main_v196 main_v197 (addi : (⟨S524288, .i32⟩ : BufTy).Contents (Elt F) → (⟨S524288, .i32⟩ : BufTy).Contents (Elt F) → (⟨S524288, .i32⟩ : BufTy).Contents (Elt F)),
    StableHlo.ternary main_v195 main_v197 main_v171 main_v198 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_66 (constantI S_ 32 0#32),
    StableHlo.unary main_c_66 main_v199 (broadcastInDim S524288 ![] bcast_S_S524288 : (⟨S_, .i32⟩ : BufTy).Contents (Elt F) → (⟨S524288, .i32⟩ : BufTy).Contents (Elt F)),
    StableHlo.binary main_v175 main_v199 main_v200 (cmpi .slt : (⟨S524288, .i32⟩ : BufTy).Contents (Elt F) → (⟨S524288, .i32⟩ : BufTy).Contents (Elt F) → (⟨S524288, .i1⟩ : BufTy).Contents (Elt F)),
    StableHlo.nullary main_c_67 (constantI S_ 32 128#32),
    StableHlo.unary main_c_67 main_v201 (broadcastInDim S524288 ![] bcast_S_S524288 : (⟨S_, .i32⟩ : BufTy).Contents (Elt F) → (⟨S524288, .i32⟩ : BufTy).Contents (Elt F)),
    StableHlo.binary main_v175 main_v201 main_v202 (addi : (⟨S524288, .i32⟩ : BufTy).Contents (Elt F) → (⟨S524288, .i32⟩ : BufTy).Contents (Elt F) → (⟨S524288, .i32⟩ : BufTy).Contents (Elt F)),
    StableHlo.ternary main_v200 main_v202 main_v175 main_v203 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v198 main_v204 (broadcastInDim S524288x1 ![0] bcast_S524288_S524288x1_0 : (⟨S524288, .i32⟩ : BufTy).Contents (Elt F) → (⟨S524288x1, .i32⟩ : BufTy).Contents (Elt F)),
    StableHlo.unary main_v203 main_v205 (broadcastInDim S524288x1 ![0] bcast_S524288_S524288x1_0 : (⟨S524288, .i32⟩ : BufTy).Contents (Elt F) → (⟨S524288x1, .i32⟩ : BufTy).Contents (Elt F)),
    StableHlo.binary main_v204 main_v205 main_v206 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg3 main_v206 main_v207 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    StableHlo.nullary main_c_68 (constantI S_ 32 0#32),
    StableHlo.unary main_c_68 main_v208 (broadcastInDim S524288 ![] bcast_S_S524288 : (⟨S_, .i32⟩ : BufTy).Contents (Elt F) → (⟨S524288, .i32⟩ : BufTy).Contents (Elt F)),
    StableHlo.binary main_v179 main_v208 main_v209 (cmpi .slt : (⟨S524288, .i32⟩ : BufTy).Contents (Elt F) → (⟨S524288, .i32⟩ : BufTy).Contents (Elt F) → (⟨S524288, .i1⟩ : BufTy).Contents (Elt F)),
    StableHlo.nullary main_c_69 (constantI S_ 32 128#32),
    StableHlo.unary main_c_69 main_v210 (broadcastInDim S524288 ![] bcast_S_S524288 : (⟨S_, .i32⟩ : BufTy).Contents (Elt F) → (⟨S524288, .i32⟩ : BufTy).Contents (Elt F)),
    StableHlo.binary main_v179 main_v210 main_v211 (addi : (⟨S524288, .i32⟩ : BufTy).Contents (Elt F) → (⟨S524288, .i32⟩ : BufTy).Contents (Elt F) → (⟨S524288, .i32⟩ : BufTy).Contents (Elt F)),
    StableHlo.ternary main_v209 main_v211 main_v179 main_v212 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_70 (constantI S_ 32 0#32),
    StableHlo.unary main_c_70 main_v213 (broadcastInDim S524288 ![] bcast_S_S524288 : (⟨S_, .i32⟩ : BufTy).Contents (Elt F) → (⟨S524288, .i32⟩ : BufTy).Contents (Elt F)),
    StableHlo.binary main_v170 main_v213 main_v214 (cmpi .slt : (⟨S524288, .i32⟩ : BufTy).Contents (Elt F) → (⟨S524288, .i32⟩ : BufTy).Contents (Elt F) → (⟨S524288, .i1⟩ : BufTy).Contents (Elt F)),
    StableHlo.nullary main_c_71 (constantI S_ 32 128#32),
    StableHlo.unary main_c_71 main_v215 (broadcastInDim S524288 ![] bcast_S_S524288 : (⟨S_, .i32⟩ : BufTy).Contents (Elt F) → (⟨S524288, .i32⟩ : BufTy).Contents (Elt F)),
    StableHlo.binary main_v170 main_v215 main_v216 (addi : (⟨S524288, .i32⟩ : BufTy).Contents (Elt F) → (⟨S524288, .i32⟩ : BufTy).Contents (Elt F) → (⟨S524288, .i32⟩ : BufTy).Contents (Elt F)),
    StableHlo.ternary main_v214 main_v216 main_v170 main_v217 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v212 main_v218 (broadcastInDim S524288x1 ![0] bcast_S524288_S524288x1_0 : (⟨S524288, .i32⟩ : BufTy).Contents (Elt F) → (⟨S524288x1, .i32⟩ : BufTy).Contents (Elt F)),
    StableHlo.unary main_v217 main_v219 (broadcastInDim S524288x1 ![0] bcast_S524288_S524288x1_0 : (⟨S524288, .i32⟩ : BufTy).Contents (Elt F) → (⟨S524288x1, .i32⟩ : BufTy).Contents (Elt F)),
    StableHlo.binary main_v218 main_v219 main_v220 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg3 main_v220 main_v221 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    StableHlo.nullary main_c_72 (constantI S_ 32 0#32),
    StableHlo.unary main_c_72 main_v222 (broadcastInDim S524288 ![] bcast_S_S524288 : (⟨S_, .i32⟩ : BufTy).Contents (Elt F) → (⟨S524288, .i32⟩ : BufTy).Contents (Elt F)),
    StableHlo.binary main_v179 main_v222 main_v223 (cmpi .slt : (⟨S524288, .i32⟩ : BufTy).Contents (Elt F) → (⟨S524288, .i32⟩ : BufTy).Contents (Elt F) → (⟨S524288, .i1⟩ : BufTy).Contents (Elt F)),
    StableHlo.nullary main_c_73 (constantI S_ 32 128#32) ]

set_option maxHeartbeats 40000000 in
set_option maxRecDepth 65536 in
/-- The printed window is that straight line. -/
theorem part4_eq (d : Dev nD) : main_part4 (F := F) d = seq ops4 := by
  simp only [main_part4, fn_clip.body, seq, bind_assoc, pure_bind] <;> rfl

set_option maxHeartbeats 40000000 in
/-- Every operation of the window touches TensorCore references only. -/
theorem ops4_sub : (ops4 : List (HloOp τ sig (Elt F))).Forall fun op => op.bufs ⊆ tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub ..⟩

set_option maxHeartbeats 40000000 in
/-- Every operation of the window determines what it writes. -/
theorem ops4_fresh : (ops4 : List (HloOp τ sig (Elt F))).Forall fun op => op.fresh = ∅ := by
  simp only [List.Forall]; repeat' constructor

end Cert.ReferenceIdeal.Line

end
-- ==== Proof.RefLine5.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 60 host operations of the program's printed window 5, in order (a call of the clamp function as its six operations
    over that call's buffers). -/
abbrev ops5 : List (HloOp τ sig (Elt F)) :=
  [ StableHlo.unary main_c_73 main_v224 (broadcastInDim S524288 ![] bcast_S_S524288 : (⟨S_, .i32⟩ : BufTy).Contents (Elt F) → (⟨S524288, .i32⟩ : BufTy).Contents (Elt F)),
    StableHlo.binary main_v179 main_v224 main_v225 (addi : (⟨S524288, .i32⟩ : BufTy).Contents (Elt F) → (⟨S524288, .i32⟩ : BufTy).Contents (Elt F) → (⟨S524288, .i32⟩ : BufTy).Contents (Elt F)),
    StableHlo.ternary main_v223 main_v225 main_v179 main_v226 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_74 (constantI S_ 32 0#32),
    StableHlo.unary main_c_74 main_v227 (broadcastInDim S524288 ![] bcast_S_S524288 : (⟨S_, .i32⟩ : BufTy).Contents (Elt F) → (⟨S524288, .i32⟩ : BufTy).Contents (Elt F)),
    StableHlo.binary main_v175 main_v227 main_v228 (cmpi .slt : (⟨S524288, .i32⟩ : BufTy).Contents (Elt F) → (⟨S524288, .i32⟩ : BufTy).Contents (Elt F) → (⟨S524288, .i1⟩ : BufTy).Contents (Elt F)),
    StableHlo.nullary main_c_75 (constantI S_ 32 128#32),
    StableHlo.unary main_c_75 main_v229 (broadcastInDim S524288 ![] bcast_S_S524288 : (⟨S_, .i32⟩ : BufTy).Contents (Elt F) → (⟨S524288, .i32⟩ : BufTy).Contents (Elt F)),
    StableHlo.binary main_v175 main_v229 main_v230 (addi : (⟨S524288, .i32⟩ : BufTy).Contents (Elt F) → (⟨S524288, .i32⟩ : BufTy).Contents (Elt F) → (⟨S524288, .i32⟩ : BufTy).Contents (Elt F)),
    StableHlo.ternary main_v228 main_v230 main_v175 main_v231 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v226 main_v232 (broadcastInDim S524288x1 ![0] bcast_S524288_S524288x1_0 : (⟨S524288, .i32⟩ : BufTy).Contents (Elt F) → (⟨S524288x1, .i32⟩ : BufTy).Contents (Elt F)),
    StableHlo.unary main_v231 main_v233 (broadcastInDim S524288x1 ![0] bcast_S524288_S524288x1_0 : (⟨S524288, .i32⟩ : BufTy).Contents (Elt F) → (⟨S524288x1, .i32⟩ : BufTy).Contents (Elt F)),
    StableHlo.binary main_v232 main_v233 main_v234 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg3 main_v234 main_v235 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    StableHlo.nullary main_cst_76 (constant S_ .f32 0x3F800000#32),
    StableHlo.unary main_cst_76 main_v236 (broadcastInDim S524288 ![] bcast_S_S524288 : (⟨S_, .f32⟩ : BufTy).Contents (Elt F) → (⟨S524288, .f32⟩ : BufTy).Contents (Elt F)),
    StableHlo.binary main_v236 main_v168 main_v237 (subf : (⟨S524288, .f32⟩ : BufTy).Contents (Elt F) → (⟨S524288, .f32⟩ : BufTy).Contents (Elt F) → (⟨S524288, .f32⟩ : BufTy).Contents (Elt F)),
    StableHlo.unary main_v237 main_v238 (broadcastInDim S1x524288 ![1] bcast_S524288_S1x524288_1 : (⟨S524288, .f32⟩ : BufTy).Contents (Elt F) → (⟨S1x524288, .f32⟩ : BufTy).Contents (Elt F)),
    StableHlo.unary main_v238 main_v239 (broadcastInDim S32x524288 ![0, 1] bcast_S1x524288_S32x524288_0_1 : (⟨S1x524288, .f32⟩ : BufTy).Contents (Elt F) → (⟨S32x524288, .f32⟩ : BufTy).Contents (Elt F)),
    StableHlo.binary main_v193 main_v239 main_v240 (mulf : (⟨S32x524288, .f32⟩ : BufTy).Contents (Elt F) → (⟨S32x524288, .f32⟩ : BufTy).Contents (Elt F) → (⟨S32x524288, .f32⟩ : BufTy).Contents (Elt F)),
    StableHlo.unary main_v168 main_v241 (broadcastInDim S1x524288 ![1] bcast_S524288_S1x524288_1 : (⟨S524288, .f32⟩ : BufTy).Contents (Elt F) → (⟨S1x524288, .f32⟩ : BufTy).Contents (Elt F)),
    StableHlo.unary main_v241 main_v242 (broadcastInDim S32x524288 ![0, 1] bcast_S1x524288_S32x524288_0_1 : (⟨S1x524288, .f32⟩ : BufTy).Contents (Elt F) → (⟨S32x524288, .f32⟩ : BufTy).Contents (Elt F)),
    StableHlo.binary main_v207 main_v242 main_v243 (mulf : (⟨S32x524288, .f32⟩ : BufTy).Contents (Elt F) → (⟨S32x524288, .f32⟩ : BufTy).Contents (Elt F) → (⟨S32x524288, .f32⟩ : BufTy).Contents (Elt F)),
    StableHlo.binary main_v240 main_v243 main_v244 (addf : (⟨S32x524288, .f32⟩ : BufTy).Contents (Elt F) → (⟨S32x524288, .f32⟩ : BufTy).Contents (Elt F) → (⟨S32x524288, .f32⟩ : BufTy).Contents (Elt F)),
    StableHlo.nullary main_cst_77 (constant S_ .f32 0x3F800000#32),
    StableHlo.unary main_cst_77 main_v245 (broadcastInDim S524288 ![] bcast_S_S524288 : (⟨S_, .f32⟩ : BufTy).Contents (Elt F) → (⟨S524288, .f32⟩ : BufTy).Contents (Elt F)),
    StableHlo.binary main_v245 main_v168 main_v246 (subf : (⟨S524288, .f32⟩ : BufTy).Contents (Elt F) → (⟨S524288, .f32⟩ : BufTy).Contents (Elt F) → (⟨S524288, .f32⟩ : BufTy).Contents (Elt F)),
    StableHlo.unary main_v246 main_v247 (broadcastInDim S1x524288 ![1] bcast_S524288_S1x524288_1 : (⟨S524288, .f32⟩ : BufTy).Contents (Elt F) → (⟨S1x524288, .f32⟩ : BufTy).Contents (Elt F)),
    StableHlo.unary main_v247 main_v248 (broadcastInDim S32x524288 ![0, 1] bcast_S1x524288_S32x524288_0_1 : (⟨S1x524288, .f32⟩ : BufTy).Contents (Elt F) → (⟨S32x524288, .f32⟩ : BufTy).Contents (Elt F)),
    StableHlo.binary main_v221 main_v248 main_v249 (mulf : (⟨S32x524288, .f32⟩ : BufTy).Contents (Elt F) → (⟨S32x524288, .f32⟩ : BufTy).Contents (Elt F) → (⟨S32x524288, .f32⟩ : BufTy).Contents (Elt F)),
    StableHlo.unary main_v168 main_v250 (broadcastInDim S1x524288 ![1] bcast_S524288_S1x524288_1 : (⟨S524288, .f32⟩ : BufTy).Contents (Elt F) → (⟨S1x524288, .f32⟩ : BufTy).Contents (Elt F)),
    StableHlo.unary main_v250 main_v251 (broadcastInDim S32x524288 ![0, 1] bcast_S1x524288_S32x524288_0_1 : (⟨S1x524288, .f32⟩ : BufTy).Contents (Elt F) → (⟨S32x524288, .f32⟩ : BufTy).Contents (Elt F)),
    StableHlo.binary main_v235 main_v251 main_v252 (mulf : (⟨S32x524288, .f32⟩ : BufTy).Contents (Elt F) → (⟨S32x524288, .f32⟩ : BufTy).Contents (Elt F) → (⟨S32x524288, .f32⟩ : BufTy).Contents (Elt F)),
    StableHlo.binary main_v249 main_v252 main_v253 (addf : (⟨S32x524288, .f32⟩ : BufTy).Contents (Elt F) → (⟨S32x524288, .f32⟩ : BufTy).Contents (Elt F) → (⟨S32x524288, .f32⟩ : BufTy).Contents (Elt F)),
    StableHlo.nullary main_cst_78 (constant S_ .f32 0x3F800000#32),
    StableHlo.unary main_cst_78 main_v254 (broadcastInDim S524288 ![] bcast_S_S524288 : (⟨S_, .f32⟩ : BufTy).Contents (Elt F) → (⟨S524288, .f32⟩ : BufTy).Contents (Elt F)),
    StableHlo.binary main_v254 main_v169 main_v255 (subf : (⟨S524288, .f32⟩ : BufTy).Contents (Elt F) → (⟨S524288, .f32⟩ : BufTy).Contents (Elt F) → (⟨S524288, .f32⟩ : BufTy).Contents (Elt F)),
    StableHlo.unary main_v255 main_v256 (broadcastInDim S1x524288 ![1] bcast_S524288_S1x524288_1 : (⟨S524288, .f32⟩ : BufTy).Contents (Elt F) → (⟨S1x524288, .f32⟩ : BufTy).Contents (Elt F)),
    StableHlo.unary main_v256 main_v257 (broadcastInDim S32x524288 ![0, 1] bcast_S1x524288_S32x524288_0_1 : (⟨S1x524288, .f32⟩ : BufTy).Contents (Elt F) → (⟨S32x524288, .f32⟩ : BufTy).Contents (Elt F)),
    StableHlo.binary main_v244 main_v257 main_v258 (mulf : (⟨S32x524288, .f32⟩ : BufTy).Contents (Elt F) → (⟨S32x524288, .f32⟩ : BufTy).Contents (Elt F) → (⟨S32x524288, .f32⟩ : BufTy).Contents (Elt F)),
    StableHlo.unary main_v169 main_v259 (broadcastInDim S1x524288 ![1] bcast_S524288_S1x524288_1 : (⟨S524288, .f32⟩ : BufTy).Contents (Elt F) → (⟨S1x524288, .f32⟩ : BufTy).Contents (Elt F)),
    StableHlo.unary main_v259 main_v260 (broadcastInDim S32x524288 ![0, 1] bcast_S1x524288_S32x524288_0_1 : (⟨S1x524288, .f32⟩ : BufTy).Contents (Elt F) → (⟨S32x524288, .f32⟩ : BufTy).Contents (Elt F)),
    StableHlo.binary main_v253 main_v260 main_v261 (mulf : (⟨S32x524288, .f32⟩ : BufTy).Contents (Elt F) → (⟨S32x524288, .f32⟩ : BufTy).Contents (Elt F) → (⟨S32x524288, .f32⟩ : BufTy).Contents (Elt F)),
    StableHlo.binary main_v258 main_v261 main_v262 (addf : (⟨S32x524288, .f32⟩ : BufTy).Contents (Elt F) → (⟨S32x524288, .f32⟩ : BufTy).Contents (Elt F) → (⟨S32x524288, .f32⟩ : BufTy).Contents (Elt F)),
    StableHlo.unary main_v262 main_v263 ((transpose S524288x32 [1, 0] · transposes_S32x524288_S524288x32_1_0) : (⟨S32x524288, .f32⟩ : BufTy).Contents (Elt F) → (⟨S524288x32, .f32⟩ : BufTy).Contents (Elt F)),
    StableHlo.nullary main_c_79 (constantI S_ 32 0#32),
    StableHlo.unary main_c_79 main_v264 (broadcastInDim S2 ![] bcast_S_S2 : (⟨S_, .i32⟩ : BufTy).Contents (Elt F) → (⟨S2, .i32⟩ : BufTy).Contents (Elt F)),
    StableHlo.binary main_c_1 main_v264 main_v265 (cmpi .slt : (⟨S2, .i32⟩ : BufTy).Contents (Elt F) → (⟨S2, .i32⟩ : BufTy).Contents (Elt F) → (⟨S2, .i1⟩ : BufTy).Contents (Elt F)),
    StableHlo.nullary main_c_80 (constantI S_ 32 3#32),
    StableHlo.unary main_c_80 main_v266 (broadcastInDim S2 ![] bcast_S_S2 : (⟨S_, .i32⟩ : BufTy).Contents (Elt F) → (⟨S2, .i32⟩ : BufTy).Contents (Elt F)),
    StableHlo.binary main_c_1 main_v266 main_v267 (addi : (⟨S2, .i32⟩ : BufTy).Contents (Elt F) → (⟨S2, .i32⟩ : BufTy).Contents (Elt F) → (⟨S2, .i32⟩ : BufTy).Contents (Elt F)),
    StableHlo.ternary main_v265 main_v267 main_c_1 main_v268 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v268 main_v269 (broadcastInDim S2x1 ![0] bcast_S2_S2x1_0 : (⟨S2, .i32⟩ : BufTy).Contents (Elt F) → (⟨S2x1, .i32⟩ : BufTy).Contents (Elt F)),
    StableHlo.binary main_v17 main_v269 main_v270 ((fun x i => Host.gather gather_S524288x3_S2x1_S524288x2_0_1_n_n_1_1_5242881 x i) : (⟨S524288x3, .f32⟩ : BufTy).Contents (Elt F) → (⟨S2x1, .i32⟩ : BufTy).Contents (Elt F) → (⟨S524288x2, .f32⟩ : BufTy).Contents (Elt F)),
    StableHlo.unary main_v270 main_v271 ((extractStridedSlice S524288x1 ![0, 0] · slices_S524288x2_S524288x1_0_0) : (⟨S524288x2, .f32⟩ : BufTy).Contents (Elt F) → (⟨S524288x1, .f32⟩ : BufTy).Contents (Elt F)),
    StableHlo.reshape main_v271 main_v272 rfl shapeCasts_S524288x1_S524288,
    StableHlo.nullary main_cst_81 (constant S_ .f32 0x3F800000#32),
    StableHlo.unary main_cst_81 main_v273 (broadcastInDim S524288 ![] bcast_S_S524288 : (⟨S_, .f32⟩ : BufTy).Contents (Elt F) → (⟨S524288, .f32⟩ : BufTy).Contents (Elt F)),
    StableHlo.binary main_v272 main_v273 main_v274 (addf : (⟨S524288, .f32⟩ : BufTy).Contents (Elt F) → (⟨S524288, .f32⟩ : BufTy).Contents (Elt F) → (⟨S524288, .f32⟩ : BufTy).Contents (Elt F)),
    StableHlo.nullary main_cst_82 (constant S_ .f32 0x3F000000#32) ]

set_option maxHeartbeats 40000000 in
set_option maxRecDepth 65536 in
/-- The printed window is that straight line. -/
theorem part5_eq (d : Dev nD) : main_part5 (F := F) d = seq ops5 := by
  simp only [main_part5, fn_clip.body, seq, bind_assoc, pure_bind] <;> rfl

set_option maxHeartbeats 40000000 in
/-- Every operation of the window touches TensorCore references only. -/
theorem ops5_sub : (ops5 : List (HloOp τ sig (Elt F))).Forall fun op => op.bufs ⊆ tcRefs τ sig :=
  ⟨StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub ..⟩

set_option maxHeartbeats 40000000 in
/-- Every operation of the window determines what it writes. -/
theorem ops5_fresh : (ops5 : List (HloOp τ sig (Elt F))).Forall fun op => op.fresh = ∅ := by
  simp only [List.Forall]; repeat' constructor

end Cert.ReferenceIdeal.Line

end
-- ==== Proof.RefLine6.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 70 host operations of the program's printed window 6, in order (a call of the clamp function as its six operations
    over that call's buffers). -/
abbrev ops6 : List (HloOp τ sig (Elt F)) :=
  [ StableHlo.unary main_cst_82 main_v275 (broadcastInDim S524288 ![] bcast_S_S524288 : (⟨S_, .f32⟩ : BufTy).Contents (Elt F) → (⟨S524288, .f32⟩ : BufTy).Contents (Elt F)),
    StableHlo.binary main_v274 main_v275 main_v276 (mulf : (⟨S524288, .f32⟩ : BufTy).Contents (Elt F) → (⟨S524288, .f32⟩ : BufTy).Contents (Elt F) → (⟨S524288, .f32⟩ : BufTy).Contents (Elt F)),
    StableHlo.nullary main_cst_83 (constant S_ .f32 0x42FE0000#32),
    StableHlo.unary main_cst_83 main_v277 (broadcastInDim S524288 ![] bcast_S_S524288 : (⟨S_, .f32⟩ : BufTy).Contents (Elt F) → (⟨S524288, .f32⟩ : BufTy).Contents (Elt F)),
    StableHlo.binary main_v276 main_v277 main_v278 (mulf : (⟨S524288, .f32⟩ : BufTy).Contents (Elt F) → (⟨S524288, .f32⟩ : BufTy).Contents (Elt F) → (⟨S524288, .f32⟩ : BufTy).Contents (Elt F)),
    StableHlo.nullary main_cst_84 (constant S_ .f32 0x00000000#32),
    StableHlo.nullary main_c_85 (constantI S_ 32 127#32),
    StableHlo.TRef.unary (.of main_cst_84 : StableHlo.TRef sig ⟨S_, .f32⟩) main_call4.v0 id,
    StableHlo.TRef.unary main_call4.v0 main_call4.v1 (broadcastInDim S524288 ![] bcast_S_S524288),
    StableHlo.TRef.binary main_call4.v1 (.of main_v278 : StableHlo.TRef sig ⟨S524288, .f32⟩) main_call4.v2 maximumf,
    StableHlo.TRef.unary (.of main_c_85 : StableHlo.TRef sig ⟨S_, .i32⟩) main_call4.v3 (sitofp .f32),
    StableHlo.TRef.unary main_call4.v3 main_call4.v4 (broadcastInDim S524288 ![] bcast_S_S524288),
    StableHlo.TRef.binary main_call4.v4 main_call4.v2 main_call4.v5 minimumf,
    StableHlo.unary main_v270 main_v280 ((extractStridedSlice S524288x1 ![0, 1] · slices_S524288x2_S524288x1_0_1) : (⟨S524288x2, .f32⟩ : BufTy).Contents (Elt F) → (⟨S524288x1, .f32⟩ : BufTy).Contents (Elt F)),
    StableHlo.reshape main_v280 main_v281 rfl shapeCasts_S524288x1_S524288,
    StableHlo.nullary main_cst_86 (constant S_ .f32 0x3F800000#32),
    StableHlo.unary main_cst_86 main_v282 (broadcastInDim S524288 ![] bcast_S_S524288 : (⟨S_, .f32⟩ : BufTy).Contents (Elt F) → (⟨S524288, .f32⟩ : BufTy).Contents (Elt F)),
    StableHlo.binary main_v281 main_v282 main_v283 (addf : (⟨S524288, .f32⟩ : BufTy).Contents (Elt F) → (⟨S524288, .f32⟩ : BufTy).Contents (Elt F) → (⟨S524288, .f32⟩ : BufTy).Contents (Elt F)),
    StableHlo.nullary main_cst_87 (constant S_ .f32 0x3F000000#32),
    StableHlo.unary main_cst_87 main_v284 (broadcastInDim S524288 ![] bcast_S_S524288 : (⟨S_, .f32⟩ : BufTy).Contents (Elt F) → (⟨S524288, .f32⟩ : BufTy).Contents (Elt F)),
    StableHlo.binary main_v283 main_v284 main_v285 (mulf : (⟨S524288, .f32⟩ : BufTy).Contents (Elt F) → (⟨S524288, .f32⟩ : BufTy).Contents (Elt F) → (⟨S524288, .f32⟩ : BufTy).Contents (Elt F)),
    StableHlo.nullary main_cst_88 (constant S_ .f32 0x42FE0000#32),
    StableHlo.unary main_cst_88 main_v286 (broadcastInDim S524288 ![] bcast_S_S524288 : (⟨S_, .f32⟩ : BufTy).Contents (Elt F) → (⟨S524288, .f32⟩ : BufTy).Contents (Elt F)),
    StableHlo.binary main_v285 main_v286 main_v287 (mulf : (⟨S524288, .f32⟩ : BufTy).Contents (Elt F) → (⟨S524288, .f32⟩ : BufTy).Contents (Elt F) → (⟨S524288, .f32⟩ : BufTy).Contents (Elt F)),
    StableHlo.nullary main_cst_89 (constant S_ .f32 0x00000000#32),
    StableHlo.nullary main_c_90 (constantI S_ 32 127#32),
    StableHlo.TRef.unary (.of main_cst_89 : StableHlo.TRef sig ⟨S_, .f32⟩) main_call5.v0 id,
    StableHlo.TRef.unary main_call5.v0 main_call5.v1 (broadcastInDim S524288 ![] bcast_S_S524288),
    StableHlo.TRef.binary main_call5.v1 (.of main_v287 : StableHlo.TRef sig ⟨S524288, .f32⟩) main_call5.v2 maximumf,
    StableHlo.TRef.unary (.of main_c_90 : StableHlo.TRef sig ⟨S_, .i32⟩) main_call5.v3 (sitofp .f32),
    StableHlo.TRef.unary main_call5.v3 main_call5.v4 (broadcastInDim S524288 ![] bcast_S_S524288),
    StableHlo.TRef.binary main_call5.v4 main_call5.v2 main_call5.v5 minimumf,
    StableHlo.unary main_v279 main_v289 (Host.floor : (⟨S524288, .f32⟩ : BufTy).Contents (Elt F) → (⟨S524288, .f32⟩ : BufTy).Contents (Elt F)),
    StableHlo.unary main_v288 main_v290 (Host.floor : (⟨S524288, .f32⟩ : BufTy).Contents (Elt F) → (⟨S524288, .f32⟩ : BufTy).Contents (Elt F)),
    StableHlo.binary main_v279 main_v289 main_v291 (subf : (⟨S524288, .f32⟩ : BufTy).Contents (Elt F) → (⟨S524288, .f32⟩ : BufTy).Contents (Elt F) → (⟨S524288, .f32⟩ : BufTy).Contents (Elt F)),
    StableHlo.binary main_v288 main_v290 main_v292 (subf : (⟨S524288, .f32⟩ : BufTy).Contents (Elt F) → (⟨S524288, .f32⟩ : BufTy).Contents (Elt F) → (⟨S524288, .f32⟩ : BufTy).Contents (Elt F)),
    StableHlo.unary main_v289 main_v293 (fptosi 32 : (⟨S524288, .f32⟩ : BufTy).Contents (Elt F) → (⟨S524288, .i32⟩ : BufTy).Contents (Elt F)),
    StableHlo.unary main_v290 main_v294 (fptosi 32 : (⟨S524288, .f32⟩ : BufTy).Contents (Elt F) → (⟨S524288, .i32⟩ : BufTy).Contents (Elt F)),
    StableHlo.nullary main_c_91 (constantI S_ 32 1#32),
    StableHlo.unary main_c_91 main_v295 (broadcastInDim S524288 ![] bcast_S_S524288 : (⟨S_, .i32⟩ : BufTy).Contents (Elt F) → (⟨S524288, .i32⟩ : BufTy).Contents (Elt F)),
    StableHlo.binary main_v293 main_v295 main_v296 (addi : (⟨S524288, .i32⟩ : BufTy).Contents (Elt F) → (⟨S524288, .i32⟩ : BufTy).Contents (Elt F) → (⟨S524288, .i32⟩ : BufTy).Contents (Elt F)),
    StableHlo.nullary main_c_92 (constantI S_ 32 127#32),
    StableHlo.unary main_c_92 main_v297 (broadcastInDim S524288 ![] bcast_S_S524288 : (⟨S_, .i32⟩ : BufTy).Contents (Elt F) → (⟨S524288, .i32⟩ : BufTy).Contents (Elt F)),
    StableHlo.binary main_v296 main_v297 main_v298 (minsi : (⟨S524288, .i32⟩ : BufTy).Contents (Elt F) → (⟨S524288, .i32⟩ : BufTy).Contents (Elt F) → (⟨S524288, .i32⟩ : BufTy).Contents (Elt F)),
    StableHlo.nullary main_c_93 (constantI S_ 32 1#32),
    StableHlo.unary main_c_93 main_v299 (broadcastInDim S524288 ![] bcast_S_S524288 : (⟨S_, .i32⟩ : BufTy).Contents (Elt F) → (⟨S524288, .i32⟩ : BufTy).Contents (Elt F)),
    StableHlo.binary main_v294 main_v299 main_v300 (addi : (⟨S524288, .i32⟩ : BufTy).Contents (Elt F) → (⟨S524288, .i32⟩ : BufTy).Contents (Elt F) → (⟨S524288, .i32⟩ : BufTy).Contents (Elt F)),
    StableHlo.nullary main_c_94 (constantI S_ 32 127#32),
    StableHlo.unary main_c_94 main_v301 (broadcastInDim S524288 ![] bcast_S_S524288 : (⟨S_, .i32⟩ : BufTy).Contents (Elt F) → (⟨S524288, .i32⟩ : BufTy).Contents (Elt F)),
    StableHlo.binary main_v300 main_v301 main_v302 (minsi : (⟨S524288, .i32⟩ : BufTy).Contents (Elt F) → (⟨S524288, .i32⟩ : BufTy).Contents (Elt F) → (⟨S524288, .i32⟩ : BufTy).Contents (Elt F)),
    StableHlo.nullary main_c_95 (constantI S_ 32 0#32),
    StableHlo.unary main_c_95 main_v303 (broadcastInDim S524288 ![] bcast_S_S524288 : (⟨S_, .i32⟩ : BufTy).Contents (Elt F) → (⟨S524288, .i32⟩ : BufTy).Contents (Elt F)),
    StableHlo.binary main_v294 main_v303 main_v304 (cmpi .slt : (⟨S524288, .i32⟩ : BufTy).Contents (Elt F) → (⟨S524288, .i32⟩ : BufTy).Contents (Elt F) → (⟨S524288, .i1⟩ : BufTy).Contents (Elt F)),
    StableHlo.nullary main_c_96 (constantI S_ 32 128#32),
    StableHlo.unary main_c_96 main_v305 (broadcastInDim S524288 ![] bcast_S_S524288 : (⟨S_, .i32⟩ : BufTy).Contents (Elt F) → (⟨S524288, .i32⟩ : BufTy).Contents (Elt F)),
    StableHlo.binary main_v294 main_v305 main_v306 (addi : (⟨S524288, .i32⟩ : BufTy).Contents (Elt F) → (⟨S524288, .i32⟩ : BufTy).Contents (Elt F) → (⟨S524288, .i32⟩ : BufTy).Contents (Elt F)),
    StableHlo.ternary main_v304 main_v306 main_v294 main_v307 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_97 (constantI S_ 32 0#32),
    StableHlo.unary main_c_97 main_v308 (broadcastInDim S524288 ![] bcast_S_S524288 : (⟨S_, .i32⟩ : BufTy).Contents (Elt F) → (⟨S524288, .i32⟩ : BufTy).Contents (Elt F)),
    StableHlo.binary main_v293 main_v308 main_v309 (cmpi .slt : (⟨S524288, .i32⟩ : BufTy).Contents (Elt F) → (⟨S524288, .i32⟩ : BufTy).Contents (Elt F) → (⟨S524288, .i1⟩ : BufTy).Contents (Elt F)),
    StableHlo.nullary main_c_98 (constantI S_ 32 128#32),
    StableHlo.unary main_c_98 main_v310 (broadcastInDim S524288 ![] bcast_S_S524288 : (⟨S_, .i32⟩ : BufTy).Contents (Elt F) → (⟨S524288, .i32⟩ : BufTy).Contents (Elt F)),
    StableHlo.binary main_v293 main_v310 main_v311 (addi : (⟨S524288, .i32⟩ : BufTy).Contents (Elt F) → (⟨S524288, .i32⟩ : BufTy).Contents (Elt F) → (⟨S524288, .i32⟩ : BufTy).Contents (Elt F)),
    StableHlo.ternary main_v309 main_v311 main_v293 main_v312 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v307 main_v313 (broadcastInDim S524288x1 ![0] bcast_S524288_S524288x1_0 : (⟨S524288, .i32⟩ : BufTy).Contents (Elt F) → (⟨S524288x1, .i32⟩ : BufTy).Contents (Elt F)),
    StableHlo.unary main_v312 main_v314 (broadcastInDim S524288x1 ![0] bcast_S524288_S524288x1_0 : (⟨S524288, .i32⟩ : BufTy).Contents (Elt F) → (⟨S524288x1, .i32⟩ : BufTy).Contents (Elt F)),
    StableHlo.binary main_v313 main_v314 main_v315 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg4 main_v315 main_v316 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    StableHlo.nullary main_c_99 (constantI S_ 32 0#32),
    StableHlo.unary main_c_99 main_v317 (broadcastInDim S524288 ![] bcast_S_S524288 : (⟨S_, .i32⟩ : BufTy).Contents (Elt F) → (⟨S524288, .i32⟩ : BufTy).Contents (Elt F)) ]

set_option maxHeartbeats 40000000 in
set_option maxRecDepth 65536 in
/-- The printed window is that straight line. -/
theorem part6_eq (d : Dev nD) : main_part6 (F := F) d = seq ops6 := by
  simp only [main_part6, fn_clip.body, seq, bind_assoc, pure_bind] <;> rfl

set_option maxHeartbeats 40000000 in
/-- Every operation of the window touches TensorCore references only. -/
theorem ops6_sub : (ops6 : List (HloOp τ sig (Elt F))).Forall fun op => op.bufs ⊆ tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub ..⟩

set_option maxHeartbeats 40000000 in
/-- Every operation of the window determines what it writes. -/
theorem ops6_fresh : (ops6 : List (HloOp τ sig (Elt F))).Forall fun op => op.fresh = ∅ := by
  simp only [List.Forall]; repeat' constructor

end Cert.ReferenceIdeal.Line

end
-- ==== Proof.RefLine7.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 60 host operations of the program's printed window 7, in order (a call of the clamp function as its six operations
    over that call's buffers). -/
abbrev ops7 : List (HloOp τ sig (Elt F)) :=
  [ StableHlo.binary main_v294 main_v317 main_v318 (cmpi .slt : (⟨S524288, .i32⟩ : BufTy).Contents (Elt F) → (⟨S524288, .i32⟩ : BufTy).Contents (Elt F) → (⟨S524288, .i1⟩ : BufTy).Contents (Elt F)),
    StableHlo.nullary main_c_100 (constantI S_ 32 128#32),
    StableHlo.unary main_c_100 main_v319 (broadcastInDim S524288 ![] bcast_S_S524288 : (⟨S_, .i32⟩ : BufTy).Contents (Elt F) → (⟨S524288, .i32⟩ : BufTy).Contents (Elt F)),
    StableHlo.binary main_v294 main_v319 main_v320 (addi : (⟨S524288, .i32⟩ : BufTy).Contents (Elt F) → (⟨S524288, .i32⟩ : BufTy).Contents (Elt F) → (⟨S524288, .i32⟩ : BufTy).Contents (Elt F)),
    StableHlo.ternary main_v318 main_v320 main_v294 main_v321 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_101 (constantI S_ 32 0#32),
    StableHlo.unary main_c_101 main_v322 (broadcastInDim S524288 ![] bcast_S_S524288 : (⟨S_, .i32⟩ : BufTy).Contents (Elt F) → (⟨S524288, .i32⟩ : BufTy).Contents (Elt F)),
    StableHlo.binary main_v298 main_v322 main_v323 (cmpi .slt : (⟨S524288, .i32⟩ : BufTy).Contents (Elt F) → (⟨S524288, .i32⟩ : BufTy).Contents (Elt F) → (⟨S524288, .i1⟩ : BufTy).Contents (Elt F)),
    StableHlo.nullary main_c_102 (constantI S_ 32 128#32),
    StableHlo.unary main_c_102 main_v324 (broadcastInDim S524288 ![] bcast_S_S524288 : (⟨S_, .i32⟩ : BufTy).Contents (Elt F) → (⟨S524288, .i32⟩ : BufTy).Contents (Elt F)),
    StableHlo.binary main_v298 main_v324 main_v325 (addi : (⟨S524288, .i32⟩ : BufTy).Contents (Elt F) → (⟨S524288, .i32⟩ : BufTy).Contents (Elt F) → (⟨S524288, .i32⟩ : BufTy).Contents (Elt F)),
    StableHlo.ternary main_v323 main_v325 main_v298 main_v326 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v321 main_v327 (broadcastInDim S524288x1 ![0] bcast_S524288_S524288x1_0 : (⟨S524288, .i32⟩ : BufTy).Contents (Elt F) → (⟨S524288x1, .i32⟩ : BufTy).Contents (Elt F)),
    StableHlo.unary main_v326 main_v328 (broadcastInDim S524288x1 ![0] bcast_S524288_S524288x1_0 : (⟨S524288, .i32⟩ : BufTy).Contents (Elt F) → (⟨S524288x1, .i32⟩ : BufTy).Contents (Elt F)),
    StableHlo.binary main_v327 main_v328 main_v329 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg4 main_v329 main_v330 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    StableHlo.nullary main_c_103 (constantI S_ 32 0#32),
    StableHlo.unary main_c_103 main_v331 (broadcastInDim S524288 ![] bcast_S_S524288 : (⟨S_, .i32⟩ : BufTy).Contents (Elt F) → (⟨S524288, .i32⟩ : BufTy).Contents (Elt F)),
    StableHlo.binary main_v302 main_v331 main_v332 (cmpi .slt : (⟨S524288, .i32⟩ : BufTy).Contents (Elt F) → (⟨S524288, .i32⟩ : BufTy).Contents (Elt F) → (⟨S524288, .i1⟩ : BufTy).Contents (Elt F)),
    StableHlo.nullary main_c_104 (constantI S_ 32 128#32),
    StableHlo.unary main_c_104 main_v333 (broadcastInDim S524288 ![] bcast_S_S524288 : (⟨S_, .i32⟩ : BufTy).Contents (Elt F) → (⟨S524288, .i32⟩ : BufTy).Contents (Elt F)),
    StableHlo.binary main_v302 main_v333 main_v334 (addi : (⟨S524288, .i32⟩ : BufTy).Contents (Elt F) → (⟨S524288, .i32⟩ : BufTy).Contents (Elt F) → (⟨S524288, .i32⟩ : BufTy).Contents (Elt F)),
    StableHlo.ternary main_v332 main_v334 main_v302 main_v335 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_105 (constantI S_ 32 0#32),
    StableHlo.unary main_c_105 main_v336 (broadcastInDim S524288 ![] bcast_S_S524288 : (⟨S_, .i32⟩ : BufTy).Contents (Elt F) → (⟨S524288, .i32⟩ : BufTy).Contents (Elt F)),
    StableHlo.binary main_v293 main_v336 main_v337 (cmpi .slt : (⟨S524288, .i32⟩ : BufTy).Contents (Elt F) → (⟨S524288, .i32⟩ : BufTy).Contents (Elt F) → (⟨S524288, .i1⟩ : BufTy).Contents (Elt F)),
    StableHlo.nullary main_c_106 (constantI S_ 32 128#32),
    StableHlo.unary main_c_106 main_v338 (broadcastInDim S524288 ![] bcast_S_S524288 : (⟨S_, .i32⟩ : BufTy).Contents (Elt F) → (⟨S524288, .i32⟩ : BufTy).Contents (Elt F)),
    StableHlo.binary main_v293 main_v338 main_v339 (addi : (⟨S524288, .i32⟩ : BufTy).Contents (Elt F) → (⟨S524288, .i32⟩ : BufTy).Contents (Elt F) → (⟨S524288, .i32⟩ : BufTy).Contents (Elt F)),
    StableHlo.ternary main_v337 main_v339 main_v293 main_v340 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v335 main_v341 (broadcastInDim S524288x1 ![0] bcast_S524288_S524288x1_0 : (⟨S524288, .i32⟩ : BufTy).Contents (Elt F) → (⟨S524288x1, .i32⟩ : BufTy).Contents (Elt F)),
    StableHlo.unary main_v340 main_v342 (broadcastInDim S524288x1 ![0] bcast_S524288_S524288x1_0 : (⟨S524288, .i32⟩ : BufTy).Contents (Elt F) → (⟨S524288x1, .i32⟩ : BufTy).Contents (Elt F)),
    StableHlo.binary main_v341 main_v342 main_v343 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg4 main_v343 main_v344 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    StableHlo.nullary main_c_107 (constantI S_ 32 0#32),
    StableHlo.unary main_c_107 main_v345 (broadcastInDim S524288 ![] bcast_S_S524288 : (⟨S_, .i32⟩ : BufTy).Contents (Elt F) → (⟨S524288, .i32⟩ : BufTy).Contents (Elt F)),
    StableHlo.binary main_v302 main_v345 main_v346 (cmpi .slt : (⟨S524288, .i32⟩ : BufTy).Contents (Elt F) → (⟨S524288, .i32⟩ : BufTy).Contents (Elt F) → (⟨S524288, .i1⟩ : BufTy).Contents (Elt F)),
    StableHlo.nullary main_c_108 (constantI S_ 32 128#32),
    StableHlo.unary main_c_108 main_v347 (broadcastInDim S524288 ![] bcast_S_S524288 : (⟨S_, .i32⟩ : BufTy).Contents (Elt F) → (⟨S524288, .i32⟩ : BufTy).Contents (Elt F)),
    StableHlo.binary main_v302 main_v347 main_v348 (addi : (⟨S524288, .i32⟩ : BufTy).Contents (Elt F) → (⟨S524288, .i32⟩ : BufTy).Contents (Elt F) → (⟨S524288, .i32⟩ : BufTy).Contents (Elt F)),
    StableHlo.ternary main_v346 main_v348 main_v302 main_v349 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_109 (constantI S_ 32 0#32),
    StableHlo.unary main_c_109 main_v350 (broadcastInDim S524288 ![] bcast_S_S524288 : (⟨S_, .i32⟩ : BufTy).Contents (Elt F) → (⟨S524288, .i32⟩ : BufTy).Contents (Elt F)),
    StableHlo.binary main_v298 main_v350 main_v351 (cmpi .slt : (⟨S524288, .i32⟩ : BufTy).Contents (Elt F) → (⟨S524288, .i32⟩ : BufTy).Contents (Elt F) → (⟨S524288, .i1⟩ : BufTy).Contents (Elt F)),
    StableHlo.nullary main_c_110 (constantI S_ 32 128#32),
    StableHlo.unary main_c_110 main_v352 (broadcastInDim S524288 ![] bcast_S_S524288 : (⟨S_, .i32⟩ : BufTy).Contents (Elt F) → (⟨S524288, .i32⟩ : BufTy).Contents (Elt F)),
    StableHlo.binary main_v298 main_v352 main_v353 (addi : (⟨S524288, .i32⟩ : BufTy).Contents (Elt F) → (⟨S524288, .i32⟩ : BufTy).Contents (Elt F) → (⟨S524288, .i32⟩ : BufTy).Contents (Elt F)),
    StableHlo.ternary main_v351 main_v353 main_v298 main_v354 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v349 main_v355 (broadcastInDim S524288x1 ![0] bcast_S524288_S524288x1_0 : (⟨S524288, .i32⟩ : BufTy).Contents (Elt F) → (⟨S524288x1, .i32⟩ : BufTy).Contents (Elt F)),
    StableHlo.unary main_v354 main_v356 (broadcastInDim S524288x1 ![0] bcast_S524288_S524288x1_0 : (⟨S524288, .i32⟩ : BufTy).Contents (Elt F) → (⟨S524288x1, .i32⟩ : BufTy).Contents (Elt F)),
    StableHlo.binary main_v355 main_v356 main_v357 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg4 main_v357 main_v358 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    StableHlo.nullary main_cst_111 (constant S_ .f32 0x3F800000#32),
    StableHlo.unary main_cst_111 main_v359 (broadcastInDim S524288 ![] bcast_S_S524288 : (⟨S_, .f32⟩ : BufTy).Contents (Elt F) → (⟨S524288, .f32⟩ : BufTy).Contents (Elt F)),
    StableHlo.binary main_v359 main_v291 main_v360 (subf : (⟨S524288, .f32⟩ : BufTy).Contents (Elt F) → (⟨S524288, .f32⟩ : BufTy).Contents (Elt F) → (⟨S524288, .f32⟩ : BufTy).Contents (Elt F)),
    StableHlo.unary main_v360 main_v361 (broadcastInDim S1x524288 ![1] bcast_S524288_S1x524288_1 : (⟨S524288, .f32⟩ : BufTy).Contents (Elt F) → (⟨S1x524288, .f32⟩ : BufTy).Contents (Elt F)),
    StableHlo.unary main_v361 main_v362 (broadcastInDim S32x524288 ![0, 1] bcast_S1x524288_S32x524288_0_1 : (⟨S1x524288, .f32⟩ : BufTy).Contents (Elt F) → (⟨S32x524288, .f32⟩ : BufTy).Contents (Elt F)),
    StableHlo.binary main_v316 main_v362 main_v363 (mulf : (⟨S32x524288, .f32⟩ : BufTy).Contents (Elt F) → (⟨S32x524288, .f32⟩ : BufTy).Contents (Elt F) → (⟨S32x524288, .f32⟩ : BufTy).Contents (Elt F)),
    StableHlo.unary main_v291 main_v364 (broadcastInDim S1x524288 ![1] bcast_S524288_S1x524288_1 : (⟨S524288, .f32⟩ : BufTy).Contents (Elt F) → (⟨S1x524288, .f32⟩ : BufTy).Contents (Elt F)),
    StableHlo.unary main_v364 main_v365 (broadcastInDim S32x524288 ![0, 1] bcast_S1x524288_S32x524288_0_1 : (⟨S1x524288, .f32⟩ : BufTy).Contents (Elt F) → (⟨S32x524288, .f32⟩ : BufTy).Contents (Elt F)) ]

set_option maxHeartbeats 40000000 in
set_option maxRecDepth 65536 in
/-- The printed window is that straight line. -/
theorem part7_eq (d : Dev nD) : main_part7 (F := F) d = seq ops7 := by
  simp only [main_part7, fn_clip.body, seq, bind_assoc, pure_bind] <;> rfl

set_option maxHeartbeats 40000000 in
/-- Every operation of the window touches TensorCore references only. -/
theorem ops7_sub : (ops7 : List (HloOp τ sig (Elt F))).Forall fun op => op.bufs ⊆ tcRefs τ sig :=
  ⟨StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub ..⟩

set_option maxHeartbeats 40000000 in
/-- Every operation of the window determines what it writes. -/
theorem ops7_fresh : (ops7 : List (HloOp τ sig (Elt F))).Forall fun op => op.fresh = ∅ := by
  simp only [List.Forall]; repeat' constructor

end Cert.ReferenceIdeal.Line

end
-- ==== Proof.RefLine8.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 65 host operations of the program's printed window 8, in order (a call of the clamp function as its six operations
    over that call's buffers). -/
abbrev ops8 : List (HloOp τ sig (Elt F)) :=
  [ StableHlo.binary main_v330 main_v365 main_v366 (mulf : (⟨S32x524288, .f32⟩ : BufTy).Contents (Elt F) → (⟨S32x524288, .f32⟩ : BufTy).Contents (Elt F) → (⟨S32x524288, .f32⟩ : BufTy).Contents (Elt F)),
    StableHlo.binary main_v363 main_v366 main_v367 (addf : (⟨S32x524288, .f32⟩ : BufTy).Contents (Elt F) → (⟨S32x524288, .f32⟩ : BufTy).Contents (Elt F) → (⟨S32x524288, .f32⟩ : BufTy).Contents (Elt F)),
    StableHlo.nullary main_cst_112 (constant S_ .f32 0x3F800000#32),
    StableHlo.unary main_cst_112 main_v368 (broadcastInDim S524288 ![] bcast_S_S524288 : (⟨S_, .f32⟩ : BufTy).Contents (Elt F) → (⟨S524288, .f32⟩ : BufTy).Contents (Elt F)),
    StableHlo.binary main_v368 main_v291 main_v369 (subf : (⟨S524288, .f32⟩ : BufTy).Contents (Elt F) → (⟨S524288, .f32⟩ : BufTy).Contents (Elt F) → (⟨S524288, .f32⟩ : BufTy).Contents (Elt F)),
    StableHlo.unary main_v369 main_v370 (broadcastInDim S1x524288 ![1] bcast_S524288_S1x524288_1 : (⟨S524288, .f32⟩ : BufTy).Contents (Elt F) → (⟨S1x524288, .f32⟩ : BufTy).Contents (Elt F)),
    StableHlo.unary main_v370 main_v371 (broadcastInDim S32x524288 ![0, 1] bcast_S1x524288_S32x524288_0_1 : (⟨S1x524288, .f32⟩ : BufTy).Contents (Elt F) → (⟨S32x524288, .f32⟩ : BufTy).Contents (Elt F)),
    StableHlo.binary main_v344 main_v371 main_v372 (mulf : (⟨S32x524288, .f32⟩ : BufTy).Contents (Elt F) → (⟨S32x524288, .f32⟩ : BufTy).Contents (Elt F) → (⟨S32x524288, .f32⟩ : BufTy).Contents (Elt F)),
    StableHlo.unary main_v291 main_v373 (broadcastInDim S1x524288 ![1] bcast_S524288_S1x524288_1 : (⟨S524288, .f32⟩ : BufTy).Contents (Elt F) → (⟨S1x524288, .f32⟩ : BufTy).Contents (Elt F)),
    StableHlo.unary main_v373 main_v374 (broadcastInDim S32x524288 ![0, 1] bcast_S1x524288_S32x524288_0_1 : (⟨S1x524288, .f32⟩ : BufTy).Contents (Elt F) → (⟨S32x524288, .f32⟩ : BufTy).Contents (Elt F)),
    StableHlo.binary main_v358 main_v374 main_v375 (mulf : (⟨S32x524288, .f32⟩ : BufTy).Contents (Elt F) → (⟨S32x524288, .f32⟩ : BufTy).Contents (Elt F) → (⟨S32x524288, .f32⟩ : BufTy).Contents (Elt F)),
    StableHlo.binary main_v372 main_v375 main_v376 (addf : (⟨S32x524288, .f32⟩ : BufTy).Contents (Elt F) → (⟨S32x524288, .f32⟩ : BufTy).Contents (Elt F) → (⟨S32x524288, .f32⟩ : BufTy).Contents (Elt F)),
    StableHlo.nullary main_cst_113 (constant S_ .f32 0x3F800000#32),
    StableHlo.unary main_cst_113 main_v377 (broadcastInDim S524288 ![] bcast_S_S524288 : (⟨S_, .f32⟩ : BufTy).Contents (Elt F) → (⟨S524288, .f32⟩ : BufTy).Contents (Elt F)),
    StableHlo.binary main_v377 main_v292 main_v378 (subf : (⟨S524288, .f32⟩ : BufTy).Contents (Elt F) → (⟨S524288, .f32⟩ : BufTy).Contents (Elt F) → (⟨S524288, .f32⟩ : BufTy).Contents (Elt F)),
    StableHlo.unary main_v378 main_v379 (broadcastInDim S1x524288 ![1] bcast_S524288_S1x524288_1 : (⟨S524288, .f32⟩ : BufTy).Contents (Elt F) → (⟨S1x524288, .f32⟩ : BufTy).Contents (Elt F)),
    StableHlo.unary main_v379 main_v380 (broadcastInDim S32x524288 ![0, 1] bcast_S1x524288_S32x524288_0_1 : (⟨S1x524288, .f32⟩ : BufTy).Contents (Elt F) → (⟨S32x524288, .f32⟩ : BufTy).Contents (Elt F)),
    StableHlo.binary main_v367 main_v380 main_v381 (mulf : (⟨S32x524288, .f32⟩ : BufTy).Contents (Elt F) → (⟨S32x524288, .f32⟩ : BufTy).Contents (Elt F) → (⟨S32x524288, .f32⟩ : BufTy).Contents (Elt F)),
    StableHlo.unary main_v292 main_v382 (broadcastInDim S1x524288 ![1] bcast_S524288_S1x524288_1 : (⟨S524288, .f32⟩ : BufTy).Contents (Elt F) → (⟨S1x524288, .f32⟩ : BufTy).Contents (Elt F)),
    StableHlo.unary main_v382 main_v383 (broadcastInDim S32x524288 ![0, 1] bcast_S1x524288_S32x524288_0_1 : (⟨S1x524288, .f32⟩ : BufTy).Contents (Elt F) → (⟨S32x524288, .f32⟩ : BufTy).Contents (Elt F)),
    StableHlo.binary main_v376 main_v383 main_v384 (mulf : (⟨S32x524288, .f32⟩ : BufTy).Contents (Elt F) → (⟨S32x524288, .f32⟩ : BufTy).Contents (Elt F) → (⟨S32x524288, .f32⟩ : BufTy).Contents (Elt F)),
    StableHlo.binary main_v381 main_v384 main_v385 (addf : (⟨S32x524288, .f32⟩ : BufTy).Contents (Elt F) → (⟨S32x524288, .f32⟩ : BufTy).Contents (Elt F) → (⟨S32x524288, .f32⟩ : BufTy).Contents (Elt F)),
    StableHlo.unary main_v385 main_v386 ((transpose S524288x32 [1, 0] · transposes_S32x524288_S524288x32_1_0) : (⟨S32x524288, .f32⟩ : BufTy).Contents (Elt F) → (⟨S524288x32, .f32⟩ : BufTy).Contents (Elt F)),
    StableHlo.nary ![main_v140, main_v263, main_v386] main_v387 (fun u => concatenate S524288x96 1 [⟨S524288x32, u 0⟩, ⟨S524288x32, u 1⟩, ⟨S524288x32, u 2⟩] concatenates_S524288x32_S524288x32_S524288x32_S524288x96_d1),
    StableHlo.nullary main_c_114 (constantI S_ 32 0#32),
    StableHlo.unary main_c_114 main_v388 (broadcastInDim S2 ![] bcast_S_S2 : (⟨S_, .i32⟩ : BufTy).Contents (Elt F) → (⟨S2, .i32⟩ : BufTy).Contents (Elt F)),
    StableHlo.binary main_c_2 main_v388 main_v389 (cmpi .slt : (⟨S2, .i32⟩ : BufTy).Contents (Elt F) → (⟨S2, .i32⟩ : BufTy).Contents (Elt F) → (⟨S2, .i1⟩ : BufTy).Contents (Elt F)),
    StableHlo.nullary main_c_115 (constantI S_ 32 3#32),
    StableHlo.unary main_c_115 main_v390 (broadcastInDim S2 ![] bcast_S_S2 : (⟨S_, .i32⟩ : BufTy).Contents (Elt F) → (⟨S2, .i32⟩ : BufTy).Contents (Elt F)),
    StableHlo.binary main_c_2 main_v390 main_v391 (addi : (⟨S2, .i32⟩ : BufTy).Contents (Elt F) → (⟨S2, .i32⟩ : BufTy).Contents (Elt F) → (⟨S2, .i32⟩ : BufTy).Contents (Elt F)),
    StableHlo.ternary main_v389 main_v391 main_c_2 main_v392 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v392 main_v393 (broadcastInDim S2x1 ![0] bcast_S2_S2x1_0 : (⟨S2, .i32⟩ : BufTy).Contents (Elt F) → (⟨S2x1, .i32⟩ : BufTy).Contents (Elt F)),
    StableHlo.binary main_v17 main_v393 main_v394 ((fun x i => Host.gather gather_S524288x3_S2x1_S524288x2_0_1_n_n_1_1_5242881 x i) : (⟨S524288x3, .f32⟩ : BufTy).Contents (Elt F) → (⟨S2x1, .i32⟩ : BufTy).Contents (Elt F) → (⟨S524288x2, .f32⟩ : BufTy).Contents (Elt F)),
    StableHlo.unary main_v394 main_v395 ((extractStridedSlice S524288x1 ![0, 0] · slices_S524288x2_S524288x1_0_0) : (⟨S524288x2, .f32⟩ : BufTy).Contents (Elt F) → (⟨S524288x1, .f32⟩ : BufTy).Contents (Elt F)),
    StableHlo.reshape main_v395 main_v396 rfl shapeCasts_S524288x1_S524288,
    StableHlo.nullary main_cst_116 (constant S_ .f32 0x3F800000#32),
    StableHlo.unary main_cst_116 main_v397 (broadcastInDim S524288 ![] bcast_S_S524288 : (⟨S_, .f32⟩ : BufTy).Contents (Elt F) → (⟨S524288, .f32⟩ : BufTy).Contents (Elt F)),
    StableHlo.binary main_v396 main_v397 main_v398 (addf : (⟨S524288, .f32⟩ : BufTy).Contents (Elt F) → (⟨S524288, .f32⟩ : BufTy).Contents (Elt F) → (⟨S524288, .f32⟩ : BufTy).Contents (Elt F)),
    StableHlo.nullary main_cst_117 (constant S_ .f32 0x3F000000#32),
    StableHlo.unary main_cst_117 main_v399 (broadcastInDim S524288 ![] bcast_S_S524288 : (⟨S_, .f32⟩ : BufTy).Contents (Elt F) → (⟨S524288, .f32⟩ : BufTy).Contents (Elt F)),
    StableHlo.binary main_v398 main_v399 main_v400 (mulf : (⟨S524288, .f32⟩ : BufTy).Contents (Elt F) → (⟨S524288, .f32⟩ : BufTy).Contents (Elt F) → (⟨S524288, .f32⟩ : BufTy).Contents (Elt F)),
    StableHlo.nullary main_cst_118 (constant S_ .f32 0x437F0000#32),
    StableHlo.unary main_cst_118 main_v401 (broadcastInDim S524288 ![] bcast_S_S524288 : (⟨S_, .f32⟩ : BufTy).Contents (Elt F) → (⟨S524288, .f32⟩ : BufTy).Contents (Elt F)),
    StableHlo.binary main_v400 main_v401 main_v402 (mulf : (⟨S524288, .f32⟩ : BufTy).Contents (Elt F) → (⟨S524288, .f32⟩ : BufTy).Contents (Elt F) → (⟨S524288, .f32⟩ : BufTy).Contents (Elt F)),
    StableHlo.nullary main_cst_119 (constant S_ .f32 0x00000000#32),
    StableHlo.nullary main_c_120 (constantI S_ 32 255#32),
    StableHlo.TRef.unary (.of main_cst_119 : StableHlo.TRef sig ⟨S_, .f32⟩) main_call6.v0 id,
    StableHlo.TRef.unary main_call6.v0 main_call6.v1 (broadcastInDim S524288 ![] bcast_S_S524288),
    StableHlo.TRef.binary main_call6.v1 (.of main_v402 : StableHlo.TRef sig ⟨S524288, .f32⟩) main_call6.v2 maximumf,
    StableHlo.TRef.unary (.of main_c_120 : StableHlo.TRef sig ⟨S_, .i32⟩) main_call6.v3 (sitofp .f32),
    StableHlo.TRef.unary main_call6.v3 main_call6.v4 (broadcastInDim S524288 ![] bcast_S_S524288),
    StableHlo.TRef.binary main_call6.v4 main_call6.v2 main_call6.v5 minimumf,
    StableHlo.unary main_v394 main_v404 ((extractStridedSlice S524288x1 ![0, 1] · slices_S524288x2_S524288x1_0_1) : (⟨S524288x2, .f32⟩ : BufTy).Contents (Elt F) → (⟨S524288x1, .f32⟩ : BufTy).Contents (Elt F)),
    StableHlo.reshape main_v404 main_v405 rfl shapeCasts_S524288x1_S524288,
    StableHlo.nullary main_cst_121 (constant S_ .f32 0x3F800000#32),
    StableHlo.unary main_cst_121 main_v406 (broadcastInDim S524288 ![] bcast_S_S524288 : (⟨S_, .f32⟩ : BufTy).Contents (Elt F) → (⟨S524288, .f32⟩ : BufTy).Contents (Elt F)),
    StableHlo.binary main_v405 main_v406 main_v407 (addf : (⟨S524288, .f32⟩ : BufTy).Contents (Elt F) → (⟨S524288, .f32⟩ : BufTy).Contents (Elt F) → (⟨S524288, .f32⟩ : BufTy).Contents (Elt F)),
    StableHlo.nullary main_cst_122 (constant S_ .f32 0x3F000000#32),
    StableHlo.unary main_cst_122 main_v408 (broadcastInDim S524288 ![] bcast_S_S524288 : (⟨S_, .f32⟩ : BufTy).Contents (Elt F) → (⟨S524288, .f32⟩ : BufTy).Contents (Elt F)),
    StableHlo.binary main_v407 main_v408 main_v409 (mulf : (⟨S524288, .f32⟩ : BufTy).Contents (Elt F) → (⟨S524288, .f32⟩ : BufTy).Contents (Elt F) → (⟨S524288, .f32⟩ : BufTy).Contents (Elt F)),
    StableHlo.nullary main_cst_123 (constant S_ .f32 0x437F0000#32),
    StableHlo.unary main_cst_123 main_v410 (broadcastInDim S524288 ![] bcast_S_S524288 : (⟨S_, .f32⟩ : BufTy).Contents (Elt F) → (⟨S524288, .f32⟩ : BufTy).Contents (Elt F)),
    StableHlo.binary main_v409 main_v410 main_v411 (mulf : (⟨S524288, .f32⟩ : BufTy).Contents (Elt F) → (⟨S524288, .f32⟩ : BufTy).Contents (Elt F) → (⟨S524288, .f32⟩ : BufTy).Contents (Elt F)),
    StableHlo.nullary main_cst_124 (constant S_ .f32 0x00000000#32),
    StableHlo.nullary main_c_125 (constantI S_ 32 255#32) ]

set_option maxHeartbeats 40000000 in
set_option maxRecDepth 65536 in
/-- The printed window is that straight line. -/
theorem part8_eq (d : Dev nD) : main_part8 (F := F) d = seq ops8 := by
  simp only [main_part8, fn_clip.body, seq, bind_assoc, pure_bind] <;> rfl

set_option maxHeartbeats 40000000 in
/-- Every operation of the window touches TensorCore references only. -/
theorem ops8_sub : (ops8 : List (HloOp τ sig (Elt F))).Forall fun op => op.bufs ⊆ tcRefs τ sig :=
  ⟨StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.nary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub ..⟩

set_option maxHeartbeats 40000000 in
/-- Every operation of the window determines what it writes. -/
theorem ops8_fresh : (ops8 : List (HloOp τ sig (Elt F))).Forall fun op => op.fresh = ∅ := by
  simp only [List.Forall]; repeat' constructor

end Cert.ReferenceIdeal.Line

end
-- ==== Proof.RefLine9.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 65 host operations of the program's printed window 9, in order (a call of the clamp function as its six operations
    over that call's buffers). -/
abbrev ops9 : List (HloOp τ sig (Elt F)) :=
  [ StableHlo.TRef.unary (.of main_cst_124 : StableHlo.TRef sig ⟨S_, .f32⟩) main_call7.v0 id,
    StableHlo.TRef.unary main_call7.v0 main_call7.v1 (broadcastInDim S524288 ![] bcast_S_S524288),
    StableHlo.TRef.binary main_call7.v1 (.of main_v411 : StableHlo.TRef sig ⟨S524288, .f32⟩) main_call7.v2 maximumf,
    StableHlo.TRef.unary (.of main_c_125 : StableHlo.TRef sig ⟨S_, .i32⟩) main_call7.v3 (sitofp .f32),
    StableHlo.TRef.unary main_call7.v3 main_call7.v4 (broadcastInDim S524288 ![] bcast_S_S524288),
    StableHlo.TRef.binary main_call7.v4 main_call7.v2 main_call7.v5 minimumf,
    StableHlo.unary main_v403 main_v413 (Host.floor : (⟨S524288, .f32⟩ : BufTy).Contents (Elt F) → (⟨S524288, .f32⟩ : BufTy).Contents (Elt F)),
    StableHlo.unary main_v412 main_v414 (Host.floor : (⟨S524288, .f32⟩ : BufTy).Contents (Elt F) → (⟨S524288, .f32⟩ : BufTy).Contents (Elt F)),
    StableHlo.binary main_v403 main_v413 main_v415 (subf : (⟨S524288, .f32⟩ : BufTy).Contents (Elt F) → (⟨S524288, .f32⟩ : BufTy).Contents (Elt F) → (⟨S524288, .f32⟩ : BufTy).Contents (Elt F)),
    StableHlo.binary main_v412 main_v414 main_v416 (subf : (⟨S524288, .f32⟩ : BufTy).Contents (Elt F) → (⟨S524288, .f32⟩ : BufTy).Contents (Elt F) → (⟨S524288, .f32⟩ : BufTy).Contents (Elt F)),
    StableHlo.unary main_v413 main_v417 (fptosi 32 : (⟨S524288, .f32⟩ : BufTy).Contents (Elt F) → (⟨S524288, .i32⟩ : BufTy).Contents (Elt F)),
    StableHlo.unary main_v414 main_v418 (fptosi 32 : (⟨S524288, .f32⟩ : BufTy).Contents (Elt F) → (⟨S524288, .i32⟩ : BufTy).Contents (Elt F)),
    StableHlo.nullary main_c_126 (constantI S_ 32 1#32),
    StableHlo.unary main_c_126 main_v419 (broadcastInDim S524288 ![] bcast_S_S524288 : (⟨S_, .i32⟩ : BufTy).Contents (Elt F) → (⟨S524288, .i32⟩ : BufTy).Contents (Elt F)),
    StableHlo.binary main_v417 main_v419 main_v420 (addi : (⟨S524288, .i32⟩ : BufTy).Contents (Elt F) → (⟨S524288, .i32⟩ : BufTy).Contents (Elt F) → (⟨S524288, .i32⟩ : BufTy).Contents (Elt F)),
    StableHlo.nullary main_c_127 (constantI S_ 32 255#32),
    StableHlo.unary main_c_127 main_v421 (broadcastInDim S524288 ![] bcast_S_S524288 : (⟨S_, .i32⟩ : BufTy).Contents (Elt F) → (⟨S524288, .i32⟩ : BufTy).Contents (Elt F)),
    StableHlo.binary main_v420 main_v421 main_v422 (minsi : (⟨S524288, .i32⟩ : BufTy).Contents (Elt F) → (⟨S524288, .i32⟩ : BufTy).Contents (Elt F) → (⟨S524288, .i32⟩ : BufTy).Contents (Elt F)),
    StableHlo.nullary main_c_128 (constantI S_ 32 1#32),
    StableHlo.unary main_c_128 main_v423 (broadcastInDim S524288 ![] bcast_S_S524288 : (⟨S_, .i32⟩ : BufTy).Contents (Elt F) → (⟨S524288, .i32⟩ : BufTy).Contents (Elt F)),
    StableHlo.binary main_v418 main_v423 main_v424 (addi : (⟨S524288, .i32⟩ : BufTy).Contents (Elt F) → (⟨S524288, .i32⟩ : BufTy).Contents (Elt F) → (⟨S524288, .i32⟩ : BufTy).Contents (Elt F)),
    StableHlo.nullary main_c_129 (constantI S_ 32 255#32),
    StableHlo.unary main_c_129 main_v425 (broadcastInDim S524288 ![] bcast_S_S524288 : (⟨S_, .i32⟩ : BufTy).Contents (Elt F) → (⟨S524288, .i32⟩ : BufTy).Contents (Elt F)),
    StableHlo.binary main_v424 main_v425 main_v426 (minsi : (⟨S524288, .i32⟩ : BufTy).Contents (Elt F) → (⟨S524288, .i32⟩ : BufTy).Contents (Elt F) → (⟨S524288, .i32⟩ : BufTy).Contents (Elt F)),
    StableHlo.nullary main_c_130 (constantI S_ 32 0#32),
    StableHlo.unary main_c_130 main_v427 (broadcastInDim S524288 ![] bcast_S_S524288 : (⟨S_, .i32⟩ : BufTy).Contents (Elt F) → (⟨S524288, .i32⟩ : BufTy).Contents (Elt F)),
    StableHlo.binary main_v418 main_v427 main_v428 (cmpi .slt : (⟨S524288, .i32⟩ : BufTy).Contents (Elt F) → (⟨S524288, .i32⟩ : BufTy).Contents (Elt F) → (⟨S524288, .i1⟩ : BufTy).Contents (Elt F)),
    StableHlo.nullary main_c_131 (constantI S_ 32 256#32),
    StableHlo.unary main_c_131 main_v429 (broadcastInDim S524288 ![] bcast_S_S524288 : (⟨S_, .i32⟩ : BufTy).Contents (Elt F) → (⟨S524288, .i32⟩ : BufTy).Contents (Elt F)),
    StableHlo.binary main_v418 main_v429 main_v430 (addi : (⟨S524288, .i32⟩ : BufTy).Contents (Elt F) → (⟨S524288, .i32⟩ : BufTy).Contents (Elt F) → (⟨S524288, .i32⟩ : BufTy).Contents (Elt F)),
    StableHlo.ternary main_v428 main_v430 main_v418 main_v431 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_132 (constantI S_ 32 0#32),
    StableHlo.unary main_c_132 main_v432 (broadcastInDim S524288 ![] bcast_S_S524288 : (⟨S_, .i32⟩ : BufTy).Contents (Elt F) → (⟨S524288, .i32⟩ : BufTy).Contents (Elt F)),
    StableHlo.binary main_v417 main_v432 main_v433 (cmpi .slt : (⟨S524288, .i32⟩ : BufTy).Contents (Elt F) → (⟨S524288, .i32⟩ : BufTy).Contents (Elt F) → (⟨S524288, .i1⟩ : BufTy).Contents (Elt F)),
    StableHlo.nullary main_c_133 (constantI S_ 32 256#32),
    StableHlo.unary main_c_133 main_v434 (broadcastInDim S524288 ![] bcast_S_S524288 : (⟨S_, .i32⟩ : BufTy).Contents (Elt F) → (⟨S524288, .i32⟩ : BufTy).Contents (Elt F)),
    StableHlo.binary main_v417 main_v434 main_v435 (addi : (⟨S524288, .i32⟩ : BufTy).Contents (Elt F) → (⟨S524288, .i32⟩ : BufTy).Contents (Elt F) → (⟨S524288, .i32⟩ : BufTy).Contents (Elt F)),
    StableHlo.ternary main_v433 main_v435 main_v417 main_v436 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v431 main_v437 (broadcastInDim S524288x1 ![0] bcast_S524288_S524288x1_0 : (⟨S524288, .i32⟩ : BufTy).Contents (Elt F) → (⟨S524288x1, .i32⟩ : BufTy).Contents (Elt F)),
    StableHlo.unary main_v436 main_v438 (broadcastInDim S524288x1 ![0] bcast_S524288_S524288x1_0 : (⟨S524288, .i32⟩ : BufTy).Contents (Elt F) → (⟨S524288x1, .i32⟩ : BufTy).Contents (Elt F)),
    StableHlo.binary main_v437 main_v438 main_v439 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg5 main_v439 main_v440 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    StableHlo.nullary main_c_134 (constantI S_ 32 0#32),
    StableHlo.unary main_c_134 main_v441 (broadcastInDim S524288 ![] bcast_S_S524288 : (⟨S_, .i32⟩ : BufTy).Contents (Elt F) → (⟨S524288, .i32⟩ : BufTy).Contents (Elt F)),
    StableHlo.binary main_v418 main_v441 main_v442 (cmpi .slt : (⟨S524288, .i32⟩ : BufTy).Contents (Elt F) → (⟨S524288, .i32⟩ : BufTy).Contents (Elt F) → (⟨S524288, .i1⟩ : BufTy).Contents (Elt F)),
    StableHlo.nullary main_c_135 (constantI S_ 32 256#32),
    StableHlo.unary main_c_135 main_v443 (broadcastInDim S524288 ![] bcast_S_S524288 : (⟨S_, .i32⟩ : BufTy).Contents (Elt F) → (⟨S524288, .i32⟩ : BufTy).Contents (Elt F)),
    StableHlo.binary main_v418 main_v443 main_v444 (addi : (⟨S524288, .i32⟩ : BufTy).Contents (Elt F) → (⟨S524288, .i32⟩ : BufTy).Contents (Elt F) → (⟨S524288, .i32⟩ : BufTy).Contents (Elt F)),
    StableHlo.ternary main_v442 main_v444 main_v418 main_v445 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_136 (constantI S_ 32 0#32),
    StableHlo.unary main_c_136 main_v446 (broadcastInDim S524288 ![] bcast_S_S524288 : (⟨S_, .i32⟩ : BufTy).Contents (Elt F) → (⟨S524288, .i32⟩ : BufTy).Contents (Elt F)),
    StableHlo.binary main_v422 main_v446 main_v447 (cmpi .slt : (⟨S524288, .i32⟩ : BufTy).Contents (Elt F) → (⟨S524288, .i32⟩ : BufTy).Contents (Elt F) → (⟨S524288, .i1⟩ : BufTy).Contents (Elt F)),
    StableHlo.nullary main_c_137 (constantI S_ 32 256#32),
    StableHlo.unary main_c_137 main_v448 (broadcastInDim S524288 ![] bcast_S_S524288 : (⟨S_, .i32⟩ : BufTy).Contents (Elt F) → (⟨S524288, .i32⟩ : BufTy).Contents (Elt F)),
    StableHlo.binary main_v422 main_v448 main_v449 (addi : (⟨S524288, .i32⟩ : BufTy).Contents (Elt F) → (⟨S524288, .i32⟩ : BufTy).Contents (Elt F) → (⟨S524288, .i32⟩ : BufTy).Contents (Elt F)),
    StableHlo.ternary main_v447 main_v449 main_v422 main_v450 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v445 main_v451 (broadcastInDim S524288x1 ![0] bcast_S524288_S524288x1_0 : (⟨S524288, .i32⟩ : BufTy).Contents (Elt F) → (⟨S524288x1, .i32⟩ : BufTy).Contents (Elt F)),
    StableHlo.unary main_v450 main_v452 (broadcastInDim S524288x1 ![0] bcast_S524288_S524288x1_0 : (⟨S524288, .i32⟩ : BufTy).Contents (Elt F) → (⟨S524288x1, .i32⟩ : BufTy).Contents (Elt F)),
    StableHlo.binary main_v451 main_v452 main_v453 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg5 main_v453 main_v454 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    StableHlo.nullary main_c_138 (constantI S_ 32 0#32),
    StableHlo.unary main_c_138 main_v455 (broadcastInDim S524288 ![] bcast_S_S524288 : (⟨S_, .i32⟩ : BufTy).Contents (Elt F) → (⟨S524288, .i32⟩ : BufTy).Contents (Elt F)),
    StableHlo.binary main_v426 main_v455 main_v456 (cmpi .slt : (⟨S524288, .i32⟩ : BufTy).Contents (Elt F) → (⟨S524288, .i32⟩ : BufTy).Contents (Elt F) → (⟨S524288, .i1⟩ : BufTy).Contents (Elt F)),
    StableHlo.nullary main_c_139 (constantI S_ 32 256#32),
    StableHlo.unary main_c_139 main_v457 (broadcastInDim S524288 ![] bcast_S_S524288 : (⟨S_, .i32⟩ : BufTy).Contents (Elt F) → (⟨S524288, .i32⟩ : BufTy).Contents (Elt F)) ]

set_option maxHeartbeats 40000000 in
set_option maxRecDepth 65536 in
/-- The printed window is that straight line. -/
theorem part9_eq (d : Dev nD) : main_part9 (F := F) d = seq ops9 := by
  simp only [main_part9, fn_clip.body, seq, bind_assoc, pure_bind] <;> rfl

set_option maxHeartbeats 40000000 in
/-- Every operation of the window touches TensorCore references only. -/
theorem ops9_sub : (ops9 : List (HloOp τ sig (Elt F))).Forall fun op => op.bufs ⊆ tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub ..⟩

set_option maxHeartbeats 40000000 in
/-- Every operation of the window determines what it writes. -/
theorem ops9_fresh : (ops9 : List (HloOp τ sig (Elt F))).Forall fun op => op.fresh = ∅ := by
  simp only [List.Forall]; repeat' constructor

end Cert.ReferenceIdeal.Line

end
-- ==== Proof.RefLine10.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 60 host operations of the program's printed window 10, in order (a call of the clamp function as its six operations
    over that call's buffers). -/
abbrev ops10 : List (HloOp τ sig (Elt F)) :=
  [ StableHlo.binary main_v426 main_v457 main_v458 (addi : (⟨S524288, .i32⟩ : BufTy).Contents (Elt F) → (⟨S524288, .i32⟩ : BufTy).Contents (Elt F) → (⟨S524288, .i32⟩ : BufTy).Contents (Elt F)),
    StableHlo.ternary main_v456 main_v458 main_v426 main_v459 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_140 (constantI S_ 32 0#32),
    StableHlo.unary main_c_140 main_v460 (broadcastInDim S524288 ![] bcast_S_S524288 : (⟨S_, .i32⟩ : BufTy).Contents (Elt F) → (⟨S524288, .i32⟩ : BufTy).Contents (Elt F)),
    StableHlo.binary main_v417 main_v460 main_v461 (cmpi .slt : (⟨S524288, .i32⟩ : BufTy).Contents (Elt F) → (⟨S524288, .i32⟩ : BufTy).Contents (Elt F) → (⟨S524288, .i1⟩ : BufTy).Contents (Elt F)),
    StableHlo.nullary main_c_141 (constantI S_ 32 256#32),
    StableHlo.unary main_c_141 main_v462 (broadcastInDim S524288 ![] bcast_S_S524288 : (⟨S_, .i32⟩ : BufTy).Contents (Elt F) → (⟨S524288, .i32⟩ : BufTy).Contents (Elt F)),
    StableHlo.binary main_v417 main_v462 main_v463 (addi : (⟨S524288, .i32⟩ : BufTy).Contents (Elt F) → (⟨S524288, .i32⟩ : BufTy).Contents (Elt F) → (⟨S524288, .i32⟩ : BufTy).Contents (Elt F)),
    StableHlo.ternary main_v461 main_v463 main_v417 main_v464 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v459 main_v465 (broadcastInDim S524288x1 ![0] bcast_S524288_S524288x1_0 : (⟨S524288, .i32⟩ : BufTy).Contents (Elt F) → (⟨S524288x1, .i32⟩ : BufTy).Contents (Elt F)),
    StableHlo.unary main_v464 main_v466 (broadcastInDim S524288x1 ![0] bcast_S524288_S524288x1_0 : (⟨S524288, .i32⟩ : BufTy).Contents (Elt F) → (⟨S524288x1, .i32⟩ : BufTy).Contents (Elt F)),
    StableHlo.binary main_v465 main_v466 main_v467 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg5 main_v467 main_v468 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    StableHlo.nullary main_c_142 (constantI S_ 32 0#32),
    StableHlo.unary main_c_142 main_v469 (broadcastInDim S524288 ![] bcast_S_S524288 : (⟨S_, .i32⟩ : BufTy).Contents (Elt F) → (⟨S524288, .i32⟩ : BufTy).Contents (Elt F)),
    StableHlo.binary main_v426 main_v469 main_v470 (cmpi .slt : (⟨S524288, .i32⟩ : BufTy).Contents (Elt F) → (⟨S524288, .i32⟩ : BufTy).Contents (Elt F) → (⟨S524288, .i1⟩ : BufTy).Contents (Elt F)),
    StableHlo.nullary main_c_143 (constantI S_ 32 256#32),
    StableHlo.unary main_c_143 main_v471 (broadcastInDim S524288 ![] bcast_S_S524288 : (⟨S_, .i32⟩ : BufTy).Contents (Elt F) → (⟨S524288, .i32⟩ : BufTy).Contents (Elt F)),
    StableHlo.binary main_v426 main_v471 main_v472 (addi : (⟨S524288, .i32⟩ : BufTy).Contents (Elt F) → (⟨S524288, .i32⟩ : BufTy).Contents (Elt F) → (⟨S524288, .i32⟩ : BufTy).Contents (Elt F)),
    StableHlo.ternary main_v470 main_v472 main_v426 main_v473 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_144 (constantI S_ 32 0#32),
    StableHlo.unary main_c_144 main_v474 (broadcastInDim S524288 ![] bcast_S_S524288 : (⟨S_, .i32⟩ : BufTy).Contents (Elt F) → (⟨S524288, .i32⟩ : BufTy).Contents (Elt F)),
    StableHlo.binary main_v422 main_v474 main_v475 (cmpi .slt : (⟨S524288, .i32⟩ : BufTy).Contents (Elt F) → (⟨S524288, .i32⟩ : BufTy).Contents (Elt F) → (⟨S524288, .i1⟩ : BufTy).Contents (Elt F)),
    StableHlo.nullary main_c_145 (constantI S_ 32 256#32),
    StableHlo.unary main_c_145 main_v476 (broadcastInDim S524288 ![] bcast_S_S524288 : (⟨S_, .i32⟩ : BufTy).Contents (Elt F) → (⟨S524288, .i32⟩ : BufTy).Contents (Elt F)),
    StableHlo.binary main_v422 main_v476 main_v477 (addi : (⟨S524288, .i32⟩ : BufTy).Contents (Elt F) → (⟨S524288, .i32⟩ : BufTy).Contents (Elt F) → (⟨S524288, .i32⟩ : BufTy).Contents (Elt F)),
    StableHlo.ternary main_v475 main_v477 main_v422 main_v478 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v473 main_v479 (broadcastInDim S524288x1 ![0] bcast_S524288_S524288x1_0 : (⟨S524288, .i32⟩ : BufTy).Contents (Elt F) → (⟨S524288x1, .i32⟩ : BufTy).Contents (Elt F)),
    StableHlo.unary main_v478 main_v480 (broadcastInDim S524288x1 ![0] bcast_S524288_S524288x1_0 : (⟨S524288, .i32⟩ : BufTy).Contents (Elt F) → (⟨S524288x1, .i32⟩ : BufTy).Contents (Elt F)),
    StableHlo.binary main_v479 main_v480 main_v481 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg5 main_v481 main_v482 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    StableHlo.nullary main_cst_146 (constant S_ .f32 0x3F800000#32),
    StableHlo.unary main_cst_146 main_v483 (broadcastInDim S524288 ![] bcast_S_S524288 : (⟨S_, .f32⟩ : BufTy).Contents (Elt F) → (⟨S524288, .f32⟩ : BufTy).Contents (Elt F)),
    StableHlo.binary main_v483 main_v415 main_v484 (subf : (⟨S524288, .f32⟩ : BufTy).Contents (Elt F) → (⟨S524288, .f32⟩ : BufTy).Contents (Elt F) → (⟨S524288, .f32⟩ : BufTy).Contents (Elt F)),
    StableHlo.unary main_v484 main_v485 (broadcastInDim S1x524288 ![1] bcast_S524288_S1x524288_1 : (⟨S524288, .f32⟩ : BufTy).Contents (Elt F) → (⟨S1x524288, .f32⟩ : BufTy).Contents (Elt F)),
    StableHlo.unary main_v485 main_v486 (broadcastInDim S32x524288 ![0, 1] bcast_S1x524288_S32x524288_0_1 : (⟨S1x524288, .f32⟩ : BufTy).Contents (Elt F) → (⟨S32x524288, .f32⟩ : BufTy).Contents (Elt F)),
    StableHlo.binary main_v440 main_v486 main_v487 (mulf : (⟨S32x524288, .f32⟩ : BufTy).Contents (Elt F) → (⟨S32x524288, .f32⟩ : BufTy).Contents (Elt F) → (⟨S32x524288, .f32⟩ : BufTy).Contents (Elt F)),
    StableHlo.unary main_v415 main_v488 (broadcastInDim S1x524288 ![1] bcast_S524288_S1x524288_1 : (⟨S524288, .f32⟩ : BufTy).Contents (Elt F) → (⟨S1x524288, .f32⟩ : BufTy).Contents (Elt F)),
    StableHlo.unary main_v488 main_v489 (broadcastInDim S32x524288 ![0, 1] bcast_S1x524288_S32x524288_0_1 : (⟨S1x524288, .f32⟩ : BufTy).Contents (Elt F) → (⟨S32x524288, .f32⟩ : BufTy).Contents (Elt F)),
    StableHlo.binary main_v454 main_v489 main_v490 (mulf : (⟨S32x524288, .f32⟩ : BufTy).Contents (Elt F) → (⟨S32x524288, .f32⟩ : BufTy).Contents (Elt F) → (⟨S32x524288, .f32⟩ : BufTy).Contents (Elt F)),
    StableHlo.binary main_v487 main_v490 main_v491 (addf : (⟨S32x524288, .f32⟩ : BufTy).Contents (Elt F) → (⟨S32x524288, .f32⟩ : BufTy).Contents (Elt F) → (⟨S32x524288, .f32⟩ : BufTy).Contents (Elt F)),
    StableHlo.nullary main_cst_147 (constant S_ .f32 0x3F800000#32),
    StableHlo.unary main_cst_147 main_v492 (broadcastInDim S524288 ![] bcast_S_S524288 : (⟨S_, .f32⟩ : BufTy).Contents (Elt F) → (⟨S524288, .f32⟩ : BufTy).Contents (Elt F)),
    StableHlo.binary main_v492 main_v415 main_v493 (subf : (⟨S524288, .f32⟩ : BufTy).Contents (Elt F) → (⟨S524288, .f32⟩ : BufTy).Contents (Elt F) → (⟨S524288, .f32⟩ : BufTy).Contents (Elt F)),
    StableHlo.unary main_v493 main_v494 (broadcastInDim S1x524288 ![1] bcast_S524288_S1x524288_1 : (⟨S524288, .f32⟩ : BufTy).Contents (Elt F) → (⟨S1x524288, .f32⟩ : BufTy).Contents (Elt F)),
    StableHlo.unary main_v494 main_v495 (broadcastInDim S32x524288 ![0, 1] bcast_S1x524288_S32x524288_0_1 : (⟨S1x524288, .f32⟩ : BufTy).Contents (Elt F) → (⟨S32x524288, .f32⟩ : BufTy).Contents (Elt F)),
    StableHlo.binary main_v468 main_v495 main_v496 (mulf : (⟨S32x524288, .f32⟩ : BufTy).Contents (Elt F) → (⟨S32x524288, .f32⟩ : BufTy).Contents (Elt F) → (⟨S32x524288, .f32⟩ : BufTy).Contents (Elt F)),
    StableHlo.unary main_v415 main_v497 (broadcastInDim S1x524288 ![1] bcast_S524288_S1x524288_1 : (⟨S524288, .f32⟩ : BufTy).Contents (Elt F) → (⟨S1x524288, .f32⟩ : BufTy).Contents (Elt F)),
    StableHlo.unary main_v497 main_v498 (broadcastInDim S32x524288 ![0, 1] bcast_S1x524288_S32x524288_0_1 : (⟨S1x524288, .f32⟩ : BufTy).Contents (Elt F) → (⟨S32x524288, .f32⟩ : BufTy).Contents (Elt F)),
    StableHlo.binary main_v482 main_v498 main_v499 (mulf : (⟨S32x524288, .f32⟩ : BufTy).Contents (Elt F) → (⟨S32x524288, .f32⟩ : BufTy).Contents (Elt F) → (⟨S32x524288, .f32⟩ : BufTy).Contents (Elt F)),
    StableHlo.binary main_v496 main_v499 main_v500 (addf : (⟨S32x524288, .f32⟩ : BufTy).Contents (Elt F) → (⟨S32x524288, .f32⟩ : BufTy).Contents (Elt F) → (⟨S32x524288, .f32⟩ : BufTy).Contents (Elt F)),
    StableHlo.nullary main_cst_148 (constant S_ .f32 0x3F800000#32),
    StableHlo.unary main_cst_148 main_v501 (broadcastInDim S524288 ![] bcast_S_S524288 : (⟨S_, .f32⟩ : BufTy).Contents (Elt F) → (⟨S524288, .f32⟩ : BufTy).Contents (Elt F)),
    StableHlo.binary main_v501 main_v416 main_v502 (subf : (⟨S524288, .f32⟩ : BufTy).Contents (Elt F) → (⟨S524288, .f32⟩ : BufTy).Contents (Elt F) → (⟨S524288, .f32⟩ : BufTy).Contents (Elt F)),
    StableHlo.unary main_v502 main_v503 (broadcastInDim S1x524288 ![1] bcast_S524288_S1x524288_1 : (⟨S524288, .f32⟩ : BufTy).Contents (Elt F) → (⟨S1x524288, .f32⟩ : BufTy).Contents (Elt F)),
    StableHlo.unary main_v503 main_v504 (broadcastInDim S32x524288 ![0, 1] bcast_S1x524288_S32x524288_0_1 : (⟨S1x524288, .f32⟩ : BufTy).Contents (Elt F) → (⟨S32x524288, .f32⟩ : BufTy).Contents (Elt F)),
    StableHlo.binary main_v491 main_v504 main_v505 (mulf : (⟨S32x524288, .f32⟩ : BufTy).Contents (Elt F) → (⟨S32x524288, .f32⟩ : BufTy).Contents (Elt F) → (⟨S32x524288, .f32⟩ : BufTy).Contents (Elt F)),
    StableHlo.unary main_v416 main_v506 (broadcastInDim S1x524288 ![1] bcast_S524288_S1x524288_1 : (⟨S524288, .f32⟩ : BufTy).Contents (Elt F) → (⟨S1x524288, .f32⟩ : BufTy).Contents (Elt F)),
    StableHlo.unary main_v506 main_v507 (broadcastInDim S32x524288 ![0, 1] bcast_S1x524288_S32x524288_0_1 : (⟨S1x524288, .f32⟩ : BufTy).Contents (Elt F) → (⟨S32x524288, .f32⟩ : BufTy).Contents (Elt F)),
    StableHlo.binary main_v500 main_v507 main_v508 (mulf : (⟨S32x524288, .f32⟩ : BufTy).Contents (Elt F) → (⟨S32x524288, .f32⟩ : BufTy).Contents (Elt F) → (⟨S32x524288, .f32⟩ : BufTy).Contents (Elt F)) ]

set_option maxHeartbeats 40000000 in
set_option maxRecDepth 65536 in
/-- The printed window is that straight line. -/
theorem part10_eq (d : Dev nD) : main_part10 (F := F) d = seq ops10 := by
  simp only [main_part10, fn_clip.body, seq, bind_assoc, pure_bind] <;> rfl

set_option maxHeartbeats 40000000 in
/-- Every operation of the window touches TensorCore references only. -/
theorem ops10_sub : (ops10 : List (HloOp τ sig (Elt F))).Forall fun op => op.bufs ⊆ tcRefs τ sig :=
  ⟨StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

set_option maxHeartbeats 40000000 in
/-- Every operation of the window determines what it writes. -/
theorem ops10_fresh : (ops10 : List (HloOp τ sig (Elt F))).Forall fun op => op.fresh = ∅ := by
  simp only [List.Forall]; repeat' constructor

end Cert.ReferenceIdeal.Line

end
-- ==== Proof.RefLine11.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 70 host operations of the program's printed window 11, in order (a call of the clamp function as its six operations
    over that call's buffers). -/
abbrev ops11 : List (HloOp τ sig (Elt F)) :=
  [ StableHlo.binary main_v505 main_v508 main_v509 (addf : (⟨S32x524288, .f32⟩ : BufTy).Contents (Elt F) → (⟨S32x524288, .f32⟩ : BufTy).Contents (Elt F) → (⟨S32x524288, .f32⟩ : BufTy).Contents (Elt F)),
    StableHlo.unary main_v509 main_v510 ((transpose S524288x32 [1, 0] · transposes_S32x524288_S524288x32_1_0) : (⟨S32x524288, .f32⟩ : BufTy).Contents (Elt F) → (⟨S524288x32, .f32⟩ : BufTy).Contents (Elt F)),
    StableHlo.nullary main_c_149 (constantI S_ 32 0#32),
    StableHlo.unary main_c_149 main_v511 (broadcastInDim S2 ![] bcast_S_S2 : (⟨S_, .i32⟩ : BufTy).Contents (Elt F) → (⟨S2, .i32⟩ : BufTy).Contents (Elt F)),
    StableHlo.binary main_c_3 main_v511 main_v512 (cmpi .slt : (⟨S2, .i32⟩ : BufTy).Contents (Elt F) → (⟨S2, .i32⟩ : BufTy).Contents (Elt F) → (⟨S2, .i1⟩ : BufTy).Contents (Elt F)),
    StableHlo.nullary main_c_150 (constantI S_ 32 3#32),
    StableHlo.unary main_c_150 main_v513 (broadcastInDim S2 ![] bcast_S_S2 : (⟨S_, .i32⟩ : BufTy).Contents (Elt F) → (⟨S2, .i32⟩ : BufTy).Contents (Elt F)),
    StableHlo.binary main_c_3 main_v513 main_v514 (addi : (⟨S2, .i32⟩ : BufTy).Contents (Elt F) → (⟨S2, .i32⟩ : BufTy).Contents (Elt F) → (⟨S2, .i32⟩ : BufTy).Contents (Elt F)),
    StableHlo.ternary main_v512 main_v514 main_c_3 main_v515 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v515 main_v516 (broadcastInDim S2x1 ![0] bcast_S2_S2x1_0 : (⟨S2, .i32⟩ : BufTy).Contents (Elt F) → (⟨S2x1, .i32⟩ : BufTy).Contents (Elt F)),
    StableHlo.binary main_v17 main_v516 main_v517 ((fun x i => Host.gather gather_S524288x3_S2x1_S524288x2_0_1_n_n_1_1_5242881 x i) : (⟨S524288x3, .f32⟩ : BufTy).Contents (Elt F) → (⟨S2x1, .i32⟩ : BufTy).Contents (Elt F) → (⟨S524288x2, .f32⟩ : BufTy).Contents (Elt F)),
    StableHlo.unary main_v517 main_v518 ((extractStridedSlice S524288x1 ![0, 0] · slices_S524288x2_S524288x1_0_0) : (⟨S524288x2, .f32⟩ : BufTy).Contents (Elt F) → (⟨S524288x1, .f32⟩ : BufTy).Contents (Elt F)),
    StableHlo.reshape main_v518 main_v519 rfl shapeCasts_S524288x1_S524288,
    StableHlo.nullary main_cst_151 (constant S_ .f32 0x3F800000#32),
    StableHlo.unary main_cst_151 main_v520 (broadcastInDim S524288 ![] bcast_S_S524288 : (⟨S_, .f32⟩ : BufTy).Contents (Elt F) → (⟨S524288, .f32⟩ : BufTy).Contents (Elt F)),
    StableHlo.binary main_v519 main_v520 main_v521 (addf : (⟨S524288, .f32⟩ : BufTy).Contents (Elt F) → (⟨S524288, .f32⟩ : BufTy).Contents (Elt F) → (⟨S524288, .f32⟩ : BufTy).Contents (Elt F)),
    StableHlo.nullary main_cst_152 (constant S_ .f32 0x3F000000#32),
    StableHlo.unary main_cst_152 main_v522 (broadcastInDim S524288 ![] bcast_S_S524288 : (⟨S_, .f32⟩ : BufTy).Contents (Elt F) → (⟨S524288, .f32⟩ : BufTy).Contents (Elt F)),
    StableHlo.binary main_v521 main_v522 main_v523 (mulf : (⟨S524288, .f32⟩ : BufTy).Contents (Elt F) → (⟨S524288, .f32⟩ : BufTy).Contents (Elt F) → (⟨S524288, .f32⟩ : BufTy).Contents (Elt F)),
    StableHlo.nullary main_cst_153 (constant S_ .f32 0x437F0000#32),
    StableHlo.unary main_cst_153 main_v524 (broadcastInDim S524288 ![] bcast_S_S524288 : (⟨S_, .f32⟩ : BufTy).Contents (Elt F) → (⟨S524288, .f32⟩ : BufTy).Contents (Elt F)),
    StableHlo.binary main_v523 main_v524 main_v525 (mulf : (⟨S524288, .f32⟩ : BufTy).Contents (Elt F) → (⟨S524288, .f32⟩ : BufTy).Contents (Elt F) → (⟨S524288, .f32⟩ : BufTy).Contents (Elt F)),
    StableHlo.nullary main_cst_154 (constant S_ .f32 0x00000000#32),
    StableHlo.nullary main_c_155 (constantI S_ 32 255#32),
    StableHlo.TRef.unary (.of main_cst_154 : StableHlo.TRef sig ⟨S_, .f32⟩) main_call8.v0 id,
    StableHlo.TRef.unary main_call8.v0 main_call8.v1 (broadcastInDim S524288 ![] bcast_S_S524288),
    StableHlo.TRef.binary main_call8.v1 (.of main_v525 : StableHlo.TRef sig ⟨S524288, .f32⟩) main_call8.v2 maximumf,
    StableHlo.TRef.unary (.of main_c_155 : StableHlo.TRef sig ⟨S_, .i32⟩) main_call8.v3 (sitofp .f32),
    StableHlo.TRef.unary main_call8.v3 main_call8.v4 (broadcastInDim S524288 ![] bcast_S_S524288),
    StableHlo.TRef.binary main_call8.v4 main_call8.v2 main_call8.v5 minimumf,
    StableHlo.unary main_v517 main_v527 ((extractStridedSlice S524288x1 ![0, 1] · slices_S524288x2_S524288x1_0_1) : (⟨S524288x2, .f32⟩ : BufTy).Contents (Elt F) → (⟨S524288x1, .f32⟩ : BufTy).Contents (Elt F)),
    StableHlo.reshape main_v527 main_v528 rfl shapeCasts_S524288x1_S524288,
    StableHlo.nullary main_cst_156 (constant S_ .f32 0x3F800000#32),
    StableHlo.unary main_cst_156 main_v529 (broadcastInDim S524288 ![] bcast_S_S524288 : (⟨S_, .f32⟩ : BufTy).Contents (Elt F) → (⟨S524288, .f32⟩ : BufTy).Contents (Elt F)),
    StableHlo.binary main_v528 main_v529 main_v530 (addf : (⟨S524288, .f32⟩ : BufTy).Contents (Elt F) → (⟨S524288, .f32⟩ : BufTy).Contents (Elt F) → (⟨S524288, .f32⟩ : BufTy).Contents (Elt F)),
    StableHlo.nullary main_cst_157 (constant S_ .f32 0x3F000000#32),
    StableHlo.unary main_cst_157 main_v531 (broadcastInDim S524288 ![] bcast_S_S524288 : (⟨S_, .f32⟩ : BufTy).Contents (Elt F) → (⟨S524288, .f32⟩ : BufTy).Contents (Elt F)),
    StableHlo.binary main_v530 main_v531 main_v532 (mulf : (⟨S524288, .f32⟩ : BufTy).Contents (Elt F) → (⟨S524288, .f32⟩ : BufTy).Contents (Elt F) → (⟨S524288, .f32⟩ : BufTy).Contents (Elt F)),
    StableHlo.nullary main_cst_158 (constant S_ .f32 0x437F0000#32),
    StableHlo.unary main_cst_158 main_v533 (broadcastInDim S524288 ![] bcast_S_S524288 : (⟨S_, .f32⟩ : BufTy).Contents (Elt F) → (⟨S524288, .f32⟩ : BufTy).Contents (Elt F)),
    StableHlo.binary main_v532 main_v533 main_v534 (mulf : (⟨S524288, .f32⟩ : BufTy).Contents (Elt F) → (⟨S524288, .f32⟩ : BufTy).Contents (Elt F) → (⟨S524288, .f32⟩ : BufTy).Contents (Elt F)),
    StableHlo.nullary main_cst_159 (constant S_ .f32 0x00000000#32),
    StableHlo.nullary main_c_160 (constantI S_ 32 255#32),
    StableHlo.TRef.unary (.of main_cst_159 : StableHlo.TRef sig ⟨S_, .f32⟩) main_call9.v0 id,
    StableHlo.TRef.unary main_call9.v0 main_call9.v1 (broadcastInDim S524288 ![] bcast_S_S524288),
    StableHlo.TRef.binary main_call9.v1 (.of main_v534 : StableHlo.TRef sig ⟨S524288, .f32⟩) main_call9.v2 maximumf,
    StableHlo.TRef.unary (.of main_c_160 : StableHlo.TRef sig ⟨S_, .i32⟩) main_call9.v3 (sitofp .f32),
    StableHlo.TRef.unary main_call9.v3 main_call9.v4 (broadcastInDim S524288 ![] bcast_S_S524288),
    StableHlo.TRef.binary main_call9.v4 main_call9.v2 main_call9.v5 minimumf,
    StableHlo.unary main_v526 main_v536 (Host.floor : (⟨S524288, .f32⟩ : BufTy).Contents (Elt F) → (⟨S524288, .f32⟩ : BufTy).Contents (Elt F)),
    StableHlo.unary main_v535 main_v537 (Host.floor : (⟨S524288, .f32⟩ : BufTy).Contents (Elt F) → (⟨S524288, .f32⟩ : BufTy).Contents (Elt F)),
    StableHlo.binary main_v526 main_v536 main_v538 (subf : (⟨S524288, .f32⟩ : BufTy).Contents (Elt F) → (⟨S524288, .f32⟩ : BufTy).Contents (Elt F) → (⟨S524288, .f32⟩ : BufTy).Contents (Elt F)),
    StableHlo.binary main_v535 main_v537 main_v539 (subf : (⟨S524288, .f32⟩ : BufTy).Contents (Elt F) → (⟨S524288, .f32⟩ : BufTy).Contents (Elt F) → (⟨S524288, .f32⟩ : BufTy).Contents (Elt F)),
    StableHlo.unary main_v536 main_v540 (fptosi 32 : (⟨S524288, .f32⟩ : BufTy).Contents (Elt F) → (⟨S524288, .i32⟩ : BufTy).Contents (Elt F)),
    StableHlo.unary main_v537 main_v541 (fptosi 32 : (⟨S524288, .f32⟩ : BufTy).Contents (Elt F) → (⟨S524288, .i32⟩ : BufTy).Contents (Elt F)),
    StableHlo.nullary main_c_161 (constantI S_ 32 1#32),
    StableHlo.unary main_c_161 main_v542 (broadcastInDim S524288 ![] bcast_S_S524288 : (⟨S_, .i32⟩ : BufTy).Contents (Elt F) → (⟨S524288, .i32⟩ : BufTy).Contents (Elt F)),
    StableHlo.binary main_v540 main_v542 main_v543 (addi : (⟨S524288, .i32⟩ : BufTy).Contents (Elt F) → (⟨S524288, .i32⟩ : BufTy).Contents (Elt F) → (⟨S524288, .i32⟩ : BufTy).Contents (Elt F)),
    StableHlo.nullary main_c_162 (constantI S_ 32 255#32),
    StableHlo.unary main_c_162 main_v544 (broadcastInDim S524288 ![] bcast_S_S524288 : (⟨S_, .i32⟩ : BufTy).Contents (Elt F) → (⟨S524288, .i32⟩ : BufTy).Contents (Elt F)),
    StableHlo.binary main_v543 main_v544 main_v545 (minsi : (⟨S524288, .i32⟩ : BufTy).Contents (Elt F) → (⟨S524288, .i32⟩ : BufTy).Contents (Elt F) → (⟨S524288, .i32⟩ : BufTy).Contents (Elt F)),
    StableHlo.nullary main_c_163 (constantI S_ 32 1#32),
    StableHlo.unary main_c_163 main_v546 (broadcastInDim S524288 ![] bcast_S_S524288 : (⟨S_, .i32⟩ : BufTy).Contents (Elt F) → (⟨S524288, .i32⟩ : BufTy).Contents (Elt F)),
    StableHlo.binary main_v541 main_v546 main_v547 (addi : (⟨S524288, .i32⟩ : BufTy).Contents (Elt F) → (⟨S524288, .i32⟩ : BufTy).Contents (Elt F) → (⟨S524288, .i32⟩ : BufTy).Contents (Elt F)),
    StableHlo.nullary main_c_164 (constantI S_ 32 255#32),
    StableHlo.unary main_c_164 main_v548 (broadcastInDim S524288 ![] bcast_S_S524288 : (⟨S_, .i32⟩ : BufTy).Contents (Elt F) → (⟨S524288, .i32⟩ : BufTy).Contents (Elt F)),
    StableHlo.binary main_v547 main_v548 main_v549 (minsi : (⟨S524288, .i32⟩ : BufTy).Contents (Elt F) → (⟨S524288, .i32⟩ : BufTy).Contents (Elt F) → (⟨S524288, .i32⟩ : BufTy).Contents (Elt F)),
    StableHlo.nullary main_c_165 (constantI S_ 32 0#32),
    StableHlo.unary main_c_165 main_v550 (broadcastInDim S524288 ![] bcast_S_S524288 : (⟨S_, .i32⟩ : BufTy).Contents (Elt F) → (⟨S524288, .i32⟩ : BufTy).Contents (Elt F)),
    StableHlo.binary main_v541 main_v550 main_v551 (cmpi .slt : (⟨S524288, .i32⟩ : BufTy).Contents (Elt F) → (⟨S524288, .i32⟩ : BufTy).Contents (Elt F) → (⟨S524288, .i1⟩ : BufTy).Contents (Elt F)) ]

set_option maxHeartbeats 40000000 in
set_option maxRecDepth 65536 in
/-- The printed window is that straight line. -/
theorem part11_eq (d : Dev nD) : main_part11 (F := F) d = seq ops11 := by
  simp only [main_part11, fn_clip.body, seq, bind_assoc, pure_bind] <;> rfl

set_option maxHeartbeats 40000000 in
/-- Every operation of the window touches TensorCore references only. -/
theorem ops11_sub : (ops11 : List (HloOp τ sig (Elt F))).Forall fun op => op.bufs ⊆ tcRefs τ sig :=
  ⟨StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩

set_option maxHeartbeats 40000000 in
/-- Every operation of the window determines what it writes. -/
theorem ops11_fresh : (ops11 : List (HloOp τ sig (Elt F))).Forall fun op => op.fresh = ∅ := by
  simp only [List.Forall]; repeat' constructor

end Cert.ReferenceIdeal.Line

end
-- ==== Proof.RefLine12.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 60 host operations of the program's printed window 12, in order (a call of the clamp function as its six operations
    over that call's buffers). -/
abbrev ops12 : List (HloOp τ sig (Elt F)) :=
  [ StableHlo.nullary main_c_166 (constantI S_ 32 256#32),
    StableHlo.unary main_c_166 main_v552 (broadcastInDim S524288 ![] bcast_S_S524288 : (⟨S_, .i32⟩ : BufTy).Contents (Elt F) → (⟨S524288, .i32⟩ : BufTy).Contents (Elt F)),
    StableHlo.binary main_v541 main_v552 main_v553 (addi : (⟨S524288, .i32⟩ : BufTy).Contents (Elt F) → (⟨S524288, .i32⟩ : BufTy).Contents (Elt F) → (⟨S524288, .i32⟩ : BufTy).Contents (Elt F)),
    StableHlo.ternary main_v551 main_v553 main_v541 main_v554 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_167 (constantI S_ 32 0#32),
    StableHlo.unary main_c_167 main_v555 (broadcastInDim S524288 ![] bcast_S_S524288 : (⟨S_, .i32⟩ : BufTy).Contents (Elt F) → (⟨S524288, .i32⟩ : BufTy).Contents (Elt F)),
    StableHlo.binary main_v540 main_v555 main_v556 (cmpi .slt : (⟨S524288, .i32⟩ : BufTy).Contents (Elt F) → (⟨S524288, .i32⟩ : BufTy).Contents (Elt F) → (⟨S524288, .i1⟩ : BufTy).Contents (Elt F)),
    StableHlo.nullary main_c_168 (constantI S_ 32 256#32),
    StableHlo.unary main_c_168 main_v557 (broadcastInDim S524288 ![] bcast_S_S524288 : (⟨S_, .i32⟩ : BufTy).Contents (Elt F) → (⟨S524288, .i32⟩ : BufTy).Contents (Elt F)),
    StableHlo.binary main_v540 main_v557 main_v558 (addi : (⟨S524288, .i32⟩ : BufTy).Contents (Elt F) → (⟨S524288, .i32⟩ : BufTy).Contents (Elt F) → (⟨S524288, .i32⟩ : BufTy).Contents (Elt F)),
    StableHlo.ternary main_v556 main_v558 main_v540 main_v559 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v554 main_v560 (broadcastInDim S524288x1 ![0] bcast_S524288_S524288x1_0 : (⟨S524288, .i32⟩ : BufTy).Contents (Elt F) → (⟨S524288x1, .i32⟩ : BufTy).Contents (Elt F)),
    StableHlo.unary main_v559 main_v561 (broadcastInDim S524288x1 ![0] bcast_S524288_S524288x1_0 : (⟨S524288, .i32⟩ : BufTy).Contents (Elt F) → (⟨S524288x1, .i32⟩ : BufTy).Contents (Elt F)),
    StableHlo.binary main_v560 main_v561 main_v562 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg6 main_v562 main_v563 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    StableHlo.nullary main_c_169 (constantI S_ 32 0#32),
    StableHlo.unary main_c_169 main_v564 (broadcastInDim S524288 ![] bcast_S_S524288 : (⟨S_, .i32⟩ : BufTy).Contents (Elt F) → (⟨S524288, .i32⟩ : BufTy).Contents (Elt F)),
    StableHlo.binary main_v541 main_v564 main_v565 (cmpi .slt : (⟨S524288, .i32⟩ : BufTy).Contents (Elt F) → (⟨S524288, .i32⟩ : BufTy).Contents (Elt F) → (⟨S524288, .i1⟩ : BufTy).Contents (Elt F)),
    StableHlo.nullary main_c_170 (constantI S_ 32 256#32),
    StableHlo.unary main_c_170 main_v566 (broadcastInDim S524288 ![] bcast_S_S524288 : (⟨S_, .i32⟩ : BufTy).Contents (Elt F) → (⟨S524288, .i32⟩ : BufTy).Contents (Elt F)),
    StableHlo.binary main_v541 main_v566 main_v567 (addi : (⟨S524288, .i32⟩ : BufTy).Contents (Elt F) → (⟨S524288, .i32⟩ : BufTy).Contents (Elt F) → (⟨S524288, .i32⟩ : BufTy).Contents (Elt F)),
    StableHlo.ternary main_v565 main_v567 main_v541 main_v568 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_171 (constantI S_ 32 0#32),
    StableHlo.unary main_c_171 main_v569 (broadcastInDim S524288 ![] bcast_S_S524288 : (⟨S_, .i32⟩ : BufTy).Contents (Elt F) → (⟨S524288, .i32⟩ : BufTy).Contents (Elt F)),
    StableHlo.binary main_v545 main_v569 main_v570 (cmpi .slt : (⟨S524288, .i32⟩ : BufTy).Contents (Elt F) → (⟨S524288, .i32⟩ : BufTy).Contents (Elt F) → (⟨S524288, .i1⟩ : BufTy).Contents (Elt F)),
    StableHlo.nullary main_c_172 (constantI S_ 32 256#32),
    StableHlo.unary main_c_172 main_v571 (broadcastInDim S524288 ![] bcast_S_S524288 : (⟨S_, .i32⟩ : BufTy).Contents (Elt F) → (⟨S524288, .i32⟩ : BufTy).Contents (Elt F)),
    StableHlo.binary main_v545 main_v571 main_v572 (addi : (⟨S524288, .i32⟩ : BufTy).Contents (Elt F) → (⟨S524288, .i32⟩ : BufTy).Contents (Elt F) → (⟨S524288, .i32⟩ : BufTy).Contents (Elt F)),
    StableHlo.ternary main_v570 main_v572 main_v545 main_v573 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v568 main_v574 (broadcastInDim S524288x1 ![0] bcast_S524288_S524288x1_0 : (⟨S524288, .i32⟩ : BufTy).Contents (Elt F) → (⟨S524288x1, .i32⟩ : BufTy).Contents (Elt F)),
    StableHlo.unary main_v573 main_v575 (broadcastInDim S524288x1 ![0] bcast_S524288_S524288x1_0 : (⟨S524288, .i32⟩ : BufTy).Contents (Elt F) → (⟨S524288x1, .i32⟩ : BufTy).Contents (Elt F)),
    StableHlo.binary main_v574 main_v575 main_v576 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg6 main_v576 main_v577 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    StableHlo.nullary main_c_173 (constantI S_ 32 0#32),
    StableHlo.unary main_c_173 main_v578 (broadcastInDim S524288 ![] bcast_S_S524288 : (⟨S_, .i32⟩ : BufTy).Contents (Elt F) → (⟨S524288, .i32⟩ : BufTy).Contents (Elt F)),
    StableHlo.binary main_v549 main_v578 main_v579 (cmpi .slt : (⟨S524288, .i32⟩ : BufTy).Contents (Elt F) → (⟨S524288, .i32⟩ : BufTy).Contents (Elt F) → (⟨S524288, .i1⟩ : BufTy).Contents (Elt F)),
    StableHlo.nullary main_c_174 (constantI S_ 32 256#32),
    StableHlo.unary main_c_174 main_v580 (broadcastInDim S524288 ![] bcast_S_S524288 : (⟨S_, .i32⟩ : BufTy).Contents (Elt F) → (⟨S524288, .i32⟩ : BufTy).Contents (Elt F)),
    StableHlo.binary main_v549 main_v580 main_v581 (addi : (⟨S524288, .i32⟩ : BufTy).Contents (Elt F) → (⟨S524288, .i32⟩ : BufTy).Contents (Elt F) → (⟨S524288, .i32⟩ : BufTy).Contents (Elt F)),
    StableHlo.ternary main_v579 main_v581 main_v549 main_v582 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_175 (constantI S_ 32 0#32),
    StableHlo.unary main_c_175 main_v583 (broadcastInDim S524288 ![] bcast_S_S524288 : (⟨S_, .i32⟩ : BufTy).Contents (Elt F) → (⟨S524288, .i32⟩ : BufTy).Contents (Elt F)),
    StableHlo.binary main_v540 main_v583 main_v584 (cmpi .slt : (⟨S524288, .i32⟩ : BufTy).Contents (Elt F) → (⟨S524288, .i32⟩ : BufTy).Contents (Elt F) → (⟨S524288, .i1⟩ : BufTy).Contents (Elt F)),
    StableHlo.nullary main_c_176 (constantI S_ 32 256#32),
    StableHlo.unary main_c_176 main_v585 (broadcastInDim S524288 ![] bcast_S_S524288 : (⟨S_, .i32⟩ : BufTy).Contents (Elt F) → (⟨S524288, .i32⟩ : BufTy).Contents (Elt F)),
    StableHlo.binary main_v540 main_v585 main_v586 (addi : (⟨S524288, .i32⟩ : BufTy).Contents (Elt F) → (⟨S524288, .i32⟩ : BufTy).Contents (Elt F) → (⟨S524288, .i32⟩ : BufTy).Contents (Elt F)),
    StableHlo.ternary main_v584 main_v586 main_v540 main_v587 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v582 main_v588 (broadcastInDim S524288x1 ![0] bcast_S524288_S524288x1_0 : (⟨S524288, .i32⟩ : BufTy).Contents (Elt F) → (⟨S524288x1, .i32⟩ : BufTy).Contents (Elt F)),
    StableHlo.unary main_v587 main_v589 (broadcastInDim S524288x1 ![0] bcast_S524288_S524288x1_0 : (⟨S524288, .i32⟩ : BufTy).Contents (Elt F) → (⟨S524288x1, .i32⟩ : BufTy).Contents (Elt F)),
    StableHlo.binary main_v588 main_v589 main_v590 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg6 main_v590 main_v591 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    StableHlo.nullary main_c_177 (constantI S_ 32 0#32),
    StableHlo.unary main_c_177 main_v592 (broadcastInDim S524288 ![] bcast_S_S524288 : (⟨S_, .i32⟩ : BufTy).Contents (Elt F) → (⟨S524288, .i32⟩ : BufTy).Contents (Elt F)),
    StableHlo.binary main_v549 main_v592 main_v593 (cmpi .slt : (⟨S524288, .i32⟩ : BufTy).Contents (Elt F) → (⟨S524288, .i32⟩ : BufTy).Contents (Elt F) → (⟨S524288, .i1⟩ : BufTy).Contents (Elt F)),
    StableHlo.nullary main_c_178 (constantI S_ 32 256#32),
    StableHlo.unary main_c_178 main_v594 (broadcastInDim S524288 ![] bcast_S_S524288 : (⟨S_, .i32⟩ : BufTy).Contents (Elt F) → (⟨S524288, .i32⟩ : BufTy).Contents (Elt F)),
    StableHlo.binary main_v549 main_v594 main_v595 (addi : (⟨S524288, .i32⟩ : BufTy).Contents (Elt F) → (⟨S524288, .i32⟩ : BufTy).Contents (Elt F) → (⟨S524288, .i32⟩ : BufTy).Contents (Elt F)),
    StableHlo.ternary main_v593 main_v595 main_v549 main_v596 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_179 (constantI S_ 32 0#32),
    StableHlo.unary main_c_179 main_v597 (broadcastInDim S524288 ![] bcast_S_S524288 : (⟨S_, .i32⟩ : BufTy).Contents (Elt F) → (⟨S524288, .i32⟩ : BufTy).Contents (Elt F)) ]

set_option maxHeartbeats 40000000 in
set_option maxRecDepth 65536 in
/-- The printed window is that straight line. -/
theorem part12_eq (d : Dev nD) : main_part12 (F := F) d = seq ops12 := by
  simp only [main_part12, fn_clip.body, seq, bind_assoc, pure_bind] <;> rfl

set_option maxHeartbeats 40000000 in
/-- Every operation of the window touches TensorCore references only. -/
theorem ops12_sub : (ops12 : List (HloOp τ sig (Elt F))).Forall fun op => op.bufs ⊆ tcRefs τ sig :=
  ⟨StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub ..⟩

set_option maxHeartbeats 40000000 in
/-- Every operation of the window determines what it writes. -/
theorem ops12_fresh : (ops12 : List (HloOp τ sig (Elt F))).Forall fun op => op.fresh = ∅ := by
  simp only [List.Forall]; repeat' constructor

end Cert.ReferenceIdeal.Line

end
-- ==== Proof.RefLine13.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 60 host operations of the program's printed window 13, in order (a call of the clamp function as its six operations
    over that call's buffers). -/
abbrev ops13 : List (HloOp τ sig (Elt F)) :=
  [ StableHlo.binary main_v545 main_v597 main_v598 (cmpi .slt : (⟨S524288, .i32⟩ : BufTy).Contents (Elt F) → (⟨S524288, .i32⟩ : BufTy).Contents (Elt F) → (⟨S524288, .i1⟩ : BufTy).Contents (Elt F)),
    StableHlo.nullary main_c_180 (constantI S_ 32 256#32),
    StableHlo.unary main_c_180 main_v599 (broadcastInDim S524288 ![] bcast_S_S524288 : (⟨S_, .i32⟩ : BufTy).Contents (Elt F) → (⟨S524288, .i32⟩ : BufTy).Contents (Elt F)),
    StableHlo.binary main_v545 main_v599 main_v600 (addi : (⟨S524288, .i32⟩ : BufTy).Contents (Elt F) → (⟨S524288, .i32⟩ : BufTy).Contents (Elt F) → (⟨S524288, .i32⟩ : BufTy).Contents (Elt F)),
    StableHlo.ternary main_v598 main_v600 main_v545 main_v601 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v596 main_v602 (broadcastInDim S524288x1 ![0] bcast_S524288_S524288x1_0 : (⟨S524288, .i32⟩ : BufTy).Contents (Elt F) → (⟨S524288x1, .i32⟩ : BufTy).Contents (Elt F)),
    StableHlo.unary main_v601 main_v603 (broadcastInDim S524288x1 ![0] bcast_S524288_S524288x1_0 : (⟨S524288, .i32⟩ : BufTy).Contents (Elt F) → (⟨S524288x1, .i32⟩ : BufTy).Contents (Elt F)),
    StableHlo.binary main_v602 main_v603 main_v604 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg6 main_v604 main_v605 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    StableHlo.nullary main_cst_181 (constant S_ .f32 0x3F800000#32),
    StableHlo.unary main_cst_181 main_v606 (broadcastInDim S524288 ![] bcast_S_S524288 : (⟨S_, .f32⟩ : BufTy).Contents (Elt F) → (⟨S524288, .f32⟩ : BufTy).Contents (Elt F)),
    StableHlo.binary main_v606 main_v538 main_v607 (subf : (⟨S524288, .f32⟩ : BufTy).Contents (Elt F) → (⟨S524288, .f32⟩ : BufTy).Contents (Elt F) → (⟨S524288, .f32⟩ : BufTy).Contents (Elt F)),
    StableHlo.unary main_v607 main_v608 (broadcastInDim S1x524288 ![1] bcast_S524288_S1x524288_1 : (⟨S524288, .f32⟩ : BufTy).Contents (Elt F) → (⟨S1x524288, .f32⟩ : BufTy).Contents (Elt F)),
    StableHlo.unary main_v608 main_v609 (broadcastInDim S32x524288 ![0, 1] bcast_S1x524288_S32x524288_0_1 : (⟨S1x524288, .f32⟩ : BufTy).Contents (Elt F) → (⟨S32x524288, .f32⟩ : BufTy).Contents (Elt F)),
    StableHlo.binary main_v563 main_v609 main_v610 (mulf : (⟨S32x524288, .f32⟩ : BufTy).Contents (Elt F) → (⟨S32x524288, .f32⟩ : BufTy).Contents (Elt F) → (⟨S32x524288, .f32⟩ : BufTy).Contents (Elt F)),
    StableHlo.unary main_v538 main_v611 (broadcastInDim S1x524288 ![1] bcast_S524288_S1x524288_1 : (⟨S524288, .f32⟩ : BufTy).Contents (Elt F) → (⟨S1x524288, .f32⟩ : BufTy).Contents (Elt F)),
    StableHlo.unary main_v611 main_v612 (broadcastInDim S32x524288 ![0, 1] bcast_S1x524288_S32x524288_0_1 : (⟨S1x524288, .f32⟩ : BufTy).Contents (Elt F) → (⟨S32x524288, .f32⟩ : BufTy).Contents (Elt F)),
    StableHlo.binary main_v577 main_v612 main_v613 (mulf : (⟨S32x524288, .f32⟩ : BufTy).Contents (Elt F) → (⟨S32x524288, .f32⟩ : BufTy).Contents (Elt F) → (⟨S32x524288, .f32⟩ : BufTy).Contents (Elt F)),
    StableHlo.binary main_v610 main_v613 main_v614 (addf : (⟨S32x524288, .f32⟩ : BufTy).Contents (Elt F) → (⟨S32x524288, .f32⟩ : BufTy).Contents (Elt F) → (⟨S32x524288, .f32⟩ : BufTy).Contents (Elt F)),
    StableHlo.nullary main_cst_182 (constant S_ .f32 0x3F800000#32),
    StableHlo.unary main_cst_182 main_v615 (broadcastInDim S524288 ![] bcast_S_S524288 : (⟨S_, .f32⟩ : BufTy).Contents (Elt F) → (⟨S524288, .f32⟩ : BufTy).Contents (Elt F)),
    StableHlo.binary main_v615 main_v538 main_v616 (subf : (⟨S524288, .f32⟩ : BufTy).Contents (Elt F) → (⟨S524288, .f32⟩ : BufTy).Contents (Elt F) → (⟨S524288, .f32⟩ : BufTy).Contents (Elt F)),
    StableHlo.unary main_v616 main_v617 (broadcastInDim S1x524288 ![1] bcast_S524288_S1x524288_1 : (⟨S524288, .f32⟩ : BufTy).Contents (Elt F) → (⟨S1x524288, .f32⟩ : BufTy).Contents (Elt F)),
    StableHlo.unary main_v617 main_v618 (broadcastInDim S32x524288 ![0, 1] bcast_S1x524288_S32x524288_0_1 : (⟨S1x524288, .f32⟩ : BufTy).Contents (Elt F) → (⟨S32x524288, .f32⟩ : BufTy).Contents (Elt F)),
    StableHlo.binary main_v591 main_v618 main_v619 (mulf : (⟨S32x524288, .f32⟩ : BufTy).Contents (Elt F) → (⟨S32x524288, .f32⟩ : BufTy).Contents (Elt F) → (⟨S32x524288, .f32⟩ : BufTy).Contents (Elt F)),
    StableHlo.unary main_v538 main_v620 (broadcastInDim S1x524288 ![1] bcast_S524288_S1x524288_1 : (⟨S524288, .f32⟩ : BufTy).Contents (Elt F) → (⟨S1x524288, .f32⟩ : BufTy).Contents (Elt F)),
    StableHlo.unary main_v620 main_v621 (broadcastInDim S32x524288 ![0, 1] bcast_S1x524288_S32x524288_0_1 : (⟨S1x524288, .f32⟩ : BufTy).Contents (Elt F) → (⟨S32x524288, .f32⟩ : BufTy).Contents (Elt F)),
    StableHlo.binary main_v605 main_v621 main_v622 (mulf : (⟨S32x524288, .f32⟩ : BufTy).Contents (Elt F) → (⟨S32x524288, .f32⟩ : BufTy).Contents (Elt F) → (⟨S32x524288, .f32⟩ : BufTy).Contents (Elt F)),
    StableHlo.binary main_v619 main_v622 main_v623 (addf : (⟨S32x524288, .f32⟩ : BufTy).Contents (Elt F) → (⟨S32x524288, .f32⟩ : BufTy).Contents (Elt F) → (⟨S32x524288, .f32⟩ : BufTy).Contents (Elt F)),
    StableHlo.nullary main_cst_183 (constant S_ .f32 0x3F800000#32),
    StableHlo.unary main_cst_183 main_v624 (broadcastInDim S524288 ![] bcast_S_S524288 : (⟨S_, .f32⟩ : BufTy).Contents (Elt F) → (⟨S524288, .f32⟩ : BufTy).Contents (Elt F)),
    StableHlo.binary main_v624 main_v539 main_v625 (subf : (⟨S524288, .f32⟩ : BufTy).Contents (Elt F) → (⟨S524288, .f32⟩ : BufTy).Contents (Elt F) → (⟨S524288, .f32⟩ : BufTy).Contents (Elt F)),
    StableHlo.unary main_v625 main_v626 (broadcastInDim S1x524288 ![1] bcast_S524288_S1x524288_1 : (⟨S524288, .f32⟩ : BufTy).Contents (Elt F) → (⟨S1x524288, .f32⟩ : BufTy).Contents (Elt F)),
    StableHlo.unary main_v626 main_v627 (broadcastInDim S32x524288 ![0, 1] bcast_S1x524288_S32x524288_0_1 : (⟨S1x524288, .f32⟩ : BufTy).Contents (Elt F) → (⟨S32x524288, .f32⟩ : BufTy).Contents (Elt F)),
    StableHlo.binary main_v614 main_v627 main_v628 (mulf : (⟨S32x524288, .f32⟩ : BufTy).Contents (Elt F) → (⟨S32x524288, .f32⟩ : BufTy).Contents (Elt F) → (⟨S32x524288, .f32⟩ : BufTy).Contents (Elt F)),
    StableHlo.unary main_v539 main_v629 (broadcastInDim S1x524288 ![1] bcast_S524288_S1x524288_1 : (⟨S524288, .f32⟩ : BufTy).Contents (Elt F) → (⟨S1x524288, .f32⟩ : BufTy).Contents (Elt F)),
    StableHlo.unary main_v629 main_v630 (broadcastInDim S32x524288 ![0, 1] bcast_S1x524288_S32x524288_0_1 : (⟨S1x524288, .f32⟩ : BufTy).Contents (Elt F) → (⟨S32x524288, .f32⟩ : BufTy).Contents (Elt F)),
    StableHlo.binary main_v623 main_v630 main_v631 (mulf : (⟨S32x524288, .f32⟩ : BufTy).Contents (Elt F) → (⟨S32x524288, .f32⟩ : BufTy).Contents (Elt F) → (⟨S32x524288, .f32⟩ : BufTy).Contents (Elt F)),
    StableHlo.binary main_v628 main_v631 main_v632 (addf : (⟨S32x524288, .f32⟩ : BufTy).Contents (Elt F) → (⟨S32x524288, .f32⟩ : BufTy).Contents (Elt F) → (⟨S32x524288, .f32⟩ : BufTy).Contents (Elt F)),
    StableHlo.unary main_v632 main_v633 ((transpose S524288x32 [1, 0] · transposes_S32x524288_S524288x32_1_0) : (⟨S32x524288, .f32⟩ : BufTy).Contents (Elt F) → (⟨S524288x32, .f32⟩ : BufTy).Contents (Elt F)),
    StableHlo.nullary main_c_184 (constantI S_ 32 0#32),
    StableHlo.unary main_c_184 main_v634 (broadcastInDim S2 ![] bcast_S_S2 : (⟨S_, .i32⟩ : BufTy).Contents (Elt F) → (⟨S2, .i32⟩ : BufTy).Contents (Elt F)),
    StableHlo.binary main_c_4 main_v634 main_v635 (cmpi .slt : (⟨S2, .i32⟩ : BufTy).Contents (Elt F) → (⟨S2, .i32⟩ : BufTy).Contents (Elt F) → (⟨S2, .i1⟩ : BufTy).Contents (Elt F)),
    StableHlo.nullary main_c_185 (constantI S_ 32 3#32),
    StableHlo.unary main_c_185 main_v636 (broadcastInDim S2 ![] bcast_S_S2 : (⟨S_, .i32⟩ : BufTy).Contents (Elt F) → (⟨S2, .i32⟩ : BufTy).Contents (Elt F)),
    StableHlo.binary main_c_4 main_v636 main_v637 (addi : (⟨S2, .i32⟩ : BufTy).Contents (Elt F) → (⟨S2, .i32⟩ : BufTy).Contents (Elt F) → (⟨S2, .i32⟩ : BufTy).Contents (Elt F)),
    StableHlo.ternary main_v635 main_v637 main_c_4 main_v638 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v638 main_v639 (broadcastInDim S2x1 ![0] bcast_S2_S2x1_0 : (⟨S2, .i32⟩ : BufTy).Contents (Elt F) → (⟨S2x1, .i32⟩ : BufTy).Contents (Elt F)),
    StableHlo.binary main_v17 main_v639 main_v640 ((fun x i => Host.gather gather_S524288x3_S2x1_S524288x2_0_1_n_n_1_1_5242881 x i) : (⟨S524288x3, .f32⟩ : BufTy).Contents (Elt F) → (⟨S2x1, .i32⟩ : BufTy).Contents (Elt F) → (⟨S524288x2, .f32⟩ : BufTy).Contents (Elt F)),
    StableHlo.unary main_v640 main_v641 ((extractStridedSlice S524288x1 ![0, 0] · slices_S524288x2_S524288x1_0_0) : (⟨S524288x2, .f32⟩ : BufTy).Contents (Elt F) → (⟨S524288x1, .f32⟩ : BufTy).Contents (Elt F)),
    StableHlo.reshape main_v641 main_v642 rfl shapeCasts_S524288x1_S524288,
    StableHlo.nullary main_cst_186 (constant S_ .f32 0x3F800000#32),
    StableHlo.unary main_cst_186 main_v643 (broadcastInDim S524288 ![] bcast_S_S524288 : (⟨S_, .f32⟩ : BufTy).Contents (Elt F) → (⟨S524288, .f32⟩ : BufTy).Contents (Elt F)),
    StableHlo.binary main_v642 main_v643 main_v644 (addf : (⟨S524288, .f32⟩ : BufTy).Contents (Elt F) → (⟨S524288, .f32⟩ : BufTy).Contents (Elt F) → (⟨S524288, .f32⟩ : BufTy).Contents (Elt F)),
    StableHlo.nullary main_cst_187 (constant S_ .f32 0x3F000000#32),
    StableHlo.unary main_cst_187 main_v645 (broadcastInDim S524288 ![] bcast_S_S524288 : (⟨S_, .f32⟩ : BufTy).Contents (Elt F) → (⟨S524288, .f32⟩ : BufTy).Contents (Elt F)),
    StableHlo.binary main_v644 main_v645 main_v646 (mulf : (⟨S524288, .f32⟩ : BufTy).Contents (Elt F) → (⟨S524288, .f32⟩ : BufTy).Contents (Elt F) → (⟨S524288, .f32⟩ : BufTy).Contents (Elt F)),
    StableHlo.nullary main_cst_188 (constant S_ .f32 0x437F0000#32),
    StableHlo.unary main_cst_188 main_v647 (broadcastInDim S524288 ![] bcast_S_S524288 : (⟨S_, .f32⟩ : BufTy).Contents (Elt F) → (⟨S524288, .f32⟩ : BufTy).Contents (Elt F)),
    StableHlo.binary main_v646 main_v647 main_v648 (mulf : (⟨S524288, .f32⟩ : BufTy).Contents (Elt F) → (⟨S524288, .f32⟩ : BufTy).Contents (Elt F) → (⟨S524288, .f32⟩ : BufTy).Contents (Elt F)) ]

set_option maxHeartbeats 40000000 in
set_option maxRecDepth 65536 in
/-- The printed window is that straight line. -/
theorem part13_eq (d : Dev nD) : main_part13 (F := F) d = seq ops13 := by
  simp only [main_part13, fn_clip.body, seq, bind_assoc, pure_bind] <;> rfl

set_option maxHeartbeats 40000000 in
/-- Every operation of the window touches TensorCore references only. -/
theorem ops13_sub : (ops13 : List (HloOp τ sig (Elt F))).Forall fun op => op.bufs ⊆ tcRefs τ sig :=
  ⟨StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩

set_option maxHeartbeats 40000000 in
/-- Every operation of the window determines what it writes. -/
theorem ops13_fresh : (ops13 : List (HloOp τ sig (Elt F))).Forall fun op => op.fresh = ∅ := by
  simp only [List.Forall]; repeat' constructor

end Cert.ReferenceIdeal.Line

end
-- ==== Proof.RefLine14.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 70 host operations of the program's printed window 14, in order (a call of the clamp function as its six operations
    over that call's buffers). -/
abbrev ops14 : List (HloOp τ sig (Elt F)) :=
  [ StableHlo.nullary main_cst_189 (constant S_ .f32 0x00000000#32),
    StableHlo.nullary main_c_190 (constantI S_ 32 255#32),
    StableHlo.TRef.unary (.of main_cst_189 : StableHlo.TRef sig ⟨S_, .f32⟩) main_call10.v0 id,
    StableHlo.TRef.unary main_call10.v0 main_call10.v1 (broadcastInDim S524288 ![] bcast_S_S524288),
    StableHlo.TRef.binary main_call10.v1 (.of main_v648 : StableHlo.TRef sig ⟨S524288, .f32⟩) main_call10.v2 maximumf,
    StableHlo.TRef.unary (.of main_c_190 : StableHlo.TRef sig ⟨S_, .i32⟩) main_call10.v3 (sitofp .f32),
    StableHlo.TRef.unary main_call10.v3 main_call10.v4 (broadcastInDim S524288 ![] bcast_S_S524288),
    StableHlo.TRef.binary main_call10.v4 main_call10.v2 main_call10.v5 minimumf,
    StableHlo.unary main_v640 main_v650 ((extractStridedSlice S524288x1 ![0, 1] · slices_S524288x2_S524288x1_0_1) : (⟨S524288x2, .f32⟩ : BufTy).Contents (Elt F) → (⟨S524288x1, .f32⟩ : BufTy).Contents (Elt F)),
    StableHlo.reshape main_v650 main_v651 rfl shapeCasts_S524288x1_S524288,
    StableHlo.nullary main_cst_191 (constant S_ .f32 0x3F800000#32),
    StableHlo.unary main_cst_191 main_v652 (broadcastInDim S524288 ![] bcast_S_S524288 : (⟨S_, .f32⟩ : BufTy).Contents (Elt F) → (⟨S524288, .f32⟩ : BufTy).Contents (Elt F)),
    StableHlo.binary main_v651 main_v652 main_v653 (addf : (⟨S524288, .f32⟩ : BufTy).Contents (Elt F) → (⟨S524288, .f32⟩ : BufTy).Contents (Elt F) → (⟨S524288, .f32⟩ : BufTy).Contents (Elt F)),
    StableHlo.nullary main_cst_192 (constant S_ .f32 0x3F000000#32),
    StableHlo.unary main_cst_192 main_v654 (broadcastInDim S524288 ![] bcast_S_S524288 : (⟨S_, .f32⟩ : BufTy).Contents (Elt F) → (⟨S524288, .f32⟩ : BufTy).Contents (Elt F)),
    StableHlo.binary main_v653 main_v654 main_v655 (mulf : (⟨S524288, .f32⟩ : BufTy).Contents (Elt F) → (⟨S524288, .f32⟩ : BufTy).Contents (Elt F) → (⟨S524288, .f32⟩ : BufTy).Contents (Elt F)),
    StableHlo.nullary main_cst_193 (constant S_ .f32 0x437F0000#32),
    StableHlo.unary main_cst_193 main_v656 (broadcastInDim S524288 ![] bcast_S_S524288 : (⟨S_, .f32⟩ : BufTy).Contents (Elt F) → (⟨S524288, .f32⟩ : BufTy).Contents (Elt F)),
    StableHlo.binary main_v655 main_v656 main_v657 (mulf : (⟨S524288, .f32⟩ : BufTy).Contents (Elt F) → (⟨S524288, .f32⟩ : BufTy).Contents (Elt F) → (⟨S524288, .f32⟩ : BufTy).Contents (Elt F)),
    StableHlo.nullary main_cst_194 (constant S_ .f32 0x00000000#32),
    StableHlo.nullary main_c_195 (constantI S_ 32 255#32),
    StableHlo.TRef.unary (.of main_cst_194 : StableHlo.TRef sig ⟨S_, .f32⟩) main_call11.v0 id,
    StableHlo.TRef.unary main_call11.v0 main_call11.v1 (broadcastInDim S524288 ![] bcast_S_S524288),
    StableHlo.TRef.binary main_call11.v1 (.of main_v657 : StableHlo.TRef sig ⟨S524288, .f32⟩) main_call11.v2 maximumf,
    StableHlo.TRef.unary (.of main_c_195 : StableHlo.TRef sig ⟨S_, .i32⟩) main_call11.v3 (sitofp .f32),
    StableHlo.TRef.unary main_call11.v3 main_call11.v4 (broadcastInDim S524288 ![] bcast_S_S524288),
    StableHlo.TRef.binary main_call11.v4 main_call11.v2 main_call11.v5 minimumf,
    StableHlo.unary main_v649 main_v659 (Host.floor : (⟨S524288, .f32⟩ : BufTy).Contents (Elt F) → (⟨S524288, .f32⟩ : BufTy).Contents (Elt F)),
    StableHlo.unary main_v658 main_v660 (Host.floor : (⟨S524288, .f32⟩ : BufTy).Contents (Elt F) → (⟨S524288, .f32⟩ : BufTy).Contents (Elt F)),
    StableHlo.binary main_v649 main_v659 main_v661 (subf : (⟨S524288, .f32⟩ : BufTy).Contents (Elt F) → (⟨S524288, .f32⟩ : BufTy).Contents (Elt F) → (⟨S524288, .f32⟩ : BufTy).Contents (Elt F)),
    StableHlo.binary main_v658 main_v660 main_v662 (subf : (⟨S524288, .f32⟩ : BufTy).Contents (Elt F) → (⟨S524288, .f32⟩ : BufTy).Contents (Elt F) → (⟨S524288, .f32⟩ : BufTy).Contents (Elt F)),
    StableHlo.unary main_v659 main_v663 (fptosi 32 : (⟨S524288, .f32⟩ : BufTy).Contents (Elt F) → (⟨S524288, .i32⟩ : BufTy).Contents (Elt F)),
    StableHlo.unary main_v660 main_v664 (fptosi 32 : (⟨S524288, .f32⟩ : BufTy).Contents (Elt F) → (⟨S524288, .i32⟩ : BufTy).Contents (Elt F)),
    StableHlo.nullary main_c_196 (constantI S_ 32 1#32),
    StableHlo.unary main_c_196 main_v665 (broadcastInDim S524288 ![] bcast_S_S524288 : (⟨S_, .i32⟩ : BufTy).Contents (Elt F) → (⟨S524288, .i32⟩ : BufTy).Contents (Elt F)),
    StableHlo.binary main_v663 main_v665 main_v666 (addi : (⟨S524288, .i32⟩ : BufTy).Contents (Elt F) → (⟨S524288, .i32⟩ : BufTy).Contents (Elt F) → (⟨S524288, .i32⟩ : BufTy).Contents (Elt F)),
    StableHlo.nullary main_c_197 (constantI S_ 32 255#32),
    StableHlo.unary main_c_197 main_v667 (broadcastInDim S524288 ![] bcast_S_S524288 : (⟨S_, .i32⟩ : BufTy).Contents (Elt F) → (⟨S524288, .i32⟩ : BufTy).Contents (Elt F)),
    StableHlo.binary main_v666 main_v667 main_v668 (minsi : (⟨S524288, .i32⟩ : BufTy).Contents (Elt F) → (⟨S524288, .i32⟩ : BufTy).Contents (Elt F) → (⟨S524288, .i32⟩ : BufTy).Contents (Elt F)),
    StableHlo.nullary main_c_198 (constantI S_ 32 1#32),
    StableHlo.unary main_c_198 main_v669 (broadcastInDim S524288 ![] bcast_S_S524288 : (⟨S_, .i32⟩ : BufTy).Contents (Elt F) → (⟨S524288, .i32⟩ : BufTy).Contents (Elt F)),
    StableHlo.binary main_v664 main_v669 main_v670 (addi : (⟨S524288, .i32⟩ : BufTy).Contents (Elt F) → (⟨S524288, .i32⟩ : BufTy).Contents (Elt F) → (⟨S524288, .i32⟩ : BufTy).Contents (Elt F)),
    StableHlo.nullary main_c_199 (constantI S_ 32 255#32),
    StableHlo.unary main_c_199 main_v671 (broadcastInDim S524288 ![] bcast_S_S524288 : (⟨S_, .i32⟩ : BufTy).Contents (Elt F) → (⟨S524288, .i32⟩ : BufTy).Contents (Elt F)),
    StableHlo.binary main_v670 main_v671 main_v672 (minsi : (⟨S524288, .i32⟩ : BufTy).Contents (Elt F) → (⟨S524288, .i32⟩ : BufTy).Contents (Elt F) → (⟨S524288, .i32⟩ : BufTy).Contents (Elt F)),
    StableHlo.nullary main_c_200 (constantI S_ 32 0#32),
    StableHlo.unary main_c_200 main_v673 (broadcastInDim S524288 ![] bcast_S_S524288 : (⟨S_, .i32⟩ : BufTy).Contents (Elt F) → (⟨S524288, .i32⟩ : BufTy).Contents (Elt F)),
    StableHlo.binary main_v664 main_v673 main_v674 (cmpi .slt : (⟨S524288, .i32⟩ : BufTy).Contents (Elt F) → (⟨S524288, .i32⟩ : BufTy).Contents (Elt F) → (⟨S524288, .i1⟩ : BufTy).Contents (Elt F)),
    StableHlo.nullary main_c_201 (constantI S_ 32 256#32),
    StableHlo.unary main_c_201 main_v675 (broadcastInDim S524288 ![] bcast_S_S524288 : (⟨S_, .i32⟩ : BufTy).Contents (Elt F) → (⟨S524288, .i32⟩ : BufTy).Contents (Elt F)),
    StableHlo.binary main_v664 main_v675 main_v676 (addi : (⟨S524288, .i32⟩ : BufTy).Contents (Elt F) → (⟨S524288, .i32⟩ : BufTy).Contents (Elt F) → (⟨S524288, .i32⟩ : BufTy).Contents (Elt F)),
    StableHlo.ternary main_v674 main_v676 main_v664 main_v677 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_202 (constantI S_ 32 0#32),
    StableHlo.unary main_c_202 main_v678 (broadcastInDim S524288 ![] bcast_S_S524288 : (⟨S_, .i32⟩ : BufTy).Contents (Elt F) → (⟨S524288, .i32⟩ : BufTy).Contents (Elt F)),
    StableHlo.binary main_v663 main_v678 main_v679 (cmpi .slt : (⟨S524288, .i32⟩ : BufTy).Contents (Elt F) → (⟨S524288, .i32⟩ : BufTy).Contents (Elt F) → (⟨S524288, .i1⟩ : BufTy).Contents (Elt F)),
    StableHlo.nullary main_c_203 (constantI S_ 32 256#32),
    StableHlo.unary main_c_203 main_v680 (broadcastInDim S524288 ![] bcast_S_S524288 : (⟨S_, .i32⟩ : BufTy).Contents (Elt F) → (⟨S524288, .i32⟩ : BufTy).Contents (Elt F)),
    StableHlo.binary main_v663 main_v680 main_v681 (addi : (⟨S524288, .i32⟩ : BufTy).Contents (Elt F) → (⟨S524288, .i32⟩ : BufTy).Contents (Elt F) → (⟨S524288, .i32⟩ : BufTy).Contents (Elt F)),
    StableHlo.ternary main_v679 main_v681 main_v663 main_v682 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v677 main_v683 (broadcastInDim S524288x1 ![0] bcast_S524288_S524288x1_0 : (⟨S524288, .i32⟩ : BufTy).Contents (Elt F) → (⟨S524288x1, .i32⟩ : BufTy).Contents (Elt F)),
    StableHlo.unary main_v682 main_v684 (broadcastInDim S524288x1 ![0] bcast_S524288_S524288x1_0 : (⟨S524288, .i32⟩ : BufTy).Contents (Elt F) → (⟨S524288x1, .i32⟩ : BufTy).Contents (Elt F)),
    StableHlo.binary main_v683 main_v684 main_v685 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg7 main_v685 main_v686 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    StableHlo.nullary main_c_204 (constantI S_ 32 0#32),
    StableHlo.unary main_c_204 main_v687 (broadcastInDim S524288 ![] bcast_S_S524288 : (⟨S_, .i32⟩ : BufTy).Contents (Elt F) → (⟨S524288, .i32⟩ : BufTy).Contents (Elt F)),
    StableHlo.binary main_v664 main_v687 main_v688 (cmpi .slt : (⟨S524288, .i32⟩ : BufTy).Contents (Elt F) → (⟨S524288, .i32⟩ : BufTy).Contents (Elt F) → (⟨S524288, .i1⟩ : BufTy).Contents (Elt F)),
    StableHlo.nullary main_c_205 (constantI S_ 32 256#32),
    StableHlo.unary main_c_205 main_v689 (broadcastInDim S524288 ![] bcast_S_S524288 : (⟨S_, .i32⟩ : BufTy).Contents (Elt F) → (⟨S524288, .i32⟩ : BufTy).Contents (Elt F)),
    StableHlo.binary main_v664 main_v689 main_v690 (addi : (⟨S524288, .i32⟩ : BufTy).Contents (Elt F) → (⟨S524288, .i32⟩ : BufTy).Contents (Elt F) → (⟨S524288, .i32⟩ : BufTy).Contents (Elt F)),
    StableHlo.ternary main_v688 main_v690 main_v664 main_v691 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)) ]

set_option maxHeartbeats 40000000 in
set_option maxRecDepth 65536 in
/-- The printed window is that straight line. -/
theorem part14_eq (d : Dev nD) : main_part14 (F := F) d = seq ops14 := by
  simp only [main_part14, fn_clip.body, seq, bind_assoc, pure_bind] <;> rfl

set_option maxHeartbeats 40000000 in
/-- Every operation of the window touches TensorCore references only. -/
theorem ops14_sub : (ops14 : List (HloOp τ sig (Elt F))).Forall fun op => op.bufs ⊆ tcRefs τ sig :=
  ⟨StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

set_option maxHeartbeats 40000000 in
/-- Every operation of the window determines what it writes. -/
theorem ops14_fresh : (ops14 : List (HloOp τ sig (Elt F))).Forall fun op => op.fresh = ∅ := by
  simp only [List.Forall]; repeat' constructor

end Cert.ReferenceIdeal.Line

end
-- ==== Proof.RefLine15.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 60 host operations of the program's printed window 15, in order (a call of the clamp function as its six operations
    over that call's buffers). -/
abbrev ops15 : List (HloOp τ sig (Elt F)) :=
  [ StableHlo.nullary main_c_206 (constantI S_ 32 0#32),
    StableHlo.unary main_c_206 main_v692 (broadcastInDim S524288 ![] bcast_S_S524288 : (⟨S_, .i32⟩ : BufTy).Contents (Elt F) → (⟨S524288, .i32⟩ : BufTy).Contents (Elt F)),
    StableHlo.binary main_v668 main_v692 main_v693 (cmpi .slt : (⟨S524288, .i32⟩ : BufTy).Contents (Elt F) → (⟨S524288, .i32⟩ : BufTy).Contents (Elt F) → (⟨S524288, .i1⟩ : BufTy).Contents (Elt F)),
    StableHlo.nullary main_c_207 (constantI S_ 32 256#32),
    StableHlo.unary main_c_207 main_v694 (broadcastInDim S524288 ![] bcast_S_S524288 : (⟨S_, .i32⟩ : BufTy).Contents (Elt F) → (⟨S524288, .i32⟩ : BufTy).Contents (Elt F)),
    StableHlo.binary main_v668 main_v694 main_v695 (addi : (⟨S524288, .i32⟩ : BufTy).Contents (Elt F) → (⟨S524288, .i32⟩ : BufTy).Contents (Elt F) → (⟨S524288, .i32⟩ : BufTy).Contents (Elt F)),
    StableHlo.ternary main_v693 main_v695 main_v668 main_v696 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v691 main_v697 (broadcastInDim S524288x1 ![0] bcast_S524288_S524288x1_0 : (⟨S524288, .i32⟩ : BufTy).Contents (Elt F) → (⟨S524288x1, .i32⟩ : BufTy).Contents (Elt F)),
    StableHlo.unary main_v696 main_v698 (broadcastInDim S524288x1 ![0] bcast_S524288_S524288x1_0 : (⟨S524288, .i32⟩ : BufTy).Contents (Elt F) → (⟨S524288x1, .i32⟩ : BufTy).Contents (Elt F)),
    StableHlo.binary main_v697 main_v698 main_v699 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg7 main_v699 main_v700 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    StableHlo.nullary main_c_208 (constantI S_ 32 0#32),
    StableHlo.unary main_c_208 main_v701 (broadcastInDim S524288 ![] bcast_S_S524288 : (⟨S_, .i32⟩ : BufTy).Contents (Elt F) → (⟨S524288, .i32⟩ : BufTy).Contents (Elt F)),
    StableHlo.binary main_v672 main_v701 main_v702 (cmpi .slt : (⟨S524288, .i32⟩ : BufTy).Contents (Elt F) → (⟨S524288, .i32⟩ : BufTy).Contents (Elt F) → (⟨S524288, .i1⟩ : BufTy).Contents (Elt F)),
    StableHlo.nullary main_c_209 (constantI S_ 32 256#32),
    StableHlo.unary main_c_209 main_v703 (broadcastInDim S524288 ![] bcast_S_S524288 : (⟨S_, .i32⟩ : BufTy).Contents (Elt F) → (⟨S524288, .i32⟩ : BufTy).Contents (Elt F)),
    StableHlo.binary main_v672 main_v703 main_v704 (addi : (⟨S524288, .i32⟩ : BufTy).Contents (Elt F) → (⟨S524288, .i32⟩ : BufTy).Contents (Elt F) → (⟨S524288, .i32⟩ : BufTy).Contents (Elt F)),
    StableHlo.ternary main_v702 main_v704 main_v672 main_v705 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_210 (constantI S_ 32 0#32),
    StableHlo.unary main_c_210 main_v706 (broadcastInDim S524288 ![] bcast_S_S524288 : (⟨S_, .i32⟩ : BufTy).Contents (Elt F) → (⟨S524288, .i32⟩ : BufTy).Contents (Elt F)),
    StableHlo.binary main_v663 main_v706 main_v707 (cmpi .slt : (⟨S524288, .i32⟩ : BufTy).Contents (Elt F) → (⟨S524288, .i32⟩ : BufTy).Contents (Elt F) → (⟨S524288, .i1⟩ : BufTy).Contents (Elt F)),
    StableHlo.nullary main_c_211 (constantI S_ 32 256#32),
    StableHlo.unary main_c_211 main_v708 (broadcastInDim S524288 ![] bcast_S_S524288 : (⟨S_, .i32⟩ : BufTy).Contents (Elt F) → (⟨S524288, .i32⟩ : BufTy).Contents (Elt F)),
    StableHlo.binary main_v663 main_v708 main_v709 (addi : (⟨S524288, .i32⟩ : BufTy).Contents (Elt F) → (⟨S524288, .i32⟩ : BufTy).Contents (Elt F) → (⟨S524288, .i32⟩ : BufTy).Contents (Elt F)),
    StableHlo.ternary main_v707 main_v709 main_v663 main_v710 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v705 main_v711 (broadcastInDim S524288x1 ![0] bcast_S524288_S524288x1_0 : (⟨S524288, .i32⟩ : BufTy).Contents (Elt F) → (⟨S524288x1, .i32⟩ : BufTy).Contents (Elt F)),
    StableHlo.unary main_v710 main_v712 (broadcastInDim S524288x1 ![0] bcast_S524288_S524288x1_0 : (⟨S524288, .i32⟩ : BufTy).Contents (Elt F) → (⟨S524288x1, .i32⟩ : BufTy).Contents (Elt F)),
    StableHlo.binary main_v711 main_v712 main_v713 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg7 main_v713 main_v714 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    StableHlo.nullary main_c_212 (constantI S_ 32 0#32),
    StableHlo.unary main_c_212 main_v715 (broadcastInDim S524288 ![] bcast_S_S524288 : (⟨S_, .i32⟩ : BufTy).Contents (Elt F) → (⟨S524288, .i32⟩ : BufTy).Contents (Elt F)),
    StableHlo.binary main_v672 main_v715 main_v716 (cmpi .slt : (⟨S524288, .i32⟩ : BufTy).Contents (Elt F) → (⟨S524288, .i32⟩ : BufTy).Contents (Elt F) → (⟨S524288, .i1⟩ : BufTy).Contents (Elt F)),
    StableHlo.nullary main_c_213 (constantI S_ 32 256#32),
    StableHlo.unary main_c_213 main_v717 (broadcastInDim S524288 ![] bcast_S_S524288 : (⟨S_, .i32⟩ : BufTy).Contents (Elt F) → (⟨S524288, .i32⟩ : BufTy).Contents (Elt F)),
    StableHlo.binary main_v672 main_v717 main_v718 (addi : (⟨S524288, .i32⟩ : BufTy).Contents (Elt F) → (⟨S524288, .i32⟩ : BufTy).Contents (Elt F) → (⟨S524288, .i32⟩ : BufTy).Contents (Elt F)),
    StableHlo.ternary main_v716 main_v718 main_v672 main_v719 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_214 (constantI S_ 32 0#32),
    StableHlo.unary main_c_214 main_v720 (broadcastInDim S524288 ![] bcast_S_S524288 : (⟨S_, .i32⟩ : BufTy).Contents (Elt F) → (⟨S524288, .i32⟩ : BufTy).Contents (Elt F)),
    StableHlo.binary main_v668 main_v720 main_v721 (cmpi .slt : (⟨S524288, .i32⟩ : BufTy).Contents (Elt F) → (⟨S524288, .i32⟩ : BufTy).Contents (Elt F) → (⟨S524288, .i1⟩ : BufTy).Contents (Elt F)),
    StableHlo.nullary main_c_215 (constantI S_ 32 256#32),
    StableHlo.unary main_c_215 main_v722 (broadcastInDim S524288 ![] bcast_S_S524288 : (⟨S_, .i32⟩ : BufTy).Contents (Elt F) → (⟨S524288, .i32⟩ : BufTy).Contents (Elt F)),
    StableHlo.binary main_v668 main_v722 main_v723 (addi : (⟨S524288, .i32⟩ : BufTy).Contents (Elt F) → (⟨S524288, .i32⟩ : BufTy).Contents (Elt F) → (⟨S524288, .i32⟩ : BufTy).Contents (Elt F)),
    StableHlo.ternary main_v721 main_v723 main_v668 main_v724 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v719 main_v725 (broadcastInDim S524288x1 ![0] bcast_S524288_S524288x1_0 : (⟨S524288, .i32⟩ : BufTy).Contents (Elt F) → (⟨S524288x1, .i32⟩ : BufTy).Contents (Elt F)),
    StableHlo.unary main_v724 main_v726 (broadcastInDim S524288x1 ![0] bcast_S524288_S524288x1_0 : (⟨S524288, .i32⟩ : BufTy).Contents (Elt F) → (⟨S524288x1, .i32⟩ : BufTy).Contents (Elt F)),
    StableHlo.binary main_v725 main_v726 main_v727 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg7 main_v727 main_v728 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    StableHlo.nullary main_cst_216 (constant S_ .f32 0x3F800000#32),
    StableHlo.unary main_cst_216 main_v729 (broadcastInDim S524288 ![] bcast_S_S524288 : (⟨S_, .f32⟩ : BufTy).Contents (Elt F) → (⟨S524288, .f32⟩ : BufTy).Contents (Elt F)),
    StableHlo.binary main_v729 main_v661 main_v730 (subf : (⟨S524288, .f32⟩ : BufTy).Contents (Elt F) → (⟨S524288, .f32⟩ : BufTy).Contents (Elt F) → (⟨S524288, .f32⟩ : BufTy).Contents (Elt F)),
    StableHlo.unary main_v730 main_v731 (broadcastInDim S1x524288 ![1] bcast_S524288_S1x524288_1 : (⟨S524288, .f32⟩ : BufTy).Contents (Elt F) → (⟨S1x524288, .f32⟩ : BufTy).Contents (Elt F)),
    StableHlo.unary main_v731 main_v732 (broadcastInDim S32x524288 ![0, 1] bcast_S1x524288_S32x524288_0_1 : (⟨S1x524288, .f32⟩ : BufTy).Contents (Elt F) → (⟨S32x524288, .f32⟩ : BufTy).Contents (Elt F)),
    StableHlo.binary main_v686 main_v732 main_v733 (mulf : (⟨S32x524288, .f32⟩ : BufTy).Contents (Elt F) → (⟨S32x524288, .f32⟩ : BufTy).Contents (Elt F) → (⟨S32x524288, .f32⟩ : BufTy).Contents (Elt F)),
    StableHlo.unary main_v661 main_v734 (broadcastInDim S1x524288 ![1] bcast_S524288_S1x524288_1 : (⟨S524288, .f32⟩ : BufTy).Contents (Elt F) → (⟨S1x524288, .f32⟩ : BufTy).Contents (Elt F)),
    StableHlo.unary main_v734 main_v735 (broadcastInDim S32x524288 ![0, 1] bcast_S1x524288_S32x524288_0_1 : (⟨S1x524288, .f32⟩ : BufTy).Contents (Elt F) → (⟨S32x524288, .f32⟩ : BufTy).Contents (Elt F)),
    StableHlo.binary main_v700 main_v735 main_v736 (mulf : (⟨S32x524288, .f32⟩ : BufTy).Contents (Elt F) → (⟨S32x524288, .f32⟩ : BufTy).Contents (Elt F) → (⟨S32x524288, .f32⟩ : BufTy).Contents (Elt F)),
    StableHlo.binary main_v733 main_v736 main_v737 (addf : (⟨S32x524288, .f32⟩ : BufTy).Contents (Elt F) → (⟨S32x524288, .f32⟩ : BufTy).Contents (Elt F) → (⟨S32x524288, .f32⟩ : BufTy).Contents (Elt F)),
    StableHlo.nullary main_cst_217 (constant S_ .f32 0x3F800000#32),
    StableHlo.unary main_cst_217 main_v738 (broadcastInDim S524288 ![] bcast_S_S524288 : (⟨S_, .f32⟩ : BufTy).Contents (Elt F) → (⟨S524288, .f32⟩ : BufTy).Contents (Elt F)),
    StableHlo.binary main_v738 main_v661 main_v739 (subf : (⟨S524288, .f32⟩ : BufTy).Contents (Elt F) → (⟨S524288, .f32⟩ : BufTy).Contents (Elt F) → (⟨S524288, .f32⟩ : BufTy).Contents (Elt F)) ]

set_option maxHeartbeats 40000000 in
set_option maxRecDepth 65536 in
/-- The printed window is that straight line. -/
theorem part15_eq (d : Dev nD) : main_part15 (F := F) d = seq ops15 := by
  simp only [main_part15, fn_clip.body, seq, bind_assoc, pure_bind] <;> rfl

set_option maxHeartbeats 40000000 in
/-- Every operation of the window touches TensorCore references only. -/
theorem ops15_sub : (ops15 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩

set_option maxHeartbeats 40000000 in
/-- Every operation of the window determines what it writes. -/
theorem ops15_fresh : (ops15 : List (HloOp τ sig (Elt F))).Forall fun op => op.fresh = ∅ := by
  simp only [List.Forall]; repeat' constructor

end Cert.ReferenceIdeal.Line

end
-- ==== Proof.RefLine16.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 70 host operations of the program's printed window 16, in order (a call of the clamp function as its six operations
    over that call's buffers). -/
abbrev ops16 : List (HloOp τ sig (Elt F)) :=
  [ StableHlo.unary main_v739 main_v740 (broadcastInDim S1x524288 ![1] bcast_S524288_S1x524288_1 : (⟨S524288, .f32⟩ : BufTy).Contents (Elt F) → (⟨S1x524288, .f32⟩ : BufTy).Contents (Elt F)),
    StableHlo.unary main_v740 main_v741 (broadcastInDim S32x524288 ![0, 1] bcast_S1x524288_S32x524288_0_1 : (⟨S1x524288, .f32⟩ : BufTy).Contents (Elt F) → (⟨S32x524288, .f32⟩ : BufTy).Contents (Elt F)),
    StableHlo.binary main_v714 main_v741 main_v742 (mulf : (⟨S32x524288, .f32⟩ : BufTy).Contents (Elt F) → (⟨S32x524288, .f32⟩ : BufTy).Contents (Elt F) → (⟨S32x524288, .f32⟩ : BufTy).Contents (Elt F)),
    StableHlo.unary main_v661 main_v743 (broadcastInDim S1x524288 ![1] bcast_S524288_S1x524288_1 : (⟨S524288, .f32⟩ : BufTy).Contents (Elt F) → (⟨S1x524288, .f32⟩ : BufTy).Contents (Elt F)),
    StableHlo.unary main_v743 main_v744 (broadcastInDim S32x524288 ![0, 1] bcast_S1x524288_S32x524288_0_1 : (⟨S1x524288, .f32⟩ : BufTy).Contents (Elt F) → (⟨S32x524288, .f32⟩ : BufTy).Contents (Elt F)),
    StableHlo.binary main_v728 main_v744 main_v745 (mulf : (⟨S32x524288, .f32⟩ : BufTy).Contents (Elt F) → (⟨S32x524288, .f32⟩ : BufTy).Contents (Elt F) → (⟨S32x524288, .f32⟩ : BufTy).Contents (Elt F)),
    StableHlo.binary main_v742 main_v745 main_v746 (addf : (⟨S32x524288, .f32⟩ : BufTy).Contents (Elt F) → (⟨S32x524288, .f32⟩ : BufTy).Contents (Elt F) → (⟨S32x524288, .f32⟩ : BufTy).Contents (Elt F)),
    StableHlo.nullary main_cst_218 (constant S_ .f32 0x3F800000#32),
    StableHlo.unary main_cst_218 main_v747 (broadcastInDim S524288 ![] bcast_S_S524288 : (⟨S_, .f32⟩ : BufTy).Contents (Elt F) → (⟨S524288, .f32⟩ : BufTy).Contents (Elt F)),
    StableHlo.binary main_v747 main_v662 main_v748 (subf : (⟨S524288, .f32⟩ : BufTy).Contents (Elt F) → (⟨S524288, .f32⟩ : BufTy).Contents (Elt F) → (⟨S524288, .f32⟩ : BufTy).Contents (Elt F)),
    StableHlo.unary main_v748 main_v749 (broadcastInDim S1x524288 ![1] bcast_S524288_S1x524288_1 : (⟨S524288, .f32⟩ : BufTy).Contents (Elt F) → (⟨S1x524288, .f32⟩ : BufTy).Contents (Elt F)),
    StableHlo.unary main_v749 main_v750 (broadcastInDim S32x524288 ![0, 1] bcast_S1x524288_S32x524288_0_1 : (⟨S1x524288, .f32⟩ : BufTy).Contents (Elt F) → (⟨S32x524288, .f32⟩ : BufTy).Contents (Elt F)),
    StableHlo.binary main_v737 main_v750 main_v751 (mulf : (⟨S32x524288, .f32⟩ : BufTy).Contents (Elt F) → (⟨S32x524288, .f32⟩ : BufTy).Contents (Elt F) → (⟨S32x524288, .f32⟩ : BufTy).Contents (Elt F)),
    StableHlo.unary main_v662 main_v752 (broadcastInDim S1x524288 ![1] bcast_S524288_S1x524288_1 : (⟨S524288, .f32⟩ : BufTy).Contents (Elt F) → (⟨S1x524288, .f32⟩ : BufTy).Contents (Elt F)),
    StableHlo.unary main_v752 main_v753 (broadcastInDim S32x524288 ![0, 1] bcast_S1x524288_S32x524288_0_1 : (⟨S1x524288, .f32⟩ : BufTy).Contents (Elt F) → (⟨S32x524288, .f32⟩ : BufTy).Contents (Elt F)),
    StableHlo.binary main_v746 main_v753 main_v754 (mulf : (⟨S32x524288, .f32⟩ : BufTy).Contents (Elt F) → (⟨S32x524288, .f32⟩ : BufTy).Contents (Elt F) → (⟨S32x524288, .f32⟩ : BufTy).Contents (Elt F)),
    StableHlo.binary main_v751 main_v754 main_v755 (addf : (⟨S32x524288, .f32⟩ : BufTy).Contents (Elt F) → (⟨S32x524288, .f32⟩ : BufTy).Contents (Elt F) → (⟨S32x524288, .f32⟩ : BufTy).Contents (Elt F)),
    StableHlo.unary main_v755 main_v756 ((transpose S524288x32 [1, 0] · transposes_S32x524288_S524288x32_1_0) : (⟨S32x524288, .f32⟩ : BufTy).Contents (Elt F) → (⟨S524288x32, .f32⟩ : BufTy).Contents (Elt F)),
    StableHlo.nary ![main_v510, main_v633, main_v756] main_v757 (fun u => concatenate S524288x96 1 [⟨S524288x32, u 0⟩, ⟨S524288x32, u 1⟩, ⟨S524288x32, u 2⟩] concatenates_S524288x32_S524288x32_S524288x32_S524288x96_d1),
    StableHlo.nullary main_c_219 (constantI S_ 32 0#32),
    StableHlo.unary main_c_219 main_v758 (broadcastInDim S2 ![] bcast_S_S2 : (⟨S_, .i32⟩ : BufTy).Contents (Elt F) → (⟨S2, .i32⟩ : BufTy).Contents (Elt F)),
    StableHlo.binary main_c_5 main_v758 main_v759 (cmpi .slt : (⟨S2, .i32⟩ : BufTy).Contents (Elt F) → (⟨S2, .i32⟩ : BufTy).Contents (Elt F) → (⟨S2, .i1⟩ : BufTy).Contents (Elt F)),
    StableHlo.nullary main_c_220 (constantI S_ 32 3#32),
    StableHlo.unary main_c_220 main_v760 (broadcastInDim S2 ![] bcast_S_S2 : (⟨S_, .i32⟩ : BufTy).Contents (Elt F) → (⟨S2, .i32⟩ : BufTy).Contents (Elt F)),
    StableHlo.binary main_c_5 main_v760 main_v761 (addi : (⟨S2, .i32⟩ : BufTy).Contents (Elt F) → (⟨S2, .i32⟩ : BufTy).Contents (Elt F) → (⟨S2, .i32⟩ : BufTy).Contents (Elt F)),
    StableHlo.ternary main_v759 main_v761 main_c_5 main_v762 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v762 main_v763 (broadcastInDim S2x1 ![0] bcast_S2_S2x1_0 : (⟨S2, .i32⟩ : BufTy).Contents (Elt F) → (⟨S2x1, .i32⟩ : BufTy).Contents (Elt F)),
    StableHlo.binary main_v17 main_v763 main_v764 ((fun x i => Host.gather gather_S524288x3_S2x1_S524288x2_0_1_n_n_1_1_5242881 x i) : (⟨S524288x3, .f32⟩ : BufTy).Contents (Elt F) → (⟨S2x1, .i32⟩ : BufTy).Contents (Elt F) → (⟨S524288x2, .f32⟩ : BufTy).Contents (Elt F)),
    StableHlo.unary main_v764 main_v765 ((extractStridedSlice S524288x1 ![0, 0] · slices_S524288x2_S524288x1_0_0) : (⟨S524288x2, .f32⟩ : BufTy).Contents (Elt F) → (⟨S524288x1, .f32⟩ : BufTy).Contents (Elt F)),
    StableHlo.reshape main_v765 main_v766 rfl shapeCasts_S524288x1_S524288,
    StableHlo.nullary main_cst_221 (constant S_ .f32 0x3F800000#32),
    StableHlo.unary main_cst_221 main_v767 (broadcastInDim S524288 ![] bcast_S_S524288 : (⟨S_, .f32⟩ : BufTy).Contents (Elt F) → (⟨S524288, .f32⟩ : BufTy).Contents (Elt F)),
    StableHlo.binary main_v766 main_v767 main_v768 (addf : (⟨S524288, .f32⟩ : BufTy).Contents (Elt F) → (⟨S524288, .f32⟩ : BufTy).Contents (Elt F) → (⟨S524288, .f32⟩ : BufTy).Contents (Elt F)),
    StableHlo.nullary main_cst_222 (constant S_ .f32 0x3F000000#32),
    StableHlo.unary main_cst_222 main_v769 (broadcastInDim S524288 ![] bcast_S_S524288 : (⟨S_, .f32⟩ : BufTy).Contents (Elt F) → (⟨S524288, .f32⟩ : BufTy).Contents (Elt F)),
    StableHlo.binary main_v768 main_v769 main_v770 (mulf : (⟨S524288, .f32⟩ : BufTy).Contents (Elt F) → (⟨S524288, .f32⟩ : BufTy).Contents (Elt F) → (⟨S524288, .f32⟩ : BufTy).Contents (Elt F)),
    StableHlo.nullary main_cst_223 (constant S_ .f32 0x43FF8000#32),
    StableHlo.unary main_cst_223 main_v771 (broadcastInDim S524288 ![] bcast_S_S524288 : (⟨S_, .f32⟩ : BufTy).Contents (Elt F) → (⟨S524288, .f32⟩ : BufTy).Contents (Elt F)),
    StableHlo.binary main_v770 main_v771 main_v772 (mulf : (⟨S524288, .f32⟩ : BufTy).Contents (Elt F) → (⟨S524288, .f32⟩ : BufTy).Contents (Elt F) → (⟨S524288, .f32⟩ : BufTy).Contents (Elt F)),
    StableHlo.nullary main_cst_224 (constant S_ .f32 0x00000000#32),
    StableHlo.nullary main_c_225 (constantI S_ 32 511#32),
    StableHlo.TRef.unary (.of main_cst_224 : StableHlo.TRef sig ⟨S_, .f32⟩) main_call12.v0 id,
    StableHlo.TRef.unary main_call12.v0 main_call12.v1 (broadcastInDim S524288 ![] bcast_S_S524288),
    StableHlo.TRef.binary main_call12.v1 (.of main_v772 : StableHlo.TRef sig ⟨S524288, .f32⟩) main_call12.v2 maximumf,
    StableHlo.TRef.unary (.of main_c_225 : StableHlo.TRef sig ⟨S_, .i32⟩) main_call12.v3 (sitofp .f32),
    StableHlo.TRef.unary main_call12.v3 main_call12.v4 (broadcastInDim S524288 ![] bcast_S_S524288),
    StableHlo.TRef.binary main_call12.v4 main_call12.v2 main_call12.v5 minimumf,
    StableHlo.unary main_v764 main_v774 ((extractStridedSlice S524288x1 ![0, 1] · slices_S524288x2_S524288x1_0_1) : (⟨S524288x2, .f32⟩ : BufTy).Contents (Elt F) → (⟨S524288x1, .f32⟩ : BufTy).Contents (Elt F)),
    StableHlo.reshape main_v774 main_v775 rfl shapeCasts_S524288x1_S524288,
    StableHlo.nullary main_cst_226 (constant S_ .f32 0x3F800000#32),
    StableHlo.unary main_cst_226 main_v776 (broadcastInDim S524288 ![] bcast_S_S524288 : (⟨S_, .f32⟩ : BufTy).Contents (Elt F) → (⟨S524288, .f32⟩ : BufTy).Contents (Elt F)),
    StableHlo.binary main_v775 main_v776 main_v777 (addf : (⟨S524288, .f32⟩ : BufTy).Contents (Elt F) → (⟨S524288, .f32⟩ : BufTy).Contents (Elt F) → (⟨S524288, .f32⟩ : BufTy).Contents (Elt F)),
    StableHlo.nullary main_cst_227 (constant S_ .f32 0x3F000000#32),
    StableHlo.unary main_cst_227 main_v778 (broadcastInDim S524288 ![] bcast_S_S524288 : (⟨S_, .f32⟩ : BufTy).Contents (Elt F) → (⟨S524288, .f32⟩ : BufTy).Contents (Elt F)),
    StableHlo.binary main_v777 main_v778 main_v779 (mulf : (⟨S524288, .f32⟩ : BufTy).Contents (Elt F) → (⟨S524288, .f32⟩ : BufTy).Contents (Elt F) → (⟨S524288, .f32⟩ : BufTy).Contents (Elt F)),
    StableHlo.nullary main_cst_228 (constant S_ .f32 0x43FF8000#32),
    StableHlo.unary main_cst_228 main_v780 (broadcastInDim S524288 ![] bcast_S_S524288 : (⟨S_, .f32⟩ : BufTy).Contents (Elt F) → (⟨S524288, .f32⟩ : BufTy).Contents (Elt F)),
    StableHlo.binary main_v779 main_v780 main_v781 (mulf : (⟨S524288, .f32⟩ : BufTy).Contents (Elt F) → (⟨S524288, .f32⟩ : BufTy).Contents (Elt F) → (⟨S524288, .f32⟩ : BufTy).Contents (Elt F)),
    StableHlo.nullary main_cst_229 (constant S_ .f32 0x00000000#32),
    StableHlo.nullary main_c_230 (constantI S_ 32 511#32),
    StableHlo.TRef.unary (.of main_cst_229 : StableHlo.TRef sig ⟨S_, .f32⟩) main_call13.v0 id,
    StableHlo.TRef.unary main_call13.v0 main_call13.v1 (broadcastInDim S524288 ![] bcast_S_S524288),
    StableHlo.TRef.binary main_call13.v1 (.of main_v781 : StableHlo.TRef sig ⟨S524288, .f32⟩) main_call13.v2 maximumf,
    StableHlo.TRef.unary (.of main_c_230 : StableHlo.TRef sig ⟨S_, .i32⟩) main_call13.v3 (sitofp .f32),
    StableHlo.TRef.unary main_call13.v3 main_call13.v4 (broadcastInDim S524288 ![] bcast_S_S524288),
    StableHlo.TRef.binary main_call13.v4 main_call13.v2 main_call13.v5 minimumf,
    StableHlo.unary main_v773 main_v783 (Host.floor : (⟨S524288, .f32⟩ : BufTy).Contents (Elt F) → (⟨S524288, .f32⟩ : BufTy).Contents (Elt F)),
    StableHlo.unary main_v782 main_v784 (Host.floor : (⟨S524288, .f32⟩ : BufTy).Contents (Elt F) → (⟨S524288, .f32⟩ : BufTy).Contents (Elt F)),
    StableHlo.binary main_v773 main_v783 main_v785 (subf : (⟨S524288, .f32⟩ : BufTy).Contents (Elt F) → (⟨S524288, .f32⟩ : BufTy).Contents (Elt F) → (⟨S524288, .f32⟩ : BufTy).Contents (Elt F)),
    StableHlo.binary main_v782 main_v784 main_v786 (subf : (⟨S524288, .f32⟩ : BufTy).Contents (Elt F) → (⟨S524288, .f32⟩ : BufTy).Contents (Elt F) → (⟨S524288, .f32⟩ : BufTy).Contents (Elt F)) ]

set_option maxHeartbeats 40000000 in
set_option maxRecDepth 65536 in
/-- The printed window is that straight line. -/
theorem part16_eq (d : Dev nD) : main_part16 (F := F) d = seq ops16 := by
  simp only [main_part16, fn_clip.body, seq, bind_assoc, pure_bind] <;> rfl

set_option maxHeartbeats 40000000 in
/-- Every operation of the window touches TensorCore references only. -/
theorem ops16_sub : (ops16 : List (HloOp τ sig (Elt F))).Forall fun op => op.bufs ⊆ tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.nary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub ..⟩

set_option maxHeartbeats 40000000 in
/-- Every operation of the window determines what it writes. -/
theorem ops16_fresh : (ops16 : List (HloOp τ sig (Elt F))).Forall fun op => op.fresh = ∅ := by
  simp only [List.Forall]; repeat' constructor

end Cert.ReferenceIdeal.Line

end
-- ==== Proof.RefLine17.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 60 host operations of the program's printed window 17, in order (a call of the clamp function as its six operations
    over that call's buffers). -/
abbrev ops17 : List (HloOp τ sig (Elt F)) :=
  [ StableHlo.unary main_v783 main_v787 (fptosi 32 : (⟨S524288, .f32⟩ : BufTy).Contents (Elt F) → (⟨S524288, .i32⟩ : BufTy).Contents (Elt F)),
    StableHlo.unary main_v784 main_v788 (fptosi 32 : (⟨S524288, .f32⟩ : BufTy).Contents (Elt F) → (⟨S524288, .i32⟩ : BufTy).Contents (Elt F)),
    StableHlo.nullary main_c_231 (constantI S_ 32 1#32),
    StableHlo.unary main_c_231 main_v789 (broadcastInDim S524288 ![] bcast_S_S524288 : (⟨S_, .i32⟩ : BufTy).Contents (Elt F) → (⟨S524288, .i32⟩ : BufTy).Contents (Elt F)),
    StableHlo.binary main_v787 main_v789 main_v790 (addi : (⟨S524288, .i32⟩ : BufTy).Contents (Elt F) → (⟨S524288, .i32⟩ : BufTy).Contents (Elt F) → (⟨S524288, .i32⟩ : BufTy).Contents (Elt F)),
    StableHlo.nullary main_c_232 (constantI S_ 32 511#32),
    StableHlo.unary main_c_232 main_v791 (broadcastInDim S524288 ![] bcast_S_S524288 : (⟨S_, .i32⟩ : BufTy).Contents (Elt F) → (⟨S524288, .i32⟩ : BufTy).Contents (Elt F)),
    StableHlo.binary main_v790 main_v791 main_v792 (minsi : (⟨S524288, .i32⟩ : BufTy).Contents (Elt F) → (⟨S524288, .i32⟩ : BufTy).Contents (Elt F) → (⟨S524288, .i32⟩ : BufTy).Contents (Elt F)),
    StableHlo.nullary main_c_233 (constantI S_ 32 1#32),
    StableHlo.unary main_c_233 main_v793 (broadcastInDim S524288 ![] bcast_S_S524288 : (⟨S_, .i32⟩ : BufTy).Contents (Elt F) → (⟨S524288, .i32⟩ : BufTy).Contents (Elt F)),
    StableHlo.binary main_v788 main_v793 main_v794 (addi : (⟨S524288, .i32⟩ : BufTy).Contents (Elt F) → (⟨S524288, .i32⟩ : BufTy).Contents (Elt F) → (⟨S524288, .i32⟩ : BufTy).Contents (Elt F)),
    StableHlo.nullary main_c_234 (constantI S_ 32 511#32),
    StableHlo.unary main_c_234 main_v795 (broadcastInDim S524288 ![] bcast_S_S524288 : (⟨S_, .i32⟩ : BufTy).Contents (Elt F) → (⟨S524288, .i32⟩ : BufTy).Contents (Elt F)),
    StableHlo.binary main_v794 main_v795 main_v796 (minsi : (⟨S524288, .i32⟩ : BufTy).Contents (Elt F) → (⟨S524288, .i32⟩ : BufTy).Contents (Elt F) → (⟨S524288, .i32⟩ : BufTy).Contents (Elt F)),
    StableHlo.nullary main_c_235 (constantI S_ 32 0#32),
    StableHlo.unary main_c_235 main_v797 (broadcastInDim S524288 ![] bcast_S_S524288 : (⟨S_, .i32⟩ : BufTy).Contents (Elt F) → (⟨S524288, .i32⟩ : BufTy).Contents (Elt F)),
    StableHlo.binary main_v788 main_v797 main_v798 (cmpi .slt : (⟨S524288, .i32⟩ : BufTy).Contents (Elt F) → (⟨S524288, .i32⟩ : BufTy).Contents (Elt F) → (⟨S524288, .i1⟩ : BufTy).Contents (Elt F)),
    StableHlo.nullary main_c_236 (constantI S_ 32 512#32),
    StableHlo.unary main_c_236 main_v799 (broadcastInDim S524288 ![] bcast_S_S524288 : (⟨S_, .i32⟩ : BufTy).Contents (Elt F) → (⟨S524288, .i32⟩ : BufTy).Contents (Elt F)),
    StableHlo.binary main_v788 main_v799 main_v800 (addi : (⟨S524288, .i32⟩ : BufTy).Contents (Elt F) → (⟨S524288, .i32⟩ : BufTy).Contents (Elt F) → (⟨S524288, .i32⟩ : BufTy).Contents (Elt F)),
    StableHlo.ternary main_v798 main_v800 main_v788 main_v801 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_237 (constantI S_ 32 0#32),
    StableHlo.unary main_c_237 main_v802 (broadcastInDim S524288 ![] bcast_S_S524288 : (⟨S_, .i32⟩ : BufTy).Contents (Elt F) → (⟨S524288, .i32⟩ : BufTy).Contents (Elt F)),
    StableHlo.binary main_v787 main_v802 main_v803 (cmpi .slt : (⟨S524288, .i32⟩ : BufTy).Contents (Elt F) → (⟨S524288, .i32⟩ : BufTy).Contents (Elt F) → (⟨S524288, .i1⟩ : BufTy).Contents (Elt F)),
    StableHlo.nullary main_c_238 (constantI S_ 32 512#32),
    StableHlo.unary main_c_238 main_v804 (broadcastInDim S524288 ![] bcast_S_S524288 : (⟨S_, .i32⟩ : BufTy).Contents (Elt F) → (⟨S524288, .i32⟩ : BufTy).Contents (Elt F)),
    StableHlo.binary main_v787 main_v804 main_v805 (addi : (⟨S524288, .i32⟩ : BufTy).Contents (Elt F) → (⟨S524288, .i32⟩ : BufTy).Contents (Elt F) → (⟨S524288, .i32⟩ : BufTy).Contents (Elt F)),
    StableHlo.ternary main_v803 main_v805 main_v787 main_v806 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v801 main_v807 (broadcastInDim S524288x1 ![0] bcast_S524288_S524288x1_0 : (⟨S524288, .i32⟩ : BufTy).Contents (Elt F) → (⟨S524288x1, .i32⟩ : BufTy).Contents (Elt F)),
    StableHlo.unary main_v806 main_v808 (broadcastInDim S524288x1 ![0] bcast_S524288_S524288x1_0 : (⟨S524288, .i32⟩ : BufTy).Contents (Elt F) → (⟨S524288x1, .i32⟩ : BufTy).Contents (Elt F)),
    StableHlo.binary main_v807 main_v808 main_v809 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg8 main_v809 main_v810 ((fun x i => Host.gather gather_S32x512x512_S524288x2_S32x524288_0_12_n_n_12_1_3211 x i) : (⟨S32x512x512, .f32⟩ : BufTy).Contents (Elt F) → (⟨S524288x2, .i32⟩ : BufTy).Contents (Elt F) → (⟨S32x524288, .f32⟩ : BufTy).Contents (Elt F)),
    StableHlo.nullary main_c_239 (constantI S_ 32 0#32),
    StableHlo.unary main_c_239 main_v811 (broadcastInDim S524288 ![] bcast_S_S524288 : (⟨S_, .i32⟩ : BufTy).Contents (Elt F) → (⟨S524288, .i32⟩ : BufTy).Contents (Elt F)),
    StableHlo.binary main_v788 main_v811 main_v812 (cmpi .slt : (⟨S524288, .i32⟩ : BufTy).Contents (Elt F) → (⟨S524288, .i32⟩ : BufTy).Contents (Elt F) → (⟨S524288, .i1⟩ : BufTy).Contents (Elt F)),
    StableHlo.nullary main_c_240 (constantI S_ 32 512#32),
    StableHlo.unary main_c_240 main_v813 (broadcastInDim S524288 ![] bcast_S_S524288 : (⟨S_, .i32⟩ : BufTy).Contents (Elt F) → (⟨S524288, .i32⟩ : BufTy).Contents (Elt F)),
    StableHlo.binary main_v788 main_v813 main_v814 (addi : (⟨S524288, .i32⟩ : BufTy).Contents (Elt F) → (⟨S524288, .i32⟩ : BufTy).Contents (Elt F) → (⟨S524288, .i32⟩ : BufTy).Contents (Elt F)),
    StableHlo.ternary main_v812 main_v814 main_v788 main_v815 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_241 (constantI S_ 32 0#32),
    StableHlo.unary main_c_241 main_v816 (broadcastInDim S524288 ![] bcast_S_S524288 : (⟨S_, .i32⟩ : BufTy).Contents (Elt F) → (⟨S524288, .i32⟩ : BufTy).Contents (Elt F)),
    StableHlo.binary main_v792 main_v816 main_v817 (cmpi .slt : (⟨S524288, .i32⟩ : BufTy).Contents (Elt F) → (⟨S524288, .i32⟩ : BufTy).Contents (Elt F) → (⟨S524288, .i1⟩ : BufTy).Contents (Elt F)),
    StableHlo.nullary main_c_242 (constantI S_ 32 512#32),
    StableHlo.unary main_c_242 main_v818 (broadcastInDim S524288 ![] bcast_S_S524288 : (⟨S_, .i32⟩ : BufTy).Contents (Elt F) → (⟨S524288, .i32⟩ : BufTy).Contents (Elt F)),
    StableHlo.binary main_v792 main_v818 main_v819 (addi : (⟨S524288, .i32⟩ : BufTy).Contents (Elt F) → (⟨S524288, .i32⟩ : BufTy).Contents (Elt F) → (⟨S524288, .i32⟩ : BufTy).Contents (Elt F)),
    StableHlo.ternary main_v817 main_v819 main_v792 main_v820 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v815 main_v821 (broadcastInDim S524288x1 ![0] bcast_S524288_S524288x1_0 : (⟨S524288, .i32⟩ : BufTy).Contents (Elt F) → (⟨S524288x1, .i32⟩ : BufTy).Contents (Elt F)),
    StableHlo.unary main_v820 main_v822 (broadcastInDim S524288x1 ![0] bcast_S524288_S524288x1_0 : (⟨S524288, .i32⟩ : BufTy).Contents (Elt F) → (⟨S524288x1, .i32⟩ : BufTy).Contents (Elt F)),
    StableHlo.binary main_v821 main_v822 main_v823 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg8 main_v823 main_v824 ((fun x i => Host.gather gather_S32x512x512_S524288x2_S32x524288_0_12_n_n_12_1_3211 x i) : (⟨S32x512x512, .f32⟩ : BufTy).Contents (Elt F) → (⟨S524288x2, .i32⟩ : BufTy).Contents (Elt F) → (⟨S32x524288, .f32⟩ : BufTy).Contents (Elt F)),
    StableHlo.nullary main_c_243 (constantI S_ 32 0#32),
    StableHlo.unary main_c_243 main_v825 (broadcastInDim S524288 ![] bcast_S_S524288 : (⟨S_, .i32⟩ : BufTy).Contents (Elt F) → (⟨S524288, .i32⟩ : BufTy).Contents (Elt F)),
    StableHlo.binary main_v796 main_v825 main_v826 (cmpi .slt : (⟨S524288, .i32⟩ : BufTy).Contents (Elt F) → (⟨S524288, .i32⟩ : BufTy).Contents (Elt F) → (⟨S524288, .i1⟩ : BufTy).Contents (Elt F)),
    StableHlo.nullary main_c_244 (constantI S_ 32 512#32),
    StableHlo.unary main_c_244 main_v827 (broadcastInDim S524288 ![] bcast_S_S524288 : (⟨S_, .i32⟩ : BufTy).Contents (Elt F) → (⟨S524288, .i32⟩ : BufTy).Contents (Elt F)),
    StableHlo.binary main_v796 main_v827 main_v828 (addi : (⟨S524288, .i32⟩ : BufTy).Contents (Elt F) → (⟨S524288, .i32⟩ : BufTy).Contents (Elt F) → (⟨S524288, .i32⟩ : BufTy).Contents (Elt F)),
    StableHlo.ternary main_v826 main_v828 main_v796 main_v829 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_245 (constantI S_ 32 0#32),
    StableHlo.unary main_c_245 main_v830 (broadcastInDim S524288 ![] bcast_S_S524288 : (⟨S_, .i32⟩ : BufTy).Contents (Elt F) → (⟨S524288, .i32⟩ : BufTy).Contents (Elt F)),
    StableHlo.binary main_v787 main_v830 main_v831 (cmpi .slt : (⟨S524288, .i32⟩ : BufTy).Contents (Elt F) → (⟨S524288, .i32⟩ : BufTy).Contents (Elt F) → (⟨S524288, .i1⟩ : BufTy).Contents (Elt F)) ]

set_option maxHeartbeats 40000000 in
set_option maxRecDepth 65536 in
/-- The printed window is that straight line. -/
theorem part17_eq (d : Dev nD) : main_part17 (F := F) d = seq ops17 := by
  simp only [main_part17, fn_clip.body, seq, bind_assoc, pure_bind] <;> rfl

set_option maxHeartbeats 40000000 in
/-- Every operation of the window touches TensorCore references only. -/
theorem ops17_sub : (ops17 : List (HloOp τ sig (Elt F))).Forall fun op => op.bufs ⊆ tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub ..⟩

set_option maxHeartbeats 40000000 in
/-- Every operation of the window determines what it writes. -/
theorem ops17_fresh : (ops17 : List (HloOp τ sig (Elt F))).Forall fun op => op.fresh = ∅ := by
  simp only [List.Forall]; repeat' constructor

end Cert.ReferenceIdeal.Line

end
-- ==== Proof.RefLine18.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 60 host operations of the program's printed window 18, in order (a call of the clamp function as its six operations
    over that call's buffers). -/
abbrev ops18 : List (HloOp τ sig (Elt F)) :=
  [ StableHlo.nullary main_c_246 (constantI S_ 32 512#32),
    StableHlo.unary main_c_246 main_v832 (broadcastInDim S524288 ![] bcast_S_S524288 : (⟨S_, .i32⟩ : BufTy).Contents (Elt F) → (⟨S524288, .i32⟩ : BufTy).Contents (Elt F)),
    StableHlo.binary main_v787 main_v832 main_v833 (addi : (⟨S524288, .i32⟩ : BufTy).Contents (Elt F) → (⟨S524288, .i32⟩ : BufTy).Contents (Elt F) → (⟨S524288, .i32⟩ : BufTy).Contents (Elt F)),
    StableHlo.ternary main_v831 main_v833 main_v787 main_v834 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v829 main_v835 (broadcastInDim S524288x1 ![0] bcast_S524288_S524288x1_0 : (⟨S524288, .i32⟩ : BufTy).Contents (Elt F) → (⟨S524288x1, .i32⟩ : BufTy).Contents (Elt F)),
    StableHlo.unary main_v834 main_v836 (broadcastInDim S524288x1 ![0] bcast_S524288_S524288x1_0 : (⟨S524288, .i32⟩ : BufTy).Contents (Elt F) → (⟨S524288x1, .i32⟩ : BufTy).Contents (Elt F)),
    StableHlo.binary main_v835 main_v836 main_v837 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg8 main_v837 main_v838 ((fun x i => Host.gather gather_S32x512x512_S524288x2_S32x524288_0_12_n_n_12_1_3211 x i) : (⟨S32x512x512, .f32⟩ : BufTy).Contents (Elt F) → (⟨S524288x2, .i32⟩ : BufTy).Contents (Elt F) → (⟨S32x524288, .f32⟩ : BufTy).Contents (Elt F)),
    StableHlo.nullary main_c_247 (constantI S_ 32 0#32),
    StableHlo.unary main_c_247 main_v839 (broadcastInDim S524288 ![] bcast_S_S524288 : (⟨S_, .i32⟩ : BufTy).Contents (Elt F) → (⟨S524288, .i32⟩ : BufTy).Contents (Elt F)),
    StableHlo.binary main_v796 main_v839 main_v840 (cmpi .slt : (⟨S524288, .i32⟩ : BufTy).Contents (Elt F) → (⟨S524288, .i32⟩ : BufTy).Contents (Elt F) → (⟨S524288, .i1⟩ : BufTy).Contents (Elt F)),
    StableHlo.nullary main_c_248 (constantI S_ 32 512#32),
    StableHlo.unary main_c_248 main_v841 (broadcastInDim S524288 ![] bcast_S_S524288 : (⟨S_, .i32⟩ : BufTy).Contents (Elt F) → (⟨S524288, .i32⟩ : BufTy).Contents (Elt F)),
    StableHlo.binary main_v796 main_v841 main_v842 (addi : (⟨S524288, .i32⟩ : BufTy).Contents (Elt F) → (⟨S524288, .i32⟩ : BufTy).Contents (Elt F) → (⟨S524288, .i32⟩ : BufTy).Contents (Elt F)),
    StableHlo.ternary main_v840 main_v842 main_v796 main_v843 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_249 (constantI S_ 32 0#32),
    StableHlo.unary main_c_249 main_v844 (broadcastInDim S524288 ![] bcast_S_S524288 : (⟨S_, .i32⟩ : BufTy).Contents (Elt F) → (⟨S524288, .i32⟩ : BufTy).Contents (Elt F)),
    StableHlo.binary main_v792 main_v844 main_v845 (cmpi .slt : (⟨S524288, .i32⟩ : BufTy).Contents (Elt F) → (⟨S524288, .i32⟩ : BufTy).Contents (Elt F) → (⟨S524288, .i1⟩ : BufTy).Contents (Elt F)),
    StableHlo.nullary main_c_250 (constantI S_ 32 512#32),
    StableHlo.unary main_c_250 main_v846 (broadcastInDim S524288 ![] bcast_S_S524288 : (⟨S_, .i32⟩ : BufTy).Contents (Elt F) → (⟨S524288, .i32⟩ : BufTy).Contents (Elt F)),
    StableHlo.binary main_v792 main_v846 main_v847 (addi : (⟨S524288, .i32⟩ : BufTy).Contents (Elt F) → (⟨S524288, .i32⟩ : BufTy).Contents (Elt F) → (⟨S524288, .i32⟩ : BufTy).Contents (Elt F)),
    StableHlo.ternary main_v845 main_v847 main_v792 main_v848 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v843 main_v849 (broadcastInDim S524288x1 ![0] bcast_S524288_S524288x1_0 : (⟨S524288, .i32⟩ : BufTy).Contents (Elt F) → (⟨S524288x1, .i32⟩ : BufTy).Contents (Elt F)),
    StableHlo.unary main_v848 main_v850 (broadcastInDim S524288x1 ![0] bcast_S524288_S524288x1_0 : (⟨S524288, .i32⟩ : BufTy).Contents (Elt F) → (⟨S524288x1, .i32⟩ : BufTy).Contents (Elt F)),
    StableHlo.binary main_v849 main_v850 main_v851 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg8 main_v851 main_v852 ((fun x i => Host.gather gather_S32x512x512_S524288x2_S32x524288_0_12_n_n_12_1_3211 x i) : (⟨S32x512x512, .f32⟩ : BufTy).Contents (Elt F) → (⟨S524288x2, .i32⟩ : BufTy).Contents (Elt F) → (⟨S32x524288, .f32⟩ : BufTy).Contents (Elt F)),
    StableHlo.nullary main_cst_251 (constant S_ .f32 0x3F800000#32),
    StableHlo.unary main_cst_251 main_v853 (broadcastInDim S524288 ![] bcast_S_S524288 : (⟨S_, .f32⟩ : BufTy).Contents (Elt F) → (⟨S524288, .f32⟩ : BufTy).Contents (Elt F)),
    StableHlo.binary main_v853 main_v785 main_v854 (subf : (⟨S524288, .f32⟩ : BufTy).Contents (Elt F) → (⟨S524288, .f32⟩ : BufTy).Contents (Elt F) → (⟨S524288, .f32⟩ : BufTy).Contents (Elt F)),
    StableHlo.unary main_v854 main_v855 (broadcastInDim S1x524288 ![1] bcast_S524288_S1x524288_1 : (⟨S524288, .f32⟩ : BufTy).Contents (Elt F) → (⟨S1x524288, .f32⟩ : BufTy).Contents (Elt F)),
    StableHlo.unary main_v855 main_v856 (broadcastInDim S32x524288 ![0, 1] bcast_S1x524288_S32x524288_0_1 : (⟨S1x524288, .f32⟩ : BufTy).Contents (Elt F) → (⟨S32x524288, .f32⟩ : BufTy).Contents (Elt F)),
    StableHlo.binary main_v810 main_v856 main_v857 (mulf : (⟨S32x524288, .f32⟩ : BufTy).Contents (Elt F) → (⟨S32x524288, .f32⟩ : BufTy).Contents (Elt F) → (⟨S32x524288, .f32⟩ : BufTy).Contents (Elt F)),
    StableHlo.unary main_v785 main_v858 (broadcastInDim S1x524288 ![1] bcast_S524288_S1x524288_1 : (⟨S524288, .f32⟩ : BufTy).Contents (Elt F) → (⟨S1x524288, .f32⟩ : BufTy).Contents (Elt F)),
    StableHlo.unary main_v858 main_v859 (broadcastInDim S32x524288 ![0, 1] bcast_S1x524288_S32x524288_0_1 : (⟨S1x524288, .f32⟩ : BufTy).Contents (Elt F) → (⟨S32x524288, .f32⟩ : BufTy).Contents (Elt F)),
    StableHlo.binary main_v824 main_v859 main_v860 (mulf : (⟨S32x524288, .f32⟩ : BufTy).Contents (Elt F) → (⟨S32x524288, .f32⟩ : BufTy).Contents (Elt F) → (⟨S32x524288, .f32⟩ : BufTy).Contents (Elt F)),
    StableHlo.binary main_v857 main_v860 main_v861 (addf : (⟨S32x524288, .f32⟩ : BufTy).Contents (Elt F) → (⟨S32x524288, .f32⟩ : BufTy).Contents (Elt F) → (⟨S32x524288, .f32⟩ : BufTy).Contents (Elt F)),
    StableHlo.nullary main_cst_252 (constant S_ .f32 0x3F800000#32),
    StableHlo.unary main_cst_252 main_v862 (broadcastInDim S524288 ![] bcast_S_S524288 : (⟨S_, .f32⟩ : BufTy).Contents (Elt F) → (⟨S524288, .f32⟩ : BufTy).Contents (Elt F)),
    StableHlo.binary main_v862 main_v785 main_v863 (subf : (⟨S524288, .f32⟩ : BufTy).Contents (Elt F) → (⟨S524288, .f32⟩ : BufTy).Contents (Elt F) → (⟨S524288, .f32⟩ : BufTy).Contents (Elt F)),
    StableHlo.unary main_v863 main_v864 (broadcastInDim S1x524288 ![1] bcast_S524288_S1x524288_1 : (⟨S524288, .f32⟩ : BufTy).Contents (Elt F) → (⟨S1x524288, .f32⟩ : BufTy).Contents (Elt F)),
    StableHlo.unary main_v864 main_v865 (broadcastInDim S32x524288 ![0, 1] bcast_S1x524288_S32x524288_0_1 : (⟨S1x524288, .f32⟩ : BufTy).Contents (Elt F) → (⟨S32x524288, .f32⟩ : BufTy).Contents (Elt F)),
    StableHlo.binary main_v838 main_v865 main_v866 (mulf : (⟨S32x524288, .f32⟩ : BufTy).Contents (Elt F) → (⟨S32x524288, .f32⟩ : BufTy).Contents (Elt F) → (⟨S32x524288, .f32⟩ : BufTy).Contents (Elt F)),
    StableHlo.unary main_v785 main_v867 (broadcastInDim S1x524288 ![1] bcast_S524288_S1x524288_1 : (⟨S524288, .f32⟩ : BufTy).Contents (Elt F) → (⟨S1x524288, .f32⟩ : BufTy).Contents (Elt F)),
    StableHlo.unary main_v867 main_v868 (broadcastInDim S32x524288 ![0, 1] bcast_S1x524288_S32x524288_0_1 : (⟨S1x524288, .f32⟩ : BufTy).Contents (Elt F) → (⟨S32x524288, .f32⟩ : BufTy).Contents (Elt F)),
    StableHlo.binary main_v852 main_v868 main_v869 (mulf : (⟨S32x524288, .f32⟩ : BufTy).Contents (Elt F) → (⟨S32x524288, .f32⟩ : BufTy).Contents (Elt F) → (⟨S32x524288, .f32⟩ : BufTy).Contents (Elt F)),
    StableHlo.binary main_v866 main_v869 main_v870 (addf : (⟨S32x524288, .f32⟩ : BufTy).Contents (Elt F) → (⟨S32x524288, .f32⟩ : BufTy).Contents (Elt F) → (⟨S32x524288, .f32⟩ : BufTy).Contents (Elt F)),
    StableHlo.nullary main_cst_253 (constant S_ .f32 0x3F800000#32),
    StableHlo.unary main_cst_253 main_v871 (broadcastInDim S524288 ![] bcast_S_S524288 : (⟨S_, .f32⟩ : BufTy).Contents (Elt F) → (⟨S524288, .f32⟩ : BufTy).Contents (Elt F)),
    StableHlo.binary main_v871 main_v786 main_v872 (subf : (⟨S524288, .f32⟩ : BufTy).Contents (Elt F) → (⟨S524288, .f32⟩ : BufTy).Contents (Elt F) → (⟨S524288, .f32⟩ : BufTy).Contents (Elt F)),
    StableHlo.unary main_v872 main_v873 (broadcastInDim S1x524288 ![1] bcast_S524288_S1x524288_1 : (⟨S524288, .f32⟩ : BufTy).Contents (Elt F) → (⟨S1x524288, .f32⟩ : BufTy).Contents (Elt F)),
    StableHlo.unary main_v873 main_v874 (broadcastInDim S32x524288 ![0, 1] bcast_S1x524288_S32x524288_0_1 : (⟨S1x524288, .f32⟩ : BufTy).Contents (Elt F) → (⟨S32x524288, .f32⟩ : BufTy).Contents (Elt F)),
    StableHlo.binary main_v861 main_v874 main_v875 (mulf : (⟨S32x524288, .f32⟩ : BufTy).Contents (Elt F) → (⟨S32x524288, .f32⟩ : BufTy).Contents (Elt F) → (⟨S32x524288, .f32⟩ : BufTy).Contents (Elt F)),
    StableHlo.unary main_v786 main_v876 (broadcastInDim S1x524288 ![1] bcast_S524288_S1x524288_1 : (⟨S524288, .f32⟩ : BufTy).Contents (Elt F) → (⟨S1x524288, .f32⟩ : BufTy).Contents (Elt F)),
    StableHlo.unary main_v876 main_v877 (broadcastInDim S32x524288 ![0, 1] bcast_S1x524288_S32x524288_0_1 : (⟨S1x524288, .f32⟩ : BufTy).Contents (Elt F) → (⟨S32x524288, .f32⟩ : BufTy).Contents (Elt F)),
    StableHlo.binary main_v870 main_v877 main_v878 (mulf : (⟨S32x524288, .f32⟩ : BufTy).Contents (Elt F) → (⟨S32x524288, .f32⟩ : BufTy).Contents (Elt F) → (⟨S32x524288, .f32⟩ : BufTy).Contents (Elt F)),
    StableHlo.binary main_v875 main_v878 main_v879 (addf : (⟨S32x524288, .f32⟩ : BufTy).Contents (Elt F) → (⟨S32x524288, .f32⟩ : BufTy).Contents (Elt F) → (⟨S32x524288, .f32⟩ : BufTy).Contents (Elt F)),
    StableHlo.unary main_v879 main_v880 ((transpose S524288x32 [1, 0] · transposes_S32x524288_S524288x32_1_0) : (⟨S32x524288, .f32⟩ : BufTy).Contents (Elt F) → (⟨S524288x32, .f32⟩ : BufTy).Contents (Elt F)),
    StableHlo.nullary main_c_254 (constantI S_ 32 0#32),
    StableHlo.unary main_c_254 main_v881 (broadcastInDim S2 ![] bcast_S_S2 : (⟨S_, .i32⟩ : BufTy).Contents (Elt F) → (⟨S2, .i32⟩ : BufTy).Contents (Elt F)),
    StableHlo.binary main_c_6 main_v881 main_v882 (cmpi .slt : (⟨S2, .i32⟩ : BufTy).Contents (Elt F) → (⟨S2, .i32⟩ : BufTy).Contents (Elt F) → (⟨S2, .i1⟩ : BufTy).Contents (Elt F)) ]

set_option maxHeartbeats 40000000 in
set_option maxRecDepth 65536 in
/-- The printed window is that straight line. -/
theorem part18_eq (d : Dev nD) : main_part18 (F := F) d = seq ops18 := by
  simp only [main_part18, fn_clip.body, seq, bind_assoc, pure_bind] <;> rfl

set_option maxHeartbeats 40000000 in
/-- Every operation of the window touches TensorCore references only. -/
theorem ops18_sub : (ops18 : List (HloOp τ sig (Elt F))).Forall fun op => op.bufs ⊆ tcRefs τ sig :=
  ⟨StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub ..⟩

set_option maxHeartbeats 40000000 in
/-- Every operation of the window determines what it writes. -/
theorem ops18_fresh : (ops18 : List (HloOp τ sig (Elt F))).Forall fun op => op.fresh = ∅ := by
  simp only [List.Forall]; repeat' constructor

end Cert.ReferenceIdeal.Line

end
-- ==== Proof.RefLine19.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 70 host operations of the program's printed window 19, in order (a call of the clamp function as its six operations
    over that call's buffers). -/
abbrev ops19 : List (HloOp τ sig (Elt F)) :=
  [ StableHlo.nullary main_c_255 (constantI S_ 32 3#32),
    StableHlo.unary main_c_255 main_v883 (broadcastInDim S2 ![] bcast_S_S2 : (⟨S_, .i32⟩ : BufTy).Contents (Elt F) → (⟨S2, .i32⟩ : BufTy).Contents (Elt F)),
    StableHlo.binary main_c_6 main_v883 main_v884 (addi : (⟨S2, .i32⟩ : BufTy).Contents (Elt F) → (⟨S2, .i32⟩ : BufTy).Contents (Elt F) → (⟨S2, .i32⟩ : BufTy).Contents (Elt F)),
    StableHlo.ternary main_v882 main_v884 main_c_6 main_v885 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v885 main_v886 (broadcastInDim S2x1 ![0] bcast_S2_S2x1_0 : (⟨S2, .i32⟩ : BufTy).Contents (Elt F) → (⟨S2x1, .i32⟩ : BufTy).Contents (Elt F)),
    StableHlo.binary main_v17 main_v886 main_v887 ((fun x i => Host.gather gather_S524288x3_S2x1_S524288x2_0_1_n_n_1_1_5242881 x i) : (⟨S524288x3, .f32⟩ : BufTy).Contents (Elt F) → (⟨S2x1, .i32⟩ : BufTy).Contents (Elt F) → (⟨S524288x2, .f32⟩ : BufTy).Contents (Elt F)),
    StableHlo.unary main_v887 main_v888 ((extractStridedSlice S524288x1 ![0, 0] · slices_S524288x2_S524288x1_0_0) : (⟨S524288x2, .f32⟩ : BufTy).Contents (Elt F) → (⟨S524288x1, .f32⟩ : BufTy).Contents (Elt F)),
    StableHlo.reshape main_v888 main_v889 rfl shapeCasts_S524288x1_S524288,
    StableHlo.nullary main_cst_256 (constant S_ .f32 0x3F800000#32),
    StableHlo.unary main_cst_256 main_v890 (broadcastInDim S524288 ![] bcast_S_S524288 : (⟨S_, .f32⟩ : BufTy).Contents (Elt F) → (⟨S524288, .f32⟩ : BufTy).Contents (Elt F)),
    StableHlo.binary main_v889 main_v890 main_v891 (addf : (⟨S524288, .f32⟩ : BufTy).Contents (Elt F) → (⟨S524288, .f32⟩ : BufTy).Contents (Elt F) → (⟨S524288, .f32⟩ : BufTy).Contents (Elt F)),
    StableHlo.nullary main_cst_257 (constant S_ .f32 0x3F000000#32),
    StableHlo.unary main_cst_257 main_v892 (broadcastInDim S524288 ![] bcast_S_S524288 : (⟨S_, .f32⟩ : BufTy).Contents (Elt F) → (⟨S524288, .f32⟩ : BufTy).Contents (Elt F)),
    StableHlo.binary main_v891 main_v892 main_v893 (mulf : (⟨S524288, .f32⟩ : BufTy).Contents (Elt F) → (⟨S524288, .f32⟩ : BufTy).Contents (Elt F) → (⟨S524288, .f32⟩ : BufTy).Contents (Elt F)),
    StableHlo.nullary main_cst_258 (constant S_ .f32 0x43FF8000#32),
    StableHlo.unary main_cst_258 main_v894 (broadcastInDim S524288 ![] bcast_S_S524288 : (⟨S_, .f32⟩ : BufTy).Contents (Elt F) → (⟨S524288, .f32⟩ : BufTy).Contents (Elt F)),
    StableHlo.binary main_v893 main_v894 main_v895 (mulf : (⟨S524288, .f32⟩ : BufTy).Contents (Elt F) → (⟨S524288, .f32⟩ : BufTy).Contents (Elt F) → (⟨S524288, .f32⟩ : BufTy).Contents (Elt F)),
    StableHlo.nullary main_cst_259 (constant S_ .f32 0x00000000#32),
    StableHlo.nullary main_c_260 (constantI S_ 32 511#32),
    StableHlo.TRef.unary (.of main_cst_259 : StableHlo.TRef sig ⟨S_, .f32⟩) main_call14.v0 id,
    StableHlo.TRef.unary main_call14.v0 main_call14.v1 (broadcastInDim S524288 ![] bcast_S_S524288),
    StableHlo.TRef.binary main_call14.v1 (.of main_v895 : StableHlo.TRef sig ⟨S524288, .f32⟩) main_call14.v2 maximumf,
    StableHlo.TRef.unary (.of main_c_260 : StableHlo.TRef sig ⟨S_, .i32⟩) main_call14.v3 (sitofp .f32),
    StableHlo.TRef.unary main_call14.v3 main_call14.v4 (broadcastInDim S524288 ![] bcast_S_S524288),
    StableHlo.TRef.binary main_call14.v4 main_call14.v2 main_call14.v5 minimumf,
    StableHlo.unary main_v887 main_v897 ((extractStridedSlice S524288x1 ![0, 1] · slices_S524288x2_S524288x1_0_1) : (⟨S524288x2, .f32⟩ : BufTy).Contents (Elt F) → (⟨S524288x1, .f32⟩ : BufTy).Contents (Elt F)),
    StableHlo.reshape main_v897 main_v898 rfl shapeCasts_S524288x1_S524288,
    StableHlo.nullary main_cst_261 (constant S_ .f32 0x3F800000#32),
    StableHlo.unary main_cst_261 main_v899 (broadcastInDim S524288 ![] bcast_S_S524288 : (⟨S_, .f32⟩ : BufTy).Contents (Elt F) → (⟨S524288, .f32⟩ : BufTy).Contents (Elt F)),
    StableHlo.binary main_v898 main_v899 main_v900 (addf : (⟨S524288, .f32⟩ : BufTy).Contents (Elt F) → (⟨S524288, .f32⟩ : BufTy).Contents (Elt F) → (⟨S524288, .f32⟩ : BufTy).Contents (Elt F)),
    StableHlo.nullary main_cst_262 (constant S_ .f32 0x3F000000#32),
    StableHlo.unary main_cst_262 main_v901 (broadcastInDim S524288 ![] bcast_S_S524288 : (⟨S_, .f32⟩ : BufTy).Contents (Elt F) → (⟨S524288, .f32⟩ : BufTy).Contents (Elt F)),
    StableHlo.binary main_v900 main_v901 main_v902 (mulf : (⟨S524288, .f32⟩ : BufTy).Contents (Elt F) → (⟨S524288, .f32⟩ : BufTy).Contents (Elt F) → (⟨S524288, .f32⟩ : BufTy).Contents (Elt F)),
    StableHlo.nullary main_cst_263 (constant S_ .f32 0x43FF8000#32),
    StableHlo.unary main_cst_263 main_v903 (broadcastInDim S524288 ![] bcast_S_S524288 : (⟨S_, .f32⟩ : BufTy).Contents (Elt F) → (⟨S524288, .f32⟩ : BufTy).Contents (Elt F)),
    StableHlo.binary main_v902 main_v903 main_v904 (mulf : (⟨S524288, .f32⟩ : BufTy).Contents (Elt F) → (⟨S524288, .f32⟩ : BufTy).Contents (Elt F) → (⟨S524288, .f32⟩ : BufTy).Contents (Elt F)),
    StableHlo.nullary main_cst_264 (constant S_ .f32 0x00000000#32),
    StableHlo.nullary main_c_265 (constantI S_ 32 511#32),
    StableHlo.TRef.unary (.of main_cst_264 : StableHlo.TRef sig ⟨S_, .f32⟩) main_call15.v0 id,
    StableHlo.TRef.unary main_call15.v0 main_call15.v1 (broadcastInDim S524288 ![] bcast_S_S524288),
    StableHlo.TRef.binary main_call15.v1 (.of main_v904 : StableHlo.TRef sig ⟨S524288, .f32⟩) main_call15.v2 maximumf,
    StableHlo.TRef.unary (.of main_c_265 : StableHlo.TRef sig ⟨S_, .i32⟩) main_call15.v3 (sitofp .f32),
    StableHlo.TRef.unary main_call15.v3 main_call15.v4 (broadcastInDim S524288 ![] bcast_S_S524288),
    StableHlo.TRef.binary main_call15.v4 main_call15.v2 main_call15.v5 minimumf,
    StableHlo.unary main_v896 main_v906 (Host.floor : (⟨S524288, .f32⟩ : BufTy).Contents (Elt F) → (⟨S524288, .f32⟩ : BufTy).Contents (Elt F)),
    StableHlo.unary main_v905 main_v907 (Host.floor : (⟨S524288, .f32⟩ : BufTy).Contents (Elt F) → (⟨S524288, .f32⟩ : BufTy).Contents (Elt F)),
    StableHlo.binary main_v896 main_v906 main_v908 (subf : (⟨S524288, .f32⟩ : BufTy).Contents (Elt F) → (⟨S524288, .f32⟩ : BufTy).Contents (Elt F) → (⟨S524288, .f32⟩ : BufTy).Contents (Elt F)),
    StableHlo.binary main_v905 main_v907 main_v909 (subf : (⟨S524288, .f32⟩ : BufTy).Contents (Elt F) → (⟨S524288, .f32⟩ : BufTy).Contents (Elt F) → (⟨S524288, .f32⟩ : BufTy).Contents (Elt F)),
    StableHlo.unary main_v906 main_v910 (fptosi 32 : (⟨S524288, .f32⟩ : BufTy).Contents (Elt F) → (⟨S524288, .i32⟩ : BufTy).Contents (Elt F)),
    StableHlo.unary main_v907 main_v911 (fptosi 32 : (⟨S524288, .f32⟩ : BufTy).Contents (Elt F) → (⟨S524288, .i32⟩ : BufTy).Contents (Elt F)),
    StableHlo.nullary main_c_266 (constantI S_ 32 1#32),
    StableHlo.unary main_c_266 main_v912 (broadcastInDim S524288 ![] bcast_S_S524288 : (⟨S_, .i32⟩ : BufTy).Contents (Elt F) → (⟨S524288, .i32⟩ : BufTy).Contents (Elt F)),
    StableHlo.binary main_v910 main_v912 main_v913 (addi : (⟨S524288, .i32⟩ : BufTy).Contents (Elt F) → (⟨S524288, .i32⟩ : BufTy).Contents (Elt F) → (⟨S524288, .i32⟩ : BufTy).Contents (Elt F)),
    StableHlo.nullary main_c_267 (constantI S_ 32 511#32),
    StableHlo.unary main_c_267 main_v914 (broadcastInDim S524288 ![] bcast_S_S524288 : (⟨S_, .i32⟩ : BufTy).Contents (Elt F) → (⟨S524288, .i32⟩ : BufTy).Contents (Elt F)),
    StableHlo.binary main_v913 main_v914 main_v915 (minsi : (⟨S524288, .i32⟩ : BufTy).Contents (Elt F) → (⟨S524288, .i32⟩ : BufTy).Contents (Elt F) → (⟨S524288, .i32⟩ : BufTy).Contents (Elt F)),
    StableHlo.nullary main_c_268 (constantI S_ 32 1#32),
    StableHlo.unary main_c_268 main_v916 (broadcastInDim S524288 ![] bcast_S_S524288 : (⟨S_, .i32⟩ : BufTy).Contents (Elt F) → (⟨S524288, .i32⟩ : BufTy).Contents (Elt F)),
    StableHlo.binary main_v911 main_v916 main_v917 (addi : (⟨S524288, .i32⟩ : BufTy).Contents (Elt F) → (⟨S524288, .i32⟩ : BufTy).Contents (Elt F) → (⟨S524288, .i32⟩ : BufTy).Contents (Elt F)),
    StableHlo.nullary main_c_269 (constantI S_ 32 511#32),
    StableHlo.unary main_c_269 main_v918 (broadcastInDim S524288 ![] bcast_S_S524288 : (⟨S_, .i32⟩ : BufTy).Contents (Elt F) → (⟨S524288, .i32⟩ : BufTy).Contents (Elt F)),
    StableHlo.binary main_v917 main_v918 main_v919 (minsi : (⟨S524288, .i32⟩ : BufTy).Contents (Elt F) → (⟨S524288, .i32⟩ : BufTy).Contents (Elt F) → (⟨S524288, .i32⟩ : BufTy).Contents (Elt F)),
    StableHlo.nullary main_c_270 (constantI S_ 32 0#32),
    StableHlo.unary main_c_270 main_v920 (broadcastInDim S524288 ![] bcast_S_S524288 : (⟨S_, .i32⟩ : BufTy).Contents (Elt F) → (⟨S524288, .i32⟩ : BufTy).Contents (Elt F)),
    StableHlo.binary main_v911 main_v920 main_v921 (cmpi .slt : (⟨S524288, .i32⟩ : BufTy).Contents (Elt F) → (⟨S524288, .i32⟩ : BufTy).Contents (Elt F) → (⟨S524288, .i1⟩ : BufTy).Contents (Elt F)),
    StableHlo.nullary main_c_271 (constantI S_ 32 512#32),
    StableHlo.unary main_c_271 main_v922 (broadcastInDim S524288 ![] bcast_S_S524288 : (⟨S_, .i32⟩ : BufTy).Contents (Elt F) → (⟨S524288, .i32⟩ : BufTy).Contents (Elt F)),
    StableHlo.binary main_v911 main_v922 main_v923 (addi : (⟨S524288, .i32⟩ : BufTy).Contents (Elt F) → (⟨S524288, .i32⟩ : BufTy).Contents (Elt F) → (⟨S524288, .i32⟩ : BufTy).Contents (Elt F)),
    StableHlo.ternary main_v921 main_v923 main_v911 main_v924 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_272 (constantI S_ 32 0#32) ]

set_option maxHeartbeats 40000000 in
set_option maxRecDepth 65536 in
/-- The printed window is that straight line. -/
theorem part19_eq (d : Dev nD) : main_part19 (F := F) d = seq ops19 := by
  simp only [main_part19, fn_clip.body, seq, bind_assoc, pure_bind] <;> rfl

set_option maxHeartbeats 40000000 in
/-- Every operation of the window touches TensorCore references only. -/
theorem ops19_sub : (ops19 : List (HloOp τ sig (Elt F))).Forall fun op => op.bufs ⊆ tcRefs τ sig :=
  ⟨StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub ..⟩

set_option maxHeartbeats 40000000 in
/-- Every operation of the window determines what it writes. -/
theorem ops19_fresh : (ops19 : List (HloOp τ sig (Elt F))).Forall fun op => op.fresh = ∅ := by
  simp only [List.Forall]; repeat' constructor

end Cert.ReferenceIdeal.Line

end
-- ==== Proof.RefLine20.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 60 host operations of the program's printed window 20, in order (a call of the clamp function as its six operations
    over that call's buffers). -/
abbrev ops20 : List (HloOp τ sig (Elt F)) :=
  [ StableHlo.unary main_c_272 main_v925 (broadcastInDim S524288 ![] bcast_S_S524288 : (⟨S_, .i32⟩ : BufTy).Contents (Elt F) → (⟨S524288, .i32⟩ : BufTy).Contents (Elt F)),
    StableHlo.binary main_v910 main_v925 main_v926 (cmpi .slt : (⟨S524288, .i32⟩ : BufTy).Contents (Elt F) → (⟨S524288, .i32⟩ : BufTy).Contents (Elt F) → (⟨S524288, .i1⟩ : BufTy).Contents (Elt F)),
    StableHlo.nullary main_c_273 (constantI S_ 32 512#32),
    StableHlo.unary main_c_273 main_v927 (broadcastInDim S524288 ![] bcast_S_S524288 : (⟨S_, .i32⟩ : BufTy).Contents (Elt F) → (⟨S524288, .i32⟩ : BufTy).Contents (Elt F)),
    StableHlo.binary main_v910 main_v927 main_v928 (addi : (⟨S524288, .i32⟩ : BufTy).Contents (Elt F) → (⟨S524288, .i32⟩ : BufTy).Contents (Elt F) → (⟨S524288, .i32⟩ : BufTy).Contents (Elt F)),
    StableHlo.ternary main_v926 main_v928 main_v910 main_v929 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v924 main_v930 (broadcastInDim S524288x1 ![0] bcast_S524288_S524288x1_0 : (⟨S524288, .i32⟩ : BufTy).Contents (Elt F) → (⟨S524288x1, .i32⟩ : BufTy).Contents (Elt F)),
    StableHlo.unary main_v929 main_v931 (broadcastInDim S524288x1 ![0] bcast_S524288_S524288x1_0 : (⟨S524288, .i32⟩ : BufTy).Contents (Elt F) → (⟨S524288x1, .i32⟩ : BufTy).Contents (Elt F)),
    StableHlo.binary main_v930 main_v931 main_v932 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg9 main_v932 main_v933 ((fun x i => Host.gather gather_S32x512x512_S524288x2_S32x524288_0_12_n_n_12_1_3211 x i) : (⟨S32x512x512, .f32⟩ : BufTy).Contents (Elt F) → (⟨S524288x2, .i32⟩ : BufTy).Contents (Elt F) → (⟨S32x524288, .f32⟩ : BufTy).Contents (Elt F)),
    StableHlo.nullary main_c_274 (constantI S_ 32 0#32),
    StableHlo.unary main_c_274 main_v934 (broadcastInDim S524288 ![] bcast_S_S524288 : (⟨S_, .i32⟩ : BufTy).Contents (Elt F) → (⟨S524288, .i32⟩ : BufTy).Contents (Elt F)),
    StableHlo.binary main_v911 main_v934 main_v935 (cmpi .slt : (⟨S524288, .i32⟩ : BufTy).Contents (Elt F) → (⟨S524288, .i32⟩ : BufTy).Contents (Elt F) → (⟨S524288, .i1⟩ : BufTy).Contents (Elt F)),
    StableHlo.nullary main_c_275 (constantI S_ 32 512#32),
    StableHlo.unary main_c_275 main_v936 (broadcastInDim S524288 ![] bcast_S_S524288 : (⟨S_, .i32⟩ : BufTy).Contents (Elt F) → (⟨S524288, .i32⟩ : BufTy).Contents (Elt F)),
    StableHlo.binary main_v911 main_v936 main_v937 (addi : (⟨S524288, .i32⟩ : BufTy).Contents (Elt F) → (⟨S524288, .i32⟩ : BufTy).Contents (Elt F) → (⟨S524288, .i32⟩ : BufTy).Contents (Elt F)),
    StableHlo.ternary main_v935 main_v937 main_v911 main_v938 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_276 (constantI S_ 32 0#32),
    StableHlo.unary main_c_276 main_v939 (broadcastInDim S524288 ![] bcast_S_S524288 : (⟨S_, .i32⟩ : BufTy).Contents (Elt F) → (⟨S524288, .i32⟩ : BufTy).Contents (Elt F)),
    StableHlo.binary main_v915 main_v939 main_v940 (cmpi .slt : (⟨S524288, .i32⟩ : BufTy).Contents (Elt F) → (⟨S524288, .i32⟩ : BufTy).Contents (Elt F) → (⟨S524288, .i1⟩ : BufTy).Contents (Elt F)),
    StableHlo.nullary main_c_277 (constantI S_ 32 512#32),
    StableHlo.unary main_c_277 main_v941 (broadcastInDim S524288 ![] bcast_S_S524288 : (⟨S_, .i32⟩ : BufTy).Contents (Elt F) → (⟨S524288, .i32⟩ : BufTy).Contents (Elt F)),
    StableHlo.binary main_v915 main_v941 main_v942 (addi : (⟨S524288, .i32⟩ : BufTy).Contents (Elt F) → (⟨S524288, .i32⟩ : BufTy).Contents (Elt F) → (⟨S524288, .i32⟩ : BufTy).Contents (Elt F)),
    StableHlo.ternary main_v940 main_v942 main_v915 main_v943 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v938 main_v944 (broadcastInDim S524288x1 ![0] bcast_S524288_S524288x1_0 : (⟨S524288, .i32⟩ : BufTy).Contents (Elt F) → (⟨S524288x1, .i32⟩ : BufTy).Contents (Elt F)),
    StableHlo.unary main_v943 main_v945 (broadcastInDim S524288x1 ![0] bcast_S524288_S524288x1_0 : (⟨S524288, .i32⟩ : BufTy).Contents (Elt F) → (⟨S524288x1, .i32⟩ : BufTy).Contents (Elt F)),
    StableHlo.binary main_v944 main_v945 main_v946 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg9 main_v946 main_v947 ((fun x i => Host.gather gather_S32x512x512_S524288x2_S32x524288_0_12_n_n_12_1_3211 x i) : (⟨S32x512x512, .f32⟩ : BufTy).Contents (Elt F) → (⟨S524288x2, .i32⟩ : BufTy).Contents (Elt F) → (⟨S32x524288, .f32⟩ : BufTy).Contents (Elt F)),
    StableHlo.nullary main_c_278 (constantI S_ 32 0#32),
    StableHlo.unary main_c_278 main_v948 (broadcastInDim S524288 ![] bcast_S_S524288 : (⟨S_, .i32⟩ : BufTy).Contents (Elt F) → (⟨S524288, .i32⟩ : BufTy).Contents (Elt F)),
    StableHlo.binary main_v919 main_v948 main_v949 (cmpi .slt : (⟨S524288, .i32⟩ : BufTy).Contents (Elt F) → (⟨S524288, .i32⟩ : BufTy).Contents (Elt F) → (⟨S524288, .i1⟩ : BufTy).Contents (Elt F)),
    StableHlo.nullary main_c_279 (constantI S_ 32 512#32),
    StableHlo.unary main_c_279 main_v950 (broadcastInDim S524288 ![] bcast_S_S524288 : (⟨S_, .i32⟩ : BufTy).Contents (Elt F) → (⟨S524288, .i32⟩ : BufTy).Contents (Elt F)),
    StableHlo.binary main_v919 main_v950 main_v951 (addi : (⟨S524288, .i32⟩ : BufTy).Contents (Elt F) → (⟨S524288, .i32⟩ : BufTy).Contents (Elt F) → (⟨S524288, .i32⟩ : BufTy).Contents (Elt F)),
    StableHlo.ternary main_v949 main_v951 main_v919 main_v952 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_280 (constantI S_ 32 0#32),
    StableHlo.unary main_c_280 main_v953 (broadcastInDim S524288 ![] bcast_S_S524288 : (⟨S_, .i32⟩ : BufTy).Contents (Elt F) → (⟨S524288, .i32⟩ : BufTy).Contents (Elt F)),
    StableHlo.binary main_v910 main_v953 main_v954 (cmpi .slt : (⟨S524288, .i32⟩ : BufTy).Contents (Elt F) → (⟨S524288, .i32⟩ : BufTy).Contents (Elt F) → (⟨S524288, .i1⟩ : BufTy).Contents (Elt F)),
    StableHlo.nullary main_c_281 (constantI S_ 32 512#32),
    StableHlo.unary main_c_281 main_v955 (broadcastInDim S524288 ![] bcast_S_S524288 : (⟨S_, .i32⟩ : BufTy).Contents (Elt F) → (⟨S524288, .i32⟩ : BufTy).Contents (Elt F)),
    StableHlo.binary main_v910 main_v955 main_v956 (addi : (⟨S524288, .i32⟩ : BufTy).Contents (Elt F) → (⟨S524288, .i32⟩ : BufTy).Contents (Elt F) → (⟨S524288, .i32⟩ : BufTy).Contents (Elt F)),
    StableHlo.ternary main_v954 main_v956 main_v910 main_v957 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v952 main_v958 (broadcastInDim S524288x1 ![0] bcast_S524288_S524288x1_0 : (⟨S524288, .i32⟩ : BufTy).Contents (Elt F) → (⟨S524288x1, .i32⟩ : BufTy).Contents (Elt F)),
    StableHlo.unary main_v957 main_v959 (broadcastInDim S524288x1 ![0] bcast_S524288_S524288x1_0 : (⟨S524288, .i32⟩ : BufTy).Contents (Elt F) → (⟨S524288x1, .i32⟩ : BufTy).Contents (Elt F)),
    StableHlo.binary main_v958 main_v959 main_v960 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg9 main_v960 main_v961 ((fun x i => Host.gather gather_S32x512x512_S524288x2_S32x524288_0_12_n_n_12_1_3211 x i) : (⟨S32x512x512, .f32⟩ : BufTy).Contents (Elt F) → (⟨S524288x2, .i32⟩ : BufTy).Contents (Elt F) → (⟨S32x524288, .f32⟩ : BufTy).Contents (Elt F)),
    StableHlo.nullary main_c_282 (constantI S_ 32 0#32),
    StableHlo.unary main_c_282 main_v962 (broadcastInDim S524288 ![] bcast_S_S524288 : (⟨S_, .i32⟩ : BufTy).Contents (Elt F) → (⟨S524288, .i32⟩ : BufTy).Contents (Elt F)),
    StableHlo.binary main_v919 main_v962 main_v963 (cmpi .slt : (⟨S524288, .i32⟩ : BufTy).Contents (Elt F) → (⟨S524288, .i32⟩ : BufTy).Contents (Elt F) → (⟨S524288, .i1⟩ : BufTy).Contents (Elt F)),
    StableHlo.nullary main_c_283 (constantI S_ 32 512#32),
    StableHlo.unary main_c_283 main_v964 (broadcastInDim S524288 ![] bcast_S_S524288 : (⟨S_, .i32⟩ : BufTy).Contents (Elt F) → (⟨S524288, .i32⟩ : BufTy).Contents (Elt F)),
    StableHlo.binary main_v919 main_v964 main_v965 (addi : (⟨S524288, .i32⟩ : BufTy).Contents (Elt F) → (⟨S524288, .i32⟩ : BufTy).Contents (Elt F) → (⟨S524288, .i32⟩ : BufTy).Contents (Elt F)),
    StableHlo.ternary main_v963 main_v965 main_v919 main_v966 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_284 (constantI S_ 32 0#32),
    StableHlo.unary main_c_284 main_v967 (broadcastInDim S524288 ![] bcast_S_S524288 : (⟨S_, .i32⟩ : BufTy).Contents (Elt F) → (⟨S524288, .i32⟩ : BufTy).Contents (Elt F)),
    StableHlo.binary main_v915 main_v967 main_v968 (cmpi .slt : (⟨S524288, .i32⟩ : BufTy).Contents (Elt F) → (⟨S524288, .i32⟩ : BufTy).Contents (Elt F) → (⟨S524288, .i1⟩ : BufTy).Contents (Elt F)),
    StableHlo.nullary main_c_285 (constantI S_ 32 512#32),
    StableHlo.unary main_c_285 main_v969 (broadcastInDim S524288 ![] bcast_S_S524288 : (⟨S_, .i32⟩ : BufTy).Contents (Elt F) → (⟨S524288, .i32⟩ : BufTy).Contents (Elt F)),
    StableHlo.binary main_v915 main_v969 main_v970 (addi : (⟨S524288, .i32⟩ : BufTy).Contents (Elt F) → (⟨S524288, .i32⟩ : BufTy).Contents (Elt F) → (⟨S524288, .i32⟩ : BufTy).Contents (Elt F)),
    StableHlo.ternary main_v968 main_v970 main_v915 main_v971 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)) ]

set_option maxHeartbeats 40000000 in
set_option maxRecDepth 65536 in
/-- The printed window is that straight line. -/
theorem part20_eq (d : Dev nD) : main_part20 (F := F) d = seq ops20 := by
  simp only [main_part20, fn_clip.body, seq, bind_assoc, pure_bind] <;> rfl

set_option maxHeartbeats 40000000 in
/-- Every operation of the window touches TensorCore references only. -/
theorem ops20_sub : (ops20 : List (HloOp τ sig (Elt F))).Forall fun op => op.bufs ⊆ tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

set_option maxHeartbeats 40000000 in
/-- Every operation of the window determines what it writes. -/
theorem ops20_fresh : (ops20 : List (HloOp τ sig (Elt F))).Forall fun op => op.fresh = ∅ := by
  simp only [List.Forall]; repeat' constructor

end Cert.ReferenceIdeal.Line

end
-- ==== Proof.RefLine21.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 65 host operations of the program's printed window 21, in order (a call of the clamp function as its six operations
    over that call's buffers). -/
abbrev ops21 : List (HloOp τ sig (Elt F)) :=
  [ StableHlo.unary main_v966 main_v972 (broadcastInDim S524288x1 ![0] bcast_S524288_S524288x1_0 : (⟨S524288, .i32⟩ : BufTy).Contents (Elt F) → (⟨S524288x1, .i32⟩ : BufTy).Contents (Elt F)),
    StableHlo.unary main_v971 main_v973 (broadcastInDim S524288x1 ![0] bcast_S524288_S524288x1_0 : (⟨S524288, .i32⟩ : BufTy).Contents (Elt F) → (⟨S524288x1, .i32⟩ : BufTy).Contents (Elt F)),
    StableHlo.binary main_v972 main_v973 main_v974 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg9 main_v974 main_v975 ((fun x i => Host.gather gather_S32x512x512_S524288x2_S32x524288_0_12_n_n_12_1_3211 x i) : (⟨S32x512x512, .f32⟩ : BufTy).Contents (Elt F) → (⟨S524288x2, .i32⟩ : BufTy).Contents (Elt F) → (⟨S32x524288, .f32⟩ : BufTy).Contents (Elt F)),
    StableHlo.nullary main_cst_286 (constant S_ .f32 0x3F800000#32),
    StableHlo.unary main_cst_286 main_v976 (broadcastInDim S524288 ![] bcast_S_S524288 : (⟨S_, .f32⟩ : BufTy).Contents (Elt F) → (⟨S524288, .f32⟩ : BufTy).Contents (Elt F)),
    StableHlo.binary main_v976 main_v908 main_v977 (subf : (⟨S524288, .f32⟩ : BufTy).Contents (Elt F) → (⟨S524288, .f32⟩ : BufTy).Contents (Elt F) → (⟨S524288, .f32⟩ : BufTy).Contents (Elt F)),
    StableHlo.unary main_v977 main_v978 (broadcastInDim S1x524288 ![1] bcast_S524288_S1x524288_1 : (⟨S524288, .f32⟩ : BufTy).Contents (Elt F) → (⟨S1x524288, .f32⟩ : BufTy).Contents (Elt F)),
    StableHlo.unary main_v978 main_v979 (broadcastInDim S32x524288 ![0, 1] bcast_S1x524288_S32x524288_0_1 : (⟨S1x524288, .f32⟩ : BufTy).Contents (Elt F) → (⟨S32x524288, .f32⟩ : BufTy).Contents (Elt F)),
    StableHlo.binary main_v933 main_v979 main_v980 (mulf : (⟨S32x524288, .f32⟩ : BufTy).Contents (Elt F) → (⟨S32x524288, .f32⟩ : BufTy).Contents (Elt F) → (⟨S32x524288, .f32⟩ : BufTy).Contents (Elt F)),
    StableHlo.unary main_v908 main_v981 (broadcastInDim S1x524288 ![1] bcast_S524288_S1x524288_1 : (⟨S524288, .f32⟩ : BufTy).Contents (Elt F) → (⟨S1x524288, .f32⟩ : BufTy).Contents (Elt F)),
    StableHlo.unary main_v981 main_v982 (broadcastInDim S32x524288 ![0, 1] bcast_S1x524288_S32x524288_0_1 : (⟨S1x524288, .f32⟩ : BufTy).Contents (Elt F) → (⟨S32x524288, .f32⟩ : BufTy).Contents (Elt F)),
    StableHlo.binary main_v947 main_v982 main_v983 (mulf : (⟨S32x524288, .f32⟩ : BufTy).Contents (Elt F) → (⟨S32x524288, .f32⟩ : BufTy).Contents (Elt F) → (⟨S32x524288, .f32⟩ : BufTy).Contents (Elt F)),
    StableHlo.binary main_v980 main_v983 main_v984 (addf : (⟨S32x524288, .f32⟩ : BufTy).Contents (Elt F) → (⟨S32x524288, .f32⟩ : BufTy).Contents (Elt F) → (⟨S32x524288, .f32⟩ : BufTy).Contents (Elt F)),
    StableHlo.nullary main_cst_287 (constant S_ .f32 0x3F800000#32),
    StableHlo.unary main_cst_287 main_v985 (broadcastInDim S524288 ![] bcast_S_S524288 : (⟨S_, .f32⟩ : BufTy).Contents (Elt F) → (⟨S524288, .f32⟩ : BufTy).Contents (Elt F)),
    StableHlo.binary main_v985 main_v908 main_v986 (subf : (⟨S524288, .f32⟩ : BufTy).Contents (Elt F) → (⟨S524288, .f32⟩ : BufTy).Contents (Elt F) → (⟨S524288, .f32⟩ : BufTy).Contents (Elt F)),
    StableHlo.unary main_v986 main_v987 (broadcastInDim S1x524288 ![1] bcast_S524288_S1x524288_1 : (⟨S524288, .f32⟩ : BufTy).Contents (Elt F) → (⟨S1x524288, .f32⟩ : BufTy).Contents (Elt F)),
    StableHlo.unary main_v987 main_v988 (broadcastInDim S32x524288 ![0, 1] bcast_S1x524288_S32x524288_0_1 : (⟨S1x524288, .f32⟩ : BufTy).Contents (Elt F) → (⟨S32x524288, .f32⟩ : BufTy).Contents (Elt F)),
    StableHlo.binary main_v961 main_v988 main_v989 (mulf : (⟨S32x524288, .f32⟩ : BufTy).Contents (Elt F) → (⟨S32x524288, .f32⟩ : BufTy).Contents (Elt F) → (⟨S32x524288, .f32⟩ : BufTy).Contents (Elt F)),
    StableHlo.unary main_v908 main_v990 (broadcastInDim S1x524288 ![1] bcast_S524288_S1x524288_1 : (⟨S524288, .f32⟩ : BufTy).Contents (Elt F) → (⟨S1x524288, .f32⟩ : BufTy).Contents (Elt F)),
    StableHlo.unary main_v990 main_v991 (broadcastInDim S32x524288 ![0, 1] bcast_S1x524288_S32x524288_0_1 : (⟨S1x524288, .f32⟩ : BufTy).Contents (Elt F) → (⟨S32x524288, .f32⟩ : BufTy).Contents (Elt F)),
    StableHlo.binary main_v975 main_v991 main_v992 (mulf : (⟨S32x524288, .f32⟩ : BufTy).Contents (Elt F) → (⟨S32x524288, .f32⟩ : BufTy).Contents (Elt F) → (⟨S32x524288, .f32⟩ : BufTy).Contents (Elt F)),
    StableHlo.binary main_v989 main_v992 main_v993 (addf : (⟨S32x524288, .f32⟩ : BufTy).Contents (Elt F) → (⟨S32x524288, .f32⟩ : BufTy).Contents (Elt F) → (⟨S32x524288, .f32⟩ : BufTy).Contents (Elt F)),
    StableHlo.nullary main_cst_288 (constant S_ .f32 0x3F800000#32),
    StableHlo.unary main_cst_288 main_v994 (broadcastInDim S524288 ![] bcast_S_S524288 : (⟨S_, .f32⟩ : BufTy).Contents (Elt F) → (⟨S524288, .f32⟩ : BufTy).Contents (Elt F)),
    StableHlo.binary main_v994 main_v909 main_v995 (subf : (⟨S524288, .f32⟩ : BufTy).Contents (Elt F) → (⟨S524288, .f32⟩ : BufTy).Contents (Elt F) → (⟨S524288, .f32⟩ : BufTy).Contents (Elt F)),
    StableHlo.unary main_v995 main_v996 (broadcastInDim S1x524288 ![1] bcast_S524288_S1x524288_1 : (⟨S524288, .f32⟩ : BufTy).Contents (Elt F) → (⟨S1x524288, .f32⟩ : BufTy).Contents (Elt F)),
    StableHlo.unary main_v996 main_v997 (broadcastInDim S32x524288 ![0, 1] bcast_S1x524288_S32x524288_0_1 : (⟨S1x524288, .f32⟩ : BufTy).Contents (Elt F) → (⟨S32x524288, .f32⟩ : BufTy).Contents (Elt F)),
    StableHlo.binary main_v984 main_v997 main_v998 (mulf : (⟨S32x524288, .f32⟩ : BufTy).Contents (Elt F) → (⟨S32x524288, .f32⟩ : BufTy).Contents (Elt F) → (⟨S32x524288, .f32⟩ : BufTy).Contents (Elt F)),
    StableHlo.unary main_v909 main_v999 (broadcastInDim S1x524288 ![1] bcast_S524288_S1x524288_1 : (⟨S524288, .f32⟩ : BufTy).Contents (Elt F) → (⟨S1x524288, .f32⟩ : BufTy).Contents (Elt F)),
    StableHlo.unary main_v999 main_v1000 (broadcastInDim S32x524288 ![0, 1] bcast_S1x524288_S32x524288_0_1 : (⟨S1x524288, .f32⟩ : BufTy).Contents (Elt F) → (⟨S32x524288, .f32⟩ : BufTy).Contents (Elt F)),
    StableHlo.binary main_v993 main_v1000 main_v1001 (mulf : (⟨S32x524288, .f32⟩ : BufTy).Contents (Elt F) → (⟨S32x524288, .f32⟩ : BufTy).Contents (Elt F) → (⟨S32x524288, .f32⟩ : BufTy).Contents (Elt F)),
    StableHlo.binary main_v998 main_v1001 main_v1002 (addf : (⟨S32x524288, .f32⟩ : BufTy).Contents (Elt F) → (⟨S32x524288, .f32⟩ : BufTy).Contents (Elt F) → (⟨S32x524288, .f32⟩ : BufTy).Contents (Elt F)),
    StableHlo.unary main_v1002 main_v1003 ((transpose S524288x32 [1, 0] · transposes_S32x524288_S524288x32_1_0) : (⟨S32x524288, .f32⟩ : BufTy).Contents (Elt F) → (⟨S524288x32, .f32⟩ : BufTy).Contents (Elt F)),
    StableHlo.nullary main_c_289 (constantI S_ 32 0#32),
    StableHlo.unary main_c_289 main_v1004 (broadcastInDim S2 ![] bcast_S_S2 : (⟨S_, .i32⟩ : BufTy).Contents (Elt F) → (⟨S2, .i32⟩ : BufTy).Contents (Elt F)),
    StableHlo.binary main_c_7 main_v1004 main_v1005 (cmpi .slt : (⟨S2, .i32⟩ : BufTy).Contents (Elt F) → (⟨S2, .i32⟩ : BufTy).Contents (Elt F) → (⟨S2, .i1⟩ : BufTy).Contents (Elt F)),
    StableHlo.nullary main_c_290 (constantI S_ 32 3#32),
    StableHlo.unary main_c_290 main_v1006 (broadcastInDim S2 ![] bcast_S_S2 : (⟨S_, .i32⟩ : BufTy).Contents (Elt F) → (⟨S2, .i32⟩ : BufTy).Contents (Elt F)),
    StableHlo.binary main_c_7 main_v1006 main_v1007 (addi : (⟨S2, .i32⟩ : BufTy).Contents (Elt F) → (⟨S2, .i32⟩ : BufTy).Contents (Elt F) → (⟨S2, .i32⟩ : BufTy).Contents (Elt F)),
    StableHlo.ternary main_v1005 main_v1007 main_c_7 main_v1008 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v1008 main_v1009 (broadcastInDim S2x1 ![0] bcast_S2_S2x1_0 : (⟨S2, .i32⟩ : BufTy).Contents (Elt F) → (⟨S2x1, .i32⟩ : BufTy).Contents (Elt F)),
    StableHlo.binary main_v17 main_v1009 main_v1010 ((fun x i => Host.gather gather_S524288x3_S2x1_S524288x2_0_1_n_n_1_1_5242881 x i) : (⟨S524288x3, .f32⟩ : BufTy).Contents (Elt F) → (⟨S2x1, .i32⟩ : BufTy).Contents (Elt F) → (⟨S524288x2, .f32⟩ : BufTy).Contents (Elt F)),
    StableHlo.unary main_v1010 main_v1011 ((extractStridedSlice S524288x1 ![0, 0] · slices_S524288x2_S524288x1_0_0) : (⟨S524288x2, .f32⟩ : BufTy).Contents (Elt F) → (⟨S524288x1, .f32⟩ : BufTy).Contents (Elt F)),
    StableHlo.reshape main_v1011 main_v1012 rfl shapeCasts_S524288x1_S524288,
    StableHlo.nullary main_cst_291 (constant S_ .f32 0x3F800000#32),
    StableHlo.unary main_cst_291 main_v1013 (broadcastInDim S524288 ![] bcast_S_S524288 : (⟨S_, .f32⟩ : BufTy).Contents (Elt F) → (⟨S524288, .f32⟩ : BufTy).Contents (Elt F)),
    StableHlo.binary main_v1012 main_v1013 main_v1014 (addf : (⟨S524288, .f32⟩ : BufTy).Contents (Elt F) → (⟨S524288, .f32⟩ : BufTy).Contents (Elt F) → (⟨S524288, .f32⟩ : BufTy).Contents (Elt F)),
    StableHlo.nullary main_cst_292 (constant S_ .f32 0x3F000000#32),
    StableHlo.unary main_cst_292 main_v1015 (broadcastInDim S524288 ![] bcast_S_S524288 : (⟨S_, .f32⟩ : BufTy).Contents (Elt F) → (⟨S524288, .f32⟩ : BufTy).Contents (Elt F)),
    StableHlo.binary main_v1014 main_v1015 main_v1016 (mulf : (⟨S524288, .f32⟩ : BufTy).Contents (Elt F) → (⟨S524288, .f32⟩ : BufTy).Contents (Elt F) → (⟨S524288, .f32⟩ : BufTy).Contents (Elt F)),
    StableHlo.nullary main_cst_293 (constant S_ .f32 0x43FF8000#32),
    StableHlo.unary main_cst_293 main_v1017 (broadcastInDim S524288 ![] bcast_S_S524288 : (⟨S_, .f32⟩ : BufTy).Contents (Elt F) → (⟨S524288, .f32⟩ : BufTy).Contents (Elt F)),
    StableHlo.binary main_v1016 main_v1017 main_v1018 (mulf : (⟨S524288, .f32⟩ : BufTy).Contents (Elt F) → (⟨S524288, .f32⟩ : BufTy).Contents (Elt F) → (⟨S524288, .f32⟩ : BufTy).Contents (Elt F)),
    StableHlo.nullary main_cst_294 (constant S_ .f32 0x00000000#32),
    StableHlo.nullary main_c_295 (constantI S_ 32 511#32),
    StableHlo.TRef.unary (.of main_cst_294 : StableHlo.TRef sig ⟨S_, .f32⟩) main_call16.v0 id,
    StableHlo.TRef.unary main_call16.v0 main_call16.v1 (broadcastInDim S524288 ![] bcast_S_S524288),
    StableHlo.TRef.binary main_call16.v1 (.of main_v1018 : StableHlo.TRef sig ⟨S524288, .f32⟩) main_call16.v2 maximumf,
    StableHlo.TRef.unary (.of main_c_295 : StableHlo.TRef sig ⟨S_, .i32⟩) main_call16.v3 (sitofp .f32),
    StableHlo.TRef.unary main_call16.v3 main_call16.v4 (broadcastInDim S524288 ![] bcast_S_S524288),
    StableHlo.TRef.binary main_call16.v4 main_call16.v2 main_call16.v5 minimumf,
    StableHlo.unary main_v1010 main_v1020 ((extractStridedSlice S524288x1 ![0, 1] · slices_S524288x2_S524288x1_0_1) : (⟨S524288x2, .f32⟩ : BufTy).Contents (Elt F) → (⟨S524288x1, .f32⟩ : BufTy).Contents (Elt F)),
    StableHlo.reshape main_v1020 main_v1021 rfl shapeCasts_S524288x1_S524288 ]

set_option maxHeartbeats 40000000 in
set_option maxRecDepth 65536 in
/-- The printed window is that straight line. -/
theorem part21_eq (d : Dev nD) : main_part21 (F := F) d = seq ops21 := by
  simp only [main_part21, fn_clip.body, seq, bind_assoc, pure_bind] <;> rfl

set_option maxHeartbeats 40000000 in
/-- Every operation of the window touches TensorCore references only. -/
theorem ops21_sub : (ops21 : List (HloOp τ sig (Elt F))).Forall fun op => op.bufs ⊆ tcRefs τ sig :=
  ⟨StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub ..⟩

set_option maxHeartbeats 40000000 in
/-- Every operation of the window determines what it writes. -/
theorem ops21_fresh : (ops21 : List (HloOp τ sig (Elt F))).Forall fun op => op.fresh = ∅ := by
  simp only [List.Forall]; repeat' constructor

end Cert.ReferenceIdeal.Line

end
-- ==== Proof.RefLine22.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 65 host operations of the program's printed window 22, in order (a call of the clamp function as its six operations
    over that call's buffers). -/
abbrev ops22 : List (HloOp τ sig (Elt F)) :=
  [ StableHlo.nullary main_cst_296 (constant S_ .f32 0x3F800000#32),
    StableHlo.unary main_cst_296 main_v1022 (broadcastInDim S524288 ![] bcast_S_S524288 : (⟨S_, .f32⟩ : BufTy).Contents (Elt F) → (⟨S524288, .f32⟩ : BufTy).Contents (Elt F)),
    StableHlo.binary main_v1021 main_v1022 main_v1023 (addf : (⟨S524288, .f32⟩ : BufTy).Contents (Elt F) → (⟨S524288, .f32⟩ : BufTy).Contents (Elt F) → (⟨S524288, .f32⟩ : BufTy).Contents (Elt F)),
    StableHlo.nullary main_cst_297 (constant S_ .f32 0x3F000000#32),
    StableHlo.unary main_cst_297 main_v1024 (broadcastInDim S524288 ![] bcast_S_S524288 : (⟨S_, .f32⟩ : BufTy).Contents (Elt F) → (⟨S524288, .f32⟩ : BufTy).Contents (Elt F)),
    StableHlo.binary main_v1023 main_v1024 main_v1025 (mulf : (⟨S524288, .f32⟩ : BufTy).Contents (Elt F) → (⟨S524288, .f32⟩ : BufTy).Contents (Elt F) → (⟨S524288, .f32⟩ : BufTy).Contents (Elt F)),
    StableHlo.nullary main_cst_298 (constant S_ .f32 0x43FF8000#32),
    StableHlo.unary main_cst_298 main_v1026 (broadcastInDim S524288 ![] bcast_S_S524288 : (⟨S_, .f32⟩ : BufTy).Contents (Elt F) → (⟨S524288, .f32⟩ : BufTy).Contents (Elt F)),
    StableHlo.binary main_v1025 main_v1026 main_v1027 (mulf : (⟨S524288, .f32⟩ : BufTy).Contents (Elt F) → (⟨S524288, .f32⟩ : BufTy).Contents (Elt F) → (⟨S524288, .f32⟩ : BufTy).Contents (Elt F)),
    StableHlo.nullary main_cst_299 (constant S_ .f32 0x00000000#32),
    StableHlo.nullary main_c_300 (constantI S_ 32 511#32),
    StableHlo.TRef.unary (.of main_cst_299 : StableHlo.TRef sig ⟨S_, .f32⟩) main_call17.v0 id,
    StableHlo.TRef.unary main_call17.v0 main_call17.v1 (broadcastInDim S524288 ![] bcast_S_S524288),
    StableHlo.TRef.binary main_call17.v1 (.of main_v1027 : StableHlo.TRef sig ⟨S524288, .f32⟩) main_call17.v2 maximumf,
    StableHlo.TRef.unary (.of main_c_300 : StableHlo.TRef sig ⟨S_, .i32⟩) main_call17.v3 (sitofp .f32),
    StableHlo.TRef.unary main_call17.v3 main_call17.v4 (broadcastInDim S524288 ![] bcast_S_S524288),
    StableHlo.TRef.binary main_call17.v4 main_call17.v2 main_call17.v5 minimumf,
    StableHlo.unary main_v1019 main_v1029 (Host.floor : (⟨S524288, .f32⟩ : BufTy).Contents (Elt F) → (⟨S524288, .f32⟩ : BufTy).Contents (Elt F)),
    StableHlo.unary main_v1028 main_v1030 (Host.floor : (⟨S524288, .f32⟩ : BufTy).Contents (Elt F) → (⟨S524288, .f32⟩ : BufTy).Contents (Elt F)),
    StableHlo.binary main_v1019 main_v1029 main_v1031 (subf : (⟨S524288, .f32⟩ : BufTy).Contents (Elt F) → (⟨S524288, .f32⟩ : BufTy).Contents (Elt F) → (⟨S524288, .f32⟩ : BufTy).Contents (Elt F)),
    StableHlo.binary main_v1028 main_v1030 main_v1032 (subf : (⟨S524288, .f32⟩ : BufTy).Contents (Elt F) → (⟨S524288, .f32⟩ : BufTy).Contents (Elt F) → (⟨S524288, .f32⟩ : BufTy).Contents (Elt F)),
    StableHlo.unary main_v1029 main_v1033 (fptosi 32 : (⟨S524288, .f32⟩ : BufTy).Contents (Elt F) → (⟨S524288, .i32⟩ : BufTy).Contents (Elt F)),
    StableHlo.unary main_v1030 main_v1034 (fptosi 32 : (⟨S524288, .f32⟩ : BufTy).Contents (Elt F) → (⟨S524288, .i32⟩ : BufTy).Contents (Elt F)),
    StableHlo.nullary main_c_301 (constantI S_ 32 1#32),
    StableHlo.unary main_c_301 main_v1035 (broadcastInDim S524288 ![] bcast_S_S524288 : (⟨S_, .i32⟩ : BufTy).Contents (Elt F) → (⟨S524288, .i32⟩ : BufTy).Contents (Elt F)),
    StableHlo.binary main_v1033 main_v1035 main_v1036 (addi : (⟨S524288, .i32⟩ : BufTy).Contents (Elt F) → (⟨S524288, .i32⟩ : BufTy).Contents (Elt F) → (⟨S524288, .i32⟩ : BufTy).Contents (Elt F)),
    StableHlo.nullary main_c_302 (constantI S_ 32 511#32),
    StableHlo.unary main_c_302 main_v1037 (broadcastInDim S524288 ![] bcast_S_S524288 : (⟨S_, .i32⟩ : BufTy).Contents (Elt F) → (⟨S524288, .i32⟩ : BufTy).Contents (Elt F)),
    StableHlo.binary main_v1036 main_v1037 main_v1038 (minsi : (⟨S524288, .i32⟩ : BufTy).Contents (Elt F) → (⟨S524288, .i32⟩ : BufTy).Contents (Elt F) → (⟨S524288, .i32⟩ : BufTy).Contents (Elt F)),
    StableHlo.nullary main_c_303 (constantI S_ 32 1#32),
    StableHlo.unary main_c_303 main_v1039 (broadcastInDim S524288 ![] bcast_S_S524288 : (⟨S_, .i32⟩ : BufTy).Contents (Elt F) → (⟨S524288, .i32⟩ : BufTy).Contents (Elt F)),
    StableHlo.binary main_v1034 main_v1039 main_v1040 (addi : (⟨S524288, .i32⟩ : BufTy).Contents (Elt F) → (⟨S524288, .i32⟩ : BufTy).Contents (Elt F) → (⟨S524288, .i32⟩ : BufTy).Contents (Elt F)),
    StableHlo.nullary main_c_304 (constantI S_ 32 511#32),
    StableHlo.unary main_c_304 main_v1041 (broadcastInDim S524288 ![] bcast_S_S524288 : (⟨S_, .i32⟩ : BufTy).Contents (Elt F) → (⟨S524288, .i32⟩ : BufTy).Contents (Elt F)),
    StableHlo.binary main_v1040 main_v1041 main_v1042 (minsi : (⟨S524288, .i32⟩ : BufTy).Contents (Elt F) → (⟨S524288, .i32⟩ : BufTy).Contents (Elt F) → (⟨S524288, .i32⟩ : BufTy).Contents (Elt F)),
    StableHlo.nullary main_c_305 (constantI S_ 32 0#32),
    StableHlo.unary main_c_305 main_v1043 (broadcastInDim S524288 ![] bcast_S_S524288 : (⟨S_, .i32⟩ : BufTy).Contents (Elt F) → (⟨S524288, .i32⟩ : BufTy).Contents (Elt F)),
    StableHlo.binary main_v1034 main_v1043 main_v1044 (cmpi .slt : (⟨S524288, .i32⟩ : BufTy).Contents (Elt F) → (⟨S524288, .i32⟩ : BufTy).Contents (Elt F) → (⟨S524288, .i1⟩ : BufTy).Contents (Elt F)),
    StableHlo.nullary main_c_306 (constantI S_ 32 512#32),
    StableHlo.unary main_c_306 main_v1045 (broadcastInDim S524288 ![] bcast_S_S524288 : (⟨S_, .i32⟩ : BufTy).Contents (Elt F) → (⟨S524288, .i32⟩ : BufTy).Contents (Elt F)),
    StableHlo.binary main_v1034 main_v1045 main_v1046 (addi : (⟨S524288, .i32⟩ : BufTy).Contents (Elt F) → (⟨S524288, .i32⟩ : BufTy).Contents (Elt F) → (⟨S524288, .i32⟩ : BufTy).Contents (Elt F)),
    StableHlo.ternary main_v1044 main_v1046 main_v1034 main_v1047 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_307 (constantI S_ 32 0#32),
    StableHlo.unary main_c_307 main_v1048 (broadcastInDim S524288 ![] bcast_S_S524288 : (⟨S_, .i32⟩ : BufTy).Contents (Elt F) → (⟨S524288, .i32⟩ : BufTy).Contents (Elt F)),
    StableHlo.binary main_v1033 main_v1048 main_v1049 (cmpi .slt : (⟨S524288, .i32⟩ : BufTy).Contents (Elt F) → (⟨S524288, .i32⟩ : BufTy).Contents (Elt F) → (⟨S524288, .i1⟩ : BufTy).Contents (Elt F)),
    StableHlo.nullary main_c_308 (constantI S_ 32 512#32),
    StableHlo.unary main_c_308 main_v1050 (broadcastInDim S524288 ![] bcast_S_S524288 : (⟨S_, .i32⟩ : BufTy).Contents (Elt F) → (⟨S524288, .i32⟩ : BufTy).Contents (Elt F)),
    StableHlo.binary main_v1033 main_v1050 main_v1051 (addi : (⟨S524288, .i32⟩ : BufTy).Contents (Elt F) → (⟨S524288, .i32⟩ : BufTy).Contents (Elt F) → (⟨S524288, .i32⟩ : BufTy).Contents (Elt F)),
    StableHlo.ternary main_v1049 main_v1051 main_v1033 main_v1052 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v1047 main_v1053 (broadcastInDim S524288x1 ![0] bcast_S524288_S524288x1_0 : (⟨S524288, .i32⟩ : BufTy).Contents (Elt F) → (⟨S524288x1, .i32⟩ : BufTy).Contents (Elt F)),
    StableHlo.unary main_v1052 main_v1054 (broadcastInDim S524288x1 ![0] bcast_S524288_S524288x1_0 : (⟨S524288, .i32⟩ : BufTy).Contents (Elt F) → (⟨S524288x1, .i32⟩ : BufTy).Contents (Elt F)),
    StableHlo.binary main_v1053 main_v1054 main_v1055 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg10 main_v1055 main_v1056 ((fun x i => Host.gather gather_S32x512x512_S524288x2_S32x524288_0_12_n_n_12_1_3211 x i) : (⟨S32x512x512, .f32⟩ : BufTy).Contents (Elt F) → (⟨S524288x2, .i32⟩ : BufTy).Contents (Elt F) → (⟨S32x524288, .f32⟩ : BufTy).Contents (Elt F)),
    StableHlo.nullary main_c_309 (constantI S_ 32 0#32),
    StableHlo.unary main_c_309 main_v1057 (broadcastInDim S524288 ![] bcast_S_S524288 : (⟨S_, .i32⟩ : BufTy).Contents (Elt F) → (⟨S524288, .i32⟩ : BufTy).Contents (Elt F)),
    StableHlo.binary main_v1034 main_v1057 main_v1058 (cmpi .slt : (⟨S524288, .i32⟩ : BufTy).Contents (Elt F) → (⟨S524288, .i32⟩ : BufTy).Contents (Elt F) → (⟨S524288, .i1⟩ : BufTy).Contents (Elt F)),
    StableHlo.nullary main_c_310 (constantI S_ 32 512#32),
    StableHlo.unary main_c_310 main_v1059 (broadcastInDim S524288 ![] bcast_S_S524288 : (⟨S_, .i32⟩ : BufTy).Contents (Elt F) → (⟨S524288, .i32⟩ : BufTy).Contents (Elt F)),
    StableHlo.binary main_v1034 main_v1059 main_v1060 (addi : (⟨S524288, .i32⟩ : BufTy).Contents (Elt F) → (⟨S524288, .i32⟩ : BufTy).Contents (Elt F) → (⟨S524288, .i32⟩ : BufTy).Contents (Elt F)),
    StableHlo.ternary main_v1058 main_v1060 main_v1034 main_v1061 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_311 (constantI S_ 32 0#32),
    StableHlo.unary main_c_311 main_v1062 (broadcastInDim S524288 ![] bcast_S_S524288 : (⟨S_, .i32⟩ : BufTy).Contents (Elt F) → (⟨S524288, .i32⟩ : BufTy).Contents (Elt F)),
    StableHlo.binary main_v1038 main_v1062 main_v1063 (cmpi .slt : (⟨S524288, .i32⟩ : BufTy).Contents (Elt F) → (⟨S524288, .i32⟩ : BufTy).Contents (Elt F) → (⟨S524288, .i1⟩ : BufTy).Contents (Elt F)),
    StableHlo.nullary main_c_312 (constantI S_ 32 512#32),
    StableHlo.unary main_c_312 main_v1064 (broadcastInDim S524288 ![] bcast_S_S524288 : (⟨S_, .i32⟩ : BufTy).Contents (Elt F) → (⟨S524288, .i32⟩ : BufTy).Contents (Elt F)) ]

set_option maxHeartbeats 40000000 in
set_option maxRecDepth 65536 in
/-- The printed window is that straight line. -/
theorem part22_eq (d : Dev nD) : main_part22 (F := F) d = seq ops22 := by
  simp only [main_part22, fn_clip.body, seq, bind_assoc, pure_bind] <;> rfl

set_option maxHeartbeats 40000000 in
/-- Every operation of the window touches TensorCore references only. -/
theorem ops22_sub : (ops22 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub ..⟩

set_option maxHeartbeats 40000000 in
/-- Every operation of the window determines what it writes. -/
theorem ops22_fresh : (ops22 : List (HloOp τ sig (Elt F))).Forall fun op => op.fresh = ∅ := by
  simp only [List.Forall]; repeat' constructor

end Cert.ReferenceIdeal.Line

end
-- ==== Proof.RefLine23.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 60 host operations of the program's printed window 23, in order (a call of the clamp function as its six operations
    over that call's buffers). -/
abbrev ops23 : List (HloOp τ sig (Elt F)) :=
  [ StableHlo.binary main_v1038 main_v1064 main_v1065 (addi : (⟨S524288, .i32⟩ : BufTy).Contents (Elt F) → (⟨S524288, .i32⟩ : BufTy).Contents (Elt F) → (⟨S524288, .i32⟩ : BufTy).Contents (Elt F)),
    StableHlo.ternary main_v1063 main_v1065 main_v1038 main_v1066 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v1061 main_v1067 (broadcastInDim S524288x1 ![0] bcast_S524288_S524288x1_0 : (⟨S524288, .i32⟩ : BufTy).Contents (Elt F) → (⟨S524288x1, .i32⟩ : BufTy).Contents (Elt F)),
    StableHlo.unary main_v1066 main_v1068 (broadcastInDim S524288x1 ![0] bcast_S524288_S524288x1_0 : (⟨S524288, .i32⟩ : BufTy).Contents (Elt F) → (⟨S524288x1, .i32⟩ : BufTy).Contents (Elt F)),
    StableHlo.binary main_v1067 main_v1068 main_v1069 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg10 main_v1069 main_v1070 ((fun x i => Host.gather gather_S32x512x512_S524288x2_S32x524288_0_12_n_n_12_1_3211 x i) : (⟨S32x512x512, .f32⟩ : BufTy).Contents (Elt F) → (⟨S524288x2, .i32⟩ : BufTy).Contents (Elt F) → (⟨S32x524288, .f32⟩ : BufTy).Contents (Elt F)),
    StableHlo.nullary main_c_313 (constantI S_ 32 0#32),
    StableHlo.unary main_c_313 main_v1071 (broadcastInDim S524288 ![] bcast_S_S524288 : (⟨S_, .i32⟩ : BufTy).Contents (Elt F) → (⟨S524288, .i32⟩ : BufTy).Contents (Elt F)),
    StableHlo.binary main_v1042 main_v1071 main_v1072 (cmpi .slt : (⟨S524288, .i32⟩ : BufTy).Contents (Elt F) → (⟨S524288, .i32⟩ : BufTy).Contents (Elt F) → (⟨S524288, .i1⟩ : BufTy).Contents (Elt F)),
    StableHlo.nullary main_c_314 (constantI S_ 32 512#32),
    StableHlo.unary main_c_314 main_v1073 (broadcastInDim S524288 ![] bcast_S_S524288 : (⟨S_, .i32⟩ : BufTy).Contents (Elt F) → (⟨S524288, .i32⟩ : BufTy).Contents (Elt F)),
    StableHlo.binary main_v1042 main_v1073 main_v1074 (addi : (⟨S524288, .i32⟩ : BufTy).Contents (Elt F) → (⟨S524288, .i32⟩ : BufTy).Contents (Elt F) → (⟨S524288, .i32⟩ : BufTy).Contents (Elt F)),
    StableHlo.ternary main_v1072 main_v1074 main_v1042 main_v1075 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_315 (constantI S_ 32 0#32),
    StableHlo.unary main_c_315 main_v1076 (broadcastInDim S524288 ![] bcast_S_S524288 : (⟨S_, .i32⟩ : BufTy).Contents (Elt F) → (⟨S524288, .i32⟩ : BufTy).Contents (Elt F)),
    StableHlo.binary main_v1033 main_v1076 main_v1077 (cmpi .slt : (⟨S524288, .i32⟩ : BufTy).Contents (Elt F) → (⟨S524288, .i32⟩ : BufTy).Contents (Elt F) → (⟨S524288, .i1⟩ : BufTy).Contents (Elt F)),
    StableHlo.nullary main_c_316 (constantI S_ 32 512#32),
    StableHlo.unary main_c_316 main_v1078 (broadcastInDim S524288 ![] bcast_S_S524288 : (⟨S_, .i32⟩ : BufTy).Contents (Elt F) → (⟨S524288, .i32⟩ : BufTy).Contents (Elt F)),
    StableHlo.binary main_v1033 main_v1078 main_v1079 (addi : (⟨S524288, .i32⟩ : BufTy).Contents (Elt F) → (⟨S524288, .i32⟩ : BufTy).Contents (Elt F) → (⟨S524288, .i32⟩ : BufTy).Contents (Elt F)),
    StableHlo.ternary main_v1077 main_v1079 main_v1033 main_v1080 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v1075 main_v1081 (broadcastInDim S524288x1 ![0] bcast_S524288_S524288x1_0 : (⟨S524288, .i32⟩ : BufTy).Contents (Elt F) → (⟨S524288x1, .i32⟩ : BufTy).Contents (Elt F)),
    StableHlo.unary main_v1080 main_v1082 (broadcastInDim S524288x1 ![0] bcast_S524288_S524288x1_0 : (⟨S524288, .i32⟩ : BufTy).Contents (Elt F) → (⟨S524288x1, .i32⟩ : BufTy).Contents (Elt F)),
    StableHlo.binary main_v1081 main_v1082 main_v1083 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg10 main_v1083 main_v1084 ((fun x i => Host.gather gather_S32x512x512_S524288x2_S32x524288_0_12_n_n_12_1_3211 x i) : (⟨S32x512x512, .f32⟩ : BufTy).Contents (Elt F) → (⟨S524288x2, .i32⟩ : BufTy).Contents (Elt F) → (⟨S32x524288, .f32⟩ : BufTy).Contents (Elt F)),
    StableHlo.nullary main_c_317 (constantI S_ 32 0#32),
    StableHlo.unary main_c_317 main_v1085 (broadcastInDim S524288 ![] bcast_S_S524288 : (⟨S_, .i32⟩ : BufTy).Contents (Elt F) → (⟨S524288, .i32⟩ : BufTy).Contents (Elt F)),
    StableHlo.binary main_v1042 main_v1085 main_v1086 (cmpi .slt : (⟨S524288, .i32⟩ : BufTy).Contents (Elt F) → (⟨S524288, .i32⟩ : BufTy).Contents (Elt F) → (⟨S524288, .i1⟩ : BufTy).Contents (Elt F)),
    StableHlo.nullary main_c_318 (constantI S_ 32 512#32),
    StableHlo.unary main_c_318 main_v1087 (broadcastInDim S524288 ![] bcast_S_S524288 : (⟨S_, .i32⟩ : BufTy).Contents (Elt F) → (⟨S524288, .i32⟩ : BufTy).Contents (Elt F)),
    StableHlo.binary main_v1042 main_v1087 main_v1088 (addi : (⟨S524288, .i32⟩ : BufTy).Contents (Elt F) → (⟨S524288, .i32⟩ : BufTy).Contents (Elt F) → (⟨S524288, .i32⟩ : BufTy).Contents (Elt F)),
    StableHlo.ternary main_v1086 main_v1088 main_v1042 main_v1089 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_319 (constantI S_ 32 0#32),
    StableHlo.unary main_c_319 main_v1090 (broadcastInDim S524288 ![] bcast_S_S524288 : (⟨S_, .i32⟩ : BufTy).Contents (Elt F) → (⟨S524288, .i32⟩ : BufTy).Contents (Elt F)),
    StableHlo.binary main_v1038 main_v1090 main_v1091 (cmpi .slt : (⟨S524288, .i32⟩ : BufTy).Contents (Elt F) → (⟨S524288, .i32⟩ : BufTy).Contents (Elt F) → (⟨S524288, .i1⟩ : BufTy).Contents (Elt F)),
    StableHlo.nullary main_c_320 (constantI S_ 32 512#32),
    StableHlo.unary main_c_320 main_v1092 (broadcastInDim S524288 ![] bcast_S_S524288 : (⟨S_, .i32⟩ : BufTy).Contents (Elt F) → (⟨S524288, .i32⟩ : BufTy).Contents (Elt F)),
    StableHlo.binary main_v1038 main_v1092 main_v1093 (addi : (⟨S524288, .i32⟩ : BufTy).Contents (Elt F) → (⟨S524288, .i32⟩ : BufTy).Contents (Elt F) → (⟨S524288, .i32⟩ : BufTy).Contents (Elt F)),
    StableHlo.ternary main_v1091 main_v1093 main_v1038 main_v1094 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v1089 main_v1095 (broadcastInDim S524288x1 ![0] bcast_S524288_S524288x1_0 : (⟨S524288, .i32⟩ : BufTy).Contents (Elt F) → (⟨S524288x1, .i32⟩ : BufTy).Contents (Elt F)),
    StableHlo.unary main_v1094 main_v1096 (broadcastInDim S524288x1 ![0] bcast_S524288_S524288x1_0 : (⟨S524288, .i32⟩ : BufTy).Contents (Elt F) → (⟨S524288x1, .i32⟩ : BufTy).Contents (Elt F)),
    StableHlo.binary main_v1095 main_v1096 main_v1097 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.binary main_arg10 main_v1097 main_v1098 ((fun x i => Host.gather gather_S32x512x512_S524288x2_S32x524288_0_12_n_n_12_1_3211 x i) : (⟨S32x512x512, .f32⟩ : BufTy).Contents (Elt F) → (⟨S524288x2, .i32⟩ : BufTy).Contents (Elt F) → (⟨S32x524288, .f32⟩ : BufTy).Contents (Elt F)),
    StableHlo.nullary main_cst_321 (constant S_ .f32 0x3F800000#32),
    StableHlo.unary main_cst_321 main_v1099 (broadcastInDim S524288 ![] bcast_S_S524288 : (⟨S_, .f32⟩ : BufTy).Contents (Elt F) → (⟨S524288, .f32⟩ : BufTy).Contents (Elt F)),
    StableHlo.binary main_v1099 main_v1031 main_v1100 (subf : (⟨S524288, .f32⟩ : BufTy).Contents (Elt F) → (⟨S524288, .f32⟩ : BufTy).Contents (Elt F) → (⟨S524288, .f32⟩ : BufTy).Contents (Elt F)),
    StableHlo.unary main_v1100 main_v1101 (broadcastInDim S1x524288 ![1] bcast_S524288_S1x524288_1 : (⟨S524288, .f32⟩ : BufTy).Contents (Elt F) → (⟨S1x524288, .f32⟩ : BufTy).Contents (Elt F)),
    StableHlo.unary main_v1101 main_v1102 (broadcastInDim S32x524288 ![0, 1] bcast_S1x524288_S32x524288_0_1 : (⟨S1x524288, .f32⟩ : BufTy).Contents (Elt F) → (⟨S32x524288, .f32⟩ : BufTy).Contents (Elt F)),
    StableHlo.binary main_v1056 main_v1102 main_v1103 (mulf : (⟨S32x524288, .f32⟩ : BufTy).Contents (Elt F) → (⟨S32x524288, .f32⟩ : BufTy).Contents (Elt F) → (⟨S32x524288, .f32⟩ : BufTy).Contents (Elt F)),
    StableHlo.unary main_v1031 main_v1104 (broadcastInDim S1x524288 ![1] bcast_S524288_S1x524288_1 : (⟨S524288, .f32⟩ : BufTy).Contents (Elt F) → (⟨S1x524288, .f32⟩ : BufTy).Contents (Elt F)),
    StableHlo.unary main_v1104 main_v1105 (broadcastInDim S32x524288 ![0, 1] bcast_S1x524288_S32x524288_0_1 : (⟨S1x524288, .f32⟩ : BufTy).Contents (Elt F) → (⟨S32x524288, .f32⟩ : BufTy).Contents (Elt F)),
    StableHlo.binary main_v1070 main_v1105 main_v1106 (mulf : (⟨S32x524288, .f32⟩ : BufTy).Contents (Elt F) → (⟨S32x524288, .f32⟩ : BufTy).Contents (Elt F) → (⟨S32x524288, .f32⟩ : BufTy).Contents (Elt F)),
    StableHlo.binary main_v1103 main_v1106 main_v1107 (addf : (⟨S32x524288, .f32⟩ : BufTy).Contents (Elt F) → (⟨S32x524288, .f32⟩ : BufTy).Contents (Elt F) → (⟨S32x524288, .f32⟩ : BufTy).Contents (Elt F)),
    StableHlo.nullary main_cst_322 (constant S_ .f32 0x3F800000#32),
    StableHlo.unary main_cst_322 main_v1108 (broadcastInDim S524288 ![] bcast_S_S524288 : (⟨S_, .f32⟩ : BufTy).Contents (Elt F) → (⟨S524288, .f32⟩ : BufTy).Contents (Elt F)),
    StableHlo.binary main_v1108 main_v1031 main_v1109 (subf : (⟨S524288, .f32⟩ : BufTy).Contents (Elt F) → (⟨S524288, .f32⟩ : BufTy).Contents (Elt F) → (⟨S524288, .f32⟩ : BufTy).Contents (Elt F)),
    StableHlo.unary main_v1109 main_v1110 (broadcastInDim S1x524288 ![1] bcast_S524288_S1x524288_1 : (⟨S524288, .f32⟩ : BufTy).Contents (Elt F) → (⟨S1x524288, .f32⟩ : BufTy).Contents (Elt F)),
    StableHlo.unary main_v1110 main_v1111 (broadcastInDim S32x524288 ![0, 1] bcast_S1x524288_S32x524288_0_1 : (⟨S1x524288, .f32⟩ : BufTy).Contents (Elt F) → (⟨S32x524288, .f32⟩ : BufTy).Contents (Elt F)),
    StableHlo.binary main_v1084 main_v1111 main_v1112 (mulf : (⟨S32x524288, .f32⟩ : BufTy).Contents (Elt F) → (⟨S32x524288, .f32⟩ : BufTy).Contents (Elt F) → (⟨S32x524288, .f32⟩ : BufTy).Contents (Elt F)),
    StableHlo.unary main_v1031 main_v1113 (broadcastInDim S1x524288 ![1] bcast_S524288_S1x524288_1 : (⟨S524288, .f32⟩ : BufTy).Contents (Elt F) → (⟨S1x524288, .f32⟩ : BufTy).Contents (Elt F)),
    StableHlo.unary main_v1113 main_v1114 (broadcastInDim S32x524288 ![0, 1] bcast_S1x524288_S32x524288_0_1 : (⟨S1x524288, .f32⟩ : BufTy).Contents (Elt F) → (⟨S32x524288, .f32⟩ : BufTy).Contents (Elt F)) ]

set_option maxHeartbeats 40000000 in
set_option maxRecDepth 65536 in
/-- The printed window is that straight line. -/
theorem part23_eq (d : Dev nD) : main_part23 (F := F) d = seq ops23 := by
  simp only [main_part23, fn_clip.body, seq, bind_assoc, pure_bind] <;> rfl

set_option maxHeartbeats 40000000 in
/-- Every operation of the window touches TensorCore references only. -/
theorem ops23_sub : (ops23 : List (HloOp τ sig (Elt F))).Forall fun op => op.bufs ⊆ tcRefs τ sig :=
  ⟨StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub ..⟩

set_option maxHeartbeats 40000000 in
/-- Every operation of the window determines what it writes. -/
theorem ops23_fresh : (ops23 : List (HloOp τ sig (Elt F))).Forall fun op => op.fresh = ∅ := by
  simp only [List.Forall]; repeat' constructor

end Cert.ReferenceIdeal.Line

end
-- ==== Proof.RefLine24.lean ====
import proofs.«168354_j73564199846375_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 15 host operations of the program's printed window 24, in order (a call of the clamp function as its six operations
    over that call's buffers). -/
abbrev ops24 : List (HloOp τ sig (Elt F)) :=
  [ StableHlo.binary main_v1098 main_v1114 main_v1115 (mulf : (⟨S32x524288, .f32⟩ : BufTy).Contents (Elt F) → (⟨S32x524288, .f32⟩ : BufTy).Contents (Elt F) → (⟨S32x524288, .f32⟩ : BufTy).Contents (Elt F)),
    StableHlo.binary main_v1112 main_v1115 main_v1116 (addf : (⟨S32x524288, .f32⟩ : BufTy).Contents (Elt F) → (⟨S32x524288, .f32⟩ : BufTy).Contents (Elt F) → (⟨S32x524288, .f32⟩ : BufTy).Contents (Elt F)),
    StableHlo.nullary main_cst_323 (constant S_ .f32 0x3F800000#32),
    StableHlo.unary main_cst_323 main_v1117 (broadcastInDim S524288 ![] bcast_S_S524288 : (⟨S_, .f32⟩ : BufTy).Contents (Elt F) → (⟨S524288, .f32⟩ : BufTy).Contents (Elt F)),
    StableHlo.binary main_v1117 main_v1032 main_v1118 (subf : (⟨S524288, .f32⟩ : BufTy).Contents (Elt F) → (⟨S524288, .f32⟩ : BufTy).Contents (Elt F) → (⟨S524288, .f32⟩ : BufTy).Contents (Elt F)),
    StableHlo.unary main_v1118 main_v1119 (broadcastInDim S1x524288 ![1] bcast_S524288_S1x524288_1 : (⟨S524288, .f32⟩ : BufTy).Contents (Elt F) → (⟨S1x524288, .f32⟩ : BufTy).Contents (Elt F)),
    StableHlo.unary main_v1119 main_v1120 (broadcastInDim S32x524288 ![0, 1] bcast_S1x524288_S32x524288_0_1 : (⟨S1x524288, .f32⟩ : BufTy).Contents (Elt F) → (⟨S32x524288, .f32⟩ : BufTy).Contents (Elt F)),
    StableHlo.binary main_v1107 main_v1120 main_v1121 (mulf : (⟨S32x524288, .f32⟩ : BufTy).Contents (Elt F) → (⟨S32x524288, .f32⟩ : BufTy).Contents (Elt F) → (⟨S32x524288, .f32⟩ : BufTy).Contents (Elt F)),
    StableHlo.unary main_v1032 main_v1122 (broadcastInDim S1x524288 ![1] bcast_S524288_S1x524288_1 : (⟨S524288, .f32⟩ : BufTy).Contents (Elt F) → (⟨S1x524288, .f32⟩ : BufTy).Contents (Elt F)),
    StableHlo.unary main_v1122 main_v1123 (broadcastInDim S32x524288 ![0, 1] bcast_S1x524288_S32x524288_0_1 : (⟨S1x524288, .f32⟩ : BufTy).Contents (Elt F) → (⟨S32x524288, .f32⟩ : BufTy).Contents (Elt F)),
    StableHlo.binary main_v1116 main_v1123 main_v1124 (mulf : (⟨S32x524288, .f32⟩ : BufTy).Contents (Elt F) → (⟨S32x524288, .f32⟩ : BufTy).Contents (Elt F) → (⟨S32x524288, .f32⟩ : BufTy).Contents (Elt F)),
    StableHlo.binary main_v1121 main_v1124 main_v1125 (addf : (⟨S32x524288, .f32⟩ : BufTy).Contents (Elt F) → (⟨S32x524288, .f32⟩ : BufTy).Contents (Elt F) → (⟨S32x524288, .f32⟩ : BufTy).Contents (Elt F)),
    StableHlo.unary main_v1125 main_v1126 ((transpose S524288x32 [1, 0] · transposes_S32x524288_S524288x32_1_0) : (⟨S32x524288, .f32⟩ : BufTy).Contents (Elt F) → (⟨S524288x32, .f32⟩ : BufTy).Contents (Elt F)),
    StableHlo.nary ![main_v880, main_v1003, main_v1126] main_v1127 (fun u => concatenate S524288x96 1 [⟨S524288x32, u 0⟩, ⟨S524288x32, u 1⟩, ⟨S524288x32, u 2⟩] concatenates_S524288x32_S524288x32_S524288x32_S524288x96_d1),
    StableHlo.nary ![main_v387, main_v757, main_v1127] main_v1128 (fun u => concatenate S524288x288 1 [⟨S524288x96, u 0⟩, ⟨S524288x96, u 1⟩, ⟨S524288x96, u 2⟩] concatenates_S524288x96_S524288x96_S524288x96_S524288x288_d1) ]

set_option maxHeartbeats 40000000 in
set_option maxRecDepth 65536 in
/-- The printed window is that straight line. -/
theorem part24_eq (d : Dev nD) : main_part24 (F := F) d = seq ops24 := by
  simp only [main_part24, fn_clip.body, seq, bind_assoc, pure_bind] <;> rfl

set_option maxHeartbeats 40000000 in
/-- Every operation of the window touches TensorCore references only. -/
theorem ops24_sub : (ops24 : List (HloOp τ sig (Elt F))).Forall fun op => op.bufs ⊆ tcRefs τ sig :=
  ⟨StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.nary_bufs_sub .., StableHlo.nary_bufs_sub ..⟩

set_option maxHeartbeats 40000000 in
/-- Every operation of the window determines what it writes. -/
theorem ops24_fresh : (ops24 : List (HloOp τ sig (Elt F))).Forall fun op => op.fresh = ∅ := by
  simp only [List.Forall]; repeat' constructor

end Cert.ReferenceIdeal.Line

end
-- ==== Proof.RefRun.lean ====
/-
  The reference program's @main is one straight line of host operations: its twenty-five printed windows one after the
  other.  So every weakly fair execution terminates with each buffer at the line's fold over the launch contents.
-/
import proofs.«168354_j73564199846375_2_alg».proof.Proof.RefLine0
import proofs.«168354_j73564199846375_2_alg».proof.Proof.RefLine1
import proofs.«168354_j73564199846375_2_alg».proof.Proof.RefLine2
import proofs.«168354_j73564199846375_2_alg».proof.Proof.RefLine3
import proofs.«168354_j73564199846375_2_alg».proof.Proof.RefLine4
import proofs.«168354_j73564199846375_2_alg».proof.Proof.RefLine5
import proofs.«168354_j73564199846375_2_alg».proof.Proof.RefLine6
import proofs.«168354_j73564199846375_2_alg».proof.Proof.RefLine7
import proofs.«168354_j73564199846375_2_alg».proof.Proof.RefLine8
import proofs.«168354_j73564199846375_2_alg».proof.Proof.RefLine9
import proofs.«168354_j73564199846375_2_alg».proof.Proof.RefLine10
import proofs.«168354_j73564199846375_2_alg».proof.Proof.RefLine11
import proofs.«168354_j73564199846375_2_alg».proof.Proof.RefLine12
import proofs.«168354_j73564199846375_2_alg».proof.Proof.RefLine13
import proofs.«168354_j73564199846375_2_alg».proof.Proof.RefLine14
import proofs.«168354_j73564199846375_2_alg».proof.Proof.RefLine15
import proofs.«168354_j73564199846375_2_alg».proof.Proof.RefLine16
import proofs.«168354_j73564199846375_2_alg».proof.Proof.RefLine17
import proofs.«168354_j73564199846375_2_alg».proof.Proof.RefLine18
import proofs.«168354_j73564199846375_2_alg».proof.Proof.RefLine19
import proofs.«168354_j73564199846375_2_alg».proof.Proof.RefLine20
import proofs.«168354_j73564199846375_2_alg».proof.Proof.RefLine21
import proofs.«168354_j73564199846375_2_alg».proof.Proof.RefLine22
import proofs.«168354_j73564199846375_2_alg».proof.Proof.RefLine23
import proofs.«168354_j73564199846375_2_alg».proof.Proof.RefLine24

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The whole line: the windows' operations in order. -/
def ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21 ++ (ops22 ++ (ops23 ++ (ops24))))))))))))))))))))))))

set_option maxRecDepth 65536 in
/-- @main is that line. -/
theorem main_eq (d : Dev nD) : main (F := F) d = seq ops := by
  unfold main ops
  simp only [seq_append, part0_eq, part1_eq, part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq]

theorem mem_ops (op : HloOp τ sig (Elt F)) (h : op ∈ (ops : List (HloOp τ sig (Elt F)))) :
    op ∈ (ops0 : List (HloOp τ sig (Elt F))) ∨ op ∈ (ops1 : List (HloOp τ sig (Elt F))) ∨ op ∈ (ops2 : List (HloOp τ sig (Elt F))) ∨ op ∈ (ops3 : List (HloOp τ sig (Elt F))) ∨ op ∈ (ops4 : List (HloOp τ sig (Elt F))) ∨ op ∈ (ops5 : List (HloOp τ sig (Elt F))) ∨ op ∈ (ops6 : List (HloOp τ sig (Elt F))) ∨ op ∈ (ops7 : List (HloOp τ sig (Elt F))) ∨ op ∈ (ops8 : List (HloOp τ sig (Elt F))) ∨ op ∈ (ops9 : List (HloOp τ sig (Elt F))) ∨ op ∈ (ops10 : List (HloOp τ sig (Elt F))) ∨ op ∈ (ops11 : List (HloOp τ sig (Elt F))) ∨ op ∈ (ops12 : List (HloOp τ sig (Elt F))) ∨ op ∈ (ops13 : List (HloOp τ sig (Elt F))) ∨ op ∈ (ops14 : List (HloOp τ sig (Elt F))) ∨ op ∈ (ops15 : List (HloOp τ sig (Elt F))) ∨ op ∈ (ops16 : List (HloOp τ sig (Elt F))) ∨ op ∈ (ops17 : List (HloOp τ sig (Elt F))) ∨ op ∈ (ops18 : List (HloOp τ sig (Elt F))) ∨ op ∈ (ops19 : List (HloOp τ sig (Elt F))) ∨ op ∈ (ops20 : List (HloOp τ sig (Elt F))) ∨ op ∈ (ops21 : List (HloOp τ sig (Elt F))) ∨ op ∈ (ops22 : List (HloOp τ sig (Elt F))) ∨ op ∈ (ops23 : List (HloOp τ sig (Elt F))) ∨ op ∈ (ops24 : List (HloOp τ sig (Elt F))) := by
  unfold ops at h
  simp only [List.mem_append] at h
  exact h

theorem ops_sub : (ops : List (HloOp τ sig (Elt F))).Forall fun op => op.bufs ⊆ tcRefs τ sig :=
  List.forall_iff_forall_mem.mpr fun op h => by
    rcases mem_ops op h with h | h | h | h | h | h | h | h | h | h | h | h | h | h | h | h | h | h | h | h | h | h | h | h | h
    · exact List.forall_iff_forall_mem.mp ops0_sub op h
    · exact List.forall_iff_forall_mem.mp ops1_sub op h
    · exact List.forall_iff_forall_mem.mp ops2_sub op h
    · exact List.forall_iff_forall_mem.mp ops3_sub op h
    · exact List.forall_iff_forall_mem.mp ops4_sub op h
    · exact List.forall_iff_forall_mem.mp ops5_sub op h
    · exact List.forall_iff_forall_mem.mp ops6_sub op h
    · exact List.forall_iff_forall_mem.mp ops7_sub op h
    · exact List.forall_iff_forall_mem.mp ops8_sub op h
    · exact List.forall_iff_forall_mem.mp ops9_sub op h
    · exact List.forall_iff_forall_mem.mp ops10_sub op h
    · exact List.forall_iff_forall_mem.mp ops11_sub op h
    · exact List.forall_iff_forall_mem.mp ops12_sub op h
    · exact List.forall_iff_forall_mem.mp ops13_sub op h
    · exact List.forall_iff_forall_mem.mp ops14_sub op h
    · exact List.forall_iff_forall_mem.mp ops15_sub op h
    · exact List.forall_iff_forall_mem.mp ops16_sub op h
    · exact List.forall_iff_forall_mem.mp ops17_sub op h
    · exact List.forall_iff_forall_mem.mp ops18_sub op h
    · exact List.forall_iff_forall_mem.mp ops19_sub op h
    · exact List.forall_iff_forall_mem.mp ops20_sub op h
    · exact List.forall_iff_forall_mem.mp ops21_sub op h
    · exact List.forall_iff_forall_mem.mp ops22_sub op h
    · exact List.forall_iff_forall_mem.mp ops23_sub op h
    · exact List.forall_iff_forall_mem.mp ops24_sub op h

theorem ops_fresh : ∀ op ∈ (ops : List (HloOp τ sig (Elt F))), op.fresh = ∅ := fun op h => by
  rcases mem_ops op h with h | h | h | h | h | h | h | h | h | h | h | h | h | h | h | h | h | h | h | h | h | h | h | h | h
  · exact List.forall_iff_forall_mem.mp ops0_fresh op h
  · exact List.forall_iff_forall_mem.mp ops1_fresh op h
  · exact List.forall_iff_forall_mem.mp ops2_fresh op h
  · exact List.forall_iff_forall_mem.mp ops3_fresh op h
  · exact List.forall_iff_forall_mem.mp ops4_fresh op h
  · exact List.forall_iff_forall_mem.mp ops5_fresh op h
  · exact List.forall_iff_forall_mem.mp ops6_fresh op h
  · exact List.forall_iff_forall_mem.mp ops7_fresh op h
  · exact List.forall_iff_forall_mem.mp ops8_fresh op h
  · exact List.forall_iff_forall_mem.mp ops9_fresh op h
  · exact List.forall_iff_forall_mem.mp ops10_fresh op h
  · exact List.forall_iff_forall_mem.mp ops11_fresh op h
  · exact List.forall_iff_forall_mem.mp ops12_fresh op h
  · exact List.forall_iff_forall_mem.mp ops13_fresh op h
  · exact List.forall_iff_forall_mem.mp ops14_fresh op h
  · exact List.forall_iff_forall_mem.mp ops15_fresh op h
  · exact List.forall_iff_forall_mem.mp ops16_fresh op h
  · exact List.forall_iff_forall_mem.mp ops17_fresh op h
  · exact List.forall_iff_forall_mem.mp ops18_fresh op h
  · exact List.forall_iff_forall_mem.mp ops19_fresh op h
  · exact List.forall_iff_forall_mem.mp ops20_fresh op h
  · exact List.forall_iff_forall_mem.mp ops21_fresh op h
  · exact List.forall_iff_forall_mem.mp ops22_fresh op h
  · exact List.forall_iff_forall_mem.mp ops23_fresh op h
  · exact List.forall_iff_forall_mem.mp ops24_fresh op h

theorem scopedRefs_eq : (Finset.univ.filter fun b : Ref sig .tc => b.isScoped) = ∅ := by decide +kernel
theorem scopedSems_eq : (Finset.univ.filter fun sm : SemLoc sig => sm.isScoped .tc) = ∅ := by decide +kernel

/-- Every weakly fair execution of the reference terminates, each buffer at the line's fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Line

end
-- ==== Proof.RefFrame.lean ====
/-
  The reference leaves its argument arrays as launched: no operation of its line writes one of them.
-/
import proofs.«168354_j73564199846375_2_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxRecDepth 1000000 in
set_option maxHeartbeats 4000000 in
theorem keep_arg0 (V : Valuation τ sig (Elt F)) :
    StableHlo.after ops V (Proc.devRef .tc main_arg0) = V (Proc.devRef .tc main_arg0) := rfl

set_option maxRecDepth 1000000 in
set_option maxHeartbeats 4000000 in
theorem keep_arg1 (V : Valuation τ sig (Elt F)) :
    StableHlo.after ops V (Proc.devRef .tc main_arg1) = V (Proc.devRef .tc main_arg1) := rfl

set_option maxRecDepth 1000000 in
set_option maxHeartbeats 4000000 in
theorem keep_arg2 (V : Valuation τ sig (Elt F)) :
    StableHlo.after ops V (Proc.devRef .tc main_arg2) = V (Proc.devRef .tc main_arg2) := rfl

set_option maxRecDepth 1000000 in
set_option maxHeartbeats 4000000 in
theorem keep_arg3 (V : Valuation τ sig (Elt F)) :
    StableHlo.after ops V (Proc.devRef .tc main_arg3) = V (Proc.devRef .tc main_arg3) := rfl

set_option maxRecDepth 1000000 in
set_option maxHeartbeats 4000000 in
theorem keep_arg4 (V : Valuation τ sig (Elt F)) :
    StableHlo.after ops V (Proc.devRef .tc main_arg4) = V (Proc.devRef .tc main_arg4) := rfl

set_option maxRecDepth 1000000 in
set_option maxHeartbeats 4000000 in
theorem keep_arg5 (V : Valuation τ sig (Elt F)) :
    StableHlo.after ops V (Proc.devRef .tc main_arg5) = V (Proc.devRef .tc main_arg5) := rfl

set_option maxRecDepth 1000000 in
set_option maxHeartbeats 4000000 in
theorem keep_arg6 (V : Valuation τ sig (Elt F)) :
    StableHlo.after ops V (Proc.devRef .tc main_arg6) = V (Proc.devRef .tc main_arg6) := rfl

set_option maxRecDepth 1000000 in
set_option maxHeartbeats 4000000 in
theorem keep_arg7 (V : Valuation τ sig (Elt F)) :
    StableHlo.after ops V (Proc.devRef .tc main_arg7) = V (Proc.devRef .tc main_arg7) := rfl

set_option maxRecDepth 1000000 in
set_option maxHeartbeats 4000000 in
theorem keep_arg8 (V : Valuation τ sig (Elt F)) :
    StableHlo.after ops V (Proc.devRef .tc main_arg8) = V (Proc.devRef .tc main_arg8) := rfl

set_option maxRecDepth 1000000 in
set_option maxHeartbeats 4000000 in
theorem keep_arg9 (V : Valuation τ sig (Elt F)) :
    StableHlo.after ops V (Proc.devRef .tc main_arg9) = V (Proc.devRef .tc main_arg9) := rfl

set_option maxRecDepth 1000000 in
set_option maxHeartbeats 4000000 in
theorem keep_arg10 (V : Valuation τ sig (Elt F)) :
    StableHlo.after ops V (Proc.devRef .tc main_arg10) = V (Proc.devRef .tc main_arg10) := rfl

/-- Every weakly fair execution of the reference terminates with its argument arrays unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c main_arg0).trans (keep_arg0 _),
      (h c main_arg1).trans (keep_arg1 _),
      (h c main_arg2).trans (keep_arg2 _),
      (h c main_arg3).trans (keep_arg3 _),
      (h c main_arg4).trans (keep_arg4 _),
      (h c main_arg5).trans (keep_arg5 _),
      (h c main_arg6).trans (keep_arg6 _),
      (h c main_arg7).trans (keep_arg7 _),
      (h c main_arg8).trans (keep_arg8 _),
      (h c main_arg9).trans (keep_arg9 _),
      (h c main_arg10).trans (keep_arg10 _)⟩)
    (run m ρ)

end Cert.ReferenceIdeal.Line

end
-- ==== Proof.LibLayoutIx.lean ====
/-
  Layout operations of small literal ranks read at an index whose coordinates are named (ValueIdx's ix1, ix2, ix3):
  a scalar broadcast anywhere, a vector as a column or a row, a column or a row repeated, a transposition of two or
  three axes, a one-column array flattened, one column sliced out, two columns set side by side, three equal bands of
  columns set side by side.  Each is the library's read-at-an-index lemma with the operand's index chosen.
-/
import Idealize.ShloMosaic.Lib.Pipeline.Value
import Idealize.ShloMosaic.Lib.ValueIdx

noncomputable section

namespace Idealize.ShloMosaic.LayoutIx

open Idealize.ShloMosaic Idealize.ShloMosaic.ValueIdx

variable {α : Type}

/-- A scalar broadcast to any shape reads the scalar everywhere. -/
theorem bcast_scalar (t : Shape) (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: entry (n, k) is entry n. -/
theorem bcast_col {N : Nat} (dims : Fin 1 → Fin 2) (hd : dims 0 = 0)
    (h : (⟨1, ![N]⟩ : Shape).BroadcastsInDim ⟨2, ![N, 1]⟩ dims) (x : (⟨1, ![N]⟩ : Shape).Idx → α) (n : Fin N) (k : Fin 1) :
    broadcastInDim ⟨2, ![N, 1]⟩ dims h x (ix2 n k) = x (ix1 n) := by
  refine broadcastInDim_apply (s := ⟨1, ![N]⟩) (t := ⟨2, ![N, 1]⟩) dims h x (ix2 n k) (ix1 n) (fun a => ?_)
  obtain rfl : a = 0 := Subsingleton.elim _ _
  rw [hd]
  show n.val = if N = 1 then 0 else n.val
  split
  · have := n.isLt; omega
  · rfl

/-- A vector made a row: entry (k, n) is entry n. -/
theorem bcast_row {N : Nat} (dims : Fin 1 → Fin 2) (hd : dims 0 = 1)
    (h : (⟨1, ![N]⟩ : Shape).BroadcastsInDim ⟨2, ![1, N]⟩ dims) (x : (⟨1, ![N]⟩ : Shape).Idx → α) (n : Fin N) (k : Fin 1) :
    broadcastInDim ⟨2, ![1, N]⟩ dims h x (ix2 k n) = x (ix1 n) := by
  refine broadcastInDim_apply (s := ⟨1, ![N]⟩) (t := ⟨2, ![1, N]⟩) dims h x (ix2 k n) (ix1 n) (fun a => ?_)
  obtain rfl : a = 0 := Subsingleton.elim _ _
  rw [hd]
  show n.val = if N = 1 then 0 else n.val
  split
  · have := n.isLt; omega
  · rfl

/-- A row repeated down C rows: entry (c, n) is entry (0, n). -/
theorem bcast_rows {C N : Nat} (dims : Fin 2 → Fin 2) (hd0 : dims 0 = 0) (hd1 : dims 1 = 1)
    (h : (⟨2, ![1, N]⟩ : Shape).BroadcastsInDim ⟨2, ![C, N]⟩ dims) (x : (⟨2, ![1, N]⟩ : Shape).Idx → α) (c : Fin C) (n : Fin N) :
    broadcastInDim ⟨2, ![C, N]⟩ dims h x (ix2 c n) = x (ix2 (0 : Fin 1) n) := by
  refine broadcastInDim_apply (s := ⟨2, ![1, N]⟩) (t := ⟨2, ![C, N]⟩) dims h x (ix2 c n) (ix2 (0 : Fin 1) n) (fun a => ?_)
  match a with
  | ⟨0, _⟩ =>
    show (0 : Nat) = if (1 : Nat) = 1 then 0 else _
    rw [if_pos rfl]
  | ⟨1, _⟩ =>
    show n.val = if N = 1 then 0 else ((ix2 c n) (dims 1)).val
    rw [hd1]
    split
    · have := n.isLt; omega
    · rfl

/-- A column repeated across C columns: entry (n, c) is entry (n, 0). -/
theorem bcast_cols {N C : Nat} (dims : Fin 2 → Fin 2) (hd0 : dims 0 = 0) (hd1 : dims 1 = 1)
    (h : (⟨2, ![N, 1]⟩ : Shape).BroadcastsInDim ⟨2, ![N, C]⟩ dims) (x : (⟨2, ![N, 1]⟩ : Shape).Idx → α) (n : Fin N) (c : Fin C) :
    broadcastInDim ⟨2, ![N, C]⟩ dims h x (ix2 n c) = x (ix2 n (0 : Fin 1)) := by
  refine broadcastInDim_apply (s := ⟨2, ![N, 1]⟩) (t := ⟨2, ![N, C]⟩) dims h x (ix2 n c) (ix2 n (0 : Fin 1)) (fun a => ?_)
  match a with
  | ⟨0, _⟩ =>
    show n.val = if N = 1 then 0 else ((ix2 n c) (dims 0)).val
    rw [hd0]
    split
    · have := n.isLt; omega
    · rfl
  | ⟨1, _⟩ =>
    show (0 : Nat) = if (1 : Nat) = 1 then 0 else _
    rw [if_pos rfl]

/-- Two axes exchanged: entry (n, c) of the result is entry (c, n). -/
theorem transpose_two {C N : Nat} (h : (⟨2, ![C, N]⟩ : Shape).Transposes [1, 0] ⟨2, ![N, C]⟩)
    (x : (⟨2, ![C, N]⟩ : Shape).Idx → α) (n : Fin N) (c : Fin C) :
    transpose ⟨2, ![N, C]⟩ [1, 0] x h (ix2 n c) = x (ix2 c n) := by
  refine transpose_apply [1, 0] x h _ (ix2 c n) (fun b => ?_)
  match b with
  | ⟨0, _⟩ => rfl
  | ⟨1, _⟩ => rfl

/-- The first axis moved last: entry (h, w, c) of the result is entry (c, h, w). -/
theorem transpose_first_last {C H W : Nat} (h : (⟨3, ![C, H, W]⟩ : Shape).Transposes [1, 2, 0] ⟨3, ![H, W, C]⟩)
    (x : (⟨3, ![C, H, W]⟩ : Shape).Idx → α) (a : Fin H) (b : Fin W) (c : Fin C) :
    transpose ⟨3, ![H, W, C]⟩ [1, 2, 0] x h (ix3 a b c) = x (ix3 c a b) := by
  refine transpose_apply [1, 2, 0] x h _ (ix3 c a b) (fun d => ?_)
  match d with
  | ⟨0, _⟩ => rfl
  | ⟨1, _⟩ => rfl
  | ⟨2, _⟩ => rfl

/-- The same with the permutation a variable known to be the exchange (the form a rewriting pass can use). -/
theorem transpose_two' {C N : Nat} (perm : List (Fin 2)) (hp : perm = [1, 0])
    (h : (⟨2, ![C, N]⟩ : Shape).Transposes perm ⟨2, ![N, C]⟩)
    (x : (⟨2, ![C, N]⟩ : Shape).Idx → α) (n : Fin N) (c : Fin C) :
    transpose ⟨2, ![N, C]⟩ perm x h (ix2 n c) = x (ix2 c n) := by
  subst hp; exact transpose_two h x n c

/-- The same with the permutation a variable known to be the rotation. -/
theorem transpose_first_last' {C H W : Nat} (perm : List (Fin 3)) (hp : perm = [1, 2, 0])
    (h : (⟨3, ![C, H, W]⟩ : Shape).Transposes perm ⟨3, ![H, W, C]⟩)
    (x : (⟨3, ![C, H, W]⟩ : Shape).Idx → α) (a : Fin H) (b : Fin W) (c : Fin C) :
    transpose ⟨3, ![H, W, C]⟩ perm x h (ix3 a b c) = x (ix3 c a b) := by
  subst hp; exact transpose_first_last h x a b c

/-- A one-column array flattened: entry n is entry (n, 0). -/
theorem flatten_col {N : Nat} (h : (⟨2, ![N, 1]⟩ : Shape).ShapeCasts ⟨1, ![N]⟩)
    (x : (⟨2, ![N, 1]⟩ : Shape).Idx → α) (n : Fin N) :
    shapeCast ⟨1, ![N]⟩ x h (ix1 n) = x (ix2 n (0 : Fin 1)) := by
  refine shapeCast_apply x h _ (ix2 n (0 : Fin 1)) ?_
  rw [Shape.rowMajor_val_two, Shape.rowMajor_val_one]
  show n.val * 1 + 0 = n.val
  omega

/-- One column sliced out of K: entry (n, 0) of the slice at column offset o is entry (n, o). -/
theorem slice_col {N K : Nat} (off : Fin 2 → Nat) (o : Fin K) (h0 : off 0 = 0) (h1 : off 1 = o.val)
    (h : (⟨2, ![N, K]⟩ : Shape).Slices off ⟨2, ![N, 1]⟩) (x : (⟨2, ![N, K]⟩ : Shape).Idx → α) (n : Fin N) (k : Fin 1) :
    extractStridedSlice ⟨2, ![N, 1]⟩ off x h (ix2 n k) = x (ix2 n o) := by
  refine extractStridedSlice_apply off x h _ (ix2 n o) (fun a => ?_)
  match a with
  | ⟨0, _⟩ => show n.val = off 0 + n.val; omega
  | ⟨1, _⟩ => show o.val = off 1 + k.val; have := k.isLt; omega

/-- Two one-column arrays set side by side: column 0 is the first ... -/
theorem concat_cols_left {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (0 : Fin 2)) = a (ix2 n (0 : Fin 1)) := by
  refine concatenate_pair_apply_left (t := ⟨2, ![N, 2]⟩) (s₁ := ⟨2, ![N, 1]⟩) (s₂ := ⟨2, ![N, 1]⟩) 1 a b h (ix2 n (0 : Fin 2)) rfl
    (ix2 n (0 : Fin 1)) (fun d => ?_)
  match d with
  | ⟨0, _⟩ => rfl
  | ⟨1, _⟩ => rfl

/-- ... and column 1 is the second. -/
theorem concat_cols_right {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (1 : Fin 2)) = b (ix2 n (0 : Fin 1)) := by
  refine concatenate_pair_apply_right (t := ⟨2, ![N, 2]⟩) (s₁ := ⟨2, ![N, 1]⟩) (s₂ := ⟨2, ![N, 1]⟩) 1 a b h (ix2 n (1 : Fin 2)) rfl rfl
    (ix2 n (0 : Fin 1)) (fun d hd => ?_) rfl
  match d with
  | ⟨0, _⟩ => rfl
  | ⟨1, _⟩ => exact absurd rfl hd

/-- Three arrays of K columns set side by side: column K q + k of the result is column k of the q-th. -/
theorem concat3_apply {N K M : Nat}
    (h : Shape.Concatenates [(⟨2, ![N, K]⟩ : Shape), ⟨2, ![N, K]⟩, ⟨2, ![N, K]⟩] ⟨2, ![N, M]⟩ 1)
    (a b c : (⟨2, ![N, K]⟩ : Shape).Idx → α) (n : Fin N) (j : Fin M) (q : Fin 3) (k : Fin K)
    (hj : j.val = K * q.val + k.val) :
    concatenate ⟨2, ![N, M]⟩ 1 [⟨⟨2, ![N, K]⟩, a⟩, ⟨⟨2, ![N, K]⟩, b⟩, ⟨⟨2, ![N, K]⟩, c⟩] h (ix2 n j)
      = (match q with | 0 => a | 1 => b | 2 => c) (ix2 n k) := by
  have hi : ∀ d : Fin 2, d.cast (rfl : (2 : Nat) = 2) ≠ (1 : Fin 2) → ((ix2 n k) d).val = ((ix2 n j) (d.cast rfl)).val := by
    intro d hd
    match d with
    | ⟨0, _⟩ => rfl
    | ⟨1, _⟩ => exact absurd rfl hd
  match q with
  | 0 =>
    refine concatenate_apply_piece (t := ⟨2, ![N, M]⟩) 1 [⟨⟨2, ![N, K]⟩, a⟩, ⟨⟨2, ![N, K]⟩, b⟩, ⟨⟨2, ![N, K]⟩, c⟩] h (ix2 n j) 0 (by show (0 : Nat) < 3; omega) ⟨2, ![N, K]⟩ a rfl rfl 0 rfl (ix2 n k) hi ?_
    show 0 + k.val = j.val
    simp at hj; omega
  | 1 =>
    refine concatenate_apply_piece (t := ⟨2, ![N, M]⟩) 1 [⟨⟨2, ![N, K]⟩, a⟩, ⟨⟨2, ![N, K]⟩, b⟩, ⟨⟨2, ![N, K]⟩, c⟩] h (ix2 n j) 1 (by show (1 : Nat) < 3; omega) ⟨2, ![N, K]⟩ b rfl rfl K (by simp) (ix2 n k) hi ?_
    show K + k.val = j.val
    simp at hj; omega
  | 2 =>
    refine concatenate_apply_piece (t := ⟨2, ![N, M]⟩) 1 [⟨⟨2, ![N, K]⟩, a⟩, ⟨⟨2, ![N, K]⟩, b⟩, ⟨⟨2, ![N, K]⟩, c⟩] h (ix2 n j) 2 (by show (2 : Nat) < 3; omega) ⟨2, ![N, K]⟩ c rfl rfl (K + K) (by simp) (ix2 n k) hi ?_
    show K + K + k.val = j.val
    simp at hj; omega

/-! ## The elementwise operations on words and the host's rounding, at an index (all by definition) -/

section Pointwise
variable {F : FTy → Type} [FloatOps F] {s : Shape} {φ : FTy} {w : Nat}

theorem cmpi_apply (p : CmpIPredicate) (a b : IVec s w) (i : s.Idx) : cmpi p a b i = IntOp.cmpi p (a i) (b i) := rfl
theorem addi_apply (a b : IVec s w) (i : s.Idx) : addi a b i = IntOp.addi (a i) (b i) := rfl
theorem minsi_apply (a b : IVec s w) (i : s.Idx) : minsi a b i = IntOp.minsi (a i) (b i) := rfl
theorem fptosi_apply (v : Nat) (a : FVec F s φ) (i : s.Idx) : fptosi v a i = FloatOps.fptosi v (a i) := rfl
theorem hostFloor_apply (a : FVec F s φ) (i : s.Idx) : Host.floor a i = FloatOps.hostUnary .floor (a i) := rfl
theorem constantI_apply (b : BitVec w) (i : s.Idx) : constantI s w b i = b := rfl

end Pointwise

end Idealize.ShloMosaic.LayoutIx

end
-- ==== Proof.LibBandsConcat.lean ====
/-
  Nine arrays of 32 columns joined three by three into arrays of 96 columns, and those three joined into one of 288
  columns: the result is the nine arrays side by side.
-/
import proofs.«168354_j73564199846375_2_alg».proof.Proof.LibLayoutIx
import proofs.«168354_j73564199846375_2_alg».proof.Proof.LibBands

noncomputable section

namespace Idealize.ShloMosaic.Bands

open Idealize.ShloMosaic Idealize.ShloMosaic.ValueIdx Idealize.ShloMosaic.LayoutIx

variable {α : Type}

/-- Three arrays of K columns side by side, read at a column of the first, ... -/
theorem concat3_at0 {N K M : Nat}
    (h : Shape.Concatenates [(⟨2, ![N, K]⟩ : Shape), ⟨2, ![N, K]⟩, ⟨2, ![N, K]⟩] ⟨2, ![N, M]⟩ 1)
    (a b c : (⟨2, ![N, K]⟩ : Shape).Idx → α) (n : Fin N) (j : Fin M) (k : Fin K) (hj : j.val = k.val) :
    concatenate ⟨2, ![N, M]⟩ 1 [⟨⟨2, ![N, K]⟩, a⟩, ⟨⟨2, ![N, K]⟩, b⟩, ⟨⟨2, ![N, K]⟩, c⟩] h (ix2 n j) = a (ix2 n k) :=
  concat3_apply h a b c n j 0 k (by show j.val = K * 0 + k.val; omega)

/-- ... of the second, ... -/
theorem concat3_at1 {N K M : Nat}
    (h : Shape.Concatenates [(⟨2, ![N, K]⟩ : Shape), ⟨2, ![N, K]⟩, ⟨2, ![N, K]⟩] ⟨2, ![N, M]⟩ 1)
    (a b c : (⟨2, ![N, K]⟩ : Shape).Idx → α) (n : Fin N) (j : Fin M) (k : Fin K) (hj : j.val = K + k.val) :
    concatenate ⟨2, ![N, M]⟩ 1 [⟨⟨2, ![N, K]⟩, a⟩, ⟨⟨2, ![N, K]⟩, b⟩, ⟨⟨2, ![N, K]⟩, c⟩] h (ix2 n j) = b (ix2 n k) :=
  concat3_apply h a b c n j 1 k (by show j.val = K * 1 + k.val; omega)

/-- ... and of the third. -/
theorem concat3_at2 {N K M : Nat}
    (h : Shape.Concatenates [(⟨2, ![N, K]⟩ : Shape), ⟨2, ![N, K]⟩, ⟨2, ![N, K]⟩] ⟨2, ![N, M]⟩ 1)
    (a b c : (⟨2, ![N, K]⟩ : Shape).Idx → α) (n : Fin N) (j : Fin M) (k : Fin K) (hj : j.val = K + K + k.val) :
    concatenate ⟨2, ![N, M]⟩ 1 [⟨⟨2, ![N, K]⟩, a⟩, ⟨⟨2, ![N, K]⟩, b⟩, ⟨⟨2, ![N, K]⟩, c⟩] h (ix2 n j) = c (ix2 n k) :=
  concat3_apply h a b c n j 2 k (by show j.val = K * 2 + k.val; omega)

/-- Three by three, then three: the nine side by side. -/
theorem concat_nine {N : Nat} (o0 o1 o2 o3 o4 o5 o6 o7 o8 : (⟨2, ![N, 32]⟩ : Shape).Idx → α)
    (h96 : Shape.Concatenates [(⟨2, ![N, 32]⟩ : Shape), (⟨2, ![N, 32]⟩ : Shape), (⟨2, ![N, 32]⟩ : Shape)] (⟨2, ![N, 96]⟩ : Shape) 1)
    (h288 : Shape.Concatenates [(⟨2, ![N, 96]⟩ : Shape), (⟨2, ![N, 96]⟩ : Shape), (⟨2, ![N, 96]⟩ : Shape)] (⟨2, ![N, 288]⟩ : Shape) 1) :
    concatenate (⟨2, ![N, 288]⟩ : Shape) 1 [⟨(⟨2, ![N, 96]⟩ : Shape), concatenate (⟨2, ![N, 96]⟩ : Shape) 1 [⟨(⟨2, ![N, 32]⟩ : Shape), o0⟩, ⟨(⟨2, ![N, 32]⟩ : Shape), o1⟩, ⟨(⟨2, ![N, 32]⟩ : Shape), o2⟩] h96⟩, ⟨(⟨2, ![N, 96]⟩ : Shape), concatenate (⟨2, ![N, 96]⟩ : Shape) 1 [⟨(⟨2, ![N, 32]⟩ : Shape), o3⟩, ⟨(⟨2, ![N, 32]⟩ : Shape), o4⟩, ⟨(⟨2, ![N, 32]⟩ : Shape), o5⟩] h96⟩, ⟨(⟨2, ![N, 96]⟩ : Shape), concatenate (⟨2, ![N, 96]⟩ : Shape) 1 [⟨(⟨2, ![N, 32]⟩ : Shape), o6⟩, ⟨(⟨2, ![N, 32]⟩ : Shape), o7⟩, ⟨(⟨2, ![N, 32]⟩ : Shape), o8⟩] h96⟩] h288
      = sideBySide o0 o1 o2 o3 o4 o5 o6 o7 o8 := by
  funext i
  obtain ⟨n, j, rfl⟩ : ∃ (n : Fin N) (j : Fin 288), i = ix2 n j := ⟨i 0, i 1, eq_ix2 i⟩
  have hj : j.val < 288 := j.isLt
  have hk : j.val % 32 < 32 := Nat.mod_lt _ (by decide)
  have hk96 : j.val % 96 < 96 := Nat.mod_lt _ (by decide)
  have leaf : ∀ (p : Nat) (o : (⟨2, ![N, 32]⟩ : Shape).Idx → α), j.val = 32 * p + j.val % 32 → pick p o0 o1 o2 o3 o4 o5 o6 o7 o8 = o →
      o (ix2 n (⟨j.val % 32, hk⟩ : Fin 32)) = sideBySide o0 o1 o2 o3 o4 o5 o6 o7 o8 (ix2 n j) := by
    intro p o hp ho
    rw [sideBySide_apply o0 o1 o2 o3 o4 o5 o6 o7 o8 (ix2 n j) p (ix2 n (⟨j.val % 32, hk⟩ : Fin 32)) rfl hp, ho]
  obtain hq | hq | hq : j.val / 96 = 0 ∨ j.val / 96 = 1 ∨ j.val / 96 = 2 := by omega
  · rw [concat3_at0 h288 _ _ _ n j (⟨j.val % 96, hk96⟩ : Fin 96) (by show j.val = j.val % 96; omega)]
    obtain hr | hr | hr : j.val % 96 / 32 = 0 ∨ j.val % 96 / 32 = 1 ∨ j.val % 96 / 32 = 2 := by omega
    · rw [concat3_at0 h96 o0 o1 o2 n (⟨j.val % 96, hk96⟩ : Fin 96) (⟨j.val % 32, hk⟩ : Fin 32) (by show j.val % 96 = j.val % 32; omega)]
      exact leaf 0 o0 (by omega) rfl
    · rw [concat3_at1 h96 o0 o1 o2 n (⟨j.val % 96, hk96⟩ : Fin 96) (⟨j.val % 32, hk⟩ : Fin 32) (by show j.val % 96 = 32 + j.val % 32; omega)]
      exact leaf 1 o1 (by omega) rfl
    · rw [concat3_at2 h96 o0 o1 o2 n (⟨j.val % 96, hk96⟩ : Fin 96) (⟨j.val % 32, hk⟩ : Fin 32) (by show j.val % 96 = 32 + 32 + j.val % 32; omega)]
      exact leaf 2 o2 (by omega) rfl
  · rw [concat3_at1 h288 _ _ _ n j (⟨j.val % 96, hk96⟩ : Fin 96) (by show j.val = 96 + j.val % 96; omega)]
    obtain hr | hr | hr : j.val % 96 / 32 = 0 ∨ j.val % 96 / 32 = 1 ∨ j.val % 96 / 32 = 2 := by omega
    · rw [concat3_at0 h96 o3 o4 o5 n (⟨j.val % 96, hk96⟩ : Fin 96) (⟨j.val % 32, hk⟩ : Fin 32) (by show j.val % 96 = j.val % 32; omega)]
      exact leaf 3 o3 (by omega) rfl
    · rw [concat3_at1 h96 o3 o4 o5 n (⟨j.val % 96, hk96⟩ : Fin 96) (⟨j.val % 32, hk⟩ : Fin 32) (by show j.val % 96 = 32 + j.val % 32; omega)]
      exact leaf 4 o4 (by omega) rfl
    · rw [concat3_at2 h96 o3 o4 o5 n (⟨j.val % 96, hk96⟩ : Fin 96) (⟨j.val % 32, hk⟩ : Fin 32) (by show j.val % 96 = 32 + 32 + j.val % 32; omega)]
      exact leaf 5 o5 (by omega) rfl
  · rw [concat3_at2 h288 _ _ _ n j (⟨j.val % 96, hk96⟩ : Fin 96) (by show j.val = 96 + 96 + j.val % 96; omega)]
    obtain hr | hr | hr : j.val % 96 / 32 = 0 ∨ j.val % 96 / 32 = 1 ∨ j.val % 96 / 32 = 2 := by omega
    · rw [concat3_at0 h96 o6 o7 o8 n (⟨j.val % 96, hk96⟩ : Fin 96) (⟨j.val % 32, hk⟩ : Fin 32) (by show j.val % 96 = j.val % 32; omega)]
      exact leaf 6 o6 (by omega) rfl
    · rw [concat3_at1 h96 o6 o7 o8 n (⟨j.val % 96, hk96⟩ : Fin 96) (⟨j.val % 32, hk⟩ : Fin 32) (by show j.val % 96 = 32 + j.val % 32; omega)]
      exact leaf 7 o7 (by omega) rfl
    · rw [concat3_at2 h96 o6 o7 o8 n (⟨j.val % 96, hk96⟩ : Fin 96) (⟨j.val % 32, hk⟩ : Fin 32) (by show j.val % 96 = 32 + 32 + j.val % 32; omega)]
      exact leaf 8 o8 (by omega) rfl

end Idealize.ShloMosaic.Bands

end
-- ==== Proof.RefBands.lean ====
/-
  The reference's result: its nine per-plane arrays of 32 columns are joined three by three and the three joins joined
  again, so the result array is the nine arrays side by side.  The line's fold is read window by window: the joins are
  the last writers of their buffers, and no later window writes a buffer an earlier one has written.
-/
import proofs.«168354_j73564199846375_2_alg».proof.Proof.RefRun
import proofs.«168354_j73564199846375_2_alg».proof.Proof.LibBandsConcat
import Idealize.ShloMosaic.Lib.Pipeline.Frame

noncomputable section

namespace Cert.ReferenceIdeal.Bands

open Cert.ReferenceIdeal Cert.ReferenceIdeal.Gen Idealize.ShloMosaic Idealize.ShloMosaic.TcCoe Idealize.SL.Sem Idealize.ShloMosaic.StableHlo
open Idealize.ShloMosaic.Bands

variable {F : FTy → Type} [FloatOps F] [Cert.ReferenceIdeal.Facts]

/-! ## The three joins of three and the join of the joins, each read off its own window -/

set_option maxRecDepth 1000000 in
set_option maxHeartbeats 4000000 in
theorem join_first (W : Valuation τ sig (Elt F)) :
    (StableHlo.after Line.ops8 W (Proc.devRef .tc main_v387) : S524288x96.Idx → Elt F .f32)
      = concatenate S524288x96 1 [⟨S524288x32, (W (Proc.devRef .tc main_v140) : S524288x32.Idx → Elt F .f32)⟩, ⟨S524288x32, (W (Proc.devRef .tc main_v263) : S524288x32.Idx → Elt F .f32)⟩, ⟨S524288x32, (StableHlo.after Line.ops8 W (Proc.devRef .tc main_v386) : S524288x32.Idx → Elt F .f32)⟩] concatenates_S524288x32_S524288x32_S524288x32_S524288x96_d1 := rfl

set_option maxRecDepth 1000000 in
set_option maxHeartbeats 4000000 in
theorem join_second (W : Valuation τ sig (Elt F)) :
    (StableHlo.after Line.ops16 W (Proc.devRef .tc main_v757) : S524288x96.Idx → Elt F .f32)
      = concatenate S524288x96 1 [⟨S524288x32, (W (Proc.devRef .tc main_v510) : S524288x32.Idx → Elt F .f32)⟩, ⟨S524288x32, (W (Proc.devRef .tc main_v633) : S524288x32.Idx → Elt F .f32)⟩, ⟨S524288x32, (StableHlo.after Line.ops16 W (Proc.devRef .tc main_v756) : S524288x32.Idx → Elt F .f32)⟩] concatenates_S524288x32_S524288x32_S524288x32_S524288x96_d1 := rfl

set_option maxRecDepth 1000000 in
set_option maxHeartbeats 4000000 in
theorem join_last (W : Valuation τ sig (Elt F)) :
    (StableHlo.after Line.ops24 W (Proc.devRef .tc main_v1128) : S524288x288.Idx → Elt F .f32)
      = concatenate S524288x288 1 [⟨S524288x96, (W (Proc.devRef .tc main_v387) : S524288x96.Idx → Elt F .f32)⟩, ⟨S524288x96, (W (Proc.devRef .tc main_v757) : S524288x96.Idx → Elt F .f32)⟩, ⟨S524288x96, concatenate S524288x96 1 [⟨S524288x32, (W (Proc.devRef .tc main_v880) : S524288x32.Idx → Elt F .f32)⟩, ⟨S524288x32, (W (Proc.devRef .tc main_v1003) : S524288x32.Idx → Elt F .f32)⟩, ⟨S524288x32, (StableHlo.after Line.ops24 W (Proc.devRef .tc main_v1126) : S524288x32.Idx → Elt F .f32)⟩] concatenates_S524288x32_S524288x32_S524288x32_S524288x96_d1⟩] concatenates_S524288x96_S524288x96_S524288x96_S524288x288_d1 := rfl

/-! ## No later window writes these buffers -/

set_option maxRecDepth 1000000 in
set_option maxHeartbeats 4000000 in
theorem keep140_to7 (W : Valuation τ sig (Elt F)) :
    StableHlo.after Line.ops7 (StableHlo.after Line.ops6 (StableHlo.after Line.ops5 (StableHlo.after Line.ops4 (W)))) (Proc.devRef .tc main_v140) = W (Proc.devRef .tc main_v140) := rfl
set_option maxRecDepth 1000000 in
set_option maxHeartbeats 4000000 in
theorem keep263_to7 (W : Valuation τ sig (Elt F)) :
    StableHlo.after Line.ops7 (StableHlo.after Line.ops6 (W)) (Proc.devRef .tc main_v263) = W (Proc.devRef .tc main_v263) := rfl
set_option maxRecDepth 1000000 in
set_option maxHeartbeats 4000000 in
theorem keep510_to15 (W : Valuation τ sig (Elt F)) :
    StableHlo.after Line.ops15 (StableHlo.after Line.ops14 (StableHlo.after Line.ops13 (StableHlo.after Line.ops12 (W)))) (Proc.devRef .tc main_v510) = W (Proc.devRef .tc main_v510) := rfl
set_option maxRecDepth 1000000 in
set_option maxHeartbeats 4000000 in
theorem keep633_to15 (W : Valuation τ sig (Elt F)) :
    StableHlo.after Line.ops15 (StableHlo.after Line.ops14 (W)) (Proc.devRef .tc main_v633) = W (Proc.devRef .tc main_v633) := rfl
set_option maxRecDepth 1000000 in
set_option maxHeartbeats 4000000 in
theorem keep387_to23 (W : Valuation τ sig (Elt F)) :
    StableHlo.after Line.ops23 (StableHlo.after Line.ops22 (StableHlo.after Line.ops21 (StableHlo.after Line.ops20 (StableHlo.after Line.ops19 (StableHlo.after Line.ops18 (StableHlo.after Line.ops17 (StableHlo.after Line.ops16 (StableHlo.after Line.ops15 (StableHlo.after Line.ops14 (StableHlo.after Line.ops13 (StableHlo.after Line.ops12 (StableHlo.after Line.ops11 (StableHlo.after Line.ops10 (StableHlo.after Line.ops9 (W))))))))))))))) (Proc.devRef .tc main_v387) = W (Proc.devRef .tc main_v387) := rfl
set_option maxRecDepth 1000000 in
set_option maxHeartbeats 4000000 in
theorem keep757_to23 (W : Valuation τ sig (Elt F)) :
    StableHlo.after Line.ops23 (StableHlo.after Line.ops22 (StableHlo.after Line.ops21 (StableHlo.after Line.ops20 (StableHlo.after Line.ops19 (StableHlo.after Line.ops18 (StableHlo.after Line.ops17 (W))))))) (Proc.devRef .tc main_v757) = W (Proc.devRef .tc main_v757) := rfl
set_option maxRecDepth 1000000 in
set_option maxHeartbeats 4000000 in
theorem keep880_to23 (W : Valuation τ sig (Elt F)) :
    StableHlo.after Line.ops23 (StableHlo.after Line.ops22 (StableHlo.after Line.ops21 (StableHlo.after Line.ops20 (StableHlo.after Line.ops19 (W))))) (Proc.devRef .tc main_v880) = W (Proc.devRef .tc main_v880) := rfl
set_option maxRecDepth 1000000 in
set_option maxHeartbeats 4000000 in
theorem keep1003_to23 (W : Valuation τ sig (Elt F)) :
    StableHlo.after Line.ops23 (StableHlo.after Line.ops22 (W)) (Proc.devRef .tc main_v1003) = W (Proc.devRef .tc main_v1003) := rfl
set_option maxRecDepth 1000000 in
set_option maxHeartbeats 4000000 in
theorem keep140_end (W : Valuation τ sig (Elt F)) :
    StableHlo.after Line.ops24 (StableHlo.after Line.ops23 (StableHlo.after Line.ops22 (StableHlo.after Line.ops21 (StableHlo.after Line.ops20 (StableHlo.after Line.ops19 (StableHlo.after Line.ops18 (StableHlo.after Line.ops17 (StableHlo.after Line.ops16 (StableHlo.after Line.ops15 (StableHlo.after Line.ops14 (StableHlo.after Line.ops13 (StableHlo.after Line.ops12 (StableHlo.after Line.ops11 (StableHlo.after Line.ops10 (StableHlo.after Line.ops9 (StableHlo.after Line.ops8 (StableHlo.after Line.ops7 (StableHlo.after Line.ops6 (StableHlo.after Line.ops5 (StableHlo.after Line.ops4 (W))))))))))))))))))))) (Proc.devRef .tc main_v140) = W (Proc.devRef .tc main_v140) := rfl
set_option maxRecDepth 1000000 in
set_option maxHeartbeats 4000000 in
theorem keep263_end (W : Valuation τ sig (Elt F)) :
    StableHlo.after Line.ops24 (StableHlo.after Line.ops23 (StableHlo.after Line.ops22 (StableHlo.after Line.ops21 (StableHlo.after Line.ops20 (StableHlo.after Line.ops19 (StableHlo.after Line.ops18 (StableHlo.after Line.ops17 (StableHlo.after Line.ops16 (StableHlo.after Line.ops15 (StableHlo.after Line.ops14 (StableHlo.after Line.ops13 (StableHlo.after Line.ops12 (StableHlo.after Line.ops11 (StableHlo.after Line.ops10 (StableHlo.after Line.ops9 (StableHlo.after Line.ops8 (StableHlo.after Line.ops7 (StableHlo.after Line.ops6 (W))))))))))))))))))) (Proc.devRef .tc main_v263) = W (Proc.devRef .tc main_v263) := rfl
set_option maxRecDepth 1000000 in
set_option maxHeartbeats 4000000 in
theorem keep386_end (W : Valuation τ sig (Elt F)) :
    StableHlo.after Line.ops24 (StableHlo.after Line.ops23 (StableHlo.after Line.ops22 (StableHlo.after Line.ops21 (StableHlo.after Line.ops20 (StableHlo.after Line.ops19 (StableHlo.after Line.ops18 (StableHlo.after Line.ops17 (StableHlo.after Line.ops16 (StableHlo.after Line.ops15 (StableHlo.after Line.ops14 (StableHlo.after Line.ops13 (StableHlo.after Line.ops12 (StableHlo.after Line.ops11 (StableHlo.after Line.ops10 (StableHlo.after Line.ops9 (W)))))))))))))))) (Proc.devRef .tc main_v386) = W (Proc.devRef .tc main_v386) := rfl
set_option maxRecDepth 1000000 in
set_option maxHeartbeats 4000000 in
theorem keep510_end (W : Valuation τ sig (Elt F)) :
    StableHlo.after Line.ops24 (StableHlo.after Line.ops23 (StableHlo.after Line.ops22 (StableHlo.after Line.ops21 (StableHlo.after Line.ops20 (StableHlo.after Line.ops19 (StableHlo.after Line.ops18 (StableHlo.after Line.ops17 (StableHlo.after Line.ops16 (StableHlo.after Line.ops15 (StableHlo.after Line.ops14 (StableHlo.after Line.ops13 (StableHlo.after Line.ops12 (W))))))))))))) (Proc.devRef .tc main_v510) = W (Proc.devRef .tc main_v510) := rfl
set_option maxRecDepth 1000000 in
set_option maxHeartbeats 4000000 in
theorem keep633_end (W : Valuation τ sig (Elt F)) :
    StableHlo.after Line.ops24 (StableHlo.after Line.ops23 (StableHlo.after Line.ops22 (StableHlo.after Line.ops21 (StableHlo.after Line.ops20 (StableHlo.after Line.ops19 (StableHlo.after Line.ops18 (StableHlo.after Line.ops17 (StableHlo.after Line.ops16 (StableHlo.after Line.ops15 (StableHlo.after Line.ops14 (W))))))))))) (Proc.devRef .tc main_v633) = W (Proc.devRef .tc main_v633) := rfl
set_option maxRecDepth 1000000 in
set_option maxHeartbeats 4000000 in
theorem keep756_end (W : Valuation τ sig (Elt F)) :
    StableHlo.after Line.ops24 (StableHlo.after Line.ops23 (StableHlo.after Line.ops22 (StableHlo.after Line.ops21 (StableHlo.after Line.ops20 (StableHlo.after Line.ops19 (StableHlo.after Line.ops18 (StableHlo.after Line.ops17 (W)))))))) (Proc.devRef .tc main_v756) = W (Proc.devRef .tc main_v756) := rfl
set_option maxRecDepth 1000000 in
set_option maxHeartbeats 4000000 in
theorem keep880_end (W : Valuation τ sig (Elt F)) :
    StableHlo.after Line.ops24 (StableHlo.after Line.ops23 (StableHlo.after Line.ops22 (StableHlo.after Line.ops21 (StableHlo.after Line.ops20 (StableHlo.after Line.ops19 (W)))))) (Proc.devRef .tc main_v880) = W (Proc.devRef .tc main_v880) := rfl
set_option maxRecDepth 1000000 in
set_option maxHeartbeats 4000000 in
theorem keep1003_end (W : Valuation τ sig (Elt F)) :
    StableHlo.after Line.ops24 (StableHlo.after Line.ops23 (StableHlo.after Line.ops22 (W))) (Proc.devRef .tc main_v1003) = W (Proc.devRef .tc main_v1003) := rfl

/-- The whole line's fold, window by window. -/
theorem ops_nested (VR : Valuation τ sig (Elt F)) :
    StableHlo.after Line.ops VR = StableHlo.after Line.ops24 (StableHlo.after Line.ops23 (StableHlo.after Line.ops22 (StableHlo.after Line.ops21 (StableHlo.after Line.ops20 (StableHlo.after Line.ops19 (StableHlo.after Line.ops18 (StableHlo.after Line.ops17 (StableHlo.after Line.ops16 (StableHlo.after Line.ops15 (StableHlo.after Line.ops14 (StableHlo.after Line.ops13 (StableHlo.after Line.ops12 (StableHlo.after Line.ops11 (StableHlo.after Line.ops10 (StableHlo.after Line.ops9 (StableHlo.after Line.ops8 (StableHlo.after Line.ops7 (StableHlo.after Line.ops6 (StableHlo.after Line.ops5 (StableHlo.after Line.ops4 (StableHlo.after Line.ops3 (StableHlo.after Line.ops2 (StableHlo.after Line.ops1 (StableHlo.after Line.ops0 (VR))))))))))))))))))))))))) := by
  unfold Line.ops
  simp only [StableHlo.after_append]

/-- The result is the nine per-plane arrays side by side. -/
theorem result_bands (VR : Valuation τ sig (Elt F)) :
    (StableHlo.after Line.ops VR (Proc.devRef .tc main_v1128) : S524288x288.Idx → Elt F .f32)
      = sideBySide (R := 524288) (StableHlo.after Line.ops VR (Proc.devRef .tc main_v140) : S524288x32.Idx → Elt F .f32) (StableHlo.after Line.ops VR (Proc.devRef .tc main_v263) : S524288x32.Idx → Elt F .f32) (StableHlo.after Line.ops VR (Proc.devRef .tc main_v386) : S524288x32.Idx → Elt F .f32) (StableHlo.after Line.ops VR (Proc.devRef .tc main_v510) : S524288x32.Idx → Elt F .f32) (StableHlo.after Line.ops VR (Proc.devRef .tc main_v633) : S524288x32.Idx → Elt F .f32) (StableHlo.after Line.ops VR (Proc.devRef .tc main_v756) : S524288x32.Idx → Elt F .f32) (StableHlo.after Line.ops VR (Proc.devRef .tc main_v880) : S524288x32.Idx → Elt F .f32) (StableHlo.after Line.ops VR (Proc.devRef .tc main_v1003) : S524288x32.Idx → Elt F .f32) (StableHlo.after Line.ops VR (Proc.devRef .tc main_v1126) : S524288x32.Idx → Elt F .f32) := by
  rw [ops_nested VR]
  rw [join_last, keep387_to23, keep757_to23, keep880_to23, keep1003_to23, join_first, join_second,
    keep140_to7, keep263_to7, keep510_to15, keep633_to15,
    keep140_end, keep263_end, keep386_end, keep510_end, keep633_end, keep756_end, keep880_end, keep1003_end]
  exact concat_nine _ _ _ _ _ _ _ _ _ _ _

end Cert.ReferenceIdeal.Bands

end
-- ==== Proof.LibGatherIx.lean ====
/-
  Three gathers read at an index.  A table of C channels over an H by W grid is looked up at N positions given as an
  [N, 2] array of (row, column) start indices, each read signed and clamped into the grid: once with the channels
  first in the table and in the result, once with the channels last in both.  And two columns are taken out of an
  [N, K] array at the positions a [2, 1] array names.
-/
import Idealize.ShloMosaic.Lib.ValueIdx

noncomputable section

namespace Idealize.ShloMosaic.GatherIx

open Idealize.ShloMosaic Idealize.ShloMosaic.ValueIdx

variable {α : Type}

/-! ## Channels first: table [C, H, W], result [C, N] -/

/-- The dimension numbers of the look-up with the channels first. -/
abbrev chanFirst (C H W N : Nat)
    (wf : GatherDims.WF ⟨3, ![C, H, W]⟩ ⟨2, ![N, 2]⟩ ⟨2, ![C, N]⟩ [0] [1, 2] [] [1, 2] [] 1 ![C, 1, 1]) :
    GatherDims ⟨3, ![C, H, W]⟩ ⟨2, ![N, 2]⟩ ⟨2, ![C, N]⟩ where
  offsetDims := [0]
  collapsedSliceDims := [1, 2]
  operandBatchingDims := []
  startIndicesBatchingDims := []
  startIndexMap := [1, 2]
  indexVectorDim := 1
  sliceSizes := ![C, 1, 1]
  wf := wf

/-- Entry (c, n) of the look-up is the table at channel c, at the row and the column position n names, clamped. -/
theorem chanFirst_apply {C H W N w : Nat} (hH : 0 < H) (hW : 0 < W)
    (wf : GatherDims.WF ⟨3, ![C, H, W]⟩ ⟨2, ![N, 2]⟩ ⟨2, ![C, N]⟩ [0] [1, 2] [] [1, 2] [] 1 ![C, 1, 1])
    (x : (⟨3, ![C, H, W]⟩ : Shape).Idx → α) (idx : IVec ⟨2, ![N, 2]⟩ w) (c : Fin C) (n : Fin N) :
    Host.gather (chanFirst C H W N wf) x idx (ix2 c n)
      = x (ix3 c (⟨min (idx (ix2 n (0 : Fin 2))).toInt.toNat (H - 1), by omega⟩ : Fin H)
            (⟨min (idx (ix2 n (1 : Fin 2))).toInt.toNat (W - 1), by omega⟩ : Fin W)) := by
  unfold Host.gather
  refine congrArg x (funext fun a => Fin.ext ?_)
  match a with
  | ⟨0, _⟩ =>
    show (chanFirst C H W N wf).start (ix2 c n) idx 0 + (chanFirst C H W N wf).batchCoord (ix2 c n) 0
      + (chanFirst C H W N wf).offCoord (ix2 c n) 0 = c.val
    rw [GatherDims.batchCoord_eq_zero _ _ _ List.not_mem_nil]
    unfold GatherDims.start
    rw [dif_neg (show (0 : Fin 3) ∉ [(1 : Fin 3), 2] by decide)]
    unfold GatherDims.offCoord
    rw [dif_pos ((GatherDims.mem_sKept _ _).mpr ⟨show (0 : Fin 3) ∉ [(1 : Fin 3), 2] by decide, List.not_mem_nil⟩)]
    simp only [Nat.zero_add, Nat.add_zero]
    rfl
  | ⟨1, _⟩ =>
    show (chanFirst C H W N wf).start (ix2 c n) idx 1 + (chanFirst C H W N wf).batchCoord (ix2 c n) 1
      + (chanFirst C H W N wf).offCoord (ix2 c n) 1 = min (idx (ix2 n (0 : Fin 2))).toInt.toNat (H - 1)
    rw [GatherDims.batchCoord_eq_zero _ _ _ List.not_mem_nil,
      GatherDims.offCoord_eq_zero _ _ _ (fun h => ((GatherDims.mem_sKept _ _).mp h).1 (show (1 : Fin 3) ∈ [(1 : Fin 3), 2] by decide))]
    simp only [Nat.add_zero]
    unfold GatherDims.start
    rw [dif_pos (show (1 : Fin 3) ∈ (chanFirst C H W N wf).startIndexMap from (show (1 : Fin 3) ∈ [(1 : Fin 3), 2] by decide))]
    have hsi : (chanFirst C H W N wf).siIdx (ix2 c n) ⟨List.idxOf (1 : Fin 3) (chanFirst C H W N wf).startIndexMap,
        List.idxOf_lt_length_iff.2 (show (1 : Fin 3) ∈ [(1 : Fin 3), 2] by decide)⟩ = ix2 n (0 : Fin 2) := by
      funext b; refine Fin.ext ?_
      match b with
      | ⟨0, _⟩ => rfl
      | ⟨1, _⟩ => rfl
    rw [hsi]
    rfl
  | ⟨2, _⟩ =>
    show (chanFirst C H W N wf).start (ix2 c n) idx 2 + (chanFirst C H W N wf).batchCoord (ix2 c n) 2
      + (chanFirst C H W N wf).offCoord (ix2 c n) 2 = min (idx (ix2 n (1 : Fin 2))).toInt.toNat (W - 1)
    rw [GatherDims.batchCoord_eq_zero _ _ _ List.not_mem_nil,
      GatherDims.offCoord_eq_zero _ _ _ (fun h => ((GatherDims.mem_sKept _ _).mp h).1 (show (2 : Fin 3) ∈ [(1 : Fin 3), 2] by decide))]
    simp only [Nat.add_zero]
    unfold GatherDims.start
    rw [dif_pos (show (2 : Fin 3) ∈ (chanFirst C H W N wf).startIndexMap from (show (2 : Fin 3) ∈ [(1 : Fin 3), 2] by decide))]
    have hsi : (chanFirst C H W N wf).siIdx (ix2 c n) ⟨List.idxOf (2 : Fin 3) (chanFirst C H W N wf).startIndexMap,
        List.idxOf_lt_length_iff.2 (show (2 : Fin 3) ∈ [(1 : Fin 3), 2] by decide)⟩ = ix2 n (1 : Fin 2) := by
      funext b; refine Fin.ext ?_
      match b with
      | ⟨0, _⟩ => rfl
      | ⟨1, _⟩ => rfl
    rw [hsi]
    rfl

/-! ## Channels last: table [H, W, C], result [N, C] -/

/-- The dimension numbers of the look-up with the channels last. -/
abbrev chanLast (H W C N : Nat)
    (wf : GatherDims.WF ⟨3, ![H, W, C]⟩ ⟨2, ![N, 2]⟩ ⟨2, ![N, C]⟩ [1] [0, 1] [] [0, 1] [] 1 ![1, 1, C]) :
    GatherDims ⟨3, ![H, W, C]⟩ ⟨2, ![N, 2]⟩ ⟨2, ![N, C]⟩ where
  offsetDims := [1]
  collapsedSliceDims := [0, 1]
  operandBatchingDims := []
  startIndicesBatchingDims := []
  startIndexMap := [0, 1]
  indexVectorDim := 1
  sliceSizes := ![1, 1, C]
  wf := wf

/-- Entry (n, c) of the look-up is the table at the row and the column position n names, clamped, at channel c. -/
theorem chanLast_apply {H W C N w : Nat} (hH : 0 < H) (hW : 0 < W)
    (wf : GatherDims.WF ⟨3, ![H, W, C]⟩ ⟨2, ![N, 2]⟩ ⟨2, ![N, C]⟩ [1] [0, 1] [] [0, 1] [] 1 ![1, 1, C])
    (x : (⟨3, ![H, W, C]⟩ : Shape).Idx → α) (idx : IVec ⟨2, ![N, 2]⟩ w) (n : Fin N) (c : Fin C) :
    Host.gather (chanLast H W C N wf) x idx (ix2 n c)
      = x (ix3 (⟨min (idx (ix2 n (0 : Fin 2))).toInt.toNat (H - 1), by omega⟩ : Fin H)
            (⟨min (idx (ix2 n (1 : Fin 2))).toInt.toNat (W - 1), by omega⟩ : Fin W) c) := by
  unfold Host.gather
  refine congrArg x (funext fun a => Fin.ext ?_)
  match a with
  | ⟨0, _⟩ =>
    show (chanLast H W C N wf).start (ix2 n c) idx 0 + (chanLast H W C N wf).batchCoord (ix2 n c) 0
      + (chanLast H W C N wf).offCoord (ix2 n c) 0 = min (idx (ix2 n (0 : Fin 2))).toInt.toNat (H - 1)
    rw [GatherDims.batchCoord_eq_zero _ _ _ List.not_mem_nil,
      GatherDims.offCoord_eq_zero _ _ _ (fun h => ((GatherDims.mem_sKept _ _).mp h).1 (show (0 : Fin 3) ∈ [(0 : Fin 3), 1] by decide))]
    simp only [Nat.add_zero]
    unfold GatherDims.start
    rw [dif_pos (show (0 : Fin 3) ∈ (chanLast H W C N wf).startIndexMap from (show (0 : Fin 3) ∈ [(0 : Fin 3), 1] by decide))]
    have hsi : (chanLast H W C N wf).siIdx (ix2 n c) ⟨List.idxOf (0 : Fin 3) (chanLast H W C N wf).startIndexMap,
        List.idxOf_lt_length_iff.2 (show (0 : Fin 3) ∈ [(0 : Fin 3), 1] by decide)⟩ = ix2 n (0 : Fin 2) := by
      funext b; refine Fin.ext ?_
      match b with
      | ⟨0, _⟩ => rfl
      | ⟨1, _⟩ => rfl
    rw [hsi]
    rfl
  | ⟨1, _⟩ =>
    show (chanLast H W C N wf).start (ix2 n c) idx 1 + (chanLast H W C N wf).batchCoord (ix2 n c) 1
      + (chanLast H W C N wf).offCoord (ix2 n c) 1 = min (idx (ix2 n (1 : Fin 2))).toInt.toNat (W - 1)
    rw [GatherDims.batchCoord_eq_zero _ _ _ List.not_mem_nil,
      GatherDims.offCoord_eq_zero _ _ _ (fun h => ((GatherDims.mem_sKept _ _).mp h).1 (show (1 : Fin 3) ∈ [(0 : Fin 3), 1] by decide))]
    simp only [Nat.add_zero]
    unfold GatherDims.start
    rw [dif_pos (show (1 : Fin 3) ∈ (chanLast H W C N wf).startIndexMap from (show (1 : Fin 3) ∈ [(0 : Fin 3), 1] by decide))]
    have hsi : (chanLast H W C N wf).siIdx (ix2 n c) ⟨List.idxOf (1 : Fin 3) (chanLast H W C N wf).startIndexMap,
        List.idxOf_lt_length_iff.2 (show (1 : Fin 3) ∈ [(0 : Fin 3), 1] by decide)⟩ = ix2 n (1 : Fin 2) := by
      funext b; refine Fin.ext ?_
      match b with
      | ⟨0, _⟩ => rfl
      | ⟨1, _⟩ => rfl
    rw [hsi]
    rfl
  | ⟨2, _⟩ =>
    show (chanLast H W C N wf).start (ix2 n c) idx 2 + (chanLast H W C N wf).batchCoord (ix2 n c) 2
      + (chanLast H W C N wf).offCoord (ix2 n c) 2 = c.val
    rw [GatherDims.batchCoord_eq_zero _ _ _ List.not_mem_nil]
    unfold GatherDims.start
    rw [dif_neg (show (2 : Fin 3) ∉ [(0 : Fin 3), 1] by decide)]
    unfold GatherDims.offCoord
    rw [dif_pos ((GatherDims.mem_sKept _ _).mpr ⟨show (2 : Fin 3) ∉ [(0 : Fin 3), 1] by decide, List.not_mem_nil⟩)]
    simp only [Nat.zero_add, Nat.add_zero]
    rfl

/-! ## Two columns out of K: operand [N, K], positions [2, 1], result [N, 2] -/

/-- The dimension numbers of taking columns. -/
abbrev takeCols (N K : Nat)
    (wf : GatherDims.WF ⟨2, ![N, K]⟩ ⟨2, ![2, 1]⟩ ⟨2, ![N, 2]⟩ [0] [1] [] [1] [] 1 ![N, 1]) :
    GatherDims ⟨2, ![N, K]⟩ ⟨2, ![2, 1]⟩ ⟨2, ![N, 2]⟩ where
  offsetDims := [0]
  collapsedSliceDims := [1]
  operandBatchingDims := []
  startIndicesBatchingDims := []
  startIndexMap := [1]
  indexVectorDim := 1
  sliceSizes := ![N, 1]
  wf := wf

/-- Entry (n, k) of the result is row n of the operand at the column position k names, clamped. -/
theorem takeCols_apply {N K w : Nat} (hK : 0 < K)
    (wf : GatherDims.WF ⟨2, ![N, K]⟩ ⟨2, ![2, 1]⟩ ⟨2, ![N, 2]⟩ [0] [1] [] [1] [] 1 ![N, 1])
    (x : (⟨2, ![N, K]⟩ : Shape).Idx → α) (idx : IVec ⟨2, ![2, 1]⟩ w) (n : Fin N) (k : Fin 2) :
    Host.gather (takeCols N K wf) x idx (ix2 n k)
      = x (ix2 n (⟨min (idx (ix2 k (0 : Fin 1))).toInt.toNat (K - 1), by omega⟩ : Fin K)) := by
  unfold Host.gather
  refine congrArg x (funext fun a => Fin.ext ?_)
  match a with
  | ⟨0, _⟩ =>
    show (takeCols N K wf).start (ix2 n k) idx 0 + (takeCols N K wf).batchCoord (ix2 n k) 0
      + (takeCols N K wf).offCoord (ix2 n k) 0 = n.val
    rw [GatherDims.batchCoord_eq_zero _ _ _ List.not_mem_nil]
    unfold GatherDims.start
    rw [dif_neg (show (0 : Fin 2) ∉ [(1 : Fin 2)] by decide)]
    unfold GatherDims.offCoord
    rw [dif_pos ((GatherDims.mem_sKept _ _).mpr ⟨show (0 : Fin 2) ∉ [(1 : Fin 2)] by decide, List.not_mem_nil⟩)]
    simp only [Nat.zero_add, Nat.add_zero]
    rfl
  | ⟨1, _⟩ =>
    show (takeCols N K wf).start (ix2 n k) idx 1 + (takeCols N K wf).batchCoord (ix2 n k) 1
      + (takeCols N K wf).offCoord (ix2 n k) 1 = min (idx (ix2 k (0 : Fin 1))).toInt.toNat (K - 1)
    rw [GatherDims.batchCoord_eq_zero _ _ _ List.not_mem_nil,
      GatherDims.offCoord_eq_zero _ _ _ (fun h => ((GatherDims.mem_sKept _ _).mp h).1 (show (1 : Fin 2) ∈ [(1 : Fin 2)] by decide))]
    simp only [Nat.add_zero]
    unfold GatherDims.start
    rw [dif_pos (show (1 : Fin 2) ∈ (takeCols N K wf).startIndexMap from (show (1 : Fin 2) ∈ [(1 : Fin 2)] by decide))]
    have hsi : (takeCols N K wf).siIdx (ix2 n k) ⟨List.idxOf (1 : Fin 2) (takeCols N K wf).startIndexMap,
        List.idxOf_lt_length_iff.2 (show (1 : Fin 2) ∈ [(1 : Fin 2)] by decide)⟩ = ix2 k (0 : Fin 1) := by
      funext b; refine Fin.ext ?_
      match b with
      | ⟨0, _⟩ => rfl
      | ⟨1, _⟩ => rfl
    rw [hsi]
    rfl

end Idealize.ShloMosaic.GatherIx

end
-- ==== Proof.TriLemmas.lean ====
/-
  The two programs' layout operations and table look-ups at an index, under the names the printed programs give them.
  Kernel side: the table transposed to channels last and looked up with the channels last.  Reference side: the table
  looked up with the channels first, the result transposed, and the two coordinate columns taken out of the points by
  a look-up at a constant index pair.
-/
import proofs.«168354_j73564199846375_2_alg».proof.KernelIdeal
import proofs.«168354_j73564199846375_2_alg».proof.ReferenceIdeal
import proofs.«168354_j73564199846375_2_alg».proof.Proof.LibLayoutIx
import proofs.«168354_j73564199846375_2_alg».proof.Proof.LibGatherIx

noncomputable section

namespace Cert.Tri

open Idealize.ShloMosaic Idealize.ShloMosaic.ValueIdx Idealize.ShloMosaic.LayoutIx Idealize.ShloMosaic.GatherIx

variable {α : Type}

/-! ## Kernel side -/

section K
variable [Cert.KernelIdeal.Facts]
open Cert.KernelIdeal.Facts₀

theorem K_gather_128 {w : Nat} (x : Cert.KernelIdeal.S128x128x32.Idx → α) (idx : IVec Cert.KernelIdeal.S524288x2 w) (n : Fin 524288) (c : Fin 32) :
    Host.gather Cert.KernelIdeal.gather_S128x128x32_S524288x2_S524288x32_1_01_n_n_01_1_1132 x idx (ix2 n c)
      = x (ix3 (⟨min (idx (ix2 n (0 : Fin 2))).toInt.toNat (128 - 1), by omega⟩ : Fin 128)
            (⟨min (idx (ix2 n (1 : Fin 2))).toInt.toNat (128 - 1), by omega⟩ : Fin 128) c) :=
  chanLast_apply (H := 128) (W := 128) (C := 32) (N := 524288) (by decide) (by decide) gather_S128x128x32_S524288x2_S524288x32_1_01_n_n_01_1_1132_wf x idx n c

theorem K_transpose_128 (h : Cert.KernelIdeal.S32x128x128.Transposes [1, 2, 0] Cert.KernelIdeal.S128x128x32)
    (x : Cert.KernelIdeal.S32x128x128.Idx → α) (a : Fin 128) (b : Fin 128) (c : Fin 32) :
    transpose Cert.KernelIdeal.S128x128x32 [1, 2, 0] x h (ix3 a b c) = x (ix3 c a b) :=
  transpose_first_last h x a b c

theorem K_gather_256 {w : Nat} (x : Cert.KernelIdeal.S256x256x32.Idx → α) (idx : IVec Cert.KernelIdeal.S524288x2 w) (n : Fin 524288) (c : Fin 32) :
    Host.gather Cert.KernelIdeal.gather_S256x256x32_S524288x2_S524288x32_1_01_n_n_01_1_1132 x idx (ix2 n c)
      = x (ix3 (⟨min (idx (ix2 n (0 : Fin 2))).toInt.toNat (256 - 1), by omega⟩ : Fin 256)
            (⟨min (idx (ix2 n (1 : Fin 2))).toInt.toNat (256 - 1), by omega⟩ : Fin 256) c) :=
  chanLast_apply (H := 256) (W := 256) (C := 32) (N := 524288) (by decide) (by decide) gather_S256x256x32_S524288x2_S524288x32_1_01_n_n_01_1_1132_wf x idx n c

theorem K_transpose_256 (h : Cert.KernelIdeal.S32x256x256.Transposes [1, 2, 0] Cert.KernelIdeal.S256x256x32)
    (x : Cert.KernelIdeal.S32x256x256.Idx → α) (a : Fin 256) (b : Fin 256) (c : Fin 32) :
    transpose Cert.KernelIdeal.S256x256x32 [1, 2, 0] x h (ix3 a b c) = x (ix3 c a b) :=
  transpose_first_last h x a b c

theorem K_gather_512 {w : Nat} (x : Cert.KernelIdeal.S512x512x32.Idx → α) (idx : IVec Cert.KernelIdeal.S524288x2 w) (n : Fin 524288) (c : Fin 32) :
    Host.gather Cert.KernelIdeal.gather_S512x512x32_S524288x2_S524288x32_1_01_n_n_01_1_1132 x idx (ix2 n c)
      = x (ix3 (⟨min (idx (ix2 n (0 : Fin 2))).toInt.toNat (512 - 1), by omega⟩ : Fin 512)
            (⟨min (idx (ix2 n (1 : Fin 2))).toInt.toNat (512 - 1), by omega⟩ : Fin 512) c) :=
  chanLast_apply (H := 512) (W := 512) (C := 32) (N := 524288) (by decide) (by decide) gather_S512x512x32_S524288x2_S524288x32_1_01_n_n_01_1_1132_wf x idx n c

theorem K_transpose_512 (h : Cert.KernelIdeal.S32x512x512.Transposes [1, 2, 0] Cert.KernelIdeal.S512x512x32)
    (x : Cert.KernelIdeal.S32x512x512.Idx → α) (a : Fin 512) (b : Fin 512) (c : Fin 32) :
    transpose Cert.KernelIdeal.S512x512x32 [1, 2, 0] x h (ix3 a b c) = x (ix3 c a b) :=
  transpose_first_last h x a b c

end K

/-! ## Reference side -/

section R
variable [Cert.ReferenceIdeal.Facts]
open Cert.ReferenceIdeal.Facts₀

theorem R_gather_128 {w : Nat} (x : Cert.ReferenceIdeal.S32x128x128.Idx → α) (idx : IVec Cert.ReferenceIdeal.S524288x2 w) (c : Fin 32) (n : Fin 524288) :
    Host.gather Cert.ReferenceIdeal.gather_S32x128x128_S524288x2_S32x524288_0_12_n_n_12_1_3211 x idx (ix2 c n)
      = x (ix3 c (⟨min (idx (ix2 n (0 : Fin 2))).toInt.toNat (128 - 1), by omega⟩ : Fin 128)
            (⟨min (idx (ix2 n (1 : Fin 2))).toInt.toNat (128 - 1), by omega⟩ : Fin 128)) :=
  chanFirst_apply (C := 32) (H := 128) (W := 128) (N := 524288) (by decide) (by decide) gather_S32x128x128_S524288x2_S32x524288_0_12_n_n_12_1_3211_wf x idx c n

theorem R_gather_256 {w : Nat} (x : Cert.ReferenceIdeal.S32x256x256.Idx → α) (idx : IVec Cert.ReferenceIdeal.S524288x2 w) (c : Fin 32) (n : Fin 524288) :
    Host.gather Cert.ReferenceIdeal.gather_S32x256x256_S524288x2_S32x524288_0_12_n_n_12_1_3211 x idx (ix2 c n)
      = x (ix3 c (⟨min (idx (ix2 n (0 : Fin 2))).toInt.toNat (256 - 1), by omega⟩ : Fin 256)
            (⟨min (idx (ix2 n (1 : Fin 2))).toInt.toNat (256 - 1), by omega⟩ : Fin 256)) :=
  chanFirst_apply (C := 32) (H := 256) (W := 256) (N := 524288) (by decide) (by decide) gather_S32x256x256_S524288x2_S32x524288_0_12_n_n_12_1_3211_wf x idx c n

theorem R_gather_512 {w : Nat} (x : Cert.ReferenceIdeal.S32x512x512.Idx → α) (idx : IVec Cert.ReferenceIdeal.S524288x2 w) (c : Fin 32) (n : Fin 524288) :
    Host.gather Cert.ReferenceIdeal.gather_S32x512x512_S524288x2_S32x524288_0_12_n_n_12_1_3211 x idx (ix2 c n)
      = x (ix3 c (⟨min (idx (ix2 n (0 : Fin 2))).toInt.toNat (512 - 1), by omega⟩ : Fin 512)
            (⟨min (idx (ix2 n (1 : Fin 2))).toInt.toNat (512 - 1), by omega⟩ : Fin 512)) :=
  chanFirst_apply (C := 32) (H := 512) (W := 512) (N := 524288) (by decide) (by decide) gather_S32x512x512_S524288x2_S32x524288_0_12_n_n_12_1_3211_wf x idx c n

theorem R_takeCols {w : Nat} (x : Cert.ReferenceIdeal.S524288x3.Idx → α) (idx : IVec Cert.ReferenceIdeal.S2x1 w) (n : Fin 524288) (k : Fin 2) :
    Host.gather Cert.ReferenceIdeal.gather_S524288x3_S2x1_S524288x2_0_1_n_n_1_1_5242881 x idx (ix2 n k)
      = x (ix2 n (⟨min (idx (ix2 k (0 : Fin 1))).toInt.toNat (3 - 1), by omega⟩ : Fin 3)) :=
  takeCols_apply (N := 524288) (K := 3) (by decide) gather_S524288x3_S2x1_S524288x2_0_1_n_n_1_1_5242881_wf x idx n k

end R

/-! ## One column sliced out, at the offsets the programs use -/

theorem slice3_0 {N : Nat} (off : Fin 2 → Nat) (h0 : off 0 = 0) (h1 : off 1 = 0)
    (h : (⟨2, ![N, 3]⟩ : Shape).Slices off ⟨2, ![N, 1]⟩) (x : (⟨2, ![N, 3]⟩ : Shape).Idx → α) (n : Fin N) (k : Fin 1) :
    extractStridedSlice ⟨2, ![N, 1]⟩ off x h (ix2 n k) = x (ix2 n (0 : Fin 3)) := slice_col off 0 h0 h1 h x n k
theorem slice3_1 {N : Nat} (off : Fin 2 → Nat) (h0 : off 0 = 0) (h1 : off 1 = 1)
    (h : (⟨2, ![N, 3]⟩ : Shape).Slices off ⟨2, ![N, 1]⟩) (x : (⟨2, ![N, 3]⟩ : Shape).Idx → α) (n : Fin N) (k : Fin 1) :
    extractStridedSlice ⟨2, ![N, 1]⟩ off x h (ix2 n k) = x (ix2 n (1 : Fin 3)) := slice_col off 1 h0 h1 h x n k
theorem slice3_2 {N : Nat} (off : Fin 2 → Nat) (h0 : off 0 = 0) (h1 : off 1 = 2)
    (h : (⟨2, ![N, 3]⟩ : Shape).Slices off ⟨2, ![N, 1]⟩) (x : (⟨2, ![N, 3]⟩ : Shape).Idx → α) (n : Fin N) (k : Fin 1) :
    extractStridedSlice ⟨2, ![N, 1]⟩ off x h (ix2 n k) = x (ix2 n (2 : Fin 3)) := slice_col off 2 h0 h1 h x n k
theorem slice2_0 {N : Nat} (off : Fin 2 → Nat) (h0 : off 0 = 0) (h1 : off 1 = 0)
    (h : (⟨2, ![N, 2]⟩ : Shape).Slices off ⟨2, ![N, 1]⟩) (x : (⟨2, ![N, 2]⟩ : Shape).Idx → α) (n : Fin N) (k : Fin 1) :
    extractStridedSlice ⟨2, ![N, 1]⟩ off x h (ix2 n k) = x (ix2 n (0 : Fin 2)) := slice_col off 0 h0 h1 h x n k
theorem slice2_1 {N : Nat} (off : Fin 2 → Nat) (h0 : off 0 = 0) (h1 : off 1 = 1)
    (h : (⟨2, ![N, 2]⟩ : Shape).Slices off ⟨2, ![N, 1]⟩) (x : (⟨2, ![N, 2]⟩ : Shape).Idx → α) (n : Fin N) (k : Fin 1) :
    extractStridedSlice ⟨2, ![N, 1]⟩ off x h (ix2 n k) = x (ix2 n (1 : Fin 2)) := slice_col off 1 h0 h1 h x n k

end Cert.Tri

end
-- ==== Proof.Plane0.lean ====
/-
  Plane 0 (a 128 by 128 grid of 32 channels): the kernel's program and the reference compute its
  bilinear look-up by the same arithmetic on every point; they differ in where the channel axis sits (the kernel
  transposes the table once and looks it up with the channels last, the reference looks it up with the channels first
  and transposes the result) and in how the two coordinate columns are taken out of the points.  Entry by entry the
  two results are the same number.
-/
import proofs.«168354_j73564199846375_2_alg».proof.Proof.Gen.KernelIdeal.Launch
import proofs.«168354_j73564199846375_2_alg».proof.Proof.RefRun
import proofs.«168354_j73564199846375_2_alg».proof.Proof.LibLayoutIx
import proofs.«168354_j73564199846375_2_alg».proof.Proof.LibGatherIx
import proofs.«168354_j73564199846375_2_alg».proof.Proof.TriLemmas

noncomputable section

namespace Cert.Tri.Plane0

open Idealize.ShloMosaic Idealize.ShloMosaic.TcCoe Idealize.SL.Sem Idealize.ShloMosaic.StableHlo Idealize.ShloMosaic.ValueIdx
open Idealize.ShloMosaic.LayoutIx Idealize.ShloMosaic.GatherIx

/-- The kernel program's host operations that compute this plane. -/
def kernelOps [Cert.KernelIdeal.Facts] : List (HloOp Cert.KernelIdeal.τ Cert.KernelIdeal.sig (Elt Ideal)) :=
  (Cert.KernelIdeal.Gen.hostOps0.drop 20 ++ List.flatten [Cert.KernelIdeal.Gen.hostOps0_1, Cert.KernelIdeal.Gen.hostOps0_2, Cert.KernelIdeal.Gen.hostOps0_3, Cert.KernelIdeal.Gen.hostOps0_4])

/-- The reference's host operations that compute this plane. -/
def referenceOps [Cert.ReferenceIdeal.Facts] : List (HloOp Cert.ReferenceIdeal.τ Cert.ReferenceIdeal.sig (Elt Ideal)) :=
  (Cert.ReferenceIdeal.Line.ops0.drop 29 ++ (Cert.ReferenceIdeal.Line.ops1 ++ (Cert.ReferenceIdeal.Line.ops2 ++ (Cert.ReferenceIdeal.Line.ops3))))

/-! The flattening of a coordinate column, with its result's shape written out. -/
theorem K_resh0 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v18 Cert.KernelIdeal.main_v19 rfl hn hx hy).result V (no_index (Proc.devRef .tc Cert.KernelIdeal.main_v19))
      = shapeCast Cert.KernelIdeal.S524288 (V (Proc.devRef .tc Cert.KernelIdeal.main_v18)) hn :=
  reshape_result' (x := Cert.KernelIdeal.main_v18) (y := Cert.KernelIdeal.main_v19) rfl hn hx hy V
theorem K_resh1 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v20 Cert.KernelIdeal.main_v21 rfl hn hx hy).result V (no_index (Proc.devRef .tc Cert.KernelIdeal.main_v21))
      = shapeCast Cert.KernelIdeal.S524288 (V (Proc.devRef .tc Cert.KernelIdeal.main_v20)) hn :=
  reshape_result' (x := Cert.KernelIdeal.main_v20) (y := Cert.KernelIdeal.main_v21) rfl hn hx hy V
theorem K_resh2 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v130 Cert.KernelIdeal.main_v131 rfl hn hx hy).result V (no_index (Proc.devRef .tc Cert.KernelIdeal.main_v131))
      = shapeCast Cert.KernelIdeal.S524288 (V (Proc.devRef .tc Cert.KernelIdeal.main_v130)) hn :=
  reshape_result' (x := Cert.KernelIdeal.main_v130) (y := Cert.KernelIdeal.main_v131) rfl hn hx hy V
theorem K_resh3 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v132 Cert.KernelIdeal.main_v133 rfl hn hx hy).result V (no_index (Proc.devRef .tc Cert.KernelIdeal.main_v133))
      = shapeCast Cert.KernelIdeal.S524288 (V (Proc.devRef .tc Cert.KernelIdeal.main_v132)) hn :=
  reshape_result' (x := Cert.KernelIdeal.main_v132) (y := Cert.KernelIdeal.main_v133) rfl hn hx hy V
theorem R_resh0 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v25 Cert.ReferenceIdeal.main_v26 rfl hn hx hy).result V (no_index (Proc.devRef .tc Cert.ReferenceIdeal.main_v26))
      = shapeCast Cert.ReferenceIdeal.S524288 (V (Proc.devRef .tc Cert.ReferenceIdeal.main_v25)) hn :=
  reshape_result' (x := Cert.ReferenceIdeal.main_v25) (y := Cert.ReferenceIdeal.main_v26) rfl hn hx hy V
theorem R_resh1 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v34 Cert.ReferenceIdeal.main_v35 rfl hn hx hy).result V (no_index (Proc.devRef .tc Cert.ReferenceIdeal.main_v35))
      = shapeCast Cert.ReferenceIdeal.S524288 (V (Proc.devRef .tc Cert.ReferenceIdeal.main_v34)) hn :=
  reshape_result' (x := Cert.ReferenceIdeal.main_v34) (y := Cert.ReferenceIdeal.main_v35) rfl hn hx hy V
theorem R_resh2 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v148 Cert.ReferenceIdeal.main_v149 rfl hn hx hy).result V (no_index (Proc.devRef .tc Cert.ReferenceIdeal.main_v149))
      = shapeCast Cert.ReferenceIdeal.S524288 (V (Proc.devRef .tc Cert.ReferenceIdeal.main_v148)) hn :=
  reshape_result' (x := Cert.ReferenceIdeal.main_v148) (y := Cert.ReferenceIdeal.main_v149) rfl hn hx hy V
theorem R_resh3 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v157 Cert.ReferenceIdeal.main_v158 rfl hn hx hy).result V (no_index (Proc.devRef .tc Cert.ReferenceIdeal.main_v158))
      = shapeCast Cert.ReferenceIdeal.S524288 (V (Proc.devRef .tc Cert.ReferenceIdeal.main_v157)) hn :=
  reshape_result' (x := Cert.ReferenceIdeal.main_v157) (y := Cert.ReferenceIdeal.main_v158) rfl hn hx hy V

set_option maxHeartbeats 40000000 in
set_option maxRecDepth 1000000 in
/-- Entry (n, k) of the plane's result is the same in both programs, from contents that agree on the normalized
    points and on the plane's table, the reference's constant index pair being the two coordinate columns' positions. -/
theorem entry_eq [Cert.KernelIdeal.Facts] [Cert.ReferenceIdeal.Facts]
    (WK : Valuation Cert.KernelIdeal.τ Cert.KernelIdeal.sig (Elt Ideal)) (WR : Valuation Cert.ReferenceIdeal.τ Cert.ReferenceIdeal.sig (Elt Ideal))
    (h17 : ∀ i : (⟨2, ![524288, 3]⟩ : Shape).Idx, (WR (Proc.devRef .tc Cert.ReferenceIdeal.main_v17) : (⟨2, ![524288, 3]⟩ : Shape).Idx → EReal) i
      = (WK (Proc.devRef .tc Cert.KernelIdeal.main_v17) : (⟨2, ![524288, 3]⟩ : Shape).Idx → EReal) i)
    (hg : ∀ j : (⟨3, ![32, 128, 128]⟩ : Shape).Idx, (WR (Proc.devRef .tc Cert.ReferenceIdeal.main_arg2) : (⟨3, ![32, 128, 128]⟩ : Shape).Idx → EReal) j
      = (WK (Proc.devRef .tc Cert.KernelIdeal.main_arg2) : (⟨3, ![32, 128, 128]⟩ : Shape).Idx → EReal) j)
    (ht0 : (WR (Proc.devRef .tc Cert.ReferenceIdeal.main_c) : Cert.ReferenceIdeal.S2.Idx → BitVec 32) (ix1 (0 : Fin 2)) = 0#32)
    (ht1 : (WR (Proc.devRef .tc Cert.ReferenceIdeal.main_c) : Cert.ReferenceIdeal.S2.Idx → BitVec 32) (ix1 (1 : Fin 2)) = 1#32)
    (n : Fin 524288) (k : Fin 32) :
    (StableHlo.after kernelOps WK (Proc.devRef .tc Cert.KernelIdeal.main_v129) : (⟨2, ![524288, 32]⟩ : Shape).Idx → EReal) (ix2 n k)
      = (StableHlo.after referenceOps WR (Proc.devRef .tc Cert.ReferenceIdeal.main_v140) : (⟨2, ![524288, 32]⟩ : Shape).Idx → EReal) (ix2 n k) := by
  unfold kernelOps referenceOps
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.ReferenceIdeal.Line.ops0, Cert.ReferenceIdeal.Line.ops1, Cert.ReferenceIdeal.Line.ops2, Cert.ReferenceIdeal.Line.ops3, List.drop_succ_cons, List.drop_zero, List.flatten_cons, List.flatten_nil, List.append_nil, List.cons_append, List.nil_append]
  simp (disch := decide) only [after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      addf_apply, mulf_apply, subf_apply, maximumf_apply, minimumf_apply, select_apply, sitofp_apply, constant_apply,
      cmpi_apply, addi_apply, minsi_apply, fptosi_apply, hostFloor_apply, constantI_apply, id_eq,
      bcast_scalar, bcast_col, bcast_row, bcast_rows, bcast_cols, transpose_two', transpose_first_last', flatten_col, concat_cols_left, concat_cols_right,
      Cert.Tri.K_gather_128, Cert.Tri.K_gather_256, Cert.Tri.K_gather_512,
      Cert.Tri.R_gather_128, Cert.Tri.R_gather_256, Cert.Tri.R_gather_512, Cert.Tri.R_takeCols,
      Cert.Tri.slice3_0, Cert.Tri.slice3_1, Cert.Tri.slice3_2, Cert.Tri.slice2_0, Cert.Tri.slice2_1,
      K_resh0, K_resh1, K_resh2, K_resh3, R_resh0, R_resh1, R_resh2, R_resh3]
  simp only [ht0, ht1]
  simp only [h17, hg]
  rfl

end Cert.Tri.Plane0

end
-- ==== Proof.P17.lean ====
/-
  Both programs begin by the same twenty operations: the points are shifted by the box's lower corner, scaled by two
  over the box's extent, shifted by one, and laid out as one [524288, 3] array.  From launch contents that agree on the
  points and on the box, the two normalized arrays are the same.
-/
import proofs.«168354_j73564199846375_2_alg».proof.Proof.Gen.KernelIdeal.Launch
import proofs.«168354_j73564199846375_2_alg».proof.Proof.RefRun
import Idealize.ShloMosaic.PureOps.Ideal

noncomputable section

namespace Cert.Tri

open Idealize.ShloMosaic Idealize.ShloMosaic.TcCoe Idealize.SL.Sem Idealize.ShloMosaic.StableHlo

set_option maxHeartbeats 4000000 in
set_option maxRecDepth 100000 in
theorem p17_eq [Cert.KernelIdeal.Facts] [Cert.ReferenceIdeal.Facts]
    (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1)) :
    StableHlo.after (Cert.ReferenceIdeal.Line.ops0.take 29) VR (Proc.devRef .tc Cert.ReferenceIdeal.main_v17)
      = StableHlo.after (Cert.KernelIdeal.Gen.hostOps0.take 20) VK (Proc.devRef .tc Cert.KernelIdeal.main_v17) := by
  simp only [Cert.ReferenceIdeal.Line.ops0, Cert.KernelIdeal.Gen.hostOps0, List.take_succ_cons, List.take_zero]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rw [ha0, ha1]
  rfl

end Cert.Tri

end
-- ==== Proof.Glue0.lean ====
/-
  Plane 0 inside the whole programs: the operations after the plane's own leave its result where it is, and the
  operations before it leave the normalized points, the plane's table and the reference's constant index pair as the
  first operations made them; so the plane's entry-by-entry equality holds of the two whole programs' folds.
-/
import proofs.«168354_j73564199846375_2_alg».proof.Proof.Plane0
import proofs.«168354_j73564199846375_2_alg».proof.Proof.P17
import Idealize.ShloMosaic.Lib.Pipeline.Frame

noncomputable section

namespace Cert.Tri.Glue0

open Idealize.ShloMosaic Idealize.ShloMosaic.TcCoe Idealize.SL.Sem Idealize.ShloMosaic.StableHlo Idealize.ShloMosaic.ValueIdx

variable [Cert.KernelIdeal.Facts] [Cert.ReferenceIdeal.Facts]

/-- The kernel program's contents when the plane's operations begin. -/
def preK (VK : Valuation Cert.KernelIdeal.τ Cert.KernelIdeal.sig (Elt Ideal)) : Valuation Cert.KernelIdeal.τ Cert.KernelIdeal.sig (Elt Ideal) :=
  StableHlo.after (Cert.KernelIdeal.Gen.hostOps0.take 20) VK

/-- The reference's contents when the plane's operations begin. -/
def preR (VR : Valuation Cert.ReferenceIdeal.τ Cert.ReferenceIdeal.sig (Elt Ideal)) : Valuation Cert.ReferenceIdeal.τ Cert.ReferenceIdeal.sig (Elt Ideal) :=
  StableHlo.after (Cert.ReferenceIdeal.Line.ops0.take 29) VR

set_option maxRecDepth 1000000 in
set_option maxHeartbeats 4000000 in
theorem keepK (W : Valuation Cert.KernelIdeal.τ Cert.KernelIdeal.sig (Elt Ideal)) :
    StableHlo.after Cert.KernelIdeal.Gen.hostOps0_36 (StableHlo.after Cert.KernelIdeal.Gen.hostOps0_35 (StableHlo.after Cert.KernelIdeal.Gen.hostOps0_34 (StableHlo.after Cert.KernelIdeal.Gen.hostOps0_33 (StableHlo.after Cert.KernelIdeal.Gen.hostOps0_32 (StableHlo.after Cert.KernelIdeal.Gen.hostOps0_31 (StableHlo.after Cert.KernelIdeal.Gen.hostOps0_30 (StableHlo.after Cert.KernelIdeal.Gen.hostOps0_29 (StableHlo.after Cert.KernelIdeal.Gen.hostOps0_28 (StableHlo.after Cert.KernelIdeal.Gen.hostOps0_27 (StableHlo.after Cert.KernelIdeal.Gen.hostOps0_26 (StableHlo.after Cert.KernelIdeal.Gen.hostOps0_25 (StableHlo.after Cert.KernelIdeal.Gen.hostOps0_24 (StableHlo.after Cert.KernelIdeal.Gen.hostOps0_23 (StableHlo.after Cert.KernelIdeal.Gen.hostOps0_22 (StableHlo.after Cert.KernelIdeal.Gen.hostOps0_21 (StableHlo.after Cert.KernelIdeal.Gen.hostOps0_20 (StableHlo.after Cert.KernelIdeal.Gen.hostOps0_19 (StableHlo.after Cert.KernelIdeal.Gen.hostOps0_18 (StableHlo.after Cert.KernelIdeal.Gen.hostOps0_17 (StableHlo.after Cert.KernelIdeal.Gen.hostOps0_16 (StableHlo.after Cert.KernelIdeal.Gen.hostOps0_15 (StableHlo.after Cert.KernelIdeal.Gen.hostOps0_14 (StableHlo.after Cert.KernelIdeal.Gen.hostOps0_13 (StableHlo.after Cert.KernelIdeal.Gen.hostOps0_12 (StableHlo.after Cert.KernelIdeal.Gen.hostOps0_11 (StableHlo.after Cert.KernelIdeal.Gen.hostOps0_10 (StableHlo.after Cert.KernelIdeal.Gen.hostOps0_9 (StableHlo.after Cert.KernelIdeal.Gen.hostOps0_8 (StableHlo.after Cert.KernelIdeal.Gen.hostOps0_7 (StableHlo.after Cert.KernelIdeal.Gen.hostOps0_6 (StableHlo.after Cert.KernelIdeal.Gen.hostOps0_5 (W)))))))))))))))))))))))))))))))) (Proc.devRef .tc Cert.KernelIdeal.main_v129) = W (Proc.devRef .tc Cert.KernelIdeal.main_v129) := rfl

set_option maxRecDepth 1000000 in
set_option maxHeartbeats 4000000 in
theorem keepR (W : Valuation Cert.ReferenceIdeal.τ Cert.ReferenceIdeal.sig (Elt Ideal)) :
    StableHlo.after Cert.ReferenceIdeal.Line.ops24 (StableHlo.after Cert.ReferenceIdeal.Line.ops23 (StableHlo.after Cert.ReferenceIdeal.Line.ops22 (StableHlo.after Cert.ReferenceIdeal.Line.ops21 (StableHlo.after Cert.ReferenceIdeal.Line.ops20 (StableHlo.after Cert.ReferenceIdeal.Line.ops19 (StableHlo.after Cert.ReferenceIdeal.Line.ops18 (StableHlo.after Cert.ReferenceIdeal.Line.ops17 (StableHlo.after Cert.ReferenceIdeal.Line.ops16 (StableHlo.after Cert.ReferenceIdeal.Line.ops15 (StableHlo.after Cert.ReferenceIdeal.Line.ops14 (StableHlo.after Cert.ReferenceIdeal.Line.ops13 (StableHlo.after Cert.ReferenceIdeal.Line.ops12 (StableHlo.after Cert.ReferenceIdeal.Line.ops11 (StableHlo.after Cert.ReferenceIdeal.Line.ops10 (StableHlo.after Cert.ReferenceIdeal.Line.ops9 (StableHlo.after Cert.ReferenceIdeal.Line.ops8 (StableHlo.after Cert.ReferenceIdeal.Line.ops7 (StableHlo.after Cert.ReferenceIdeal.Line.ops6 (StableHlo.after Cert.ReferenceIdeal.Line.ops5 (StableHlo.after Cert.ReferenceIdeal.Line.ops4 (W))))))))))))))))))))) (Proc.devRef .tc Cert.ReferenceIdeal.main_v140) = W (Proc.devRef .tc Cert.ReferenceIdeal.main_v140) := rfl

set_option maxRecDepth 1000000 in
set_option maxHeartbeats 4000000 in
theorem preArgK (VK : Valuation Cert.KernelIdeal.τ Cert.KernelIdeal.sig (Elt Ideal)) :
    preK VK (Proc.devRef .tc Cert.KernelIdeal.main_arg2) = VK (Proc.devRef .tc Cert.KernelIdeal.main_arg2) := rfl

set_option maxRecDepth 1000000 in
set_option maxHeartbeats 4000000 in
theorem preArgR (VR : Valuation Cert.ReferenceIdeal.τ Cert.ReferenceIdeal.sig (Elt Ideal)) :
    preR VR (Proc.devRef .tc Cert.ReferenceIdeal.main_arg2) = VR (Proc.devRef .tc Cert.ReferenceIdeal.main_arg2) := rfl

set_option maxRecDepth 1000000 in
set_option maxHeartbeats 4000000 in
theorem preTab0 (VR : Valuation Cert.ReferenceIdeal.τ Cert.ReferenceIdeal.sig (Elt Ideal)) :
    (preR VR (Proc.devRef .tc Cert.ReferenceIdeal.main_c) : Cert.ReferenceIdeal.S2.Idx → BitVec 32) (ix1 (0 : Fin 2)) = 0#32 := rfl

set_option maxRecDepth 1000000 in
set_option maxHeartbeats 4000000 in
theorem preTab1 (VR : Valuation Cert.ReferenceIdeal.τ Cert.ReferenceIdeal.sig (Elt Ideal)) :
    (preR VR (Proc.devRef .tc Cert.ReferenceIdeal.main_c) : Cert.ReferenceIdeal.S2.Idx → BitVec 32) (ix1 (1 : Fin 2)) = 1#32 := rfl

theorem splitK0 (VK : Valuation Cert.KernelIdeal.τ Cert.KernelIdeal.sig (Elt Ideal)) :
    StableHlo.after Cert.KernelIdeal.Gen.hostOps0 VK = StableHlo.after (Cert.KernelIdeal.Gen.hostOps0.drop 20) (StableHlo.after (Cert.KernelIdeal.Gen.hostOps0.take 20) VK) := by
  rw [← StableHlo.after_append, List.take_append_drop]

theorem splitR0 (VR : Valuation Cert.ReferenceIdeal.τ Cert.ReferenceIdeal.sig (Elt Ideal)) :
    StableHlo.after Cert.ReferenceIdeal.Line.ops0 VR = StableHlo.after (Cert.ReferenceIdeal.Line.ops0.drop 29) (StableHlo.after (Cert.ReferenceIdeal.Line.ops0.take 29) VR) := by
  rw [← StableHlo.after_append, List.take_append_drop]

set_option maxHeartbeats 4000000 in
theorem splitK (VK : Valuation Cert.KernelIdeal.τ Cert.KernelIdeal.sig (Elt Ideal)) :
    StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v129)
      = StableHlo.after Plane0.kernelOps (preK VK) (Proc.devRef .tc Cert.KernelIdeal.main_v129) := by
  have e : StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK = StableHlo.after Cert.KernelIdeal.Gen.hostOps0_36 (StableHlo.after Cert.KernelIdeal.Gen.hostOps0_35 (StableHlo.after Cert.KernelIdeal.Gen.hostOps0_34 (StableHlo.after Cert.KernelIdeal.Gen.hostOps0_33 (StableHlo.after Cert.KernelIdeal.Gen.hostOps0_32 (StableHlo.after Cert.KernelIdeal.Gen.hostOps0_31 (StableHlo.after Cert.KernelIdeal.Gen.hostOps0_30 (StableHlo.after Cert.KernelIdeal.Gen.hostOps0_29 (StableHlo.after Cert.KernelIdeal.Gen.hostOps0_28 (StableHlo.after Cert.KernelIdeal.Gen.hostOps0_27 (StableHlo.after Cert.KernelIdeal.Gen.hostOps0_26 (StableHlo.after Cert.KernelIdeal.Gen.hostOps0_25 (StableHlo.after Cert.KernelIdeal.Gen.hostOps0_24 (StableHlo.after Cert.KernelIdeal.Gen.hostOps0_23 (StableHlo.after Cert.KernelIdeal.Gen.hostOps0_22 (StableHlo.after Cert.KernelIdeal.Gen.hostOps0_21 (StableHlo.after Cert.KernelIdeal.Gen.hostOps0_20 (StableHlo.after Cert.KernelIdeal.Gen.hostOps0_19 (StableHlo.after Cert.KernelIdeal.Gen.hostOps0_18 (StableHlo.after Cert.KernelIdeal.Gen.hostOps0_17 (StableHlo.after Cert.KernelIdeal.Gen.hostOps0_16 (StableHlo.after Cert.KernelIdeal.Gen.hostOps0_15 (StableHlo.after Cert.KernelIdeal.Gen.hostOps0_14 (StableHlo.after Cert.KernelIdeal.Gen.hostOps0_13 (StableHlo.after Cert.KernelIdeal.Gen.hostOps0_12 (StableHlo.after Cert.KernelIdeal.Gen.hostOps0_11 (StableHlo.after Cert.KernelIdeal.Gen.hostOps0_10 (StableHlo.after Cert.KernelIdeal.Gen.hostOps0_9 (StableHlo.after Cert.KernelIdeal.Gen.hostOps0_8 (StableHlo.after Cert.KernelIdeal.Gen.hostOps0_7 (StableHlo.after Cert.KernelIdeal.Gen.hostOps0_6 (StableHlo.after Cert.KernelIdeal.Gen.hostOps0_5 (StableHlo.after Plane0.kernelOps (preK VK))))))))))))))))))))))))))))))))) := by
    unfold Plane0.kernelOps preK
    simp only [List.flatten_cons, List.flatten_nil, List.append_nil, StableHlo.after_append, splitK0]
  rw [e]
  exact keepK _

set_option maxHeartbeats 4000000 in
theorem splitR (VR : Valuation Cert.ReferenceIdeal.τ Cert.ReferenceIdeal.sig (Elt Ideal)) :
    StableHlo.after Cert.ReferenceIdeal.Line.ops VR (Proc.devRef .tc Cert.ReferenceIdeal.main_v140)
      = StableHlo.after Plane0.referenceOps (preR VR) (Proc.devRef .tc Cert.ReferenceIdeal.main_v140) := by
  have e : StableHlo.after Cert.ReferenceIdeal.Line.ops VR = StableHlo.after Cert.ReferenceIdeal.Line.ops24 (StableHlo.after Cert.ReferenceIdeal.Line.ops23 (StableHlo.after Cert.ReferenceIdeal.Line.ops22 (StableHlo.after Cert.ReferenceIdeal.Line.ops21 (StableHlo.after Cert.ReferenceIdeal.Line.ops20 (StableHlo.after Cert.ReferenceIdeal.Line.ops19 (StableHlo.after Cert.ReferenceIdeal.Line.ops18 (StableHlo.after Cert.ReferenceIdeal.Line.ops17 (StableHlo.after Cert.ReferenceIdeal.Line.ops16 (StableHlo.after Cert.ReferenceIdeal.Line.ops15 (StableHlo.after Cert.ReferenceIdeal.Line.ops14 (StableHlo.after Cert.ReferenceIdeal.Line.ops13 (StableHlo.after Cert.ReferenceIdeal.Line.ops12 (StableHlo.after Cert.ReferenceIdeal.Line.ops11 (StableHlo.after Cert.ReferenceIdeal.Line.ops10 (StableHlo.after Cert.ReferenceIdeal.Line.ops9 (StableHlo.after Cert.ReferenceIdeal.Line.ops8 (StableHlo.after Cert.ReferenceIdeal.Line.ops7 (StableHlo.after Cert.ReferenceIdeal.Line.ops6 (StableHlo.after Cert.ReferenceIdeal.Line.ops5 (StableHlo.after Cert.ReferenceIdeal.Line.ops4 (StableHlo.after Plane0.referenceOps (preR VR)))))))))))))))))))))) := by
    unfold Cert.ReferenceIdeal.Line.ops Plane0.referenceOps preR
    simp only [StableHlo.after_append, splitR0]
  rw [e]
  exact keepR _

theorem pre17K (VK : Valuation Cert.KernelIdeal.τ Cert.KernelIdeal.sig (Elt Ideal)) :
    preK VK (Proc.devRef .tc Cert.KernelIdeal.main_v17) = StableHlo.after (Cert.KernelIdeal.Gen.hostOps0.take 20) VK (Proc.devRef .tc Cert.KernelIdeal.main_v17) :=
  rfl

theorem pre17R (VR : Valuation Cert.ReferenceIdeal.τ Cert.ReferenceIdeal.sig (Elt Ideal)) :
    preR VR (Proc.devRef .tc Cert.ReferenceIdeal.main_v17) = StableHlo.after (Cert.ReferenceIdeal.Line.ops0.take 29) VR (Proc.devRef .tc Cert.ReferenceIdeal.main_v17) :=
  rfl

/-- Entry (n, k) of plane 0's result in the two whole programs, from launch contents that agree on the points, the
    box and the plane's table. -/
theorem entry_eq (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg2) = VK (Proc.devRef .tc Cert.KernelIdeal.main_arg2))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v129) : (⟨2, ![524288, 32]⟩ : Shape).Idx → EReal) (ix2 n k)
      = (StableHlo.after Cert.ReferenceIdeal.Line.ops VR (Proc.devRef .tc Cert.ReferenceIdeal.main_v140) : (⟨2, ![524288, 32]⟩ : Shape).Idx → EReal) (ix2 n k) := by
  rw [splitK VK, splitR VR]
  exact Plane0.entry_eq (preK VK) (preR VR)
    (fun i => congrFun ((pre17R VR).trans ((p17_eq VK VR ha0 ha1).trans (pre17K VK).symm)) i)
    (fun j => congrFun ((preArgR VR).trans (hg.trans (preArgK VK).symm)) j)
    (preTab0 VR) (preTab1 VR) n k

/-- The launch's input window 0 is the plane's result buffer. -/
theorem bridge (W : Valuation Cert.KernelIdeal.τ Cert.KernelIdeal.sig (Elt Ideal)) :
    (W (Proc.devRef .tc (Pipeline.arrRef Cert.KernelIdeal.spec0 (0 : Fin 10))) : (⟨2, ![524288, 32]⟩ : Shape).Idx → EReal)
      = W (Proc.devRef .tc Cert.KernelIdeal.main_v129) := rfl

/-- The same entry-by-entry equality, the kernel program's side read at the launch's input window 0. -/
theorem entry_eq_win (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg2) = VK (Proc.devRef .tc Cert.KernelIdeal.main_arg2))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc (Pipeline.arrRef Cert.KernelIdeal.spec0 (0 : Fin 10))) : (⟨2, ![524288, 32]⟩ : Shape).Idx → EReal) (ix2 n k)
      = (StableHlo.after Cert.ReferenceIdeal.Line.ops VR (Proc.devRef .tc Cert.ReferenceIdeal.main_v140) : (⟨2, ![524288, 32]⟩ : Shape).Idx → EReal) (ix2 n k) :=
  (congrFun (bridge (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK)) (ix2 n k)).trans (entry_eq VK VR ha0 ha1 hg n k)

end Cert.Tri.Glue0

end
-- ==== Proof.Plane1.lean ====
/-
  Plane 1 (a 128 by 128 grid of 32 channels): the kernel's program and the reference compute its
  bilinear look-up by the same arithmetic on every point; they differ in where the channel axis sits (the kernel
  transposes the table once and looks it up with the channels last, the reference looks it up with the channels first
  and transposes the result) and in how the two coordinate columns are taken out of the points.  Entry by entry the
  two results are the same number.
-/
import proofs.«168354_j73564199846375_2_alg».proof.Proof.Gen.KernelIdeal.Launch
import proofs.«168354_j73564199846375_2_alg».proof.Proof.RefRun
import proofs.«168354_j73564199846375_2_alg».proof.Proof.LibLayoutIx
import proofs.«168354_j73564199846375_2_alg».proof.Proof.LibGatherIx
import proofs.«168354_j73564199846375_2_alg».proof.Proof.TriLemmas

noncomputable section

namespace Cert.Tri.Plane1

open Idealize.ShloMosaic Idealize.ShloMosaic.TcCoe Idealize.SL.Sem Idealize.ShloMosaic.StableHlo Idealize.ShloMosaic.ValueIdx
open Idealize.ShloMosaic.LayoutIx Idealize.ShloMosaic.GatherIx

/-- The kernel program's host operations that compute this plane. -/
def kernelOps [Cert.KernelIdeal.Facts] : List (HloOp Cert.KernelIdeal.τ Cert.KernelIdeal.sig (Elt Ideal)) :=
  (List.flatten [Cert.KernelIdeal.Gen.hostOps0_4, Cert.KernelIdeal.Gen.hostOps0_5, Cert.KernelIdeal.Gen.hostOps0_6, Cert.KernelIdeal.Gen.hostOps0_7, Cert.KernelIdeal.Gen.hostOps0_8])

/-- The reference's host operations that compute this plane. -/
def referenceOps [Cert.ReferenceIdeal.Facts] : List (HloOp Cert.ReferenceIdeal.τ Cert.ReferenceIdeal.sig (Elt Ideal)) :=
  (Cert.ReferenceIdeal.Line.ops3 ++ (Cert.ReferenceIdeal.Line.ops4 ++ (Cert.ReferenceIdeal.Line.ops5)))

/-! The flattening of a coordinate column, with its result's shape written out. -/
theorem K_resh0 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v130 Cert.KernelIdeal.main_v131 rfl hn hx hy).result V (no_index (Proc.devRef .tc Cert.KernelIdeal.main_v131))
      = shapeCast Cert.KernelIdeal.S524288 (V (Proc.devRef .tc Cert.KernelIdeal.main_v130)) hn :=
  reshape_result' (x := Cert.KernelIdeal.main_v130) (y := Cert.KernelIdeal.main_v131) rfl hn hx hy V
theorem K_resh1 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v132 Cert.KernelIdeal.main_v133 rfl hn hx hy).result V (no_index (Proc.devRef .tc Cert.KernelIdeal.main_v133))
      = shapeCast Cert.KernelIdeal.S524288 (V (Proc.devRef .tc Cert.KernelIdeal.main_v132)) hn :=
  reshape_result' (x := Cert.KernelIdeal.main_v132) (y := Cert.KernelIdeal.main_v133) rfl hn hx hy V
theorem K_resh2 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v242 Cert.KernelIdeal.main_v243 rfl hn hx hy).result V (no_index (Proc.devRef .tc Cert.KernelIdeal.main_v243))
      = shapeCast Cert.KernelIdeal.S524288 (V (Proc.devRef .tc Cert.KernelIdeal.main_v242)) hn :=
  reshape_result' (x := Cert.KernelIdeal.main_v242) (y := Cert.KernelIdeal.main_v243) rfl hn hx hy V
theorem K_resh3 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v244 Cert.KernelIdeal.main_v245 rfl hn hx hy).result V (no_index (Proc.devRef .tc Cert.KernelIdeal.main_v245))
      = shapeCast Cert.KernelIdeal.S524288 (V (Proc.devRef .tc Cert.KernelIdeal.main_v244)) hn :=
  reshape_result' (x := Cert.KernelIdeal.main_v244) (y := Cert.KernelIdeal.main_v245) rfl hn hx hy V
theorem R_resh0 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v148 Cert.ReferenceIdeal.main_v149 rfl hn hx hy).result V (no_index (Proc.devRef .tc Cert.ReferenceIdeal.main_v149))
      = shapeCast Cert.ReferenceIdeal.S524288 (V (Proc.devRef .tc Cert.ReferenceIdeal.main_v148)) hn :=
  reshape_result' (x := Cert.ReferenceIdeal.main_v148) (y := Cert.ReferenceIdeal.main_v149) rfl hn hx hy V
theorem R_resh1 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v157 Cert.ReferenceIdeal.main_v158 rfl hn hx hy).result V (no_index (Proc.devRef .tc Cert.ReferenceIdeal.main_v158))
      = shapeCast Cert.ReferenceIdeal.S524288 (V (Proc.devRef .tc Cert.ReferenceIdeal.main_v157)) hn :=
  reshape_result' (x := Cert.ReferenceIdeal.main_v157) (y := Cert.ReferenceIdeal.main_v158) rfl hn hx hy V
theorem R_resh2 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v271 Cert.ReferenceIdeal.main_v272 rfl hn hx hy).result V (no_index (Proc.devRef .tc Cert.ReferenceIdeal.main_v272))
      = shapeCast Cert.ReferenceIdeal.S524288 (V (Proc.devRef .tc Cert.ReferenceIdeal.main_v271)) hn :=
  reshape_result' (x := Cert.ReferenceIdeal.main_v271) (y := Cert.ReferenceIdeal.main_v272) rfl hn hx hy V

set_option maxHeartbeats 40000000 in
set_option maxRecDepth 1000000 in
/-- Entry (n, k) of the plane's result is the same in both programs, from contents that agree on the normalized
    points and on the plane's table, the reference's constant index pair being the two coordinate columns' positions. -/
theorem entry_eq [Cert.KernelIdeal.Facts] [Cert.ReferenceIdeal.Facts]
    (WK : Valuation Cert.KernelIdeal.τ Cert.KernelIdeal.sig (Elt Ideal)) (WR : Valuation Cert.ReferenceIdeal.τ Cert.ReferenceIdeal.sig (Elt Ideal))
    (h17 : ∀ i : (⟨2, ![524288, 3]⟩ : Shape).Idx, (WR (Proc.devRef .tc Cert.ReferenceIdeal.main_v17) : (⟨2, ![524288, 3]⟩ : Shape).Idx → EReal) i
      = (WK (Proc.devRef .tc Cert.KernelIdeal.main_v17) : (⟨2, ![524288, 3]⟩ : Shape).Idx → EReal) i)
    (hg : ∀ j : (⟨3, ![32, 128, 128]⟩ : Shape).Idx, (WR (Proc.devRef .tc Cert.ReferenceIdeal.main_arg3) : (⟨3, ![32, 128, 128]⟩ : Shape).Idx → EReal) j
      = (WK (Proc.devRef .tc Cert.KernelIdeal.main_arg3) : (⟨3, ![32, 128, 128]⟩ : Shape).Idx → EReal) j)
    (ht0 : (WR (Proc.devRef .tc Cert.ReferenceIdeal.main_c_0) : Cert.ReferenceIdeal.S2.Idx → BitVec 32) (ix1 (0 : Fin 2)) = 0#32)
    (ht1 : (WR (Proc.devRef .tc Cert.ReferenceIdeal.main_c_0) : Cert.ReferenceIdeal.S2.Idx → BitVec 32) (ix1 (1 : Fin 2)) = 2#32)
    (n : Fin 524288) (k : Fin 32) :
    (StableHlo.after kernelOps WK (Proc.devRef .tc Cert.KernelIdeal.main_v241) : (⟨2, ![524288, 32]⟩ : Shape).Idx → EReal) (ix2 n k)
      = (StableHlo.after referenceOps WR (Proc.devRef .tc Cert.ReferenceIdeal.main_v263) : (⟨2, ![524288, 32]⟩ : Shape).Idx → EReal) (ix2 n k) := by
  unfold kernelOps referenceOps
  simp only [Cert.KernelIdeal.Gen.hostOps0_4, Cert.KernelIdeal.Gen.hostOps0_5, Cert.KernelIdeal.Gen.hostOps0_6, Cert.KernelIdeal.Gen.hostOps0_7, Cert.KernelIdeal.Gen.hostOps0_8, Cert.ReferenceIdeal.Line.ops3, Cert.ReferenceIdeal.Line.ops4, Cert.ReferenceIdeal.Line.ops5, List.drop_succ_cons, List.drop_zero, List.flatten_cons, List.flatten_nil, List.append_nil, List.cons_append, List.nil_append]
  simp (disch := decide) only [after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      addf_apply, mulf_apply, subf_apply, maximumf_apply, minimumf_apply, select_apply, sitofp_apply, constant_apply,
      cmpi_apply, addi_apply, minsi_apply, fptosi_apply, hostFloor_apply, constantI_apply, id_eq,
      bcast_scalar, bcast_col, bcast_row, bcast_rows, bcast_cols, transpose_two', transpose_first_last', flatten_col, concat_cols_left, concat_cols_right,
      Cert.Tri.K_gather_128, Cert.Tri.K_gather_256, Cert.Tri.K_gather_512,
      Cert.Tri.R_gather_128, Cert.Tri.R_gather_256, Cert.Tri.R_gather_512, Cert.Tri.R_takeCols,
      Cert.Tri.slice3_0, Cert.Tri.slice3_1, Cert.Tri.slice3_2, Cert.Tri.slice2_0, Cert.Tri.slice2_1,
      K_resh0, K_resh1, K_resh2, K_resh3, R_resh0, R_resh1, R_resh2]
  simp only [ht0, ht1]
  simp only [h17, hg]
  rfl

end Cert.Tri.Plane1

end
-- ==== Proof.Glue1.lean ====
/-
  Plane 1 inside the whole programs: the operations after the plane's own leave its result where it is, and the
  operations before it leave the normalized points, the plane's table and the reference's constant index pair as the
  first operations made them; so the plane's entry-by-entry equality holds of the two whole programs' folds.
-/
import proofs.«168354_j73564199846375_2_alg».proof.Proof.Plane1
import proofs.«168354_j73564199846375_2_alg».proof.Proof.P17
import Idealize.ShloMosaic.Lib.Pipeline.Frame

noncomputable section

namespace Cert.Tri.Glue1

open Idealize.ShloMosaic Idealize.ShloMosaic.TcCoe Idealize.SL.Sem Idealize.ShloMosaic.StableHlo Idealize.ShloMosaic.ValueIdx

variable [Cert.KernelIdeal.Facts] [Cert.ReferenceIdeal.Facts]

/-- The kernel program's contents when the plane's operations begin. -/
def preK (VK : Valuation Cert.KernelIdeal.τ Cert.KernelIdeal.sig (Elt Ideal)) : Valuation Cert.KernelIdeal.τ Cert.KernelIdeal.sig (Elt Ideal) :=
  StableHlo.after Cert.KernelIdeal.Gen.hostOps0_3 (StableHlo.after Cert.KernelIdeal.Gen.hostOps0_2 (StableHlo.after Cert.KernelIdeal.Gen.hostOps0_1 (StableHlo.after (Cert.KernelIdeal.Gen.hostOps0.drop 20) (StableHlo.after (Cert.KernelIdeal.Gen.hostOps0.take 20) VK))))

/-- The reference's contents when the plane's operations begin. -/
def preR (VR : Valuation Cert.ReferenceIdeal.τ Cert.ReferenceIdeal.sig (Elt Ideal)) : Valuation Cert.ReferenceIdeal.τ Cert.ReferenceIdeal.sig (Elt Ideal) :=
  StableHlo.after Cert.ReferenceIdeal.Line.ops2 (StableHlo.after Cert.ReferenceIdeal.Line.ops1 (StableHlo.after (Cert.ReferenceIdeal.Line.ops0.drop 29) (StableHlo.after (Cert.ReferenceIdeal.Line.ops0.take 29) VR)))

set_option maxRecDepth 1000000 in
set_option maxHeartbeats 4000000 in
theorem keepK (W : Valuation Cert.KernelIdeal.τ Cert.KernelIdeal.sig (Elt Ideal)) :
    StableHlo.after Cert.KernelIdeal.Gen.hostOps0_36 (StableHlo.after Cert.KernelIdeal.Gen.hostOps0_35 (StableHlo.after Cert.KernelIdeal.Gen.hostOps0_34 (StableHlo.after Cert.KernelIdeal.Gen.hostOps0_33 (StableHlo.after Cert.KernelIdeal.Gen.hostOps0_32 (StableHlo.after Cert.KernelIdeal.Gen.hostOps0_31 (StableHlo.after Cert.KernelIdeal.Gen.hostOps0_30 (StableHlo.after Cert.KernelIdeal.Gen.hostOps0_29 (StableHlo.after Cert.KernelIdeal.Gen.hostOps0_28 (StableHlo.after Cert.KernelIdeal.Gen.hostOps0_27 (StableHlo.after Cert.KernelIdeal.Gen.hostOps0_26 (StableHlo.after Cert.KernelIdeal.Gen.hostOps0_25 (StableHlo.after Cert.KernelIdeal.Gen.hostOps0_24 (StableHlo.after Cert.KernelIdeal.Gen.hostOps0_23 (StableHlo.after Cert.KernelIdeal.Gen.hostOps0_22 (StableHlo.after Cert.KernelIdeal.Gen.hostOps0_21 (StableHlo.after Cert.KernelIdeal.Gen.hostOps0_20 (StableHlo.after Cert.KernelIdeal.Gen.hostOps0_19 (StableHlo.after Cert.KernelIdeal.Gen.hostOps0_18 (StableHlo.after Cert.KernelIdeal.Gen.hostOps0_17 (StableHlo.after Cert.KernelIdeal.Gen.hostOps0_16 (StableHlo.after Cert.KernelIdeal.Gen.hostOps0_15 (StableHlo.after Cert.KernelIdeal.Gen.hostOps0_14 (StableHlo.after Cert.KernelIdeal.Gen.hostOps0_13 (StableHlo.after Cert.KernelIdeal.Gen.hostOps0_12 (StableHlo.after Cert.KernelIdeal.Gen.hostOps0_11 (StableHlo.after Cert.KernelIdeal.Gen.hostOps0_10 (StableHlo.after Cert.KernelIdeal.Gen.hostOps0_9 (W)))))))))))))))))))))))))))) (Proc.devRef .tc Cert.KernelIdeal.main_v241) = W (Proc.devRef .tc Cert.KernelIdeal.main_v241) := rfl

set_option maxRecDepth 1000000 in
set_option maxHeartbeats 4000000 in
theorem keepR (W : Valuation Cert.ReferenceIdeal.τ Cert.ReferenceIdeal.sig (Elt Ideal)) :
    StableHlo.after Cert.ReferenceIdeal.Line.ops24 (StableHlo.after Cert.ReferenceIdeal.Line.ops23 (StableHlo.after Cert.ReferenceIdeal.Line.ops22 (StableHlo.after Cert.ReferenceIdeal.Line.ops21 (StableHlo.after Cert.ReferenceIdeal.Line.ops20 (StableHlo.after Cert.ReferenceIdeal.Line.ops19 (StableHlo.after Cert.ReferenceIdeal.Line.ops18 (StableHlo.after Cert.ReferenceIdeal.Line.ops17 (StableHlo.after Cert.ReferenceIdeal.Line.ops16 (StableHlo.after Cert.ReferenceIdeal.Line.ops15 (StableHlo.after Cert.ReferenceIdeal.Line.ops14 (StableHlo.after Cert.ReferenceIdeal.Line.ops13 (StableHlo.after Cert.ReferenceIdeal.Line.ops12 (StableHlo.after Cert.ReferenceIdeal.Line.ops11 (StableHlo.after Cert.ReferenceIdeal.Line.ops10 (StableHlo.after Cert.ReferenceIdeal.Line.ops9 (StableHlo.after Cert.ReferenceIdeal.Line.ops8 (StableHlo.after Cert.ReferenceIdeal.Line.ops7 (StableHlo.after Cert.ReferenceIdeal.Line.ops6 (W))))))))))))))))))) (Proc.devRef .tc Cert.ReferenceIdeal.main_v263) = W (Proc.devRef .tc Cert.ReferenceIdeal.main_v263) := rfl

set_option maxRecDepth 1000000 in
set_option maxHeartbeats 4000000 in
theorem keep17K (W : Valuation Cert.KernelIdeal.τ Cert.KernelIdeal.sig (Elt Ideal)) :
    StableHlo.after Cert.KernelIdeal.Gen.hostOps0_3 (StableHlo.after Cert.KernelIdeal.Gen.hostOps0_2 (StableHlo.after Cert.KernelIdeal.Gen.hostOps0_1 (StableHlo.after (Cert.KernelIdeal.Gen.hostOps0.drop 20) (W)))) (Proc.devRef .tc Cert.KernelIdeal.main_v17) = W (Proc.devRef .tc Cert.KernelIdeal.main_v17) := rfl

set_option maxRecDepth 1000000 in
set_option maxHeartbeats 4000000 in
theorem keep17R (W : Valuation Cert.ReferenceIdeal.τ Cert.ReferenceIdeal.sig (Elt Ideal)) :
    StableHlo.after Cert.ReferenceIdeal.Line.ops2 (StableHlo.after Cert.ReferenceIdeal.Line.ops1 (StableHlo.after (Cert.ReferenceIdeal.Line.ops0.drop 29) (W))) (Proc.devRef .tc Cert.ReferenceIdeal.main_v17) = W (Proc.devRef .tc Cert.ReferenceIdeal.main_v17) := rfl

set_option maxRecDepth 1000000 in
set_option maxHeartbeats 4000000 in
theorem preArgK (VK : Valuation Cert.KernelIdeal.τ Cert.KernelIdeal.sig (Elt Ideal)) :
    preK VK (Proc.devRef .tc Cert.KernelIdeal.main_arg3) = VK (Proc.devRef .tc Cert.KernelIdeal.main_arg3) := rfl

set_option maxRecDepth 1000000 in
set_option maxHeartbeats 4000000 in
theorem preArgR (VR : Valuation Cert.ReferenceIdeal.τ Cert.ReferenceIdeal.sig (Elt Ideal)) :
    preR VR (Proc.devRef .tc Cert.ReferenceIdeal.main_arg3) = VR (Proc.devRef .tc Cert.ReferenceIdeal.main_arg3) := rfl

set_option maxRecDepth 1000000 in
set_option maxHeartbeats 4000000 in
theorem preTab0 (VR : Valuation Cert.ReferenceIdeal.τ Cert.ReferenceIdeal.sig (Elt Ideal)) :
    (preR VR (Proc.devRef .tc Cert.ReferenceIdeal.main_c_0) : Cert.ReferenceIdeal.S2.Idx → BitVec 32) (ix1 (0 : Fin 2)) = 0#32 := rfl

set_option maxRecDepth 1000000 in
set_option maxHeartbeats 4000000 in
theorem preTab1 (VR : Valuation Cert.ReferenceIdeal.τ Cert.ReferenceIdeal.sig (Elt Ideal)) :
    (preR VR (Proc.devRef .tc Cert.ReferenceIdeal.main_c_0) : Cert.ReferenceIdeal.S2.Idx → BitVec 32) (ix1 (1 : Fin 2)) = 2#32 := rfl

theorem splitK0 (VK : Valuation Cert.KernelIdeal.τ Cert.KernelIdeal.sig (Elt Ideal)) :
    StableHlo.after Cert.KernelIdeal.Gen.hostOps0 VK = StableHlo.after (Cert.KernelIdeal.Gen.hostOps0.drop 20) (StableHlo.after (Cert.KernelIdeal.Gen.hostOps0.take 20) VK) := by
  rw [← StableHlo.after_append, List.take_append_drop]

theorem splitR0 (VR : Valuation Cert.ReferenceIdeal.τ Cert.ReferenceIdeal.sig (Elt Ideal)) :
    StableHlo.after Cert.ReferenceIdeal.Line.ops0 VR = StableHlo.after (Cert.ReferenceIdeal.Line.ops0.drop 29) (StableHlo.after (Cert.ReferenceIdeal.Line.ops0.take 29) VR) := by
  rw [← StableHlo.after_append, List.take_append_drop]

set_option maxHeartbeats 4000000 in
theorem splitK (VK : Valuation Cert.KernelIdeal.τ Cert.KernelIdeal.sig (Elt Ideal)) :
    StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v241)
      = StableHlo.after Plane1.kernelOps (preK VK) (Proc.devRef .tc Cert.KernelIdeal.main_v241) := by
  have e : StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK = StableHlo.after Cert.KernelIdeal.Gen.hostOps0_36 (StableHlo.after Cert.KernelIdeal.Gen.hostOps0_35 (StableHlo.after Cert.KernelIdeal.Gen.hostOps0_34 (StableHlo.after Cert.KernelIdeal.Gen.hostOps0_33 (StableHlo.after Cert.KernelIdeal.Gen.hostOps0_32 (StableHlo.after Cert.KernelIdeal.Gen.hostOps0_31 (StableHlo.after Cert.KernelIdeal.Gen.hostOps0_30 (StableHlo.after Cert.KernelIdeal.Gen.hostOps0_29 (StableHlo.after Cert.KernelIdeal.Gen.hostOps0_28 (StableHlo.after Cert.KernelIdeal.Gen.hostOps0_27 (StableHlo.after Cert.KernelIdeal.Gen.hostOps0_26 (StableHlo.after Cert.KernelIdeal.Gen.hostOps0_25 (StableHlo.after Cert.KernelIdeal.Gen.hostOps0_24 (StableHlo.after Cert.KernelIdeal.Gen.hostOps0_23 (StableHlo.after Cert.KernelIdeal.Gen.hostOps0_22 (StableHlo.after Cert.KernelIdeal.Gen.hostOps0_21 (StableHlo.after Cert.KernelIdeal.Gen.hostOps0_20 (StableHlo.after Cert.KernelIdeal.Gen.hostOps0_19 (StableHlo.after Cert.KernelIdeal.Gen.hostOps0_18 (StableHlo.after Cert.KernelIdeal.Gen.hostOps0_17 (StableHlo.after Cert.KernelIdeal.Gen.hostOps0_16 (StableHlo.after Cert.KernelIdeal.Gen.hostOps0_15 (StableHlo.after Cert.KernelIdeal.Gen.hostOps0_14 (StableHlo.after Cert.KernelIdeal.Gen.hostOps0_13 (StableHlo.after Cert.KernelIdeal.Gen.hostOps0_12 (StableHlo.after Cert.KernelIdeal.Gen.hostOps0_11 (StableHlo.after Cert.KernelIdeal.Gen.hostOps0_10 (StableHlo.after Cert.KernelIdeal.Gen.hostOps0_9 (StableHlo.after Plane1.kernelOps (preK VK))))))))))))))))))))))))))))) := by
    unfold Plane1.kernelOps preK
    simp only [List.flatten_cons, List.flatten_nil, List.append_nil, StableHlo.after_append, splitK0]
  rw [e]
  exact keepK _

set_option maxHeartbeats 4000000 in
theorem splitR (VR : Valuation Cert.ReferenceIdeal.τ Cert.ReferenceIdeal.sig (Elt Ideal)) :
    StableHlo.after Cert.ReferenceIdeal.Line.ops VR (Proc.devRef .tc Cert.ReferenceIdeal.main_v263)
      = StableHlo.after Plane1.referenceOps (preR VR) (Proc.devRef .tc Cert.ReferenceIdeal.main_v263) := by
  have e : StableHlo.after Cert.ReferenceIdeal.Line.ops VR = StableHlo.after Cert.ReferenceIdeal.Line.ops24 (StableHlo.after Cert.ReferenceIdeal.Line.ops23 (StableHlo.after Cert.ReferenceIdeal.Line.ops22 (StableHlo.after Cert.ReferenceIdeal.Line.ops21 (StableHlo.after Cert.ReferenceIdeal.Line.ops20 (StableHlo.after Cert.ReferenceIdeal.Line.ops19 (StableHlo.after Cert.ReferenceIdeal.Line.ops18 (StableHlo.after Cert.ReferenceIdeal.Line.ops17 (StableHlo.after Cert.ReferenceIdeal.Line.ops16 (StableHlo.after Cert.ReferenceIdeal.Line.ops15 (StableHlo.after Cert.ReferenceIdeal.Line.ops14 (StableHlo.after Cert.ReferenceIdeal.Line.ops13 (StableHlo.after Cert.ReferenceIdeal.Line.ops12 (StableHlo.after Cert.ReferenceIdeal.Line.ops11 (StableHlo.after Cert.ReferenceIdeal.Line.ops10 (StableHlo.after Cert.ReferenceIdeal.Line.ops9 (StableHlo.after Cert.ReferenceIdeal.Line.ops8 (StableHlo.after Cert.ReferenceIdeal.Line.ops7 (StableHlo.after Cert.ReferenceIdeal.Line.ops6 (StableHlo.after Plane1.referenceOps (preR VR)))))))))))))))))))) := by
    unfold Cert.ReferenceIdeal.Line.ops Plane1.referenceOps preR
    simp only [StableHlo.after_append, splitR0]
  rw [e]
  exact keepR _

theorem pre17K (VK : Valuation Cert.KernelIdeal.τ Cert.KernelIdeal.sig (Elt Ideal)) :
    preK VK (Proc.devRef .tc Cert.KernelIdeal.main_v17) = StableHlo.after (Cert.KernelIdeal.Gen.hostOps0.take 20) VK (Proc.devRef .tc Cert.KernelIdeal.main_v17) :=
  keep17K _

theorem pre17R (VR : Valuation Cert.ReferenceIdeal.τ Cert.ReferenceIdeal.sig (Elt Ideal)) :
    preR VR (Proc.devRef .tc Cert.ReferenceIdeal.main_v17) = StableHlo.after (Cert.ReferenceIdeal.Line.ops0.take 29) VR (Proc.devRef .tc Cert.ReferenceIdeal.main_v17) :=
  keep17R _

/-- Entry (n, k) of plane 1's result in the two whole programs, from launch contents that agree on the points, the
    box and the plane's table. -/
theorem entry_eq (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg3) = VK (Proc.devRef .tc Cert.KernelIdeal.main_arg3))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v241) : (⟨2, ![524288, 32]⟩ : Shape).Idx → EReal) (ix2 n k)
      = (StableHlo.after Cert.ReferenceIdeal.Line.ops VR (Proc.devRef .tc Cert.ReferenceIdeal.main_v263) : (⟨2, ![524288, 32]⟩ : Shape).Idx → EReal) (ix2 n k) := by
  rw [splitK VK, splitR VR]
  exact Plane1.entry_eq (preK VK) (preR VR)
    (fun i => congrFun ((pre17R VR).trans ((p17_eq VK VR ha0 ha1).trans (pre17K VK).symm)) i)
    (fun j => congrFun ((preArgR VR).trans (hg.trans (preArgK VK).symm)) j)
    (preTab0 VR) (preTab1 VR) n k

/-- The launch's input window 1 is the plane's result buffer. -/
theorem bridge (W : Valuation Cert.KernelIdeal.τ Cert.KernelIdeal.sig (Elt Ideal)) :
    (W (Proc.devRef .tc (Pipeline.arrRef Cert.KernelIdeal.spec0 (1 : Fin 10))) : (⟨2, ![524288, 32]⟩ : Shape).Idx → EReal)
      = W (Proc.devRef .tc Cert.KernelIdeal.main_v241) := rfl

/-- The same entry-by-entry equality, the kernel program's side read at the launch's input window 1. -/
theorem entry_eq_win (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg3) = VK (Proc.devRef .tc Cert.KernelIdeal.main_arg3))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc (Pipeline.arrRef Cert.KernelIdeal.spec0 (1 : Fin 10))) : (⟨2, ![524288, 32]⟩ : Shape).Idx → EReal) (ix2 n k)
      = (StableHlo.after Cert.ReferenceIdeal.Line.ops VR (Proc.devRef .tc Cert.ReferenceIdeal.main_v263) : (⟨2, ![524288, 32]⟩ : Shape).Idx → EReal) (ix2 n k) :=
  (congrFun (bridge (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK)) (ix2 n k)).trans (entry_eq VK VR ha0 ha1 hg n k)

end Cert.Tri.Glue1

end
-- ==== Proof.Plane2.lean ====
/-
  Plane 2 (a 128 by 128 grid of 32 channels): the kernel's program and the reference compute its
  bilinear look-up by the same arithmetic on every point; they differ in where the channel axis sits (the kernel
  transposes the table once and looks it up with the channels last, the reference looks it up with the channels first
  and transposes the result) and in how the two coordinate columns are taken out of the points.  Entry by entry the
  two results are the same number.
-/
import proofs.«168354_j73564199846375_2_alg».proof.Proof.Gen.KernelIdeal.Launch
import proofs.«168354_j73564199846375_2_alg».proof.Proof.RefRun
import proofs.«168354_j73564199846375_2_alg».proof.Proof.LibLayoutIx
import proofs.«168354_j73564199846375_2_alg».proof.Proof.LibGatherIx
import proofs.«168354_j73564199846375_2_alg».proof.Proof.TriLemmas

noncomputable section

namespace Cert.Tri.Plane2

open Idealize.ShloMosaic Idealize.ShloMosaic.TcCoe Idealize.SL.Sem Idealize.ShloMosaic.StableHlo Idealize.ShloMosaic.ValueIdx
open Idealize.ShloMosaic.LayoutIx Idealize.ShloMosaic.GatherIx

/-- The kernel program's host operations that compute this plane. -/
def kernelOps [Cert.KernelIdeal.Facts] : List (HloOp Cert.KernelIdeal.τ Cert.KernelIdeal.sig (Elt Ideal)) :=
  (List.flatten [Cert.KernelIdeal.Gen.hostOps0_8, Cert.KernelIdeal.Gen.hostOps0_9, Cert.KernelIdeal.Gen.hostOps0_10, Cert.KernelIdeal.Gen.hostOps0_11, Cert.KernelIdeal.Gen.hostOps0_12])

/-- The reference's host operations that compute this plane. -/
def referenceOps [Cert.ReferenceIdeal.Facts] : List (HloOp Cert.ReferenceIdeal.τ Cert.ReferenceIdeal.sig (Elt Ideal)) :=
  (Cert.ReferenceIdeal.Line.ops5 ++ (Cert.ReferenceIdeal.Line.ops6 ++ (Cert.ReferenceIdeal.Line.ops7 ++ (Cert.ReferenceIdeal.Line.ops8))))

/-! The flattening of a coordinate column, with its result's shape written out. -/
theorem K_resh0 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v242 Cert.KernelIdeal.main_v243 rfl hn hx hy).result V (no_index (Proc.devRef .tc Cert.KernelIdeal.main_v243))
      = shapeCast Cert.KernelIdeal.S524288 (V (Proc.devRef .tc Cert.KernelIdeal.main_v242)) hn :=
  reshape_result' (x := Cert.KernelIdeal.main_v242) (y := Cert.KernelIdeal.main_v243) rfl hn hx hy V
theorem K_resh1 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v244 Cert.KernelIdeal.main_v245 rfl hn hx hy).result V (no_index (Proc.devRef .tc Cert.KernelIdeal.main_v245))
      = shapeCast Cert.KernelIdeal.S524288 (V (Proc.devRef .tc Cert.KernelIdeal.main_v244)) hn :=
  reshape_result' (x := Cert.KernelIdeal.main_v244) (y := Cert.KernelIdeal.main_v245) rfl hn hx hy V
theorem K_resh2 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v354 Cert.KernelIdeal.main_v355 rfl hn hx hy).result V (no_index (Proc.devRef .tc Cert.KernelIdeal.main_v355))
      = shapeCast Cert.KernelIdeal.S524288 (V (Proc.devRef .tc Cert.KernelIdeal.main_v354)) hn :=
  reshape_result' (x := Cert.KernelIdeal.main_v354) (y := Cert.KernelIdeal.main_v355) rfl hn hx hy V
theorem K_resh3 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v356 Cert.KernelIdeal.main_v357 rfl hn hx hy).result V (no_index (Proc.devRef .tc Cert.KernelIdeal.main_v357))
      = shapeCast Cert.KernelIdeal.S524288 (V (Proc.devRef .tc Cert.KernelIdeal.main_v356)) hn :=
  reshape_result' (x := Cert.KernelIdeal.main_v356) (y := Cert.KernelIdeal.main_v357) rfl hn hx hy V
theorem R_resh0 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v271 Cert.ReferenceIdeal.main_v272 rfl hn hx hy).result V (no_index (Proc.devRef .tc Cert.ReferenceIdeal.main_v272))
      = shapeCast Cert.ReferenceIdeal.S524288 (V (Proc.devRef .tc Cert.ReferenceIdeal.main_v271)) hn :=
  reshape_result' (x := Cert.ReferenceIdeal.main_v271) (y := Cert.ReferenceIdeal.main_v272) rfl hn hx hy V
theorem R_resh1 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v280 Cert.ReferenceIdeal.main_v281 rfl hn hx hy).result V (no_index (Proc.devRef .tc Cert.ReferenceIdeal.main_v281))
      = shapeCast Cert.ReferenceIdeal.S524288 (V (Proc.devRef .tc Cert.ReferenceIdeal.main_v280)) hn :=
  reshape_result' (x := Cert.ReferenceIdeal.main_v280) (y := Cert.ReferenceIdeal.main_v281) rfl hn hx hy V
theorem R_resh2 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v395 Cert.ReferenceIdeal.main_v396 rfl hn hx hy).result V (no_index (Proc.devRef .tc Cert.ReferenceIdeal.main_v396))
      = shapeCast Cert.ReferenceIdeal.S524288 (V (Proc.devRef .tc Cert.ReferenceIdeal.main_v395)) hn :=
  reshape_result' (x := Cert.ReferenceIdeal.main_v395) (y := Cert.ReferenceIdeal.main_v396) rfl hn hx hy V
theorem R_resh3 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v404 Cert.ReferenceIdeal.main_v405 rfl hn hx hy).result V (no_index (Proc.devRef .tc Cert.ReferenceIdeal.main_v405))
      = shapeCast Cert.ReferenceIdeal.S524288 (V (Proc.devRef .tc Cert.ReferenceIdeal.main_v404)) hn :=
  reshape_result' (x := Cert.ReferenceIdeal.main_v404) (y := Cert.ReferenceIdeal.main_v405) rfl hn hx hy V

set_option maxHeartbeats 40000000 in
set_option maxRecDepth 1000000 in
/-- Entry (n, k) of the plane's result is the same in both programs, from contents that agree on the normalized
    points and on the plane's table, the reference's constant index pair being the two coordinate columns' positions. -/
theorem entry_eq [Cert.KernelIdeal.Facts] [Cert.ReferenceIdeal.Facts]
    (WK : Valuation Cert.KernelIdeal.τ Cert.KernelIdeal.sig (Elt Ideal)) (WR : Valuation Cert.ReferenceIdeal.τ Cert.ReferenceIdeal.sig (Elt Ideal))
    (h17 : ∀ i : (⟨2, ![524288, 3]⟩ : Shape).Idx, (WR (Proc.devRef .tc Cert.ReferenceIdeal.main_v17) : (⟨2, ![524288, 3]⟩ : Shape).Idx → EReal) i
      = (WK (Proc.devRef .tc Cert.KernelIdeal.main_v17) : (⟨2, ![524288, 3]⟩ : Shape).Idx → EReal) i)
    (hg : ∀ j : (⟨3, ![32, 128, 128]⟩ : Shape).Idx, (WR (Proc.devRef .tc Cert.ReferenceIdeal.main_arg4) : (⟨3, ![32, 128, 128]⟩ : Shape).Idx → EReal) j
      = (WK (Proc.devRef .tc Cert.KernelIdeal.main_arg4) : (⟨3, ![32, 128, 128]⟩ : Shape).Idx → EReal) j)
    (ht0 : (WR (Proc.devRef .tc Cert.ReferenceIdeal.main_c_1) : Cert.ReferenceIdeal.S2.Idx → BitVec 32) (ix1 (0 : Fin 2)) = 1#32)
    (ht1 : (WR (Proc.devRef .tc Cert.ReferenceIdeal.main_c_1) : Cert.ReferenceIdeal.S2.Idx → BitVec 32) (ix1 (1 : Fin 2)) = 2#32)
    (n : Fin 524288) (k : Fin 32) :
    (StableHlo.after kernelOps WK (Proc.devRef .tc Cert.KernelIdeal.main_v353) : (⟨2, ![524288, 32]⟩ : Shape).Idx → EReal) (ix2 n k)
      = (StableHlo.after referenceOps WR (Proc.devRef .tc Cert.ReferenceIdeal.main_v386) : (⟨2, ![524288, 32]⟩ : Shape).Idx → EReal) (ix2 n k) := by
  unfold kernelOps referenceOps
  simp only [Cert.KernelIdeal.Gen.hostOps0_8, Cert.KernelIdeal.Gen.hostOps0_9, Cert.KernelIdeal.Gen.hostOps0_10, Cert.KernelIdeal.Gen.hostOps0_11, Cert.KernelIdeal.Gen.hostOps0_12, Cert.ReferenceIdeal.Line.ops5, Cert.ReferenceIdeal.Line.ops6, Cert.ReferenceIdeal.Line.ops7, Cert.ReferenceIdeal.Line.ops8, List.drop_succ_cons, List.drop_zero, List.flatten_cons, List.flatten_nil, List.append_nil, List.cons_append, List.nil_append]
  simp (disch := decide) only [after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      addf_apply, mulf_apply, subf_apply, maximumf_apply, minimumf_apply, select_apply, sitofp_apply, constant_apply,
      cmpi_apply, addi_apply, minsi_apply, fptosi_apply, hostFloor_apply, constantI_apply, id_eq,
      bcast_scalar, bcast_col, bcast_row, bcast_rows, bcast_cols, transpose_two', transpose_first_last', flatten_col, concat_cols_left, concat_cols_right,
      Cert.Tri.K_gather_128, Cert.Tri.K_gather_256, Cert.Tri.K_gather_512,
      Cert.Tri.R_gather_128, Cert.Tri.R_gather_256, Cert.Tri.R_gather_512, Cert.Tri.R_takeCols,
      Cert.Tri.slice3_0, Cert.Tri.slice3_1, Cert.Tri.slice3_2, Cert.Tri.slice2_0, Cert.Tri.slice2_1,
      K_resh0, K_resh1, K_resh2, K_resh3, R_resh0, R_resh1, R_resh2, R_resh3]
  simp only [ht0, ht1]
  simp only [h17, hg]
  rfl

end Cert.Tri.Plane2

end
-- ==== Proof.Glue2.lean ====
/-
  Plane 2 inside the whole programs: the operations after the plane's own leave its result where it is, and the
  operations before it leave the normalized points, the plane's table and the reference's constant index pair as the
  first operations made them; so the plane's entry-by-entry equality holds of the two whole programs' folds.
-/
import proofs.«168354_j73564199846375_2_alg».proof.Proof.Plane2
import proofs.«168354_j73564199846375_2_alg».proof.Proof.P17
import Idealize.ShloMosaic.Lib.Pipeline.Frame

noncomputable section

namespace Cert.Tri.Glue2

open Idealize.ShloMosaic Idealize.ShloMosaic.TcCoe Idealize.SL.Sem Idealize.ShloMosaic.StableHlo Idealize.ShloMosaic.ValueIdx

variable [Cert.KernelIdeal.Facts] [Cert.ReferenceIdeal.Facts]

/-- The kernel program's contents when the plane's operations begin. -/
def preK (VK : Valuation Cert.KernelIdeal.τ Cert.KernelIdeal.sig (Elt Ideal)) : Valuation Cert.KernelIdeal.τ Cert.KernelIdeal.sig (Elt Ideal) :=
  StableHlo.after Cert.KernelIdeal.Gen.hostOps0_7 (StableHlo.after Cert.KernelIdeal.Gen.hostOps0_6 (StableHlo.after Cert.KernelIdeal.Gen.hostOps0_5 (StableHlo.after Cert.KernelIdeal.Gen.hostOps0_4 (StableHlo.after Cert.KernelIdeal.Gen.hostOps0_3 (StableHlo.after Cert.KernelIdeal.Gen.hostOps0_2 (StableHlo.after Cert.KernelIdeal.Gen.hostOps0_1 (StableHlo.after (Cert.KernelIdeal.Gen.hostOps0.drop 20) (StableHlo.after (Cert.KernelIdeal.Gen.hostOps0.take 20) VK))))))))

/-- The reference's contents when the plane's operations begin. -/
def preR (VR : Valuation Cert.ReferenceIdeal.τ Cert.ReferenceIdeal.sig (Elt Ideal)) : Valuation Cert.ReferenceIdeal.τ Cert.ReferenceIdeal.sig (Elt Ideal) :=
  StableHlo.after Cert.ReferenceIdeal.Line.ops4 (StableHlo.after Cert.ReferenceIdeal.Line.ops3 (StableHlo.after Cert.ReferenceIdeal.Line.ops2 (StableHlo.after Cert.ReferenceIdeal.Line.ops1 (StableHlo.after (Cert.ReferenceIdeal.Line.ops0.drop 29) (StableHlo.after (Cert.ReferenceIdeal.Line.ops0.take 29) VR)))))

set_option maxRecDepth 1000000 in
set_option maxHeartbeats 4000000 in
theorem keepK (W : Valuation Cert.KernelIdeal.τ Cert.KernelIdeal.sig (Elt Ideal)) :
    StableHlo.after Cert.KernelIdeal.Gen.hostOps0_36 (StableHlo.after Cert.KernelIdeal.Gen.hostOps0_35 (StableHlo.after Cert.KernelIdeal.Gen.hostOps0_34 (StableHlo.after Cert.KernelIdeal.Gen.hostOps0_33 (StableHlo.after Cert.KernelIdeal.Gen.hostOps0_32 (StableHlo.after Cert.KernelIdeal.Gen.hostOps0_31 (StableHlo.after Cert.KernelIdeal.Gen.hostOps0_30 (StableHlo.after Cert.KernelIdeal.Gen.hostOps0_29 (StableHlo.after Cert.KernelIdeal.Gen.hostOps0_28 (StableHlo.after Cert.KernelIdeal.Gen.hostOps0_27 (StableHlo.after Cert.KernelIdeal.Gen.hostOps0_26 (StableHlo.after Cert.KernelIdeal.Gen.hostOps0_25 (StableHlo.after Cert.KernelIdeal.Gen.hostOps0_24 (StableHlo.after Cert.KernelIdeal.Gen.hostOps0_23 (StableHlo.after Cert.KernelIdeal.Gen.hostOps0_22 (StableHlo.after Cert.KernelIdeal.Gen.hostOps0_21 (StableHlo.after Cert.KernelIdeal.Gen.hostOps0_20 (StableHlo.after Cert.KernelIdeal.Gen.hostOps0_19 (StableHlo.after Cert.KernelIdeal.Gen.hostOps0_18 (StableHlo.after Cert.KernelIdeal.Gen.hostOps0_17 (StableHlo.after Cert.KernelIdeal.Gen.hostOps0_16 (StableHlo.after Cert.KernelIdeal.Gen.hostOps0_15 (StableHlo.after Cert.KernelIdeal.Gen.hostOps0_14 (StableHlo.after Cert.KernelIdeal.Gen.hostOps0_13 (W)))))))))))))))))))))))) (Proc.devRef .tc Cert.KernelIdeal.main_v353) = W (Proc.devRef .tc Cert.KernelIdeal.main_v353) := rfl

set_option maxRecDepth 1000000 in
set_option maxHeartbeats 4000000 in
theorem keepR (W : Valuation Cert.ReferenceIdeal.τ Cert.ReferenceIdeal.sig (Elt Ideal)) :
    StableHlo.after Cert.ReferenceIdeal.Line.ops24 (StableHlo.after Cert.ReferenceIdeal.Line.ops23 (StableHlo.after Cert.ReferenceIdeal.Line.ops22 (StableHlo.after Cert.ReferenceIdeal.Line.ops21 (StableHlo.after Cert.ReferenceIdeal.Line.ops20 (StableHlo.after Cert.ReferenceIdeal.Line.ops19 (StableHlo.after Cert.ReferenceIdeal.Line.ops18 (StableHlo.after Cert.ReferenceIdeal.Line.ops17 (StableHlo.after Cert.ReferenceIdeal.Line.ops16 (StableHlo.after Cert.ReferenceIdeal.Line.ops15 (StableHlo.after Cert.ReferenceIdeal.Line.ops14 (StableHlo.after Cert.ReferenceIdeal.Line.ops13 (StableHlo.after Cert.ReferenceIdeal.Line.ops12 (StableHlo.after Cert.ReferenceIdeal.Line.ops11 (StableHlo.after Cert.ReferenceIdeal.Line.ops10 (StableHlo.after Cert.ReferenceIdeal.Line.ops9 (W)))))))))))))))) (Proc.devRef .tc Cert.ReferenceIdeal.main_v386) = W (Proc.devRef .tc Cert.ReferenceIdeal.main_v386) := rfl

set_option maxRecDepth 1000000 in
set_option maxHeartbeats 4000000 in
theorem keep17K (W : Valuation Cert.KernelIdeal.τ Cert.KernelIdeal.sig (Elt Ideal)) :
    StableHlo.after Cert.KernelIdeal.Gen.hostOps0_7 (StableHlo.after Cert.KernelIdeal.Gen.hostOps0_6 (StableHlo.after Cert.KernelIdeal.Gen.hostOps0_5 (StableHlo.after Cert.KernelIdeal.Gen.hostOps0_4 (StableHlo.after Cert.KernelIdeal.Gen.hostOps0_3 (StableHlo.after Cert.KernelIdeal.Gen.hostOps0_2 (StableHlo.after Cert.KernelIdeal.Gen.hostOps0_1 (StableHlo.after (Cert.KernelIdeal.Gen.hostOps0.drop 20) (W)))))))) (Proc.devRef .tc Cert.KernelIdeal.main_v17) = W (Proc.devRef .tc Cert.KernelIdeal.main_v17) := rfl

set_option maxRecDepth 1000000 in
set_option maxHeartbeats 4000000 in
theorem keep17R (W : Valuation Cert.ReferenceIdeal.τ Cert.ReferenceIdeal.sig (Elt Ideal)) :
    StableHlo.after Cert.ReferenceIdeal.Line.ops4 (StableHlo.after Cert.ReferenceIdeal.Line.ops3 (StableHlo.after Cert.ReferenceIdeal.Line.ops2 (StableHlo.after Cert.ReferenceIdeal.Line.ops1 (StableHlo.after (Cert.ReferenceIdeal.Line.ops0.drop 29) (W))))) (Proc.devRef .tc Cert.ReferenceIdeal.main_v17) = W (Proc.devRef .tc Cert.ReferenceIdeal.main_v17) := rfl

set_option maxRecDepth 1000000 in
set_option maxHeartbeats 4000000 in
theorem preArgK (VK : Valuation Cert.KernelIdeal.τ Cert.KernelIdeal.sig (Elt Ideal)) :
    preK VK (Proc.devRef .tc Cert.KernelIdeal.main_arg4) = VK (Proc.devRef .tc Cert.KernelIdeal.main_arg4) := rfl

set_option maxRecDepth 1000000 in
set_option maxHeartbeats 4000000 in
theorem preArgR (VR : Valuation Cert.ReferenceIdeal.τ Cert.ReferenceIdeal.sig (Elt Ideal)) :
    preR VR (Proc.devRef .tc Cert.ReferenceIdeal.main_arg4) = VR (Proc.devRef .tc Cert.ReferenceIdeal.main_arg4) := rfl

set_option maxRecDepth 1000000 in
set_option maxHeartbeats 4000000 in
theorem preTab0 (VR : Valuation Cert.ReferenceIdeal.τ Cert.ReferenceIdeal.sig (Elt Ideal)) :
    (preR VR (Proc.devRef .tc Cert.ReferenceIdeal.main_c_1) : Cert.ReferenceIdeal.S2.Idx → BitVec 32) (ix1 (0 : Fin 2)) = 1#32 := rfl

set_option maxRecDepth 1000000 in
set_option maxHeartbeats 4000000 in
theorem preTab1 (VR : Valuation Cert.ReferenceIdeal.τ Cert.ReferenceIdeal.sig (Elt Ideal)) :
    (preR VR (Proc.devRef .tc Cert.ReferenceIdeal.main_c_1) : Cert.ReferenceIdeal.S2.Idx → BitVec 32) (ix1 (1 : Fin 2)) = 2#32 := rfl

theorem splitK0 (VK : Valuation Cert.KernelIdeal.τ Cert.KernelIdeal.sig (Elt Ideal)) :
    StableHlo.after Cert.KernelIdeal.Gen.hostOps0 VK = StableHlo.after (Cert.KernelIdeal.Gen.hostOps0.drop 20) (StableHlo.after (Cert.KernelIdeal.Gen.hostOps0.take 20) VK) := by
  rw [← StableHlo.after_append, List.take_append_drop]

theorem splitR0 (VR : Valuation Cert.ReferenceIdeal.τ Cert.ReferenceIdeal.sig (Elt Ideal)) :
    StableHlo.after Cert.ReferenceIdeal.Line.ops0 VR = StableHlo.after (Cert.ReferenceIdeal.Line.ops0.drop 29) (StableHlo.after (Cert.ReferenceIdeal.Line.ops0.take 29) VR) := by
  rw [← StableHlo.after_append, List.take_append_drop]

set_option maxHeartbeats 4000000 in
theorem splitK (VK : Valuation Cert.KernelIdeal.τ Cert.KernelIdeal.sig (Elt Ideal)) :
    StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v353)
      = StableHlo.after Plane2.kernelOps (preK VK) (Proc.devRef .tc Cert.KernelIdeal.main_v353) := by
  have e : StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK = StableHlo.after Cert.KernelIdeal.Gen.hostOps0_36 (StableHlo.after Cert.KernelIdeal.Gen.hostOps0_35 (StableHlo.after Cert.KernelIdeal.Gen.hostOps0_34 (StableHlo.after Cert.KernelIdeal.Gen.hostOps0_33 (StableHlo.after Cert.KernelIdeal.Gen.hostOps0_32 (StableHlo.after Cert.KernelIdeal.Gen.hostOps0_31 (StableHlo.after Cert.KernelIdeal.Gen.hostOps0_30 (StableHlo.after Cert.KernelIdeal.Gen.hostOps0_29 (StableHlo.after Cert.KernelIdeal.Gen.hostOps0_28 (StableHlo.after Cert.KernelIdeal.Gen.hostOps0_27 (StableHlo.after Cert.KernelIdeal.Gen.hostOps0_26 (StableHlo.after Cert.KernelIdeal.Gen.hostOps0_25 (StableHlo.after Cert.KernelIdeal.Gen.hostOps0_24 (StableHlo.after Cert.KernelIdeal.Gen.hostOps0_23 (StableHlo.after Cert.KernelIdeal.Gen.hostOps0_22 (StableHlo.after Cert.KernelIdeal.Gen.hostOps0_21 (StableHlo.after Cert.KernelIdeal.Gen.hostOps0_20 (StableHlo.after Cert.KernelIdeal.Gen.hostOps0_19 (StableHlo.after Cert.KernelIdeal.Gen.hostOps0_18 (StableHlo.after Cert.KernelIdeal.Gen.hostOps0_17 (StableHlo.after Cert.KernelIdeal.Gen.hostOps0_16 (StableHlo.after Cert.KernelIdeal.Gen.hostOps0_15 (StableHlo.after Cert.KernelIdeal.Gen.hostOps0_14 (StableHlo.after Cert.KernelIdeal.Gen.hostOps0_13 (StableHlo.after Plane2.kernelOps (preK VK))))))))))))))))))))))))) := by
    unfold Plane2.kernelOps preK
    simp only [List.flatten_cons, List.flatten_nil, List.append_nil, StableHlo.after_append, splitK0]
  rw [e]
  exact keepK _

set_option maxHeartbeats 4000000 in
theorem splitR (VR : Valuation Cert.ReferenceIdeal.τ Cert.ReferenceIdeal.sig (Elt Ideal)) :
    StableHlo.after Cert.ReferenceIdeal.Line.ops VR (Proc.devRef .tc Cert.ReferenceIdeal.main_v386)
      = StableHlo.after Plane2.referenceOps (preR VR) (Proc.devRef .tc Cert.ReferenceIdeal.main_v386) := by
  have e : StableHlo.after Cert.ReferenceIdeal.Line.ops VR = StableHlo.after Cert.ReferenceIdeal.Line.ops24 (StableHlo.after Cert.ReferenceIdeal.Line.ops23 (StableHlo.after Cert.ReferenceIdeal.Line.ops22 (StableHlo.after Cert.ReferenceIdeal.Line.ops21 (StableHlo.after Cert.ReferenceIdeal.Line.ops20 (StableHlo.after Cert.ReferenceIdeal.Line.ops19 (StableHlo.after Cert.ReferenceIdeal.Line.ops18 (StableHlo.after Cert.ReferenceIdeal.Line.ops17 (StableHlo.after Cert.ReferenceIdeal.Line.ops16 (StableHlo.after Cert.ReferenceIdeal.Line.ops15 (StableHlo.after Cert.ReferenceIdeal.Line.ops14 (StableHlo.after Cert.ReferenceIdeal.Line.ops13 (StableHlo.after Cert.ReferenceIdeal.Line.ops12 (StableHlo.after Cert.ReferenceIdeal.Line.ops11 (StableHlo.after Cert.ReferenceIdeal.Line.ops10 (StableHlo.after Cert.ReferenceIdeal.Line.ops9 (StableHlo.after Plane2.referenceOps (preR VR))))))))))))))))) := by
    unfold Cert.ReferenceIdeal.Line.ops Plane2.referenceOps preR
    simp only [StableHlo.after_append, splitR0]
  rw [e]
  exact keepR _

theorem pre17K (VK : Valuation Cert.KernelIdeal.τ Cert.KernelIdeal.sig (Elt Ideal)) :
    preK VK (Proc.devRef .tc Cert.KernelIdeal.main_v17) = StableHlo.after (Cert.KernelIdeal.Gen.hostOps0.take 20) VK (Proc.devRef .tc Cert.KernelIdeal.main_v17) :=
  keep17K _

theorem pre17R (VR : Valuation Cert.ReferenceIdeal.τ Cert.ReferenceIdeal.sig (Elt Ideal)) :
    preR VR (Proc.devRef .tc Cert.ReferenceIdeal.main_v17) = StableHlo.after (Cert.ReferenceIdeal.Line.ops0.take 29) VR (Proc.devRef .tc Cert.ReferenceIdeal.main_v17) :=
  keep17R _

/-- Entry (n, k) of plane 2's result in the two whole programs, from launch contents that agree on the points, the
    box and the plane's table. -/
theorem entry_eq (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg4) = VK (Proc.devRef .tc Cert.KernelIdeal.main_arg4))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v353) : (⟨2, ![524288, 32]⟩ : Shape).Idx → EReal) (ix2 n k)
      = (StableHlo.after Cert.ReferenceIdeal.Line.ops VR (Proc.devRef .tc Cert.ReferenceIdeal.main_v386) : (⟨2, ![524288, 32]⟩ : Shape).Idx → EReal) (ix2 n k) := by
  rw [splitK VK, splitR VR]
  exact Plane2.entry_eq (preK VK) (preR VR)
    (fun i => congrFun ((pre17R VR).trans ((p17_eq VK VR ha0 ha1).trans (pre17K VK).symm)) i)
    (fun j => congrFun ((preArgR VR).trans (hg.trans (preArgK VK).symm)) j)
    (preTab0 VR) (preTab1 VR) n k

/-- The launch's input window 2 is the plane's result buffer. -/
theorem bridge (W : Valuation Cert.KernelIdeal.τ Cert.KernelIdeal.sig (Elt Ideal)) :
    (W (Proc.devRef .tc (Pipeline.arrRef Cert.KernelIdeal.spec0 (2 : Fin 10))) : (⟨2, ![524288, 32]⟩ : Shape).Idx → EReal)
      = W (Proc.devRef .tc Cert.KernelIdeal.main_v353) := rfl

/-- The same entry-by-entry equality, the kernel program's side read at the launch's input window 2. -/
theorem entry_eq_win (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg4) = VK (Proc.devRef .tc Cert.KernelIdeal.main_arg4))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc (Pipeline.arrRef Cert.KernelIdeal.spec0 (2 : Fin 10))) : (⟨2, ![524288, 32]⟩ : Shape).Idx → EReal) (ix2 n k)
      = (StableHlo.after Cert.ReferenceIdeal.Line.ops VR (Proc.devRef .tc Cert.ReferenceIdeal.main_v386) : (⟨2, ![524288, 32]⟩ : Shape).Idx → EReal) (ix2 n k) :=
  (congrFun (bridge (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK)) (ix2 n k)).trans (entry_eq VK VR ha0 ha1 hg n k)

end Cert.Tri.Glue2

end
-- ==== Proof.Plane3.lean ====
/-
  Plane 3 (a 256 by 256 grid of 32 channels): the kernel's program and the reference compute its
  bilinear look-up by the same arithmetic on every point; they differ in where the channel axis sits (the kernel
  transposes the table once and looks it up with the channels last, the reference looks it up with the channels first
  and transposes the result) and in how the two coordinate columns are taken out of the points.  Entry by entry the
  two results are the same number.
-/
import proofs.«168354_j73564199846375_2_alg».proof.Proof.Gen.KernelIdeal.Launch
import proofs.«168354_j73564199846375_2_alg».proof.Proof.RefRun
import proofs.«168354_j73564199846375_2_alg».proof.Proof.LibLayoutIx
import proofs.«168354_j73564199846375_2_alg».proof.Proof.LibGatherIx
import proofs.«168354_j73564199846375_2_alg».proof.Proof.TriLemmas

noncomputable section

namespace Cert.Tri.Plane3

open Idealize.ShloMosaic Idealize.ShloMosaic.TcCoe Idealize.SL.Sem Idealize.ShloMosaic.StableHlo Idealize.ShloMosaic.ValueIdx
open Idealize.ShloMosaic.LayoutIx Idealize.ShloMosaic.GatherIx

/-- The kernel program's host operations that compute this plane. -/
def kernelOps [Cert.KernelIdeal.Facts] : List (HloOp Cert.KernelIdeal.τ Cert.KernelIdeal.sig (Elt Ideal)) :=
  (List.flatten [Cert.KernelIdeal.Gen.hostOps0_12, Cert.KernelIdeal.Gen.hostOps0_13, Cert.KernelIdeal.Gen.hostOps0_14, Cert.KernelIdeal.Gen.hostOps0_15, Cert.KernelIdeal.Gen.hostOps0_16])

/-- The reference's host operations that compute this plane. -/
def referenceOps [Cert.ReferenceIdeal.Facts] : List (HloOp Cert.ReferenceIdeal.τ Cert.ReferenceIdeal.sig (Elt Ideal)) :=
  (Cert.ReferenceIdeal.Line.ops8 ++ (Cert.ReferenceIdeal.Line.ops9 ++ (Cert.ReferenceIdeal.Line.ops10 ++ (Cert.ReferenceIdeal.Line.ops11))))

/-! The flattening of a coordinate column, with its result's shape written out. -/
theorem K_resh0 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v354 Cert.KernelIdeal.main_v355 rfl hn hx hy).result V (no_index (Proc.devRef .tc Cert.KernelIdeal.main_v355))
      = shapeCast Cert.KernelIdeal.S524288 (V (Proc.devRef .tc Cert.KernelIdeal.main_v354)) hn :=
  reshape_result' (x := Cert.KernelIdeal.main_v354) (y := Cert.KernelIdeal.main_v355) rfl hn hx hy V
theorem K_resh1 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v356 Cert.KernelIdeal.main_v357 rfl hn hx hy).result V (no_index (Proc.devRef .tc Cert.KernelIdeal.main_v357))
      = shapeCast Cert.KernelIdeal.S524288 (V (Proc.devRef .tc Cert.KernelIdeal.main_v356)) hn :=
  reshape_result' (x := Cert.KernelIdeal.main_v356) (y := Cert.KernelIdeal.main_v357) rfl hn hx hy V
theorem K_resh2 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v466 Cert.KernelIdeal.main_v467 rfl hn hx hy).result V (no_index (Proc.devRef .tc Cert.KernelIdeal.main_v467))
      = shapeCast Cert.KernelIdeal.S524288 (V (Proc.devRef .tc Cert.KernelIdeal.main_v466)) hn :=
  reshape_result' (x := Cert.KernelIdeal.main_v466) (y := Cert.KernelIdeal.main_v467) rfl hn hx hy V
theorem K_resh3 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v468 Cert.KernelIdeal.main_v469 rfl hn hx hy).result V (no_index (Proc.devRef .tc Cert.KernelIdeal.main_v469))
      = shapeCast Cert.KernelIdeal.S524288 (V (Proc.devRef .tc Cert.KernelIdeal.main_v468)) hn :=
  reshape_result' (x := Cert.KernelIdeal.main_v468) (y := Cert.KernelIdeal.main_v469) rfl hn hx hy V
theorem R_resh0 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v395 Cert.ReferenceIdeal.main_v396 rfl hn hx hy).result V (no_index (Proc.devRef .tc Cert.ReferenceIdeal.main_v396))
      = shapeCast Cert.ReferenceIdeal.S524288 (V (Proc.devRef .tc Cert.ReferenceIdeal.main_v395)) hn :=
  reshape_result' (x := Cert.ReferenceIdeal.main_v395) (y := Cert.ReferenceIdeal.main_v396) rfl hn hx hy V
theorem R_resh1 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v404 Cert.ReferenceIdeal.main_v405 rfl hn hx hy).result V (no_index (Proc.devRef .tc Cert.ReferenceIdeal.main_v405))
      = shapeCast Cert.ReferenceIdeal.S524288 (V (Proc.devRef .tc Cert.ReferenceIdeal.main_v404)) hn :=
  reshape_result' (x := Cert.ReferenceIdeal.main_v404) (y := Cert.ReferenceIdeal.main_v405) rfl hn hx hy V
theorem R_resh2 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v518 Cert.ReferenceIdeal.main_v519 rfl hn hx hy).result V (no_index (Proc.devRef .tc Cert.ReferenceIdeal.main_v519))
      = shapeCast Cert.ReferenceIdeal.S524288 (V (Proc.devRef .tc Cert.ReferenceIdeal.main_v518)) hn :=
  reshape_result' (x := Cert.ReferenceIdeal.main_v518) (y := Cert.ReferenceIdeal.main_v519) rfl hn hx hy V
theorem R_resh3 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v527 Cert.ReferenceIdeal.main_v528 rfl hn hx hy).result V (no_index (Proc.devRef .tc Cert.ReferenceIdeal.main_v528))
      = shapeCast Cert.ReferenceIdeal.S524288 (V (Proc.devRef .tc Cert.ReferenceIdeal.main_v527)) hn :=
  reshape_result' (x := Cert.ReferenceIdeal.main_v527) (y := Cert.ReferenceIdeal.main_v528) rfl hn hx hy V

set_option maxHeartbeats 40000000 in
set_option maxRecDepth 1000000 in
/-- Entry (n, k) of the plane's result is the same in both programs, from contents that agree on the normalized
    points and on the plane's table, the reference's constant index pair being the two coordinate columns' positions. -/
theorem entry_eq [Cert.KernelIdeal.Facts] [Cert.ReferenceIdeal.Facts]
    (WK : Valuation Cert.KernelIdeal.τ Cert.KernelIdeal.sig (Elt Ideal)) (WR : Valuation Cert.ReferenceIdeal.τ Cert.ReferenceIdeal.sig (Elt Ideal))
    (h17 : ∀ i : (⟨2, ![524288, 3]⟩ : Shape).Idx, (WR (Proc.devRef .tc Cert.ReferenceIdeal.main_v17) : (⟨2, ![524288, 3]⟩ : Shape).Idx → EReal) i
      = (WK (Proc.devRef .tc Cert.KernelIdeal.main_v17) : (⟨2, ![524288, 3]⟩ : Shape).Idx → EReal) i)
    (hg : ∀ j : (⟨3, ![32, 256, 256]⟩ : Shape).Idx, (WR (Proc.devRef .tc Cert.ReferenceIdeal.main_arg5) : (⟨3, ![32, 256, 256]⟩ : Shape).Idx → EReal) j
      = (WK (Proc.devRef .tc Cert.KernelIdeal.main_arg5) : (⟨3, ![32, 256, 256]⟩ : Shape).Idx → EReal) j)
    (ht0 : (WR (Proc.devRef .tc Cert.ReferenceIdeal.main_c_2) : Cert.ReferenceIdeal.S2.Idx → BitVec 32) (ix1 (0 : Fin 2)) = 0#32)
    (ht1 : (WR (Proc.devRef .tc Cert.ReferenceIdeal.main_c_2) : Cert.ReferenceIdeal.S2.Idx → BitVec 32) (ix1 (1 : Fin 2)) = 1#32)
    (n : Fin 524288) (k : Fin 32) :
    (StableHlo.after kernelOps WK (Proc.devRef .tc Cert.KernelIdeal.main_v465) : (⟨2, ![524288, 32]⟩ : Shape).Idx → EReal) (ix2 n k)
      = (StableHlo.after referenceOps WR (Proc.devRef .tc Cert.ReferenceIdeal.main_v510) : (⟨2, ![524288, 32]⟩ : Shape).Idx → EReal) (ix2 n k) := by
  unfold kernelOps referenceOps
  simp only [Cert.KernelIdeal.Gen.hostOps0_12, Cert.KernelIdeal.Gen.hostOps0_13, Cert.KernelIdeal.Gen.hostOps0_14, Cert.KernelIdeal.Gen.hostOps0_15, Cert.KernelIdeal.Gen.hostOps0_16, Cert.ReferenceIdeal.Line.ops8, Cert.ReferenceIdeal.Line.ops9, Cert.ReferenceIdeal.Line.ops10, Cert.ReferenceIdeal.Line.ops11, List.drop_succ_cons, List.drop_zero, List.flatten_cons, List.flatten_nil, List.append_nil, List.cons_append, List.nil_append]
  simp (disch := decide) only [after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      addf_apply, mulf_apply, subf_apply, maximumf_apply, minimumf_apply, select_apply, sitofp_apply, constant_apply,
      cmpi_apply, addi_apply, minsi_apply, fptosi_apply, hostFloor_apply, constantI_apply, id_eq,
      bcast_scalar, bcast_col, bcast_row, bcast_rows, bcast_cols, transpose_two', transpose_first_last', flatten_col, concat_cols_left, concat_cols_right,
      Cert.Tri.K_gather_128, Cert.Tri.K_gather_256, Cert.Tri.K_gather_512,
      Cert.Tri.R_gather_128, Cert.Tri.R_gather_256, Cert.Tri.R_gather_512, Cert.Tri.R_takeCols,
      Cert.Tri.slice3_0, Cert.Tri.slice3_1, Cert.Tri.slice3_2, Cert.Tri.slice2_0, Cert.Tri.slice2_1,
      K_resh0, K_resh1, K_resh2, K_resh3, R_resh0, R_resh1, R_resh2, R_resh3]
  simp only [ht0, ht1]
  simp only [h17, hg]
  rfl

end Cert.Tri.Plane3

end
-- ==== Proof.Glue3.lean ====
/-
  Plane 3 inside the whole programs: the operations after the plane's own leave its result where it is, and the
  operations before it leave the normalized points, the plane's table and the reference's constant index pair as the
  first operations made them; so the plane's entry-by-entry equality holds of the two whole programs' folds.
-/
import proofs.«168354_j73564199846375_2_alg».proof.Proof.Plane3
import proofs.«168354_j73564199846375_2_alg».proof.Proof.P17
import Idealize.ShloMosaic.Lib.Pipeline.Frame

noncomputable section

namespace Cert.Tri.Glue3

open Idealize.ShloMosaic Idealize.ShloMosaic.TcCoe Idealize.SL.Sem Idealize.ShloMosaic.StableHlo Idealize.ShloMosaic.ValueIdx

variable [Cert.KernelIdeal.Facts] [Cert.ReferenceIdeal.Facts]

/-- The kernel program's contents when the plane's operations begin. -/
def preK (VK : Valuation Cert.KernelIdeal.τ Cert.KernelIdeal.sig (Elt Ideal)) : Valuation Cert.KernelIdeal.τ Cert.KernelIdeal.sig (Elt Ideal) :=
  StableHlo.after Cert.KernelIdeal.Gen.hostOps0_11 (StableHlo.after Cert.KernelIdeal.Gen.hostOps0_10 (StableHlo.after Cert.KernelIdeal.Gen.hostOps0_9 (StableHlo.after Cert.KernelIdeal.Gen.hostOps0_8 (StableHlo.after Cert.KernelIdeal.Gen.hostOps0_7 (StableHlo.after Cert.KernelIdeal.Gen.hostOps0_6 (StableHlo.after Cert.KernelIdeal.Gen.hostOps0_5 (StableHlo.after Cert.KernelIdeal.Gen.hostOps0_4 (StableHlo.after Cert.KernelIdeal.Gen.hostOps0_3 (StableHlo.after Cert.KernelIdeal.Gen.hostOps0_2 (StableHlo.after Cert.KernelIdeal.Gen.hostOps0_1 (StableHlo.after (Cert.KernelIdeal.Gen.hostOps0.drop 20) (StableHlo.after (Cert.KernelIdeal.Gen.hostOps0.take 20) VK))))))))))))

/-- The reference's contents when the plane's operations begin. -/
def preR (VR : Valuation Cert.ReferenceIdeal.τ Cert.ReferenceIdeal.sig (Elt Ideal)) : Valuation Cert.ReferenceIdeal.τ Cert.ReferenceIdeal.sig (Elt Ideal) :=
  StableHlo.after Cert.ReferenceIdeal.Line.ops7 (StableHlo.after Cert.ReferenceIdeal.Line.ops6 (StableHlo.after Cert.ReferenceIdeal.Line.ops5 (StableHlo.after Cert.ReferenceIdeal.Line.ops4 (StableHlo.after Cert.ReferenceIdeal.Line.ops3 (StableHlo.after Cert.ReferenceIdeal.Line.ops2 (StableHlo.after Cert.ReferenceIdeal.Line.ops1 (StableHlo.after (Cert.ReferenceIdeal.Line.ops0.drop 29) (StableHlo.after (Cert.ReferenceIdeal.Line.ops0.take 29) VR))))))))

set_option maxRecDepth 1000000 in
set_option maxHeartbeats 4000000 in
theorem keepK (W : Valuation Cert.KernelIdeal.τ Cert.KernelIdeal.sig (Elt Ideal)) :
    StableHlo.after Cert.KernelIdeal.Gen.hostOps0_36 (StableHlo.after Cert.KernelIdeal.Gen.hostOps0_35 (StableHlo.after Cert.KernelIdeal.Gen.hostOps0_34 (StableHlo.after Cert.KernelIdeal.Gen.hostOps0_33 (StableHlo.after Cert.KernelIdeal.Gen.hostOps0_32 (StableHlo.after Cert.KernelIdeal.Gen.hostOps0_31 (StableHlo.after Cert.KernelIdeal.Gen.hostOps0_30 (StableHlo.after Cert.KernelIdeal.Gen.hostOps0_29 (StableHlo.after Cert.KernelIdeal.Gen.hostOps0_28 (StableHlo.after Cert.KernelIdeal.Gen.hostOps0_27 (StableHlo.after Cert.KernelIdeal.Gen.hostOps0_26 (StableHlo.after Cert.KernelIdeal.Gen.hostOps0_25 (StableHlo.after Cert.KernelIdeal.Gen.hostOps0_24 (StableHlo.after Cert.KernelIdeal.Gen.hostOps0_23 (StableHlo.after Cert.KernelIdeal.Gen.hostOps0_22 (StableHlo.after Cert.KernelIdeal.Gen.hostOps0_21 (StableHlo.after Cert.KernelIdeal.Gen.hostOps0_20 (StableHlo.after Cert.KernelIdeal.Gen.hostOps0_19 (StableHlo.after Cert.KernelIdeal.Gen.hostOps0_18 (StableHlo.after Cert.KernelIdeal.Gen.hostOps0_17 (W)))))))))))))))))))) (Proc.devRef .tc Cert.KernelIdeal.main_v465) = W (Proc.devRef .tc Cert.KernelIdeal.main_v465) := rfl

set_option maxRecDepth 1000000 in
set_option maxHeartbeats 4000000 in
theorem keepR (W : Valuation Cert.ReferenceIdeal.τ Cert.ReferenceIdeal.sig (Elt Ideal)) :
    StableHlo.after Cert.ReferenceIdeal.Line.ops24 (StableHlo.after Cert.ReferenceIdeal.Line.ops23 (StableHlo.after Cert.ReferenceIdeal.Line.ops22 (StableHlo.after Cert.ReferenceIdeal.Line.ops21 (StableHlo.after Cert.ReferenceIdeal.Line.ops20 (StableHlo.after Cert.ReferenceIdeal.Line.ops19 (StableHlo.after Cert.ReferenceIdeal.Line.ops18 (StableHlo.after Cert.ReferenceIdeal.Line.ops17 (StableHlo.after Cert.ReferenceIdeal.Line.ops16 (StableHlo.after Cert.ReferenceIdeal.Line.ops15 (StableHlo.after Cert.ReferenceIdeal.Line.ops14 (StableHlo.after Cert.ReferenceIdeal.Line.ops13 (StableHlo.after Cert.ReferenceIdeal.Line.ops12 (W))))))))))))) (Proc.devRef .tc Cert.ReferenceIdeal.main_v510) = W (Proc.devRef .tc Cert.ReferenceIdeal.main_v510) := rfl

set_option maxRecDepth 1000000 in
set_option maxHeartbeats 4000000 in
theorem keep17K (W : Valuation Cert.KernelIdeal.τ Cert.KernelIdeal.sig (Elt Ideal)) :
    StableHlo.after Cert.KernelIdeal.Gen.hostOps0_11 (StableHlo.after Cert.KernelIdeal.Gen.hostOps0_10 (StableHlo.after Cert.KernelIdeal.Gen.hostOps0_9 (StableHlo.after Cert.KernelIdeal.Gen.hostOps0_8 (StableHlo.after Cert.KernelIdeal.Gen.hostOps0_7 (StableHlo.after Cert.KernelIdeal.Gen.hostOps0_6 (StableHlo.after Cert.KernelIdeal.Gen.hostOps0_5 (StableHlo.after Cert.KernelIdeal.Gen.hostOps0_4 (StableHlo.after Cert.KernelIdeal.Gen.hostOps0_3 (StableHlo.after Cert.KernelIdeal.Gen.hostOps0_2 (StableHlo.after Cert.KernelIdeal.Gen.hostOps0_1 (StableHlo.after (Cert.KernelIdeal.Gen.hostOps0.drop 20) (W)))))))))))) (Proc.devRef .tc Cert.KernelIdeal.main_v17) = W (Proc.devRef .tc Cert.KernelIdeal.main_v17) := rfl

set_option maxRecDepth 1000000 in
set_option maxHeartbeats 4000000 in
theorem keep17R (W : Valuation Cert.ReferenceIdeal.τ Cert.ReferenceIdeal.sig (Elt Ideal)) :
    StableHlo.after Cert.ReferenceIdeal.Line.ops7 (StableHlo.after Cert.ReferenceIdeal.Line.ops6 (StableHlo.after Cert.ReferenceIdeal.Line.ops5 (StableHlo.after Cert.ReferenceIdeal.Line.ops4 (StableHlo.after Cert.ReferenceIdeal.Line.ops3 (StableHlo.after Cert.ReferenceIdeal.Line.ops2 (StableHlo.after Cert.ReferenceIdeal.Line.ops1 (StableHlo.after (Cert.ReferenceIdeal.Line.ops0.drop 29) (W)))))))) (Proc.devRef .tc Cert.ReferenceIdeal.main_v17) = W (Proc.devRef .tc Cert.ReferenceIdeal.main_v17) := rfl

set_option maxRecDepth 1000000 in
set_option maxHeartbeats 4000000 in
theorem preArgK (VK : Valuation Cert.KernelIdeal.τ Cert.KernelIdeal.sig (Elt Ideal)) :
    preK VK (Proc.devRef .tc Cert.KernelIdeal.main_arg5) = VK (Proc.devRef .tc Cert.KernelIdeal.main_arg5) := rfl

set_option maxRecDepth 1000000 in
set_option maxHeartbeats 4000000 in
theorem preArgR (VR : Valuation Cert.ReferenceIdeal.τ Cert.ReferenceIdeal.sig (Elt Ideal)) :
    preR VR (Proc.devRef .tc Cert.ReferenceIdeal.main_arg5) = VR (Proc.devRef .tc Cert.ReferenceIdeal.main_arg5) := rfl

set_option maxRecDepth 1000000 in
set_option maxHeartbeats 4000000 in
theorem preTab0 (VR : Valuation Cert.ReferenceIdeal.τ Cert.ReferenceIdeal.sig (Elt Ideal)) :
    (preR VR (Proc.devRef .tc Cert.ReferenceIdeal.main_c_2) : Cert.ReferenceIdeal.S2.Idx → BitVec 32) (ix1 (0 : Fin 2)) = 0#32 := rfl

set_option maxRecDepth 1000000 in
set_option maxHeartbeats 4000000 in
theorem preTab1 (VR : Valuation Cert.ReferenceIdeal.τ Cert.ReferenceIdeal.sig (Elt Ideal)) :
    (preR VR (Proc.devRef .tc Cert.ReferenceIdeal.main_c_2) : Cert.ReferenceIdeal.S2.Idx → BitVec 32) (ix1 (1 : Fin 2)) = 1#32 := rfl

theorem splitK0 (VK : Valuation Cert.KernelIdeal.τ Cert.KernelIdeal.sig (Elt Ideal)) :
    StableHlo.after Cert.KernelIdeal.Gen.hostOps0 VK = StableHlo.after (Cert.KernelIdeal.Gen.hostOps0.drop 20) (StableHlo.after (Cert.KernelIdeal.Gen.hostOps0.take 20) VK) := by
  rw [← StableHlo.after_append, List.take_append_drop]

theorem splitR0 (VR : Valuation Cert.ReferenceIdeal.τ Cert.ReferenceIdeal.sig (Elt Ideal)) :
    StableHlo.after Cert.ReferenceIdeal.Line.ops0 VR = StableHlo.after (Cert.ReferenceIdeal.Line.ops0.drop 29) (StableHlo.after (Cert.ReferenceIdeal.Line.ops0.take 29) VR) := by
  rw [← StableHlo.after_append, List.take_append_drop]

set_option maxHeartbeats 4000000 in
theorem splitK (VK : Valuation Cert.KernelIdeal.τ Cert.KernelIdeal.sig (Elt Ideal)) :
    StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v465)
      = StableHlo.after Plane3.kernelOps (preK VK) (Proc.devRef .tc Cert.KernelIdeal.main_v465) := by
  have e : StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK = StableHlo.after Cert.KernelIdeal.Gen.hostOps0_36 (StableHlo.after Cert.KernelIdeal.Gen.hostOps0_35 (StableHlo.after Cert.KernelIdeal.Gen.hostOps0_34 (StableHlo.after Cert.KernelIdeal.Gen.hostOps0_33 (StableHlo.after Cert.KernelIdeal.Gen.hostOps0_32 (StableHlo.after Cert.KernelIdeal.Gen.hostOps0_31 (StableHlo.after Cert.KernelIdeal.Gen.hostOps0_30 (StableHlo.after Cert.KernelIdeal.Gen.hostOps0_29 (StableHlo.after Cert.KernelIdeal.Gen.hostOps0_28 (StableHlo.after Cert.KernelIdeal.Gen.hostOps0_27 (StableHlo.after Cert.KernelIdeal.Gen.hostOps0_26 (StableHlo.after Cert.KernelIdeal.Gen.hostOps0_25 (StableHlo.after Cert.KernelIdeal.Gen.hostOps0_24 (StableHlo.after Cert.KernelIdeal.Gen.hostOps0_23 (StableHlo.after Cert.KernelIdeal.Gen.hostOps0_22 (StableHlo.after Cert.KernelIdeal.Gen.hostOps0_21 (StableHlo.after Cert.KernelIdeal.Gen.hostOps0_20 (StableHlo.after Cert.KernelIdeal.Gen.hostOps0_19 (StableHlo.after Cert.KernelIdeal.Gen.hostOps0_18 (StableHlo.after Cert.KernelIdeal.Gen.hostOps0_17 (StableHlo.after Plane3.kernelOps (preK VK))))))))))))))))))))) := by
    unfold Plane3.kernelOps preK
    simp only [List.flatten_cons, List.flatten_nil, List.append_nil, StableHlo.after_append, splitK0]
  rw [e]
  exact keepK _

set_option maxHeartbeats 4000000 in
theorem splitR (VR : Valuation Cert.ReferenceIdeal.τ Cert.ReferenceIdeal.sig (Elt Ideal)) :
    StableHlo.after Cert.ReferenceIdeal.Line.ops VR (Proc.devRef .tc Cert.ReferenceIdeal.main_v510)
      = StableHlo.after Plane3.referenceOps (preR VR) (Proc.devRef .tc Cert.ReferenceIdeal.main_v510) := by
  have e : StableHlo.after Cert.ReferenceIdeal.Line.ops VR = StableHlo.after Cert.ReferenceIdeal.Line.ops24 (StableHlo.after Cert.ReferenceIdeal.Line.ops23 (StableHlo.after Cert.ReferenceIdeal.Line.ops22 (StableHlo.after Cert.ReferenceIdeal.Line.ops21 (StableHlo.after Cert.ReferenceIdeal.Line.ops20 (StableHlo.after Cert.ReferenceIdeal.Line.ops19 (StableHlo.after Cert.ReferenceIdeal.Line.ops18 (StableHlo.after Cert.ReferenceIdeal.Line.ops17 (StableHlo.after Cert.ReferenceIdeal.Line.ops16 (StableHlo.after Cert.ReferenceIdeal.Line.ops15 (StableHlo.after Cert.ReferenceIdeal.Line.ops14 (StableHlo.after Cert.ReferenceIdeal.Line.ops13 (StableHlo.after Cert.ReferenceIdeal.Line.ops12 (StableHlo.after Plane3.referenceOps (preR VR)))))))))))))) := by
    unfold Cert.ReferenceIdeal.Line.ops Plane3.referenceOps preR
    simp only [StableHlo.after_append, splitR0]
  rw [e]
  exact keepR _

theorem pre17K (VK : Valuation Cert.KernelIdeal.τ Cert.KernelIdeal.sig (Elt Ideal)) :
    preK VK (Proc.devRef .tc Cert.KernelIdeal.main_v17) = StableHlo.after (Cert.KernelIdeal.Gen.hostOps0.take 20) VK (Proc.devRef .tc Cert.KernelIdeal.main_v17) :=
  keep17K _

theorem pre17R (VR : Valuation Cert.ReferenceIdeal.τ Cert.ReferenceIdeal.sig (Elt Ideal)) :
    preR VR (Proc.devRef .tc Cert.ReferenceIdeal.main_v17) = StableHlo.after (Cert.ReferenceIdeal.Line.ops0.take 29) VR (Proc.devRef .tc Cert.ReferenceIdeal.main_v17) :=
  keep17R _

/-- Entry (n, k) of plane 3's result in the two whole programs, from launch contents that agree on the points, the
    box and the plane's table. -/
theorem entry_eq (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg5) = VK (Proc.devRef .tc Cert.KernelIdeal.main_arg5))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v465) : (⟨2, ![524288, 32]⟩ : Shape).Idx → EReal) (ix2 n k)
      = (StableHlo.after Cert.ReferenceIdeal.Line.ops VR (Proc.devRef .tc Cert.ReferenceIdeal.main_v510) : (⟨2, ![524288, 32]⟩ : Shape).Idx → EReal) (ix2 n k) := by
  rw [splitK VK, splitR VR]
  exact Plane3.entry_eq (preK VK) (preR VR)
    (fun i => congrFun ((pre17R VR).trans ((p17_eq VK VR ha0 ha1).trans (pre17K VK).symm)) i)
    (fun j => congrFun ((preArgR VR).trans (hg.trans (preArgK VK).symm)) j)
    (preTab0 VR) (preTab1 VR) n k

/-- The launch's input window 3 is the plane's result buffer. -/
theorem bridge (W : Valuation Cert.KernelIdeal.τ Cert.KernelIdeal.sig (Elt Ideal)) :
    (W (Proc.devRef .tc (Pipeline.arrRef Cert.KernelIdeal.spec0 (3 : Fin 10))) : (⟨2, ![524288, 32]⟩ : Shape).Idx → EReal)
      = W (Proc.devRef .tc Cert.KernelIdeal.main_v465) := rfl

/-- The same entry-by-entry equality, the kernel program's side read at the launch's input window 3. -/
theorem entry_eq_win (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg5) = VK (Proc.devRef .tc Cert.KernelIdeal.main_arg5))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc (Pipeline.arrRef Cert.KernelIdeal.spec0 (3 : Fin 10))) : (⟨2, ![524288, 32]⟩ : Shape).Idx → EReal) (ix2 n k)
      = (StableHlo.after Cert.ReferenceIdeal.Line.ops VR (Proc.devRef .tc Cert.ReferenceIdeal.main_v510) : (⟨2, ![524288, 32]⟩ : Shape).Idx → EReal) (ix2 n k) :=
  (congrFun (bridge (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK)) (ix2 n k)).trans (entry_eq VK VR ha0 ha1 hg n k)

end Cert.Tri.Glue3

end
-- ==== Proof.Plane4.lean ====
/-
  Plane 4 (a 256 by 256 grid of 32 channels): the kernel's program and the reference compute its
  bilinear look-up by the same arithmetic on every point; they differ in where the channel axis sits (the kernel
  transposes the table once and looks it up with the channels last, the reference looks it up with the channels first
  and transposes the result) and in how the two coordinate columns are taken out of the points.  Entry by entry the
  two results are the same number.
-/
import proofs.«168354_j73564199846375_2_alg».proof.Proof.Gen.KernelIdeal.Launch
import proofs.«168354_j73564199846375_2_alg».proof.Proof.RefRun
import proofs.«168354_j73564199846375_2_alg».proof.Proof.LibLayoutIx
import proofs.«168354_j73564199846375_2_alg».proof.Proof.LibGatherIx
import proofs.«168354_j73564199846375_2_alg».proof.Proof.TriLemmas

noncomputable section

namespace Cert.Tri.Plane4

open Idealize.ShloMosaic Idealize.ShloMosaic.TcCoe Idealize.SL.Sem Idealize.ShloMosaic.StableHlo Idealize.ShloMosaic.ValueIdx
open Idealize.ShloMosaic.LayoutIx Idealize.ShloMosaic.GatherIx

/-- The kernel program's host operations that compute this plane. -/
def kernelOps [Cert.KernelIdeal.Facts] : List (HloOp Cert.KernelIdeal.τ Cert.KernelIdeal.sig (Elt Ideal)) :=
  (List.flatten [Cert.KernelIdeal.Gen.hostOps0_16, Cert.KernelIdeal.Gen.hostOps0_17, Cert.KernelIdeal.Gen.hostOps0_18, Cert.KernelIdeal.Gen.hostOps0_19, Cert.KernelIdeal.Gen.hostOps0_20])

/-- The reference's host operations that compute this plane. -/
def referenceOps [Cert.ReferenceIdeal.Facts] : List (HloOp Cert.ReferenceIdeal.τ Cert.ReferenceIdeal.sig (Elt Ideal)) :=
  (Cert.ReferenceIdeal.Line.ops11 ++ (Cert.ReferenceIdeal.Line.ops12 ++ (Cert.ReferenceIdeal.Line.ops13)))

/-! The flattening of a coordinate column, with its result's shape written out. -/
theorem K_resh0 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v466 Cert.KernelIdeal.main_v467 rfl hn hx hy).result V (no_index (Proc.devRef .tc Cert.KernelIdeal.main_v467))
      = shapeCast Cert.KernelIdeal.S524288 (V (Proc.devRef .tc Cert.KernelIdeal.main_v466)) hn :=
  reshape_result' (x := Cert.KernelIdeal.main_v466) (y := Cert.KernelIdeal.main_v467) rfl hn hx hy V
theorem K_resh1 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v468 Cert.KernelIdeal.main_v469 rfl hn hx hy).result V (no_index (Proc.devRef .tc Cert.KernelIdeal.main_v469))
      = shapeCast Cert.KernelIdeal.S524288 (V (Proc.devRef .tc Cert.KernelIdeal.main_v468)) hn :=
  reshape_result' (x := Cert.KernelIdeal.main_v468) (y := Cert.KernelIdeal.main_v469) rfl hn hx hy V
theorem K_resh2 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v578 Cert.KernelIdeal.main_v579 rfl hn hx hy).result V (no_index (Proc.devRef .tc Cert.KernelIdeal.main_v579))
      = shapeCast Cert.KernelIdeal.S524288 (V (Proc.devRef .tc Cert.KernelIdeal.main_v578)) hn :=
  reshape_result' (x := Cert.KernelIdeal.main_v578) (y := Cert.KernelIdeal.main_v579) rfl hn hx hy V
theorem K_resh3 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v580 Cert.KernelIdeal.main_v581 rfl hn hx hy).result V (no_index (Proc.devRef .tc Cert.KernelIdeal.main_v581))
      = shapeCast Cert.KernelIdeal.S524288 (V (Proc.devRef .tc Cert.KernelIdeal.main_v580)) hn :=
  reshape_result' (x := Cert.KernelIdeal.main_v580) (y := Cert.KernelIdeal.main_v581) rfl hn hx hy V
theorem R_resh0 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v518 Cert.ReferenceIdeal.main_v519 rfl hn hx hy).result V (no_index (Proc.devRef .tc Cert.ReferenceIdeal.main_v519))
      = shapeCast Cert.ReferenceIdeal.S524288 (V (Proc.devRef .tc Cert.ReferenceIdeal.main_v518)) hn :=
  reshape_result' (x := Cert.ReferenceIdeal.main_v518) (y := Cert.ReferenceIdeal.main_v519) rfl hn hx hy V
theorem R_resh1 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v527 Cert.ReferenceIdeal.main_v528 rfl hn hx hy).result V (no_index (Proc.devRef .tc Cert.ReferenceIdeal.main_v528))
      = shapeCast Cert.ReferenceIdeal.S524288 (V (Proc.devRef .tc Cert.ReferenceIdeal.main_v527)) hn :=
  reshape_result' (x := Cert.ReferenceIdeal.main_v527) (y := Cert.ReferenceIdeal.main_v528) rfl hn hx hy V
theorem R_resh2 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v641 Cert.ReferenceIdeal.main_v642 rfl hn hx hy).result V (no_index (Proc.devRef .tc Cert.ReferenceIdeal.main_v642))
      = shapeCast Cert.ReferenceIdeal.S524288 (V (Proc.devRef .tc Cert.ReferenceIdeal.main_v641)) hn :=
  reshape_result' (x := Cert.ReferenceIdeal.main_v641) (y := Cert.ReferenceIdeal.main_v642) rfl hn hx hy V

set_option maxHeartbeats 40000000 in
set_option maxRecDepth 1000000 in
/-- Entry (n, k) of the plane's result is the same in both programs, from contents that agree on the normalized
    points and on the plane's table, the reference's constant index pair being the two coordinate columns' positions. -/
theorem entry_eq [Cert.KernelIdeal.Facts] [Cert.ReferenceIdeal.Facts]
    (WK : Valuation Cert.KernelIdeal.τ Cert.KernelIdeal.sig (Elt Ideal)) (WR : Valuation Cert.ReferenceIdeal.τ Cert.ReferenceIdeal.sig (Elt Ideal))
    (h17 : ∀ i : (⟨2, ![524288, 3]⟩ : Shape).Idx, (WR (Proc.devRef .tc Cert.ReferenceIdeal.main_v17) : (⟨2, ![524288, 3]⟩ : Shape).Idx → EReal) i
      = (WK (Proc.devRef .tc Cert.KernelIdeal.main_v17) : (⟨2, ![524288, 3]⟩ : Shape).Idx → EReal) i)
    (hg : ∀ j : (⟨3, ![32, 256, 256]⟩ : Shape).Idx, (WR (Proc.devRef .tc Cert.ReferenceIdeal.main_arg6) : (⟨3, ![32, 256, 256]⟩ : Shape).Idx → EReal) j
      = (WK (Proc.devRef .tc Cert.KernelIdeal.main_arg6) : (⟨3, ![32, 256, 256]⟩ : Shape).Idx → EReal) j)
    (ht0 : (WR (Proc.devRef .tc Cert.ReferenceIdeal.main_c_3) : Cert.ReferenceIdeal.S2.Idx → BitVec 32) (ix1 (0 : Fin 2)) = 0#32)
    (ht1 : (WR (Proc.devRef .tc Cert.ReferenceIdeal.main_c_3) : Cert.ReferenceIdeal.S2.Idx → BitVec 32) (ix1 (1 : Fin 2)) = 2#32)
    (n : Fin 524288) (k : Fin 32) :
    (StableHlo.after kernelOps WK (Proc.devRef .tc Cert.KernelIdeal.main_v577) : (⟨2, ![524288, 32]⟩ : Shape).Idx → EReal) (ix2 n k)
      = (StableHlo.after referenceOps WR (Proc.devRef .tc Cert.ReferenceIdeal.main_v633) : (⟨2, ![524288, 32]⟩ : Shape).Idx → EReal) (ix2 n k) := by
  unfold kernelOps referenceOps
  simp only [Cert.KernelIdeal.Gen.hostOps0_16, Cert.KernelIdeal.Gen.hostOps0_17, Cert.KernelIdeal.Gen.hostOps0_18, Cert.KernelIdeal.Gen.hostOps0_19, Cert.KernelIdeal.Gen.hostOps0_20, Cert.ReferenceIdeal.Line.ops11, Cert.ReferenceIdeal.Line.ops12, Cert.ReferenceIdeal.Line.ops13, List.drop_succ_cons, List.drop_zero, List.flatten_cons, List.flatten_nil, List.append_nil, List.cons_append, List.nil_append]
  simp (disch := decide) only [after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      addf_apply, mulf_apply, subf_apply, maximumf_apply, minimumf_apply, select_apply, sitofp_apply, constant_apply,
      cmpi_apply, addi_apply, minsi_apply, fptosi_apply, hostFloor_apply, constantI_apply, id_eq,
      bcast_scalar, bcast_col, bcast_row, bcast_rows, bcast_cols, transpose_two', transpose_first_last', flatten_col, concat_cols_left, concat_cols_right,
      Cert.Tri.K_gather_128, Cert.Tri.K_gather_256, Cert.Tri.K_gather_512,
      Cert.Tri.R_gather_128, Cert.Tri.R_gather_256, Cert.Tri.R_gather_512, Cert.Tri.R_takeCols,
      Cert.Tri.slice3_0, Cert.Tri.slice3_1, Cert.Tri.slice3_2, Cert.Tri.slice2_0, Cert.Tri.slice2_1,
      K_resh0, K_resh1, K_resh2, K_resh3, R_resh0, R_resh1, R_resh2]
  simp only [ht0, ht1]
  simp only [h17, hg]
  rfl

end Cert.Tri.Plane4

end
-- ==== Proof.Glue4.lean ====
/-
  Plane 4 inside the whole programs: the operations after the plane's own leave its result where it is, and the
  operations before it leave the normalized points, the plane's table and the reference's constant index pair as the
  first operations made them; so the plane's entry-by-entry equality holds of the two whole programs' folds.
-/
import proofs.«168354_j73564199846375_2_alg».proof.Proof.Plane4
import proofs.«168354_j73564199846375_2_alg».proof.Proof.P17
import Idealize.ShloMosaic.Lib.Pipeline.Frame

noncomputable section

namespace Cert.Tri.Glue4

open Idealize.ShloMosaic Idealize.ShloMosaic.TcCoe Idealize.SL.Sem Idealize.ShloMosaic.StableHlo Idealize.ShloMosaic.ValueIdx

variable [Cert.KernelIdeal.Facts] [Cert.ReferenceIdeal.Facts]

/-- The kernel program's contents when the plane's operations begin. -/
def preK (VK : Valuation Cert.KernelIdeal.τ Cert.KernelIdeal.sig (Elt Ideal)) : Valuation Cert.KernelIdeal.τ Cert.KernelIdeal.sig (Elt Ideal) :=
  StableHlo.after Cert.KernelIdeal.Gen.hostOps0_15 (StableHlo.after Cert.KernelIdeal.Gen.hostOps0_14 (StableHlo.after Cert.KernelIdeal.Gen.hostOps0_13 (StableHlo.after Cert.KernelIdeal.Gen.hostOps0_12 (StableHlo.after Cert.KernelIdeal.Gen.hostOps0_11 (StableHlo.after Cert.KernelIdeal.Gen.hostOps0_10 (StableHlo.after Cert.KernelIdeal.Gen.hostOps0_9 (StableHlo.after Cert.KernelIdeal.Gen.hostOps0_8 (StableHlo.after Cert.KernelIdeal.Gen.hostOps0_7 (StableHlo.after Cert.KernelIdeal.Gen.hostOps0_6 (StableHlo.after Cert.KernelIdeal.Gen.hostOps0_5 (StableHlo.after Cert.KernelIdeal.Gen.hostOps0_4 (StableHlo.after Cert.KernelIdeal.Gen.hostOps0_3 (StableHlo.after Cert.KernelIdeal.Gen.hostOps0_2 (StableHlo.after Cert.KernelIdeal.Gen.hostOps0_1 (StableHlo.after (Cert.KernelIdeal.Gen.hostOps0.drop 20) (StableHlo.after (Cert.KernelIdeal.Gen.hostOps0.take 20) VK))))))))))))))))

/-- The reference's contents when the plane's operations begin. -/
def preR (VR : Valuation Cert.ReferenceIdeal.τ Cert.ReferenceIdeal.sig (Elt Ideal)) : Valuation Cert.ReferenceIdeal.τ Cert.ReferenceIdeal.sig (Elt Ideal) :=
  StableHlo.after Cert.ReferenceIdeal.Line.ops10 (StableHlo.after Cert.ReferenceIdeal.Line.ops9 (StableHlo.after Cert.ReferenceIdeal.Line.ops8 (StableHlo.after Cert.ReferenceIdeal.Line.ops7 (StableHlo.after Cert.ReferenceIdeal.Line.ops6 (StableHlo.after Cert.ReferenceIdeal.Line.ops5 (StableHlo.after Cert.ReferenceIdeal.Line.ops4 (StableHlo.after Cert.ReferenceIdeal.Line.ops3 (StableHlo.after Cert.ReferenceIdeal.Line.ops2 (StableHlo.after Cert.ReferenceIdeal.Line.ops1 (StableHlo.after (Cert.ReferenceIdeal.Line.ops0.drop 29) (StableHlo.after (Cert.ReferenceIdeal.Line.ops0.take 29) VR)))))))))))

set_option maxRecDepth 1000000 in
set_option maxHeartbeats 4000000 in
theorem keepK (W : Valuation Cert.KernelIdeal.τ Cert.KernelIdeal.sig (Elt Ideal)) :
    StableHlo.after Cert.KernelIdeal.Gen.hostOps0_36 (StableHlo.after Cert.KernelIdeal.Gen.hostOps0_35 (StableHlo.after Cert.KernelIdeal.Gen.hostOps0_34 (StableHlo.after Cert.KernelIdeal.Gen.hostOps0_33 (StableHlo.after Cert.KernelIdeal.Gen.hostOps0_32 (StableHlo.after Cert.KernelIdeal.Gen.hostOps0_31 (StableHlo.after Cert.KernelIdeal.Gen.hostOps0_30 (StableHlo.after Cert.KernelIdeal.Gen.hostOps0_29 (StableHlo.after Cert.KernelIdeal.Gen.hostOps0_28 (StableHlo.after Cert.KernelIdeal.Gen.hostOps0_27 (StableHlo.after Cert.KernelIdeal.Gen.hostOps0_26 (StableHlo.after Cert.KernelIdeal.Gen.hostOps0_25 (StableHlo.after Cert.KernelIdeal.Gen.hostOps0_24 (StableHlo.after Cert.KernelIdeal.Gen.hostOps0_23 (StableHlo.after Cert.KernelIdeal.Gen.hostOps0_22 (StableHlo.after Cert.KernelIdeal.Gen.hostOps0_21 (W)))))))))))))))) (Proc.devRef .tc Cert.KernelIdeal.main_v577) = W (Proc.devRef .tc Cert.KernelIdeal.main_v577) := rfl

set_option maxRecDepth 1000000 in
set_option maxHeartbeats 4000000 in
theorem keepR (W : Valuation Cert.ReferenceIdeal.τ Cert.ReferenceIdeal.sig (Elt Ideal)) :
    StableHlo.after Cert.ReferenceIdeal.Line.ops24 (StableHlo.after Cert.ReferenceIdeal.Line.ops23 (StableHlo.after Cert.ReferenceIdeal.Line.ops22 (StableHlo.after Cert.ReferenceIdeal.Line.ops21 (StableHlo.after Cert.ReferenceIdeal.Line.ops20 (StableHlo.after Cert.ReferenceIdeal.Line.ops19 (StableHlo.after Cert.ReferenceIdeal.Line.ops18 (StableHlo.after Cert.ReferenceIdeal.Line.ops17 (StableHlo.after Cert.ReferenceIdeal.Line.ops16 (StableHlo.after Cert.ReferenceIdeal.Line.ops15 (StableHlo.after Cert.ReferenceIdeal.Line.ops14 (W))))))))))) (Proc.devRef .tc Cert.ReferenceIdeal.main_v633) = W (Proc.devRef .tc Cert.ReferenceIdeal.main_v633) := rfl

set_option maxRecDepth 1000000 in
set_option maxHeartbeats 4000000 in
theorem keep17K (W : Valuation Cert.KernelIdeal.τ Cert.KernelIdeal.sig (Elt Ideal)) :
    StableHlo.after Cert.KernelIdeal.Gen.hostOps0_15 (StableHlo.after Cert.KernelIdeal.Gen.hostOps0_14 (StableHlo.after Cert.KernelIdeal.Gen.hostOps0_13 (StableHlo.after Cert.KernelIdeal.Gen.hostOps0_12 (StableHlo.after Cert.KernelIdeal.Gen.hostOps0_11 (StableHlo.after Cert.KernelIdeal.Gen.hostOps0_10 (StableHlo.after Cert.KernelIdeal.Gen.hostOps0_9 (StableHlo.after Cert.KernelIdeal.Gen.hostOps0_8 (StableHlo.after Cert.KernelIdeal.Gen.hostOps0_7 (StableHlo.after Cert.KernelIdeal.Gen.hostOps0_6 (StableHlo.after Cert.KernelIdeal.Gen.hostOps0_5 (StableHlo.after Cert.KernelIdeal.Gen.hostOps0_4 (StableHlo.after Cert.KernelIdeal.Gen.hostOps0_3 (StableHlo.after Cert.KernelIdeal.Gen.hostOps0_2 (StableHlo.after Cert.KernelIdeal.Gen.hostOps0_1 (StableHlo.after (Cert.KernelIdeal.Gen.hostOps0.drop 20) (W)))))))))))))))) (Proc.devRef .tc Cert.KernelIdeal.main_v17) = W (Proc.devRef .tc Cert.KernelIdeal.main_v17) := rfl

set_option maxRecDepth 1000000 in
set_option maxHeartbeats 4000000 in
theorem keep17R (W : Valuation Cert.ReferenceIdeal.τ Cert.ReferenceIdeal.sig (Elt Ideal)) :
    StableHlo.after Cert.ReferenceIdeal.Line.ops10 (StableHlo.after Cert.ReferenceIdeal.Line.ops9 (StableHlo.after Cert.ReferenceIdeal.Line.ops8 (StableHlo.after Cert.ReferenceIdeal.Line.ops7 (StableHlo.after Cert.ReferenceIdeal.Line.ops6 (StableHlo.after Cert.ReferenceIdeal.Line.ops5 (StableHlo.after Cert.ReferenceIdeal.Line.ops4 (StableHlo.after Cert.ReferenceIdeal.Line.ops3 (StableHlo.after Cert.ReferenceIdeal.Line.ops2 (StableHlo.after Cert.ReferenceIdeal.Line.ops1 (StableHlo.after (Cert.ReferenceIdeal.Line.ops0.drop 29) (W))))))))))) (Proc.devRef .tc Cert.ReferenceIdeal.main_v17) = W (Proc.devRef .tc Cert.ReferenceIdeal.main_v17) := rfl

set_option maxRecDepth 1000000 in
set_option maxHeartbeats 4000000 in
theorem preArgK (VK : Valuation Cert.KernelIdeal.τ Cert.KernelIdeal.sig (Elt Ideal)) :
    preK VK (Proc.devRef .tc Cert.KernelIdeal.main_arg6) = VK (Proc.devRef .tc Cert.KernelIdeal.main_arg6) := rfl

set_option maxRecDepth 1000000 in
set_option maxHeartbeats 4000000 in
theorem preArgR (VR : Valuation Cert.ReferenceIdeal.τ Cert.ReferenceIdeal.sig (Elt Ideal)) :
    preR VR (Proc.devRef .tc Cert.ReferenceIdeal.main_arg6) = VR (Proc.devRef .tc Cert.ReferenceIdeal.main_arg6) := rfl

set_option maxRecDepth 1000000 in
set_option maxHeartbeats 4000000 in
theorem preTab0 (VR : Valuation Cert.ReferenceIdeal.τ Cert.ReferenceIdeal.sig (Elt Ideal)) :
    (preR VR (Proc.devRef .tc Cert.ReferenceIdeal.main_c_3) : Cert.ReferenceIdeal.S2.Idx → BitVec 32) (ix1 (0 : Fin 2)) = 0#32 := rfl

set_option maxRecDepth 1000000 in
set_option maxHeartbeats 4000000 in
theorem preTab1 (VR : Valuation Cert.ReferenceIdeal.τ Cert.ReferenceIdeal.sig (Elt Ideal)) :
    (preR VR (Proc.devRef .tc Cert.ReferenceIdeal.main_c_3) : Cert.ReferenceIdeal.S2.Idx → BitVec 32) (ix1 (1 : Fin 2)) = 2#32 := rfl

theorem splitK0 (VK : Valuation Cert.KernelIdeal.τ Cert.KernelIdeal.sig (Elt Ideal)) :
    StableHlo.after Cert.KernelIdeal.Gen.hostOps0 VK = StableHlo.after (Cert.KernelIdeal.Gen.hostOps0.drop 20) (StableHlo.after (Cert.KernelIdeal.Gen.hostOps0.take 20) VK) := by
  rw [← StableHlo.after_append, List.take_append_drop]

theorem splitR0 (VR : Valuation Cert.ReferenceIdeal.τ Cert.ReferenceIdeal.sig (Elt Ideal)) :
    StableHlo.after Cert.ReferenceIdeal.Line.ops0 VR = StableHlo.after (Cert.ReferenceIdeal.Line.ops0.drop 29) (StableHlo.after (Cert.ReferenceIdeal.Line.ops0.take 29) VR) := by
  rw [← StableHlo.after_append, List.take_append_drop]

set_option maxHeartbeats 4000000 in
theorem splitK (VK : Valuation Cert.KernelIdeal.τ Cert.KernelIdeal.sig (Elt Ideal)) :
    StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v577)
      = StableHlo.after Plane4.kernelOps (preK VK) (Proc.devRef .tc Cert.KernelIdeal.main_v577) := by
  have e : StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK = StableHlo.after Cert.KernelIdeal.Gen.hostOps0_36 (StableHlo.after Cert.KernelIdeal.Gen.hostOps0_35 (StableHlo.after Cert.KernelIdeal.Gen.hostOps0_34 (StableHlo.after Cert.KernelIdeal.Gen.hostOps0_33 (StableHlo.after Cert.KernelIdeal.Gen.hostOps0_32 (StableHlo.after Cert.KernelIdeal.Gen.hostOps0_31 (StableHlo.after Cert.KernelIdeal.Gen.hostOps0_30 (StableHlo.after Cert.KernelIdeal.Gen.hostOps0_29 (StableHlo.after Cert.KernelIdeal.Gen.hostOps0_28 (StableHlo.after Cert.KernelIdeal.Gen.hostOps0_27 (StableHlo.after Cert.KernelIdeal.Gen.hostOps0_26 (StableHlo.after Cert.KernelIdeal.Gen.hostOps0_25 (StableHlo.after Cert.KernelIdeal.Gen.hostOps0_24 (StableHlo.after Cert.KernelIdeal.Gen.hostOps0_23 (StableHlo.after Cert.KernelIdeal.Gen.hostOps0_22 (StableHlo.after Cert.KernelIdeal.Gen.hostOps0_21 (StableHlo.after Plane4.kernelOps (preK VK))))))))))))))))) := by
    unfold Plane4.kernelOps preK
    simp only [List.flatten_cons, List.flatten_nil, List.append_nil, StableHlo.after_append, splitK0]
  rw [e]
  exact keepK _

set_option maxHeartbeats 4000000 in
theorem splitR (VR : Valuation Cert.ReferenceIdeal.τ Cert.ReferenceIdeal.sig (Elt Ideal)) :
    StableHlo.after Cert.ReferenceIdeal.Line.ops VR (Proc.devRef .tc Cert.ReferenceIdeal.main_v633)
      = StableHlo.after Plane4.referenceOps (preR VR) (Proc.devRef .tc Cert.ReferenceIdeal.main_v633) := by
  have e : StableHlo.after Cert.ReferenceIdeal.Line.ops VR = StableHlo.after Cert.ReferenceIdeal.Line.ops24 (StableHlo.after Cert.ReferenceIdeal.Line.ops23 (StableHlo.after Cert.ReferenceIdeal.Line.ops22 (StableHlo.after Cert.ReferenceIdeal.Line.ops21 (StableHlo.after Cert.ReferenceIdeal.Line.ops20 (StableHlo.after Cert.ReferenceIdeal.Line.ops19 (StableHlo.after Cert.ReferenceIdeal.Line.ops18 (StableHlo.after Cert.ReferenceIdeal.Line.ops17 (StableHlo.after Cert.ReferenceIdeal.Line.ops16 (StableHlo.after Cert.ReferenceIdeal.Line.ops15 (StableHlo.after Cert.ReferenceIdeal.Line.ops14 (StableHlo.after Plane4.referenceOps (preR VR)))))))))))) := by
    unfold Cert.ReferenceIdeal.Line.ops Plane4.referenceOps preR
    simp only [StableHlo.after_append, splitR0]
  rw [e]
  exact keepR _

theorem pre17K (VK : Valuation Cert.KernelIdeal.τ Cert.KernelIdeal.sig (Elt Ideal)) :
    preK VK (Proc.devRef .tc Cert.KernelIdeal.main_v17) = StableHlo.after (Cert.KernelIdeal.Gen.hostOps0.take 20) VK (Proc.devRef .tc Cert.KernelIdeal.main_v17) :=
  keep17K _

theorem pre17R (VR : Valuation Cert.ReferenceIdeal.τ Cert.ReferenceIdeal.sig (Elt Ideal)) :
    preR VR (Proc.devRef .tc Cert.ReferenceIdeal.main_v17) = StableHlo.after (Cert.ReferenceIdeal.Line.ops0.take 29) VR (Proc.devRef .tc Cert.ReferenceIdeal.main_v17) :=
  keep17R _

/-- Entry (n, k) of plane 4's result in the two whole programs, from launch contents that agree on the points, the
    box and the plane's table. -/
theorem entry_eq (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg6) = VK (Proc.devRef .tc Cert.KernelIdeal.main_arg6))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v577) : (⟨2, ![524288, 32]⟩ : Shape).Idx → EReal) (ix2 n k)
      = (StableHlo.after Cert.ReferenceIdeal.Line.ops VR (Proc.devRef .tc Cert.ReferenceIdeal.main_v633) : (⟨2, ![524288, 32]⟩ : Shape).Idx → EReal) (ix2 n k) := by
  rw [splitK VK, splitR VR]
  exact Plane4.entry_eq (preK VK) (preR VR)
    (fun i => congrFun ((pre17R VR).trans ((p17_eq VK VR ha0 ha1).trans (pre17K VK).symm)) i)
    (fun j => congrFun ((preArgR VR).trans (hg.trans (preArgK VK).symm)) j)
    (preTab0 VR) (preTab1 VR) n k

/-- The launch's input window 4 is the plane's result buffer. -/
theorem bridge (W : Valuation Cert.KernelIdeal.τ Cert.KernelIdeal.sig (Elt Ideal)) :
    (W (Proc.devRef .tc (Pipeline.arrRef Cert.KernelIdeal.spec0 (4 : Fin 10))) : (⟨2, ![524288, 32]⟩ : Shape).Idx → EReal)
      = W (Proc.devRef .tc Cert.KernelIdeal.main_v577) := rfl

/-- The same entry-by-entry equality, the kernel program's side read at the launch's input window 4. -/
theorem entry_eq_win (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg6) = VK (Proc.devRef .tc Cert.KernelIdeal.main_arg6))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc (Pipeline.arrRef Cert.KernelIdeal.spec0 (4 : Fin 10))) : (⟨2, ![524288, 32]⟩ : Shape).Idx → EReal) (ix2 n k)
      = (StableHlo.after Cert.ReferenceIdeal.Line.ops VR (Proc.devRef .tc Cert.ReferenceIdeal.main_v633) : (⟨2, ![524288, 32]⟩ : Shape).Idx → EReal) (ix2 n k) :=
  (congrFun (bridge (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK)) (ix2 n k)).trans (entry_eq VK VR ha0 ha1 hg n k)

end Cert.Tri.Glue4

end
-- ==== Proof.Plane5.lean ====
/-
  Plane 5 (a 256 by 256 grid of 32 channels): the kernel's program and the reference compute its
  bilinear look-up by the same arithmetic on every point; they differ in where the channel axis sits (the kernel
  transposes the table once and looks it up with the channels last, the reference looks it up with the channels first
  and transposes the result) and in how the two coordinate columns are taken out of the points.  Entry by entry the
  two results are the same number.
-/
import proofs.«168354_j73564199846375_2_alg».proof.Proof.Gen.KernelIdeal.Launch
import proofs.«168354_j73564199846375_2_alg».proof.Proof.RefRun
import proofs.«168354_j73564199846375_2_alg».proof.Proof.LibLayoutIx
import proofs.«168354_j73564199846375_2_alg».proof.Proof.LibGatherIx
import proofs.«168354_j73564199846375_2_alg».proof.Proof.TriLemmas

noncomputable section

namespace Cert.Tri.Plane5

open Idealize.ShloMosaic Idealize.ShloMosaic.TcCoe Idealize.SL.Sem Idealize.ShloMosaic.StableHlo Idealize.ShloMosaic.ValueIdx
open Idealize.ShloMosaic.LayoutIx Idealize.ShloMosaic.GatherIx

/-- The kernel program's host operations that compute this plane. -/
def kernelOps [Cert.KernelIdeal.Facts] : List (HloOp Cert.KernelIdeal.τ Cert.KernelIdeal.sig (Elt Ideal)) :=
  (List.flatten [Cert.KernelIdeal.Gen.hostOps0_20, Cert.KernelIdeal.Gen.hostOps0_21, Cert.KernelIdeal.Gen.hostOps0_22, Cert.KernelIdeal.Gen.hostOps0_23, Cert.KernelIdeal.Gen.hostOps0_24])

/-- The reference's host operations that compute this plane. -/
def referenceOps [Cert.ReferenceIdeal.Facts] : List (HloOp Cert.ReferenceIdeal.τ Cert.ReferenceIdeal.sig (Elt Ideal)) :=
  (Cert.ReferenceIdeal.Line.ops13 ++ (Cert.ReferenceIdeal.Line.ops14 ++ (Cert.ReferenceIdeal.Line.ops15 ++ (Cert.ReferenceIdeal.Line.ops16))))

/-! The flattening of a coordinate column, with its result's shape written out. -/
theorem K_resh0 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v578 Cert.KernelIdeal.main_v579 rfl hn hx hy).result V (no_index (Proc.devRef .tc Cert.KernelIdeal.main_v579))
      = shapeCast Cert.KernelIdeal.S524288 (V (Proc.devRef .tc Cert.KernelIdeal.main_v578)) hn :=
  reshape_result' (x := Cert.KernelIdeal.main_v578) (y := Cert.KernelIdeal.main_v579) rfl hn hx hy V
theorem K_resh1 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v580 Cert.KernelIdeal.main_v581 rfl hn hx hy).result V (no_index (Proc.devRef .tc Cert.KernelIdeal.main_v581))
      = shapeCast Cert.KernelIdeal.S524288 (V (Proc.devRef .tc Cert.KernelIdeal.main_v580)) hn :=
  reshape_result' (x := Cert.KernelIdeal.main_v580) (y := Cert.KernelIdeal.main_v581) rfl hn hx hy V
theorem K_resh2 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v690 Cert.KernelIdeal.main_v691 rfl hn hx hy).result V (no_index (Proc.devRef .tc Cert.KernelIdeal.main_v691))
      = shapeCast Cert.KernelIdeal.S524288 (V (Proc.devRef .tc Cert.KernelIdeal.main_v690)) hn :=
  reshape_result' (x := Cert.KernelIdeal.main_v690) (y := Cert.KernelIdeal.main_v691) rfl hn hx hy V
theorem K_resh3 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v692 Cert.KernelIdeal.main_v693 rfl hn hx hy).result V (no_index (Proc.devRef .tc Cert.KernelIdeal.main_v693))
      = shapeCast Cert.KernelIdeal.S524288 (V (Proc.devRef .tc Cert.KernelIdeal.main_v692)) hn :=
  reshape_result' (x := Cert.KernelIdeal.main_v692) (y := Cert.KernelIdeal.main_v693) rfl hn hx hy V
theorem R_resh0 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v641 Cert.ReferenceIdeal.main_v642 rfl hn hx hy).result V (no_index (Proc.devRef .tc Cert.ReferenceIdeal.main_v642))
      = shapeCast Cert.ReferenceIdeal.S524288 (V (Proc.devRef .tc Cert.ReferenceIdeal.main_v641)) hn :=
  reshape_result' (x := Cert.ReferenceIdeal.main_v641) (y := Cert.ReferenceIdeal.main_v642) rfl hn hx hy V
theorem R_resh1 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v650 Cert.ReferenceIdeal.main_v651 rfl hn hx hy).result V (no_index (Proc.devRef .tc Cert.ReferenceIdeal.main_v651))
      = shapeCast Cert.ReferenceIdeal.S524288 (V (Proc.devRef .tc Cert.ReferenceIdeal.main_v650)) hn :=
  reshape_result' (x := Cert.ReferenceIdeal.main_v650) (y := Cert.ReferenceIdeal.main_v651) rfl hn hx hy V
theorem R_resh2 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v765 Cert.ReferenceIdeal.main_v766 rfl hn hx hy).result V (no_index (Proc.devRef .tc Cert.ReferenceIdeal.main_v766))
      = shapeCast Cert.ReferenceIdeal.S524288 (V (Proc.devRef .tc Cert.ReferenceIdeal.main_v765)) hn :=
  reshape_result' (x := Cert.ReferenceIdeal.main_v765) (y := Cert.ReferenceIdeal.main_v766) rfl hn hx hy V
theorem R_resh3 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v774 Cert.ReferenceIdeal.main_v775 rfl hn hx hy).result V (no_index (Proc.devRef .tc Cert.ReferenceIdeal.main_v775))
      = shapeCast Cert.ReferenceIdeal.S524288 (V (Proc.devRef .tc Cert.ReferenceIdeal.main_v774)) hn :=
  reshape_result' (x := Cert.ReferenceIdeal.main_v774) (y := Cert.ReferenceIdeal.main_v775) rfl hn hx hy V

set_option maxHeartbeats 40000000 in
set_option maxRecDepth 1000000 in
/-- Entry (n, k) of the plane's result is the same in both programs, from contents that agree on the normalized
    points and on the plane's table, the reference's constant index pair being the two coordinate columns' positions. -/
theorem entry_eq [Cert.KernelIdeal.Facts] [Cert.ReferenceIdeal.Facts]
    (WK : Valuation Cert.KernelIdeal.τ Cert.KernelIdeal.sig (Elt Ideal)) (WR : Valuation Cert.ReferenceIdeal.τ Cert.ReferenceIdeal.sig (Elt Ideal))
    (h17 : ∀ i : (⟨2, ![524288, 3]⟩ : Shape).Idx, (WR (Proc.devRef .tc Cert.ReferenceIdeal.main_v17) : (⟨2, ![524288, 3]⟩ : Shape).Idx → EReal) i
      = (WK (Proc.devRef .tc Cert.KernelIdeal.main_v17) : (⟨2, ![524288, 3]⟩ : Shape).Idx → EReal) i)
    (hg : ∀ j : (⟨3, ![32, 256, 256]⟩ : Shape).Idx, (WR (Proc.devRef .tc Cert.ReferenceIdeal.main_arg7) : (⟨3, ![32, 256, 256]⟩ : Shape).Idx → EReal) j
      = (WK (Proc.devRef .tc Cert.KernelIdeal.main_arg7) : (⟨3, ![32, 256, 256]⟩ : Shape).Idx → EReal) j)
    (ht0 : (WR (Proc.devRef .tc Cert.ReferenceIdeal.main_c_4) : Cert.ReferenceIdeal.S2.Idx → BitVec 32) (ix1 (0 : Fin 2)) = 1#32)
    (ht1 : (WR (Proc.devRef .tc Cert.ReferenceIdeal.main_c_4) : Cert.ReferenceIdeal.S2.Idx → BitVec 32) (ix1 (1 : Fin 2)) = 2#32)
    (n : Fin 524288) (k : Fin 32) :
    (StableHlo.after kernelOps WK (Proc.devRef .tc Cert.KernelIdeal.main_v689) : (⟨2, ![524288, 32]⟩ : Shape).Idx → EReal) (ix2 n k)
      = (StableHlo.after referenceOps WR (Proc.devRef .tc Cert.ReferenceIdeal.main_v756) : (⟨2, ![524288, 32]⟩ : Shape).Idx → EReal) (ix2 n k) := by
  unfold kernelOps referenceOps
  simp only [Cert.KernelIdeal.Gen.hostOps0_20, Cert.KernelIdeal.Gen.hostOps0_21, Cert.KernelIdeal.Gen.hostOps0_22, Cert.KernelIdeal.Gen.hostOps0_23, Cert.KernelIdeal.Gen.hostOps0_24, Cert.ReferenceIdeal.Line.ops13, Cert.ReferenceIdeal.Line.ops14, Cert.ReferenceIdeal.Line.ops15, Cert.ReferenceIdeal.Line.ops16, List.drop_succ_cons, List.drop_zero, List.flatten_cons, List.flatten_nil, List.append_nil, List.cons_append, List.nil_append]
  simp (disch := decide) only [after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      addf_apply, mulf_apply, subf_apply, maximumf_apply, minimumf_apply, select_apply, sitofp_apply, constant_apply,
      cmpi_apply, addi_apply, minsi_apply, fptosi_apply, hostFloor_apply, constantI_apply, id_eq,
      bcast_scalar, bcast_col, bcast_row, bcast_rows, bcast_cols, transpose_two', transpose_first_last', flatten_col, concat_cols_left, concat_cols_right,
      Cert.Tri.K_gather_128, Cert.Tri.K_gather_256, Cert.Tri.K_gather_512,
      Cert.Tri.R_gather_128, Cert.Tri.R_gather_256, Cert.Tri.R_gather_512, Cert.Tri.R_takeCols,
      Cert.Tri.slice3_0, Cert.Tri.slice3_1, Cert.Tri.slice3_2, Cert.Tri.slice2_0, Cert.Tri.slice2_1,
      K_resh0, K_resh1, K_resh2, K_resh3, R_resh0, R_resh1, R_resh2, R_resh3]
  simp only [ht0, ht1]
  simp only [h17, hg]
  rfl

end Cert.Tri.Plane5

end
-- ==== Proof.Glue5.lean ====
/-
  Plane 5 inside the whole programs: the operations after the plane's own leave its result where it is, and the
  operations before it leave the normalized points, the plane's table and the reference's constant index pair as the
  first operations made them; so the plane's entry-by-entry equality holds of the two whole programs' folds.
-/
import proofs.«168354_j73564199846375_2_alg».proof.Proof.Plane5
import proofs.«168354_j73564199846375_2_alg».proof.Proof.P17
import Idealize.ShloMosaic.Lib.Pipeline.Frame

noncomputable section

namespace Cert.Tri.Glue5

open Idealize.ShloMosaic Idealize.ShloMosaic.TcCoe Idealize.SL.Sem Idealize.ShloMosaic.StableHlo Idealize.ShloMosaic.ValueIdx

variable [Cert.KernelIdeal.Facts] [Cert.ReferenceIdeal.Facts]

/-- The kernel program's contents when the plane's operations begin. -/
def preK (VK : Valuation Cert.KernelIdeal.τ Cert.KernelIdeal.sig (Elt Ideal)) : Valuation Cert.KernelIdeal.τ Cert.KernelIdeal.sig (Elt Ideal) :=
  StableHlo.after Cert.KernelIdeal.Gen.hostOps0_19 (StableHlo.after Cert.KernelIdeal.Gen.hostOps0_18 (StableHlo.after Cert.KernelIdeal.Gen.hostOps0_17 (StableHlo.after Cert.KernelIdeal.Gen.hostOps0_16 (StableHlo.after Cert.KernelIdeal.Gen.hostOps0_15 (StableHlo.after Cert.KernelIdeal.Gen.hostOps0_14 (StableHlo.after Cert.KernelIdeal.Gen.hostOps0_13 (StableHlo.after Cert.KernelIdeal.Gen.hostOps0_12 (StableHlo.after Cert.KernelIdeal.Gen.hostOps0_11 (StableHlo.after Cert.KernelIdeal.Gen.hostOps0_10 (StableHlo.after Cert.KernelIdeal.Gen.hostOps0_9 (StableHlo.after Cert.KernelIdeal.Gen.hostOps0_8 (StableHlo.after Cert.KernelIdeal.Gen.hostOps0_7 (StableHlo.after Cert.KernelIdeal.Gen.hostOps0_6 (StableHlo.after Cert.KernelIdeal.Gen.hostOps0_5 (StableHlo.after Cert.KernelIdeal.Gen.hostOps0_4 (StableHlo.after Cert.KernelIdeal.Gen.hostOps0_3 (StableHlo.after Cert.KernelIdeal.Gen.hostOps0_2 (StableHlo.after Cert.KernelIdeal.Gen.hostOps0_1 (StableHlo.after (Cert.KernelIdeal.Gen.hostOps0.drop 20) (StableHlo.after (Cert.KernelIdeal.Gen.hostOps0.take 20) VK))))))))))))))))))))

/-- The reference's contents when the plane's operations begin. -/
def preR (VR : Valuation Cert.ReferenceIdeal.τ Cert.ReferenceIdeal.sig (Elt Ideal)) : Valuation Cert.ReferenceIdeal.τ Cert.ReferenceIdeal.sig (Elt Ideal) :=
  StableHlo.after Cert.ReferenceIdeal.Line.ops12 (StableHlo.after Cert.ReferenceIdeal.Line.ops11 (StableHlo.after Cert.ReferenceIdeal.Line.ops10 (StableHlo.after Cert.ReferenceIdeal.Line.ops9 (StableHlo.after Cert.ReferenceIdeal.Line.ops8 (StableHlo.after Cert.ReferenceIdeal.Line.ops7 (StableHlo.after Cert.ReferenceIdeal.Line.ops6 (StableHlo.after Cert.ReferenceIdeal.Line.ops5 (StableHlo.after Cert.ReferenceIdeal.Line.ops4 (StableHlo.after Cert.ReferenceIdeal.Line.ops3 (StableHlo.after Cert.ReferenceIdeal.Line.ops2 (StableHlo.after Cert.ReferenceIdeal.Line.ops1 (StableHlo.after (Cert.ReferenceIdeal.Line.ops0.drop 29) (StableHlo.after (Cert.ReferenceIdeal.Line.ops0.take 29) VR)))))))))))))

set_option maxRecDepth 1000000 in
set_option maxHeartbeats 4000000 in
theorem keepK (W : Valuation Cert.KernelIdeal.τ Cert.KernelIdeal.sig (Elt Ideal)) :
    StableHlo.after Cert.KernelIdeal.Gen.hostOps0_36 (StableHlo.after Cert.KernelIdeal.Gen.hostOps0_35 (StableHlo.after Cert.KernelIdeal.Gen.hostOps0_34 (StableHlo.after Cert.KernelIdeal.Gen.hostOps0_33 (StableHlo.after Cert.KernelIdeal.Gen.hostOps0_32 (StableHlo.after Cert.KernelIdeal.Gen.hostOps0_31 (StableHlo.after Cert.KernelIdeal.Gen.hostOps0_30 (StableHlo.after Cert.KernelIdeal.Gen.hostOps0_29 (StableHlo.after Cert.KernelIdeal.Gen.hostOps0_28 (StableHlo.after Cert.KernelIdeal.Gen.hostOps0_27 (StableHlo.after Cert.KernelIdeal.Gen.hostOps0_26 (StableHlo.after Cert.KernelIdeal.Gen.hostOps0_25 (W)))))))))))) (Proc.devRef .tc Cert.KernelIdeal.main_v689) = W (Proc.devRef .tc Cert.KernelIdeal.main_v689) := rfl

set_option maxRecDepth 1000000 in
set_option maxHeartbeats 4000000 in
theorem keepR (W : Valuation Cert.ReferenceIdeal.τ Cert.ReferenceIdeal.sig (Elt Ideal)) :
    StableHlo.after Cert.ReferenceIdeal.Line.ops24 (StableHlo.after Cert.ReferenceIdeal.Line.ops23 (StableHlo.after Cert.ReferenceIdeal.Line.ops22 (StableHlo.after Cert.ReferenceIdeal.Line.ops21 (StableHlo.after Cert.ReferenceIdeal.Line.ops20 (StableHlo.after Cert.ReferenceIdeal.Line.ops19 (StableHlo.after Cert.ReferenceIdeal.Line.ops18 (StableHlo.after Cert.ReferenceIdeal.Line.ops17 (W)))))))) (Proc.devRef .tc Cert.ReferenceIdeal.main_v756) = W (Proc.devRef .tc Cert.ReferenceIdeal.main_v756) := rfl

set_option maxRecDepth 1000000 in
set_option maxHeartbeats 4000000 in
theorem keep17K (W : Valuation Cert.KernelIdeal.τ Cert.KernelIdeal.sig (Elt Ideal)) :
    StableHlo.after Cert.KernelIdeal.Gen.hostOps0_19 (StableHlo.after Cert.KernelIdeal.Gen.hostOps0_18 (StableHlo.after Cert.KernelIdeal.Gen.hostOps0_17 (StableHlo.after Cert.KernelIdeal.Gen.hostOps0_16 (StableHlo.after Cert.KernelIdeal.Gen.hostOps0_15 (StableHlo.after Cert.KernelIdeal.Gen.hostOps0_14 (StableHlo.after Cert.KernelIdeal.Gen.hostOps0_13 (StableHlo.after Cert.KernelIdeal.Gen.hostOps0_12 (StableHlo.after Cert.KernelIdeal.Gen.hostOps0_11 (StableHlo.after Cert.KernelIdeal.Gen.hostOps0_10 (StableHlo.after Cert.KernelIdeal.Gen.hostOps0_9 (StableHlo.after Cert.KernelIdeal.Gen.hostOps0_8 (StableHlo.after Cert.KernelIdeal.Gen.hostOps0_7 (StableHlo.after Cert.KernelIdeal.Gen.hostOps0_6 (StableHlo.after Cert.KernelIdeal.Gen.hostOps0_5 (StableHlo.after Cert.KernelIdeal.Gen.hostOps0_4 (StableHlo.after Cert.KernelIdeal.Gen.hostOps0_3 (StableHlo.after Cert.KernelIdeal.Gen.hostOps0_2 (StableHlo.after Cert.KernelIdeal.Gen.hostOps0_1 (StableHlo.after (Cert.KernelIdeal.Gen.hostOps0.drop 20) (W)))))))))))))))))))) (Proc.devRef .tc Cert.KernelIdeal.main_v17) = W (Proc.devRef .tc Cert.KernelIdeal.main_v17) := rfl

set_option maxRecDepth 1000000 in
set_option maxHeartbeats 4000000 in
theorem keep17R (W : Valuation Cert.ReferenceIdeal.τ Cert.ReferenceIdeal.sig (Elt Ideal)) :
    StableHlo.after Cert.ReferenceIdeal.Line.ops12 (StableHlo.after Cert.ReferenceIdeal.Line.ops11 (StableHlo.after Cert.ReferenceIdeal.Line.ops10 (StableHlo.after Cert.ReferenceIdeal.Line.ops9 (StableHlo.after Cert.ReferenceIdeal.Line.ops8 (StableHlo.after Cert.ReferenceIdeal.Line.ops7 (StableHlo.after Cert.ReferenceIdeal.Line.ops6 (StableHlo.after Cert.ReferenceIdeal.Line.ops5 (StableHlo.after Cert.ReferenceIdeal.Line.ops4 (StableHlo.after Cert.ReferenceIdeal.Line.ops3 (StableHlo.after Cert.ReferenceIdeal.Line.ops2 (StableHlo.after Cert.ReferenceIdeal.Line.ops1 (StableHlo.after (Cert.ReferenceIdeal.Line.ops0.drop 29) (W))))))))))))) (Proc.devRef .tc Cert.ReferenceIdeal.main_v17) = W (Proc.devRef .tc Cert.ReferenceIdeal.main_v17) := rfl

set_option maxRecDepth 1000000 in
set_option maxHeartbeats 4000000 in
theorem preArgK (VK : Valuation Cert.KernelIdeal.τ Cert.KernelIdeal.sig (Elt Ideal)) :
    preK VK (Proc.devRef .tc Cert.KernelIdeal.main_arg7) = VK (Proc.devRef .tc Cert.KernelIdeal.main_arg7) := rfl

set_option maxRecDepth 1000000 in
set_option maxHeartbeats 4000000 in
theorem preArgR (VR : Valuation Cert.ReferenceIdeal.τ Cert.ReferenceIdeal.sig (Elt Ideal)) :
    preR VR (Proc.devRef .tc Cert.ReferenceIdeal.main_arg7) = VR (Proc.devRef .tc Cert.ReferenceIdeal.main_arg7) := rfl

set_option maxRecDepth 1000000 in
set_option maxHeartbeats 4000000 in
theorem preTab0 (VR : Valuation Cert.ReferenceIdeal.τ Cert.ReferenceIdeal.sig (Elt Ideal)) :
    (preR VR (Proc.devRef .tc Cert.ReferenceIdeal.main_c_4) : Cert.ReferenceIdeal.S2.Idx → BitVec 32) (ix1 (0 : Fin 2)) = 1#32 := rfl

set_option maxRecDepth 1000000 in
set_option maxHeartbeats 4000000 in
theorem preTab1 (VR : Valuation Cert.ReferenceIdeal.τ Cert.ReferenceIdeal.sig (Elt Ideal)) :
    (preR VR (Proc.devRef .tc Cert.ReferenceIdeal.main_c_4) : Cert.ReferenceIdeal.S2.Idx → BitVec 32) (ix1 (1 : Fin 2)) = 2#32 := rfl

theorem splitK0 (VK : Valuation Cert.KernelIdeal.τ Cert.KernelIdeal.sig (Elt Ideal)) :
    StableHlo.after Cert.KernelIdeal.Gen.hostOps0 VK = StableHlo.after (Cert.KernelIdeal.Gen.hostOps0.drop 20) (StableHlo.after (Cert.KernelIdeal.Gen.hostOps0.take 20) VK) := by
  rw [← StableHlo.after_append, List.take_append_drop]

theorem splitR0 (VR : Valuation Cert.ReferenceIdeal.τ Cert.ReferenceIdeal.sig (Elt Ideal)) :
    StableHlo.after Cert.ReferenceIdeal.Line.ops0 VR = StableHlo.after (Cert.ReferenceIdeal.Line.ops0.drop 29) (StableHlo.after (Cert.ReferenceIdeal.Line.ops0.take 29) VR) := by
  rw [← StableHlo.after_append, List.take_append_drop]

set_option maxHeartbeats 4000000 in
theorem splitK (VK : Valuation Cert.KernelIdeal.τ Cert.KernelIdeal.sig (Elt Ideal)) :
    StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v689)
      = StableHlo.after Plane5.kernelOps (preK VK) (Proc.devRef .tc Cert.KernelIdeal.main_v689) := by
  have e : StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK = StableHlo.after Cert.KernelIdeal.Gen.hostOps0_36 (StableHlo.after Cert.KernelIdeal.Gen.hostOps0_35 (StableHlo.after Cert.KernelIdeal.Gen.hostOps0_34 (StableHlo.after Cert.KernelIdeal.Gen.hostOps0_33 (StableHlo.after Cert.KernelIdeal.Gen.hostOps0_32 (StableHlo.after Cert.KernelIdeal.Gen.hostOps0_31 (StableHlo.after Cert.KernelIdeal.Gen.hostOps0_30 (StableHlo.after Cert.KernelIdeal.Gen.hostOps0_29 (StableHlo.after Cert.KernelIdeal.Gen.hostOps0_28 (StableHlo.after Cert.KernelIdeal.Gen.hostOps0_27 (StableHlo.after Cert.KernelIdeal.Gen.hostOps0_26 (StableHlo.after Cert.KernelIdeal.Gen.hostOps0_25 (StableHlo.after Plane5.kernelOps (preK VK))))))))))))) := by
    unfold Plane5.kernelOps preK
    simp only [List.flatten_cons, List.flatten_nil, List.append_nil, StableHlo.after_append, splitK0]
  rw [e]
  exact keepK _

set_option maxHeartbeats 4000000 in
theorem splitR (VR : Valuation Cert.ReferenceIdeal.τ Cert.ReferenceIdeal.sig (Elt Ideal)) :
    StableHlo.after Cert.ReferenceIdeal.Line.ops VR (Proc.devRef .tc Cert.ReferenceIdeal.main_v756)
      = StableHlo.after Plane5.referenceOps (preR VR) (Proc.devRef .tc Cert.ReferenceIdeal.main_v756) := by
  have e : StableHlo.after Cert.ReferenceIdeal.Line.ops VR = StableHlo.after Cert.ReferenceIdeal.Line.ops24 (StableHlo.after Cert.ReferenceIdeal.Line.ops23 (StableHlo.after Cert.ReferenceIdeal.Line.ops22 (StableHlo.after Cert.ReferenceIdeal.Line.ops21 (StableHlo.after Cert.ReferenceIdeal.Line.ops20 (StableHlo.after Cert.ReferenceIdeal.Line.ops19 (StableHlo.after Cert.ReferenceIdeal.Line.ops18 (StableHlo.after Cert.ReferenceIdeal.Line.ops17 (StableHlo.after Plane5.referenceOps (preR VR))))))))) := by
    unfold Cert.ReferenceIdeal.Line.ops Plane5.referenceOps preR
    simp only [StableHlo.after_append, splitR0]
  rw [e]
  exact keepR _

theorem pre17K (VK : Valuation Cert.KernelIdeal.τ Cert.KernelIdeal.sig (Elt Ideal)) :
    preK VK (Proc.devRef .tc Cert.KernelIdeal.main_v17) = StableHlo.after (Cert.KernelIdeal.Gen.hostOps0.take 20) VK (Proc.devRef .tc Cert.KernelIdeal.main_v17) :=
  keep17K _

theorem pre17R (VR : Valuation Cert.ReferenceIdeal.τ Cert.ReferenceIdeal.sig (Elt Ideal)) :
    preR VR (Proc.devRef .tc Cert.ReferenceIdeal.main_v17) = StableHlo.after (Cert.ReferenceIdeal.Line.ops0.take 29) VR (Proc.devRef .tc Cert.ReferenceIdeal.main_v17) :=
  keep17R _

/-- Entry (n, k) of plane 5's result in the two whole programs, from launch contents that agree on the points, the
    box and the plane's table. -/
theorem entry_eq (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg7) = VK (Proc.devRef .tc Cert.KernelIdeal.main_arg7))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v689) : (⟨2, ![524288, 32]⟩ : Shape).Idx → EReal) (ix2 n k)
      = (StableHlo.after Cert.ReferenceIdeal.Line.ops VR (Proc.devRef .tc Cert.ReferenceIdeal.main_v756) : (⟨2, ![524288, 32]⟩ : Shape).Idx → EReal) (ix2 n k) := by
  rw [splitK VK, splitR VR]
  exact Plane5.entry_eq (preK VK) (preR VR)
    (fun i => congrFun ((pre17R VR).trans ((p17_eq VK VR ha0 ha1).trans (pre17K VK).symm)) i)
    (fun j => congrFun ((preArgR VR).trans (hg.trans (preArgK VK).symm)) j)
    (preTab0 VR) (preTab1 VR) n k

/-- The launch's input window 5 is the plane's result buffer. -/
theorem bridge (W : Valuation Cert.KernelIdeal.τ Cert.KernelIdeal.sig (Elt Ideal)) :
    (W (Proc.devRef .tc (Pipeline.arrRef Cert.KernelIdeal.spec0 (5 : Fin 10))) : (⟨2, ![524288, 32]⟩ : Shape).Idx → EReal)
      = W (Proc.devRef .tc Cert.KernelIdeal.main_v689) := rfl

/-- The same entry-by-entry equality, the kernel program's side read at the launch's input window 5. -/
theorem entry_eq_win (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg7) = VK (Proc.devRef .tc Cert.KernelIdeal.main_arg7))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc (Pipeline.arrRef Cert.KernelIdeal.spec0 (5 : Fin 10))) : (⟨2, ![524288, 32]⟩ : Shape).Idx → EReal) (ix2 n k)
      = (StableHlo.after Cert.ReferenceIdeal.Line.ops VR (Proc.devRef .tc Cert.ReferenceIdeal.main_v756) : (⟨2, ![524288, 32]⟩ : Shape).Idx → EReal) (ix2 n k) :=
  (congrFun (bridge (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK)) (ix2 n k)).trans (entry_eq VK VR ha0 ha1 hg n k)

end Cert.Tri.Glue5

end
-- ==== Proof.Plane6.lean ====
/-
  Plane 6 (a 512 by 512 grid of 32 channels): the kernel's program and the reference compute its
  bilinear look-up by the same arithmetic on every point; they differ in where the channel axis sits (the kernel
  transposes the table once and looks it up with the channels last, the reference looks it up with the channels first
  and transposes the result) and in how the two coordinate columns are taken out of the points.  Entry by entry the
  two results are the same number.
-/
import proofs.«168354_j73564199846375_2_alg».proof.Proof.Gen.KernelIdeal.Launch
import proofs.«168354_j73564199846375_2_alg».proof.Proof.RefRun
import proofs.«168354_j73564199846375_2_alg».proof.Proof.LibLayoutIx
import proofs.«168354_j73564199846375_2_alg».proof.Proof.LibGatherIx
import proofs.«168354_j73564199846375_2_alg».proof.Proof.TriLemmas

noncomputable section

namespace Cert.Tri.Plane6

open Idealize.ShloMosaic Idealize.ShloMosaic.TcCoe Idealize.SL.Sem Idealize.ShloMosaic.StableHlo Idealize.ShloMosaic.ValueIdx
open Idealize.ShloMosaic.LayoutIx Idealize.ShloMosaic.GatherIx

/-- The kernel program's host operations that compute this plane. -/
def kernelOps [Cert.KernelIdeal.Facts] : List (HloOp Cert.KernelIdeal.τ Cert.KernelIdeal.sig (Elt Ideal)) :=
  (List.flatten [Cert.KernelIdeal.Gen.hostOps0_24, Cert.KernelIdeal.Gen.hostOps0_25, Cert.KernelIdeal.Gen.hostOps0_26, Cert.KernelIdeal.Gen.hostOps0_27, Cert.KernelIdeal.Gen.hostOps0_28])

/-- The reference's host operations that compute this plane. -/
def referenceOps [Cert.ReferenceIdeal.Facts] : List (HloOp Cert.ReferenceIdeal.τ Cert.ReferenceIdeal.sig (Elt Ideal)) :=
  (Cert.ReferenceIdeal.Line.ops16 ++ (Cert.ReferenceIdeal.Line.ops17 ++ (Cert.ReferenceIdeal.Line.ops18)))

/-! The flattening of a coordinate column, with its result's shape written out. -/
theorem K_resh0 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v690 Cert.KernelIdeal.main_v691 rfl hn hx hy).result V (no_index (Proc.devRef .tc Cert.KernelIdeal.main_v691))
      = shapeCast Cert.KernelIdeal.S524288 (V (Proc.devRef .tc Cert.KernelIdeal.main_v690)) hn :=
  reshape_result' (x := Cert.KernelIdeal.main_v690) (y := Cert.KernelIdeal.main_v691) rfl hn hx hy V
theorem K_resh1 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v692 Cert.KernelIdeal.main_v693 rfl hn hx hy).result V (no_index (Proc.devRef .tc Cert.KernelIdeal.main_v693))
      = shapeCast Cert.KernelIdeal.S524288 (V (Proc.devRef .tc Cert.KernelIdeal.main_v692)) hn :=
  reshape_result' (x := Cert.KernelIdeal.main_v692) (y := Cert.KernelIdeal.main_v693) rfl hn hx hy V
theorem K_resh2 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v802 Cert.KernelIdeal.main_v803 rfl hn hx hy).result V (no_index (Proc.devRef .tc Cert.KernelIdeal.main_v803))
      = shapeCast Cert.KernelIdeal.S524288 (V (Proc.devRef .tc Cert.KernelIdeal.main_v802)) hn :=
  reshape_result' (x := Cert.KernelIdeal.main_v802) (y := Cert.KernelIdeal.main_v803) rfl hn hx hy V
theorem K_resh3 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v804 Cert.KernelIdeal.main_v805 rfl hn hx hy).result V (no_index (Proc.devRef .tc Cert.KernelIdeal.main_v805))
      = shapeCast Cert.KernelIdeal.S524288 (V (Proc.devRef .tc Cert.KernelIdeal.main_v804)) hn :=
  reshape_result' (x := Cert.KernelIdeal.main_v804) (y := Cert.KernelIdeal.main_v805) rfl hn hx hy V
theorem R_resh0 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v765 Cert.ReferenceIdeal.main_v766 rfl hn hx hy).result V (no_index (Proc.devRef .tc Cert.ReferenceIdeal.main_v766))
      = shapeCast Cert.ReferenceIdeal.S524288 (V (Proc.devRef .tc Cert.ReferenceIdeal.main_v765)) hn :=
  reshape_result' (x := Cert.ReferenceIdeal.main_v765) (y := Cert.ReferenceIdeal.main_v766) rfl hn hx hy V
theorem R_resh1 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v774 Cert.ReferenceIdeal.main_v775 rfl hn hx hy).result V (no_index (Proc.devRef .tc Cert.ReferenceIdeal.main_v775))
      = shapeCast Cert.ReferenceIdeal.S524288 (V (Proc.devRef .tc Cert.ReferenceIdeal.main_v774)) hn :=
  reshape_result' (x := Cert.ReferenceIdeal.main_v774) (y := Cert.ReferenceIdeal.main_v775) rfl hn hx hy V

set_option maxHeartbeats 40000000 in
set_option maxRecDepth 1000000 in
/-- Entry (n, k) of the plane's result is the same in both programs, from contents that agree on the normalized
    points and on the plane's table, the reference's constant index pair being the two coordinate columns' positions. -/
theorem entry_eq [Cert.KernelIdeal.Facts] [Cert.ReferenceIdeal.Facts]
    (WK : Valuation Cert.KernelIdeal.τ Cert.KernelIdeal.sig (Elt Ideal)) (WR : Valuation Cert.ReferenceIdeal.τ Cert.ReferenceIdeal.sig (Elt Ideal))
    (h17 : ∀ i : (⟨2, ![524288, 3]⟩ : Shape).Idx, (WR (Proc.devRef .tc Cert.ReferenceIdeal.main_v17) : (⟨2, ![524288, 3]⟩ : Shape).Idx → EReal) i
      = (WK (Proc.devRef .tc Cert.KernelIdeal.main_v17) : (⟨2, ![524288, 3]⟩ : Shape).Idx → EReal) i)
    (hg : ∀ j : (⟨3, ![32, 512, 512]⟩ : Shape).Idx, (WR (Proc.devRef .tc Cert.ReferenceIdeal.main_arg8) : (⟨3, ![32, 512, 512]⟩ : Shape).Idx → EReal) j
      = (WK (Proc.devRef .tc Cert.KernelIdeal.main_arg8) : (⟨3, ![32, 512, 512]⟩ : Shape).Idx → EReal) j)
    (ht0 : (WR (Proc.devRef .tc Cert.ReferenceIdeal.main_c_5) : Cert.ReferenceIdeal.S2.Idx → BitVec 32) (ix1 (0 : Fin 2)) = 0#32)
    (ht1 : (WR (Proc.devRef .tc Cert.ReferenceIdeal.main_c_5) : Cert.ReferenceIdeal.S2.Idx → BitVec 32) (ix1 (1 : Fin 2)) = 1#32)
    (n : Fin 524288) (k : Fin 32) :
    (StableHlo.after kernelOps WK (Proc.devRef .tc Cert.KernelIdeal.main_v801) : (⟨2, ![524288, 32]⟩ : Shape).Idx → EReal) (ix2 n k)
      = (StableHlo.after referenceOps WR (Proc.devRef .tc Cert.ReferenceIdeal.main_v880) : (⟨2, ![524288, 32]⟩ : Shape).Idx → EReal) (ix2 n k) := by
  unfold kernelOps referenceOps
  simp only [Cert.KernelIdeal.Gen.hostOps0_24, Cert.KernelIdeal.Gen.hostOps0_25, Cert.KernelIdeal.Gen.hostOps0_26, Cert.KernelIdeal.Gen.hostOps0_27, Cert.KernelIdeal.Gen.hostOps0_28, Cert.ReferenceIdeal.Line.ops16, Cert.ReferenceIdeal.Line.ops17, Cert.ReferenceIdeal.Line.ops18, List.drop_succ_cons, List.drop_zero, List.flatten_cons, List.flatten_nil, List.append_nil, List.cons_append, List.nil_append]
  simp (disch := decide) only [after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      addf_apply, mulf_apply, subf_apply, maximumf_apply, minimumf_apply, select_apply, sitofp_apply, constant_apply,
      cmpi_apply, addi_apply, minsi_apply, fptosi_apply, hostFloor_apply, constantI_apply, id_eq,
      bcast_scalar, bcast_col, bcast_row, bcast_rows, bcast_cols, transpose_two', transpose_first_last', flatten_col, concat_cols_left, concat_cols_right,
      Cert.Tri.K_gather_128, Cert.Tri.K_gather_256, Cert.Tri.K_gather_512,
      Cert.Tri.R_gather_128, Cert.Tri.R_gather_256, Cert.Tri.R_gather_512, Cert.Tri.R_takeCols,
      Cert.Tri.slice3_0, Cert.Tri.slice3_1, Cert.Tri.slice3_2, Cert.Tri.slice2_0, Cert.Tri.slice2_1,
      K_resh0, K_resh1, K_resh2, K_resh3, R_resh0, R_resh1]
  simp only [ht0, ht1]
  simp only [h17, hg]
  rfl

end Cert.Tri.Plane6

end
-- ==== Proof.Glue6.lean ====
/-
  Plane 6 inside the whole programs: the operations after the plane's own leave its result where it is, and the
  operations before it leave the normalized points, the plane's table and the reference's constant index pair as the
  first operations made them; so the plane's entry-by-entry equality holds of the two whole programs' folds.
-/
import proofs.«168354_j73564199846375_2_alg».proof.Proof.Plane6
import proofs.«168354_j73564199846375_2_alg».proof.Proof.P17
import Idealize.ShloMosaic.Lib.Pipeline.Frame

noncomputable section

namespace Cert.Tri.Glue6

open Idealize.ShloMosaic Idealize.ShloMosaic.TcCoe Idealize.SL.Sem Idealize.ShloMosaic.StableHlo Idealize.ShloMosaic.ValueIdx

variable [Cert.KernelIdeal.Facts] [Cert.ReferenceIdeal.Facts]

/-- The kernel program's contents when the plane's operations begin. -/
def preK (VK : Valuation Cert.KernelIdeal.τ Cert.KernelIdeal.sig (Elt Ideal)) : Valuation Cert.KernelIdeal.τ Cert.KernelIdeal.sig (Elt Ideal) :=
  StableHlo.after Cert.KernelIdeal.Gen.hostOps0_23 (StableHlo.after Cert.KernelIdeal.Gen.hostOps0_22 (StableHlo.after Cert.KernelIdeal.Gen.hostOps0_21 (StableHlo.after Cert.KernelIdeal.Gen.hostOps0_20 (StableHlo.after Cert.KernelIdeal.Gen.hostOps0_19 (StableHlo.after Cert.KernelIdeal.Gen.hostOps0_18 (StableHlo.after Cert.KernelIdeal.Gen.hostOps0_17 (StableHlo.after Cert.KernelIdeal.Gen.hostOps0_16 (StableHlo.after Cert.KernelIdeal.Gen.hostOps0_15 (StableHlo.after Cert.KernelIdeal.Gen.hostOps0_14 (StableHlo.after Cert.KernelIdeal.Gen.hostOps0_13 (StableHlo.after Cert.KernelIdeal.Gen.hostOps0_12 (StableHlo.after Cert.KernelIdeal.Gen.hostOps0_11 (StableHlo.after Cert.KernelIdeal.Gen.hostOps0_10 (StableHlo.after Cert.KernelIdeal.Gen.hostOps0_9 (StableHlo.after Cert.KernelIdeal.Gen.hostOps0_8 (StableHlo.after Cert.KernelIdeal.Gen.hostOps0_7 (StableHlo.after Cert.KernelIdeal.Gen.hostOps0_6 (StableHlo.after Cert.KernelIdeal.Gen.hostOps0_5 (StableHlo.after Cert.KernelIdeal.Gen.hostOps0_4 (StableHlo.after Cert.KernelIdeal.Gen.hostOps0_3 (StableHlo.after Cert.KernelIdeal.Gen.hostOps0_2 (StableHlo.after Cert.KernelIdeal.Gen.hostOps0_1 (StableHlo.after (Cert.KernelIdeal.Gen.hostOps0.drop 20) (StableHlo.after (Cert.KernelIdeal.Gen.hostOps0.take 20) VK))))))))))))))))))))))))

/-- The reference's contents when the plane's operations begin. -/
def preR (VR : Valuation Cert.ReferenceIdeal.τ Cert.ReferenceIdeal.sig (Elt Ideal)) : Valuation Cert.ReferenceIdeal.τ Cert.ReferenceIdeal.sig (Elt Ideal) :=
  StableHlo.after Cert.ReferenceIdeal.Line.ops15 (StableHlo.after Cert.ReferenceIdeal.Line.ops14 (StableHlo.after Cert.ReferenceIdeal.Line.ops13 (StableHlo.after Cert.ReferenceIdeal.Line.ops12 (StableHlo.after Cert.ReferenceIdeal.Line.ops11 (StableHlo.after Cert.ReferenceIdeal.Line.ops10 (StableHlo.after Cert.ReferenceIdeal.Line.ops9 (StableHlo.after Cert.ReferenceIdeal.Line.ops8 (StableHlo.after Cert.ReferenceIdeal.Line.ops7 (StableHlo.after Cert.ReferenceIdeal.Line.ops6 (StableHlo.after Cert.ReferenceIdeal.Line.ops5 (StableHlo.after Cert.ReferenceIdeal.Line.ops4 (StableHlo.after Cert.ReferenceIdeal.Line.ops3 (StableHlo.after Cert.ReferenceIdeal.Line.ops2 (StableHlo.after Cert.ReferenceIdeal.Line.ops1 (StableHlo.after (Cert.ReferenceIdeal.Line.ops0.drop 29) (StableHlo.after (Cert.ReferenceIdeal.Line.ops0.take 29) VR))))))))))))))))

set_option maxRecDepth 1000000 in
set_option maxHeartbeats 4000000 in
theorem keepK (W : Valuation Cert.KernelIdeal.τ Cert.KernelIdeal.sig (Elt Ideal)) :
    StableHlo.after Cert.KernelIdeal.Gen.hostOps0_36 (StableHlo.after Cert.KernelIdeal.Gen.hostOps0_35 (StableHlo.after Cert.KernelIdeal.Gen.hostOps0_34 (StableHlo.after Cert.KernelIdeal.Gen.hostOps0_33 (StableHlo.after Cert.KernelIdeal.Gen.hostOps0_32 (StableHlo.after Cert.KernelIdeal.Gen.hostOps0_31 (StableHlo.after Cert.KernelIdeal.Gen.hostOps0_30 (StableHlo.after Cert.KernelIdeal.Gen.hostOps0_29 (W)))))))) (Proc.devRef .tc Cert.KernelIdeal.main_v801) = W (Proc.devRef .tc Cert.KernelIdeal.main_v801) := rfl

set_option maxRecDepth 1000000 in
set_option maxHeartbeats 4000000 in
theorem keepR (W : Valuation Cert.ReferenceIdeal.τ Cert.ReferenceIdeal.sig (Elt Ideal)) :
    StableHlo.after Cert.ReferenceIdeal.Line.ops24 (StableHlo.after Cert.ReferenceIdeal.Line.ops23 (StableHlo.after Cert.ReferenceIdeal.Line.ops22 (StableHlo.after Cert.ReferenceIdeal.Line.ops21 (StableHlo.after Cert.ReferenceIdeal.Line.ops20 (StableHlo.after Cert.ReferenceIdeal.Line.ops19 (W)))))) (Proc.devRef .tc Cert.ReferenceIdeal.main_v880) = W (Proc.devRef .tc Cert.ReferenceIdeal.main_v880) := rfl

set_option maxRecDepth 1000000 in
set_option maxHeartbeats 4000000 in
theorem keep17K (W : Valuation Cert.KernelIdeal.τ Cert.KernelIdeal.sig (Elt Ideal)) :
    StableHlo.after Cert.KernelIdeal.Gen.hostOps0_23 (StableHlo.after Cert.KernelIdeal.Gen.hostOps0_22 (StableHlo.after Cert.KernelIdeal.Gen.hostOps0_21 (StableHlo.after Cert.KernelIdeal.Gen.hostOps0_20 (StableHlo.after Cert.KernelIdeal.Gen.hostOps0_19 (StableHlo.after Cert.KernelIdeal.Gen.hostOps0_18 (StableHlo.after Cert.KernelIdeal.Gen.hostOps0_17 (StableHlo.after Cert.KernelIdeal.Gen.hostOps0_16 (StableHlo.after Cert.KernelIdeal.Gen.hostOps0_15 (StableHlo.after Cert.KernelIdeal.Gen.hostOps0_14 (StableHlo.after Cert.KernelIdeal.Gen.hostOps0_13 (StableHlo.after Cert.KernelIdeal.Gen.hostOps0_12 (StableHlo.after Cert.KernelIdeal.Gen.hostOps0_11 (StableHlo.after Cert.KernelIdeal.Gen.hostOps0_10 (StableHlo.after Cert.KernelIdeal.Gen.hostOps0_9 (StableHlo.after Cert.KernelIdeal.Gen.hostOps0_8 (StableHlo.after Cert.KernelIdeal.Gen.hostOps0_7 (StableHlo.after Cert.KernelIdeal.Gen.hostOps0_6 (StableHlo.after Cert.KernelIdeal.Gen.hostOps0_5 (StableHlo.after Cert.KernelIdeal.Gen.hostOps0_4 (StableHlo.after Cert.KernelIdeal.Gen.hostOps0_3 (StableHlo.after Cert.KernelIdeal.Gen.hostOps0_2 (StableHlo.after Cert.KernelIdeal.Gen.hostOps0_1 (StableHlo.after (Cert.KernelIdeal.Gen.hostOps0.drop 20) (W)))))))))))))))))))))))) (Proc.devRef .tc Cert.KernelIdeal.main_v17) = W (Proc.devRef .tc Cert.KernelIdeal.main_v17) := rfl

set_option maxRecDepth 1000000 in
set_option maxHeartbeats 4000000 in
theorem keep17R (W : Valuation Cert.ReferenceIdeal.τ Cert.ReferenceIdeal.sig (Elt Ideal)) :
    StableHlo.after Cert.ReferenceIdeal.Line.ops15 (StableHlo.after Cert.ReferenceIdeal.Line.ops14 (StableHlo.after Cert.ReferenceIdeal.Line.ops13 (StableHlo.after Cert.ReferenceIdeal.Line.ops12 (StableHlo.after Cert.ReferenceIdeal.Line.ops11 (StableHlo.after Cert.ReferenceIdeal.Line.ops10 (StableHlo.after Cert.ReferenceIdeal.Line.ops9 (StableHlo.after Cert.ReferenceIdeal.Line.ops8 (StableHlo.after Cert.ReferenceIdeal.Line.ops7 (StableHlo.after Cert.ReferenceIdeal.Line.ops6 (StableHlo.after Cert.ReferenceIdeal.Line.ops5 (StableHlo.after Cert.ReferenceIdeal.Line.ops4 (StableHlo.after Cert.ReferenceIdeal.Line.ops3 (StableHlo.after Cert.ReferenceIdeal.Line.ops2 (StableHlo.after Cert.ReferenceIdeal.Line.ops1 (StableHlo.after (Cert.ReferenceIdeal.Line.ops0.drop 29) (W)))))))))))))))) (Proc.devRef .tc Cert.ReferenceIdeal.main_v17) = W (Proc.devRef .tc Cert.ReferenceIdeal.main_v17) := rfl

set_option maxRecDepth 1000000 in
set_option maxHeartbeats 4000000 in
theorem preArgK (VK : Valuation Cert.KernelIdeal.τ Cert.KernelIdeal.sig (Elt Ideal)) :
    preK VK (Proc.devRef .tc Cert.KernelIdeal.main_arg8) = VK (Proc.devRef .tc Cert.KernelIdeal.main_arg8) := rfl

set_option maxRecDepth 1000000 in
set_option maxHeartbeats 4000000 in
theorem preArgR (VR : Valuation Cert.ReferenceIdeal.τ Cert.ReferenceIdeal.sig (Elt Ideal)) :
    preR VR (Proc.devRef .tc Cert.ReferenceIdeal.main_arg8) = VR (Proc.devRef .tc Cert.ReferenceIdeal.main_arg8) := rfl

set_option maxRecDepth 1000000 in
set_option maxHeartbeats 4000000 in
theorem preTab0 (VR : Valuation Cert.ReferenceIdeal.τ Cert.ReferenceIdeal.sig (Elt Ideal)) :
    (preR VR (Proc.devRef .tc Cert.ReferenceIdeal.main_c_5) : Cert.ReferenceIdeal.S2.Idx → BitVec 32) (ix1 (0 : Fin 2)) = 0#32 := rfl

set_option maxRecDepth 1000000 in
set_option maxHeartbeats 4000000 in
theorem preTab1 (VR : Valuation Cert.ReferenceIdeal.τ Cert.ReferenceIdeal.sig (Elt Ideal)) :
    (preR VR (Proc.devRef .tc Cert.ReferenceIdeal.main_c_5) : Cert.ReferenceIdeal.S2.Idx → BitVec 32) (ix1 (1 : Fin 2)) = 1#32 := rfl

theorem splitK0 (VK : Valuation Cert.KernelIdeal.τ Cert.KernelIdeal.sig (Elt Ideal)) :
    StableHlo.after Cert.KernelIdeal.Gen.hostOps0 VK = StableHlo.after (Cert.KernelIdeal.Gen.hostOps0.drop 20) (StableHlo.after (Cert.KernelIdeal.Gen.hostOps0.take 20) VK) := by
  rw [← StableHlo.after_append, List.take_append_drop]

theorem splitR0 (VR : Valuation Cert.ReferenceIdeal.τ Cert.ReferenceIdeal.sig (Elt Ideal)) :
    StableHlo.after Cert.ReferenceIdeal.Line.ops0 VR = StableHlo.after (Cert.ReferenceIdeal.Line.ops0.drop 29) (StableHlo.after (Cert.ReferenceIdeal.Line.ops0.take 29) VR) := by
  rw [← StableHlo.after_append, List.take_append_drop]

set_option maxHeartbeats 4000000 in
theorem splitK (VK : Valuation Cert.KernelIdeal.τ Cert.KernelIdeal.sig (Elt Ideal)) :
    StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v801)
      = StableHlo.after Plane6.kernelOps (preK VK) (Proc.devRef .tc Cert.KernelIdeal.main_v801) := by
  have e : StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK = StableHlo.after Cert.KernelIdeal.Gen.hostOps0_36 (StableHlo.after Cert.KernelIdeal.Gen.hostOps0_35 (StableHlo.after Cert.KernelIdeal.Gen.hostOps0_34 (StableHlo.after Cert.KernelIdeal.Gen.hostOps0_33 (StableHlo.after Cert.KernelIdeal.Gen.hostOps0_32 (StableHlo.after Cert.KernelIdeal.Gen.hostOps0_31 (StableHlo.after Cert.KernelIdeal.Gen.hostOps0_30 (StableHlo.after Cert.KernelIdeal.Gen.hostOps0_29 (StableHlo.after Plane6.kernelOps (preK VK))))))))) := by
    unfold Plane6.kernelOps preK
    simp only [List.flatten_cons, List.flatten_nil, List.append_nil, StableHlo.after_append, splitK0]
  rw [e]
  exact keepK _

set_option maxHeartbeats 4000000 in
theorem splitR (VR : Valuation Cert.ReferenceIdeal.τ Cert.ReferenceIdeal.sig (Elt Ideal)) :
    StableHlo.after Cert.ReferenceIdeal.Line.ops VR (Proc.devRef .tc Cert.ReferenceIdeal.main_v880)
      = StableHlo.after Plane6.referenceOps (preR VR) (Proc.devRef .tc Cert.ReferenceIdeal.main_v880) := by
  have e : StableHlo.after Cert.ReferenceIdeal.Line.ops VR = StableHlo.after Cert.ReferenceIdeal.Line.ops24 (StableHlo.after Cert.ReferenceIdeal.Line.ops23 (StableHlo.after Cert.ReferenceIdeal.Line.ops22 (StableHlo.after Cert.ReferenceIdeal.Line.ops21 (StableHlo.after Cert.ReferenceIdeal.Line.ops20 (StableHlo.after Cert.ReferenceIdeal.Line.ops19 (StableHlo.after Plane6.referenceOps (preR VR))))))) := by
    unfold Cert.ReferenceIdeal.Line.ops Plane6.referenceOps preR
    simp only [StableHlo.after_append, splitR0]
  rw [e]
  exact keepR _

theorem pre17K (VK : Valuation Cert.KernelIdeal.τ Cert.KernelIdeal.sig (Elt Ideal)) :
    preK VK (Proc.devRef .tc Cert.KernelIdeal.main_v17) = StableHlo.after (Cert.KernelIdeal.Gen.hostOps0.take 20) VK (Proc.devRef .tc Cert.KernelIdeal.main_v17) :=
  keep17K _

theorem pre17R (VR : Valuation Cert.ReferenceIdeal.τ Cert.ReferenceIdeal.sig (Elt Ideal)) :
    preR VR (Proc.devRef .tc Cert.ReferenceIdeal.main_v17) = StableHlo.after (Cert.ReferenceIdeal.Line.ops0.take 29) VR (Proc.devRef .tc Cert.ReferenceIdeal.main_v17) :=
  keep17R _

/-- Entry (n, k) of plane 6's result in the two whole programs, from launch contents that agree on the points, the
    box and the plane's table. -/
theorem entry_eq (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg8) = VK (Proc.devRef .tc Cert.KernelIdeal.main_arg8))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v801) : (⟨2, ![524288, 32]⟩ : Shape).Idx → EReal) (ix2 n k)
      = (StableHlo.after Cert.ReferenceIdeal.Line.ops VR (Proc.devRef .tc Cert.ReferenceIdeal.main_v880) : (⟨2, ![524288, 32]⟩ : Shape).Idx → EReal) (ix2 n k) := by
  rw [splitK VK, splitR VR]
  exact Plane6.entry_eq (preK VK) (preR VR)
    (fun i => congrFun ((pre17R VR).trans ((p17_eq VK VR ha0 ha1).trans (pre17K VK).symm)) i)
    (fun j => congrFun ((preArgR VR).trans (hg.trans (preArgK VK).symm)) j)
    (preTab0 VR) (preTab1 VR) n k

/-- The launch's input window 6 is the plane's result buffer. -/
theorem bridge (W : Valuation Cert.KernelIdeal.τ Cert.KernelIdeal.sig (Elt Ideal)) :
    (W (Proc.devRef .tc (Pipeline.arrRef Cert.KernelIdeal.spec0 (6 : Fin 10))) : (⟨2, ![524288, 32]⟩ : Shape).Idx → EReal)
      = W (Proc.devRef .tc Cert.KernelIdeal.main_v801) := rfl

/-- The same entry-by-entry equality, the kernel program's side read at the launch's input window 6. -/
theorem entry_eq_win (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg8) = VK (Proc.devRef .tc Cert.KernelIdeal.main_arg8))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc (Pipeline.arrRef Cert.KernelIdeal.spec0 (6 : Fin 10))) : (⟨2, ![524288, 32]⟩ : Shape).Idx → EReal) (ix2 n k)
      = (StableHlo.after Cert.ReferenceIdeal.Line.ops VR (Proc.devRef .tc Cert.ReferenceIdeal.main_v880) : (⟨2, ![524288, 32]⟩ : Shape).Idx → EReal) (ix2 n k) :=
  (congrFun (bridge (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK)) (ix2 n k)).trans (entry_eq VK VR ha0 ha1 hg n k)

end Cert.Tri.Glue6

end
-- ==== Proof.Plane7.lean ====
/-
  Plane 7 (a 512 by 512 grid of 32 channels): the kernel's program and the reference compute its
  bilinear look-up by the same arithmetic on every point; they differ in where the channel axis sits (the kernel
  transposes the table once and looks it up with the channels last, the reference looks it up with the channels first
  and transposes the result) and in how the two coordinate columns are taken out of the points.  Entry by entry the
  two results are the same number.
-/
import proofs.«168354_j73564199846375_2_alg».proof.Proof.Gen.KernelIdeal.Launch
import proofs.«168354_j73564199846375_2_alg».proof.Proof.RefRun
import proofs.«168354_j73564199846375_2_alg».proof.Proof.LibLayoutIx
import proofs.«168354_j73564199846375_2_alg».proof.Proof.LibGatherIx
import proofs.«168354_j73564199846375_2_alg».proof.Proof.TriLemmas

noncomputable section

namespace Cert.Tri.Plane7

open Idealize.ShloMosaic Idealize.ShloMosaic.TcCoe Idealize.SL.Sem Idealize.ShloMosaic.StableHlo Idealize.ShloMosaic.ValueIdx
open Idealize.ShloMosaic.LayoutIx Idealize.ShloMosaic.GatherIx

/-- The kernel program's host operations that compute this plane. -/
def kernelOps [Cert.KernelIdeal.Facts] : List (HloOp Cert.KernelIdeal.τ Cert.KernelIdeal.sig (Elt Ideal)) :=
  (List.flatten [Cert.KernelIdeal.Gen.hostOps0_28, Cert.KernelIdeal.Gen.hostOps0_29, Cert.KernelIdeal.Gen.hostOps0_30, Cert.KernelIdeal.Gen.hostOps0_31, Cert.KernelIdeal.Gen.hostOps0_32])

/-- The reference's host operations that compute this plane. -/
def referenceOps [Cert.ReferenceIdeal.Facts] : List (HloOp Cert.ReferenceIdeal.τ Cert.ReferenceIdeal.sig (Elt Ideal)) :=
  (Cert.ReferenceIdeal.Line.ops18 ++ (Cert.ReferenceIdeal.Line.ops19 ++ (Cert.ReferenceIdeal.Line.ops20 ++ (Cert.ReferenceIdeal.Line.ops21))))

/-! The flattening of a coordinate column, with its result's shape written out. -/
theorem K_resh0 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v802 Cert.KernelIdeal.main_v803 rfl hn hx hy).result V (no_index (Proc.devRef .tc Cert.KernelIdeal.main_v803))
      = shapeCast Cert.KernelIdeal.S524288 (V (Proc.devRef .tc Cert.KernelIdeal.main_v802)) hn :=
  reshape_result' (x := Cert.KernelIdeal.main_v802) (y := Cert.KernelIdeal.main_v803) rfl hn hx hy V
theorem K_resh1 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v804 Cert.KernelIdeal.main_v805 rfl hn hx hy).result V (no_index (Proc.devRef .tc Cert.KernelIdeal.main_v805))
      = shapeCast Cert.KernelIdeal.S524288 (V (Proc.devRef .tc Cert.KernelIdeal.main_v804)) hn :=
  reshape_result' (x := Cert.KernelIdeal.main_v804) (y := Cert.KernelIdeal.main_v805) rfl hn hx hy V
theorem K_resh2 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v914 Cert.KernelIdeal.main_v915 rfl hn hx hy).result V (no_index (Proc.devRef .tc Cert.KernelIdeal.main_v915))
      = shapeCast Cert.KernelIdeal.S524288 (V (Proc.devRef .tc Cert.KernelIdeal.main_v914)) hn :=
  reshape_result' (x := Cert.KernelIdeal.main_v914) (y := Cert.KernelIdeal.main_v915) rfl hn hx hy V
theorem K_resh3 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v916 Cert.KernelIdeal.main_v917 rfl hn hx hy).result V (no_index (Proc.devRef .tc Cert.KernelIdeal.main_v917))
      = shapeCast Cert.KernelIdeal.S524288 (V (Proc.devRef .tc Cert.KernelIdeal.main_v916)) hn :=
  reshape_result' (x := Cert.KernelIdeal.main_v916) (y := Cert.KernelIdeal.main_v917) rfl hn hx hy V
theorem R_resh0 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v888 Cert.ReferenceIdeal.main_v889 rfl hn hx hy).result V (no_index (Proc.devRef .tc Cert.ReferenceIdeal.main_v889))
      = shapeCast Cert.ReferenceIdeal.S524288 (V (Proc.devRef .tc Cert.ReferenceIdeal.main_v888)) hn :=
  reshape_result' (x := Cert.ReferenceIdeal.main_v888) (y := Cert.ReferenceIdeal.main_v889) rfl hn hx hy V
theorem R_resh1 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v897 Cert.ReferenceIdeal.main_v898 rfl hn hx hy).result V (no_index (Proc.devRef .tc Cert.ReferenceIdeal.main_v898))
      = shapeCast Cert.ReferenceIdeal.S524288 (V (Proc.devRef .tc Cert.ReferenceIdeal.main_v897)) hn :=
  reshape_result' (x := Cert.ReferenceIdeal.main_v897) (y := Cert.ReferenceIdeal.main_v898) rfl hn hx hy V
theorem R_resh2 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v1011 Cert.ReferenceIdeal.main_v1012 rfl hn hx hy).result V (no_index (Proc.devRef .tc Cert.ReferenceIdeal.main_v1012))
      = shapeCast Cert.ReferenceIdeal.S524288 (V (Proc.devRef .tc Cert.ReferenceIdeal.main_v1011)) hn :=
  reshape_result' (x := Cert.ReferenceIdeal.main_v1011) (y := Cert.ReferenceIdeal.main_v1012) rfl hn hx hy V
theorem R_resh3 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v1020 Cert.ReferenceIdeal.main_v1021 rfl hn hx hy).result V (no_index (Proc.devRef .tc Cert.ReferenceIdeal.main_v1021))
      = shapeCast Cert.ReferenceIdeal.S524288 (V (Proc.devRef .tc Cert.ReferenceIdeal.main_v1020)) hn :=
  reshape_result' (x := Cert.ReferenceIdeal.main_v1020) (y := Cert.ReferenceIdeal.main_v1021) rfl hn hx hy V

set_option maxHeartbeats 40000000 in
set_option maxRecDepth 1000000 in
/-- Entry (n, k) of the plane's result is the same in both programs, from contents that agree on the normalized
    points and on the plane's table, the reference's constant index pair being the two coordinate columns' positions. -/
theorem entry_eq [Cert.KernelIdeal.Facts] [Cert.ReferenceIdeal.Facts]
    (WK : Valuation Cert.KernelIdeal.τ Cert.KernelIdeal.sig (Elt Ideal)) (WR : Valuation Cert.ReferenceIdeal.τ Cert.ReferenceIdeal.sig (Elt Ideal))
    (h17 : ∀ i : (⟨2, ![524288, 3]⟩ : Shape).Idx, (WR (Proc.devRef .tc Cert.ReferenceIdeal.main_v17) : (⟨2, ![524288, 3]⟩ : Shape).Idx → EReal) i
      = (WK (Proc.devRef .tc Cert.KernelIdeal.main_v17) : (⟨2, ![524288, 3]⟩ : Shape).Idx → EReal) i)
    (hg : ∀ j : (⟨3, ![32, 512, 512]⟩ : Shape).Idx, (WR (Proc.devRef .tc Cert.ReferenceIdeal.main_arg9) : (⟨3, ![32, 512, 512]⟩ : Shape).Idx → EReal) j
      = (WK (Proc.devRef .tc Cert.KernelIdeal.main_arg9) : (⟨3, ![32, 512, 512]⟩ : Shape).Idx → EReal) j)
    (ht0 : (WR (Proc.devRef .tc Cert.ReferenceIdeal.main_c_6) : Cert.ReferenceIdeal.S2.Idx → BitVec 32) (ix1 (0 : Fin 2)) = 0#32)
    (ht1 : (WR (Proc.devRef .tc Cert.ReferenceIdeal.main_c_6) : Cert.ReferenceIdeal.S2.Idx → BitVec 32) (ix1 (1 : Fin 2)) = 2#32)
    (n : Fin 524288) (k : Fin 32) :
    (StableHlo.after kernelOps WK (Proc.devRef .tc Cert.KernelIdeal.main_v913) : (⟨2, ![524288, 32]⟩ : Shape).Idx → EReal) (ix2 n k)
      = (StableHlo.after referenceOps WR (Proc.devRef .tc Cert.ReferenceIdeal.main_v1003) : (⟨2, ![524288, 32]⟩ : Shape).Idx → EReal) (ix2 n k) := by
  unfold kernelOps referenceOps
  simp only [Cert.KernelIdeal.Gen.hostOps0_28, Cert.KernelIdeal.Gen.hostOps0_29, Cert.KernelIdeal.Gen.hostOps0_30, Cert.KernelIdeal.Gen.hostOps0_31, Cert.KernelIdeal.Gen.hostOps0_32, Cert.ReferenceIdeal.Line.ops18, Cert.ReferenceIdeal.Line.ops19, Cert.ReferenceIdeal.Line.ops20, Cert.ReferenceIdeal.Line.ops21, List.drop_succ_cons, List.drop_zero, List.flatten_cons, List.flatten_nil, List.append_nil, List.cons_append, List.nil_append]
  simp (disch := decide) only [after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      addf_apply, mulf_apply, subf_apply, maximumf_apply, minimumf_apply, select_apply, sitofp_apply, constant_apply,
      cmpi_apply, addi_apply, minsi_apply, fptosi_apply, hostFloor_apply, constantI_apply, id_eq,
      bcast_scalar, bcast_col, bcast_row, bcast_rows, bcast_cols, transpose_two', transpose_first_last', flatten_col, concat_cols_left, concat_cols_right,
      Cert.Tri.K_gather_128, Cert.Tri.K_gather_256, Cert.Tri.K_gather_512,
      Cert.Tri.R_gather_128, Cert.Tri.R_gather_256, Cert.Tri.R_gather_512, Cert.Tri.R_takeCols,
      Cert.Tri.slice3_0, Cert.Tri.slice3_1, Cert.Tri.slice3_2, Cert.Tri.slice2_0, Cert.Tri.slice2_1,
      K_resh0, K_resh1, K_resh2, K_resh3, R_resh0, R_resh1, R_resh2, R_resh3]
  simp only [ht0, ht1]
  simp only [h17, hg]
  rfl

end Cert.Tri.Plane7

end
-- ==== Proof.Glue7.lean ====
/-
  Plane 7 inside the whole programs: the operations after the plane's own leave its result where it is, and the
  operations before it leave the normalized points, the plane's table and the reference's constant index pair as the
  first operations made them; so the plane's entry-by-entry equality holds of the two whole programs' folds.
-/
import proofs.«168354_j73564199846375_2_alg».proof.Proof.Plane7
import proofs.«168354_j73564199846375_2_alg».proof.Proof.P17
import Idealize.ShloMosaic.Lib.Pipeline.Frame

noncomputable section

namespace Cert.Tri.Glue7

open Idealize.ShloMosaic Idealize.ShloMosaic.TcCoe Idealize.SL.Sem Idealize.ShloMosaic.StableHlo Idealize.ShloMosaic.ValueIdx

variable [Cert.KernelIdeal.Facts] [Cert.ReferenceIdeal.Facts]

/-- The kernel program's contents when the plane's operations begin. -/
def preK (VK : Valuation Cert.KernelIdeal.τ Cert.KernelIdeal.sig (Elt Ideal)) : Valuation Cert.KernelIdeal.τ Cert.KernelIdeal.sig (Elt Ideal) :=
  StableHlo.after Cert.KernelIdeal.Gen.hostOps0_27 (StableHlo.after Cert.KernelIdeal.Gen.hostOps0_26 (StableHlo.after Cert.KernelIdeal.Gen.hostOps0_25 (StableHlo.after Cert.KernelIdeal.Gen.hostOps0_24 (StableHlo.after Cert.KernelIdeal.Gen.hostOps0_23 (StableHlo.after Cert.KernelIdeal.Gen.hostOps0_22 (StableHlo.after Cert.KernelIdeal.Gen.hostOps0_21 (StableHlo.after Cert.KernelIdeal.Gen.hostOps0_20 (StableHlo.after Cert.KernelIdeal.Gen.hostOps0_19 (StableHlo.after Cert.KernelIdeal.Gen.hostOps0_18 (StableHlo.after Cert.KernelIdeal.Gen.hostOps0_17 (StableHlo.after Cert.KernelIdeal.Gen.hostOps0_16 (StableHlo.after Cert.KernelIdeal.Gen.hostOps0_15 (StableHlo.after Cert.KernelIdeal.Gen.hostOps0_14 (StableHlo.after Cert.KernelIdeal.Gen.hostOps0_13 (StableHlo.after Cert.KernelIdeal.Gen.hostOps0_12 (StableHlo.after Cert.KernelIdeal.Gen.hostOps0_11 (StableHlo.after Cert.KernelIdeal.Gen.hostOps0_10 (StableHlo.after Cert.KernelIdeal.Gen.hostOps0_9 (StableHlo.after Cert.KernelIdeal.Gen.hostOps0_8 (StableHlo.after Cert.KernelIdeal.Gen.hostOps0_7 (StableHlo.after Cert.KernelIdeal.Gen.hostOps0_6 (StableHlo.after Cert.KernelIdeal.Gen.hostOps0_5 (StableHlo.after Cert.KernelIdeal.Gen.hostOps0_4 (StableHlo.after Cert.KernelIdeal.Gen.hostOps0_3 (StableHlo.after Cert.KernelIdeal.Gen.hostOps0_2 (StableHlo.after Cert.KernelIdeal.Gen.hostOps0_1 (StableHlo.after (Cert.KernelIdeal.Gen.hostOps0.drop 20) (StableHlo.after (Cert.KernelIdeal.Gen.hostOps0.take 20) VK))))))))))))))))))))))))))))

/-- The reference's contents when the plane's operations begin. -/
def preR (VR : Valuation Cert.ReferenceIdeal.τ Cert.ReferenceIdeal.sig (Elt Ideal)) : Valuation Cert.ReferenceIdeal.τ Cert.ReferenceIdeal.sig (Elt Ideal) :=
  StableHlo.after Cert.ReferenceIdeal.Line.ops17 (StableHlo.after Cert.ReferenceIdeal.Line.ops16 (StableHlo.after Cert.ReferenceIdeal.Line.ops15 (StableHlo.after Cert.ReferenceIdeal.Line.ops14 (StableHlo.after Cert.ReferenceIdeal.Line.ops13 (StableHlo.after Cert.ReferenceIdeal.Line.ops12 (StableHlo.after Cert.ReferenceIdeal.Line.ops11 (StableHlo.after Cert.ReferenceIdeal.Line.ops10 (StableHlo.after Cert.ReferenceIdeal.Line.ops9 (StableHlo.after Cert.ReferenceIdeal.Line.ops8 (StableHlo.after Cert.ReferenceIdeal.Line.ops7 (StableHlo.after Cert.ReferenceIdeal.Line.ops6 (StableHlo.after Cert.ReferenceIdeal.Line.ops5 (StableHlo.after Cert.ReferenceIdeal.Line.ops4 (StableHlo.after Cert.ReferenceIdeal.Line.ops3 (StableHlo.after Cert.ReferenceIdeal.Line.ops2 (StableHlo.after Cert.ReferenceIdeal.Line.ops1 (StableHlo.after (Cert.ReferenceIdeal.Line.ops0.drop 29) (StableHlo.after (Cert.ReferenceIdeal.Line.ops0.take 29) VR))))))))))))))))))

set_option maxRecDepth 1000000 in
set_option maxHeartbeats 4000000 in
theorem keepK (W : Valuation Cert.KernelIdeal.τ Cert.KernelIdeal.sig (Elt Ideal)) :
    StableHlo.after Cert.KernelIdeal.Gen.hostOps0_36 (StableHlo.after Cert.KernelIdeal.Gen.hostOps0_35 (StableHlo.after Cert.KernelIdeal.Gen.hostOps0_34 (StableHlo.after Cert.KernelIdeal.Gen.hostOps0_33 (W)))) (Proc.devRef .tc Cert.KernelIdeal.main_v913) = W (Proc.devRef .tc Cert.KernelIdeal.main_v913) := rfl

set_option maxRecDepth 1000000 in
set_option maxHeartbeats 4000000 in
theorem keepR (W : Valuation Cert.ReferenceIdeal.τ Cert.ReferenceIdeal.sig (Elt Ideal)) :
    StableHlo.after Cert.ReferenceIdeal.Line.ops24 (StableHlo.after Cert.ReferenceIdeal.Line.ops23 (StableHlo.after Cert.ReferenceIdeal.Line.ops22 (W))) (Proc.devRef .tc Cert.ReferenceIdeal.main_v1003) = W (Proc.devRef .tc Cert.ReferenceIdeal.main_v1003) := rfl

set_option maxRecDepth 1000000 in
set_option maxHeartbeats 4000000 in
theorem keep17K (W : Valuation Cert.KernelIdeal.τ Cert.KernelIdeal.sig (Elt Ideal)) :
    StableHlo.after Cert.KernelIdeal.Gen.hostOps0_27 (StableHlo.after Cert.KernelIdeal.Gen.hostOps0_26 (StableHlo.after Cert.KernelIdeal.Gen.hostOps0_25 (StableHlo.after Cert.KernelIdeal.Gen.hostOps0_24 (StableHlo.after Cert.KernelIdeal.Gen.hostOps0_23 (StableHlo.after Cert.KernelIdeal.Gen.hostOps0_22 (StableHlo.after Cert.KernelIdeal.Gen.hostOps0_21 (StableHlo.after Cert.KernelIdeal.Gen.hostOps0_20 (StableHlo.after Cert.KernelIdeal.Gen.hostOps0_19 (StableHlo.after Cert.KernelIdeal.Gen.hostOps0_18 (StableHlo.after Cert.KernelIdeal.Gen.hostOps0_17 (StableHlo.after Cert.KernelIdeal.Gen.hostOps0_16 (StableHlo.after Cert.KernelIdeal.Gen.hostOps0_15 (StableHlo.after Cert.KernelIdeal.Gen.hostOps0_14 (StableHlo.after Cert.KernelIdeal.Gen.hostOps0_13 (StableHlo.after Cert.KernelIdeal.Gen.hostOps0_12 (StableHlo.after Cert.KernelIdeal.Gen.hostOps0_11 (StableHlo.after Cert.KernelIdeal.Gen.hostOps0_10 (StableHlo.after Cert.KernelIdeal.Gen.hostOps0_9 (StableHlo.after Cert.KernelIdeal.Gen.hostOps0_8 (StableHlo.after Cert.KernelIdeal.Gen.hostOps0_7 (StableHlo.after Cert.KernelIdeal.Gen.hostOps0_6 (StableHlo.after Cert.KernelIdeal.Gen.hostOps0_5 (StableHlo.after Cert.KernelIdeal.Gen.hostOps0_4 (StableHlo.after Cert.KernelIdeal.Gen.hostOps0_3 (StableHlo.after Cert.KernelIdeal.Gen.hostOps0_2 (StableHlo.after Cert.KernelIdeal.Gen.hostOps0_1 (StableHlo.after (Cert.KernelIdeal.Gen.hostOps0.drop 20) (W)))))))))))))))))))))))))))) (Proc.devRef .tc Cert.KernelIdeal.main_v17) = W (Proc.devRef .tc Cert.KernelIdeal.main_v17) := rfl

set_option maxRecDepth 1000000 in
set_option maxHeartbeats 4000000 in
theorem keep17R (W : Valuation Cert.ReferenceIdeal.τ Cert.ReferenceIdeal.sig (Elt Ideal)) :
    StableHlo.after Cert.ReferenceIdeal.Line.ops17 (StableHlo.after Cert.ReferenceIdeal.Line.ops16 (StableHlo.after Cert.ReferenceIdeal.Line.ops15 (StableHlo.after Cert.ReferenceIdeal.Line.ops14 (StableHlo.after Cert.ReferenceIdeal.Line.ops13 (StableHlo.after Cert.ReferenceIdeal.Line.ops12 (StableHlo.after Cert.ReferenceIdeal.Line.ops11 (StableHlo.after Cert.ReferenceIdeal.Line.ops10 (StableHlo.after Cert.ReferenceIdeal.Line.ops9 (StableHlo.after Cert.ReferenceIdeal.Line.ops8 (StableHlo.after Cert.ReferenceIdeal.Line.ops7 (StableHlo.after Cert.ReferenceIdeal.Line.ops6 (StableHlo.after Cert.ReferenceIdeal.Line.ops5 (StableHlo.after Cert.ReferenceIdeal.Line.ops4 (StableHlo.after Cert.ReferenceIdeal.Line.ops3 (StableHlo.after Cert.ReferenceIdeal.Line.ops2 (StableHlo.after Cert.ReferenceIdeal.Line.ops1 (StableHlo.after (Cert.ReferenceIdeal.Line.ops0.drop 29) (W)))))))))))))))))) (Proc.devRef .tc Cert.ReferenceIdeal.main_v17) = W (Proc.devRef .tc Cert.ReferenceIdeal.main_v17) := rfl

set_option maxRecDepth 1000000 in
set_option maxHeartbeats 4000000 in
theorem preArgK (VK : Valuation Cert.KernelIdeal.τ Cert.KernelIdeal.sig (Elt Ideal)) :
    preK VK (Proc.devRef .tc Cert.KernelIdeal.main_arg9) = VK (Proc.devRef .tc Cert.KernelIdeal.main_arg9) := rfl

set_option maxRecDepth 1000000 in
set_option maxHeartbeats 4000000 in
theorem preArgR (VR : Valuation Cert.ReferenceIdeal.τ Cert.ReferenceIdeal.sig (Elt Ideal)) :
    preR VR (Proc.devRef .tc Cert.ReferenceIdeal.main_arg9) = VR (Proc.devRef .tc Cert.ReferenceIdeal.main_arg9) := rfl

set_option maxRecDepth 1000000 in
set_option maxHeartbeats 4000000 in
theorem preTab0 (VR : Valuation Cert.ReferenceIdeal.τ Cert.ReferenceIdeal.sig (Elt Ideal)) :
    (preR VR (Proc.devRef .tc Cert.ReferenceIdeal.main_c_6) : Cert.ReferenceIdeal.S2.Idx → BitVec 32) (ix1 (0 : Fin 2)) = 0#32 := rfl

set_option maxRecDepth 1000000 in
set_option maxHeartbeats 4000000 in
theorem preTab1 (VR : Valuation Cert.ReferenceIdeal.τ Cert.ReferenceIdeal.sig (Elt Ideal)) :
    (preR VR (Proc.devRef .tc Cert.ReferenceIdeal.main_c_6) : Cert.ReferenceIdeal.S2.Idx → BitVec 32) (ix1 (1 : Fin 2)) = 2#32 := rfl

theorem splitK0 (VK : Valuation Cert.KernelIdeal.τ Cert.KernelIdeal.sig (Elt Ideal)) :
    StableHlo.after Cert.KernelIdeal.Gen.hostOps0 VK = StableHlo.after (Cert.KernelIdeal.Gen.hostOps0.drop 20) (StableHlo.after (Cert.KernelIdeal.Gen.hostOps0.take 20) VK) := by
  rw [← StableHlo.after_append, List.take_append_drop]

theorem splitR0 (VR : Valuation Cert.ReferenceIdeal.τ Cert.ReferenceIdeal.sig (Elt Ideal)) :
    StableHlo.after Cert.ReferenceIdeal.Line.ops0 VR = StableHlo.after (Cert.ReferenceIdeal.Line.ops0.drop 29) (StableHlo.after (Cert.ReferenceIdeal.Line.ops0.take 29) VR) := by
  rw [← StableHlo.after_append, List.take_append_drop]

set_option maxHeartbeats 4000000 in
theorem splitK (VK : Valuation Cert.KernelIdeal.τ Cert.KernelIdeal.sig (Elt Ideal)) :
    StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v913)
      = StableHlo.after Plane7.kernelOps (preK VK) (Proc.devRef .tc Cert.KernelIdeal.main_v913) := by
  have e : StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK = StableHlo.after Cert.KernelIdeal.Gen.hostOps0_36 (StableHlo.after Cert.KernelIdeal.Gen.hostOps0_35 (StableHlo.after Cert.KernelIdeal.Gen.hostOps0_34 (StableHlo.after Cert.KernelIdeal.Gen.hostOps0_33 (StableHlo.after Plane7.kernelOps (preK VK))))) := by
    unfold Plane7.kernelOps preK
    simp only [List.flatten_cons, List.flatten_nil, List.append_nil, StableHlo.after_append, splitK0]
  rw [e]
  exact keepK _

set_option maxHeartbeats 4000000 in
theorem splitR (VR : Valuation Cert.ReferenceIdeal.τ Cert.ReferenceIdeal.sig (Elt Ideal)) :
    StableHlo.after Cert.ReferenceIdeal.Line.ops VR (Proc.devRef .tc Cert.ReferenceIdeal.main_v1003)
      = StableHlo.after Plane7.referenceOps (preR VR) (Proc.devRef .tc Cert.ReferenceIdeal.main_v1003) := by
  have e : StableHlo.after Cert.ReferenceIdeal.Line.ops VR = StableHlo.after Cert.ReferenceIdeal.Line.ops24 (StableHlo.after Cert.ReferenceIdeal.Line.ops23 (StableHlo.after Cert.ReferenceIdeal.Line.ops22 (StableHlo.after Plane7.referenceOps (preR VR)))) := by
    unfold Cert.ReferenceIdeal.Line.ops Plane7.referenceOps preR
    simp only [StableHlo.after_append, splitR0]
  rw [e]
  exact keepR _

theorem pre17K (VK : Valuation Cert.KernelIdeal.τ Cert.KernelIdeal.sig (Elt Ideal)) :
    preK VK (Proc.devRef .tc Cert.KernelIdeal.main_v17) = StableHlo.after (Cert.KernelIdeal.Gen.hostOps0.take 20) VK (Proc.devRef .tc Cert.KernelIdeal.main_v17) :=
  keep17K _

theorem pre17R (VR : Valuation Cert.ReferenceIdeal.τ Cert.ReferenceIdeal.sig (Elt Ideal)) :
    preR VR (Proc.devRef .tc Cert.ReferenceIdeal.main_v17) = StableHlo.after (Cert.ReferenceIdeal.Line.ops0.take 29) VR (Proc.devRef .tc Cert.ReferenceIdeal.main_v17) :=
  keep17R _

/-- Entry (n, k) of plane 7's result in the two whole programs, from launch contents that agree on the points, the
    box and the plane's table. -/
theorem entry_eq (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg9) = VK (Proc.devRef .tc Cert.KernelIdeal.main_arg9))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v913) : (⟨2, ![524288, 32]⟩ : Shape).Idx → EReal) (ix2 n k)
      = (StableHlo.after Cert.ReferenceIdeal.Line.ops VR (Proc.devRef .tc Cert.ReferenceIdeal.main_v1003) : (⟨2, ![524288, 32]⟩ : Shape).Idx → EReal) (ix2 n k) := by
  rw [splitK VK, splitR VR]
  exact Plane7.entry_eq (preK VK) (preR VR)
    (fun i => congrFun ((pre17R VR).trans ((p17_eq VK VR ha0 ha1).trans (pre17K VK).symm)) i)
    (fun j => congrFun ((preArgR VR).trans (hg.trans (preArgK VK).symm)) j)
    (preTab0 VR) (preTab1 VR) n k

/-- The launch's input window 7 is the plane's result buffer. -/
theorem bridge (W : Valuation Cert.KernelIdeal.τ Cert.KernelIdeal.sig (Elt Ideal)) :
    (W (Proc.devRef .tc (Pipeline.arrRef Cert.KernelIdeal.spec0 (7 : Fin 10))) : (⟨2, ![524288, 32]⟩ : Shape).Idx → EReal)
      = W (Proc.devRef .tc Cert.KernelIdeal.main_v913) := rfl

/-- The same entry-by-entry equality, the kernel program's side read at the launch's input window 7. -/
theorem entry_eq_win (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg9) = VK (Proc.devRef .tc Cert.KernelIdeal.main_arg9))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc (Pipeline.arrRef Cert.KernelIdeal.spec0 (7 : Fin 10))) : (⟨2, ![524288, 32]⟩ : Shape).Idx → EReal) (ix2 n k)
      = (StableHlo.after Cert.ReferenceIdeal.Line.ops VR (Proc.devRef .tc Cert.ReferenceIdeal.main_v1003) : (⟨2, ![524288, 32]⟩ : Shape).Idx → EReal) (ix2 n k) :=
  (congrFun (bridge (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK)) (ix2 n k)).trans (entry_eq VK VR ha0 ha1 hg n k)

end Cert.Tri.Glue7

end
-- ==== Proof.Plane8.lean ====
/-
  Plane 8 (a 512 by 512 grid of 32 channels): the kernel's program and the reference compute its
  bilinear look-up by the same arithmetic on every point; they differ in where the channel axis sits (the kernel
  transposes the table once and looks it up with the channels last, the reference looks it up with the channels first
  and transposes the result) and in how the two coordinate columns are taken out of the points.  Entry by entry the
  two results are the same number.
-/
import proofs.«168354_j73564199846375_2_alg».proof.Proof.Gen.KernelIdeal.Launch
import proofs.«168354_j73564199846375_2_alg».proof.Proof.RefRun
import proofs.«168354_j73564199846375_2_alg».proof.Proof.LibLayoutIx
import proofs.«168354_j73564199846375_2_alg».proof.Proof.LibGatherIx
import proofs.«168354_j73564199846375_2_alg».proof.Proof.TriLemmas

noncomputable section

namespace Cert.Tri.Plane8

open Idealize.ShloMosaic Idealize.ShloMosaic.TcCoe Idealize.SL.Sem Idealize.ShloMosaic.StableHlo Idealize.ShloMosaic.ValueIdx
open Idealize.ShloMosaic.LayoutIx Idealize.ShloMosaic.GatherIx

/-- The kernel program's host operations that compute this plane. -/
def kernelOps [Cert.KernelIdeal.Facts] : List (HloOp Cert.KernelIdeal.τ Cert.KernelIdeal.sig (Elt Ideal)) :=
  (List.flatten [Cert.KernelIdeal.Gen.hostOps0_32, Cert.KernelIdeal.Gen.hostOps0_33, Cert.KernelIdeal.Gen.hostOps0_34, Cert.KernelIdeal.Gen.hostOps0_35, Cert.KernelIdeal.Gen.hostOps0_36])

/-- The reference's host operations that compute this plane. -/
def referenceOps [Cert.ReferenceIdeal.Facts] : List (HloOp Cert.ReferenceIdeal.τ Cert.ReferenceIdeal.sig (Elt Ideal)) :=
  (Cert.ReferenceIdeal.Line.ops21 ++ (Cert.ReferenceIdeal.Line.ops22 ++ (Cert.ReferenceIdeal.Line.ops23 ++ (Cert.ReferenceIdeal.Line.ops24))))

/-! The flattening of a coordinate column, with its result's shape written out. -/
theorem K_resh0 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v914 Cert.KernelIdeal.main_v915 rfl hn hx hy).result V (no_index (Proc.devRef .tc Cert.KernelIdeal.main_v915))
      = shapeCast Cert.KernelIdeal.S524288 (V (Proc.devRef .tc Cert.KernelIdeal.main_v914)) hn :=
  reshape_result' (x := Cert.KernelIdeal.main_v914) (y := Cert.KernelIdeal.main_v915) rfl hn hx hy V
theorem K_resh1 [Cert.KernelIdeal.Facts] {F : FTy → Type} [FloatOps F] (hn : Cert.KernelIdeal.S524288x1.ShapeCasts Cert.KernelIdeal.S524288) (hx hy) (V : Valuation Cert.KernelIdeal.τ Cert.KernelIdeal.sig (Elt F)) :
    (StableHlo.reshape Cert.KernelIdeal.main_v916 Cert.KernelIdeal.main_v917 rfl hn hx hy).result V (no_index (Proc.devRef .tc Cert.KernelIdeal.main_v917))
      = shapeCast Cert.KernelIdeal.S524288 (V (Proc.devRef .tc Cert.KernelIdeal.main_v916)) hn :=
  reshape_result' (x := Cert.KernelIdeal.main_v916) (y := Cert.KernelIdeal.main_v917) rfl hn hx hy V
theorem R_resh0 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v1011 Cert.ReferenceIdeal.main_v1012 rfl hn hx hy).result V (no_index (Proc.devRef .tc Cert.ReferenceIdeal.main_v1012))
      = shapeCast Cert.ReferenceIdeal.S524288 (V (Proc.devRef .tc Cert.ReferenceIdeal.main_v1011)) hn :=
  reshape_result' (x := Cert.ReferenceIdeal.main_v1011) (y := Cert.ReferenceIdeal.main_v1012) rfl hn hx hy V
theorem R_resh1 [Cert.ReferenceIdeal.Facts] {F : FTy → Type} [FloatOps F] (hn : Cert.ReferenceIdeal.S524288x1.ShapeCasts Cert.ReferenceIdeal.S524288) (hx hy) (V : Valuation Cert.ReferenceIdeal.τ Cert.ReferenceIdeal.sig (Elt F)) :
    (StableHlo.reshape Cert.ReferenceIdeal.main_v1020 Cert.ReferenceIdeal.main_v1021 rfl hn hx hy).result V (no_index (Proc.devRef .tc Cert.ReferenceIdeal.main_v1021))
      = shapeCast Cert.ReferenceIdeal.S524288 (V (Proc.devRef .tc Cert.ReferenceIdeal.main_v1020)) hn :=
  reshape_result' (x := Cert.ReferenceIdeal.main_v1020) (y := Cert.ReferenceIdeal.main_v1021) rfl hn hx hy V

set_option maxHeartbeats 40000000 in
set_option maxRecDepth 1000000 in
/-- Entry (n, k) of the plane's result is the same in both programs, from contents that agree on the normalized
    points and on the plane's table, the reference's constant index pair being the two coordinate columns' positions. -/
theorem entry_eq [Cert.KernelIdeal.Facts] [Cert.ReferenceIdeal.Facts]
    (WK : Valuation Cert.KernelIdeal.τ Cert.KernelIdeal.sig (Elt Ideal)) (WR : Valuation Cert.ReferenceIdeal.τ Cert.ReferenceIdeal.sig (Elt Ideal))
    (h17 : ∀ i : (⟨2, ![524288, 3]⟩ : Shape).Idx, (WR (Proc.devRef .tc Cert.ReferenceIdeal.main_v17) : (⟨2, ![524288, 3]⟩ : Shape).Idx → EReal) i
      = (WK (Proc.devRef .tc Cert.KernelIdeal.main_v17) : (⟨2, ![524288, 3]⟩ : Shape).Idx → EReal) i)
    (hg : ∀ j : (⟨3, ![32, 512, 512]⟩ : Shape).Idx, (WR (Proc.devRef .tc Cert.ReferenceIdeal.main_arg10) : (⟨3, ![32, 512, 512]⟩ : Shape).Idx → EReal) j
      = (WK (Proc.devRef .tc Cert.KernelIdeal.main_arg10) : (⟨3, ![32, 512, 512]⟩ : Shape).Idx → EReal) j)
    (ht0 : (WR (Proc.devRef .tc Cert.ReferenceIdeal.main_c_7) : Cert.ReferenceIdeal.S2.Idx → BitVec 32) (ix1 (0 : Fin 2)) = 1#32)
    (ht1 : (WR (Proc.devRef .tc Cert.ReferenceIdeal.main_c_7) : Cert.ReferenceIdeal.S2.Idx → BitVec 32) (ix1 (1 : Fin 2)) = 2#32)
    (n : Fin 524288) (k : Fin 32) :
    (StableHlo.after kernelOps WK (Proc.devRef .tc Cert.KernelIdeal.main_v1025) : (⟨2, ![524288, 32]⟩ : Shape).Idx → EReal) (ix2 n k)
      = (StableHlo.after referenceOps WR (Proc.devRef .tc Cert.ReferenceIdeal.main_v1126) : (⟨2, ![524288, 32]⟩ : Shape).Idx → EReal) (ix2 n k) := by
  unfold kernelOps referenceOps
  simp only [Cert.KernelIdeal.Gen.hostOps0_32, Cert.KernelIdeal.Gen.hostOps0_33, Cert.KernelIdeal.Gen.hostOps0_34, Cert.KernelIdeal.Gen.hostOps0_35, Cert.KernelIdeal.Gen.hostOps0_36, Cert.ReferenceIdeal.Line.ops21, Cert.ReferenceIdeal.Line.ops22, Cert.ReferenceIdeal.Line.ops23, Cert.ReferenceIdeal.Line.ops24, List.drop_succ_cons, List.drop_zero, List.flatten_cons, List.flatten_nil, List.append_nil, List.cons_append, List.nil_append]
  simp (disch := decide) only [after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      addf_apply, mulf_apply, subf_apply, maximumf_apply, minimumf_apply, select_apply, sitofp_apply, constant_apply,
      cmpi_apply, addi_apply, minsi_apply, fptosi_apply, hostFloor_apply, constantI_apply, id_eq,
      bcast_scalar, bcast_col, bcast_row, bcast_rows, bcast_cols, transpose_two', transpose_first_last', flatten_col, concat_cols_left, concat_cols_right,
      Cert.Tri.K_gather_128, Cert.Tri.K_gather_256, Cert.Tri.K_gather_512,
      Cert.Tri.R_gather_128, Cert.Tri.R_gather_256, Cert.Tri.R_gather_512, Cert.Tri.R_takeCols,
      Cert.Tri.slice3_0, Cert.Tri.slice3_1, Cert.Tri.slice3_2, Cert.Tri.slice2_0, Cert.Tri.slice2_1,
      K_resh0, K_resh1, R_resh0, R_resh1]
  simp only [ht0, ht1]
  simp only [h17, hg]
  rfl

end Cert.Tri.Plane8

end
-- ==== Proof.Glue8.lean ====
/-
  Plane 8 inside the whole programs: the operations after the plane's own leave its result where it is, and the
  operations before it leave the normalized points, the plane's table and the reference's constant index pair as the
  first operations made them; so the plane's entry-by-entry equality holds of the two whole programs' folds.
-/
import proofs.«168354_j73564199846375_2_alg».proof.Proof.Plane8
import proofs.«168354_j73564199846375_2_alg».proof.Proof.P17
import Idealize.ShloMosaic.Lib.Pipeline.Frame

noncomputable section

namespace Cert.Tri.Glue8

open Idealize.ShloMosaic Idealize.ShloMosaic.TcCoe Idealize.SL.Sem Idealize.ShloMosaic.StableHlo Idealize.ShloMosaic.ValueIdx

variable [Cert.KernelIdeal.Facts] [Cert.ReferenceIdeal.Facts]

/-- The kernel program's contents when the plane's operations begin. -/
def preK (VK : Valuation Cert.KernelIdeal.τ Cert.KernelIdeal.sig (Elt Ideal)) : Valuation Cert.KernelIdeal.τ Cert.KernelIdeal.sig (Elt Ideal) :=
  StableHlo.after Cert.KernelIdeal.Gen.hostOps0_31 (StableHlo.after Cert.KernelIdeal.Gen.hostOps0_30 (StableHlo.after Cert.KernelIdeal.Gen.hostOps0_29 (StableHlo.after Cert.KernelIdeal.Gen.hostOps0_28 (StableHlo.after Cert.KernelIdeal.Gen.hostOps0_27 (StableHlo.after Cert.KernelIdeal.Gen.hostOps0_26 (StableHlo.after Cert.KernelIdeal.Gen.hostOps0_25 (StableHlo.after Cert.KernelIdeal.Gen.hostOps0_24 (StableHlo.after Cert.KernelIdeal.Gen.hostOps0_23 (StableHlo.after Cert.KernelIdeal.Gen.hostOps0_22 (StableHlo.after Cert.KernelIdeal.Gen.hostOps0_21 (StableHlo.after Cert.KernelIdeal.Gen.hostOps0_20 (StableHlo.after Cert.KernelIdeal.Gen.hostOps0_19 (StableHlo.after Cert.KernelIdeal.Gen.hostOps0_18 (StableHlo.after Cert.KernelIdeal.Gen.hostOps0_17 (StableHlo.after Cert.KernelIdeal.Gen.hostOps0_16 (StableHlo.after Cert.KernelIdeal.Gen.hostOps0_15 (StableHlo.after Cert.KernelIdeal.Gen.hostOps0_14 (StableHlo.after Cert.KernelIdeal.Gen.hostOps0_13 (StableHlo.after Cert.KernelIdeal.Gen.hostOps0_12 (StableHlo.after Cert.KernelIdeal.Gen.hostOps0_11 (StableHlo.after Cert.KernelIdeal.Gen.hostOps0_10 (StableHlo.after Cert.KernelIdeal.Gen.hostOps0_9 (StableHlo.after Cert.KernelIdeal.Gen.hostOps0_8 (StableHlo.after Cert.KernelIdeal.Gen.hostOps0_7 (StableHlo.after Cert.KernelIdeal.Gen.hostOps0_6 (StableHlo.after Cert.KernelIdeal.Gen.hostOps0_5 (StableHlo.after Cert.KernelIdeal.Gen.hostOps0_4 (StableHlo.after Cert.KernelIdeal.Gen.hostOps0_3 (StableHlo.after Cert.KernelIdeal.Gen.hostOps0_2 (StableHlo.after Cert.KernelIdeal.Gen.hostOps0_1 (StableHlo.after (Cert.KernelIdeal.Gen.hostOps0.drop 20) (StableHlo.after (Cert.KernelIdeal.Gen.hostOps0.take 20) VK))))))))))))))))))))))))))))))))

/-- The reference's contents when the plane's operations begin. -/
def preR (VR : Valuation Cert.ReferenceIdeal.τ Cert.ReferenceIdeal.sig (Elt Ideal)) : Valuation Cert.ReferenceIdeal.τ Cert.ReferenceIdeal.sig (Elt Ideal) :=
  StableHlo.after Cert.ReferenceIdeal.Line.ops20 (StableHlo.after Cert.ReferenceIdeal.Line.ops19 (StableHlo.after Cert.ReferenceIdeal.Line.ops18 (StableHlo.after Cert.ReferenceIdeal.Line.ops17 (StableHlo.after Cert.ReferenceIdeal.Line.ops16 (StableHlo.after Cert.ReferenceIdeal.Line.ops15 (StableHlo.after Cert.ReferenceIdeal.Line.ops14 (StableHlo.after Cert.ReferenceIdeal.Line.ops13 (StableHlo.after Cert.ReferenceIdeal.Line.ops12 (StableHlo.after Cert.ReferenceIdeal.Line.ops11 (StableHlo.after Cert.ReferenceIdeal.Line.ops10 (StableHlo.after Cert.ReferenceIdeal.Line.ops9 (StableHlo.after Cert.ReferenceIdeal.Line.ops8 (StableHlo.after Cert.ReferenceIdeal.Line.ops7 (StableHlo.after Cert.ReferenceIdeal.Line.ops6 (StableHlo.after Cert.ReferenceIdeal.Line.ops5 (StableHlo.after Cert.ReferenceIdeal.Line.ops4 (StableHlo.after Cert.ReferenceIdeal.Line.ops3 (StableHlo.after Cert.ReferenceIdeal.Line.ops2 (StableHlo.after Cert.ReferenceIdeal.Line.ops1 (StableHlo.after (Cert.ReferenceIdeal.Line.ops0.drop 29) (StableHlo.after (Cert.ReferenceIdeal.Line.ops0.take 29) VR)))))))))))))))))))))

set_option maxRecDepth 1000000 in
set_option maxHeartbeats 4000000 in
theorem keep17K (W : Valuation Cert.KernelIdeal.τ Cert.KernelIdeal.sig (Elt Ideal)) :
    StableHlo.after Cert.KernelIdeal.Gen.hostOps0_31 (StableHlo.after Cert.KernelIdeal.Gen.hostOps0_30 (StableHlo.after Cert.KernelIdeal.Gen.hostOps0_29 (StableHlo.after Cert.KernelIdeal.Gen.hostOps0_28 (StableHlo.after Cert.KernelIdeal.Gen.hostOps0_27 (StableHlo.after Cert.KernelIdeal.Gen.hostOps0_26 (StableHlo.after Cert.KernelIdeal.Gen.hostOps0_25 (StableHlo.after Cert.KernelIdeal.Gen.hostOps0_24 (StableHlo.after Cert.KernelIdeal.Gen.hostOps0_23 (StableHlo.after Cert.KernelIdeal.Gen.hostOps0_22 (StableHlo.after Cert.KernelIdeal.Gen.hostOps0_21 (StableHlo.after Cert.KernelIdeal.Gen.hostOps0_20 (StableHlo.after Cert.KernelIdeal.Gen.hostOps0_19 (StableHlo.after Cert.KernelIdeal.Gen.hostOps0_18 (StableHlo.after Cert.KernelIdeal.Gen.hostOps0_17 (StableHlo.after Cert.KernelIdeal.Gen.hostOps0_16 (StableHlo.after Cert.KernelIdeal.Gen.hostOps0_15 (StableHlo.after Cert.KernelIdeal.Gen.hostOps0_14 (StableHlo.after Cert.KernelIdeal.Gen.hostOps0_13 (StableHlo.after Cert.KernelIdeal.Gen.hostOps0_12 (StableHlo.after Cert.KernelIdeal.Gen.hostOps0_11 (StableHlo.after Cert.KernelIdeal.Gen.hostOps0_10 (StableHlo.after Cert.KernelIdeal.Gen.hostOps0_9 (StableHlo.after Cert.KernelIdeal.Gen.hostOps0_8 (StableHlo.after Cert.KernelIdeal.Gen.hostOps0_7 (StableHlo.after Cert.KernelIdeal.Gen.hostOps0_6 (StableHlo.after Cert.KernelIdeal.Gen.hostOps0_5 (StableHlo.after Cert.KernelIdeal.Gen.hostOps0_4 (StableHlo.after Cert.KernelIdeal.Gen.hostOps0_3 (StableHlo.after Cert.KernelIdeal.Gen.hostOps0_2 (StableHlo.after Cert.KernelIdeal.Gen.hostOps0_1 (StableHlo.after (Cert.KernelIdeal.Gen.hostOps0.drop 20) (W)))))))))))))))))))))))))))))))) (Proc.devRef .tc Cert.KernelIdeal.main_v17) = W (Proc.devRef .tc Cert.KernelIdeal.main_v17) := rfl

set_option maxRecDepth 1000000 in
set_option maxHeartbeats 4000000 in
theorem keep17R (W : Valuation Cert.ReferenceIdeal.τ Cert.ReferenceIdeal.sig (Elt Ideal)) :
    StableHlo.after Cert.ReferenceIdeal.Line.ops20 (StableHlo.after Cert.ReferenceIdeal.Line.ops19 (StableHlo.after Cert.ReferenceIdeal.Line.ops18 (StableHlo.after Cert.ReferenceIdeal.Line.ops17 (StableHlo.after Cert.ReferenceIdeal.Line.ops16 (StableHlo.after Cert.ReferenceIdeal.Line.ops15 (StableHlo.after Cert.ReferenceIdeal.Line.ops14 (StableHlo.after Cert.ReferenceIdeal.Line.ops13 (StableHlo.after Cert.ReferenceIdeal.Line.ops12 (StableHlo.after Cert.ReferenceIdeal.Line.ops11 (StableHlo.after Cert.ReferenceIdeal.Line.ops10 (StableHlo.after Cert.ReferenceIdeal.Line.ops9 (StableHlo.after Cert.ReferenceIdeal.Line.ops8 (StableHlo.after Cert.ReferenceIdeal.Line.ops7 (StableHlo.after Cert.ReferenceIdeal.Line.ops6 (StableHlo.after Cert.ReferenceIdeal.Line.ops5 (StableHlo.after Cert.ReferenceIdeal.Line.ops4 (StableHlo.after Cert.ReferenceIdeal.Line.ops3 (StableHlo.after Cert.ReferenceIdeal.Line.ops2 (StableHlo.after Cert.ReferenceIdeal.Line.ops1 (StableHlo.after (Cert.ReferenceIdeal.Line.ops0.drop 29) (W))))))))))))))))))))) (Proc.devRef .tc Cert.ReferenceIdeal.main_v17) = W (Proc.devRef .tc Cert.ReferenceIdeal.main_v17) := rfl

set_option maxRecDepth 1000000 in
set_option maxHeartbeats 4000000 in
theorem preArgK (VK : Valuation Cert.KernelIdeal.τ Cert.KernelIdeal.sig (Elt Ideal)) :
    preK VK (Proc.devRef .tc Cert.KernelIdeal.main_arg10) = VK (Proc.devRef .tc Cert.KernelIdeal.main_arg10) := rfl

set_option maxRecDepth 1000000 in
set_option maxHeartbeats 4000000 in
theorem preArgR (VR : Valuation Cert.ReferenceIdeal.τ Cert.ReferenceIdeal.sig (Elt Ideal)) :
    preR VR (Proc.devRef .tc Cert.ReferenceIdeal.main_arg10) = VR (Proc.devRef .tc Cert.ReferenceIdeal.main_arg10) := rfl

set_option maxRecDepth 1000000 in
set_option maxHeartbeats 4000000 in
theorem preTab0 (VR : Valuation Cert.ReferenceIdeal.τ Cert.ReferenceIdeal.sig (Elt Ideal)) :
    (preR VR (Proc.devRef .tc Cert.ReferenceIdeal.main_c_7) : Cert.ReferenceIdeal.S2.Idx → BitVec 32) (ix1 (0 : Fin 2)) = 1#32 := rfl

set_option maxRecDepth 1000000 in
set_option maxHeartbeats 4000000 in
theorem preTab1 (VR : Valuation Cert.ReferenceIdeal.τ Cert.ReferenceIdeal.sig (Elt Ideal)) :
    (preR VR (Proc.devRef .tc Cert.ReferenceIdeal.main_c_7) : Cert.ReferenceIdeal.S2.Idx → BitVec 32) (ix1 (1 : Fin 2)) = 2#32 := rfl

theorem splitK0 (VK : Valuation Cert.KernelIdeal.τ Cert.KernelIdeal.sig (Elt Ideal)) :
    StableHlo.after Cert.KernelIdeal.Gen.hostOps0 VK = StableHlo.after (Cert.KernelIdeal.Gen.hostOps0.drop 20) (StableHlo.after (Cert.KernelIdeal.Gen.hostOps0.take 20) VK) := by
  rw [← StableHlo.after_append, List.take_append_drop]

theorem splitR0 (VR : Valuation Cert.ReferenceIdeal.τ Cert.ReferenceIdeal.sig (Elt Ideal)) :
    StableHlo.after Cert.ReferenceIdeal.Line.ops0 VR = StableHlo.after (Cert.ReferenceIdeal.Line.ops0.drop 29) (StableHlo.after (Cert.ReferenceIdeal.Line.ops0.take 29) VR) := by
  rw [← StableHlo.after_append, List.take_append_drop]

set_option maxHeartbeats 4000000 in
theorem splitK (VK : Valuation Cert.KernelIdeal.τ Cert.KernelIdeal.sig (Elt Ideal)) :
    StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v1025)
      = StableHlo.after Plane8.kernelOps (preK VK) (Proc.devRef .tc Cert.KernelIdeal.main_v1025) := by
  have e : StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK = StableHlo.after Plane8.kernelOps (preK VK) := by
    unfold Plane8.kernelOps preK
    simp only [List.flatten_cons, List.flatten_nil, List.append_nil, StableHlo.after_append, splitK0]
  rw [e]

set_option maxHeartbeats 4000000 in
theorem splitR (VR : Valuation Cert.ReferenceIdeal.τ Cert.ReferenceIdeal.sig (Elt Ideal)) :
    StableHlo.after Cert.ReferenceIdeal.Line.ops VR (Proc.devRef .tc Cert.ReferenceIdeal.main_v1126)
      = StableHlo.after Plane8.referenceOps (preR VR) (Proc.devRef .tc Cert.ReferenceIdeal.main_v1126) := by
  have e : StableHlo.after Cert.ReferenceIdeal.Line.ops VR = StableHlo.after Plane8.referenceOps (preR VR) := by
    unfold Cert.ReferenceIdeal.Line.ops Plane8.referenceOps preR
    simp only [StableHlo.after_append, splitR0]
  rw [e]

theorem pre17K (VK : Valuation Cert.KernelIdeal.τ Cert.KernelIdeal.sig (Elt Ideal)) :
    preK VK (Proc.devRef .tc Cert.KernelIdeal.main_v17) = StableHlo.after (Cert.KernelIdeal.Gen.hostOps0.take 20) VK (Proc.devRef .tc Cert.KernelIdeal.main_v17) :=
  keep17K _

theorem pre17R (VR : Valuation Cert.ReferenceIdeal.τ Cert.ReferenceIdeal.sig (Elt Ideal)) :
    preR VR (Proc.devRef .tc Cert.ReferenceIdeal.main_v17) = StableHlo.after (Cert.ReferenceIdeal.Line.ops0.take 29) VR (Proc.devRef .tc Cert.ReferenceIdeal.main_v17) :=
  keep17R _

/-- Entry (n, k) of plane 8's result in the two whole programs, from launch contents that agree on the points, the
    box and the plane's table. -/
theorem entry_eq (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg10) = VK (Proc.devRef .tc Cert.KernelIdeal.main_arg10))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc Cert.KernelIdeal.main_v1025) : (⟨2, ![524288, 32]⟩ : Shape).Idx → EReal) (ix2 n k)
      = (StableHlo.after Cert.ReferenceIdeal.Line.ops VR (Proc.devRef .tc Cert.ReferenceIdeal.main_v1126) : (⟨2, ![524288, 32]⟩ : Shape).Idx → EReal) (ix2 n k) := by
  rw [splitK VK, splitR VR]
  exact Plane8.entry_eq (preK VK) (preR VR)
    (fun i => congrFun ((pre17R VR).trans ((p17_eq VK VR ha0 ha1).trans (pre17K VK).symm)) i)
    (fun j => congrFun ((preArgR VR).trans (hg.trans (preArgK VK).symm)) j)
    (preTab0 VR) (preTab1 VR) n k

/-- The launch's input window 8 is the plane's result buffer. -/
theorem bridge (W : Valuation Cert.KernelIdeal.τ Cert.KernelIdeal.sig (Elt Ideal)) :
    (W (Proc.devRef .tc (Pipeline.arrRef Cert.KernelIdeal.spec0 (8 : Fin 10))) : (⟨2, ![524288, 32]⟩ : Shape).Idx → EReal)
      = W (Proc.devRef .tc Cert.KernelIdeal.main_v1025) := rfl

/-- The same entry-by-entry equality, the kernel program's side read at the launch's input window 8. -/
theorem entry_eq_win (VK : Valuation Cert.KernelIdeal.τ Cert.KernelIdeal.sig (Elt Ideal)) (VR : Valuation Cert.ReferenceIdeal.τ Cert.ReferenceIdeal.sig (Elt Ideal))
    (ha0 : VR (Proc.devRef .tc Cert.ReferenceIdeal.main_arg0) = VK (Proc.devRef .tc Cert.KernelIdeal.main_arg0))
    (ha1 : VR (Proc.devRef .tc Cert.ReferenceIdeal.main_arg1) = VK (Proc.devRef .tc Cert.KernelIdeal.main_arg1))
    (hg : VR (Proc.devRef .tc Cert.ReferenceIdeal.main_arg10) = VK (Proc.devRef .tc Cert.KernelIdeal.main_arg10))
    (n : Fin 524288) (k : Fin 32) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK (Proc.devRef .tc (Pipeline.arrRef Cert.KernelIdeal.spec0 (8 : Fin 10))) : (⟨2, ![524288, 32]⟩ : Shape).Idx → EReal) (ix2 n k)
      = (StableHlo.after Cert.ReferenceIdeal.Line.ops VR (Proc.devRef .tc Cert.ReferenceIdeal.main_v1126) : (⟨2, ![524288, 32]⟩ : Shape).Idx → EReal) (ix2 n k) :=
  (congrFun (bridge (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36]) VK)) (ix2 n k)).trans (entry_eq VK VR ha0 ha1 hg n k)

end Cert.Tri.Glue8

end
-- ==== Proof.lean ====
/-
  The certificate: both programs compute, for each of nine feature planes, the bilinear look-up of every point in the
  plane's grid, and set the nine results side by side.  The kernel program computes each plane on the host with the
  channels last and its one launch copies the nine [524288, 32] arrays into the [524288, 288] result; the reference
  computes each plane with the channels first, transposes it and joins the nine by concatenation.  The arithmetic on
  each entry is the same operation by operation, so the two results agree entry by entry as extended reals, for every
  launch contents (the precondition is not used).
  The three frames: the kernel program's two are the launch-side certificates (copies of the generated frame modules
  whose eleven "no host operation writes this argument" facts are closed by evaluating the fold); the reference has no
  launch, and its frame is its straight-line run with the result dropped.  The idealization rewrote nothing.
-/
import proofs.«168354_j73564199846375_2_alg».proof.Defs
import proofs.«168354_j73564199846375_2_alg».proof.Proof.Gen.Kernel
import proofs.«168354_j73564199846375_2_alg».proof.Proof.Gen.KernelIdeal
import proofs.«168354_j73564199846375_2_alg».proof.Proof.Gen.ReferenceIdeal
import proofs.«168354_j73564199846375_2_alg».proof.Proof.Gen.Pre_finite_inputs
import proofs.«168354_j73564199846375_2_alg».proof.Proof.KernelFrameP
import proofs.«168354_j73564199846375_2_alg».proof.Proof.KernelIdealFrameP
import proofs.«168354_j73564199846375_2_alg».proof.Proof.KernelBands
import proofs.«168354_j73564199846375_2_alg».proof.Proof.RefRun
import proofs.«168354_j73564199846375_2_alg».proof.Proof.RefFrame
import proofs.«168354_j73564199846375_2_alg».proof.Proof.RefBands
import proofs.«168354_j73564199846375_2_alg».proof.Proof.Glue0
import proofs.«168354_j73564199846375_2_alg».proof.Proof.Glue1
import proofs.«168354_j73564199846375_2_alg».proof.Proof.Glue2
import proofs.«168354_j73564199846375_2_alg».proof.Proof.Glue3
import proofs.«168354_j73564199846375_2_alg».proof.Proof.Glue4
import proofs.«168354_j73564199846375_2_alg».proof.Proof.Glue5
import proofs.«168354_j73564199846375_2_alg».proof.Proof.Glue6
import proofs.«168354_j73564199846375_2_alg».proof.Proof.Glue7
import proofs.«168354_j73564199846375_2_alg».proof.Proof.Glue8
import Idealize.ShloMosaic.Adequacy
import Idealize.ShloMosaic.Init

noncomputable section

namespace Cert.Proof

open Idealize.ShloMosaic Idealize.SL.Sem Idealize.ShloMosaic.StableHlo Idealize.ShloMosaic.ValueIdx Idealize.ShloMosaic.Bands

theorem frame_p : Cert.frame_Kernel := fun m ρ _ => Cert.Kernel.GenP.frame m ρ
theorem frame_pi : Cert.frame_KernelIdeal := fun m ρ _ => Cert.KernelIdeal.GenP.frame m ρ
theorem frame_ri : Cert.frame_ReferenceIdeal := fun m ρ _ => Cert.ReferenceIdeal.Line.frame (F := Ideal) m ρ

/-- The idealization rewrote no operation. -/
theorem preserves : Cert.preserves_Kernel_KernelIdeal := trivial

set_option maxHeartbeats 4000000 in
/-- Both idealized programs end with the nine planes side by side, and plane by plane, entry by entry, the two agree. -/
theorem algebraic : Cert.algebraic_KernelIdeal_ReferenceIdeal := by
  intro m ρ m' ρ' _ hagree
  refine ⟨fun c => Cert.KernelIdeal.Concat.bands (F := Ideal) m c, Cert.KernelIdeal.Concat.run (F := Ideal) m ρ, ?_⟩
  refine (θ_run Cert.ReferenceIdeal.defs _ _).mono (fun r h c => ⟨(h c Cert.ReferenceIdeal.main_v1128).trans ?_,
      (h c Cert.ReferenceIdeal.main_arg0).trans (Cert.ReferenceIdeal.Line.keep_arg0 _),
      (h c Cert.ReferenceIdeal.main_arg1).trans (Cert.ReferenceIdeal.Line.keep_arg1 _),
      (h c Cert.ReferenceIdeal.main_arg2).trans (Cert.ReferenceIdeal.Line.keep_arg2 _),
      (h c Cert.ReferenceIdeal.main_arg3).trans (Cert.ReferenceIdeal.Line.keep_arg3 _),
      (h c Cert.ReferenceIdeal.main_arg4).trans (Cert.ReferenceIdeal.Line.keep_arg4 _),
      (h c Cert.ReferenceIdeal.main_arg5).trans (Cert.ReferenceIdeal.Line.keep_arg5 _),
      (h c Cert.ReferenceIdeal.main_arg6).trans (Cert.ReferenceIdeal.Line.keep_arg6 _),
      (h c Cert.ReferenceIdeal.main_arg7).trans (Cert.ReferenceIdeal.Line.keep_arg7 _),
      (h c Cert.ReferenceIdeal.main_arg8).trans (Cert.ReferenceIdeal.Line.keep_arg8 _),
      (h c Cert.ReferenceIdeal.main_arg9).trans (Cert.ReferenceIdeal.Line.keep_arg9 _),
      (h c Cert.ReferenceIdeal.main_arg10).trans (Cert.ReferenceIdeal.Line.keep_arg10 _)⟩)
    (Cert.ReferenceIdeal.Line.run (F := Ideal) m' ρ')
  obtain ⟨h0, h1, h2, h3, h4, h5, h6, h7, h8, h9, h10⟩ := hagree c
  refine (Cert.ReferenceIdeal.Bands.result_bands (F := Ideal) _).trans ?_
  unfold Cert.KernelIdeal.Concat.bands
  refine (sideBySide_congr _ _ _ _ _ _ _ _ _ _ _ _ _ _ _ _ _ _
    (fun n k => Cert.Tri.Glue0.entry_eq_win (fun b => m (c, b)) (launchContents m' c) h0 h1 h2 n k)
    (fun n k => Cert.Tri.Glue1.entry_eq_win (fun b => m (c, b)) (launchContents m' c) h0 h1 h3 n k)
    (fun n k => Cert.Tri.Glue2.entry_eq_win (fun b => m (c, b)) (launchContents m' c) h0 h1 h4 n k)
    (fun n k => Cert.Tri.Glue3.entry_eq_win (fun b => m (c, b)) (launchContents m' c) h0 h1 h5 n k)
    (fun n k => Cert.Tri.Glue4.entry_eq_win (fun b => m (c, b)) (launchContents m' c) h0 h1 h6 n k)
    (fun n k => Cert.Tri.Glue5.entry_eq_win (fun b => m (c, b)) (launchContents m' c) h0 h1 h7 n k)
    (fun n k => Cert.Tri.Glue6.entry_eq_win (fun b => m (c, b)) (launchContents m' c) h0 h1 h8 n k)
    (fun n k => Cert.Tri.Glue7.entry_eq_win (fun b => m (c, b)) (launchContents m' c) h0 h1 h9 n k)
    (fun n k => Cert.Tri.Glue8.entry_eq_win (fun b => m (c, b)) (launchContents m' c) h0 h1 h10 n k)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
